-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_26" .f32 0x3D1D89D9#32 ((1 / 26 : ℝ) : EReal)
  ∧ IdealRules.named_const.Statement Cert.KernelIdeal.κ "inv_26" .f32 0x3D1D89D9#32 ((1 / 26 : ℝ) : EReal)
  ∧ IdealRules.named_const.Statement Cert.KernelIdeal.κ "inv_26" .f32 0x3D1D89D9#32 ((1 / 26 : ℝ) : EReal)
  ∧ IdealRules.named_const.Statement Cert.KernelIdeal.κ "inv_26" .f32 0x3D1D89D9#32 ((1 / 26 : ℝ) : EReal)
  ∧ IdealRules.named_const.Statement Cert.KernelIdeal.κ "inv_26" .f32 0x3D1D89D9#32 ((1 / 26 : ℝ) : EReal)
  ∧ IdealRules.named_const.Statement Cert.KernelIdeal.κ "inv_26" .f32 0x3D1D89D9#32 ((1 / 26 : ℝ) : EReal)
  ∧ IdealRules.named_const.Statement Cert.KernelIdeal.κ "inv_26" .f32 0x3D1D89D9#32 ((1 / 26 : ℝ) : EReal)
  ∧ IdealRules.named_const.Statement Cert.KernelIdeal.κ "inv_26" .f32 0x3D1D89D9#32 ((1 / 26 : ℝ) : EReal)
  ∧ IdealRules.named_const.Statement Cert.KernelIdeal.κ "inv_26" .f32 0x3D1D89D9#32 ((1 / 26 : ℝ) : EReal)
  ∧ IdealRules.named_const.Statement Cert.KernelIdeal.κ "inv_26" .f32 0x3D1D89D9#32 ((1 / 26 : ℝ) : EReal)
  ∧ IdealRules.named_const.Statement Cert.KernelIdeal.κ "inv_26" .f32 0x3D1D89D9#32 ((1 / 26 : ℝ) : EReal)
  ∧ IdealRules.named_const.Statement Cert.KernelIdeal.κ "inv_26" .f32 0x3D1D89D9#32 ((1 / 26 : ℝ) : EReal)
  ∧ IdealRules.named_const.Statement Cert.KernelIdeal.κ "inv_26" .f32 0x3D1D89D9#32 ((1 / 26 : ℝ) : EReal)
  ∧ IdealRules.named_const.Statement Cert.KernelIdeal.κ "inv_26" .f32 0x3D1D89D9#32 ((1 / 26 : ℝ) : EReal)
  ∧ IdealRules.named_const.Statement Cert.KernelIdeal.κ "inv_26" .f32 0x3D1D89D9#32 ((1 / 26 : ℝ) : EReal)
  ∧ IdealRules.named_const.Statement Cert.KernelIdeal.κ "inv_26" .f32 0x3D1D89D9#32 ((1 / 26 : ℝ) : EReal)
  ∧ IdealRules.named_const.Statement Cert.KernelIdeal.κ "inv_26" .f32 0x3D1D89D9#32 ((1 / 26 : ℝ) : EReal)
  ∧ IdealRules.named_const.Statement Cert.KernelIdeal.κ "inv_26" .f32 0x3D1D89D9#32 ((1 / 26 : ℝ) : EReal)
  ∧ IdealRules.named_const.Statement Cert.KernelIdeal.κ "inv_26" .f32 0x3D1D89D9#32 ((1 / 26 : ℝ) : EReal)
  ∧ IdealRules.named_const.Statement Cert.KernelIdeal.κ "inv_26" .f32 0x3D1D89D9#32 ((1 / 26 : ℝ) : EReal)
  ∧ IdealRules.named_const.Statement Cert.KernelIdeal.κ "inv_26" .f32 0x3D1D89D9#32 ((1 / 26 : ℝ) : EReal)
  ∧ IdealRules.named_const.Statement Cert.KernelIdeal.κ "inv_26" .f32 0x3D1D89D9#32 ((1 / 26 : ℝ) : EReal)
  ∧ IdealRules.named_const.Statement Cert.KernelIdeal.κ "inv_26" .f32 0x3D1D89D9#32 ((1 / 26 : ℝ) : EReal)
  ∧ IdealRules.named_const.Statement Cert.KernelIdeal.κ "inv_26" .f32 0x3D1D89D9#32 ((1 / 26 : ℝ) : EReal)
  ∧ IdealRules.named_const.Statement Cert.KernelIdeal.κ "inv_26" .f32 0x3D1D89D9#32 ((1 / 26 : ℝ) : EReal)
  ∧ IdealRules.named_const.Statement Cert.KernelIdeal.κ "inv_26" .f32 0x3D1D89D9#32 ((1 / 26 : ℝ) : EReal)
  ∧ IdealRules.named_const.Statement Cert.KernelIdeal.κ "inv_26" .f32 0x3D1D89D9#32 ((1 / 26 : ℝ) : EReal)
  ∧ IdealRules.named_const.Statement Cert.KernelIdeal.κ "inv_26" .f32 0x3D1D89D9#32 ((1 / 26 : ℝ) : EReal)
  ∧ IdealRules.named_const.Statement Cert.KernelIdeal.κ "inv_26" .f32 0x3D1D89D9#32 ((1 / 26 : ℝ) : EReal)
  ∧ IdealRules.named_const.Statement Cert.KernelIdeal.κ "inv_26" .f32 0x3D1D89D9#32 ((1 / 26 : ℝ) : EReal)
  ∧ IdealRules.named_const.Statement Cert.KernelIdeal.κ "inv_26" .f32 0x3D1D89D9#32 ((1 / 26 : ℝ) : EReal)
  ∧ IdealRules.named_const.Statement Cert.KernelIdeal.κ "inv_26" .f32 0x3D1D89D9#32 ((1 / 26 : ℝ) : EReal)

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x26 : Shape := ⟨2, ![4096, 26]⟩
abbrev S2600000x128 : Shape := ⟨2, ![2600000, 128]⟩
abbrev S_ : Shape := ⟨0, ![]⟩

class Facts : Prop where
  bcast_S_S2600000x128 : S_.BroadcastsInDim S2600000x128 (![] : Fin 0 → Fin S2600000x128.rank)
  reducesTo_S2600000x128_S_d0_1 : S2600000x128.ReducesTo [0, 1] S_
  h_S_ : 0 < S_.numel
  bcast_S_S4096x26 : S_.BroadcastsInDim S4096x26 (![] : Fin 0 → Fin S4096x26.rank)
  reducesTo_S4096x26_S_d0_1 : S4096x26.ReducesTo [0, 1] S_

variable [Facts]

def fn {F : FTy → Type} [FloatOps F] (main_arg0 : IVec S4096x26 32) (main_arg1 : FVec F S2600000x128 .f32) : IVec S_ 1 :=
  let main_v0 : FVec F S2600000x128 .f32 := Host.absf main_arg1
  let main_cst : FVec F S_ .f32 := constant S_ .f32 0x7F800000#32
  let main_v1 : FVec F S2600000x128 .f32 := broadcastInDim S2600000x128 ![] bcast_S_S2600000x128 main_cst
  let main_v2 : IVec S2600000x128 1 := cmpf .olt main_v0 main_v1
  let main_c : IVec S_ 1 := constantI S_ 1 1#1
  let main_v3 : IVec S_ 1 := (fun x v => Host.reduce IntOp.andi x v reducesTo_S2600000x128_S_d0_1 h_S_) main_v2 main_c
  let main_c_0 : IVec S_ 32 := constantI S_ 32 0#32
  let main_v4 : IVec S4096x26 32 := broadcastInDim S4096x26 ![] bcast_S_S4096x26 main_c_0
  let main_v5 : IVec S4096x26 1 := cmpi .sge main_arg0 main_v4
  let main_c_1 : IVec S_ 32 := constantI S_ 32 99999#32
  let main_v6 : IVec S4096x26 32 := broadcastInDim S4096x26 ![] bcast_S_S4096x26 main_c_1
  let main_v7 : IVec S4096x26 1 := cmpi .sle main_arg0 main_v6
  let main_v8 : IVec S4096x26 1 := andi main_v5 main_v7
  let main_c_2 : IVec S_ 1 := constantI S_ 1 1#1
  let main_v9 : IVec S_ 1 := (fun x v => Host.reduce IntOp.andi x v reducesTo_S4096x26_S_d0_1 h_S_) main_v8 main_c_2
  let main_v10 : IVec S_ 1 := andi main_v3 main_v9
  main_v10
-- ==== Kernel.lean ====
abbrev S4096x26 : Shape := ⟨2, ![4096, 26]⟩
abbrev S2600000x128 : Shape := ⟨2, ![2600000, 128]⟩
abbrev S106496 : Shape := ⟨1, ![106496]⟩
abbrev S4096x128 : Shape := ⟨2, ![4096, 128]⟩
abbrev S3328 : Shape := ⟨1, ![3328]⟩
abbrev S4x104x128 : Shape := ⟨3, ![4, 104, 128]⟩
abbrev S128x128 : Shape := ⟨2, ![128, 128]⟩
abbrev S_ : Shape := ⟨0, ![]⟩
abbrev S16 : Shape := ⟨1, ![16]⟩
abbrev S1x104x128 : Shape := ⟨3, ![1, 104, 128]⟩
abbrev S104x128 : Shape := ⟨2, ![104, 128]⟩
abbrev S104 : Shape := ⟨1, ![104]⟩
abbrev S1x1x16 : Shape := ⟨3, ![1, 1, 16]⟩
abbrev S1x16 : Shape := ⟨2, ![1, 16]⟩
abbrev S64x128 : Shape := ⟨2, ![64, 128]⟩

abbrev nBuf : Table → Nat
  | .hbm => 4
  | .local .scVector .vmem => 3
  | _ => 0

abbrev bufTy : (tb : Table) → Fin (nBuf tb) → BufTy
  | .hbm, ⟨0, _⟩ => ⟨S4096x26, .i32⟩
  | .hbm, ⟨1, _⟩ => ⟨S2600000x128, .f32⟩
  | .hbm, ⟨2, _⟩ => ⟨S106496, .i32⟩
  | .hbm, ⟨3, _⟩ => ⟨S4096x128, .f32⟩
  | .local .scVector .vmem, ⟨0, _⟩ => ⟨S3328, .i32⟩
  | .local .scVector .vmem, ⟨1, _⟩ => ⟨S4x104x128, .f32⟩
  | .local .scVector .vmem, ⟨2, _⟩ => ⟨S128x128, .f32⟩
  | _, _ => ⟨S4096x26, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => false
  | ⟨4, _⟩ => false
  | ⟨5, _⟩ => false
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3328_i32 : BitVec 32 := 3328#32
  let v2 : BitVec 32 := Scalar.muli v1 c3328_i32
  ![v2.toNat]
@[reducible] def k0_t1_loop : Scf.Loop 32 :=
  let c0_i32_0 : BitVec 32 := 0#32
  let c7_i32 : BitVec 32 := 7#32
  let v3 : BitVec 32 := Scalar.addi c0_i32_0 c7_i32
  let c1_i32 : BitVec 32 := 1#32
  ⟨c0_i32_0, v3, c1_i32⟩
def k0_off2 (k0_t1 : Fin k0_t1_loop.trips) : Fin 1 → Nat :=
  let c0_i32_0 : BitVec 32 := 0#32
  let c1_i32 : BitVec 32 := 1#32
  let arg13 : BitVec 32 := Scf.iv c0_i32_0 c1_i32 k0_t1
  let c16_i32 : BitVec 32 := 16#32
  let v28 : BitVec 32 := Scalar.muli arg13 c16_i32
  let v34 : Index := Scalar.indexCast v28
  ![v34.toNat]
@[reducible] def k0_t2_loop : Scf.Loop 32 :=
  let c7_i32_9 : BitVec 32 := 7#32
  let c201_i32 : BitVec 32 := 201#32
  let v9 : BitVec 32 := Scalar.addi c7_i32_9 c201_i32
  let c1_i32_10 : BitVec 32 := 1#32
  ⟨c7_i32_9, v9, c1_i32_10⟩
def k0_off3 (k0_t2 : Fin k0_t2_loop.trips) : Fin 1 → Nat :=
  let c7_i32_9 : BitVec 32 := 7#32
  let c1_i32_10 : BitVec 32 := 1#32
  let arg13 : BitVec 32 := Scf.iv c7_i32_9 c1_i32_10 k0_t2
  let c16_i32 : BitVec 32 := 16#32
  let v28 : BitVec 32 := Scalar.muli arg13 c16_i32
  let v34 : Index := Scalar.indexCast v28
  ![v34.toNat]
@[reducible] def k0_t3_loop : Scf.Loop 32 :=
  let c0_i32_23 : BitVec 32 := 0#32
  let c8_i32 : BitVec 32 := 8#32
  let v19 : BitVec 32 := Scalar.addi c0_i32_23 c8_i32
  let c1_i32_24 : BitVec 32 := 1#32
  ⟨c0_i32_23, v19, c1_i32_24⟩
def k0_cond1 (k0_t3 : Fin k0_t3_loop.trips) : BitVec 1 :=
  let c4_i32 : BitVec 32 := 4#32
  let c0_i32_23 : BitVec 32 := 0#32
  let c1_i32_24 : BitVec 32 := 1#32
  let arg13 : BitVec 32 := Scf.iv c0_i32_23 c1_i32_24 k0_t3
  let v28 : BitVec 32 := Scalar.muli c4_i32 arg13
  let c0_i32_33 : BitVec 32 := 0#32
  let v29 : BitVec 32 := Scalar.addi v28 c0_i32_33
  let c4_i32_34 : BitVec 32 := 4#32
  let v30 : BitVec 32 := Scalar.addi v29 c4_i32_34
  let c1_i32_35 : BitVec 32 := 1#32
  let v31 : BitVec 32 := Scalar.subi v30 c1_i32_35
  let c32_i32 : BitVec 32 := 32#32
  let v32 : BitVec 1 := Scalar.cmpi .slt v31 c32_i32
  let v33 : BitVec 32 := Scalar.extui v32
  let c0_i32_36 : BitVec 32 := 0#32
  let v34 : BitVec 1 := Scalar.cmpi .ne v33 c0_i32_36
  v34

def k0_off4 (k0_t3 : Fin k0_t3_loop.trips) : Fin 1 → Nat :=
  let c4_i32 : BitVec 32 := 4#32
  let c0_i32_23 : BitVec 32 := 0#32
  let c1_i32_24 : BitVec 32 := 1#32
  let arg13 : BitVec 32 := Scf.iv c0_i32_23 c1_i32_24 k0_t3
  let v28 : BitVec 32 := Scalar.muli c4_i32 arg13
  let c0_i32_33 : BitVec 32 := 0#32
  let v29 : BitVec 32 := Scalar.addi v28 c0_i32_33
  let c4_i32_103 : BitVec 32 := 4#32
  let v93 : BitVec 32 := Scalar.addi v29 c4_i32_103
  let c1_i32_104 : BitVec 32 := 1#32
  let v94 : BitVec 32 := Scalar.subi v93 c1_i32_104
  let c104_i32_105 : BitVec 32 := 104#32
  let v95 : BitVec 32 := Scalar.muli v94 c104_i32_105
  ![v95.toNat]
def k0_off5 (k0_t3 : Fin k0_t3_loop.trips) (c0_i32_33 : BitVec 32) : Fin 1 → Nat :=
  let c4_i32 : BitVec 32 := 4#32
  let c0_i32_23 : BitVec 32 := 0#32
  let c1_i32_24 : BitVec 32 := 1#32
  let arg13 : BitVec 32 := Scf.iv c0_i32_23 c1_i32_24 k0_t3
  let v28 : BitVec 32 := Scalar.muli c4_i32 arg13
  let v29 : BitVec 32 := Scalar.addi v28 c0_i32_33
  let c104_i32_37 : BitVec 32 := 104#32
  let v35 : BitVec 32 := Scalar.muli v29 c104_i32_37
  ![v35.toNat]
@[reducible] def k0_t4_loop : Scf.Loop 32 :=
  let c0_i32_44 : BitVec 32 := 0#32
  let c4_i32_45 : BitVec 32 := 4#32
  let v40 : BitVec 32 := Scalar.addi c0_i32_44 c4_i32_45
  let c1_i32_46 : BitVec 32 := 1#32
  ⟨c0_i32_44, v40, c1_i32_46⟩
def k0_off6 (k0_t4 : Fin k0_t4_loop.trips) : Fin 3 → Nat :=
  let c0_i32_103 : BitVec 32 := 0#32
  let v94 : Index := Scalar.indexCast c0_i32_103
  let c0_i32_44 : BitVec 32 := 0#32
  let c1_i32_46 : BitVec 32 := 1#32
  let arg15 : BitVec 32 := Scf.iv c0_i32_44 c1_i32_46 k0_t4
  let c26_i32 : BitVec 32 := 26#32
  let v93 : BitVec 32 := Scalar.muli arg15 c26_i32
  let v95 : Index := Scalar.indexCast v93
  let c0 : Index := 0#32
  ![0, v95.toNat, 0]
def k0_off7 (k0_t4 : Fin k0_t4_loop.trips) : Fin 3 → Nat :=
  let c0_i32_104 : BitVec 32 := 0#32
  let v98 : Index := Scalar.indexCast c0_i32_104
  let c0_i32_44 : BitVec 32 := 0#32
  let c1_i32_46 : BitVec 32 := 1#32
  let arg15 : BitVec 32 := Scf.iv c0_i32_44 c1_i32_46 k0_t4
  let c26_i32 : BitVec 32 := 26#32
  let v93 : BitVec 32 := Scalar.muli arg15 c26_i32
  let v99 : Index := Scalar.indexCast v93
  let c16 : Index := 16#32
  ![0, v99.toNat, 16]
def k0_off8 (k0_t4 : Fin k0_t4_loop.trips) : Fin 3 → Nat :=
  let c0_i32_105 : BitVec 32 := 0#32
  let v102 : Index := Scalar.indexCast c0_i32_105
  let c0_i32_44 : BitVec 32 := 0#32
  let c1_i32_46 : BitVec 32 := 1#32
  let arg15 : BitVec 32 := Scf.iv c0_i32_44 c1_i32_46 k0_t4
  let c26_i32 : BitVec 32 := 26#32
  let v93 : BitVec 32 := Scalar.muli arg15 c26_i32
  let v103 : Index := Scalar.indexCast v93
  let c32 : Index := 32#32
  ![0, v103.toNat, 32]
def k0_off9 (k0_t4 : Fin k0_t4_loop.trips) : Fin 3 → Nat :=
  let c0_i32_106 : BitVec 32 := 0#32
  let v106 : Index := Scalar.indexCast c0_i32_106
  let c0_i32_44 : BitVec 32 := 0#32
  let c1_i32_46 : BitVec 32 := 1#32
  let arg15 : BitVec 32 := Scf.iv c0_i32_44 c1_i32_46 k0_t4
  let c26_i32 : BitVec 32 := 26#32
  let v93 : BitVec 32 := Scalar.muli arg15 c26_i32
  let v107 : Index := Scalar.indexCast v93
  let c48 : Index := 48#32
  ![0, v107.toNat, 48]
def k0_off10 (k0_t4 : Fin k0_t4_loop.trips) (c1_i32_107 : BitVec 32) : Fin 3 → Nat :=
  let c0_i32_108 : BitVec 32 := 0#32
  let v111 : Index := Scalar.indexCast c0_i32_108
  let c0_i32_44 : BitVec 32 := 0#32
  let c1_i32_46 : BitVec 32 := 1#32
  let arg15 : BitVec 32 := Scf.iv c0_i32_44 c1_i32_46 k0_t4
  let c26_i32 : BitVec 32 := 26#32
  let v93 : BitVec 32 := Scalar.muli arg15 c26_i32
  let v110 : BitVec 32 := Scalar.addi v93 c1_i32_107
  let v112 : Index := Scalar.indexCast v110
  let c0_109 : Index := 0#32
  ![0, v112.toNat, 0]
def k0_off11 (k0_t4 : Fin k0_t4_loop.trips) (c1_i32_110 : BitVec 32) : Fin 3 → Nat :=
  let c0_i32_111 : BitVec 32 := 0#32
  let v117 : Index := Scalar.indexCast c0_i32_111
  let c0_i32_44 : BitVec 32 := 0#32
  let c1_i32_46 : BitVec 32 := 1#32
  let arg15 : BitVec 32 := Scf.iv c0_i32_44 c1_i32_46 k0_t4
  let c26_i32 : BitVec 32 := 26#32
  let v93 : BitVec 32 := Scalar.muli arg15 c26_i32
  let v116 : BitVec 32 := Scalar.addi v93 c1_i32_110
  let v118 : Index := Scalar.indexCast v116
  let c16_112 : Index := 16#32
  ![0, v118.toNat, 16]
def k0_off12 (k0_t4 : Fin k0_t4_loop.trips) (c1_i32_113 : BitVec 32) : Fin 3 → Nat :=
  let c0_i32_114 : BitVec 32 := 0#32
  let v123 : Index := Scalar.indexCast c0_i32_114
  let c0_i32_44 : BitVec 32 := 0#32
  let c1_i32_46 : BitVec 32 := 1#32
  let arg15 : BitVec 32 := Scf.iv c0_i32_44 c1_i32_46 k0_t4
  let c26_i32 : BitVec 32 := 26#32
  let v93 : BitVec 32 := Scalar.muli arg15 c26_i32
  let v122 : BitVec 32 := Scalar.addi v93 c1_i32_113
  let v124 : Index := Scalar.indexCast v122
  let c32_115 : Index := 32#32
  ![0, v124.toNat, 32]
def k0_off13 (k0_t4 : Fin k0_t4_loop.trips) (c1_i32_116 : BitVec 32) : Fin 3 → Nat :=
  let c0_i32_117 : BitVec 32 := 0#32
  let v129 : Index := Scalar.indexCast c0_i32_117
  let c0_i32_44 : BitVec 32 := 0#32
  let c1_i32_46 : BitVec 32 := 1#32
  let arg15 : BitVec 32 := Scf.iv c0_i32_44 c1_i32_46 k0_t4
  let c26_i32 : BitVec 32 := 26#32
  let v93 : BitVec 32 := Scalar.muli arg15 c26_i32
  let v128 : BitVec 32 := Scalar.addi v93 c1_i32_116
  let v130 : Index := Scalar.indexCast v128
  let c48_118 : Index := 48#32
  ![0, v130.toNat, 48]
def k0_off14 (k0_t3 : Fin k0_t3_loop.trips) (k0_t4 : Fin k0_t4_loop.trips) : Fin 2 → Nat :=
  let c4_i32 : BitVec 32 := 4#32
  let c0_i32_23 : BitVec 32 := 0#32
  let c1_i32_24 : BitVec 32 := 1#32
  let arg13 : BitVec 32 := Scf.iv c0_i32_23 c1_i32_24 k0_t3
  let v28 : BitVec 32 := Scalar.muli c4_i32 arg13
  let c0_i32_33 : BitVec 32 := 0#32
  let v29 : BitVec 32 := Scalar.addi v28 c0_i32_33
  let c4_i32_389 : BitVec 32 := 4#32
  let v712 : BitVec 32 := Scalar.muli v29 c4_i32_389
  let c0_i32_44 : BitVec 32 := 0#32
  let c1_i32_46 : BitVec 32 := 1#32
  let arg15 : BitVec 32 := Scf.iv c0_i32_44 c1_i32_46 k0_t4
  let v713 : BitVec 32 := Scalar.addi v712 arg15
  let v714 : Index := Scalar.indexCast v713
  let c0_390 : Index := 0#32
  ![v714.toNat, 0]
def k0_off15 (k0_t3 : Fin k0_t3_loop.trips) (k0_t4 : Fin k0_t4_loop.trips) : Fin 2 → Nat :=
  let c4_i32 : BitVec 32 := 4#32
  let c0_i32_23 : BitVec 32 := 0#32
  let c1_i32_24 : BitVec 32 := 1#32
  let arg13 : BitVec 32 := Scf.iv c0_i32_23 c1_i32_24 k0_t3
  let v28 : BitVec 32 := Scalar.muli c4_i32 arg13
  let c0_i32_33 : BitVec 32 := 0#32
  let v29 : BitVec 32 := Scalar.addi v28 c0_i32_33
  let c4_i32_392 : BitVec 32 := 4#32
  let v720 : BitVec 32 := Scalar.muli v29 c4_i32_392
  let c0_i32_44 : BitVec 32 := 0#32
  let c1_i32_46 : BitVec 32 := 1#32
  let arg15 : BitVec 32 := Scf.iv c0_i32_44 c1_i32_46 k0_t4
  let v721 : BitVec 32 := Scalar.addi v720 arg15
  let v722 : Index := Scalar.indexCast v721
  let c16_393 : Index := 16#32
  ![v722.toNat, 16]
def k0_off16 (k0_t3 : Fin k0_t3_loop.trips) (k0_t4 : Fin k0_t4_loop.trips) : Fin 2 → Nat :=
  let c4_i32 : BitVec 32 := 4#32
  let c0_i32_23 : BitVec 32 := 0#32
  let c1_i32_24 : BitVec 32 := 1#32
  let arg13 : BitVec 32 := Scf.iv c0_i32_23 c1_i32_24 k0_t3
  let v28 : BitVec 32 := Scalar.muli c4_i32 arg13
  let c0_i32_33 : BitVec 32 := 0#32
  let v29 : BitVec 32 := Scalar.addi v28 c0_i32_33
  let c4_i32_395 : BitVec 32 := 4#32
  let v728 : BitVec 32 := Scalar.muli v29 c4_i32_395
  let c0_i32_44 : BitVec 32 := 0#32
  let c1_i32_46 : BitVec 32 := 1#32
  let arg15 : BitVec 32 := Scf.iv c0_i32_44 c1_i32_46 k0_t4
  let v729 : BitVec 32 := Scalar.addi v728 arg15
  let v730 : Index := Scalar.indexCast v729
  let c32_396 : Index := 32#32
  ![v730.toNat, 32]
def k0_off17 (k0_t3 : Fin k0_t3_loop.trips) (k0_t4 : Fin k0_t4_loop.trips) : Fin 2 → Nat :=
  let c4_i32 : BitVec 32 := 4#32
  let c0_i32_23 : BitVec 32 := 0#32
  let c1_i32_24 : BitVec 32 := 1#32
  let arg13 : BitVec 32 := Scf.iv c0_i32_23 c1_i32_24 k0_t3
  let v28 : BitVec 32 := Scalar.muli c4_i32 arg13
  let c0_i32_33 : BitVec 32 := 0#32
  let v29 : BitVec 32 := Scalar.addi v28 c0_i32_33
  let c4_i32_398 : BitVec 32 := 4#32
  let v736 : BitVec 32 := Scalar.muli v29 c4_i32_398
  let c0_i32_44 : BitVec 32 := 0#32
  let c1_i32_46 : BitVec 32 := 1#32
  let arg15 : BitVec 32 := Scf.iv c0_i32_44 c1_i32_46 k0_t4
  let v737 : BitVec 32 := Scalar.addi v736 arg15
  let v738 : Index := Scalar.indexCast v737
  let c48_399 : Index := 48#32
  ![v738.toNat, 48]
def k0_off18 (k0_t4 : Fin k0_t4_loop.trips) : Fin 3 → Nat :=
  let c0_i32_400 : BitVec 32 := 0#32
  let v742 : Index := Scalar.indexCast c0_i32_400
  let c0_i32_44 : BitVec 32 := 0#32
  let c1_i32_46 : BitVec 32 := 1#32
  let arg15 : BitVec 32 := Scf.iv c0_i32_44 c1_i32_46 k0_t4
  let c26_i32 : BitVec 32 := 26#32
  let v93 : BitVec 32 := Scalar.muli arg15 c26_i32
  let v743 : Index := Scalar.indexCast v93
  let c64 : Index := 64#32
  ![0, v743.toNat, 64]
def k0_off19 (k0_t4 : Fin k0_t4_loop.trips) : Fin 3 → Nat :=
  let c0_i32_401 : BitVec 32 := 0#32
  let v746 : Index := Scalar.indexCast c0_i32_401
  let c0_i32_44 : BitVec 32 := 0#32
  let c1_i32_46 : BitVec 32 := 1#32
  let arg15 : BitVec 32 := Scf.iv c0_i32_44 c1_i32_46 k0_t4
  let c26_i32 : BitVec 32 := 26#32
  let v93 : BitVec 32 := Scalar.muli arg15 c26_i32
  let v747 : Index := Scalar.indexCast v93
  let c80 : Index := 80#32
  ![0, v747.toNat, 80]
def k0_off20 (k0_t4 : Fin k0_t4_loop.trips) : Fin 3 → Nat :=
  let c0_i32_402 : BitVec 32 := 0#32
  let v750 : Index := Scalar.indexCast c0_i32_402
  let c0_i32_44 : BitVec 32 := 0#32
  let c1_i32_46 : BitVec 32 := 1#32
  let arg15 : BitVec 32 := Scf.iv c0_i32_44 c1_i32_46 k0_t4
  let c26_i32 : BitVec 32 := 26#32
  let v93 : BitVec 32 := Scalar.muli arg15 c26_i32
  let v751 : Index := Scalar.indexCast v93
  let c96 : Index := 96#32
  ![0, v751.toNat, 96]
def k0_off21 (k0_t4 : Fin k0_t4_loop.trips) : Fin 3 → Nat :=
  let c0_i32_403 : BitVec 32 := 0#32
  let v754 : Index := Scalar.indexCast c0_i32_403
  let c0_i32_44 : BitVec 32 := 0#32
  let c1_i32_46 : BitVec 32 := 1#32
  let arg15 : BitVec 32 := Scf.iv c0_i32_44 c1_i32_46 k0_t4
  let c26_i32 : BitVec 32 := 26#32
  let v93 : BitVec 32 := Scalar.muli arg15 c26_i32
  let v755 : Index := Scalar.indexCast v93
  let c112 : Index := 112#32
  ![0, v755.toNat, 112]
def k0_off22 (k0_t4 : Fin k0_t4_loop.trips) (c1_i32_404 : BitVec 32) : Fin 3 → Nat :=
  let c0_i32_405 : BitVec 32 := 0#32
  let v759 : Index := Scalar.indexCast c0_i32_405
  let c0_i32_44 : BitVec 32 := 0#32
  let c1_i32_46 : BitVec 32 := 1#32
  let arg15 : BitVec 32 := Scf.iv c0_i32_44 c1_i32_46 k0_t4
  let c26_i32 : BitVec 32 := 26#32
  let v93 : BitVec 32 := Scalar.muli arg15 c26_i32
  let v758 : BitVec 32 := Scalar.addi v93 c1_i32_404
  let v760 : Index := Scalar.indexCast v758
  let c64_406 : Index := 64#32
  ![0, v760.toNat, 64]
def k0_off23 (k0_t4 : Fin k0_t4_loop.trips) (c1_i32_407 : BitVec 32) : Fin 3 → Nat :=
  let c0_i32_408 : BitVec 32 := 0#32
  let v765 : Index := Scalar.indexCast c0_i32_408
  let c0_i32_44 : BitVec 32 := 0#32
  let c1_i32_46 : BitVec 32 := 1#32
  let arg15 : BitVec 32 := Scf.iv c0_i32_44 c1_i32_46 k0_t4
  let c26_i32 : BitVec 32 := 26#32
  let v93 : BitVec 32 := Scalar.muli arg15 c26_i32
  let v764 : BitVec 32 := Scalar.addi v93 c1_i32_407
  let v766 : Index := Scalar.indexCast v764
  let c80_409 : Index := 80#32
  ![0, v766.toNat, 80]
def k0_off24 (k0_t4 : Fin k0_t4_loop.trips) (c1_i32_410 : BitVec 32) : Fin 3 → Nat :=
  let c0_i32_411 : BitVec 32 := 0#32
  let v771 : Index := Scalar.indexCast c0_i32_411
  let c0_i32_44 : BitVec 32 := 0#32
  let c1_i32_46 : BitVec 32 := 1#32
  let arg15 : BitVec 32 := Scf.iv c0_i32_44 c1_i32_46 k0_t4
  let c26_i32 : BitVec 32 := 26#32
  let v93 : BitVec 32 := Scalar.muli arg15 c26_i32
  let v770 : BitVec 32 := Scalar.addi v93 c1_i32_410
  let v772 : Index := Scalar.indexCast v770
  let c96_412 : Index := 96#32
  ![0, v772.toNat, 96]
def k0_off25 (k0_t4 : Fin k0_t4_loop.trips) (c1_i32_413 : BitVec 32) : Fin 3 → Nat :=
  let c0_i32_414 : BitVec 32 := 0#32
  let v777 : Index := Scalar.indexCast c0_i32_414
  let c0_i32_44 : BitVec 32 := 0#32
  let c1_i32_46 : BitVec 32 := 1#32
  let arg15 : BitVec 32 := Scf.iv c0_i32_44 c1_i32_46 k0_t4
  let c26_i32 : BitVec 32 := 26#32
  let v93 : BitVec 32 := Scalar.muli arg15 c26_i32
  let v776 : BitVec 32 := Scalar.addi v93 c1_i32_413
  let v778 : Index := Scalar.indexCast v776
  let c112_415 : Index := 112#32
  ![0, v778.toNat, 112]
def k0_off26 (k0_t3 : Fin k0_t3_loop.trips) (k0_t4 : Fin k0_t4_loop.trips) : Fin 2 → Nat :=
  let c4_i32 : BitVec 32 := 4#32
  let c0_i32_23 : BitVec 32 := 0#32
  let c1_i32_24 : BitVec 32 := 1#32
  let arg13 : BitVec 32 := Scf.iv c0_i32_23 c1_i32_24 k0_t3
  let v28 : BitVec 32 := Scalar.muli c4_i32 arg13
  let c0_i32_33 : BitVec 32 := 0#32
  let v29 : BitVec 32 := Scalar.addi v28 c0_i32_33
  let c4_i32_705 : BitVec 32 := 4#32
  let v1360 : BitVec 32 := Scalar.muli v29 c4_i32_705
  let c0_i32_44 : BitVec 32 := 0#32
  let c1_i32_46 : BitVec 32 := 1#32
  let arg15 : BitVec 32 := Scf.iv c0_i32_44 c1_i32_46 k0_t4
  let v1361 : BitVec 32 := Scalar.addi v1360 arg15
  let v1362 : Index := Scalar.indexCast v1361
  let c64_706 : Index := 64#32
  ![v1362.toNat, 64]
def k0_off27 (k0_t3 : Fin k0_t3_loop.trips) (k0_t4 : Fin k0_t4_loop.trips) : Fin 2 → Nat :=
  let c4_i32 : BitVec 32 := 4#32
  let c0_i32_23 : BitVec 32 := 0#32
  let c1_i32_24 : BitVec 32 := 1#32
  let arg13 : BitVec 32 := Scf.iv c0_i32_23 c1_i32_24 k0_t3
  let v28 : BitVec 32 := Scalar.muli c4_i32 arg13
  let c0_i32_33 : BitVec 32 := 0#32
  let v29 : BitVec 32 := Scalar.addi v28 c0_i32_33
  let c4_i32_708 : BitVec 32 := 4#32
  let v1368 : BitVec 32 := Scalar.muli v29 c4_i32_708
  let c0_i32_44 : BitVec 32 := 0#32
  let c1_i32_46 : BitVec 32 := 1#32
  let arg15 : BitVec 32 := Scf.iv c0_i32_44 c1_i32_46 k0_t4
  let v1369 : BitVec 32 := Scalar.addi v1368 arg15
  let v1370 : Index := Scalar.indexCast v1369
  let c80_709 : Index := 80#32
  ![v1370.toNat, 80]
def k0_off28 (k0_t3 : Fin k0_t3_loop.trips) (k0_t4 : Fin k0_t4_loop.trips) : Fin 2 → Nat :=
  let c4_i32 : BitVec 32 := 4#32
  let c0_i32_23 : BitVec 32 := 0#32
  let c1_i32_24 : BitVec 32 := 1#32
  let arg13 : BitVec 32 := Scf.iv c0_i32_23 c1_i32_24 k0_t3
  let v28 : BitVec 32 := Scalar.muli c4_i32 arg13
  let c0_i32_33 : BitVec 32 := 0#32
  let v29 : BitVec 32 := Scalar.addi v28 c0_i32_33
  let c4_i32_711 : BitVec 32 := 4#32
  let v1376 : BitVec 32 := Scalar.muli v29 c4_i32_711
  let c0_i32_44 : BitVec 32 := 0#32
  let c1_i32_46 : BitVec 32 := 1#32
  let arg15 : BitVec 32 := Scf.iv c0_i32_44 c1_i32_46 k0_t4
  let v1377 : BitVec 32 := Scalar.addi v1376 arg15
  let v1378 : Index := Scalar.indexCast v1377
  let c96_712 : Index := 96#32
  ![v1378.toNat, 96]
def k0_off29 (k0_t3 : Fin k0_t3_loop.trips) (k0_t4 : Fin k0_t4_loop.trips) : Fin 2 → Nat :=
  let c4_i32 : BitVec 32 := 4#32
  let c0_i32_23 : BitVec 32 := 0#32
  let c1_i32_24 : BitVec 32 := 1#32
  let arg13 : BitVec 32 := Scf.iv c0_i32_23 c1_i32_24 k0_t3
  let v28 : BitVec 32 := Scalar.muli c4_i32 arg13
  let c0_i32_33 : BitVec 32 := 0#32
  let v29 : BitVec 32 := Scalar.addi v28 c0_i32_33
  let c4_i32_714 : BitVec 32 := 4#32
  let v1384 : BitVec 32 := Scalar.muli v29 c4_i32_714
  let c0_i32_44 : BitVec 32 := 0#32
  let c1_i32_46 : BitVec 32 := 1#32
  let arg15 : BitVec 32 := Scf.iv c0_i32_44 c1_i32_46 k0_t4
  let v1385 : BitVec 32 := Scalar.addi v1384 arg15
  let v1386 : Index := Scalar.indexCast v1385
  let c112_715 : Index := 112#32
  ![v1386.toNat, 112]
def k0_cond2 (k0_t3 : Fin k0_t3_loop.trips) : BitVec 1 :=
  let c4_i32 : BitVec 32 := 4#32
  let c0_i32_23 : BitVec 32 := 0#32
  let c1_i32_24 : BitVec 32 := 1#32
  let arg13 : BitVec 32 := Scf.iv c0_i32_23 c1_i32_24 k0_t3
  let v28 : BitVec 32 := Scalar.muli c4_i32 arg13
  let c0_i32_33 : BitVec 32 := 0#32
  let v29 : BitVec 32 := Scalar.addi v28 c0_i32_33
  let c15_i32 : BitVec 32 := 15#32
  let v42 : BitVec 1 := Scalar.cmpi .eq v29 c15_i32
  let v43 : BitVec 32 := Scalar.extui v42
  let c0_i32_48 : BitVec 32 := 0#32
  let v44 : BitVec 1 := Scalar.cmpi .ne v43 c0_i32_48
  v44

def k0_off30 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_103 : BitVec 32 := 128#32
  let v93 : BitVec 32 := Scalar.muli v1 c128_i32_103
  let c0_i32_106 : BitVec 32 := 0#32
  ![v93.toNat, 0]
def k0_cond3 (k0_t3 : Fin k0_t3_loop.trips) : BitVec 1 :=
  let c4_i32 : BitVec 32 := 4#32
  let c0_i32_23 : BitVec 32 := 0#32
  let c1_i32_24 : BitVec 32 := 1#32
  let arg13 : BitVec 32 := Scf.iv c0_i32_23 c1_i32_24 k0_t3
  let v28 : BitVec 32 := Scalar.muli c4_i32 arg13
  let c1_i32_49 : BitVec 32 := 1#32
  let v45 : BitVec 32 := Scalar.addi v28 c1_i32_49
  let c4_i32_50 : BitVec 32 := 4#32
  let v46 : BitVec 32 := Scalar.addi v45 c4_i32_50
  let c1_i32_51 : BitVec 32 := 1#32
  let v47 : BitVec 32 := Scalar.subi v46 c1_i32_51
  let c32_i32_52 : BitVec 32 := 32#32
  let v48 : BitVec 1 := Scalar.cmpi .slt v47 c32_i32_52
  let v49 : BitVec 32 := Scalar.extui v48
  let c0_i32_53 : BitVec 32 := 0#32
  let v50 : BitVec 1 := Scalar.cmpi .ne v49 c0_i32_53
  v50

def k0_off31 (k0_t3 : Fin k0_t3_loop.trips) : Fin 1 → Nat :=
  let c4_i32 : BitVec 32 := 4#32
  let c0_i32_23 : BitVec 32 := 0#32
  let c1_i32_24 : BitVec 32 := 1#32
  let arg13 : BitVec 32 := Scf.iv c0_i32_23 c1_i32_24 k0_t3
  let v28 : BitVec 32 := Scalar.muli c4_i32 arg13
  let c1_i32_49 : BitVec 32 := 1#32
  let v45 : BitVec 32 := Scalar.addi v28 c1_i32_49
  let c4_i32_103 : BitVec 32 := 4#32
  let v93 : BitVec 32 := Scalar.addi v45 c4_i32_103
  let c1_i32_104 : BitVec 32 := 1#32
  let v94 : BitVec 32 := Scalar.subi v93 c1_i32_104
  let c104_i32_105 : BitVec 32 := 104#32
  let v95 : BitVec 32 := Scalar.muli v94 c104_i32_105
  ![v95.toNat]
@[reducible] def k0_t5_loop : Scf.Loop 32 :=
  let c0_i32_61 : BitVec 32 := 0#32
  let c4_i32_62 : BitVec 32 := 4#32
  let v56 : BitVec 32 := Scalar.addi c0_i32_61 c4_i32_62
  let c1_i32_63 : BitVec 32 := 1#32
  ⟨c0_i32_61, v56, c1_i32_63⟩
def k0_off32 (k0_t5 : Fin k0_t5_loop.trips) : Fin 3 → Nat :=
  let c1_i32_103 : BitVec 32 := 1#32
  let v94 : Index := Scalar.indexCast c1_i32_103
  let c0_i32_61 : BitVec 32 := 0#32
  let c1_i32_63 : BitVec 32 := 1#32
  let arg15 : BitVec 32 := Scf.iv c0_i32_61 c1_i32_63 k0_t5
  let c26_i32 : BitVec 32 := 26#32
  let v93 : BitVec 32 := Scalar.muli arg15 c26_i32
  let v95 : Index := Scalar.indexCast v93
  let c0 : Index := 0#32
  ![1, v95.toNat, 0]
def k0_off33 (k0_t5 : Fin k0_t5_loop.trips) : Fin 3 → Nat :=
  let c1_i32_104 : BitVec 32 := 1#32
  let v98 : Index := Scalar.indexCast c1_i32_104
  let c0_i32_61 : BitVec 32 := 0#32
  let c1_i32_63 : BitVec 32 := 1#32
  let arg15 : BitVec 32 := Scf.iv c0_i32_61 c1_i32_63 k0_t5
  let c26_i32 : BitVec 32 := 26#32
  let v93 : BitVec 32 := Scalar.muli arg15 c26_i32
  let v99 : Index := Scalar.indexCast v93
  let c16 : Index := 16#32
  ![1, v99.toNat, 16]
def k0_off34 (k0_t5 : Fin k0_t5_loop.trips) : Fin 3 → Nat :=
  let c1_i32_105 : BitVec 32 := 1#32
  let v102 : Index := Scalar.indexCast c1_i32_105
  let c0_i32_61 : BitVec 32 := 0#32
  let c1_i32_63 : BitVec 32 := 1#32
  let arg15 : BitVec 32 := Scf.iv c0_i32_61 c1_i32_63 k0_t5
  let c26_i32 : BitVec 32 := 26#32
  let v93 : BitVec 32 := Scalar.muli arg15 c26_i32
  let v103 : Index := Scalar.indexCast v93
  let c32 : Index := 32#32
  ![1, v103.toNat, 32]
def k0_off35 (k0_t5 : Fin k0_t5_loop.trips) : Fin 3 → Nat :=
  let c1_i32_106 : BitVec 32 := 1#32
  let v106 : Index := Scalar.indexCast c1_i32_106
  let c0_i32_61 : BitVec 32 := 0#32
  let c1_i32_63 : BitVec 32 := 1#32
  let arg15 : BitVec 32 := Scf.iv c0_i32_61 c1_i32_63 k0_t5
  let c26_i32 : BitVec 32 := 26#32
  let v93 : BitVec 32 := Scalar.muli arg15 c26_i32
  let v107 : Index := Scalar.indexCast v93
  let c48 : Index := 48#32
  ![1, v107.toNat, 48]
def k0_off36 (k0_t5 : Fin k0_t5_loop.trips) (c1_i32_107 : BitVec 32) : Fin 3 → Nat :=
  let c1_i32_108 : BitVec 32 := 1#32
  let v111 : Index := Scalar.indexCast c1_i32_108
  let c0_i32_61 : BitVec 32 := 0#32
  let c1_i32_63 : BitVec 32 := 1#32
  let arg15 : BitVec 32 := Scf.iv c0_i32_61 c1_i32_63 k0_t5
  let c26_i32 : BitVec 32 := 26#32
  let v93 : BitVec 32 := Scalar.muli arg15 c26_i32
  let v110 : BitVec 32 := Scalar.addi v93 c1_i32_107
  let v112 : Index := Scalar.indexCast v110
  let c0_109 : Index := 0#32
  ![1, v112.toNat, 0]
def k0_off37 (k0_t5 : Fin k0_t5_loop.trips) (c1_i32_110 : BitVec 32) : Fin 3 → Nat :=
  let c1_i32_111 : BitVec 32 := 1#32
  let v117 : Index := Scalar.indexCast c1_i32_111
  let c0_i32_61 : BitVec 32 := 0#32
  let c1_i32_63 : BitVec 32 := 1#32
  let arg15 : BitVec 32 := Scf.iv c0_i32_61 c1_i32_63 k0_t5
  let c26_i32 : BitVec 32 := 26#32
  let v93 : BitVec 32 := Scalar.muli arg15 c26_i32
  let v116 : BitVec 32 := Scalar.addi v93 c1_i32_110
  let v118 : Index := Scalar.indexCast v116
  let c16_112 : Index := 16#32
  ![1, v118.toNat, 16]
def k0_off38 (k0_t5 : Fin k0_t5_loop.trips) (c1_i32_113 : BitVec 32) : Fin 3 → Nat :=
  let c1_i32_114 : BitVec 32 := 1#32
  let v123 : Index := Scalar.indexCast c1_i32_114
  let c0_i32_61 : BitVec 32 := 0#32
  let c1_i32_63 : BitVec 32 := 1#32
  let arg15 : BitVec 32 := Scf.iv c0_i32_61 c1_i32_63 k0_t5
  let c26_i32 : BitVec 32 := 26#32
  let v93 : BitVec 32 := Scalar.muli arg15 c26_i32
  let v122 : BitVec 32 := Scalar.addi v93 c1_i32_113
  let v124 : Index := Scalar.indexCast v122
  let c32_115 : Index := 32#32
  ![1, v124.toNat, 32]
def k0_off39 (k0_t5 : Fin k0_t5_loop.trips) (c1_i32_116 : BitVec 32) : Fin 3 → Nat :=
  let c1_i32_117 : BitVec 32 := 1#32
  let v129 : Index := Scalar.indexCast c1_i32_117
  let c0_i32_61 : BitVec 32 := 0#32
  let c1_i32_63 : BitVec 32 := 1#32
  let arg15 : BitVec 32 := Scf.iv c0_i32_61 c1_i32_63 k0_t5
  let c26_i32 : BitVec 32 := 26#32
  let v93 : BitVec 32 := Scalar.muli arg15 c26_i32
  let v128 : BitVec 32 := Scalar.addi v93 c1_i32_116
  let v130 : Index := Scalar.indexCast v128
  let c48_118 : Index := 48#32
  ![1, v130.toNat, 48]
def k0_off40 (k0_t3 : Fin k0_t3_loop.trips) (k0_t5 : Fin k0_t5_loop.trips) : Fin 2 → Nat :=
  let c4_i32 : BitVec 32 := 4#32
  let c0_i32_23 : BitVec 32 := 0#32
  let c1_i32_24 : BitVec 32 := 1#32
  let arg13 : BitVec 32 := Scf.iv c0_i32_23 c1_i32_24 k0_t3
  let v28 : BitVec 32 := Scalar.muli c4_i32 arg13
  let c1_i32_49 : BitVec 32 := 1#32
  let v45 : BitVec 32 := Scalar.addi v28 c1_i32_49
  let c4_i32_389 : BitVec 32 := 4#32
  let v712 : BitVec 32 := Scalar.muli v45 c4_i32_389
  let c0_i32_61 : BitVec 32 := 0#32
  let c1_i32_63 : BitVec 32 := 1#32
  let arg15 : BitVec 32 := Scf.iv c0_i32_61 c1_i32_63 k0_t5
  let v713 : BitVec 32 := Scalar.addi v712 arg15
  let v714 : Index := Scalar.indexCast v713
  let c0_390 : Index := 0#32
  ![v714.toNat, 0]
def k0_off41 (k0_t3 : Fin k0_t3_loop.trips) (k0_t5 : Fin k0_t5_loop.trips) : Fin 2 → Nat :=
  let c4_i32 : BitVec 32 := 4#32
  let c0_i32_23 : BitVec 32 := 0#32
  let c1_i32_24 : BitVec 32 := 1#32
  let arg13 : BitVec 32 := Scf.iv c0_i32_23 c1_i32_24 k0_t3
  let v28 : BitVec 32 := Scalar.muli c4_i32 arg13
  let c1_i32_49 : BitVec 32 := 1#32
  let v45 : BitVec 32 := Scalar.addi v28 c1_i32_49
  let c4_i32_392 : BitVec 32 := 4#32
  let v720 : BitVec 32 := Scalar.muli v45 c4_i32_392
  let c0_i32_61 : BitVec 32 := 0#32
  let c1_i32_63 : BitVec 32 := 1#32
  let arg15 : BitVec 32 := Scf.iv c0_i32_61 c1_i32_63 k0_t5
  let v721 : BitVec 32 := Scalar.addi v720 arg15
  let v722 : Index := Scalar.indexCast v721
  let c16_393 : Index := 16#32
  ![v722.toNat, 16]
def k0_off42 (k0_t3 : Fin k0_t3_loop.trips) (k0_t5 : Fin k0_t5_loop.trips) : Fin 2 → Nat :=
  let c4_i32 : BitVec 32 := 4#32
  let c0_i32_23 : BitVec 32 := 0#32
  let c1_i32_24 : BitVec 32 := 1#32
  let arg13 : BitVec 32 := Scf.iv c0_i32_23 c1_i32_24 k0_t3
  let v28 : BitVec 32 := Scalar.muli c4_i32 arg13
  let c1_i32_49 : BitVec 32 := 1#32
  let v45 : BitVec 32 := Scalar.addi v28 c1_i32_49
  let c4_i32_395 : BitVec 32 := 4#32
  let v728 : BitVec 32 := Scalar.muli v45 c4_i32_395
  let c0_i32_61 : BitVec 32 := 0#32
  let c1_i32_63 : BitVec 32 := 1#32
  let arg15 : BitVec 32 := Scf.iv c0_i32_61 c1_i32_63 k0_t5
  let v729 : BitVec 32 := Scalar.addi v728 arg15
  let v730 : Index := Scalar.indexCast v729
  let c32_396 : Index := 32#32
  ![v730.toNat, 32]
def k0_off43 (k0_t3 : Fin k0_t3_loop.trips) (k0_t5 : Fin k0_t5_loop.trips) : Fin 2 → Nat :=
  let c4_i32 : BitVec 32 := 4#32
  let c0_i32_23 : BitVec 32 := 0#32
  let c1_i32_24 : BitVec 32 := 1#32
  let arg13 : BitVec 32 := Scf.iv c0_i32_23 c1_i32_24 k0_t3
  let v28 : BitVec 32 := Scalar.muli c4_i32 arg13
  let c1_i32_49 : BitVec 32 := 1#32
  let v45 : BitVec 32 := Scalar.addi v28 c1_i32_49
  let c4_i32_398 : BitVec 32 := 4#32
  let v736 : BitVec 32 := Scalar.muli v45 c4_i32_398
  let c0_i32_61 : BitVec 32 := 0#32
  let c1_i32_63 : BitVec 32 := 1#32
  let arg15 : BitVec 32 := Scf.iv c0_i32_61 c1_i32_63 k0_t5
  let v737 : BitVec 32 := Scalar.addi v736 arg15
  let v738 : Index := Scalar.indexCast v737
  let c48_399 : Index := 48#32
  ![v738.toNat, 48]
def k0_off44 (k0_t5 : Fin k0_t5_loop.trips) : Fin 3 → Nat :=
  let c1_i32_400 : BitVec 32 := 1#32
  let v742 : Index := Scalar.indexCast c1_i32_400
  let c0_i32_61 : BitVec 32 := 0#32
  let c1_i32_63 : BitVec 32 := 1#32
  let arg15 : BitVec 32 := Scf.iv c0_i32_61 c1_i32_63 k0_t5
  let c26_i32 : BitVec 32 := 26#32
  let v93 : BitVec 32 := Scalar.muli arg15 c26_i32
  let v743 : Index := Scalar.indexCast v93
  let c64 : Index := 64#32
  ![1, v743.toNat, 64]
def k0_off45 (k0_t5 : Fin k0_t5_loop.trips) : Fin 3 → Nat :=
  let c1_i32_401 : BitVec 32 := 1#32
  let v746 : Index := Scalar.indexCast c1_i32_401
  let c0_i32_61 : BitVec 32 := 0#32
  let c1_i32_63 : BitVec 32 := 1#32
  let arg15 : BitVec 32 := Scf.iv c0_i32_61 c1_i32_63 k0_t5
  let c26_i32 : BitVec 32 := 26#32
  let v93 : BitVec 32 := Scalar.muli arg15 c26_i32
  let v747 : Index := Scalar.indexCast v93
  let c80 : Index := 80#32
  ![1, v747.toNat, 80]
def k0_off46 (k0_t5 : Fin k0_t5_loop.trips) : Fin 3 → Nat :=
  let c1_i32_402 : BitVec 32 := 1#32
  let v750 : Index := Scalar.indexCast c1_i32_402
  let c0_i32_61 : BitVec 32 := 0#32
  let c1_i32_63 : BitVec 32 := 1#32
  let arg15 : BitVec 32 := Scf.iv c0_i32_61 c1_i32_63 k0_t5
  let c26_i32 : BitVec 32 := 26#32
  let v93 : BitVec 32 := Scalar.muli arg15 c26_i32
  let v751 : Index := Scalar.indexCast v93
  let c96 : Index := 96#32
  ![1, v751.toNat, 96]
def k0_off47 (k0_t5 : Fin k0_t5_loop.trips) : Fin 3 → Nat :=
  let c1_i32_403 : BitVec 32 := 1#32
  let v754 : Index := Scalar.indexCast c1_i32_403
  let c0_i32_61 : BitVec 32 := 0#32
  let c1_i32_63 : BitVec 32 := 1#32
  let arg15 : BitVec 32 := Scf.iv c0_i32_61 c1_i32_63 k0_t5
  let c26_i32 : BitVec 32 := 26#32
  let v93 : BitVec 32 := Scalar.muli arg15 c26_i32
  let v755 : Index := Scalar.indexCast v93
  let c112 : Index := 112#32
  ![1, v755.toNat, 112]
def k0_off48 (k0_t5 : Fin k0_t5_loop.trips) (c1_i32_404 : BitVec 32) : Fin 3 → Nat :=
  let c1_i32_405 : BitVec 32 := 1#32
  let v759 : Index := Scalar.indexCast c1_i32_405
  let c0_i32_61 : BitVec 32 := 0#32
  let c1_i32_63 : BitVec 32 := 1#32
  let arg15 : BitVec 32 := Scf.iv c0_i32_61 c1_i32_63 k0_t5
  let c26_i32 : BitVec 32 := 26#32
  let v93 : BitVec 32 := Scalar.muli arg15 c26_i32
  let v758 : BitVec 32 := Scalar.addi v93 c1_i32_404
  let v760 : Index := Scalar.indexCast v758
  let c64_406 : Index := 64#32
  ![1, v760.toNat, 64]
def k0_off49 (k0_t5 : Fin k0_t5_loop.trips) (c1_i32_407 : BitVec 32) : Fin 3 → Nat :=
  let c1_i32_408 : BitVec 32 := 1#32
  let v765 : Index := Scalar.indexCast c1_i32_408
  let c0_i32_61 : BitVec 32 := 0#32
  let c1_i32_63 : BitVec 32 := 1#32
  let arg15 : BitVec 32 := Scf.iv c0_i32_61 c1_i32_63 k0_t5
  let c26_i32 : BitVec 32 := 26#32
  let v93 : BitVec 32 := Scalar.muli arg15 c26_i32
  let v764 : BitVec 32 := Scalar.addi v93 c1_i32_407
  let v766 : Index := Scalar.indexCast v764
  let c80_409 : Index := 80#32
  ![1, v766.toNat, 80]
def k0_off50 (k0_t5 : Fin k0_t5_loop.trips) (c1_i32_410 : BitVec 32) : Fin 3 → Nat :=
  let c1_i32_411 : BitVec 32 := 1#32
  let v771 : Index := Scalar.indexCast c1_i32_411
  let c0_i32_61 : BitVec 32 := 0#32
  let c1_i32_63 : BitVec 32 := 1#32
  let arg15 : BitVec 32 := Scf.iv c0_i32_61 c1_i32_63 k0_t5
  let c26_i32 : BitVec 32 := 26#32
  let v93 : BitVec 32 := Scalar.muli arg15 c26_i32
  let v770 : BitVec 32 := Scalar.addi v93 c1_i32_410
  let v772 : Index := Scalar.indexCast v770
  let c96_412 : Index := 96#32
  ![1, v772.toNat, 96]
def k0_off51 (k0_t5 : Fin k0_t5_loop.trips) (c1_i32_413 : BitVec 32) : Fin 3 → Nat :=
  let c1_i32_414 : BitVec 32 := 1#32
  let v777 : Index := Scalar.indexCast c1_i32_414
  let c0_i32_61 : BitVec 32 := 0#32
  let c1_i32_63 : BitVec 32 := 1#32
  let arg15 : BitVec 32 := Scf.iv c0_i32_61 c1_i32_63 k0_t5
  let c26_i32 : BitVec 32 := 26#32
  let v93 : BitVec 32 := Scalar.muli arg15 c26_i32
  let v776 : BitVec 32 := Scalar.addi v93 c1_i32_413
  let v778 : Index := Scalar.indexCast v776
  let c112_415 : Index := 112#32
  ![1, v778.toNat, 112]
def k0_off52 (k0_t3 : Fin k0_t3_loop.trips) (k0_t5 : Fin k0_t5_loop.trips) : Fin 2 → Nat :=
  let c4_i32 : BitVec 32 := 4#32
  let c0_i32_23 : BitVec 32 := 0#32
  let c1_i32_24 : BitVec 32 := 1#32
  let arg13 : BitVec 32 := Scf.iv c0_i32_23 c1_i32_24 k0_t3
  let v28 : BitVec 32 := Scalar.muli c4_i32 arg13
  let c1_i32_49 : BitVec 32 := 1#32
  let v45 : BitVec 32 := Scalar.addi v28 c1_i32_49
  let c4_i32_705 : BitVec 32 := 4#32
  let v1360 : BitVec 32 := Scalar.muli v45 c4_i32_705
  let c0_i32_61 : BitVec 32 := 0#32
  let c1_i32_63 : BitVec 32 := 1#32
  let arg15 : BitVec 32 := Scf.iv c0_i32_61 c1_i32_63 k0_t5
  let v1361 : BitVec 32 := Scalar.addi v1360 arg15
  let v1362 : Index := Scalar.indexCast v1361
  let c64_706 : Index := 64#32
  ![v1362.toNat, 64]
def k0_off53 (k0_t3 : Fin k0_t3_loop.trips) (k0_t5 : Fin k0_t5_loop.trips) : Fin 2 → Nat :=
  let c4_i32 : BitVec 32 := 4#32
  let c0_i32_23 : BitVec 32 := 0#32
  let c1_i32_24 : BitVec 32 := 1#32
  let arg13 : BitVec 32 := Scf.iv c0_i32_23 c1_i32_24 k0_t3
  let v28 : BitVec 32 := Scalar.muli c4_i32 arg13
  let c1_i32_49 : BitVec 32 := 1#32
  let v45 : BitVec 32 := Scalar.addi v28 c1_i32_49
  let c4_i32_708 : BitVec 32 := 4#32
  let v1368 : BitVec 32 := Scalar.muli v45 c4_i32_708
  let c0_i32_61 : BitVec 32 := 0#32
  let c1_i32_63 : BitVec 32 := 1#32
  let arg15 : BitVec 32 := Scf.iv c0_i32_61 c1_i32_63 k0_t5
  let v1369 : BitVec 32 := Scalar.addi v1368 arg15
  let v1370 : Index := Scalar.indexCast v1369
  let c80_709 : Index := 80#32
  ![v1370.toNat, 80]
def k0_off54 (k0_t3 : Fin k0_t3_loop.trips) (k0_t5 : Fin k0_t5_loop.trips) : Fin 2 → Nat :=
  let c4_i32 : BitVec 32 := 4#32
  let c0_i32_23 : BitVec 32 := 0#32
  let c1_i32_24 : BitVec 32 := 1#32
  let arg13 : BitVec 32 := Scf.iv c0_i32_23 c1_i32_24 k0_t3
  let v28 : BitVec 32 := Scalar.muli c4_i32 arg13
  let c1_i32_49 : BitVec 32 := 1#32
  let v45 : BitVec 32 := Scalar.addi v28 c1_i32_49
  let c4_i32_711 : BitVec 32 := 4#32
  let v1376 : BitVec 32 := Scalar.muli v45 c4_i32_711
  let c0_i32_61 : BitVec 32 := 0#32
  let c1_i32_63 : BitVec 32 := 1#32
  let arg15 : BitVec 32 := Scf.iv c0_i32_61 c1_i32_63 k0_t5
  let v1377 : BitVec 32 := Scalar.addi v1376 arg15
  let v1378 : Index := Scalar.indexCast v1377
  let c96_712 : Index := 96#32
  ![v1378.toNat, 96]
def k0_off55 (k0_t3 : Fin k0_t3_loop.trips) (k0_t5 : Fin k0_t5_loop.trips) : Fin 2 → Nat :=
  let c4_i32 : BitVec 32 := 4#32
  let c0_i32_23 : BitVec 32 := 0#32
  let c1_i32_24 : BitVec 32 := 1#32
  let arg13 : BitVec 32 := Scf.iv c0_i32_23 c1_i32_24 k0_t3
  let v28 : BitVec 32 := Scalar.muli c4_i32 arg13
  let c1_i32_49 : BitVec 32 := 1#32
  let v45 : BitVec 32 := Scalar.addi v28 c1_i32_49
  let c4_i32_714 : BitVec 32 := 4#32
  let v1384 : BitVec 32 := Scalar.muli v45 c4_i32_714
  let c0_i32_61 : BitVec 32 := 0#32
  let c1_i32_63 : BitVec 32 := 1#32
  let arg15 : BitVec 32 := Scf.iv c0_i32_61 c1_i32_63 k0_t5
  let v1385 : BitVec 32 := Scalar.addi v1384 arg15
  let v1386 : Index := Scalar.indexCast v1385
  let c112_715 : Index := 112#32
  ![v1386.toNat, 112]
def k0_cond4 (k0_t3 : Fin k0_t3_loop.trips) : BitVec 1 :=
  let c4_i32 : BitVec 32 := 4#32
  let c0_i32_23 : BitVec 32 := 0#32
  let c1_i32_24 : BitVec 32 := 1#32
  let arg13 : BitVec 32 := Scf.iv c0_i32_23 c1_i32_24 k0_t3
  let v28 : BitVec 32 := Scalar.muli c4_i32 arg13
  let c1_i32_49 : BitVec 32 := 1#32
  let v45 : BitVec 32 := Scalar.addi v28 c1_i32_49
  let c15_i32_65 : BitVec 32 := 15#32
  let v58 : BitVec 1 := Scalar.cmpi .eq v45 c15_i32_65
  let v59 : BitVec 32 := Scalar.extui v58
  let c0_i32_66 : BitVec 32 := 0#32
  let v60 : BitVec 1 := Scalar.cmpi .ne v59 c0_i32_66
  v60

def k0_off56 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_103 : BitVec 32 := 128#32
  let v93 : BitVec 32 := Scalar.muli v1 c128_i32_103
  let c0_i32_106 : BitVec 32 := 0#32
  ![v93.toNat, 0]
def k0_cond5 (k0_t3 : Fin k0_t3_loop.trips) : BitVec 1 :=
  let c4_i32 : BitVec 32 := 4#32
  let c0_i32_23 : BitVec 32 := 0#32
  let c1_i32_24 : BitVec 32 := 1#32
  let arg13 : BitVec 32 := Scf.iv c0_i32_23 c1_i32_24 k0_t3
  let v28 : BitVec 32 := Scalar.muli c4_i32 arg13
  let c2_i32_67 : BitVec 32 := 2#32
  let v61 : BitVec 32 := Scalar.addi v28 c2_i32_67
  let c4_i32_68 : BitVec 32 := 4#32
  let v62 : BitVec 32 := Scalar.addi v61 c4_i32_68
  let c1_i32_69 : BitVec 32 := 1#32
  let v63 : BitVec 32 := Scalar.subi v62 c1_i32_69
  let c32_i32_70 : BitVec 32 := 32#32
  let v64 : BitVec 1 := Scalar.cmpi .slt v63 c32_i32_70
  let v65 : BitVec 32 := Scalar.extui v64
  let c0_i32_71 : BitVec 32 := 0#32
  let v66 : BitVec 1 := Scalar.cmpi .ne v65 c0_i32_71
  v66

def k0_off57 (k0_t3 : Fin k0_t3_loop.trips) : Fin 1 → Nat :=
  let c4_i32 : BitVec 32 := 4#32
  let c0_i32_23 : BitVec 32 := 0#32
  let c1_i32_24 : BitVec 32 := 1#32
  let arg13 : BitVec 32 := Scf.iv c0_i32_23 c1_i32_24 k0_t3
  let v28 : BitVec 32 := Scalar.muli c4_i32 arg13
  let c2_i32_67 : BitVec 32 := 2#32
  let v61 : BitVec 32 := Scalar.addi v28 c2_i32_67
  let c4_i32_103 : BitVec 32 := 4#32
  let v93 : BitVec 32 := Scalar.addi v61 c4_i32_103
  let c1_i32_104 : BitVec 32 := 1#32
  let v94 : BitVec 32 := Scalar.subi v93 c1_i32_104
  let c104_i32_105 : BitVec 32 := 104#32
  let v95 : BitVec 32 := Scalar.muli v94 c104_i32_105
  ![v95.toNat]
@[reducible] def k0_t6_loop : Scf.Loop 32 :=
  let c0_i32_79 : BitVec 32 := 0#32
  let c4_i32_80 : BitVec 32 := 4#32
  let v72 : BitVec 32 := Scalar.addi c0_i32_79 c4_i32_80
  let c1_i32_81 : BitVec 32 := 1#32
  ⟨c0_i32_79, v72, c1_i32_81⟩
def k0_off58 (k0_t6 : Fin k0_t6_loop.trips) : Fin 3 → Nat :=
  let c2_i32_103 : BitVec 32 := 2#32
  let v94 : Index := Scalar.indexCast c2_i32_103
  let c0_i32_79 : BitVec 32 := 0#32
  let c1_i32_81 : BitVec 32 := 1#32
  let arg15 : BitVec 32 := Scf.iv c0_i32_79 c1_i32_81 k0_t6
  let c26_i32 : BitVec 32 := 26#32
  let v93 : BitVec 32 := Scalar.muli arg15 c26_i32
  let v95 : Index := Scalar.indexCast v93
  let c0 : Index := 0#32
  ![2, v95.toNat, 0]
def k0_off59 (k0_t6 : Fin k0_t6_loop.trips) : Fin 3 → Nat :=
  let c2_i32_104 : BitVec 32 := 2#32
  let v98 : Index := Scalar.indexCast c2_i32_104
  let c0_i32_79 : BitVec 32 := 0#32
  let c1_i32_81 : BitVec 32 := 1#32
  let arg15 : BitVec 32 := Scf.iv c0_i32_79 c1_i32_81 k0_t6
  let c26_i32 : BitVec 32 := 26#32
  let v93 : BitVec 32 := Scalar.muli arg15 c26_i32
  let v99 : Index := Scalar.indexCast v93
  let c16 : Index := 16#32
  ![2, v99.toNat, 16]
def k0_off60 (k0_t6 : Fin k0_t6_loop.trips) : Fin 3 → Nat :=
  let c2_i32_105 : BitVec 32 := 2#32
  let v102 : Index := Scalar.indexCast c2_i32_105
  let c0_i32_79 : BitVec 32 := 0#32
  let c1_i32_81 : BitVec 32 := 1#32
  let arg15 : BitVec 32 := Scf.iv c0_i32_79 c1_i32_81 k0_t6
  let c26_i32 : BitVec 32 := 26#32
  let v93 : BitVec 32 := Scalar.muli arg15 c26_i32
  let v103 : Index := Scalar.indexCast v93
  let c32 : Index := 32#32
  ![2, v103.toNat, 32]
def k0_off61 (k0_t6 : Fin k0_t6_loop.trips) : Fin 3 → Nat :=
  let c2_i32_106 : BitVec 32 := 2#32
  let v106 : Index := Scalar.indexCast c2_i32_106
  let c0_i32_79 : BitVec 32 := 0#32
  let c1_i32_81 : BitVec 32 := 1#32
  let arg15 : BitVec 32 := Scf.iv c0_i32_79 c1_i32_81 k0_t6
  let c26_i32 : BitVec 32 := 26#32
  let v93 : BitVec 32 := Scalar.muli arg15 c26_i32
  let v107 : Index := Scalar.indexCast v93
  let c48 : Index := 48#32
  ![2, v107.toNat, 48]
def k0_off62 (k0_t6 : Fin k0_t6_loop.trips) (c1_i32_107 : BitVec 32) : Fin 3 → Nat :=
  let c2_i32_108 : BitVec 32 := 2#32
  let v111 : Index := Scalar.indexCast c2_i32_108
  let c0_i32_79 : BitVec 32 := 0#32
  let c1_i32_81 : BitVec 32 := 1#32
  let arg15 : BitVec 32 := Scf.iv c0_i32_79 c1_i32_81 k0_t6
  let c26_i32 : BitVec 32 := 26#32
  let v93 : BitVec 32 := Scalar.muli arg15 c26_i32
  let v110 : BitVec 32 := Scalar.addi v93 c1_i32_107
  let v112 : Index := Scalar.indexCast v110
  let c0_109 : Index := 0#32
  ![2, v112.toNat, 0]
def k0_off63 (k0_t6 : Fin k0_t6_loop.trips) (c1_i32_110 : BitVec 32) : Fin 3 → Nat :=
  let c2_i32_111 : BitVec 32 := 2#32
  let v117 : Index := Scalar.indexCast c2_i32_111
  let c0_i32_79 : BitVec 32 := 0#32
  let c1_i32_81 : BitVec 32 := 1#32
  let arg15 : BitVec 32 := Scf.iv c0_i32_79 c1_i32_81 k0_t6
  let c26_i32 : BitVec 32 := 26#32
  let v93 : BitVec 32 := Scalar.muli arg15 c26_i32
  let v116 : BitVec 32 := Scalar.addi v93 c1_i32_110
  let v118 : Index := Scalar.indexCast v116
  let c16_112 : Index := 16#32
  ![2, v118.toNat, 16]
def k0_off64 (k0_t6 : Fin k0_t6_loop.trips) (c1_i32_113 : BitVec 32) : Fin 3 → Nat :=
  let c2_i32_114 : BitVec 32 := 2#32
  let v123 : Index := Scalar.indexCast c2_i32_114
  let c0_i32_79 : BitVec 32 := 0#32
  let c1_i32_81 : BitVec 32 := 1#32
  let arg15 : BitVec 32 := Scf.iv c0_i32_79 c1_i32_81 k0_t6
  let c26_i32 : BitVec 32 := 26#32
  let v93 : BitVec 32 := Scalar.muli arg15 c26_i32
  let v122 : BitVec 32 := Scalar.addi v93 c1_i32_113
  let v124 : Index := Scalar.indexCast v122
  let c32_115 : Index := 32#32
  ![2, v124.toNat, 32]
def k0_off65 (k0_t6 : Fin k0_t6_loop.trips) (c1_i32_116 : BitVec 32) : Fin 3 → Nat :=
  let c2_i32_117 : BitVec 32 := 2#32
  let v129 : Index := Scalar.indexCast c2_i32_117
  let c0_i32_79 : BitVec 32 := 0#32
  let c1_i32_81 : BitVec 32 := 1#32
  let arg15 : BitVec 32 := Scf.iv c0_i32_79 c1_i32_81 k0_t6
  let c26_i32 : BitVec 32 := 26#32
  let v93 : BitVec 32 := Scalar.muli arg15 c26_i32
  let v128 : BitVec 32 := Scalar.addi v93 c1_i32_116
  let v130 : Index := Scalar.indexCast v128
  let c48_118 : Index := 48#32
  ![2, v130.toNat, 48]
def k0_off66 (k0_t3 : Fin k0_t3_loop.trips) (k0_t6 : Fin k0_t6_loop.trips) : Fin 2 → Nat :=
  let c4_i32 : BitVec 32 := 4#32
  let c0_i32_23 : BitVec 32 := 0#32
  let c1_i32_24 : BitVec 32 := 1#32
  let arg13 : BitVec 32 := Scf.iv c0_i32_23 c1_i32_24 k0_t3
  let v28 : BitVec 32 := Scalar.muli c4_i32 arg13
  let c2_i32_67 : BitVec 32 := 2#32
  let v61 : BitVec 32 := Scalar.addi v28 c2_i32_67
  let c4_i32_389 : BitVec 32 := 4#32
  let v712 : BitVec 32 := Scalar.muli v61 c4_i32_389
  let c0_i32_79 : BitVec 32 := 0#32
  let c1_i32_81 : BitVec 32 := 1#32
  let arg15 : BitVec 32 := Scf.iv c0_i32_79 c1_i32_81 k0_t6
  let v713 : BitVec 32 := Scalar.addi v712 arg15
  let v714 : Index := Scalar.indexCast v713
  let c0_390 : Index := 0#32
  ![v714.toNat, 0]
def k0_off67 (k0_t3 : Fin k0_t3_loop.trips) (k0_t6 : Fin k0_t6_loop.trips) : Fin 2 → Nat :=
  let c4_i32 : BitVec 32 := 4#32
  let c0_i32_23 : BitVec 32 := 0#32
  let c1_i32_24 : BitVec 32 := 1#32
  let arg13 : BitVec 32 := Scf.iv c0_i32_23 c1_i32_24 k0_t3
  let v28 : BitVec 32 := Scalar.muli c4_i32 arg13
  let c2_i32_67 : BitVec 32 := 2#32
  let v61 : BitVec 32 := Scalar.addi v28 c2_i32_67
  let c4_i32_392 : BitVec 32 := 4#32
  let v720 : BitVec 32 := Scalar.muli v61 c4_i32_392
  let c0_i32_79 : BitVec 32 := 0#32
  let c1_i32_81 : BitVec 32 := 1#32
  let arg15 : BitVec 32 := Scf.iv c0_i32_79 c1_i32_81 k0_t6
  let v721 : BitVec 32 := Scalar.addi v720 arg15
  let v722 : Index := Scalar.indexCast v721
  let c16_393 : Index := 16#32
  ![v722.toNat, 16]
def k0_off68 (k0_t3 : Fin k0_t3_loop.trips) (k0_t6 : Fin k0_t6_loop.trips) : Fin 2 → Nat :=
  let c4_i32 : BitVec 32 := 4#32
  let c0_i32_23 : BitVec 32 := 0#32
  let c1_i32_24 : BitVec 32 := 1#32
  let arg13 : BitVec 32 := Scf.iv c0_i32_23 c1_i32_24 k0_t3
  let v28 : BitVec 32 := Scalar.muli c4_i32 arg13
  let c2_i32_67 : BitVec 32 := 2#32
  let v61 : BitVec 32 := Scalar.addi v28 c2_i32_67
  let c4_i32_395 : BitVec 32 := 4#32
  let v728 : BitVec 32 := Scalar.muli v61 c4_i32_395
  let c0_i32_79 : BitVec 32 := 0#32
  let c1_i32_81 : BitVec 32 := 1#32
  let arg15 : BitVec 32 := Scf.iv c0_i32_79 c1_i32_81 k0_t6
  let v729 : BitVec 32 := Scalar.addi v728 arg15
  let v730 : Index := Scalar.indexCast v729
  let c32_396 : Index := 32#32
  ![v730.toNat, 32]
def k0_off69 (k0_t3 : Fin k0_t3_loop.trips) (k0_t6 : Fin k0_t6_loop.trips) : Fin 2 → Nat :=
  let c4_i32 : BitVec 32 := 4#32
  let c0_i32_23 : BitVec 32 := 0#32
  let c1_i32_24 : BitVec 32 := 1#32
  let arg13 : BitVec 32 := Scf.iv c0_i32_23 c1_i32_24 k0_t3
  let v28 : BitVec 32 := Scalar.muli c4_i32 arg13
  let c2_i32_67 : BitVec 32 := 2#32
  let v61 : BitVec 32 := Scalar.addi v28 c2_i32_67
  let c4_i32_398 : BitVec 32 := 4#32
  let v736 : BitVec 32 := Scalar.muli v61 c4_i32_398
  let c0_i32_79 : BitVec 32 := 0#32
  let c1_i32_81 : BitVec 32 := 1#32
  let arg15 : BitVec 32 := Scf.iv c0_i32_79 c1_i32_81 k0_t6
  let v737 : BitVec 32 := Scalar.addi v736 arg15
  let v738 : Index := Scalar.indexCast v737
  let c48_399 : Index := 48#32
  ![v738.toNat, 48]
def k0_off70 (k0_t6 : Fin k0_t6_loop.trips) : Fin 3 → Nat :=
  let c2_i32_400 : BitVec 32 := 2#32
  let v742 : Index := Scalar.indexCast c2_i32_400
  let c0_i32_79 : BitVec 32 := 0#32
  let c1_i32_81 : BitVec 32 := 1#32
  let arg15 : BitVec 32 := Scf.iv c0_i32_79 c1_i32_81 k0_t6
  let c26_i32 : BitVec 32 := 26#32
  let v93 : BitVec 32 := Scalar.muli arg15 c26_i32
  let v743 : Index := Scalar.indexCast v93
  let c64 : Index := 64#32
  ![2, v743.toNat, 64]
def k0_off71 (k0_t6 : Fin k0_t6_loop.trips) : Fin 3 → Nat :=
  let c2_i32_401 : BitVec 32 := 2#32
  let v746 : Index := Scalar.indexCast c2_i32_401
  let c0_i32_79 : BitVec 32 := 0#32
  let c1_i32_81 : BitVec 32 := 1#32
  let arg15 : BitVec 32 := Scf.iv c0_i32_79 c1_i32_81 k0_t6
  let c26_i32 : BitVec 32 := 26#32
  let v93 : BitVec 32 := Scalar.muli arg15 c26_i32
  let v747 : Index := Scalar.indexCast v93
  let c80 : Index := 80#32
  ![2, v747.toNat, 80]
def k0_off72 (k0_t6 : Fin k0_t6_loop.trips) : Fin 3 → Nat :=
  let c2_i32_402 : BitVec 32 := 2#32
  let v750 : Index := Scalar.indexCast c2_i32_402
  let c0_i32_79 : BitVec 32 := 0#32
  let c1_i32_81 : BitVec 32 := 1#32
  let arg15 : BitVec 32 := Scf.iv c0_i32_79 c1_i32_81 k0_t6
  let c26_i32 : BitVec 32 := 26#32
  let v93 : BitVec 32 := Scalar.muli arg15 c26_i32
  let v751 : Index := Scalar.indexCast v93
  let c96 : Index := 96#32
  ![2, v751.toNat, 96]
def k0_off73 (k0_t6 : Fin k0_t6_loop.trips) : Fin 3 → Nat :=
  let c2_i32_403 : BitVec 32 := 2#32
  let v754 : Index := Scalar.indexCast c2_i32_403
  let c0_i32_79 : BitVec 32 := 0#32
  let c1_i32_81 : BitVec 32 := 1#32
  let arg15 : BitVec 32 := Scf.iv c0_i32_79 c1_i32_81 k0_t6
  let c26_i32 : BitVec 32 := 26#32
  let v93 : BitVec 32 := Scalar.muli arg15 c26_i32
  let v755 : Index := Scalar.indexCast v93
  let c112 : Index := 112#32
  ![2, v755.toNat, 112]
def k0_off74 (k0_t6 : Fin k0_t6_loop.trips) (c1_i32_404 : BitVec 32) : Fin 3 → Nat :=
  let c2_i32_405 : BitVec 32 := 2#32
  let v759 : Index := Scalar.indexCast c2_i32_405
  let c0_i32_79 : BitVec 32 := 0#32
  let c1_i32_81 : BitVec 32 := 1#32
  let arg15 : BitVec 32 := Scf.iv c0_i32_79 c1_i32_81 k0_t6
  let c26_i32 : BitVec 32 := 26#32
  let v93 : BitVec 32 := Scalar.muli arg15 c26_i32
  let v758 : BitVec 32 := Scalar.addi v93 c1_i32_404
  let v760 : Index := Scalar.indexCast v758
  let c64_406 : Index := 64#32
  ![2, v760.toNat, 64]
def k0_off75 (k0_t6 : Fin k0_t6_loop.trips) (c1_i32_407 : BitVec 32) : Fin 3 → Nat :=
  let c2_i32_408 : BitVec 32 := 2#32
  let v765 : Index := Scalar.indexCast c2_i32_408
  let c0_i32_79 : BitVec 32 := 0#32
  let c1_i32_81 : BitVec 32 := 1#32
  let arg15 : BitVec 32 := Scf.iv c0_i32_79 c1_i32_81 k0_t6
  let c26_i32 : BitVec 32 := 26#32
  let v93 : BitVec 32 := Scalar.muli arg15 c26_i32
  let v764 : BitVec 32 := Scalar.addi v93 c1_i32_407
  let v766 : Index := Scalar.indexCast v764
  let c80_409 : Index := 80#32
  ![2, v766.toNat, 80]
def k0_off76 (k0_t6 : Fin k0_t6_loop.trips) (c1_i32_410 : BitVec 32) : Fin 3 → Nat :=
  let c2_i32_411 : BitVec 32 := 2#32
  let v771 : Index := Scalar.indexCast c2_i32_411
  let c0_i32_79 : BitVec 32 := 0#32
  let c1_i32_81 : BitVec 32 := 1#32
  let arg15 : BitVec 32 := Scf.iv c0_i32_79 c1_i32_81 k0_t6
  let c26_i32 : BitVec 32 := 26#32
  let v93 : BitVec 32 := Scalar.muli arg15 c26_i32
  let v770 : BitVec 32 := Scalar.addi v93 c1_i32_410
  let v772 : Index := Scalar.indexCast v770
  let c96_412 : Index := 96#32
  ![2, v772.toNat, 96]
def k0_off77 (k0_t6 : Fin k0_t6_loop.trips) (c1_i32_413 : BitVec 32) : Fin 3 → Nat :=
  let c2_i32_414 : BitVec 32 := 2#32
  let v777 : Index := Scalar.indexCast c2_i32_414
  let c0_i32_79 : BitVec 32 := 0#32
  let c1_i32_81 : BitVec 32 := 1#32
  let arg15 : BitVec 32 := Scf.iv c0_i32_79 c1_i32_81 k0_t6
  let c26_i32 : BitVec 32 := 26#32
  let v93 : BitVec 32 := Scalar.muli arg15 c26_i32
  let v776 : BitVec 32 := Scalar.addi v93 c1_i32_413
  let v778 : Index := Scalar.indexCast v776
  let c112_415 : Index := 112#32
  ![2, v778.toNat, 112]
def k0_off78 (k0_t3 : Fin k0_t3_loop.trips) (k0_t6 : Fin k0_t6_loop.trips) : Fin 2 → Nat :=
  let c4_i32 : BitVec 32 := 4#32
  let c0_i32_23 : BitVec 32 := 0#32
  let c1_i32_24 : BitVec 32 := 1#32
  let arg13 : BitVec 32 := Scf.iv c0_i32_23 c1_i32_24 k0_t3
  let v28 : BitVec 32 := Scalar.muli c4_i32 arg13
  let c2_i32_67 : BitVec 32 := 2#32
  let v61 : BitVec 32 := Scalar.addi v28 c2_i32_67
  let c4_i32_705 : BitVec 32 := 4#32
  let v1360 : BitVec 32 := Scalar.muli v61 c4_i32_705
  let c0_i32_79 : BitVec 32 := 0#32
  let c1_i32_81 : BitVec 32 := 1#32
  let arg15 : BitVec 32 := Scf.iv c0_i32_79 c1_i32_81 k0_t6
  let v1361 : BitVec 32 := Scalar.addi v1360 arg15
  let v1362 : Index := Scalar.indexCast v1361
  let c64_706 : Index := 64#32
  ![v1362.toNat, 64]
def k0_off79 (k0_t3 : Fin k0_t3_loop.trips) (k0_t6 : Fin k0_t6_loop.trips) : Fin 2 → Nat :=
  let c4_i32 : BitVec 32 := 4#32
  let c0_i32_23 : BitVec 32 := 0#32
  let c1_i32_24 : BitVec 32 := 1#32
  let arg13 : BitVec 32 := Scf.iv c0_i32_23 c1_i32_24 k0_t3
  let v28 : BitVec 32 := Scalar.muli c4_i32 arg13
  let c2_i32_67 : BitVec 32 := 2#32
  let v61 : BitVec 32 := Scalar.addi v28 c2_i32_67
  let c4_i32_708 : BitVec 32 := 4#32
  let v1368 : BitVec 32 := Scalar.muli v61 c4_i32_708
  let c0_i32_79 : BitVec 32 := 0#32
  let c1_i32_81 : BitVec 32 := 1#32
  let arg15 : BitVec 32 := Scf.iv c0_i32_79 c1_i32_81 k0_t6
  let v1369 : BitVec 32 := Scalar.addi v1368 arg15
  let v1370 : Index := Scalar.indexCast v1369
  let c80_709 : Index := 80#32
  ![v1370.toNat, 80]
def k0_off80 (k0_t3 : Fin k0_t3_loop.trips) (k0_t6 : Fin k0_t6_loop.trips) : Fin 2 → Nat :=
  let c4_i32 : BitVec 32 := 4#32
  let c0_i32_23 : BitVec 32 := 0#32
  let c1_i32_24 : BitVec 32 := 1#32
  let arg13 : BitVec 32 := Scf.iv c0_i32_23 c1_i32_24 k0_t3
  let v28 : BitVec 32 := Scalar.muli c4_i32 arg13
  let c2_i32_67 : BitVec 32 := 2#32
  let v61 : BitVec 32 := Scalar.addi v28 c2_i32_67
  let c4_i32_711 : BitVec 32 := 4#32
  let v1376 : BitVec 32 := Scalar.muli v61 c4_i32_711
  let c0_i32_79 : BitVec 32 := 0#32
  let c1_i32_81 : BitVec 32 := 1#32
  let arg15 : BitVec 32 := Scf.iv c0_i32_79 c1_i32_81 k0_t6
  let v1377 : BitVec 32 := Scalar.addi v1376 arg15
  let v1378 : Index := Scalar.indexCast v1377
  let c96_712 : Index := 96#32
  ![v1378.toNat, 96]
def k0_off81 (k0_t3 : Fin k0_t3_loop.trips) (k0_t6 : Fin k0_t6_loop.trips) : Fin 2 → Nat :=
  let c4_i32 : BitVec 32 := 4#32
  let c0_i32_23 : BitVec 32 := 0#32
  let c1_i32_24 : BitVec 32 := 1#32
  let arg13 : BitVec 32 := Scf.iv c0_i32_23 c1_i32_24 k0_t3
  let v28 : BitVec 32 := Scalar.muli c4_i32 arg13
  let c2_i32_67 : BitVec 32 := 2#32
  let v61 : BitVec 32 := Scalar.addi v28 c2_i32_67
  let c4_i32_714 : BitVec 32 := 4#32
  let v1384 : BitVec 32 := Scalar.muli v61 c4_i32_714
  let c0_i32_79 : BitVec 32 := 0#32
  let c1_i32_81 : BitVec 32 := 1#32
  let arg15 : BitVec 32 := Scf.iv c0_i32_79 c1_i32_81 k0_t6
  let v1385 : BitVec 32 := Scalar.addi v1384 arg15
  let v1386 : Index := Scalar.indexCast v1385
  let c112_715 : Index := 112#32
  ![v1386.toNat, 112]
def k0_cond6 (k0_t3 : Fin k0_t3_loop.trips) : BitVec 1 :=
  let c4_i32 : BitVec 32 := 4#32
  let c0_i32_23 : BitVec 32 := 0#32
  let c1_i32_24 : BitVec 32 := 1#32
  let arg13 : BitVec 32 := Scf.iv c0_i32_23 c1_i32_24 k0_t3
  let v28 : BitVec 32 := Scalar.muli c4_i32 arg13
  let c2_i32_67 : BitVec 32 := 2#32
  let v61 : BitVec 32 := Scalar.addi v28 c2_i32_67
  let c15_i32_83 : BitVec 32 := 15#32
  let v74 : BitVec 1 := Scalar.cmpi .eq v61 c15_i32_83
  let v75 : BitVec 32 := Scalar.extui v74
  let c0_i32_84 : BitVec 32 := 0#32
  let v76 : BitVec 1 := Scalar.cmpi .ne v75 c0_i32_84
  v76

def k0_off82 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_103 : BitVec 32 := 128#32
  let v93 : BitVec 32 := Scalar.muli v1 c128_i32_103
  let c0_i32_106 : BitVec 32 := 0#32
  ![v93.toNat, 0]
def k0_cond7 (k0_t3 : Fin k0_t3_loop.trips) : BitVec 1 :=
  let c4_i32 : BitVec 32 := 4#32
  let c0_i32_23 : BitVec 32 := 0#32
  let c1_i32_24 : BitVec 32 := 1#32
  let arg13 : BitVec 32 := Scf.iv c0_i32_23 c1_i32_24 k0_t3
  let v28 : BitVec 32 := Scalar.muli c4_i32 arg13
  let c3_i32 : BitVec 32 := 3#32
  let v77 : BitVec 32 := Scalar.addi v28 c3_i32
  let c4_i32_85 : BitVec 32 := 4#32
  let v78 : BitVec 32 := Scalar.addi v77 c4_i32_85
  let c1_i32_86 : BitVec 32 := 1#32
  let v79 : BitVec 32 := Scalar.subi v78 c1_i32_86
  let c32_i32_87 : BitVec 32 := 32#32
  let v80 : BitVec 1 := Scalar.cmpi .slt v79 c32_i32_87
  let v81 : BitVec 32 := Scalar.extui v80
  let c0_i32_88 : BitVec 32 := 0#32
  let v82 : BitVec 1 := Scalar.cmpi .ne v81 c0_i32_88
  v82

def k0_off83 (k0_t3 : Fin k0_t3_loop.trips) : Fin 1 → Nat :=
  let c4_i32 : BitVec 32 := 4#32
  let c0_i32_23 : BitVec 32 := 0#32
  let c1_i32_24 : BitVec 32 := 1#32
  let arg13 : BitVec 32 := Scf.iv c0_i32_23 c1_i32_24 k0_t3
  let v28 : BitVec 32 := Scalar.muli c4_i32 arg13
  let c3_i32 : BitVec 32 := 3#32
  let v77 : BitVec 32 := Scalar.addi v28 c3_i32
  let c4_i32_103 : BitVec 32 := 4#32
  let v93 : BitVec 32 := Scalar.addi v77 c4_i32_103
  let c1_i32_104 : BitVec 32 := 1#32
  let v94 : BitVec 32 := Scalar.subi v93 c1_i32_104
  let c104_i32_105 : BitVec 32 := 104#32
  let v95 : BitVec 32 := Scalar.muli v94 c104_i32_105
  ![v95.toNat]
@[reducible] def k0_t7_loop : Scf.Loop 32 :=
  let c0_i32_96 : BitVec 32 := 0#32
  let c4_i32_97 : BitVec 32 := 4#32
  let v88 : BitVec 32 := Scalar.addi c0_i32_96 c4_i32_97
  let c1_i32_98 : BitVec 32 := 1#32
  ⟨c0_i32_96, v88, c1_i32_98⟩
def k0_off84 (k0_t7 : Fin k0_t7_loop.trips) : Fin 3 → Nat :=
  let c3_i32_103 : BitVec 32 := 3#32
  let v94 : Index := Scalar.indexCast c3_i32_103
  let c0_i32_96 : BitVec 32 := 0#32
  let c1_i32_98 : BitVec 32 := 1#32
  let arg15 : BitVec 32 := Scf.iv c0_i32_96 c1_i32_98 k0_t7
  let c26_i32 : BitVec 32 := 26#32
  let v93 : BitVec 32 := Scalar.muli arg15 c26_i32
  let v95 : Index := Scalar.indexCast v93
  let c0 : Index := 0#32
  ![3, v95.toNat, 0]
def k0_off85 (k0_t7 : Fin k0_t7_loop.trips) : Fin 3 → Nat :=
  let c3_i32_104 : BitVec 32 := 3#32
  let v98 : Index := Scalar.indexCast c3_i32_104
  let c0_i32_96 : BitVec 32 := 0#32
  let c1_i32_98 : BitVec 32 := 1#32
  let arg15 : BitVec 32 := Scf.iv c0_i32_96 c1_i32_98 k0_t7
  let c26_i32 : BitVec 32 := 26#32
  let v93 : BitVec 32 := Scalar.muli arg15 c26_i32
  let v99 : Index := Scalar.indexCast v93
  let c16 : Index := 16#32
  ![3, v99.toNat, 16]
def k0_off86 (k0_t7 : Fin k0_t7_loop.trips) : Fin 3 → Nat :=
  let c3_i32_105 : BitVec 32 := 3#32
  let v102 : Index := Scalar.indexCast c3_i32_105
  let c0_i32_96 : BitVec 32 := 0#32
  let c1_i32_98 : BitVec 32 := 1#32
  let arg15 : BitVec 32 := Scf.iv c0_i32_96 c1_i32_98 k0_t7
  let c26_i32 : BitVec 32 := 26#32
  let v93 : BitVec 32 := Scalar.muli arg15 c26_i32
  let v103 : Index := Scalar.indexCast v93
  let c32 : Index := 32#32
  ![3, v103.toNat, 32]
def k0_off87 (k0_t7 : Fin k0_t7_loop.trips) : Fin 3 → Nat :=
  let c3_i32_106 : BitVec 32 := 3#32
  let v106 : Index := Scalar.indexCast c3_i32_106
  let c0_i32_96 : BitVec 32 := 0#32
  let c1_i32_98 : BitVec 32 := 1#32
  let arg15 : BitVec 32 := Scf.iv c0_i32_96 c1_i32_98 k0_t7
  let c26_i32 : BitVec 32 := 26#32
  let v93 : BitVec 32 := Scalar.muli arg15 c26_i32
  let v107 : Index := Scalar.indexCast v93
  let c48 : Index := 48#32
  ![3, v107.toNat, 48]
def k0_off88 (k0_t7 : Fin k0_t7_loop.trips) (c1_i32_107 : BitVec 32) : Fin 3 → Nat :=
  let c3_i32_108 : BitVec 32 := 3#32
  let v111 : Index := Scalar.indexCast c3_i32_108
  let c0_i32_96 : BitVec 32 := 0#32
  let c1_i32_98 : BitVec 32 := 1#32
  let arg15 : BitVec 32 := Scf.iv c0_i32_96 c1_i32_98 k0_t7
  let c26_i32 : BitVec 32 := 26#32
  let v93 : BitVec 32 := Scalar.muli arg15 c26_i32
  let v110 : BitVec 32 := Scalar.addi v93 c1_i32_107
  let v112 : Index := Scalar.indexCast v110
  let c0_109 : Index := 0#32
  ![3, v112.toNat, 0]
def k0_off89 (k0_t7 : Fin k0_t7_loop.trips) (c1_i32_110 : BitVec 32) : Fin 3 → Nat :=
  let c3_i32_111 : BitVec 32 := 3#32
  let v117 : Index := Scalar.indexCast c3_i32_111
  let c0_i32_96 : BitVec 32 := 0#32
  let c1_i32_98 : BitVec 32 := 1#32
  let arg15 : BitVec 32 := Scf.iv c0_i32_96 c1_i32_98 k0_t7
  let c26_i32 : BitVec 32 := 26#32
  let v93 : BitVec 32 := Scalar.muli arg15 c26_i32
  let v116 : BitVec 32 := Scalar.addi v93 c1_i32_110
  let v118 : Index := Scalar.indexCast v116
  let c16_112 : Index := 16#32
  ![3, v118.toNat, 16]
def k0_off90 (k0_t7 : Fin k0_t7_loop.trips) (c1_i32_113 : BitVec 32) : Fin 3 → Nat :=
  let c3_i32_114 : BitVec 32 := 3#32
  let v123 : Index := Scalar.indexCast c3_i32_114
  let c0_i32_96 : BitVec 32 := 0#32
  let c1_i32_98 : BitVec 32 := 1#32
  let arg15 : BitVec 32 := Scf.iv c0_i32_96 c1_i32_98 k0_t7
  let c26_i32 : BitVec 32 := 26#32
  let v93 : BitVec 32 := Scalar.muli arg15 c26_i32
  let v122 : BitVec 32 := Scalar.addi v93 c1_i32_113
  let v124 : Index := Scalar.indexCast v122
  let c32_115 : Index := 32#32
  ![3, v124.toNat, 32]
def k0_off91 (k0_t7 : Fin k0_t7_loop.trips) (c1_i32_116 : BitVec 32) : Fin 3 → Nat :=
  let c3_i32_117 : BitVec 32 := 3#32
  let v129 : Index := Scalar.indexCast c3_i32_117
  let c0_i32_96 : BitVec 32 := 0#32
  let c1_i32_98 : BitVec 32 := 1#32
  let arg15 : BitVec 32 := Scf.iv c0_i32_96 c1_i32_98 k0_t7
  let c26_i32 : BitVec 32 := 26#32
  let v93 : BitVec 32 := Scalar.muli arg15 c26_i32
  let v128 : BitVec 32 := Scalar.addi v93 c1_i32_116
  let v130 : Index := Scalar.indexCast v128
  let c48_118 : Index := 48#32
  ![3, v130.toNat, 48]
def k0_off92 (k0_t3 : Fin k0_t3_loop.trips) (k0_t7 : Fin k0_t7_loop.trips) : Fin 2 → Nat :=
  let c4_i32 : BitVec 32 := 4#32
  let c0_i32_23 : BitVec 32 := 0#32
  let c1_i32_24 : BitVec 32 := 1#32
  let arg13 : BitVec 32 := Scf.iv c0_i32_23 c1_i32_24 k0_t3
  let v28 : BitVec 32 := Scalar.muli c4_i32 arg13
  let c3_i32 : BitVec 32 := 3#32
  let v77 : BitVec 32 := Scalar.addi v28 c3_i32
  let c4_i32_389 : BitVec 32 := 4#32
  let v712 : BitVec 32 := Scalar.muli v77 c4_i32_389
  let c0_i32_96 : BitVec 32 := 0#32
  let c1_i32_98 : BitVec 32 := 1#32
  let arg15 : BitVec 32 := Scf.iv c0_i32_96 c1_i32_98 k0_t7
  let v713 : BitVec 32 := Scalar.addi v712 arg15
  let v714 : Index := Scalar.indexCast v713
  let c0_390 : Index := 0#32
  ![v714.toNat, 0]
def k0_off93 (k0_t3 : Fin k0_t3_loop.trips) (k0_t7 : Fin k0_t7_loop.trips) : Fin 2 → Nat :=
  let c4_i32 : BitVec 32 := 4#32
  let c0_i32_23 : BitVec 32 := 0#32
  let c1_i32_24 : BitVec 32 := 1#32
  let arg13 : BitVec 32 := Scf.iv c0_i32_23 c1_i32_24 k0_t3
  let v28 : BitVec 32 := Scalar.muli c4_i32 arg13
  let c3_i32 : BitVec 32 := 3#32
  let v77 : BitVec 32 := Scalar.addi v28 c3_i32
  let c4_i32_392 : BitVec 32 := 4#32
  let v720 : BitVec 32 := Scalar.muli v77 c4_i32_392
  let c0_i32_96 : BitVec 32 := 0#32
  let c1_i32_98 : BitVec 32 := 1#32
  let arg15 : BitVec 32 := Scf.iv c0_i32_96 c1_i32_98 k0_t7
  let v721 : BitVec 32 := Scalar.addi v720 arg15
  let v722 : Index := Scalar.indexCast v721
  let c16_393 : Index := 16#32
  ![v722.toNat, 16]
def k0_off94 (k0_t3 : Fin k0_t3_loop.trips) (k0_t7 : Fin k0_t7_loop.trips) : Fin 2 → Nat :=
  let c4_i32 : BitVec 32 := 4#32
  let c0_i32_23 : BitVec 32 := 0#32
  let c1_i32_24 : BitVec 32 := 1#32
  let arg13 : BitVec 32 := Scf.iv c0_i32_23 c1_i32_24 k0_t3
  let v28 : BitVec 32 := Scalar.muli c4_i32 arg13
  let c3_i32 : BitVec 32 := 3#32
  let v77 : BitVec 32 := Scalar.addi v28 c3_i32
  let c4_i32_395 : BitVec 32 := 4#32
  let v728 : BitVec 32 := Scalar.muli v77 c4_i32_395
  let c0_i32_96 : BitVec 32 := 0#32
  let c1_i32_98 : BitVec 32 := 1#32
  let arg15 : BitVec 32 := Scf.iv c0_i32_96 c1_i32_98 k0_t7
  let v729 : BitVec 32 := Scalar.addi v728 arg15
  let v730 : Index := Scalar.indexCast v729
  let c32_396 : Index := 32#32
  ![v730.toNat, 32]
def k0_off95 (k0_t3 : Fin k0_t3_loop.trips) (k0_t7 : Fin k0_t7_loop.trips) : Fin 2 → Nat :=
  let c4_i32 : BitVec 32 := 4#32
  let c0_i32_23 : BitVec 32 := 0#32
  let c1_i32_24 : BitVec 32 := 1#32
  let arg13 : BitVec 32 := Scf.iv c0_i32_23 c1_i32_24 k0_t3
  let v28 : BitVec 32 := Scalar.muli c4_i32 arg13
  let c3_i32 : BitVec 32 := 3#32
  let v77 : BitVec 32 := Scalar.addi v28 c3_i32
  let c4_i32_398 : BitVec 32 := 4#32
  let v736 : BitVec 32 := Scalar.muli v77 c4_i32_398
  let c0_i32_96 : BitVec 32 := 0#32
  let c1_i32_98 : BitVec 32 := 1#32
  let arg15 : BitVec 32 := Scf.iv c0_i32_96 c1_i32_98 k0_t7
  let v737 : BitVec 32 := Scalar.addi v736 arg15
  let v738 : Index := Scalar.indexCast v737
  let c48_399 : Index := 48#32
  ![v738.toNat, 48]
def k0_off96 (k0_t7 : Fin k0_t7_loop.trips) : Fin 3 → Nat :=
  let c3_i32_400 : BitVec 32 := 3#32
  let v742 : Index := Scalar.indexCast c3_i32_400
  let c0_i32_96 : BitVec 32 := 0#32
  let c1_i32_98 : BitVec 32 := 1#32
  let arg15 : BitVec 32 := Scf.iv c0_i32_96 c1_i32_98 k0_t7
  let c26_i32 : BitVec 32 := 26#32
  let v93 : BitVec 32 := Scalar.muli arg15 c26_i32
  let v743 : Index := Scalar.indexCast v93
  let c64 : Index := 64#32
  ![3, v743.toNat, 64]
def k0_off97 (k0_t7 : Fin k0_t7_loop.trips) : Fin 3 → Nat :=
  let c3_i32_401 : BitVec 32 := 3#32
  let v746 : Index := Scalar.indexCast c3_i32_401
  let c0_i32_96 : BitVec 32 := 0#32
  let c1_i32_98 : BitVec 32 := 1#32
  let arg15 : BitVec 32 := Scf.iv c0_i32_96 c1_i32_98 k0_t7
  let c26_i32 : BitVec 32 := 26#32
  let v93 : BitVec 32 := Scalar.muli arg15 c26_i32
  let v747 : Index := Scalar.indexCast v93
  let c80 : Index := 80#32
  ![3, v747.toNat, 80]
def k0_off98 (k0_t7 : Fin k0_t7_loop.trips) : Fin 3 → Nat :=
  let c3_i32_402 : BitVec 32 := 3#32
  let v750 : Index := Scalar.indexCast c3_i32_402
  let c0_i32_96 : BitVec 32 := 0#32
  let c1_i32_98 : BitVec 32 := 1#32
  let arg15 : BitVec 32 := Scf.iv c0_i32_96 c1_i32_98 k0_t7
  let c26_i32 : BitVec 32 := 26#32
  let v93 : BitVec 32 := Scalar.muli arg15 c26_i32
  let v751 : Index := Scalar.indexCast v93
  let c96 : Index := 96#32
  ![3, v751.toNat, 96]
def k0_off99 (k0_t7 : Fin k0_t7_loop.trips) : Fin 3 → Nat :=
  let c3_i32_403 : BitVec 32 := 3#32
  let v754 : Index := Scalar.indexCast c3_i32_403
  let c0_i32_96 : BitVec 32 := 0#32
  let c1_i32_98 : BitVec 32 := 1#32
  let arg15 : BitVec 32 := Scf.iv c0_i32_96 c1_i32_98 k0_t7
  let c26_i32 : BitVec 32 := 26#32
  let v93 : BitVec 32 := Scalar.muli arg15 c26_i32
  let v755 : Index := Scalar.indexCast v93
  let c112 : Index := 112#32
  ![3, v755.toNat, 112]
def k0_off100 (k0_t7 : Fin k0_t7_loop.trips) (c1_i32_404 : BitVec 32) : Fin 3 → Nat :=
  let c3_i32_405 : BitVec 32 := 3#32
  let v759 : Index := Scalar.indexCast c3_i32_405
  let c0_i32_96 : BitVec 32 := 0#32
  let c1_i32_98 : BitVec 32 := 1#32
  let arg15 : BitVec 32 := Scf.iv c0_i32_96 c1_i32_98 k0_t7
  let c26_i32 : BitVec 32 := 26#32
  let v93 : BitVec 32 := Scalar.muli arg15 c26_i32
  let v758 : BitVec 32 := Scalar.addi v93 c1_i32_404
  let v760 : Index := Scalar.indexCast v758
  let c64_406 : Index := 64#32
  ![3, v760.toNat, 64]
def k0_off101 (k0_t7 : Fin k0_t7_loop.trips) (c1_i32_407 : BitVec 32) : Fin 3 → Nat :=
  let c3_i32_408 : BitVec 32 := 3#32
  let v765 : Index := Scalar.indexCast c3_i32_408
  let c0_i32_96 : BitVec 32 := 0#32
  let c1_i32_98 : BitVec 32 := 1#32
  let arg15 : BitVec 32 := Scf.iv c0_i32_96 c1_i32_98 k0_t7
  let c26_i32 : BitVec 32 := 26#32
  let v93 : BitVec 32 := Scalar.muli arg15 c26_i32
  let v764 : BitVec 32 := Scalar.addi v93 c1_i32_407
  let v766 : Index := Scalar.indexCast v764
  let c80_409 : Index := 80#32
  ![3, v766.toNat, 80]
def k0_off102 (k0_t7 : Fin k0_t7_loop.trips) (c1_i32_410 : BitVec 32) : Fin 3 → Nat :=
  let c3_i32_411 : BitVec 32 := 3#32
  let v771 : Index := Scalar.indexCast c3_i32_411
  let c0_i32_96 : BitVec 32 := 0#32
  let c1_i32_98 : BitVec 32 := 1#32
  let arg15 : BitVec 32 := Scf.iv c0_i32_96 c1_i32_98 k0_t7
  let c26_i32 : BitVec 32 := 26#32
  let v93 : BitVec 32 := Scalar.muli arg15 c26_i32
  let v770 : BitVec 32 := Scalar.addi v93 c1_i32_410
  let v772 : Index := Scalar.indexCast v770
  let c96_412 : Index := 96#32
  ![3, v772.toNat, 96]
def k0_off103 (k0_t7 : Fin k0_t7_loop.trips) (c1_i32_413 : BitVec 32) : Fin 3 → Nat :=
  let c3_i32_414 : BitVec 32 := 3#32
  let v777 : Index := Scalar.indexCast c3_i32_414
  let c0_i32_96 : BitVec 32 := 0#32
  let c1_i32_98 : BitVec 32 := 1#32
  let arg15 : BitVec 32 := Scf.iv c0_i32_96 c1_i32_98 k0_t7
  let c26_i32 : BitVec 32 := 26#32
  let v93 : BitVec 32 := Scalar.muli arg15 c26_i32
  let v776 : BitVec 32 := Scalar.addi v93 c1_i32_413
  let v778 : Index := Scalar.indexCast v776
  let c112_415 : Index := 112#32
  ![3, v778.toNat, 112]
def k0_off104 (k0_t3 : Fin k0_t3_loop.trips) (k0_t7 : Fin k0_t7_loop.trips) : Fin 2 → Nat :=
  let c4_i32 : BitVec 32 := 4#32
  let c0_i32_23 : BitVec 32 := 0#32
  let c1_i32_24 : BitVec 32 := 1#32
  let arg13 : BitVec 32 := Scf.iv c0_i32_23 c1_i32_24 k0_t3
  let v28 : BitVec 32 := Scalar.muli c4_i32 arg13
  let c3_i32 : BitVec 32 := 3#32
  let v77 : BitVec 32 := Scalar.addi v28 c3_i32
  let c4_i32_705 : BitVec 32 := 4#32
  let v1360 : BitVec 32 := Scalar.muli v77 c4_i32_705
  let c0_i32_96 : BitVec 32 := 0#32
  let c1_i32_98 : BitVec 32 := 1#32
  let arg15 : BitVec 32 := Scf.iv c0_i32_96 c1_i32_98 k0_t7
  let v1361 : BitVec 32 := Scalar.addi v1360 arg15
  let v1362 : Index := Scalar.indexCast v1361
  let c64_706 : Index := 64#32
  ![v1362.toNat, 64]
def k0_off105 (k0_t3 : Fin k0_t3_loop.trips) (k0_t7 : Fin k0_t7_loop.trips) : Fin 2 → Nat :=
  let c4_i32 : BitVec 32 := 4#32
  let c0_i32_23 : BitVec 32 := 0#32
  let c1_i32_24 : BitVec 32 := 1#32
  let arg13 : BitVec 32 := Scf.iv c0_i32_23 c1_i32_24 k0_t3
  let v28 : BitVec 32 := Scalar.muli c4_i32 arg13
  let c3_i32 : BitVec 32 := 3#32
  let v77 : BitVec 32 := Scalar.addi v28 c3_i32
  let c4_i32_708 : BitVec 32 := 4#32
  let v1368 : BitVec 32 := Scalar.muli v77 c4_i32_708
  let c0_i32_96 : BitVec 32 := 0#32
  let c1_i32_98 : BitVec 32 := 1#32
  let arg15 : BitVec 32 := Scf.iv c0_i32_96 c1_i32_98 k0_t7
  let v1369 : BitVec 32 := Scalar.addi v1368 arg15
  let v1370 : Index := Scalar.indexCast v1369
  let c80_709 : Index := 80#32
  ![v1370.toNat, 80]
def k0_off106 (k0_t3 : Fin k0_t3_loop.trips) (k0_t7 : Fin k0_t7_loop.trips) : Fin 2 → Nat :=
  let c4_i32 : BitVec 32 := 4#32
  let c0_i32_23 : BitVec 32 := 0#32
  let c1_i32_24 : BitVec 32 := 1#32
  let arg13 : BitVec 32 := Scf.iv c0_i32_23 c1_i32_24 k0_t3
  let v28 : BitVec 32 := Scalar.muli c4_i32 arg13
  let c3_i32 : BitVec 32 := 3#32
  let v77 : BitVec 32 := Scalar.addi v28 c3_i32
  let c4_i32_711 : BitVec 32 := 4#32
  let v1376 : BitVec 32 := Scalar.muli v77 c4_i32_711
  let c0_i32_96 : BitVec 32 := 0#32
  let c1_i32_98 : BitVec 32 := 1#32
  let arg15 : BitVec 32 := Scf.iv c0_i32_96 c1_i32_98 k0_t7
  let v1377 : BitVec 32 := Scalar.addi v1376 arg15
  let v1378 : Index := Scalar.indexCast v1377
  let c96_712 : Index := 96#32
  ![v1378.toNat, 96]
def k0_off107 (k0_t3 : Fin k0_t3_loop.trips) (k0_t7 : Fin k0_t7_loop.trips) : Fin 2 → Nat :=
  let c4_i32 : BitVec 32 := 4#32
  let c0_i32_23 : BitVec 32 := 0#32
  let c1_i32_24 : BitVec 32 := 1#32
  let arg13 : BitVec 32 := Scf.iv c0_i32_23 c1_i32_24 k0_t3
  let v28 : BitVec 32 := Scalar.muli c4_i32 arg13
  let c3_i32 : BitVec 32 := 3#32
  let v77 : BitVec 32 := Scalar.addi v28 c3_i32
  let c4_i32_714 : BitVec 32 := 4#32
  let v1384 : BitVec 32 := Scalar.muli v77 c4_i32_714
  let c0_i32_96 : BitVec 32 := 0#32
  let c1_i32_98 : BitVec 32 := 1#32
  let arg15 : BitVec 32 := Scf.iv c0_i32_96 c1_i32_98 k0_t7
  let v1385 : BitVec 32 := Scalar.addi v1384 arg15
  let v1386 : Index := Scalar.indexCast v1385
  let c112_715 : Index := 112#32
  ![v1386.toNat, 112]
def k0_cond8 (k0_t3 : Fin k0_t3_loop.trips) : BitVec 1 :=
  let c4_i32 : BitVec 32 := 4#32
  let c0_i32_23 : BitVec 32 := 0#32
  let c1_i32_24 : BitVec 32 := 1#32
  let arg13 : BitVec 32 := Scf.iv c0_i32_23 c1_i32_24 k0_t3
  let v28 : BitVec 32 := Scalar.muli c4_i32 arg13
  let c3_i32 : BitVec 32 := 3#32
  let v77 : BitVec 32 := Scalar.addi v28 c3_i32
  let c15_i32_100 : BitVec 32 := 15#32
  let v90 : BitVec 1 := Scalar.cmpi .eq v77 c15_i32_100
  let v91 : BitVec 32 := Scalar.extui v90
  let c0_i32_101 : BitVec 32 := 0#32
  let v92 : BitVec 1 := Scalar.cmpi .ne v91 c0_i32_101
  v92

def k0_off108 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_103 : BitVec 32 := 128#32
  let v93 : BitVec 32 := Scalar.muli v1 c128_i32_103
  let c0_i32_106 : BitVec 32 := 0#32
  ![v93.toNat, 0]
def k0_off109 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v21 : BitVec 32 := Scalar.muli v1 c128_i32
  let c64_i32 : BitVec 32 := 64#32
  let v22 : BitVec 32 := Scalar.addi v21 c64_i32
  let c0_i32_35_r1 : BitVec 32 := 0#32
  ![v22.toNat, 0]
def k0_off110 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_26 : BitVec 32 := 128#32
  let v23 : BitVec 32 := Scalar.muli v1 c128_i32_26
  let c0_i32_29 : BitVec 32 := 0#32
  ![v23.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S4096x26_S106496 : S4096x26.ShapeCasts S106496
  iota_S16_d0_w32_scVector : S16.Iotas .scVector 32 [0]
  h_S16 : 0 < S16.numel
  shapeCasts_S16_S16 : S16.ShapeCasts S16
  inb_S4x104x128_S1x104x128_0_0_0 : ∀ a, (![0, 0, 0] : Fin 3 → Nat) a + S1x104x128.size a ≤ S4x104x128.size a
  squeezes_S1x104x128_S104x128 : S1x104x128.Squeezes S104x128
  inb_S3328_S104_0 : ∀ a, (![0] : Fin 1 → Nat) a + S104.size a ≤ S3328.size a
  inb_S2600000x128_S2600000x128_0_0 : ∀ a, (![0, 0] : Fin 2 → Nat) a + S2600000x128.size a ≤ S2600000x128.size a
  gathers_S2600000x128_S104x128 : S2600000x128.Gathers 0 S104x128
  inb_S4x104x128_S1x104x128_1_0_0 : ∀ a, (![1, 0, 0] : Fin 3 → Nat) a + S1x104x128.size a ≤ S4x104x128.size a
  inb_S3328_S104_104 : ∀ a, (![104] : Fin 1 → Nat) a + S104.size a ≤ S3328.size a
  inb_S4x104x128_S1x104x128_2_0_0 : ∀ a, (![2, 0, 0] : Fin 3 → Nat) a + S1x104x128.size a ≤ S4x104x128.size a
  inb_S3328_S104_208 : ∀ a, (![208] : Fin 1 → Nat) a + S104.size a ≤ S3328.size a
  inb_S4x104x128_S1x104x128_3_0_0 : ∀ a, (![3, 0, 0] : Fin 3 → Nat) a + S1x104x128.size a ≤ S4x104x128.size a
  h_S1x1x16 : 0 < S1x1x16.numel
  shapeCasts_S1x1x16_S16 : S1x1x16.ShapeCasts S16
  h_S1x16 : 0 < S1x16.numel
  shapeCasts_S1x16_S16 : S1x16.ShapeCasts S16
  shapeCasts_S16_S1x16 : S16.ShapeCasts S1x16
  inb_S128x128_S64x128_0_0 : ∀ a, (![0, 0] : Fin 2 → Nat) a + S64x128.size a ≤ S128x128.size a
  inb_S128x128_S64x128_64_0 : ∀ a, (![64, 0] : Fin 2 → Nat) a + S64x128.size a ≤ S128x128.size a
  hcc0_scratch3 : 0 + S_.numel ≤ 7
  hcc0_scratch4 : 1 + S_.numel ≤ 7
  hcc0_scratch5 : 2 + S_.numel ≤ 7
  hcc0_scratch6 : 3 + S_.numel ≤ 7
  hcc0_scratch7 : 4 + S_.numel ≤ 7
  hcc0_scoped0 : 5 + S_.numel ≤ 7
  hcc0_scoped1 : 6 + S_.numel ≤ 7
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S3328.size a ≤ S106496.size a
  k0_t1_ok : k0_t1_loop.OK
  k0_off2_inb : ∀ k0_t1 : Fin k0_t1_loop.trips, ∀ a, (k0_off2 k0_t1) a + S16.size a ≤ S3328.size a
  k0_t2_ok : k0_t2_loop.OK
  k0_off3_inb : ∀ k0_t2 : Fin k0_t2_loop.trips, ∀ a, (k0_off3 k0_t2) a + S16.size a ≤ S3328.size a
  k0_t3_ok : k0_t3_loop.OK
  k0_off4_inb : ∀ k0_t3 : Fin k0_t3_loop.trips, ∀ (k0_h1 : k0_cond1 k0_t3 = 1#1), ∀ a, (k0_off4 k0_t3) a + S104.size a ≤ S3328.size a
  k0_off5_inb : ∀ k0_t3 : Fin k0_t3_loop.trips, ∀ (r : Fin 4), ∀ a, (k0_off5 k0_t3 (BitVec.ofNat 32 r.val)) a + S104.size a ≤ S3328.size a
  k0_t4_ok : k0_t4_loop.OK
  k0_off6_inb : ∀ k0_t4 : Fin k0_t4_loop.trips, ∀ a, (k0_off6 k0_t4) a + S1x1x16.size a ≤ S4x104x128.size a
  k0_off7_inb : ∀ k0_t4 : Fin k0_t4_loop.trips, ∀ a, (k0_off7 k0_t4) a + S1x1x16.size a ≤ S4x104x128.size a
  k0_off8_inb : ∀ k0_t4 : Fin k0_t4_loop.trips, ∀ a, (k0_off8 k0_t4) a + S1x1x16.size a ≤ S4x104x128.size a
  k0_off9_inb : ∀ k0_t4 : Fin k0_t4_loop.trips, ∀ a, (k0_off9 k0_t4) a + S1x1x16.size a ≤ S4x104x128.size a
  k0_off10_inb : ∀ k0_t4 : Fin k0_t4_loop.trips, ∀ (r : Fin 25), ∀ a, (k0_off10 k0_t4 (BitVec.ofNat 32 (1 + r.val))) a + S1x1x16.size a ≤ S4x104x128.size a
  k0_off11_inb : ∀ k0_t4 : Fin k0_t4_loop.trips, ∀ (r : Fin 25), ∀ a, (k0_off11 k0_t4 (BitVec.ofNat 32 (1 + r.val))) a + S1x1x16.size a ≤ S4x104x128.size a
  k0_off12_inb : ∀ k0_t4 : Fin k0_t4_loop.trips, ∀ (r : Fin 25), ∀ a, (k0_off12 k0_t4 (BitVec.ofNat 32 (1 + r.val))) a + S1x1x16.size a ≤ S4x104x128.size a
  k0_off13_inb : ∀ k0_t4 : Fin k0_t4_loop.trips, ∀ (r : Fin 25), ∀ a, (k0_off13 k0_t4 (BitVec.ofNat 32 (1 + r.val))) a + S1x1x16.size a ≤ S4x104x128.size a
  k0_off14_inb : ∀ (k0_t3 : Fin k0_t3_loop.trips) (k0_t4 : Fin k0_t4_loop.trips), ∀ a, (k0_off14 k0_t3 k0_t4) a + S1x16.size a ≤ S128x128.size a
  k0_off15_inb : ∀ (k0_t3 : Fin k0_t3_loop.trips) (k0_t4 : Fin k0_t4_loop.trips), ∀ a, (k0_off15 k0_t3 k0_t4) a + S1x16.size a ≤ S128x128.size a
  k0_off16_inb : ∀ (k0_t3 : Fin k0_t3_loop.trips) (k0_t4 : Fin k0_t4_loop.trips), ∀ a, (k0_off16 k0_t3 k0_t4) a + S1x16.size a ≤ S128x128.size a
  k0_off17_inb : ∀ (k0_t3 : Fin k0_t3_loop.trips) (k0_t4 : Fin k0_t4_loop.trips), ∀ a, (k0_off17 k0_t3 k0_t4) a + S1x16.size a ≤ S128x128.size a
  k0_off18_inb : ∀ k0_t4 : Fin k0_t4_loop.trips, ∀ a, (k0_off18 k0_t4) a + S1x1x16.size a ≤ S4x104x128.size a
  k0_off19_inb : ∀ k0_t4 : Fin k0_t4_loop.trips, ∀ a, (k0_off19 k0_t4) a + S1x1x16.size a ≤ S4x104x128.size a
  k0_off20_inb : ∀ k0_t4 : Fin k0_t4_loop.trips, ∀ a, (k0_off20 k0_t4) a + S1x1x16.size a ≤ S4x104x128.size a
  k0_off21_inb : ∀ k0_t4 : Fin k0_t4_loop.trips, ∀ a, (k0_off21 k0_t4) a + S1x1x16.size a ≤ S4x104x128.size a
  k0_off22_inb : ∀ k0_t4 : Fin k0_t4_loop.trips, ∀ (r : Fin 25), ∀ a, (k0_off22 k0_t4 (BitVec.ofNat 32 (1 + r.val))) a + S1x1x16.size a ≤ S4x104x128.size a
  k0_off23_inb : ∀ k0_t4 : Fin k0_t4_loop.trips, ∀ (r : Fin 25), ∀ a, (k0_off23 k0_t4 (BitVec.ofNat 32 (1 + r.val))) a + S1x1x16.size a ≤ S4x104x128.size a
  k0_off24_inb : ∀ k0_t4 : Fin k0_t4_loop.trips, ∀ (r : Fin 25), ∀ a, (k0_off24 k0_t4 (BitVec.ofNat 32 (1 + r.val))) a + S1x1x16.size a ≤ S4x104x128.size a
  k0_off25_inb : ∀ k0_t4 : Fin k0_t4_loop.trips, ∀ (r : Fin 25), ∀ a, (k0_off25 k0_t4 (BitVec.ofNat 32 (1 + r.val))) a + S1x1x16.size a ≤ S4x104x128.size a
  k0_off26_inb : ∀ (k0_t3 : Fin k0_t3_loop.trips) (k0_t4 : Fin k0_t4_loop.trips), ∀ a, (k0_off26 k0_t3 k0_t4) a + S1x16.size a ≤ S128x128.size a
  k0_off27_inb : ∀ (k0_t3 : Fin k0_t3_loop.trips) (k0_t4 : Fin k0_t4_loop.trips), ∀ a, (k0_off27 k0_t3 k0_t4) a + S1x16.size a ≤ S128x128.size a
  k0_off28_inb : ∀ (k0_t3 : Fin k0_t3_loop.trips) (k0_t4 : Fin k0_t4_loop.trips), ∀ a, (k0_off28 k0_t3 k0_t4) a + S1x16.size a ≤ S128x128.size a
  k0_off29_inb : ∀ (k0_t3 : Fin k0_t3_loop.trips) (k0_t4 : Fin k0_t4_loop.trips), ∀ a, (k0_off29 k0_t3 k0_t4) a + S1x16.size a ≤ S128x128.size a
  k0_off30_inb : ∀ (i : grid0.Coords) (k0_t3 : Fin k0_t3_loop.trips), ∀ (k0_h2 : k0_cond2 k0_t3 = 1#1), ∀ a, (k0_off30 i) a + S64x128.size a ≤ S4096x128.size a
  k0_off31_inb : ∀ k0_t3 : Fin k0_t3_loop.trips, ∀ (k0_h3 : k0_cond3 k0_t3 = 1#1), ∀ a, (k0_off31 k0_t3) a + S104.size a ≤ S3328.size a
  k0_t5_ok : k0_t5_loop.OK
  k0_off32_inb : ∀ k0_t5 : Fin k0_t5_loop.trips, ∀ a, (k0_off32 k0_t5) a + S1x1x16.size a ≤ S4x104x128.size a
  k0_off33_inb : ∀ k0_t5 : Fin k0_t5_loop.trips, ∀ a, (k0_off33 k0_t5) a + S1x1x16.size a ≤ S4x104x128.size a
  k0_off34_inb : ∀ k0_t5 : Fin k0_t5_loop.trips, ∀ a, (k0_off34 k0_t5) a + S1x1x16.size a ≤ S4x104x128.size a
  k0_off35_inb : ∀ k0_t5 : Fin k0_t5_loop.trips, ∀ a, (k0_off35 k0_t5) a + S1x1x16.size a ≤ S4x104x128.size a
  k0_off36_inb : ∀ k0_t5 : Fin k0_t5_loop.trips, ∀ (r : Fin 25), ∀ a, (k0_off36 k0_t5 (BitVec.ofNat 32 (1 + r.val))) a + S1x1x16.size a ≤ S4x104x128.size a
  k0_off37_inb : ∀ k0_t5 : Fin k0_t5_loop.trips, ∀ (r : Fin 25), ∀ a, (k0_off37 k0_t5 (BitVec.ofNat 32 (1 + r.val))) a + S1x1x16.size a ≤ S4x104x128.size a
  k0_off38_inb : ∀ k0_t5 : Fin k0_t5_loop.trips, ∀ (r : Fin 25), ∀ a, (k0_off38 k0_t5 (BitVec.ofNat 32 (1 + r.val))) a + S1x1x16.size a ≤ S4x104x128.size a
  k0_off39_inb : ∀ k0_t5 : Fin k0_t5_loop.trips, ∀ (r : Fin 25), ∀ a, (k0_off39 k0_t5 (BitVec.ofNat 32 (1 + r.val))) a + S1x1x16.size a ≤ S4x104x128.size a
  k0_off40_inb : ∀ (k0_t3 : Fin k0_t3_loop.trips) (k0_t5 : Fin k0_t5_loop.trips), ∀ a, (k0_off40 k0_t3 k0_t5) a + S1x16.size a ≤ S128x128.size a
  k0_off41_inb : ∀ (k0_t3 : Fin k0_t3_loop.trips) (k0_t5 : Fin k0_t5_loop.trips), ∀ a, (k0_off41 k0_t3 k0_t5) a + S1x16.size a ≤ S128x128.size a
  k0_off42_inb : ∀ (k0_t3 : Fin k0_t3_loop.trips) (k0_t5 : Fin k0_t5_loop.trips), ∀ a, (k0_off42 k0_t3 k0_t5) a + S1x16.size a ≤ S128x128.size a
  k0_off43_inb : ∀ (k0_t3 : Fin k0_t3_loop.trips) (k0_t5 : Fin k0_t5_loop.trips), ∀ a, (k0_off43 k0_t3 k0_t5) a + S1x16.size a ≤ S128x128.size a
  k0_off44_inb : ∀ k0_t5 : Fin k0_t5_loop.trips, ∀ a, (k0_off44 k0_t5) a + S1x1x16.size a ≤ S4x104x128.size a
  k0_off45_inb : ∀ k0_t5 : Fin k0_t5_loop.trips, ∀ a, (k0_off45 k0_t5) a + S1x1x16.size a ≤ S4x104x128.size a
  k0_off46_inb : ∀ k0_t5 : Fin k0_t5_loop.trips, ∀ a, (k0_off46 k0_t5) a + S1x1x16.size a ≤ S4x104x128.size a
  k0_off47_inb : ∀ k0_t5 : Fin k0_t5_loop.trips, ∀ a, (k0_off47 k0_t5) a + S1x1x16.size a ≤ S4x104x128.size a
  k0_off48_inb : ∀ k0_t5 : Fin k0_t5_loop.trips, ∀ (r : Fin 25), ∀ a, (k0_off48 k0_t5 (BitVec.ofNat 32 (1 + r.val))) a + S1x1x16.size a ≤ S4x104x128.size a
  k0_off49_inb : ∀ k0_t5 : Fin k0_t5_loop.trips, ∀ (r : Fin 25), ∀ a, (k0_off49 k0_t5 (BitVec.ofNat 32 (1 + r.val))) a + S1x1x16.size a ≤ S4x104x128.size a
  k0_off50_inb : ∀ k0_t5 : Fin k0_t5_loop.trips, ∀ (r : Fin 25), ∀ a, (k0_off50 k0_t5 (BitVec.ofNat 32 (1 + r.val))) a + S1x1x16.size a ≤ S4x104x128.size a
  k0_off51_inb : ∀ k0_t5 : Fin k0_t5_loop.trips, ∀ (r : Fin 25), ∀ a, (k0_off51 k0_t5 (BitVec.ofNat 32 (1 + r.val))) a + S1x1x16.size a ≤ S4x104x128.size a
  k0_off52_inb : ∀ (k0_t3 : Fin k0_t3_loop.trips) (k0_t5 : Fin k0_t5_loop.trips), ∀ a, (k0_off52 k0_t3 k0_t5) a + S1x16.size a ≤ S128x128.size a
  k0_off53_inb : ∀ (k0_t3 : Fin k0_t3_loop.trips) (k0_t5 : Fin k0_t5_loop.trips), ∀ a, (k0_off53 k0_t3 k0_t5) a + S1x16.size a ≤ S128x128.size a
  k0_off54_inb : ∀ (k0_t3 : Fin k0_t3_loop.trips) (k0_t5 : Fin k0_t5_loop.trips), ∀ a, (k0_off54 k0_t3 k0_t5) a + S1x16.size a ≤ S128x128.size a
  k0_off55_inb : ∀ (k0_t3 : Fin k0_t3_loop.trips) (k0_t5 : Fin k0_t5_loop.trips), ∀ a, (k0_off55 k0_t3 k0_t5) a + S1x16.size a ≤ S128x128.size a
  k0_off56_inb : ∀ (i : grid0.Coords) (k0_t3 : Fin k0_t3_loop.trips), ∀ (k0_h4 : k0_cond4 k0_t3 = 1#1), ∀ a, (k0_off56 i) a + S64x128.size a ≤ S4096x128.size a
  k0_off57_inb : ∀ k0_t3 : Fin k0_t3_loop.trips, ∀ (k0_h5 : k0_cond5 k0_t3 = 1#1), ∀ a, (k0_off57 k0_t3) a + S104.size a ≤ S3328.size a
  k0_t6_ok : k0_t6_loop.OK
  k0_off58_inb : ∀ k0_t6 : Fin k0_t6_loop.trips, ∀ a, (k0_off58 k0_t6) a + S1x1x16.size a ≤ S4x104x128.size a
  k0_off59_inb : ∀ k0_t6 : Fin k0_t6_loop.trips, ∀ a, (k0_off59 k0_t6) a + S1x1x16.size a ≤ S4x104x128.size a
  k0_off60_inb : ∀ k0_t6 : Fin k0_t6_loop.trips, ∀ a, (k0_off60 k0_t6) a + S1x1x16.size a ≤ S4x104x128.size a
  k0_off61_inb : ∀ k0_t6 : Fin k0_t6_loop.trips, ∀ a, (k0_off61 k0_t6) a + S1x1x16.size a ≤ S4x104x128.size a
  k0_off62_inb : ∀ k0_t6 : Fin k0_t6_loop.trips, ∀ (r : Fin 25), ∀ a, (k0_off62 k0_t6 (BitVec.ofNat 32 (1 + r.val))) a + S1x1x16.size a ≤ S4x104x128.size a
  k0_off63_inb : ∀ k0_t6 : Fin k0_t6_loop.trips, ∀ (r : Fin 25), ∀ a, (k0_off63 k0_t6 (BitVec.ofNat 32 (1 + r.val))) a + S1x1x16.size a ≤ S4x104x128.size a
  k0_off64_inb : ∀ k0_t6 : Fin k0_t6_loop.trips, ∀ (r : Fin 25), ∀ a, (k0_off64 k0_t6 (BitVec.ofNat 32 (1 + r.val))) a + S1x1x16.size a ≤ S4x104x128.size a
  k0_off65_inb : ∀ k0_t6 : Fin k0_t6_loop.trips, ∀ (r : Fin 25), ∀ a, (k0_off65 k0_t6 (BitVec.ofNat 32 (1 + r.val))) a + S1x1x16.size a ≤ S4x104x128.size a
  k0_off66_inb : ∀ (k0_t3 : Fin k0_t3_loop.trips) (k0_t6 : Fin k0_t6_loop.trips), ∀ a, (k0_off66 k0_t3 k0_t6) a + S1x16.size a ≤ S128x128.size a
  k0_off67_inb : ∀ (k0_t3 : Fin k0_t3_loop.trips) (k0_t6 : Fin k0_t6_loop.trips), ∀ a, (k0_off67 k0_t3 k0_t6) a + S1x16.size a ≤ S128x128.size a
  k0_off68_inb : ∀ (k0_t3 : Fin k0_t3_loop.trips) (k0_t6 : Fin k0_t6_loop.trips), ∀ a, (k0_off68 k0_t3 k0_t6) a + S1x16.size a ≤ S128x128.size a
  k0_off69_inb : ∀ (k0_t3 : Fin k0_t3_loop.trips) (k0_t6 : Fin k0_t6_loop.trips), ∀ a, (k0_off69 k0_t3 k0_t6) a + S1x16.size a ≤ S128x128.size a
  k0_off70_inb : ∀ k0_t6 : Fin k0_t6_loop.trips, ∀ a, (k0_off70 k0_t6) a + S1x1x16.size a ≤ S4x104x128.size a
  k0_off71_inb : ∀ k0_t6 : Fin k0_t6_loop.trips, ∀ a, (k0_off71 k0_t6) a + S1x1x16.size a ≤ S4x104x128.size a
  k0_off72_inb : ∀ k0_t6 : Fin k0_t6_loop.trips, ∀ a, (k0_off72 k0_t6) a + S1x1x16.size a ≤ S4x104x128.size a
  k0_off73_inb : ∀ k0_t6 : Fin k0_t6_loop.trips, ∀ a, (k0_off73 k0_t6) a + S1x1x16.size a ≤ S4x104x128.size a
  k0_off74_inb : ∀ k0_t6 : Fin k0_t6_loop.trips, ∀ (r : Fin 25), ∀ a, (k0_off74 k0_t6 (BitVec.ofNat 32 (1 + r.val))) a + S1x1x16.size a ≤ S4x104x128.size a
  k0_off75_inb : ∀ k0_t6 : Fin k0_t6_loop.trips, ∀ (r : Fin 25), ∀ a, (k0_off75 k0_t6 (BitVec.ofNat 32 (1 + r.val))) a + S1x1x16.size a ≤ S4x104x128.size a
  k0_off76_inb : ∀ k0_t6 : Fin k0_t6_loop.trips, ∀ (r : Fin 25), ∀ a, (k0_off76 k0_t6 (BitVec.ofNat 32 (1 + r.val))) a + S1x1x16.size a ≤ S4x104x128.size a
  k0_off77_inb : ∀ k0_t6 : Fin k0_t6_loop.trips, ∀ (r : Fin 25), ∀ a, (k0_off77 k0_t6 (BitVec.ofNat 32 (1 + r.val))) a + S1x1x16.size a ≤ S4x104x128.size a
  k0_off78_inb : ∀ (k0_t3 : Fin k0_t3_loop.trips) (k0_t6 : Fin k0_t6_loop.trips), ∀ a, (k0_off78 k0_t3 k0_t6) a + S1x16.size a ≤ S128x128.size a
  k0_off79_inb : ∀ (k0_t3 : Fin k0_t3_loop.trips) (k0_t6 : Fin k0_t6_loop.trips), ∀ a, (k0_off79 k0_t3 k0_t6) a + S1x16.size a ≤ S128x128.size a
  k0_off80_inb : ∀ (k0_t3 : Fin k0_t3_loop.trips) (k0_t6 : Fin k0_t6_loop.trips), ∀ a, (k0_off80 k0_t3 k0_t6) a + S1x16.size a ≤ S128x128.size a
  k0_off81_inb : ∀ (k0_t3 : Fin k0_t3_loop.trips) (k0_t6 : Fin k0_t6_loop.trips), ∀ a, (k0_off81 k0_t3 k0_t6) a + S1x16.size a ≤ S128x128.size a
  k0_off82_inb : ∀ (i : grid0.Coords) (k0_t3 : Fin k0_t3_loop.trips), ∀ (k0_h6 : k0_cond6 k0_t3 = 1#1), ∀ a, (k0_off82 i) a + S64x128.size a ≤ S4096x128.size a
  k0_off83_inb : ∀ k0_t3 : Fin k0_t3_loop.trips, ∀ (k0_h7 : k0_cond7 k0_t3 = 1#1), ∀ a, (k0_off83 k0_t3) a + S104.size a ≤ S3328.size a
  k0_t7_ok : k0_t7_loop.OK
  k0_off84_inb : ∀ k0_t7 : Fin k0_t7_loop.trips, ∀ a, (k0_off84 k0_t7) a + S1x1x16.size a ≤ S4x104x128.size a
  k0_off85_inb : ∀ k0_t7 : Fin k0_t7_loop.trips, ∀ a, (k0_off85 k0_t7) a + S1x1x16.size a ≤ S4x104x128.size a
  k0_off86_inb : ∀ k0_t7 : Fin k0_t7_loop.trips, ∀ a, (k0_off86 k0_t7) a + S1x1x16.size a ≤ S4x104x128.size a
  k0_off87_inb : ∀ k0_t7 : Fin k0_t7_loop.trips, ∀ a, (k0_off87 k0_t7) a + S1x1x16.size a ≤ S4x104x128.size a
  k0_off88_inb : ∀ k0_t7 : Fin k0_t7_loop.trips, ∀ (r : Fin 25), ∀ a, (k0_off88 k0_t7 (BitVec.ofNat 32 (1 + r.val))) a + S1x1x16.size a ≤ S4x104x128.size a
  k0_off89_inb : ∀ k0_t7 : Fin k0_t7_loop.trips, ∀ (r : Fin 25), ∀ a, (k0_off89 k0_t7 (BitVec.ofNat 32 (1 + r.val))) a + S1x1x16.size a ≤ S4x104x128.size a
  k0_off90_inb : ∀ k0_t7 : Fin k0_t7_loop.trips, ∀ (r : Fin 25), ∀ a, (k0_off90 k0_t7 (BitVec.ofNat 32 (1 + r.val))) a + S1x1x16.size a ≤ S4x104x128.size a
  k0_off91_inb : ∀ k0_t7 : Fin k0_t7_loop.trips, ∀ (r : Fin 25), ∀ a, (k0_off91 k0_t7 (BitVec.ofNat 32 (1 + r.val))) a + S1x1x16.size a ≤ S4x104x128.size a
  k0_off92_inb : ∀ (k0_t3 : Fin k0_t3_loop.trips) (k0_t7 : Fin k0_t7_loop.trips), ∀ a, (k0_off92 k0_t3 k0_t7) a + S1x16.size a ≤ S128x128.size a
  k0_off93_inb : ∀ (k0_t3 : Fin k0_t3_loop.trips) (k0_t7 : Fin k0_t7_loop.trips), ∀ a, (k0_off93 k0_t3 k0_t7) a + S1x16.size a ≤ S128x128.size a
  k0_off94_inb : ∀ (k0_t3 : Fin k0_t3_loop.trips) (k0_t7 : Fin k0_t7_loop.trips), ∀ a, (k0_off94 k0_t3 k0_t7) a + S1x16.size a ≤ S128x128.size a
  k0_off95_inb : ∀ (k0_t3 : Fin k0_t3_loop.trips) (k0_t7 : Fin k0_t7_loop.trips), ∀ a, (k0_off95 k0_t3 k0_t7) a + S1x16.size a ≤ S128x128.size a
  k0_off96_inb : ∀ k0_t7 : Fin k0_t7_loop.trips, ∀ a, (k0_off96 k0_t7) a + S1x1x16.size a ≤ S4x104x128.size a
  k0_off97_inb : ∀ k0_t7 : Fin k0_t7_loop.trips, ∀ a, (k0_off97 k0_t7) a + S1x1x16.size a ≤ S4x104x128.size a
  k0_off98_inb : ∀ k0_t7 : Fin k0_t7_loop.trips, ∀ a, (k0_off98 k0_t7) a + S1x1x16.size a ≤ S4x104x128.size a
  k0_off99_inb : ∀ k0_t7 : Fin k0_t7_loop.trips, ∀ a, (k0_off99 k0_t7) a + S1x1x16.size a ≤ S4x104x128.size a
  k0_off100_inb : ∀ k0_t7 : Fin k0_t7_loop.trips, ∀ (r : Fin 25), ∀ a, (k0_off100 k0_t7 (BitVec.ofNat 32 (1 + r.val))) a + S1x1x16.size a ≤ S4x104x128.size a
  k0_off101_inb : ∀ k0_t7 : Fin k0_t7_loop.trips, ∀ (r : Fin 25), ∀ a, (k0_off101 k0_t7 (BitVec.ofNat 32 (1 + r.val))) a + S1x1x16.size a ≤ S4x104x128.size a
  k0_off102_inb : ∀ k0_t7 : Fin k0_t7_loop.trips, ∀ (r : Fin 25), ∀ a, (k0_off102 k0_t7 (BitVec.ofNat 32 (1 + r.val))) a + S1x1x16.size a ≤ S4x104x128.size a
  k0_off103_inb : ∀ k0_t7 : Fin k0_t7_loop.trips, ∀ (r : Fin 25), ∀ a, (k0_off103 k0_t7 (BitVec.ofNat 32 (1 + r.val))) a + S1x1x16.size a ≤ S4x104x128.size a
  k0_off104_inb : ∀ (k0_t3 : Fin k0_t3_loop.trips) (k0_t7 : Fin k0_t7_loop.trips), ∀ a, (k0_off104 k0_t3 k0_t7) a + S1x16.size a ≤ S128x128.size a
  k0_off105_inb : ∀ (k0_t3 : Fin k0_t3_loop.trips) (k0_t7 : Fin k0_t7_loop.trips), ∀ a, (k0_off105 k0_t3 k0_t7) a + S1x16.size a ≤ S128x128.size a
  k0_off106_inb : ∀ (k0_t3 : Fin k0_t3_loop.trips) (k0_t7 : Fin k0_t7_loop.trips), ∀ a, (k0_off106 k0_t3 k0_t7) a + S1x16.size a ≤ S128x128.size a
  k0_off107_inb : ∀ (k0_t3 : Fin k0_t3_loop.trips) (k0_t7 : Fin k0_t7_loop.trips), ∀ a, (k0_off107 k0_t3 k0_t7) a + S1x16.size a ≤ S128x128.size a
  k0_off108_inb : ∀ (i : grid0.Coords) (k0_t3 : Fin k0_t3_loop.trips), ∀ (k0_h8 : k0_cond8 k0_t3 = 1#1), ∀ a, (k0_off108 i) a + S64x128.size a ≤ S4096x128.size a
  k0_off109_inb : ∀ i : grid0.Coords, ∀ a, (k0_off109 i) a + S64x128.size a ≤ S4096x128.size a
  k0_off110_inb : ∀ i : grid0.Coords, ∀ a, (k0_off110 i) a + S64x128.size a ≤ S4096x128.size a

variable [Facts₀]

abbrev cc0_scratch3 : DmaSems sig S_ := SemArray.consecutive 0 S_ hcc0_scratch3
abbrev cc0_scratch4 : DmaSems sig S_ := SemArray.consecutive 1 S_ hcc0_scratch4
abbrev cc0_scratch5 : DmaSems sig S_ := SemArray.consecutive 2 S_ hcc0_scratch5
abbrev cc0_scratch6 : DmaSems sig S_ := SemArray.consecutive 3 S_ hcc0_scratch6
abbrev cc0_scratch7 : DmaSems sig S_ := SemArray.consecutive 4 S_ hcc0_scratch7
abbrev cc0_scoped0 : DmaSems sig S_ := SemArray.consecutive 5 S_ hcc0_scoped0
abbrev cc0_scoped1 : DmaSems sig S_ := SemArray.consecutive 6 S_ hcc0_scoped1

class Facts : Prop extends Facts₀ where

variable [Facts]
-- ==== ReferenceIdeal.lean ====
abbrev S4096x26 : Shape := ⟨2, ![4096, 26]⟩
abbrev S2600000x128 : Shape := ⟨2, ![2600000, 128]⟩
abbrev S26 : Shape := ⟨1, ![26]⟩
abbrev S1x26 : Shape := ⟨2, ![1, 26]⟩
abbrev S_ : Shape := ⟨0, ![]⟩
abbrev S4096x26x1 : Shape := ⟨3, ![4096, 26, 1]⟩
abbrev S1 : Shape := ⟨1, ![1]⟩
abbrev S1x1x1 : Shape := ⟨3, ![1, 1, 1]⟩
abbrev S4096x26x128 : Shape := ⟨3, ![4096, 26, 128]⟩
abbrev S4096x128 : Shape := ⟨2, ![4096, 128]⟩

abbrev nBuf : Space → Nat
  | .hbm => 34
  | .vmem => 0
  | .smem => 0
  | _ => 0

abbrev bufTy : (tb : Table) → Fin (tcTables nBuf tb) → BufTy
  | .hbm, ⟨0, _⟩ => ⟨S4096x26, .i32⟩
  | .hbm, ⟨1, _⟩ => ⟨S2600000x128, .f32⟩
  | .hbm, ⟨2, _⟩ => ⟨S26, .i32⟩
  | .hbm, ⟨3, _⟩ => ⟨S1x26, .i32⟩
  | .hbm, ⟨4, _⟩ => ⟨S4096x26, .i32⟩
  | .hbm, ⟨5, _⟩ => ⟨S4096x26, .i32⟩
  | .hbm, ⟨6, _⟩ => ⟨S_, .i32⟩
  | .hbm, ⟨7, _⟩ => ⟨S4096x26, .i32⟩
  | .hbm, ⟨8, _⟩ => ⟨S4096x26, .i1⟩
  | .hbm, ⟨9, _⟩ => ⟨S_, .i32⟩
  | .hbm, ⟨10, _⟩ => ⟨S4096x26, .i32⟩
  | .hbm, ⟨11, _⟩ => ⟨S4096x26, .i32⟩
  | .hbm, ⟨12, _⟩ => ⟨S4096x26, .i32⟩
  | .hbm, ⟨13, _⟩ => ⟨S4096x26x1, .i32⟩
  | .hbm, ⟨14, _⟩ => ⟨S1, .i32⟩
  | .hbm, ⟨15, _⟩ => ⟨S_, .i32⟩
  | .hbm, ⟨16, _⟩ => ⟨S4096x26x1, .i32⟩
  | .hbm, ⟨17, _⟩ => ⟨S4096x26x1, .i1⟩
  | .hbm, ⟨18, _⟩ => ⟨S1x1x1, .i32⟩
  | .hbm, ⟨19, _⟩ => ⟨S4096x26x1, .i32⟩
  | .hbm, ⟨20, _⟩ => ⟨S4096x26x1, .i1⟩
  | .hbm, ⟨21, _⟩ => ⟨S4096x26x1, .i1⟩
  | .hbm, ⟨22, _⟩ => ⟨S_, .i1⟩
  | .hbm, ⟨23, _⟩ => ⟨S4096x26, .i1⟩
  | .hbm, ⟨24, _⟩ => ⟨S4096x26x128, .f32⟩
  | .hbm, ⟨25, _⟩ => ⟨S4096x26x128, .i1⟩
  | .hbm, ⟨26, _⟩ => ⟨S_, .f32⟩
  | .hbm, ⟨27, _⟩ => ⟨S4096x26x128, .f32⟩
  | .hbm, ⟨28, _⟩ => ⟨S4096x26x128, .f32⟩
  | .hbm, ⟨29, _⟩ => ⟨S_, .f32⟩
  | .hbm, ⟨30, _⟩ => ⟨S4096x128, .f32⟩
  | .hbm, ⟨31, _⟩ => ⟨S_, .f32⟩
  | .hbm, ⟨32, _⟩ => ⟨S4096x128, .f32⟩
  | .hbm, ⟨33, _⟩ => ⟨S4096x128, .f32⟩
  | _, _ => ⟨S4096x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v3 : Ref sig .tc := ⟨.hbm, 28, rfl⟩
abbrev main_cst : Ref sig .tc := ⟨.hbm, 29, rfl⟩
abbrev main_v4 : Ref sig .tc := ⟨.hbm, 30, rfl⟩
abbrev main_cst_0 : Ref sig .tc := ⟨.hbm, 31, rfl⟩
abbrev main_v5 : Ref sig .tc := ⟨.hbm, 32, rfl⟩
abbrev main_v6 : Ref sig .tc := ⟨.hbm, 33, rfl⟩

abbrev nD : Nat := 1
abbrev τ : Topo := Topo.v7x

variable {F : FTy → Type} [FloatOps F]

class Facts₀ : Prop where
  bcast_S26_S1x26_1 : S26.BroadcastsInDim S1x26 (![1] : Fin 1 → Fin S1x26.rank)
  bcast_S1x26_S4096x26_0_1 : S1x26.BroadcastsInDim S4096x26 (![0, 1] : Fin 2 → Fin S4096x26.rank)
  bcast_S_S4096x26 : S_.BroadcastsInDim S4096x26 (![] : Fin 0 → Fin S4096x26.rank)
  bcast_S4096x26_S4096x26x1_0_1 : S4096x26.BroadcastsInDim S4096x26x1 (![0, 1] : Fin 2 → Fin S4096x26x1.rank)
  bcast_S_S4096x26x1 : S_.BroadcastsInDim S4096x26x1 (![] : Fin 0 → Fin S4096x26x1.rank)
  bcast_S1_S1x1x1_2 : S1.BroadcastsInDim S1x1x1 (![2] : Fin 1 → Fin S1x1x1.rank)
  bcast_S1x1x1_S4096x26x1_0_1_2 : S1x1x1.BroadcastsInDim S4096x26x1 (![0, 1, 2] : Fin 3 → Fin S4096x26x1.rank)
  reducesTo_S4096x26x1_S4096x26_d2 : S4096x26x1.ReducesTo [2] S4096x26
  h_S_ : 0 < S_.numel
  bcast_S4096x26_S4096x26x128_0_1 : S4096x26.BroadcastsInDim S4096x26x128 (![0, 1] : Fin 2 → Fin S4096x26x128.rank)
  bcast_S_S4096x26x128 : S_.BroadcastsInDim S4096x26x128 (![] : Fin 0 → Fin S4096x26x128.rank)
  reducesTo_S4096x26x128_S4096x128_d1 : S4096x26x128.ReducesTo [1] S4096x128
  bcast_S_S4096x128 : S_.BroadcastsInDim S4096x128 (![] : Fin 0 → Fin S4096x128.rank)
  gather_S2600000x128_S4096x26x1_S4096x26x128_2_0_n_n_0_2_1128_wf : GatherDims.WF S2600000x128 S4096x26x1 S4096x26x128 [2] [0] [] [0] [] 2 ![1, 128]

variable [Facts₀]

def gather_S2600000x128_S4096x26x1_S4096x26x128_2_0_n_n_0_2_1128 : GatherDims S2600000x128 S4096x26x1 S4096x26x128 where
  offsetDims := [2]
  collapsedSliceDims := [0]
  operandBatchingDims := []
  startIndicesBatchingDims := []
  startIndexMap := [0]
  indexVectorDim := 2
  sliceSizes := ![1, 128]
  wf := gather_S2600000x128_S4096x26x1_S4096x26x128_2_0_n_n_0_2_1128_wf

class Facts : Prop extends Facts₀ where

variable [Facts]
-- ==== Proof.PreSide.lean ====
/-
  The integer half of the precondition, decoded: the printed predicate ends in the conjunction of two "all" reductions;
  the second says that every field index, read as a signed 32-bit integer, lies between 0 and 99999. A word that is
  nonnegative signed and at most 99999 signed is at most 99999 unsigned.
-/
import proofs.«207326_g40819369181559_retrytranche2_1852_22_alg».proof.Pre_input_domain
import Idealize.ShloMosaic.Lib.ReduceAll

namespace Cert.PreSide

open Idealize.ShloMosaic

/-- The rank-0 shape has one index. -/
instance : Subsingleton Cert.Pre_input_domain.S_.Idx := ⟨fun a b => funext fun d => d.elim0⟩

/-- A word between 0 and 99999 as a signed integer is at most 99999 as a natural number. -/
theorem toNat_le_of_signed (w : BitVec 32) (h0 : IntOp.cmpi .sge w 0#32 = 1#1) (h1 : IntOp.cmpi .sle w 99999#32 = 1#1) :
    w.toNat ≤ 99999 := by
  rw [IntOp.cmpi_sge] at h0
  rw [IntOp.cmpi_sle] at h1
  have e0 : (0#32 : BitVec 32).toInt = 0 := by decide
  have e1 : (99999#32 : BitVec 32).toInt = 99999 := by decide
  rw [e0] at h0
  rw [e1] at h1
  have hlt := w.isLt
  rw [BitVec.toInt] at h0 h1
  split at h0 <;> omega

/-- Under the precondition every field index is at most 99999. -/
theorem sf_le_of_pre {F : FTy → Type} [FloatOps F] [Cert.Pre_input_domain.Facts]
    (a0 : IVec Cert.Pre_input_domain.S4096x26 32) (a1 : FVec F Cert.Pre_input_domain.S2600000x128 .f32)
    (h : Cert.Pre_input_domain.fn (F := F) a0 a1 = (fun _ => 1#1)) : ∀ j, (a0 j).toNat ≤ 99999 := by
  intro j
  have e := congrFun h (fun d => d.elim0)
  dsimp only [Cert.Pre_input_domain.fn] at e
  -- the last operation is the conjunction of the two reductions
  have e2 := (IntOp.andi_eq_one.1 e).2
  -- every element of the reduced mask is 1
  have e3 := Host.reduce_andi_all _ _ _ _ _ e2 j
  -- the mask at j is the conjunction of the two comparisons
  obtain ⟨h0, h1⟩ := IntOp.andi_eq_one.1 e3
  exact toNat_le_of_signed (a0 j) h0 h1

end Cert.PreSide
-- ==== Proof.LibTRef.lean ====
/-
  Contents moved to a typed reference's buffer type and back are the contents: the two transports along the reference's
  type equation cancel, whatever the reference.
-/
import Idealize.ShloMosaic.Lib.StableHlo

noncomputable section

namespace Cert.LibTRef

open Idealize.ShloMosaic Idealize.ShloMosaic.StableHlo

variable {sig : RefSig} {Val : EltTy → Type} {T : BufTy}

/-- From the value's type to the buffer's and back. -/
theorem ofBuf_toBuf (x : TRef sig T) (v : T.Contents Val) : x.ofBuf (x.toBuf v) = v := by
  obtain ⟨r, h, h2, h3⟩ := x
  subst h
  rfl

/-- From the buffer's type to the value's and back. -/
theorem toBuf_ofBuf (x : TRef sig T) (v : x.ref.ty.Contents Val) : x.toBuf (x.ofBuf v) = v := by
  obtain ⟨r, h, h2, h3⟩ := x
  subst h
  rfl

end Cert.LibTRef

end
-- ==== Proof.RefRun.lean ====
/-
  The reference program's run, read back. Its @main is a straight line of 32 host operations once the two
  outlined functions (the row lookup and the select it calls) are unfolded at their call sites: 4 operations that form
  the merged-table index, 23 of the row lookup (the select among them), and 5 that sum over the fields and divide by 26.
  Every weakly fair execution terminates with each buffer at the fold of these operations over the launch contents; at
  the result buffer that fold is one term of the two arguments, built here in five stages (the merged index, the start
  indices, the in-range mask, the looked-up rows, the mean), and the arguments end unchanged.
-/
import proofs.«207326_g40819369181559_retrytranche2_1852_22_alg».proof.Proof.Gen.ReferenceIdeal
import proofs.«207326_g40819369181559_retrytranche2_1852_22_alg».proof.Proof.LibTRef
import Idealize.ShloMosaic.Lib.StableHlo.Run

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- @main's 32 operations, in order, the calls unfolded. -/
abbrev ops : List (HloOp τ sig (Elt F)) :=
  [ nullary main_c (fun i => lit0 (S26.rowMajor i)),
    unary main_c main_v0 (broadcastInDim S1x26 ![1] bcast_S26_S1x26_1 : (⟨S26, .i32⟩ : BufTy).Contents (Elt F) → (⟨S1x26, .i32⟩ : BufTy).Contents (Elt F)),
    unary main_v0 main_v1 (broadcastInDim S4096x26 ![0, 1] bcast_S1x26_S4096x26_0_1 : (⟨S1x26, .i32⟩ : BufTy).Contents (Elt F) → (⟨S4096x26, .i32⟩ : BufTy).Contents (Elt F)),
    binary main_arg0 main_v1 main_v2 (addi : (⟨S4096x26, .i32⟩ : BufTy).Contents (Elt F) → (⟨S4096x26, .i32⟩ : BufTy).Contents (Elt F) → (⟨S4096x26, .i32⟩ : BufTy).Contents (Elt F)),
    TRef.nullary main_call0.c (constantI S_ 32 0#32),
    TRef.unary main_call0.c main_call0.v0 (broadcastInDim S4096x26 ![] bcast_S_S4096x26),
    TRef.binary (.of main_v2 : TRef sig ⟨S4096x26, .i32⟩) main_call0.v0 main_call0.v1 (cmpi .slt),
    TRef.nullary main_call0.c_0 (constantI S_ 32 2600000#32),
    TRef.unary main_call0.c_0 main_call0.v2 (broadcastInDim S4096x26 ![] bcast_S_S4096x26),
    TRef.binary (.of main_v2 : TRef sig ⟨S4096x26, .i32⟩) main_call0.v2 main_call0.v3 addi,
    TRef.ternary main_call0.v1 main_call0.v3 (.of main_v2 : TRef sig ⟨S4096x26, .i32⟩) main_call0.call0.v0 select,
    TRef.unary main_call0.call0.v0 main_call0.v5 (broadcastInDim S4096x26x1 ![0, 1] bcast_S4096x26_S4096x26x1_0_1),
    TRef.nullary main_call0.c_1 (constantI S1 32 2599999#32),
    TRef.nullary main_call0.c_2 (constantI S_ 32 0#32),
    TRef.unary main_call0.c_2 main_call0.v6 (broadcastInDim S4096x26x1 ![] bcast_S_S4096x26x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4096x26x1 ![0, 1, 2] bcast_S1x1x1_S4096x26x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x26x1_S4096x26_d2 h_S_),
    TRef.binary (.of main_arg1 : TRef sig ⟨S2600000x128, .f32⟩) main_call0.v5 main_call0.v13 (fun x i => Host.gather gather_S2600000x128_S4096x26x1_S4096x26x128_2_0_n_n_0_2_1128 x i),
    TRef.unary main_call0.v12 main_call0.v14 (broadcastInDim S4096x26x128 ![0, 1] bcast_S4096x26_S4096x26x128_0_1),
    TRef.nullary main_call0.cst (constant S_ .f32 0x7FC00000#32),
    TRef.unary main_call0.cst main_call0.v15 (broadcastInDim S4096x26x128 ![] bcast_S_S4096x26x128),
    TRef.ternary main_call0.v14 main_call0.v13 main_call0.v15 main_call0.v16 select,
    nullary main_cst (constant S_ .f32 0x00000000#32),
    binary main_v3 main_cst main_v4 ((fun x v => Host.reduceAdd x v reducesTo_S4096x26x128_S4096x128_d1 h_S_) : (⟨S4096x26x128, .f32⟩ : BufTy).Contents (Elt F) → (⟨S_, .f32⟩ : BufTy).Contents (Elt F) → (⟨S4096x128, .f32⟩ : BufTy).Contents (Elt F)),
    nullary main_cst_0 (constant S_ .f32 0x41D00000#32),
    unary main_cst_0 main_v5 (broadcastInDim S4096x128 ![] bcast_S_S4096x128 : (⟨S_, .f32⟩ : BufTy).Contents (Elt F) → (⟨S4096x128, .f32⟩ : BufTy).Contents (Elt F)),
    binary main_v4 main_v5 main_v6 (Host.divf : (⟨S4096x128, .f32⟩ : BufTy).Contents (Elt F) → (⟨S4096x128, .f32⟩ : BufTy).Contents (Elt F) → (⟨S4096x128, .f32⟩ : BufTy).Contents (Elt F)) ]

set_option maxRecDepth 4096 in
/-- @main is that straight line: the two functions' definitions unfolded at their calls, the sequencing reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    nullary_bufs_sub .., binary_bufs_sub .., nullary_bufs_sub .., unary_bufs_sub .., binary_bufs_sub ..⟩

/-- On every device, for any float values, from any memory with zero counters: every weakly fair execution of @main
    terminates, and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The result as one term of the two arguments -/

/-- The merged-table index of each field: the field's own index plus the field's block offset. -/
def idxOf (sf : IVec S4096x26 32) : IVec S4096x26 32 :=
  addi sf (broadcastInDim S4096x26 ![0, 1] bcast_S1x26_S4096x26_0_1
    (broadcastInDim S1x26 ![1] bcast_S26_S1x26_1 (fun i => lit0 (S26.rowMajor i))))

/-- The start indices of the row lookup: an index that reads negative is moved up by the table's height. -/
def startOf (sf : IVec S4096x26 32) : IVec S4096x26x1 32 :=
  broadcastInDim S4096x26x1 ![0, 1] bcast_S4096x26_S4096x26x1_0_1
    (select (cmpi .slt (idxOf sf) (broadcastInDim S4096x26 ![] bcast_S_S4096x26 (constantI S_ 32 0#32)))
      (addi (idxOf sf) (broadcastInDim S4096x26 ![] bcast_S_S4096x26 (constantI S_ 32 2600000#32))) (idxOf sf))

/-- Which fields' start indices lie inside the table. -/
def maskOf (sf : IVec S4096x26 32) : IVec S4096x26 1 :=
  Host.reduce IntOp.andi
    (andi (cmpi .sge (startOf sf) (broadcastInDim S4096x26x1 ![] bcast_S_S4096x26x1 (constantI S_ 32 0#32)))
      (cmpi .sle (startOf sf) (broadcastInDim S4096x26x1 ![0, 1, 2] bcast_S1x1x1_S4096x26x1_0_1_2
        (broadcastInDim S1x1x1 ![2] bcast_S1_S1x1x1_2 (constantI S1 32 2599999#32)))))
    (constantI S_ 1 1#1) reducesTo_S4096x26x1_S4096x26_d2 h_S_

/-- The rows looked up: the gathered row where the start index lies inside the table, a fill value elsewhere. -/
def rowsOf (sf : IVec S4096x26 32) (tab : FVec F S2600000x128 .f32) : FVec F S4096x26x128 .f32 :=
  select (broadcastInDim S4096x26x128 ![0, 1] bcast_S4096x26_S4096x26x128_0_1 (maskOf sf))
    (Host.gather gather_S2600000x128_S4096x26x1_S4096x26x128_2_0_n_n_0_2_1128 tab (startOf sf))
    (broadcastInDim S4096x26x128 ![] bcast_S_S4096x26x128 (constant S_ .f32 0x7FC00000#32))

/-- The reference's result as one term of its two arguments: the rows summed over the fields, divided by 26. -/
def out (sf : IVec S4096x26 32) (tab : FVec F S2600000x128 .f32) : FVec F S4096x128 .f32 :=
  Host.divf (Host.reduceAdd (rowsOf sf tab) (constant S_ .f32 0x00000000#32) reducesTo_S4096x26x128_S4096x128_d1 h_S_)
    (broadcastInDim S4096x128 ![] bcast_S_S4096x128 (constant S_ .f32 0x41D00000#32))

/-! ## The fold at the result and at the arguments -/

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

/-- At a literal reference whose buffer type is the value's type by computation, the transport between the two types is
    the identity: the three references the fold reads or writes across the boundary of the outlined function. -/
theorem ofBuf_v2 (h1 : (main_v2 : Ref sig .tc).ty = ⟨S4096x26, .i32⟩) (h2 : (main_v2 : Ref sig .tc).space ≠ .host)
    (h3 : (main_v2 : Ref sig .tc).isScoped = false) (v : (⟨S4096x26, .i32⟩ : BufTy).Contents (Elt F)) :
    (TRef.of main_v2 h1 h2 h3).ofBuf v = v := rfl

theorem ofBuf_arg1 (h1 : (main_arg1 : Ref sig .tc).ty = ⟨S2600000x128, .f32⟩) (h2 : (main_arg1 : Ref sig .tc).space ≠ .host)
    (h3 : (main_arg1 : Ref sig .tc).isScoped = false) (v : (⟨S2600000x128, .f32⟩ : BufTy).Contents (Elt F)) :
    (TRef.of main_arg1 h1 h2 h3).ofBuf v = v := rfl

theorem toBuf_v3 (h1 : (main_v3 : Ref sig .tc).ty = ⟨S4096x26x128, .f32⟩) (h2 : (main_v3 : Ref sig .tc).space ≠ .host)
    (h3 : (main_v3 : Ref sig .tc).isScoped = false) (v : (⟨S4096x26x128, .f32⟩ : BufTy).Contents (Elt F)) :
    (TRef.of main_v3 h1 h2 h3).toBuf v = v := rfl

attribute [local irreducible] Host.reduce Host.reduceAdd Host.gather in
set_option maxRecDepth 8192 in
/-- The fold at the result buffer is that term: each operation's result read at its own buffer, the transports between
    a value's type and its buffer's type cancelling. The reductions and the gather stay folded meanwhile. -/
theorem out_eq (V : Valuation τ sig (Elt F)) :
    after ops V (main_v6 : DevRef τ sig) = out (V (main_arg0 : DevRef τ sig)) (V (main_arg1 : DevRef τ sig)) := by
  unfold out rowsOf maskOf startOf idxOf
  after_results_simp
  simp only [Cert.LibTRef.ofBuf_toBuf, ofBuf_v2, ofBuf_arg1, toBuf_v3]
  rfl

/-- On every device, for any float values, from any memory with zero counters: every weakly fair execution of @main
    terminates with the result at `out` of the arguments' launch contents, the arguments unchanged. -/
theorem run_out (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v6)
          = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v6).trans (out_eq _), (h c main_arg0).trans (arg0_eq _),
      (h c main_arg1).trans (arg1_eq _)⟩) (run_main m ρ)

end Cert.RefSide

end
-- ==== Proof.Spec.lean ====
/-
  What both programs compute, as one function of the two argument arrays, on the extended reals.

  The batch has 4096 bags of 26 fields; field f of bag p holds an index into the f-th block of 100000 rows of a merged
  table of 2600000 rows of 128 numbers. Bag p's result is the mean over its 26 fields of the rows named: entry (p, q) is
  the sum over f of table (sf (p, f) + 100000 · f, q), times 1/26.
-/
import Idealize.ShloMosaic.Lib.ValueIdx
import Idealize.ShloMosaic.PureOps.Ideal

noncomputable section

namespace Cert.Spec

open Idealize.ShloMosaic Idealize.ShloMosaic.ValueIdx

abbrev SBF : Shape := ⟨2, ![4096, 26]⟩
abbrev STab : Shape := ⟨2, ![2600000, 128]⟩
abbrev SOut : Shape := ⟨2, ![4096, 128]⟩

/-- The row of the merged table that field f of bag p names: the field's own index moved into the f-th block of 100000
    rows (kept below 2600000 by a remainder that does nothing when the index is below 100000). -/
def rowOf (sf : IVec SBF 32) (p : Fin 4096) (f : Fin 26) : Fin 2600000 :=
  ⟨((sf (ix2 p f)).toNat + 100000 * f.val) % 2600000, Nat.mod_lt _ (by norm_num)⟩

theorem rowOf_val (sf : IVec SBF 32) (p : Fin 4096) (f : Fin 26) (h : (sf (ix2 p f)).toNat ≤ 99999) :
    (rowOf sf p f).val = (sf (ix2 p f)).toNat + 100000 * f.val := by
  have := f.isLt
  show ((sf (ix2 p f)).toNat + 100000 * f.val) % 2600000 = _
  exact Nat.mod_eq_of_lt (by omega)

/-- The mean of bag p's 26 table rows at column q. -/
def mean (sf : IVec SBF 32) (tab : STab.Idx → EReal) (p : Fin 4096) (q : Fin 128) : EReal :=
  (∑ f : Fin 26, tab (ix2 (rowOf sf p f) q)) * ((1 / 26 : ℝ) : EReal)

/-- The whole result array. -/
def G (sf : IVec SBF 32) (tab : STab.Idx → EReal) : SOut.Idx → EReal :=
  fun i => mean sf tab (i 0) (i 1)

theorem G_apply (sf : IVec SBF 32) (tab : STab.Idx → EReal) (p : Fin 4096) (q : Fin 128) :
    G sf tab (ix2 p q) = mean sf tab p q := rfl

end Cert.Spec

end
-- ==== Proof.LibGatherRows.lean ====
/-
  A host gather of ROWS, read at an index. For an operand x : [N, W] and an integer array idx : [R, C] taken as
  [R, C, 1], "x[idx]" is the gather whose start index has one component, for operand axis 0 (which it collapses),
  and whose slice is one whole row (slice sizes 1 and W), the row's axis becoming the result's last axis. Result
  entry (p, s, k) is then x at row idx[p, s, 0] — read as a signed integer and held inside [0, N − 1], as the gather
  holds every start index — and column k.
-/
import Idealize.ShloMosaic.Lib.ValueIdx

noncomputable section

namespace Cert.LibGatherRows

open Idealize.ShloMosaic Idealize.ShloMosaic.ValueIdx

variable {α : Type}

/-- The dimension numbers of that gather, over literal extents; their side conditions are decided on a program's shapes. -/
abbrev rowDims (N W R C : Nat)
    (wf : GatherDims.WF ⟨2, ![N, W]⟩ ⟨3, ![R, C, 1]⟩ ⟨3, ![R, C, W]⟩ [2] [0] [] [0] [] 2 ![1, W]) :
    GatherDims ⟨2, ![N, W]⟩ ⟨3, ![R, C, 1]⟩ ⟨3, ![R, C, W]⟩ where
  offsetDims := [2]
  collapsedSliceDims := [0]
  operandBatchingDims := []
  startIndicesBatchingDims := []
  startIndexMap := [0]
  indexVectorDim := 2
  sliceSizes := ![1, W]
  wf := wf

/-- THE ROW GATHER READ AT (p, s, k): the operand at the row the start index idx[p, s, 0] names, read signed and held
    inside [0, N − 1], and at column k. -/
theorem gather_rows_apply {N W R C w : Nat} (hN : 0 < N)
    (wf : GatherDims.WF ⟨2, ![N, W]⟩ ⟨3, ![R, C, 1]⟩ ⟨3, ![R, C, W]⟩ [2] [0] [] [0] [] 2 ![1, W])
    (x : (⟨2, ![N, W]⟩ : Shape).Idx → α) (idx : IVec ⟨3, ![R, C, 1]⟩ w) (p : Fin R) (s : Fin C) (k : Fin W) :
    Host.gather (rowDims N W R C wf) x idx (ix3 p s k)
      = x (ix2 ⟨min (idx (ix3 p s (⟨0, Nat.one_pos⟩ : Fin 1))).toInt.toNat (N - 1), by omega⟩ k) := by
  unfold Host.gather
  congr 1
  funext a
  refine Fin.ext ?_
  match a with
  | ⟨0, _⟩ =>
    show (rowDims N W R C wf).start (ix3 p s k) idx 0 + (rowDims N W R C wf).batchCoord (ix3 p s k) 0
        + (rowDims N W R C wf).offCoord (ix3 p s k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N W R C wf).startIndexMap from List.mem_singleton.mpr rfl)]
    have hsi : (rowDims N W R C wf).siIdx (ix3 p s k) ⟨List.idxOf (0 : Fin 2) (rowDims N W R C wf).startIndexMap,
        List.idxOf_lt_length_iff.2 (List.mem_singleton.mpr rfl)⟩ = ix3 p s (⟨0, Nat.one_pos⟩ : Fin 1) := by
      funext b; refine Fin.ext ?_
      match b with
      | ⟨0, _⟩ => rfl
      | ⟨1, _⟩ => rfl
      | ⟨2, _⟩ => rfl
    rw [hsi]
    rfl
  | ⟨1, _⟩ =>
    show (rowDims N W R C wf).start (ix3 p s k) idx 1 + (rowDims N W R C wf).batchCoord (ix3 p s k) 1
        + (rowDims N W R C wf).offCoord (ix3 p s k) 1 = k.val
    have hst : (rowDims N W R C wf).start (ix3 p s k) idx 1 = 0 := by
      unfold GatherDims.start
      rw [dif_neg (show ¬ (1 : Fin 2) ∈ (rowDims N W R C wf).startIndexMap from (by decide : (1 : Fin 2) ∉ ([0] : List (Fin 2))))]
    have hk : (1 : Fin 2) ∈ (rowDims N W R C wf).sKept :=
      (GatherDims.mem_sKept _ _).mpr ⟨(by decide : (1 : Fin 2) ∉ ([0] : List (Fin 2))), List.not_mem_nil⟩
    have hoff : (rowDims N W R C wf).offCoord (ix3 p s k) 1 = k.val := by
      unfold GatherDims.offCoord
      rw [dif_pos hk]
      rfl
    rw [hst, GatherDims.batchCoord_eq_zero _ _ _ List.not_mem_nil, hoff]
    omega

end Cert.LibGatherRows

end
-- ==== Proof.RefValue.lean ====
/-
  The reference's result is the specification's function of its two arguments, when every field index is between 0 and
  99999. The merged index sf(p, f) + 100000 · f is then a word between 0 and 2599999 that reads the same signed and
  unsigned: the test "negative" fails, so the index is not moved; both bound tests hold, so the mask is all ones and the
  select keeps the gathered row; the gather holds the index inside the table without changing it. The sum over the 26
  fields from the initial value 0 and the division by the real 26 — the product with 1/26 on every extended real — give
  the mean.
-/
import proofs.«207326_g40819369181559_retrytranche2_1852_22_alg».proof.Proof.RefRun
import proofs.«207326_g40819369181559_retrytranche2_1852_22_alg».proof.Proof.Spec
import proofs.«207326_g40819369181559_retrytranche2_1852_22_alg».proof.Proof.LibGatherRows
import Idealize.ShloMosaic.Lib.ValueIdx
import Idealize.ShloMosaic.Lib.IdealHost
import Idealize.ShloMosaic.Lib.Pipeline.Value
import Idealize.ShloMosaic.Lib.Affine
import Idealize.ShloMosaic.PureOps.Ideal.Laws

noncomputable section

namespace Cert.RefSide

open Cert.ReferenceIdeal Cert.ReferenceIdeal.Gen Idealize.ShloMosaic Idealize.ShloMosaic.ValueIdx Idealize.ShloMosaic.TcCoe Idealize.SL.Sem

/-! ## The block offsets -/

/-- The field offsets table: entry f is 100000 · f. -/
theorem lit0_eq (f : Fin 26) : lit0 f = BitVec.ofNat 32 (100000 * f.val) := by
  fin_cases f <;> rfl

/-! ## The merged index as a word: no wrap, no sign -/

/-- A field index at most 99999 plus its block offset does not wrap. -/
theorem word_toNat (w : BitVec 32) (f : Fin 26) (hw : w.toNat ≤ 99999) :
    (w + BitVec.ofNat 32 (100000 * f.val)).toNat = w.toNat + 100000 * f.val := by
  have := f.isLt
  rw [BitVec.toNat_add, BitVec.toNat_ofNat]
  omega

/-- … and reads the same signed. -/
theorem word_toInt (w : BitVec 32) (f : Fin 26) (hw : w.toNat ≤ 99999) :
    (w + BitVec.ofNat 32 (100000 * f.val)).toInt = ((w.toNat + 100000 * f.val : ℕ) : ℤ) := by
  have := f.isLt
  rw [BitVec.toInt_eq_toNat_of_lt (by rw [word_toNat w f hw]; omega), word_toNat w f hw]

theorem toInt_zero : (0#32 : BitVec 32).toInt = 0 := by decide
theorem toInt_top : (2599999#32 : BitVec 32).toInt = 2599999 := by decide

/-! ## The stages read at an index -/

/-- The merged index at (p, f): the field's index plus 100000 · f. -/
theorem offs_apply (p : Fin 4096) (f : Fin 26) :
    broadcastInDim S4096x26 ![0, 1] bcast_S1x26_S4096x26_0_1
        (broadcastInDim S1x26 ![1] bcast_S26_S1x26_1 (fun i => lit0 (S26.rowMajor i))) (ix2 p f)
      = BitVec.ofNat 32 (100000 * f.val) := by
  rw [broadcastInDim_apply (s := S1x26) (t := S4096x26) ![0, 1] bcast_S1x26_S4096x26_0_1 _ (ix2 p f)
        (ix2 (⟨0, Nat.one_pos⟩ : Fin 1) f) (fun a => by match a with | ⟨0, _⟩ => rfl | ⟨1, _⟩ => rfl),
    broadcastInDim_apply (s := S26) (t := S1x26) ![1] bcast_S26_S1x26_1 _ (ix2 (⟨0, Nat.one_pos⟩ : Fin 1) f) (ix1 f)
        (fun a => by match a with | ⟨0, _⟩ => rfl)]
  have e : (S26.rowMajor (ix1 f) : Fin 26) = f := Fin.ext (Shape.rowMajor_val_one (d := ![26]) (ix1 f))
  show lit0 (S26.rowMajor (ix1 f)) = _
  rw [e, lit0_eq]

theorem idxOf_apply (sf : IVec S4096x26 32) (p : Fin 4096) (f : Fin 26) :
    idxOf sf (ix2 p f) = sf (ix2 p f) + BitVec.ofNat 32 (100000 * f.val) := by
  unfold idxOf
  exact congrArg (sf (ix2 p f) + ·) (offs_apply p f)

/-- The start index at (p, f, 0), for a field index at most 99999: the merged index itself (it does not read negative). -/
theorem startOf_apply (sf : IVec S4096x26 32) (p : Fin 4096) (f : Fin 26) (z : Fin 1) (h : (sf (ix2 p f)).toNat ≤ 99999) :
    startOf sf (ix3 p f z) = sf (ix2 p f) + BitVec.ofNat 32 (100000 * f.val) := by
  unfold startOf
  rw [broadcastInDim_apply (s := S4096x26) (t := S4096x26x1) ![0, 1] bcast_S4096x26_S4096x26x1_0_1 _ (ix3 p f z) (ix2 p f)
        (fun a => by match a with | ⟨0, _⟩ => rfl | ⟨1, _⟩ => rfl), select_apply]
  have hc : cmpi .slt (idxOf sf) (broadcastInDim S4096x26 ![] bcast_S_S4096x26 (constantI S_ 32 0#32)) (ix2 p f) = 0#1 := by
    show IntOp.cmpi .slt (idxOf sf (ix2 p f)) 0#32 = 0#1
    refine eq_zero_of_ne_one ?_
    rw [idxOf_apply, IntOp.cmpi_slt, word_toInt _ _ h, toInt_zero]
    omega
  rw [hc, select_zero, idxOf_apply]

/-- A reduction by "and" from 1 over elements that are all 1 is 1. -/
theorem foldl_andi_one {ι : Type} (g : ι → BitVec 1) (l : List ι) (h : ∀ n ∈ l, g n = 1#1) :
    l.foldl (fun r n => IntOp.andi r (g n)) 1#1 = 1#1 := by
  induction l with
  | nil => rfl
  | cons a l ih =>
    rw [List.foldl_cons, h a List.mem_cons_self]
    exact ih (fun n hn => h n (List.mem_cons_of_mem _ hn))

theorem reduce_andi_of_all {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl, hinit]
  exact foldl_andi_one x _ (fun n _ => hx n)

/-- Every start index lies inside the table when every field index is at most 99999. -/
theorem maskOf_apply (sf : IVec S4096x26 32) (hsf : ∀ j, (sf j).toNat ≤ 99999) (j : S4096x26.Idx) : maskOf sf j = 1#1 := by
  unfold maskOf
  refine reduce_andi_of_all _ _ _ _ j rfl (fun i => ?_)
  obtain ⟨p, f, z, rfl⟩ : ∃ (p : Fin 4096) (f : Fin 26) (z : Fin 1), i = ix3 p f z := ⟨i 0, i 1, i 2, eq_ix3 i⟩
  show IntOp.andi (IntOp.cmpi .sge (startOf sf (ix3 p f z)) 0#32) (IntOp.cmpi .sle (startOf sf (ix3 p f z)) 2599999#32) = 1#1
  rw [startOf_apply sf p f z (hsf _), IntOp.andi_eq_one, IntOp.cmpi_sge, IntOp.cmpi_sle, word_toInt _ _ (hsf _), toInt_zero, toInt_top]
  have := f.isLt
  have := hsf (ix2 p f)
  constructor <;> omega

/-- The printed gather record is the row gather's. -/
theorem gather_rec_eq :
    gather_S2600000x128_S4096x26x1_S4096x26x128_2_0_n_n_0_2_1128
      = Cert.LibGatherRows.rowDims 2600000 128 4096 26 gather_S2600000x128_S4096x26x1_S4096x26x128_2_0_n_n_0_2_1128_wf := rfl

/-- The looked-up rows at (p, f, q): the table at the row field f of bag p names, column q. -/
theorem rowsOf_apply (sf : IVec S4096x26 32) (tab : S2600000x128.Idx → EReal) (hsf : ∀ j, (sf j).toNat ≤ 99999)
    (p : Fin 4096) (f : Fin 26) (q : Fin 128) :
    rowsOf (F := Ideal) sf tab (ix3 p f q) = tab (ix2 (Cert.Spec.rowOf sf p f) q) := by
  unfold rowsOf
  rw [select_apply, broadcastInDim_apply (s := S4096x26) (t := S4096x26x128) ![0, 1] bcast_S4096x26_S4096x26x128_0_1 _
        (ix3 p f q) (ix2 p f) (fun a => by match a with | ⟨0, _⟩ => rfl | ⟨1, _⟩ => rfl), maskOf_apply sf hsf, select_one,
    gather_rec_eq]
  refine (Cert.LibGatherRows.gather_rows_apply (N := 2600000) (W := 128) (R := 4096) (C := 26) (by norm_num) _ tab (startOf sf) p f q).trans ?_
  refine congrArg (fun r => tab (ix2 r q)) (Fin.ext ?_)
  show min ((startOf sf (ix3 p f (⟨0, Nat.one_pos⟩ : Fin 1))).toInt.toNat) (2600000 - 1)
    = ((sf (ix2 p f)).toNat + 100000 * f.val) % 2600000
  rw [startOf_apply sf p f ⟨0, Nat.one_pos⟩ (hsf _), word_toInt _ _ (hsf _), Int.toNat_natCast]
  have := f.isLt
  have := hsf (ix2 p f)
  omega

/-! ## The two float literals -/

/-- The divisor's word denotes the real 26. -/
theorem ofBits_26 : Ideal.ofBits .f32 0x41D00000#32 = ((26 : ℝ) : EReal) := by
  simp [Ideal.ofBits, Ideal.ieee, -EReal.coe_mul]; norm_num

/-! ## The result at an index -/

/-- The reference's result at (p, q) is the mean of bag p's 26 table rows at column q. -/
theorem out_apply (sf : IVec S4096x26 32) (tab : S2600000x128.Idx → EReal) (hsf : ∀ j, (sf j).toNat ≤ 99999)
    (p : Fin 4096) (q : Fin 128) : out (F := Ideal) sf tab (ix2 p q) = Cert.Spec.mean sf tab p q := by
  have hred : S4096x26x128.Reduces [1] S4096x128 := by decide
  have hl : ∀ k : Fin 26, hred.lift (ix2 p q) k = ix3 p k q := fun k => funext fun c => by
    match c with
    | ⟨0, _⟩ => exact Fin.ext rfl
    | ⟨1, _⟩ => exact Fin.ext rfl
    | ⟨2, _⟩ => exact Fin.ext rfl
  unfold out
  rw [hostDivf_apply, hostReduceAdd_apply]
  show Ideal.div (Ideal.hostReduceAdd reducesTo_S4096x26x128_S4096x128_d1 (rowsOf (F := Ideal) sf tab) (Ideal.ofBits .f32 0x00000000#32) (ix2 p q))
      (Ideal.ofBits .f32 0x41D00000#32) = _
  rw [ofBits_26, Ideal.div_coe (by norm_num : (26 : ℝ) ≠ 0), Ideal.hostReduceAdd_single _ hred, Ideal.ofBits_zero_f32, zero_add]
  unfold Cert.Spec.mean
  refine congrArg (· * ((1 / 26 : ℝ) : EReal)) ?_
  show ∑ k : Fin 26, rowsOf (F := Ideal) sf tab (hred.lift (ix2 p q) k) = _
  exact Finset.sum_congr rfl (fun k _ => by rw [hl k, rowsOf_apply sf tab hsf p k q])

/-- The reference's result is the specification's function of the two arguments. -/
theorem out_eq_G (sf : IVec S4096x26 32) (tab : S2600000x128.Idx → EReal) (hsf : ∀ j, (sf j).toNat ≤ 99999) :
    out (F := Ideal) sf tab = Cert.Spec.G sf tab := by
  funext i
  obtain ⟨p, q, rfl⟩ : ∃ (p : Fin 4096) (q : Fin 128), i = ix2 p q := ⟨i 0, i 1, eq_ix2 i⟩
  rw [Cert.Spec.G_apply]
  exact out_apply sf tab hsf p q

/-! ## The run -/

/-- From any memory whose field indices are all at most 99999: every weakly fair execution of the reference terminates with
    the result buffer at the specification's function of the two arguments, and the arguments unchanged. -/
theorem run (m : (ℓ : Loc Cert.ReferenceIdeal.nD Cert.ReferenceIdeal.τ Cert.ReferenceIdeal.sig) → Buf (Elt Ideal) ℓ) (g : Dev Cert.ReferenceIdeal.nD → PrngReg)
    (hsf : ∀ (c : Dev Cert.ReferenceIdeal.nD) (j : Cert.ReferenceIdeal.S4096x26.Idx), (m ((c.tc : Thread Cert.ReferenceIdeal.nD Cert.ReferenceIdeal.τ).loc Cert.ReferenceIdeal.main_arg0) j).toNat ≤ 99999) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c.tc : Thread _ Cert.ReferenceIdeal.τ).loc Cert.ReferenceIdeal.main_v6)
            = Cert.Spec.G (m ((c.tc : Thread _ Cert.ReferenceIdeal.τ).loc Cert.ReferenceIdeal.main_arg0)) (m ((c.tc : Thread _ Cert.ReferenceIdeal.τ).loc Cert.ReferenceIdeal.main_arg1))
        ∧ r.2.mem ((c.tc : Thread _ Cert.ReferenceIdeal.τ).loc Cert.ReferenceIdeal.main_arg0) = m ((c.tc : Thread _ Cert.ReferenceIdeal.τ).loc Cert.ReferenceIdeal.main_arg0)
        ∧ r.2.mem ((c.tc : Thread _ Cert.ReferenceIdeal.τ).loc Cert.ReferenceIdeal.main_arg1) = m ((c.tc : Thread _ Cert.ReferenceIdeal.τ).loc Cert.ReferenceIdeal.main_arg1)) :=
  (θ_run (Cert.ReferenceIdeal.defs (F := Ideal)) _ _).mono
    (fun _ h c => ⟨(h c).1.trans (out_eq_G _ _ (hsf c)), (h c).2⟩)
    (run_out (F := Ideal) m g)

end Cert.RefSide

end
-- ==== Proof.KICommon.lean ====
/-
  The program as the launch theorem of the SparseCore library sees it, the ghost state (the handshakes' rounds beside the
  transfers' counters), and the names of the buffers a tile's task works on.
-/
import proofs.«207326_g40819369181559_retrytranche2_1852_22_alg».proof.KernelIdeal
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«207326_g40819369181559_retrytranche2_1852_22_alg».proof.Proof.Gen.KernelIdeal
import proofs.«207326_g40819369181559_retrytranche2_1852_22_alg».proof.Proof.Gen.KernelIdeal.Skeleton

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

abbrev EH : Emb UH (MT nD τ sig (HIx 1) (Elt F) ℕ UU ℕ) := embL

end Cert.KI

end
-- ==== Proof.KIRes.lean ====
/-
  What one tile's task is handed and hands back, and the value the kernel leaves in the result array as one function
  of the index list and the table, in any float instance.

  Tile (c, s) of the 2 × 16 tiles is worker w = 2 s + c. It reads positions 3328 w … 3328 w + 3327 of the flattened index
  list (bags 128 w … 128 w + 127, 26 fields each), adds 100000 · (position mod 26) to each word, gathers the 104 table rows
  of four bags at a time, sums each bag's 26 rows left to right and scales by the constant, and writes bags' results to
  rows 128 w … 128 w + 127 of the result, in two halves of 64 rows.
-/
import proofs.«207326_g40819369181559_retrytranche2_1852_22_alg».proof.Proof.KICommon
import Idealize.ShloMosaic.Lib.ValueIdx

noncomputable section

namespace Cert.KI

open Cert.KernelIdeal Cert.KernelIdeal.Gen

open Idealize.ShloMosaic Idealize.ShloMosaic.ValueIdx
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type}

/-! ## The value -/

/-- x 0 + x 1 + … + x n, summed left to right. -/
def accTo [FloatOps F] (x : ℕ → F .f32) : ℕ → F .f32
  | 0 => x 0
  | n + 1 => FloatOps.addf (accTo x n) (x (n + 1))

/-- The table row that position 26 R + f of the flattened index list names once 100000 · f has been added to it
    (kept below 2600000 by a remainder that does nothing when the word is below 100000 and f below 26). -/
def krow (sfl : IVec S106496 32) (R : ℕ) (f : ℕ) : Fin 2600000 :=
  ⟨((sfl (ix1 (⟨(26 * R + f) % 106496, Nat.mod_lt _ (by norm_num)⟩ : Fin 106496))).toNat + 100000 * (f % 26)) % 2600000, Nat.mod_lt _ (by norm_num)⟩

/-- Entry (R, q) of the result: the 26 rows of bag R at column q summed left to right, times the constant. -/
def KG [FloatOps F] (cst : F .f32) (sfl : IVec S106496 32) (tab : FVec F S2600000x128 .f32) : FVec F S4096x128 .f32 :=
  fun i => FloatOps.mulf (accTo (fun f => tab (ix2 (krow sfl (i 0).val f) (i 1))) 25) cst

/-! ## The buffers -/

local notation "𝕄" => MT nD τ sig (SparseCore.Cfg.HIx 1) (Elt F) ℕ UU ℕ

/-- The flattened index list, the table and the result, as the TensorCore names them. -/
abbrev aLoc (d : Dev nD) : Loc nD τ sig := (SparseCore.T d).loc main_arg0
abbrev iLoc (d : Dev nD) : Loc nD τ sig := (SparseCore.T d).loc main_v0
abbrev xLoc (d : Dev nD) : Loc nD τ sig := (SparseCore.T d).loc main_arg1
abbrev oLoc (d : Dev nD) : Loc nD τ sig := (SparseCore.T d).loc main_v1

/-- The result in 64 blocks of 64 rows. -/
theorem odiv : 64 ∣ S4096x128.size 0 := ⟨64, rfl⟩
abbrev oRect (k : Fin 64) : Rect S4096x128 := Rect.part (s := S4096x128) (a₀ := 0) odiv k
abbrev oPiece (k : Fin 64) : Finset S4096x128.Idx :=
  ((Memref.whole main_v1_scv : Memref sig .scVector .hbm S4096x128 .f32).view.slice (oRect k)).set

/-- Worker 2 s + c writes blocks 4 s + 2 c and 4 s + 2 c + 1. -/
def topIx (c : Fin 2) (s : Fin 16) : Fin 64 := ⟨4 * s.val + 2 * c.val, by omega⟩
def botIx (c : Fin 2) (s : Fin 16) : Fin 64 := ⟨4 * s.val + 2 * c.val + 1, by omega⟩

/-- The read tokens of the index list and of the table: the full share cut per core, then per tile. -/
abbrev tok (c : Fin 2) (s : Fin 16) : PosShare TreeShare := shareTok (shareTok fullShare 2 c) 16 s

/-- What tile (c, s) of device d is handed: read tokens of the index list (at contents sfl) and of the table (at tab),
    and its two blocks of the result outright, at the contents o. -/
def tileIn (d : Dev nD) (c : Fin 2) (s : Fin 16) (sfl : Buf (Elt F) (iLoc d)) (tab : Buf (Elt F) (xLoc d)) (o : Buf (Elt F) (oLoc d)) : sProp 𝕄 :=
  iprop((iLoc d ↦{tok c s} sfl) ∗ (xLoc d ↦{tok c s} tab)
    ∗ (oLoc d ↦[oPiece (topIx c s)]{fullShare} o) ∗ (oLoc d ↦[oPiece (botIx c s)]{fullShare} o))

/-- What it hands back: the tokens, and its two blocks at the contents o'. -/
def tileOut (d : Dev nD) (c : Fin 2) (s : Fin 16) (sfl : Buf (Elt F) (iLoc d)) (tab : Buf (Elt F) (xLoc d)) (o' : Buf (Elt F) (oLoc d)) : sProp 𝕄 :=
  iprop((iLoc d ↦{tok c s} sfl) ∗ (xLoc d ↦{tok c s} tab)
    ∗ (oLoc d ↦[oPiece (topIx c s)]{fullShare} o') ∗ (oLoc d ↦[oPiece (botIx c s)]{fullShare} o'))

end Cert.KI

end
-- ==== Proof.KIStmt.lean ====
/-
  The statement of one tile's task (what the launch asks of every tile), and what it needs of the launch memory.
-/
import proofs.«207326_g40819369181559_retrytranche2_1852_22_alg».proof.Proof.KIRes

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.KernelIdeal.main_v0_scv : Memref Cert.KernelIdeal.sig Kind.scVector Space.hbm Cert.KernelIdeal.S106496 EltTy.i32)
local notation "xV" => (Memref.whole Cert.KernelIdeal.main_arg1_scv : Memref Cert.KernelIdeal.sig Kind.scVector Space.hbm Cert.KernelIdeal.S2600000x128 EltTy.f32)
local notation "oV" => (Memref.whole Cert.KernelIdeal.main_v1_scv : Memref Cert.KernelIdeal.sig Kind.scVector Space.hbm Cert.KernelIdeal.S4096x128 EltTy.f32)
local notation "sV" => (Memref.whole Cert.KernelIdeal.cc0_scratch0 : Memref Cert.KernelIdeal.sig Kind.scVector Space.vmem Cert.KernelIdeal.S3328 EltTy.i32)
local notation "rV" => (Memref.whole Cert.KernelIdeal.cc0_scratch1 : Memref Cert.KernelIdeal.sig Kind.scVector Space.vmem Cert.KernelIdeal.S4x104x128 EltTy.f32)
local notation "aV" => (Memref.whole Cert.KernelIdeal.cc0_scratch2 : Memref Cert.KernelIdeal.sig Kind.scVector Space.vmem Cert.KernelIdeal.S128x128 EltTy.f32)

/-- Every index word of the batch is below 100000 (the integer half of the precondition). -/
def PreOK (m : (ℓ : Loc nD τ sig) → Buf (Elt F) ℓ) : Prop := ∀ (d : Dev nD) (j : S4096x26.Idx), (m (aLoc d) j).toNat ≤ 99999

/-- The batch's index words laid out flat, bag after bag. -/
def sflOf (a : IVec S4096x26 32) : IVec S106496 32 := shapeCast S106496 a shapeCasts_S4096x26_S106496

/-- The constant the sums are scaled by, as the program spells it. -/
def cstK [FloatOps F] [Named F] : F .f32 := Named.named κ "inv_26" 0x3D1D89D9#32

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev sL (L : grid0.Coords) : Fin 16 := Fin.cast bound_one (L 1)

/-- One tile's task, from what it is handed to what it hands back, the result's two blocks at the one whole-array
    function. -/
def TileStmt [FloatOps F] [Named F] (m : (ℓ : Loc nD τ sig) → Buf (Elt F) ℓ) : Prop :=
  ∀ (d : Dev nD) (L : grid0.Coords) (hF : (K (F := F)).Facts) (O : CellTallies nD τ sig (HIx 1)) (W : Waits sig (HIx 1)) (hO : ∀ g, O g none = 0),
    iprop(levAts (K (F := F)).L (K (F := F)).lev ∗ emp
        ∗ tileIn d (cL L) (sL L) (sflOf (m (aLoc d))) (m (xLoc d)) (m (oLoc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__emb_bag L iV (Memref.isWhole_whole _) xV (Memref.isWhole_whole _) oV (Memref.isWhole_whole _)
            sV (Memref.isWhole_whole _) rV (Memref.isWhole_whole _) aV (Memref.isWhole_whole _)
            cc0_scratch3 cc0_scratch4 cc0_scratch5 cc0_scratch6 cc0_scratch7 cc0_scoped0 cc0_scoped1)
          fun _ => iprop(tileOut d (cL L) (sL L) (sflOf (m (aLoc d))) (m (xLoc d)) (KG (cstK (F := F)) (sflOf (m (aLoc d))) (m (xLoc d)))
            ∗ scopedBufs (V d (cV L) (jV L)) ∗ scopedSems0 (V d (cV L) (jV L))
            ∗ ∃ W', ⌜∀ p ∈ W', p ∈ W ∨ p.2 = none⌝ ∗ owes (V d (cV L) (jV L)) O W')

end Cert.KI

end
-- ==== Proof.KIBridge.lean ====
/-
  At the exact-arithmetic instance the kernel's value is the specification's: the 26 rows summed left to right are the
  sum over the 26 fields (addition of extended reals is associative), the named constant is 1/26, position 26 R + f of the
  flattened index list is entry (R, f) of the batch, and the row it names is the specification's (both take the same
  remainder by 2600000).
-/
import proofs.«207326_g40819369181559_retrytranche2_1852_22_alg».proof.Proof.KIStmt
import proofs.«207326_g40819369181559_retrytranche2_1852_22_alg».proof.Proof.Spec
import Idealize.ShloMosaic.PureOps.Ideal
import Idealize.ShloMosaic.PureOps.IdealRules
import Idealize.ShloMosaic.Lib.Pipeline.Value
import Idealize.ShloMosaic.Lib.ValueIdx

noncomputable section

namespace Cert.KI

open Cert.KernelIdeal Cert.KernelIdeal.Gen
open Idealize.ShloMosaic Idealize.ShloMosaic.ValueIdx

/-- Summing left to right is summing. -/
theorem accTo_eq_sum (x : ℕ → EReal) (n : ℕ) : accTo (F := Ideal) x n = ∑ i ∈ Finset.range (n + 1), x i := by
  induction n with
  | zero => simp [accTo]
  | succ n ih =>
    show accTo (F := Ideal) x n + x (n + 1) = _
    rw [ih, Finset.sum_range_succ _ (n + 1)]

/-- The constant the program names is 1/26. -/
theorem cstK_ideal : cstK (F := Ideal) = ((1 / 26 : ℝ) : EReal) :=
  IdealRules.named_const.ideal_named_scalar _ _ _ _ rfl

/-- Position 26 R + f of the flattened index list is entry (R, f) of the batch. -/
theorem sflOf_apply (a : IVec S4096x26 32) (R : Fin 4096) (f : Fin 26) :
    sflOf a (ix1 (⟨(26 * R.val + f.val) % 106496, Nat.mod_lt _ (by norm_num)⟩ : Fin 106496)) = a (ix2 R f) := by
  have hR := R.isLt
  have hf := f.isLt
  unfold sflOf
  refine shapeCast_apply a shapeCasts_S4096x26_S106496 _ (ix2 R f) ?_
  rw [Shape.rowMajor_val_two, Shape.rowMajor_val_one]
  show R.val * 26 + f.val = (26 * R.val + f.val) % 106496
  omega

/-- The row the kernel reads for field f of bag R is the specification's. -/
theorem krow_eq (a : IVec S4096x26 32) (R : Fin 4096) (f : Fin 26) : krow (sflOf a) R.val f.val = Cert.Spec.rowOf a R f := by
  have hf := f.isLt
  refine Fin.ext ?_
  show ((sflOf a (ix1 (⟨(26 * R.val + f.val) % 106496, Nat.mod_lt _ (by norm_num)⟩ : Fin 106496))).toNat + 100000 * (f.val % 26)) % 2600000
    = ((a (ix2 R f)).toNat + 100000 * f.val) % 2600000
  rw [sflOf_apply, Nat.mod_eq_of_lt hf]

/-- The kernel's value at the exact-arithmetic instance is the specification's function of the batch and the table. -/
theorem KG_ideal (a : IVec S4096x26 32) (tab : FVec Ideal S2600000x128 .f32) (ha : ∀ j, (a j).toNat ≤ 99999) :
    KG (F := Ideal) (cstK (F := Ideal)) (sflOf a) tab = Cert.Spec.G a tab := by
  funext i
  obtain ⟨p, q, rfl⟩ : ∃ (p : Fin 4096) (q : Fin 128), i = ix2 p q := ⟨i 0, i 1, eq_ix2 i⟩
  show accTo (F := Ideal) (fun f => tab (ix2 (krow (sflOf a) p.val f) q)) 25 * cstK (F := Ideal) = Cert.Spec.mean a tab p q
  rw [accTo_eq_sum, cstK_ideal, Finset.sum_range]
  unfold Cert.Spec.mean
  exact congrArg (· * ((1 / 26 : ℝ) : EReal)) (Finset.sum_congr rfl fun f _ => by rw [krow_eq])

end Cert.KI

end
-- ==== Proof.LibReadTokens.lean ====
/-
  General: read tokens of an array over a two-level family of readers. When every one of n₁ × n₂ threads (n₁ cores, n₂ subcores
  of each) reads one array whole at the same time, the array's points-to at a share `q` is cut into a token per core and each
  core's token into a token per subcore; what is cut off on the way (the remainders) is kept aside and joins the tokens back to
  `q` afterwards. Both directions in one statement. Also: anything kept whole passes through a deal that hands it back unchanged.
-/
import Idealize.ShloMosaic.Lib.Transfers

noncomputable section

namespace Cert.Lib.ReadTokens

open Idealize.ShloMosaic Idealize.ShloMosaic.Transfers
open Idealize.SL
open Idealize.SL.BI (sProp bigSep bigSep_sep' bigSep_congr)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix] {Val : EltTy → Type} {Name : Type} [DecidableEq Name]
variable {U : Type} [URA U] {Lvl : Type}

local notation "𝕄" => MT nD τ sig Ix Val Name U Lvl

variable {ℓ : Loc nD τ sig} {S : Finset (Idx ℓ)} {f : Buf Val ℓ}

/-- What is cut off when `q` is cut into n₁ tokens and each of those into n₂: kept aside while the tokens are out. -/
def rem2 (ℓ : Loc nD τ sig) (S : Finset (Idx ℓ)) (f : Buf Val ℓ) (q : PosShare TreeShare) (n₁ n₂ : ℕ) : sProp 𝕄 :=
  iprop((ℓ ↦[S]{shareDrop q n₁} f) ∗ bigSep Finset.univ fun c : Fin n₁ => ℓ ↦[S]{shareDrop (shareTok q n₁ c) n₂} f)

/-- A points-to at `q` is the remainders and one token per (core, subcore). -/
theorem pointsTo_toks2 (q : PosShare TreeShare) (n₁ n₂ : ℕ) :
    (ℓ ↦[S]{q} f : sProp 𝕄) ⊣⊢ iprop(rem2 ℓ S f q n₁ n₂
      ∗ bigSep Finset.univ fun c : Fin n₁ => bigSep Finset.univ fun i : Fin n₂ => ℓ ↦[S]{shareTok (shareTok q n₁ c) n₂ i} f) := by
  have inner : ∀ c : Fin n₁, (ℓ ↦[S]{shareTok q n₁ c} f : sProp 𝕄)
      ⊣⊢ iprop((ℓ ↦[S]{shareDrop (shareTok q n₁ c) n₂} f) ∗ bigSep Finset.univ fun i : Fin n₂ => ℓ ↦[S]{shareTok (shareTok q n₁ c) n₂ i} f) :=
    fun c => pointsTo_toks (shareTok q n₁ c) n₂
  unfold rem2
  constructor
  · refine (pointsTo_toks q n₁).1.trans ((sep_mono_right (BI.bigSep_mono (s := Finset.univ) fun c _ => (inner c).1)).trans ?_)
    rw [bigSep_sep']
    iintro ⟨Hr, Hd, Hi⟩
    isplitl [Hr Hd]
    · isplitl [Hr] <;> iassumption
    · iexact Hi
  · refine Entails.trans ?_ ((sep_mono_right (BI.bigSep_mono (s := Finset.univ) fun c _ => (inner c).2)).trans (pointsTo_toks q n₁).2)
    rw [bigSep_sep']
    iintro ⟨⟨Hr, Hd⟩, Hi⟩
    isplitl [Hr]; · iexact Hr
    isplitl [Hd] <;> iassumption

/-! ## Families of pieces over (core, subcore), closed under `∗` -/

/-- `A` is a remainder `R` and one piece `t c i` per (core, subcore): what is dealt to n₁ × n₂ readers and joined back. -/
def Toks2 {n₁ n₂ : ℕ} (A R : sProp 𝕄) (t : Fin n₁ → Fin n₂ → sProp 𝕄) : Prop :=
  A ⊣⊢ iprop(R ∗ bigSep Finset.univ fun c : Fin n₁ => bigSep Finset.univ fun i : Fin n₂ => t c i)

/-- An array's points-to at `q` is such a family: the remainders and the read tokens. -/
theorem Toks2.of_pointsTo (q : PosShare TreeShare) (n₁ n₂ : ℕ) :
    Toks2 (ℓ ↦[S]{q} f : sProp 𝕄) (rem2 ℓ S f q n₁ n₂) (fun (c : Fin n₁) (i : Fin n₂) => ℓ ↦[S]{shareTok (shareTok q n₁ c) n₂ i} f) :=
  pointsTo_toks2 q n₁ n₂

/-- A doubly indexed product of pairs is the pair of the doubly indexed products. -/
theorem bigSep2_sep {n₁ n₂ : ℕ} (a b : Fin n₁ → Fin n₂ → sProp 𝕄) :
    (bigSep Finset.univ fun c : Fin n₁ => bigSep Finset.univ fun i : Fin n₂ => iprop(a c i ∗ b c i) : sProp 𝕄)
      = iprop((bigSep Finset.univ fun c : Fin n₁ => bigSep Finset.univ fun i : Fin n₂ => a c i)
          ∗ bigSep Finset.univ fun c : Fin n₁ => bigSep Finset.univ fun i : Fin n₂ => b c i) := by
  rw [← bigSep_sep']; exact bigSep_congr fun c _ => bigSep_sep' _ _ _

/-- Two families side by side are one family of the paired pieces. -/
theorem Toks2.sep {n₁ n₂ : ℕ} {A B RA RB : sProp 𝕄} {a b : Fin n₁ → Fin n₂ → sProp 𝕄} (hA : Toks2 A RA a) (hB : Toks2 B RB b) :
    Toks2 iprop(A ∗ B) iprop(RA ∗ RB) (fun c i => iprop(a c i ∗ b c i)) := by
  unfold Toks2 at *
  have e : (bigSep Finset.univ fun c : Fin n₁ => bigSep Finset.univ fun i : Fin n₂ => iprop(a c i ∗ b c i) : sProp 𝕄)
      = iprop((bigSep Finset.univ fun c : Fin n₁ => bigSep Finset.univ fun i : Fin n₂ => a c i)
          ∗ bigSep Finset.univ fun c : Fin n₁ => bigSep Finset.univ fun i : Fin n₂ => b c i) := by
    rw [← bigSep_sep']; exact bigSep_congr fun c _ => bigSep_sep' _ _ _
  rw [e]
  constructor
  · refine (sep_mono hA.1 hB.1).trans ?_
    iintro ⟨⟨HRA, Ha⟩, HRB, Hb⟩
    isplitl [HRA HRB]
    · isplitl [HRA] <;> iassumption
    · isplitl [Ha] <;> iassumption
  · refine Entails.trans ?_ (sep_mono hA.2 hB.2)
    iintro ⟨⟨HRA, HRB⟩, Ha, Hb⟩
    isplitl [HRA Ha]
    · isplitl [HRA] <;> iassumption
    · isplitl [HRB] <;> iassumption

/-- A family with nothing kept aside, from an equation (a cover of an array by disjoint pieces). -/
theorem Toks2.of_eq {n₁ n₂ : ℕ} {A : sProp 𝕄} {t : Fin n₁ → Fin n₂ → sProp 𝕄}
    (h : A = bigSep Finset.univ fun c : Fin n₁ => bigSep Finset.univ fun i : Fin n₂ => t c i) : Toks2 A iprop(emp) t := by
  unfold Toks2
  rw [← h]
  constructor
  · iintro H
    isplitr
    · iempintro
    · iexact H
  · iintro ⟨-, H⟩
    iexact H

/-- A deal that hands out all of `A` and takes back `B` for `B`. -/
theorem keep_all [Preorder Lvl] (E : Set Name) (A B : sProp 𝕄) : A ⊢ iprop(|={E}=> (A ∗ (B -∗ B))) := by
  iintro H; imodintro
  isplitl [H]; · iexact H
  iintro H; iexact H

end Cert.Lib.ReadTokens

end
-- ==== Proof.KILaunch.lean ====
/-
  The launch: from "every tile's task is proved" to the run of the whole program with the result array named.

  The program's one call runs on 2 SparseCores of 16 tiles each. The TensorCore first lays the index words out flat (a
  reshape), then hands the two SparseCores what their tiles need and takes it back. What is split among whom:
  * the flat index list and the table are only read, by all 32 tiles at once: the full share of each is cut into one
    read token per SparseCore and each of those into one per tile; what the cutting leaves over stays with the
    TensorCore across the call and joins the tokens back to the full share afterwards;
  * the result array is cut into 64 blocks of 64 rows; tile (c, s) owns blocks 4 s + 2 c and 4 s + 2 c + 1 outright.
    (c, s, top or bottom) ↦ 4 s + 2 c (+ 1) is a bijection onto the 64 blocks, the blocks are pairwise disjoint and
    cover the array, so the 32 pairs of blocks are the whole array; after the call every block is held at the one
    whole-array function, and the blocks join to the array at that function;
  * the batch as the caller gave it is read by the reshape only and never leaves the TensorCore.
  A SparseCore's operands are exactly its 16 tiles' operands side by side, so the split inside a SparseCore is the identity.
-/
import proofs.«207326_g40819369181559_retrytranche2_1852_22_alg».proof.Proof.KIStmt
import proofs.«207326_g40819369181559_retrytranche2_1852_22_alg».proof.Proof.LibReadTokens

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo (held held_split held_sdiff_result wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers
open Cert.Lib.ReadTokens

variable {F : FTy → Type} [FloatOps F] [Named F]

local notation "𝕄" => MT nD τ sig (HIx 1) (Elt F) ℕ UU ℕ

local notation "iV" => (Memref.whole main_v0_scv : Memref sig Kind.scVector Space.hbm S106496 EltTy.i32)
local notation "xV" => (Memref.whole main_arg1_scv : Memref sig Kind.scVector Space.hbm S2600000x128 EltTy.f32)
local notation "oV" => (Memref.whole main_v1_scv : Memref sig Kind.scVector Space.hbm S4096x128 EltTy.f32)
local notation "sV" => (Memref.whole cc0_scratch0 : Memref sig Kind.scVector Space.vmem S3328 EltTy.i32)
local notation "rV" => (Memref.whole cc0_scratch1 : Memref sig Kind.scVector Space.vmem S4x104x128 EltTy.f32)
local notation "aV" => (Memref.whole cc0_scratch2 : Memref sig Kind.scVector Space.vmem S128x128 EltTy.f32)

variable (m : (ℓ : Loc nD τ sig) → Buf (Elt F) ℓ) (ρ : Dev nD → PrngReg)

/-! ## What the handshakes carry -/

/-- What a tile is handed and hands back, at the launch memory's contents. -/
abbrev tIn (d : Dev nD) (c : Fin 2) (s : Fin 16) : sProp 𝕄 :=
  tileIn d c s (sflOf (m (aLoc d))) (m (xLoc d)) (m (oLoc d))
abbrev tOut (d : Dev nD) (c : Fin 2) (s : Fin 16) : sProp 𝕄 :=
  tileOut d c s (sflOf (m (aLoc d))) (m (xLoc d)) (KG (cstK (F := F)) (sflOf (m (aLoc d))) (m (xLoc d)))

instance tileIn_storable (d : Dev nD) (c : Fin 2) (s : Fin 16) (a : Buf (Elt F) (iLoc d)) (b : Buf (Elt F) (xLoc d)) (o : Buf (Elt F) (oLoc d)) :
    BI.Storable (upEmb : UEmb _ 𝕄) (tileIn d c s a b o) := by unfold tileIn; infer_instance
instance tileOut_storable (d : Dev nD) (c : Fin 2) (s : Fin 16) (a : Buf (Elt F) (iLoc d)) (b : Buf (Elt F) (xLoc d)) (o : Buf (Elt F) (oLoc d)) :
    BI.Storable (upEmb : UEmb _ 𝕄) (tileOut d c s a b o) := by unfold tileOut; infer_instance

/-- The one call: a SparseCore takes its 16 tiles' operands side by side and brings their results back; a tile its read
    tokens and its two blocks of the result. -/
def P : (K (F := F)).Pay (nD := nD) (Val := Elt F) (Name := ℕ) (U := UU) where
  st := fun q d c => match q with
    | 0 => bigSep Finset.univ fun i : Fin ((K (F := F)).nSub 0) => tIn m d (Fin.cast nCore_zero c) (Fin.cast nSub_zero i)
  dn := fun q d c => match q with
    | 0 => bigSep Finset.univ fun i : Fin ((K (F := F)).nSub 0) => tOut m d (Fin.cast nCore_zero c) (Fin.cast nSub_zero i)
  go := fun q d c i => match q with
    | 0 => tIn m d (Fin.cast nCore_zero c) (Fin.cast nSub_zero i)
  td := fun q d c i => match q with
    | 0 => tOut m d (Fin.cast nCore_zero c) (Fin.cast nSub_zero i)
  x := fun _ _ => iprop(emp)

instance P_storable : (P (F := F) m).IsStorable where
  st q d c := match q with
    | 0 => (inferInstance : BI.Storable (upEmb : UEmb _ 𝕄)
      (bigSep Finset.univ fun i : Fin ((K (F := F)).nSub 0) => tIn m d (Fin.cast nCore_zero c) (Fin.cast nSub_zero i)))
  dn q d c := match q with
    | 0 => (inferInstance : BI.Storable (upEmb : UEmb _ 𝕄)
      (bigSep Finset.univ fun i : Fin ((K (F := F)).nSub 0) => tOut m d (Fin.cast nCore_zero c) (Fin.cast nSub_zero i)))
  go q d c i := match q with
    | 0 => (inferInstance : BI.Storable (upEmb : UEmb _ 𝕄) (tIn m d (Fin.cast nCore_zero c) (Fin.cast nSub_zero i)))
  td q d c i := match q with
    | 0 => (inferInstance : BI.Storable (upEmb : UEmb _ 𝕄) (tOut m d (Fin.cast nCore_zero c) (Fin.cast nSub_zero i)))

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__emb_bag (coordsV c s)
          iV (Memref.isWhole_whole _) xV (Memref.isWhole_whole _) oV (Memref.isWhole_whole _)
          sV (Memref.isWhole_whole _) rV (Memref.isWhole_whole _) aV (Memref.isWhole_whole _)
          cc0_scratch3 cc0_scratch4 cc0_scratch5 cc0_scratch6 cc0_scratch7 cc0_scoped0 cc0_scoped1) ⟨⟩ c s := rfl

omit [FloatOps F] [Named F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile's task is the launch's obligation for it: the tile at the launch's core c and subcore i is the tile at the
    kernel's coordinates (c, i), handed exactly what the call's payload says. -/
theorem tileObl (hF : (K (F := F)).Facts) (htile : TileStmt (F := F) m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (htile d (coordsV ⟨_, hci.1⟩ ⟨_, hci.2⟩) hF O W hO).trans (wp_mono frame _ _ fun _ => obl_post)

/-! ## Inside a SparseCore nothing is cut: its operands are its tiles' -/

theorem vecSplit : (K (F := F)).VecSplit' (P m) 0 := by
  intro d c
  exact keep_all Set.univ _ _

/-! ## The launch element of the ghost state -/

def u₀ : UU := (initOf (K (F := F)).hsCells (K (F := F)).hsToks, 1)

omit [FloatOps F] [Named F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The result array: 64 blocks, two per tile -/

theorem oPiece_eq (k : Fin 64) : oPiece k = (oRect k).set := by
  show ((View.whole (main_v1_scv : Ref sig .scVector)).slice (oRect k)).set = _
  rw [View.set_slice]; exact Finset.map_refl
theorem oPieces_disjoint : ∀ i ∈ (Finset.univ : Finset (Fin 64)), ∀ j ∈ (Finset.univ : Finset (Fin 64)), i ≠ j → Disjoint (oPiece i) (oPiece j) :=
  fun i _ j _ h => by rw [oPiece_eq, oPiece_eq]; exact Rect.part_disjoint odiv h
theorem oPieces_cover : (Finset.univ : Finset (Fin 64)).biUnion oPiece = Finset.univ :=
  (Finset.biUnion_congr rfl fun i _ => oPiece_eq i).trans (Rect.biUnion_part odiv)

/-- The blocks are pairwise disjoint and cover the array: the array at any contents is its 64 blocks at those contents. -/
theorem oPts_pieces (d : Dev nD) (f : Buf (Elt F) (oLoc d)) :
    (oLoc d ↦{fullShare} f : sProp 𝕄) = bigSep Finset.univ fun k : Fin 64 => oLoc d ↦[oPiece k]{fullShare} f := by
  rw [← pointsTo_biUnion Finset.univ (ℓ := oLoc d) oPiece oPieces_disjoint, oPieces_cover]; try rfl

/-- Block 4 s + 2 c is tile (c, s)'s upper one, block 4 s + 2 c + 1 its lower one. -/
def blockFn : (Fin 2 × Fin 16) ⊕ (Fin 2 × Fin 16) → Fin 64
  | .inl p => topIx p.1 p.2
  | .inr p => botIx p.1 p.2

/-- Every block is exactly one tile's upper or lower one: k = 4 s + 2 c + b with c, b < 2 determines s, c and b, and
    there are as many (c, s, b) as blocks. -/
theorem blockFn_bijective : Function.Bijective blockFn := by
  refine (Fintype.bijective_iff_injective_and_card _).2 ⟨?_, by simp⟩
  rintro (⟨c, s⟩ | ⟨c, s⟩) (⟨c', s'⟩ | ⟨c', s'⟩) h
  all_goals
    have h' := congrArg Fin.val h
    have := c.isLt; have := c'.isLt; have := s.isLt; have := s'.isLt
    simp only [blockFn, topIx, botIx] at h'
  · have hc : c = c' := Fin.ext (by omega)
    have hs : s = s' := Fin.ext (by omega)
    rw [hc, hs]
  · omega
  · omega
  · have hc : c = c' := Fin.ext (by omega)
    have hs : s = s' := Fin.ext (by omega)
    rw [hc, hs]

def blockEquiv : (Fin 2 × Fin 16) ⊕ (Fin 2 × Fin 16) ≃ Fin 64 := Equiv.ofBijective blockFn blockFn_bijective

/-- A product over the 64 blocks, regrouped per SparseCore and per tile. -/
theorem bigSep_blocks (Φ : Fin 64 → sProp 𝕄) :
    bigSep Finset.univ Φ = bigSep Finset.univ fun c : Fin 2 => bigSep Finset.univ fun s : Fin 16 => iprop(Φ (topIx c s) ∗ Φ (botIx c s)) := by
  rw [bigSep_univ_equiv blockEquiv Φ, bigSep_univ_sum, ← bigSep_sep, bigSep_univ_prod]
  rfl

/-- The result array at any contents is every tile's two blocks at those contents. -/
theorem oPts_tiles (d : Dev nD) (f : Buf (Elt F) (oLoc d)) :
    (oLoc d ↦{fullShare} f : sProp 𝕄)
      = bigSep Finset.univ fun c : Fin 2 => bigSep Finset.univ fun s : Fin 16 =>
          iprop((oLoc d ↦[oPiece (topIx c s)]{fullShare} f) ∗ (oLoc d ↦[oPiece (botIx c s)]{fullShare} f)) := by
  rw [oPts_pieces, bigSep_blocks (F := F) (fun k => oLoc d ↦[oPiece k]{fullShare} f)]

/-! ## The three arrays, cut for the 32 tiles and joined back -/

/-- The flat index list and the table at the full share and the result array whole are: what the cutting of the two
    full shares leaves over, and every tile's operands. Both ways: the cut before the call, the join after it. -/
theorem dealIn (d : Dev nD) (sfl : Buf (Elt F) (iLoc d)) (tab : Buf (Elt F) (xLoc d)) (o : Buf (Elt F) (oLoc d)) :
    Toks2 (iprop((iLoc d ↦{fullShare} sfl) ∗ (xLoc d ↦{fullShare} tab) ∗ (oLoc d ↦{fullShare} o)) : sProp 𝕄)
      iprop(rem2 (iLoc d) Finset.univ sfl fullShare 2 16 ∗ rem2 (xLoc d) Finset.univ tab fullShare 2 16 ∗ emp)
      (fun c s => tileIn d c s sfl tab o) :=
  (Toks2.of_pointsTo (ℓ := iLoc d) (S := Finset.univ) (f := sfl) fullShare 2 16).sep
    ((Toks2.of_pointsTo (ℓ := xLoc d) (S := Finset.univ) (f := tab) fullShare 2 16).sep (Toks2.of_eq (oPts_tiles d o)))
theorem dealOut (d : Dev nD) (sfl : Buf (Elt F) (iLoc d)) (tab : Buf (Elt F) (xLoc d)) (o : Buf (Elt F) (oLoc d)) :
    Toks2 (iprop((iLoc d ↦{fullShare} sfl) ∗ (xLoc d ↦{fullShare} tab) ∗ (oLoc d ↦{fullShare} o)) : sProp 𝕄)
      iprop(rem2 (iLoc d) Finset.univ sfl fullShare 2 16 ∗ rem2 (xLoc d) Finset.univ tab fullShare 2 16 ∗ emp)
      (fun c s => tileOut d c s sfl tab o) :=
  dealIn d sfl tab o

/-! ## @main on the TensorCore -/

abbrev a' : DevRef τ sig := Proc.devRef .tc (main_arg0 : Ref sig .tc)
abbrev x' : DevRef τ sig := Proc.devRef .tc (main_arg1 : Ref sig .tc)
abbrev i' : DevRef τ sig := Proc.devRef .tc (main_v0 : Ref sig .tc)
abbrev o' : DevRef τ sig := Proc.devRef .tc (main_v1 : Ref sig .tc)
/-- The host operation before the call: the batch's index words laid out flat. -/
abbrev opR : HloOp τ sig (Elt F) := StableHlo.reshape main_arg0 main_v0 rfl shapeCasts_S4096x26_S106496

/-- The TensorCore's arrays, all unscoped: the batch, the table, the flat index list, the result. -/
abbrev S4 : Finset (DevRef τ sig) := {a', x', i', o'}

theorem held_S4 (d : Dev nD) (W : Valuation τ sig (Elt F)) :
    (held (T d) S4 W : sProp 𝕄)
      = iprop((aLoc d ↦{fullShare} W a') ∗ (xLoc d ↦{fullShare} W x') ∗ (iLoc d ↦{fullShare} W i') ∗ (oLoc d ↦{fullShare} W o')) := by
  unfold held S4
  rw [SparseCore.bigSep_insert' (by decide), SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄)
      = iprop((aLoc d ↦{fullShare} W main_arg0) ∗ (xLoc d ↦{fullShare} W main_arg1) ∗ (iLoc d ↦{fullShare} W main_v0) ∗ (oLoc d ↦{fullShare} W main_v1)) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

/-- The launch valuation. -/
def V0 (d : Dev nD) : Valuation τ sig (Elt F) := fun b => m (d, b)

theorem unscoped_held (d : Dev nD) : (unscopedBufs d (fun b => m ((SparseCore.T d).loc b)) : sProp 𝕄) = held (T d) S4 (V0 m d) := by
  rw [unscopedBufs_eq, held_S4]; rfl

/-- The reshape writes the flat index list only; -/
theorem V1_a (d : Dev nD) : (opR (F := F)).result (V0 m d) a' = m (aLoc d) := by
  rw [(opR (F := F)).result_of_not_mem _ (show a' ∉ ({i'} : Finset (DevRef τ sig)) by decide)]; rfl
theorem V1_x (d : Dev nD) : (opR (F := F)).result (V0 m d) x' = m (xLoc d) := by
  rw [(opR (F := F)).result_of_not_mem _ (show x' ∉ ({i'} : Finset (DevRef τ sig)) by decide)]; rfl
theorem V1_o (d : Dev nD) : (opR (F := F)).result (V0 m d) o' = m (oLoc d) := by
  rw [(opR (F := F)).result_of_not_mem _ (show o' ∉ ({i'} : Finset (DevRef τ sig)) by decide)]; rfl
/-- and leaves there the batch's words in row-major order. -/
theorem V1_i (d : Dev nD) : (opR (F := F)).result (V0 m d) i' = sflOf (m (aLoc d)) :=
  (StableHlo.reshape_result main_arg0 main_v0 rfl shapeCasts_S4096x26_S106496 _ _ (V0 m d)).trans rfl

theorem held_V1 (d : Dev nD) :
    (held (T d) S4 ((opR (F := F)).result (V0 m d)) : sProp 𝕄)
      = iprop((aLoc d ↦{fullShare} m (aLoc d)) ∗ (xLoc d ↦{fullShare} m (xLoc d)) ∗ (iLoc d ↦{fullShare} sflOf (m (aLoc d))) ∗ (oLoc d ↦{fullShare} m (oLoc d))) := by
  rw [held_S4, V1_a, V1_x, V1_i, V1_o]

theorem hR : (opR (F := F)).bufs ⊆ S4 := show ({a', i'} : Finset (DevRef τ sig)) ⊆ S4 by decide

omit [FloatOps F] [Named F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] [Named F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem st0_eq (d : Dev nD) :
    (bigSep Finset.univ fun c : Fin ((K (F := F)).nCore 0) => (P m).st 0 d c)
      = bigSep Finset.univ fun c : Fin 2 => bigSep Finset.univ fun s : Fin 16 => tIn m d c s := by
  show (bigSep Finset.univ fun c : Fin ((K (F := F)).nCore 0) => bigSep Finset.univ fun i : Fin ((K (F := F)).nSub 0) =>
      tIn m d (Fin.cast nCore_zero c) (Fin.cast nSub_zero i)) = _
  rw [← bigSep_cores (F := F) (fun c => bigSep Finset.univ fun s : Fin 16 => tIn m d c s)]
  exact bigSep_congr fun c _ => bigSep_tasks (F := F) (fun s => tIn m d (Fin.cast nCore_zero c) s)
theorem dn0_eq (d : Dev nD) :
    (bigSep Finset.univ fun c : Fin ((K (F := F)).nCore 0) => (P m).dn 0 d c)
      = bigSep Finset.univ fun c : Fin 2 => bigSep Finset.univ fun s : Fin 16 => tOut m d c s := by
  show (bigSep Finset.univ fun c : Fin ((K (F := F)).nCore 0) => bigSep Finset.univ fun i : Fin ((K (F := F)).nSub 0) =>
      tOut m d (Fin.cast nCore_zero c) (Fin.cast nSub_zero i)) = _
  rw [← bigSep_cores (F := F) (fun c => bigSep Finset.univ fun s : Fin 16 => tOut m d c s)]
  exact bigSep_congr fun c _ => bigSep_tasks (F := F) (fun s => tOut m d (Fin.cast nCore_zero c) s)

/-- What @main leaves the claim: the batch and the table at their launch contents, the result at the one function. -/
abbrev FIN (d : Dev nD) : sProp 𝕄 :=
  iprop((aLoc d ↦{fullShare} m (aLoc d)) ∗ (xLoc d ↦{fullShare} m (xLoc d))
    ∗ (oLoc d ↦{fullShare} KG (cstK (F := F)) (sflOf (m (aLoc d))) (m (xLoc d))))

set_option maxRecDepth 16384 in
/-- @main on device d's TensorCore: the reshape (the batch read, the flat list written); the cut of the flat list, the
    table and the result among the 32 tiles, the call, the join; the batch kept throughout. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the reshape
  iapply (wp_hlo_within 𝒱 (SparseCore.T d) none Set.univ (op := opR) (S := S4) hR (V := V0 m d)) $$ [Hb Hheld]
  · isplitl [Hb] <;> iassumption
  iintro ⟨Hb, Hheld⟩
  rw [wp_ret]; imodintro
  ihave Hh := (Entails.of_eq (held_V1 (F := F) m d)) $$ Hheld
  icases Hh with ⟨Ha, Hx, Hi, Ho⟩
  -- the cut
  ihave Hd := (dealIn (F := F) d (sflOf (m (aLoc d))) (m (xLoc d)) (m (oLoc d))).1 $$ [Hi Hx Ho]
  · isplitl [Hi]; · iexact Hi
    isplitl [Hx]; · iexact Hx
    iexact Ho
  icases Hd with ⟨Hrem, Htiles⟩
  -- the call
  iapply ((K (F := F)).wp_run (D (F := F)) 𝒱 (EH := EH) (P := P m) κ d 0) $$ [Hst Htiles Hb Ha Hrem]
  isplitr; · iexact Hctx
  isplitl [Hst]; · iexact Hst
  isplitl [Htiles]
  · rw [st0_eq]; iexact Htiles
  iintro ⟨Hst, Hdn⟩
  ihave Hdn' := (Entails.of_eq (dn0_eq m d)) $$ Hdn
  -- the join
  ihave Hj := (dealOut (F := F) d (sflOf (m (aLoc d))) (m (xLoc d)) (KG (cstK (F := F)) (sflOf (m (aLoc d))) (m (xLoc d)))).2 $$ [Hrem Hdn']
  · isplitl [Hrem]; · iexact Hrem
    iexact Hdn'
  icases Hj with ⟨-, Hx, Ho⟩
  imodintro
  isplitl [Hst]; · iexact Hst
  isplitl [Ha]; · iexact Ha
  isplitl [Hx]; · iexact Hx
  iexact Ho

def fq (d : Dev nD) (s' : Phys nD τ sig (Elt F)) : Prop :=
  s'.mem.mem (oLoc d) = KG (cstK (F := F)) (sflOf (m (aLoc d))) (m (xLoc d)) ∧ s'.mem.mem (aLoc d) = m (aLoc d) ∧ s'.mem.mem (xLoc d) = m (xLoc d)

set_option maxRecDepth 16384 in
theorem hfin (d : Dev nD) (s' : Phys nD τ sig (Elt F)) : iprop(FIN m d ∗ SI s') ⊢ (⌜fq m d s'⌝ : sProp 𝕄) := by
  iintro ⟨⟨Ha, Hx, Ho⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h2, HSI, -⟩
  ihave H := (SI_pointsTo_agree (st := s') (ℓ := oLoc d) (I := Finset.univ) (q := fullShare)
    (f := KG (cstK (F := F)) (sflOf (m (aLoc d))) (m (xLoc d)))) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

theorem run_main [∀ e, Nonempty (Elt F e)] (m : (ℓ : Loc nD τ sig) → Buf (Elt F) ℓ) (ρ : Dev nD → PrngReg) (htile : TileStmt (F := F) m) :
    θ_run (Cert.KernelIdeal.defs (F := F)) (Cert.KernelIdeal.threads (F := F)) ⟨m, fun _ => 0, ρ⟩
      (fun r => ∀ c : Dev nD,
        r.2.mem (oLoc c) = KG (cstK (F := F)) (sflOf (m (aLoc c))) (m (xLoc c))
        ∧ r.2.mem (aLoc c) = m (aLoc c) ∧ r.2.mem (xLoc c) = m (xLoc c)) :=
  SparseCore.Cfg.θ_run_sc (K := K (F := F)) (D := D (F := F)) (𝒱 := 𝒱) (EH := EH) (P := P m) facts v₀
    (fun q hq => match q with | 0 => nomatch hq)
    (fun q _ => match q with | 0 => tileObl m facts htile)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) _ (fun _ h => h)

end Cert.KI

end
-- ==== Proof.KIOwn.lean ====
/-
  A tile's own scratch and semaphores, taken out of the bundles the launch hands it: its seven DMA semaphore cells at zero and
  its three scratch buffers at some contents, beside the rest.
-/
import proofs.«207326_g40819369181559_retrytranche2_1852_22_alg».proof.Proof.KIStmt

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.KernelIdeal.main_v0_scv : Memref Cert.KernelIdeal.sig Kind.scVector Space.hbm Cert.KernelIdeal.S106496 EltTy.i32)
local notation "xV" => (Memref.whole Cert.KernelIdeal.main_arg1_scv : Memref Cert.KernelIdeal.sig Kind.scVector Space.hbm Cert.KernelIdeal.S2600000x128 EltTy.f32)
local notation "oV" => (Memref.whole Cert.KernelIdeal.main_v1_scv : Memref Cert.KernelIdeal.sig Kind.scVector Space.hbm Cert.KernelIdeal.S4096x128 EltTy.f32)
local notation "sV" => (Memref.whole Cert.KernelIdeal.cc0_scratch0 : Memref Cert.KernelIdeal.sig Kind.scVector Space.vmem Cert.KernelIdeal.S3328 EltTy.i32)
local notation "rV" => (Memref.whole Cert.KernelIdeal.cc0_scratch1 : Memref Cert.KernelIdeal.sig Kind.scVector Space.vmem Cert.KernelIdeal.S4x104x128 EltTy.f32)
local notation "aV" => (Memref.whole Cert.KernelIdeal.cc0_scratch2 : Memref Cert.KernelIdeal.sig Kind.scVector Space.vmem Cert.KernelIdeal.S128x128 EltTy.f32)

variable [FloatOps F] [Named F]
variable (d : Dev nD) (L : grid0.Coords)

abbrev thr : Thread nD τ := V d (cV L) (jV L)

abbrev cell0 : GSem nD τ sig := (thr d L, .dma cc0_scratch3.sem)
abbrev cell1 : GSem nD τ sig := (thr d L, .dma cc0_scratch4.sem)
abbrev cell2 : GSem nD τ sig := (thr d L, .dma cc0_scratch5.sem)
abbrev cell3 : GSem nD τ sig := (thr d L, .dma cc0_scratch6.sem)
abbrev cell4 : GSem nD τ sig := (thr d L, .dma cc0_scratch7.sem)
abbrev cell5 : GSem nD τ sig := (thr d L, .dma cc0_scoped0.sem)
abbrev cell6 : GSem nD τ sig := (thr d L, .dma cc0_scoped1.sem)

omit [FloatOps F] [Named F] in
theorem ownSems0_V :
    (ownSems0 (thr d L) : sProp 𝕄)
      = iprop(semVal (cell0 d L) 0 ∗ semVal (cell1 d L) 0 ∗ semVal (cell2 d L) 0 ∗ semVal (cell3 d L) 0 ∗ semVal (cell4 d L) 0 ∗ semVal (cell5 d L) 0 ∗ semVal (cell6 d L) 0
          ∗ bigSep (((((((((ownCells (thr d L)).erase (cell0 d L)).erase (cell1 d L)).erase (cell2 d L)).erase (cell3 d L)).erase (cell4 d L)).erase (cell5 d L)).erase (cell6 d L))) fun g => semVal g 0) := by
  unfold SparseCore.Cfg.ownSems0
  rw [SparseCore.bigSep_erase' ((mem_ownCells (g := cell0 d L)).mpr ⟨rfl, by show (SemLoc.dma cc0_scratch3.sem : SemLoc sig).isScoped .scVector = true; decide⟩),
    SparseCore.bigSep_erase' (Finset.mem_erase.mpr ⟨by simp [cell0, cell1]; decide, (mem_ownCells (g := cell1 d L)).mpr ⟨rfl, by show (SemLoc.dma cc0_scratch4.sem : SemLoc sig).isScoped .scVector = true; decide⟩⟩),
    SparseCore.bigSep_erase' (Finset.mem_erase.mpr ⟨by simp [cell1, cell2]; decide, Finset.mem_erase.mpr ⟨by simp [cell0, cell2]; decide, (mem_ownCells (g := cell2 d L)).mpr ⟨rfl, by show (SemLoc.dma cc0_scratch5.sem : SemLoc sig).isScoped .scVector = true; decide⟩⟩⟩),
    SparseCore.bigSep_erase' (Finset.mem_erase.mpr ⟨by simp [cell2, cell3]; decide, Finset.mem_erase.mpr ⟨by simp [cell1, cell3]; decide, Finset.mem_erase.mpr ⟨by simp [cell0, cell3]; decide, (mem_ownCells (g := cell3 d L)).mpr ⟨rfl, by show (SemLoc.dma cc0_scratch6.sem : SemLoc sig).isScoped .scVector = true; decide⟩⟩⟩⟩),
    SparseCore.bigSep_erase' (Finset.mem_erase.mpr ⟨by simp [cell3, cell4]; decide, Finset.mem_erase.mpr ⟨by simp [cell2, cell4]; decide, Finset.mem_erase.mpr ⟨by simp [cell1, cell4]; decide, Finset.mem_erase.mpr ⟨by simp [cell0, cell4]; decide, (mem_ownCells (g := cell4 d L)).mpr ⟨rfl, by show (SemLoc.dma cc0_scratch7.sem : SemLoc sig).isScoped .scVector = true; decide⟩⟩⟩⟩⟩),
    SparseCore.bigSep_erase' (Finset.mem_erase.mpr ⟨by simp [cell4, cell5]; decide, Finset.mem_erase.mpr ⟨by simp [cell3, cell5]; decide, Finset.mem_erase.mpr ⟨by simp [cell2, cell5]; decide, Finset.mem_erase.mpr ⟨by simp [cell1, cell5]; decide, Finset.mem_erase.mpr ⟨by simp [cell0, cell5]; decide, (mem_ownCells (g := cell5 d L)).mpr ⟨rfl, by show (SemLoc.dma cc0_scoped0.sem : SemLoc sig).isScoped .scVector = true; decide⟩⟩⟩⟩⟩⟩),
    SparseCore.bigSep_erase' (Finset.mem_erase.mpr ⟨by simp [cell5, cell6]; decide, Finset.mem_erase.mpr ⟨by simp [cell4, cell6]; decide, Finset.mem_erase.mpr ⟨by simp [cell3, cell6]; decide, Finset.mem_erase.mpr ⟨by simp [cell2, cell6]; decide, Finset.mem_erase.mpr ⟨by simp [cell1, cell6]; decide, Finset.mem_erase.mpr ⟨by simp [cell0, cell6]; decide, (mem_ownCells (g := cell6 d L)).mpr ⟨rfl, by show (SemLoc.dma cc0_scoped1.sem : SemLoc sig).isScoped .scVector = true; decide⟩⟩⟩⟩⟩⟩⟩)]

omit [FloatOps F] [Named F] in
/-- The three scratch buffers are among the tile's own: they are them, at some contents, and the rest. -/
theorem ownBufs_V :
    (ownBufs (thr d L) : sProp 𝕄)
      = iprop((∃ f, (thr d L).loc cc0_scratch0 ↦{fullShare} f) ∗ (∃ f, (thr d L).loc cc0_scratch1 ↦{fullShare} f) ∗ (∃ f, (thr d L).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := Proc.scVector (cV L) (jV L)) (b := (Proc.scVector (cV L) (jV L)).devRef cc0_scratch2) rfl⟩⟩)]

end Cert.KI

end
-- ==== Proof.KIIdx.lean ====
/-
  The index scratch of one tile, word by word: what the copy from the flattened index list lands, what the two passes
  that add 100000 · (position mod 26) leave, and the bounds the gathers need.
-/
import proofs.«207326_g40819369181559_retrytranche2_1852_22_alg».proof.Proof.KIStmt
import Idealize.ShloMosaic.Lib.Writes
import Idealize.ShloMosaic.Lib.Pipeline.Value
import Idealize.ShloMosaic.Lib.ValueIdx

noncomputable section

namespace Cert.KI

open Cert.KernelIdeal Cert.KernelIdeal.Gen
open Idealize.ShloMosaic Idealize.ShloMosaic.ValueIdx

/-- Tile (c, s) is worker 2 s + c. -/
def wid (L : grid0.Coords) : ℕ := 2 * (L 1).val + (L 0).val

/-- Position p of the tile's part of the flattened index list. -/
def rawIdx (L : grid0.Coords) (sfl : IVec S106496 32) (p : ℕ) : BitVec 32 :=
  sfl (ix1 (⟨(3328 * wid L + p) % 106496, Nat.mod_lt _ (by norm_num)⟩ : Fin 106496))

/-- The word at position p once 100000 · (p mod 26) has been added to it. -/
def fixWord (w : BitVec 32) (p : ℕ) : BitVec 32 := w + BitVec.ofNat 32 (p % 26) * 100000#32

/-- The index scratch when positions below n have been moved into their fields' blocks and the others not yet. -/
def idxAfter (L : grid0.Coords) (sfl : IVec S106496 32) (n : ℕ) : S3328.Idx → BitVec 32 :=
  fun i => if (i 0).val < n then fixWord (rawIdx L sfl (i 0).val) (i 0).val else rawIdx L sfl (i 0).val

/-! ## What the first copy lands -/

local notation "iV" => (Memref.whole Cert.KernelIdeal.main_v0_scv : Memref Cert.KernelIdeal.sig Kind.scVector Space.hbm Cert.KernelIdeal.S106496 EltTy.i32)
local notation "sV" => (Memref.whole Cert.KernelIdeal.cc0_scratch0 : Memref Cert.KernelIdeal.sig Kind.scVector Space.vmem Cert.KernelIdeal.S3328 EltTy.i32)

variable {F : FTy → Type} [FloatOps F] [Named F]

/-- There are 32 workers. -/
theorem wid_lt (L : grid0.Coords) : wid L < 32 := by
  have h0 : (L 0).val < 2 := (L 0).isLt
  have h1 : (L 1).val < 16 := (L 1).isLt
  unfold wid; omega

/-- The copy of the tile's 3328 words of the flattened index list lands them as they are: nothing moved yet. -/
theorem landed_eq (L : grid0.Coords) (sfl : IVec S106496 32) :
    ReadAs.same.apply (View.read (Elt F) ((iV).slice (Rect.unit (s := S106496) (k0_off1 L) S3328.size (k0_off1_inb L)) (fun _ => rfl)).view sfl)
      = idxAfter L sfl 0 := by
  funext x
  have hx : (x 0).val < 3328 := (x 0).isLt
  have h0 : (L 0).val < 2 := (L 0).isLt
  have h1 : (L 1).val < 16 := (L 1).isLt
  refine ((View.read_apply _ _).trans (cast_eq _ _)).trans ?_
  unfold idxAfter
  rw [if_neg (Nat.not_lt_zero _)]
  unfold rawIdx
  refine congrArg sfl (funext fun a => Fin.ext ?_)
  match a with
  | ⟨0, _⟩ =>
    show k0_off1 L 0 + 1 * (x 0).val = (3328 * wid L + (x 0).val) % 106496
    have e : k0_off1 L 0 = 6656 * (L 1).val + 3328 * (L 0).val := congrFun (k0_off1_eq L) 0
    unfold wid
    omega

/-! ## One store of 16 lanes -/

/-- A store of 16 lanes at offset o whose lane y holds the moved word of position o + y, over the scratch moved below o,
    leaves the scratch moved below o + 16. -/
theorem fix_step_gen (L : grid0.Coords) (sfl : IVec S106496 32) (o : ℕ) (off : Fin 1 → ℕ) (hoff : off = ![o])
    (inb : ∀ a, off a + S16.size a ≤ S3328.size a) (w : S16.Idx → BitVec 32)
    (hw : ∀ y : S16.Idx, w y = fixWord (rawIdx L sfl (o + (y 0).val)) (o + (y 0).val)) :
    (sV).view.writes (Elt F) (idxAfter L sfl o) [⟨Rect.unit (s := S3328) off S16.size inb, w⟩] = idxAfter L sfl (o + 16) := by
  subst hoff
  funext i
  have hi3 : (i 0).val < 3328 := (i 0).isLt
  have hb : o + 16 ≤ 3328 := inb 0
  by_cases hin : o ≤ (i 0).val ∧ (i 0).val < o + 16
  · obtain ⟨y, rfl⟩ : ∃ y : S16.Idx, (Rect.unit (s := S3328) ![o] S16.size inb).emb y = i :=
      ⟨ix1 (⟨(i 0).val - o, by omega⟩ : Fin 16), funext fun a => Fin.ext (by
        match a with
        | ⟨0, _⟩ => show o + 1 * ((i 0).val - o) = (i 0).val; omega)⟩
    have hy : (y 0).val < 16 := (y 0).isLt
    have e : ((Rect.unit (s := S3328) ![o] S16.size inb).emb y 0).val = o + (y 0).val := by
      show o + 1 * (y 0).val = _; omega
    refine (View.read_writes_cons_emb (Val := Elt F) (sV).view (idxAfter L sfl o) (Rect.unit (s := S3328) ![o] S16.size inb) w [] y).trans ?_
    rw [hw y]
    unfold idxAfter
    simp only [e]
    rw [if_pos (by omega)]
  · have hni : i ∉ (Rect.unit (s := S3328) ![o] S16.size inb).set := fun h => hin (Rect.mem_set_unit.mp h 0)
    refine (View.read_writes_apply_of_forall_not_mem (Val := Elt F) (sV).view (idxAfter L sfl o) i
      [⟨Rect.unit (s := S3328) ![o] S16.size inb, w⟩] (fun p hp => by rw [List.mem_singleton.mp hp]; exact hni)).trans ?_
    show idxAfter L sfl o i = idxAfter L sfl (o + 16) i
    unfold idxAfter
    by_cases h1 : (i 0).val < o
    · rw [if_pos h1, if_pos (by omega)]
    · rw [if_neg h1, if_neg (by omega)]

/-! ## The two passes' arithmetic, lane by lane -/

/-- Lane y of the lane counter is y. -/
theorem iota_apply (y : S16.Idx) : iota .scVector S16 32 [0] iota_S16_d0_w32_scVector y = BitVec.ofNat 32 (y 0).val := by
  show BitVec.ofNat 32 (0 * 16 + (y 0).val) = _
  rw [Nat.zero_mul, Nat.zero_add]

/-- Lane y of trip k of the first pass adds 100000 · ((16 k + y) mod 26): the position is below 3328, so its signed
    remainder by 26 is the natural one. -/
theorem arith1 : ∀ (k : Fin k0_t1_loop.trips) (y : Fin 16),
    IntOp.muli (IntOp.remsi .vector (IntOp.addi (Scalar.muli (Scf.iv 0#32 1#32 k) 16#32) (BitVec.ofNat 32 y.val)) 26#32) 100000#32
      = BitVec.ofNat 32 ((16 * k.val + y.val) % 26) * 100000#32 := by decide +kernel

/-- The same for the second pass, whose trip k works on positions 112 + 16 k …. -/
theorem arith2 : ∀ (k : Fin k0_t2_loop.trips) (y : Fin 16),
    IntOp.muli (IntOp.remsi .vector (IntOp.addi (Scalar.muli (Scf.iv 7#32 1#32 k) 16#32) (BitVec.ofNat 32 y.val)) 26#32) 100000#32
      = BitVec.ofNat 32 ((16 * k.val + 112 + y.val) % 26) * 100000#32 := by decide +kernel

/-- The first pass's stored value at lane y: the loaded word plus 100000 · (position mod 26). -/
theorem pay533_eq (k : Fin k0_t1_loop.trips) (v : S16.Idx → BitVec 32) (y : S16.Idx) :
    k0_pay533 (F := F) k v y = v y + BitVec.ofNat 32 ((16 * k.val + (y 0).val) % 26) * 100000#32 := by
  unfold k0_pay533
  dsimp only
  rw [shapeCast_self, shapeCast_self]
  exact congrArg (v y + ·) ((congrArg (fun t => IntOp.muli (IntOp.remsi .vector (IntOp.addi (Scalar.muli (Scf.iv 0#32 1#32 k) 16#32) t) 26#32) 100000#32)
    (iota_apply y)).trans (arith1 k (y 0)))

theorem pay534_eq (k : Fin k0_t2_loop.trips) (v : S16.Idx → BitVec 32) (y : S16.Idx) :
    k0_pay534 (F := F) k v y = v y + BitVec.ofNat 32 ((16 * k.val + 112 + (y 0).val) % 26) * 100000#32 := by
  unfold k0_pay534
  dsimp only
  rw [shapeCast_self, shapeCast_self]
  exact congrArg (v y + ·) ((congrArg (fun t => IntOp.muli (IntOp.remsi .vector (IntOp.addi (Scalar.muli (Scf.iv 7#32 1#32 k) 16#32) t) 26#32) 100000#32)
    (iota_apply y)).trans (arith2 k (y 0)))

/-- A load of 16 lanes at offset o from the scratch moved below o reads the words as they were copied. -/
theorem readAt_idxAfter (L : grid0.Coords) (sfl : IVec S106496 32) (o : ℕ) (off : Fin 1 → ℕ) (hoff : off = ![o])
    (inb : ∀ a, off a + S16.size a ≤ S3328.size a) (y : S16.Idx) :
    (sV).view.readAt (Elt F) (Rect.unit (s := S3328) off S16.size inb).toLoadRect (idxAfter L sfl o) y
      = rawIdx L sfl (o + (y 0).val) := by
  subst hoff
  show idxAfter L sfl o ((Rect.unit (s := S3328) ![o] S16.size inb).toLoadRect.idx y) = _
  have e : (((Rect.unit (s := S3328) ![o] S16.size inb).toLoadRect.idx y) 0).val = o + (y 0).val := by
    show o + 1 * (y 0).val = _; omega
  unfold idxAfter
  simp only [e]
  rw [if_neg (by omega)]

/-- One trip of the first pass: lanes 16 k … 16 k + 15 are moved into their fields' blocks. -/
theorem fix1_step (L : grid0.Coords) (sfl : IVec S106496 32) (k : Fin k0_t1_loop.trips) :
    (sV).view.writes (Elt F) (idxAfter L sfl (16 * k.val))
      [⟨Rect.unit (s := S3328) (k0_off2 k) S16.size (k0_off2_inb k),
        k0_pay533 (F := F) k ((sV).view.readAt (Elt F) (Rect.unit (s := S3328) (k0_off2 k) S16.size (k0_off2_inb k)).toLoadRect (idxAfter L sfl (16 * k.val)))⟩]
      = idxAfter L sfl (16 * (k.val + 1)) := by
  rw [show 16 * (k.val + 1) = 16 * k.val + 16 by omega]
  exact fix_step_gen (F := F) L sfl (16 * k.val) (k0_off2 k) (k0_off2_eq k) (k0_off2_inb k) _ (fun y => by
    rw [pay533_eq, readAt_idxAfter (F := F) L sfl (16 * k.val) (k0_off2 k) (k0_off2_eq k)]; rfl)

/-- One trip of the second pass: lanes 112 + 16 k … 112 + 16 k + 15. -/
theorem fix2_step (L : grid0.Coords) (sfl : IVec S106496 32) (k : Fin k0_t2_loop.trips) :
    (sV).view.writes (Elt F) (idxAfter L sfl (112 + 16 * k.val))
      [⟨Rect.unit (s := S3328) (k0_off3 k) S16.size (k0_off3_inb k),
        k0_pay534 (F := F) k ((sV).view.readAt (Elt F) (Rect.unit (s := S3328) (k0_off3 k) S16.size (k0_off3_inb k)).toLoadRect (idxAfter L sfl (112 + 16 * k.val)))⟩]
      = idxAfter L sfl (112 + 16 * (k.val + 1)) := by
  rw [show 112 + 16 * (k.val + 1) = 16 * k.val + 112 + 16 by omega, show 112 + 16 * k.val = 16 * k.val + 112 by omega]
  exact fix_step_gen (F := F) L sfl (16 * k.val + 112) (k0_off3 k) (k0_off3_eq k) (k0_off3_inb k) _ (fun y => by
    rw [pay534_eq, readAt_idxAfter (F := F) L sfl (16 * k.val + 112) (k0_off3 k) (k0_off3_eq k)]; rfl)

/-- The same two trips with the store spelt as one write through the access's view. -/
theorem fix1_step_raw (L : grid0.Coords) (sfl : IVec S106496 32) (k : Fin k0_t1_loop.trips) :
    ((sV).access (Rect.unit (s := S3328) (k0_off2 k) S16.size (k0_off2_inb k))).write (Elt F) (idxAfter L sfl (16 * k.val))
      (k0_pay533 (F := F) k ((sV).view.readAt (Elt F) (Rect.unit (s := S3328) (k0_off2 k) S16.size (k0_off2_inb k)).toLoadRect (idxAfter L sfl (16 * k.val))))
      Finset.univ = idxAfter L sfl (16 * (k.val + 1)) :=
  fix1_step (F := F) L sfl k

theorem fix2_step_raw (L : grid0.Coords) (sfl : IVec S106496 32) (k : Fin k0_t2_loop.trips) :
    ((sV).access (Rect.unit (s := S3328) (k0_off3 k) S16.size (k0_off3_inb k))).write (Elt F) (idxAfter L sfl (112 + 16 * k.val))
      (k0_pay534 (F := F) k ((sV).view.readAt (Elt F) (Rect.unit (s := S3328) (k0_off3 k) S16.size (k0_off3_inb k)).toLoadRect (idxAfter L sfl (112 + 16 * k.val))))
      Finset.univ = idxAfter L sfl (112 + 16 * (k.val + 1)) :=
  fix2_step (F := F) L sfl k

/-! ## The bounds the gathers need -/

/-- Every word of the flattened index list is a word of the batch. -/
theorem rawIdx_le (L : grid0.Coords) (a : IVec S4096x26 32) (h : ∀ j, (a j).toNat ≤ 99999) (p : ℕ) :
    (rawIdx L (sflOf a) p).toNat ≤ 99999 := by
  unfold rawIdx sflOf shapeCast
  exact h _

/-- A word at most 99999 moved into its field's block does not wrap. -/
theorem fixWord_toNat (w : BitVec 32) (p : ℕ) (h : w.toNat ≤ 99999) : (fixWord w p).toNat = w.toNat + 100000 * (p % 26) := by
  have hp : p % 26 < 26 := Nat.mod_lt _ (by norm_num)
  have e : (100000#32 : BitVec 32).toNat = 100000 := rfl
  unfold fixWord
  rw [BitVec.toNat_add, BitVec.toNat_mul, BitVec.toNat_ofNat, e]
  omega

theorem fixWord_lt (w : BitVec 32) (p : ℕ) (h : w.toNat ≤ 99999) : (fixWord w p).toNat < 2600000 := by
  have hp : p % 26 < 26 := Nat.mod_lt _ (by norm_num)
  rw [fixWord_toNat w p h]
  omega

/-! ## A window of 104 words, read through any spelling of its slice -/

/-- Once the positions below n have been moved, the words of window j (positions 104 j … 104 j + 103, all below n) read
    as moved words. -/
theorem win_read (L : grid0.Coords) (sfl : IVec S106496 32) (n j : ℕ) (hj : 104 * (j + 1) ≤ n) (off : Fin 1 → Nat)
    (hb : ∀ a, off a + S104.size a ≤ S3328.size a) (hoff : off = ![104 * j]) (x : S104.Idx) :
    ((sV).slice (Rect.unit (s := S3328) off S104.size hb) (fun _ => rfl)).view.read (Elt F) (idxAfter L sfl n) x
      = fixWord (rawIdx L sfl (104 * j + (x 0).val)) (104 * j + (x 0).val) := by
  subst hoff
  have hx : (x 0).val < 104 := (x 0).isLt
  refine ((View.read_apply _ _).trans (cast_eq _ _)).trans ?_
  have e : ((((sV).slice (Rect.unit (s := S3328) ![104 * j] S104.size hb) (fun _ => rfl)).view.emb x) 0).val = 104 * j + (x 0).val := by
    show 104 * j + 1 * (x 0).val = _; omega
  unfold idxAfter
  simp only [e]
  rw [if_pos (by omega)]

/-- … and each is a row of the table: the gathers' offsets are in range. -/
theorem win_inb (L : grid0.Coords) (sfl : IVec S106496 32) (n j : ℕ) (hj : 104 * (j + 1) ≤ n) (off : Fin 1 → Nat)
    (hb : ∀ a, off a + S104.size a ≤ S3328.size a) (hoff : off = ![104 * j]) (hraw : ∀ p, (rawIdx L sfl p).toNat ≤ 99999) :
    ∀ x, (((sV).slice (Rect.unit (s := S3328) off S104.size hb) (fun _ => rfl)).view.read (Elt F) (idxAfter L sfl n) x).toNat
      < S2600000x128.size gathers_S2600000x128_S104x128.axis := by
  intro x
  rw [win_read (F := F) L sfl n j hj off hb hoff x]
  exact fixWord_lt _ _ (hraw _)

end Cert.KI

end
-- ==== Proof.KIInv.lean ====
/-
  The invariant of the loop that drains the four row buffers (8 trips of 4 chunks), for one tile.

  The tile's 3328 index words are 32 windows of 104 (a chunk = 4 bags of 26 fields). Chunk j is gathered into row buffer
  j mod 4 and summed into rows 4 j … 4 j + 3 of the out scratch. Between trips t − 1 and t (chunks below 4 t done):
  * chunks 4 t, 4 t + 1, 4 t + 2 are being gathered into buffers 0, 1, 2 (none once t = 8); each outstanding gather
    holds its buffer, its window of the index scratch and its read token of the table, and gives them back at its wait,
    the buffer then holding, at row k, the table row that position 104 j + k of the tile's index words names;
  * every other window of the index scratch is held outright, each by its own elements, at the words as the two passes
    left them;
  * buffer 3 is idle;
  * rows below 16 t of the out scratch hold the bags' scaled sums, the rows from 16 t on what they held at the loop's
    entry; from trip 4 on the upper half (rows 0 … 63) is lent to the copy into the result's block, which also holds
    that block, and the tile keeps the lower half.
-/
import proofs.«207326_g40819369181559_retrytranche2_1852_22_alg».proof.Proof.KIIdx

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "iV" => (Memref.whole Cert.KernelIdeal.main_v0_scv : Memref Cert.KernelIdeal.sig Kind.scVector Space.hbm Cert.KernelIdeal.S106496 EltTy.i32)
local notation "xV" => (Memref.whole Cert.KernelIdeal.main_arg1_scv : Memref Cert.KernelIdeal.sig Kind.scVector Space.hbm Cert.KernelIdeal.S2600000x128 EltTy.f32)
local notation "oV" => (Memref.whole Cert.KernelIdeal.main_v1_scv : Memref Cert.KernelIdeal.sig Kind.scVector Space.hbm Cert.KernelIdeal.S4096x128 EltTy.f32)
local notation "sV" => (Memref.whole Cert.KernelIdeal.cc0_scratch0 : Memref Cert.KernelIdeal.sig Kind.scVector Space.vmem Cert.KernelIdeal.S3328 EltTy.i32)
local notation "rV" => (Memref.whole Cert.KernelIdeal.cc0_scratch1 : Memref Cert.KernelIdeal.sig Kind.scVector Space.vmem Cert.KernelIdeal.S4x104x128 EltTy.f32)
local notation "aV" => (Memref.whole Cert.KernelIdeal.cc0_scratch2 : Memref Cert.KernelIdeal.sig Kind.scVector Space.vmem Cert.KernelIdeal.S128x128 EltTy.f32)

variable [FloatOps F] [Named F]
variable (d : Dev nD) (L : grid0.Coords)

abbrev thrT : Thread nD τ := V d (cV L) (jV L)

abbrev slot0 : Memref sig .scVector .vmem S104x128 .f32 :=
  ((rV).slice (Rect.unit (s := S4x104x128) ![0, 0, 0] S1x104x128.size inb_S4x104x128_S1x104x128_0_0_0) (fun _ => rfl)).squeeze S104x128 squeezes_S1x104x128_S104x128
abbrev slot1 : Memref sig .scVector .vmem S104x128 .f32 :=
  ((rV).slice (Rect.unit (s := S4x104x128) ![1, 0, 0] S1x104x128.size inb_S4x104x128_S1x104x128_1_0_0) (fun _ => rfl)).squeeze S104x128 squeezes_S1x104x128_S104x128
abbrev slot2 : Memref sig .scVector .vmem S104x128 .f32 :=
  ((rV).slice (Rect.unit (s := S4x104x128) ![2, 0, 0] S1x104x128.size inb_S4x104x128_S1x104x128_2_0_0) (fun _ => rfl)).squeeze S104x128 squeezes_S1x104x128_S104x128
abbrev slot3 : Memref sig .scVector .vmem S104x128 .f32 :=
  ((rV).slice (Rect.unit (s := S4x104x128) ![3, 0, 0] S1x104x128.size inb_S4x104x128_S1x104x128_3_0_0) (fun _ => rfl)).squeeze S104x128 squeezes_S1x104x128_S104x128

/-- The out scratch's halves, as the copies out spell them. -/
abbrev aTop : Memref sig .scVector .vmem S64x128 .f32 := (aV).slice (Rect.unit (s := S128x128) ![0, 0] S64x128.size inb_S128x128_S64x128_0_0) (fun _ => rfl)
abbrev aBot : Memref sig .scVector .vmem S64x128 .f32 := (aV).slice (Rect.unit (s := S128x128) ![64, 0] S64x128.size inb_S128x128_S64x128_64_0) (fun _ => rfl)

/-- The trip at whose end the copy of the upper half starts. -/
def t3three : Fin k0_t3_loop.trips := ⟨3, by decide⟩
theorem h8three : k0_cond8 t3three = 1#1 := by decide +kernel

/-- The result's block that copy writes (rows 128 w … 128 w + 63 for worker w). -/
abbrev oTop : Memref sig .scVector .hbm S64x128 .f32 :=
  (oV).slice (Rect.unit (s := S4096x128) (k0_off108 L) S64x128.size (k0_off108_inb L t3three h8three)) (fun _ => rfl)

/-! ## The index scratch: 32 windows -/

/-- The index scratch once both passes are over. -/
abbrev fixC (sfl : IVec S106496 32) : S3328.Idx → BitVec 32 := idxAfter L sfl 3328

theorem winM_inb (j : ℕ) : ∀ a, (![104 * (j % 32)] : Fin 1 → ℕ) a + S104.size a ≤ S3328.size a := by
  intro a
  have ha : a = 0 := Subsingleton.elim _ _
  subst ha
  show 104 * (j % 32) + 104 ≤ 3328
  omega

/-- Window j (positions 104 j … 104 j + 103), j below 32. -/
abbrev winM (j : ℕ) : Memref sig .scVector .vmem S104 .i32 :=
  (sV).slice (Rect.unit (s := S3328) ![104 * (j % 32)] S104.size (winM_inb j)) (fun _ => rfl)

/-- Window j held outright by its own elements. -/
def winPts (sfl : IVec S106496 32) (j : ℕ) : sProp 𝕄 :=
  (winM j).view.loc (thrT d L) ↦[(winM j).view.set]{fullShare} fixC L sfl

/-- The windows not lent to a gather when chunks lo, lo + 1, lo + 2 are being gathered. -/
def idleSet (lo : ℕ) : Finset (Fin 32) := Finset.univ.filter fun j => j.val < lo ∨ lo + 3 ≤ j.val

def wins (sfl : IVec S106496 32) (lo : ℕ) : sProp 𝕄 := bigSep (idleSet lo) fun j => winPts d L sfl j.val

/-! ## The values -/

/-- What chunk j's gather leaves in its row buffer: at row k, the table row that position 104 j + k of the tile's index
    words names, i.e. field k mod 26 of bag 128 w + 4 j + k / 26. The same whichever of the four buffers. -/
def rowsFn (sfl : IVec S106496 32) (tab : FVec F S2600000x128 .f32) (j : ℕ) : S4x104x128.Idx → F .f32 :=
  fun i => tab (ix2 (krow sfl (128 * wid L + 4 * j + (i 1).val / 26) ((i 1).val % 26)) (i 2))

/-- The out scratch when its first n rows are done: row r below n is bag 128 w + r's 26 rows summed left to right and
    scaled; the others are as at the loop's entry. -/
def outFn (sfl : IVec S106496 32) (tab : FVec F S2600000x128 .f32) (fa0 : S128x128.Idx → F .f32) (n : ℕ) : S128x128.Idx → F .f32 :=
  fun i => if (i 0).val < n then FloatOps.mulf (accTo (fun f => tab (ix2 (krow sfl (128 * wid L + (i 0).val) f) (i 1))) 25) (cstK (F := F)) else fa0 i

/-! ## The four row buffers -/

/-- Row buffer 0 while chunk j's gather into it is outstanding: the wait on its cell delivers the buffer at chunk j's
    rows, window j of the index scratch and the buffer's read token of the table. -/
def inFlight0 (q : PosShare TreeShare) (sfl : IVec S106496 32) (tab : FVec F S2600000x128 .f32) (j : ℕ) : sProp 𝕄 :=
  Transfers.Flight countersEmb (thrT d L) (SemLoc.dma cc0_scratch3.sem) (default : HIx 1) 425984
    iprop(((slot0).view.loc (thrT d L) ↦[(slot0).view.set]{fullShare} rowsFn L sfl tab j) ∗ winPts d L sfl j
      ∗ ((xV).view.loc (thrT d L) ↦{Transfers.shareTok q 7 0} tab))
/-- Row buffer 0 with no gather outstanding: the buffer at any contents, its read token of the table, its cell at zero. -/
def idle0 (q : PosShare TreeShare) (tab : FVec F S2600000x128 .f32) : sProp 𝕄 :=
  iprop((∃ f, (slot0).view.loc (thrT d L) ↦[(slot0).view.set]{fullShare} f)
    ∗ ((xV).view.loc (thrT d L) ↦{Transfers.shareTok q 7 0} tab) ∗ semVal (thrT d L, SemLoc.dma cc0_scratch3.sem) 0)

/-- Row buffer 1 while chunk j's gather into it is outstanding: the wait on its cell delivers the buffer at chunk j's
    rows, window j of the index scratch and the buffer's read token of the table. -/
def inFlight1 (q : PosShare TreeShare) (sfl : IVec S106496 32) (tab : FVec F S2600000x128 .f32) (j : ℕ) : sProp 𝕄 :=
  Transfers.Flight countersEmb (thrT d L) (SemLoc.dma cc0_scratch4.sem) (default : HIx 1) 425984
    iprop(((slot1).view.loc (thrT d L) ↦[(slot1).view.set]{fullShare} rowsFn L sfl tab j) ∗ winPts d L sfl j
      ∗ ((xV).view.loc (thrT d L) ↦{Transfers.shareTok q 7 1} tab))
/-- Row buffer 1 with no gather outstanding: the buffer at any contents, its read token of the table, its cell at zero. -/
def idle1 (q : PosShare TreeShare) (tab : FVec F S2600000x128 .f32) : sProp 𝕄 :=
  iprop((∃ f, (slot1).view.loc (thrT d L) ↦[(slot1).view.set]{fullShare} f)
    ∗ ((xV).view.loc (thrT d L) ↦{Transfers.shareTok q 7 1} tab) ∗ semVal (thrT d L, SemLoc.dma cc0_scratch4.sem) 0)

/-- Row buffer 2 while chunk j's gather into it is outstanding: the wait on its cell delivers the buffer at chunk j's
    rows, window j of the index scratch and the buffer's read token of the table. -/
def inFlight2 (q : PosShare TreeShare) (sfl : IVec S106496 32) (tab : FVec F S2600000x128 .f32) (j : ℕ) : sProp 𝕄 :=
  Transfers.Flight countersEmb (thrT d L) (SemLoc.dma cc0_scratch5.sem) (default : HIx 1) 425984
    iprop(((slot2).view.loc (thrT d L) ↦[(slot2).view.set]{fullShare} rowsFn L sfl tab j) ∗ winPts d L sfl j
      ∗ ((xV).view.loc (thrT d L) ↦{Transfers.shareTok q 7 2} tab))
/-- Row buffer 2 with no gather outstanding: the buffer at any contents, its read token of the table, its cell at zero. -/
def idle2 (q : PosShare TreeShare) (tab : FVec F S2600000x128 .f32) : sProp 𝕄 :=
  iprop((∃ f, (slot2).view.loc (thrT d L) ↦[(slot2).view.set]{fullShare} f)
    ∗ ((xV).view.loc (thrT d L) ↦{Transfers.shareTok q 7 2} tab) ∗ semVal (thrT d L, SemLoc.dma cc0_scratch5.sem) 0)

/-- Row buffer 3 while chunk j's gather into it is outstanding: the wait on its cell delivers the buffer at chunk j's
    rows, window j of the index scratch and the buffer's read token of the table. -/
def inFlight3 (q : PosShare TreeShare) (sfl : IVec S106496 32) (tab : FVec F S2600000x128 .f32) (j : ℕ) : sProp 𝕄 :=
  Transfers.Flight countersEmb (thrT d L) (SemLoc.dma cc0_scratch6.sem) (default : HIx 1) 425984
    iprop(((slot3).view.loc (thrT d L) ↦[(slot3).view.set]{fullShare} rowsFn L sfl tab j) ∗ winPts d L sfl j
      ∗ ((xV).view.loc (thrT d L) ↦{Transfers.shareTok q 7 3} tab))
/-- Row buffer 3 with no gather outstanding: the buffer at any contents, its read token of the table, its cell at zero. -/
def idle3 (q : PosShare TreeShare) (tab : FVec F S2600000x128 .f32) : sProp 𝕄 :=
  iprop((∃ f, (slot3).view.loc (thrT d L) ↦[(slot3).view.set]{fullShare} f)
    ∗ ((xV).view.loc (thrT d L) ↦{Transfers.shareTok q 7 3} tab) ∗ semVal (thrT d L, SemLoc.dma cc0_scratch6.sem) 0)

/-- Buffers 0, 1, 2 between trips: gathering chunks 4 t, 4 t + 1, 4 t + 2, or idle once the loop is over. -/
def ringSlots (q : PosShare TreeShare) (sfl : IVec S106496 32) (tab : FVec F S2600000x128 .f32) (t : ℕ) : sProp 𝕄 :=
  if t < 8 then iprop(inFlight0 d L q sfl tab (4 * t) ∗ inFlight1 d L q sfl tab (4 * t + 1) ∗ inFlight2 d L q sfl tab (4 * t + 2))
  else iprop(idle0 d L q tab ∗ idle1 d L q tab ∗ idle2 d L q tab)

/-! ## The out scratch and the copy of its upper half -/

/-- Up to trip 3: the out scratch whole, the copy's cell at zero, the result's block untouched. -/
def aEarly (sfl : IVec S106496 32) (tab : FVec F S2600000x128 .f32) (fa0 : S128x128.Idx → F .f32) (o : FVec F S4096x128 .f32) (n : ℕ) : sProp 𝕄 :=
  iprop(((aV).view.loc (thrT d L) ↦{fullShare} outFn L sfl tab fa0 n) ∗ semVal (thrT d L, SemLoc.dma cc0_scratch7.sem) 0
    ∗ ((oTop L).view.loc (thrT d L) ↦[(oTop L).view.set]{fullShare} o))

/-- The copy of the upper half, outstanding: its wait delivers the result's block written with rows 0 … 63 of the out
    scratch (all done: n = 64), and the upper half back. -/
def copyFlight (sfl : IVec S106496 32) (tab : FVec F S2600000x128 .f32) (fa0 : S128x128.Idx → F .f32) (o : FVec F S4096x128 .f32) : sProp 𝕄 :=
  Transfers.Flight countersEmb (thrT d L) (SemLoc.dma cc0_scratch7.sem) (default : HIx 1) 262144
    iprop(((oTop L).view.loc (thrT d L) ↦[(oTop L).view.set]{fullShare}
          (oTop L).view.writes (Elt F) o [⟨Rect.whole S64x128, ReadAs.same.apply (View.read (Elt F) (aTop).view (outFn L sfl tab fa0 64))⟩])
      ∗ ((aV).view.loc (thrT d L) ↦[(aTop).view.set]{fullShare} outFn L sfl tab fa0 64))

/-- From trip 4 on: the lower half held by its own elements, the copy outstanding. -/
def aLate (sfl : IVec S106496 32) (tab : FVec F S2600000x128 .f32) (fa0 : S128x128.Idx → F .f32) (o : FVec F S4096x128 .f32) (n : ℕ) : sProp 𝕄 :=
  iprop(((aV).view.loc (thrT d L) ↦[(aBot).view.set]{fullShare} outFn L sfl tab fa0 n) ∗ copyFlight d L sfl tab fa0 o)

def aState (sfl : IVec S106496 32) (tab : FVec F S2600000x128 .f32) (fa0 : S128x128.Idx → F .f32) (o : FVec F S4096x128 .f32) (t : ℕ) : sProp 𝕄 :=
  if t ≤ 3 then aEarly d L sfl tab fa0 o (16 * t) else aLate d L sfl tab fa0 o (16 * t)

/-! ## The invariant -/

/-- Between trips t − 1 and t of the loop (t = 0: at its entry; t = 8: at its exit). The carried word is not used. -/
def ringInv (q : PosShare TreeShare) (O : CellTallies nD τ sig (HIx 1)) (W : Waits sig (HIx 1))
    (sfl : IVec S106496 32) (tab : FVec F S2600000x128 .f32) (fa0 : S128x128.Idx → F .f32) (o : FVec F S4096x128 .f32)
    (t : ℕ) (_ : BitVec 32) : sProp 𝕄 :=
  iprop(□ Transfers.MayWaits (thrT d L) (default : HIx 1) O
    ∗ wins d L sfl (4 * t)
    ∗ ringSlots d L q sfl tab t
    ∗ idle3 d L q tab
    ∗ aState d L sfl tab fa0 o t
    ∗ ∃ W', ⌜∀ p ∈ W', p ∈ W ∨ p.2 = none⌝ ∗ owes (thrT d L) O W')

/-- At the loop's entry nothing of the out scratch is done. -/
theorem outFn_zero (sfl : IVec S106496 32) (tab : FVec F S2600000x128 .f32) (fa0 : S128x128.Idx → F .f32) : outFn L sfl tab fa0 0 = fa0 := by
  funext i; unfold outFn; rw [if_neg (Nat.not_lt_zero _)]

/-- A window in any spelling of its slice is the window. -/
theorem winPts_spell (sfl : IVec S106496 32) (j : ℕ) (off : Fin 1 → ℕ) (hb : ∀ a, off a + S104.size a ≤ S3328.size a) (hoff : off = ![104 * (j % 32)]) :
    (((sV).slice (Rect.unit (s := S3328) off S104.size hb) (fun _ => rfl)).view.loc (thrT d L)
        ↦[((sV).slice (Rect.unit (s := S3328) off S104.size hb) (fun _ => rfl)).view.set]{fullShare} fixC L sfl : sProp 𝕄)
      = winPts d L sfl j := by
  subst hoff; rfl

end Cert.KI

end
-- ==== Proof.KIWin.lean ====
/-
  The index scratch of one tile cut into its 32 windows of 104 words (four bags each): the windows are disjoint and cover
  the scratch, so owning the scratch is owning the family of its windows; a window can be taken out of the family and put
  back; and the second pass, which works on positions 112 and up, never touches window 0.
-/
import proofs.«207326_g40819369181559_retrytranche2_1852_22_alg».proof.Proof.KIStmt
import Idealize.ShloMosaic.Rules.PointsTo

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

local notation "sV" => (Memref.whole Cert.KernelIdeal.cc0_scratch0 : Memref Cert.KernelIdeal.sig Kind.scVector Space.vmem Cert.KernelIdeal.S3328 EltTy.i32)

/-! ## The windows -/

theorem wdiv : 32 ∣ S3328.size 0 := ⟨104, rfl⟩

/-- Window j: positions 104 j … 104 j + 103. -/
abbrev wRect (j : Fin 32) : Rect S3328 := Rect.part (s := S3328) (a₀ := 0) wdiv j
abbrev winSet (j : Fin 32) : Finset S3328.Idx := ((sV).view.slice (wRect j)).set

theorem winSet_eq (j : Fin 32) : winSet j = (wRect j).set := by
  show ((View.whole (cc0_scratch0 : Ref sig .scVector)).slice (wRect j)).set = _
  rw [View.set_slice]; exact Finset.map_refl

/-- Any spelling of the slice of 104 words at offset 104 j is window j. -/
theorem wRect_unit (off : Fin 1 → Nat) (hb : ∀ a, off a + S104.size a ≤ S3328.size a) (j : Fin 32) (hoff : off = ![104 * j.val]) :
    Rect.unit (s := S3328) off S104.size hb = wRect j := by
  subst hoff
  unfold wRect Rect.part Rect.block
  congr 1 <;> funext a
  · match a with
    | 0 => simp [Shape.partIx, Shape.partSize, Nat.mul_comm]
  · match a with
    | 0 => simp [Shape.partSize]

theorem winSet_unit (off : Fin 1 → Nat) (hb : ∀ a, off a + S104.size a ≤ S3328.size a) (j : Fin 32) (hoff : off = ![104 * j.val]) :
    ((sV).slice (Rect.unit (s := S3328) off S104.size hb) (fun _ => rfl)).view.set = winSet j := by
  show ((sV).view.slice (Rect.unit (s := S3328) off S104.size hb)).set = ((sV).view.slice (wRect j)).set
  exact wRect_unit off hb j hoff ▸ rfl

theorem wins_disjoint : ∀ i ∈ (Finset.univ : Finset (Fin 32)), ∀ j ∈ (Finset.univ : Finset (Fin 32)), i ≠ j → Disjoint (winSet i) (winSet j) :=
  fun i _ j _ h => by rw [winSet_eq, winSet_eq]; exact Rect.part_disjoint wdiv h

theorem wins_cover : (Finset.univ : Finset (Fin 32)).biUnion winSet = Finset.univ :=
  (Finset.biUnion_congr rfl fun i _ => winSet_eq i).trans (Rect.biUnion_part wdiv)

/-- The windows other than i₀ cover what window i₀ does not. -/
theorem biUnion_ne (i₀ : Fin 32) : (Finset.univ.filter (· ≠ i₀)).biUnion winSet = Finset.univ \ winSet i₀ := by
  ext x
  simp only [Finset.mem_biUnion, Finset.mem_filter, Finset.mem_univ, true_and, Finset.mem_sdiff]
  constructor
  · rintro ⟨j, hj, hx⟩ h0
    exact (Finset.disjoint_left.mp (wins_disjoint j (Finset.mem_univ _) i₀ (Finset.mem_univ _) hj) hx) h0
  · intro h0
    have hc : x ∈ (Finset.univ : Finset (Fin 32)).biUnion winSet := by rw [wins_cover]; exact Finset.mem_univ _
    obtain ⟨j, -, hx⟩ := Finset.mem_biUnion.mp hc
    exact ⟨j, fun e => h0 (e ▸ hx), hx⟩

/-! ## Owning the scratch as the family of its windows -/

section Fam

variable (d : Dev nD) (cc : Fin τ.nSC) (jj : Fin τ.nSub)

/-- The windows marked idle, each owned outright at the contents f. -/
def fam (idle : Fin 32 → Prop) [DecidablePred idle] (f : Buf (Elt F) ((sV).view.loc (V d cc jj))) : sProp 𝕄 :=
  bigSep Finset.univ fun j : Fin 32 => if idle j then ((sV).view.loc (V d cc jj) ↦[winSet j]{fullShare} f) else iprop(emp)

/-- The family owns the union of its idle windows. -/
theorem fam_eq (idle : Fin 32 → Prop) [DecidablePred idle] (f : Buf (Elt F) ((sV).view.loc (V d cc jj))) :
    fam d cc jj idle f = ((sV).view.loc (V d cc jj) ↦[(Finset.univ.filter idle).biUnion winSet]{fullShare} f : sProp 𝕄) := by
  unfold fam
  have e : (iprop(emp) : sProp 𝕄) = BI.emp := rfl
  simp only [e]
  rw [← bigSep_filter, ← pointsTo_biUnion (Finset.univ.filter idle) (ℓ := (sV).view.loc (V d cc jj)) winSet
    (fun i _ j _ h => wins_disjoint i (Finset.mem_univ _) j (Finset.mem_univ _) h)]
  try rfl

theorem whole_fam (f : Buf (Elt F) ((sV).view.loc (V d cc jj))) :
    ((sV).view.loc (V d cc jj) ↦{fullShare} f : sProp 𝕄) = fam d cc jj (fun _ => True) f := by
  rw [fam_eq, Finset.filter_true_of_mem (fun _ _ => trivial), wins_cover]; try rfl

theorem rest0_fam (f : Buf (Elt F) ((sV).view.loc (V d cc jj))) :
    ((sV).view.loc (V d cc jj) ↦[Finset.univ \ winSet 0]{fullShare} f : sProp 𝕄) = fam d cc jj (fun j => j ≠ 0) f := by
  rw [fam_eq, biUnion_ne]

/-- The same with window 0 in the program's spelling. -/
theorem rest0_fam' (f : Buf (Elt F) ((sV).view.loc (V d cc jj))) :
    ((sV).view.loc (V d cc jj) ↦[Finset.univ \ ((sV).slice (Rect.unit (s := S3328) ![0] S104.size inb_S3328_S104_0) (fun _ => rfl)).view.set]{fullShare} f : sProp 𝕄)
      = fam d cc jj (fun j => j ≠ 0) f := by
  rw [winSet_unit ![0] inb_S3328_S104_0 0 rfl]
  exact rest0_fam d cc jj f

theorem fam_congr (idle idle' : Fin 32 → Prop) [DecidablePred idle] [DecidablePred idle'] (h : ∀ j, idle j ↔ idle' j)
    (f : Buf (Elt F) ((sV).view.loc (V d cc jj))) : fam d cc jj idle f = fam d cc jj idle' f := by
  unfold fam
  exact bigSep_congr fun j _ => by
    by_cases hj : idle j
    · rw [if_pos hj, if_pos ((h j).mp hj)]
    · rw [if_neg hj, if_neg (fun h' => hj ((h j).mpr h'))]

/-- Taking an idle window out of the family (and, read right to left, putting it back). -/
theorem fam_take (idle : Fin 32 → Prop) [DecidablePred idle] (f : Buf (Elt F) ((sV).view.loc (V d cc jj))) (i : Fin 32) (hi : idle i) :
    fam d cc jj idle f ⊣⊢ iprop(((sV).view.loc (V d cc jj) ↦[winSet i]{fullShare} f) ∗ fam d cc jj (fun j => idle j ∧ j ≠ i) f) := by
  have hset : (Finset.univ.filter idle).biUnion winSet
      = winSet i ∪ (Finset.univ.filter fun j => idle j ∧ j ≠ i).biUnion winSet := by
    have hf : Finset.univ.filter idle = insert i (Finset.univ.filter fun j => idle j ∧ j ≠ i) := by
      ext j
      simp only [Finset.mem_filter, Finset.mem_univ, true_and, Finset.mem_insert]
      constructor
      · intro hj
        by_cases e : j = i
        · exact Or.inl e
        · exact Or.inr ⟨hj, e⟩
      · rintro (e | ⟨hj, -⟩)
        · exact e ▸ hi
        · exact hj
    rw [hf, Finset.biUnion_insert]
  have hdisj : Disjoint (winSet i) ((Finset.univ.filter fun j => idle j ∧ j ≠ i).biUnion winSet) :=
    (Finset.disjoint_biUnion_right _ _ _).mpr fun j hj =>
      wins_disjoint i (Finset.mem_univ _) j (Finset.mem_univ _) (fun e => (Finset.mem_filter.mp hj).2.2 e.symm)
  rw [fam_eq, fam_eq, hset]
  exact pointsTo_union hdisj

end Fam

/-! ## The second pass stays off window 0 -/

/-- Trip k of the second pass stores at positions 16 k + 112 … 16 k + 127, all above window 0's 0 … 103. -/
theorem fix2_disj (k : Fin k0_t2_loop.trips) (hb : ∀ a, (![0] : Fin 1 → Nat) a + S104.size a ≤ S3328.size a) :
    Disjoint ((sV).view.setOn (Rect.unit (s := S3328) (k0_off3 k) S16.size (k0_off3_inb k)).set)
      (((sV).slice (Rect.unit (s := S3328) ![0] S104.size hb) (fun _ => rfl)).view.set) := by
  have e1 : (sV).view.setOn (Rect.unit (s := S3328) (k0_off3 k) S16.size (k0_off3_inb k)).set
      = (Rect.unit (s := S3328) (k0_off3 k) S16.size (k0_off3_inb k)).set := Finset.map_refl
  have e2 : ((sV).slice (Rect.unit (s := S3328) ![0] S104.size hb) (fun _ => rfl)).view.set
      = (Rect.unit (s := S3328) ![0] S104.size hb).set := View.set_slice_whole _ _
  rw [e1, e2, Finset.disjoint_left]
  intro x h1 h2
  have a1 : k0_off3 k 0 ≤ (x 0).val := (Rect.mem_set_unit.mp h1 0).1
  have a2 : (x 0).val < 0 + 104 := (Rect.mem_set_unit.mp h2 0).2
  have e : k0_off3 k 0 = 16 * k.val + 112 := congrFun (k0_off3_eq k) 0
  omega

/-- The same with the store's set spelt through the access's view. -/
theorem fix2_disj_access (k : Fin k0_t2_loop.trips) (hb : ∀ a, (![0] : Fin 1 → Nat) a + S104.size a ≤ S3328.size a) :
    Disjoint (((sV).access (Rect.unit (s := S3328) (k0_off3 k) S16.size (k0_off3_inb k))).set)
      (((sV).slice (Rect.unit (s := S3328) ![0] S104.size hb) (fun _ => rfl)).view.set) := by
  have e1 : ((sV).access (Rect.unit (s := S3328) (k0_off3 k) S16.size (k0_off3_inb k))).set
      = (Rect.unit (s := S3328) (k0_off3 k) S16.size (k0_off3_inb k)).set := View.set_slice_whole _ _
  have e2 : ((sV).slice (Rect.unit (s := S3328) ![0] S104.size hb) (fun _ => rfl)).view.set
      = (Rect.unit (s := S3328) ![0] S104.size hb).set := View.set_slice_whole _ _
  rw [e1, e2, Finset.disjoint_left]
  intro x h1 h2
  have a1 : k0_off3 k 0 ≤ (x 0).val := (Rect.mem_set_unit.mp h1 0).1
  have a2 : (x 0).val < 0 + 104 := (Rect.mem_set_unit.mp h2 0).2
  have e : k0_off3 k 0 = 16 * k.val + 112 := congrFun (k0_off3_eq k) 0
  omega

end Cert.KI

end
-- ==== Proof.KISets.lean ====
/-
  Sets of elements and the ownership of buffers in pieces, for one tile: the out scratch's two halves and one row of it
  stored in eight groups of lanes; the index scratch as its windows in the spelling of the loop's invariant; the tile's
  two blocks of the result in the program's spellings; the row scratch as its four buffers.
-/
import proofs.«207326_g40819369181559_retrytranche2_1852_22_alg».proof.Proof.KIInv
import proofs.«207326_g40819369181559_retrytranche2_1852_22_alg».proof.Proof.KIWin
import Idealize.ShloMosaic.Rules.PointsTo
import Idealize.ShloMosaic.Lib.Writes

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type}

local notation "𝕄" => MT nD τ sig (HIx 1) (Elt F) ℕ UU ℕ

local notation "xV" => (Memref.whole Cert.KernelIdeal.main_arg1_scv : Memref Cert.KernelIdeal.sig Kind.scVector Space.hbm Cert.KernelIdeal.S2600000x128 EltTy.f32)
local notation "oV" => (Memref.whole Cert.KernelIdeal.main_v1_scv : Memref Cert.KernelIdeal.sig Kind.scVector Space.hbm Cert.KernelIdeal.S4096x128 EltTy.f32)
local notation "sV" => (Memref.whole Cert.KernelIdeal.cc0_scratch0 : Memref Cert.KernelIdeal.sig Kind.scVector Space.vmem Cert.KernelIdeal.S3328 EltTy.i32)
local notation "rV" => (Memref.whole Cert.KernelIdeal.cc0_scratch1 : Memref Cert.KernelIdeal.sig Kind.scVector Space.vmem Cert.KernelIdeal.S4x104x128 EltTy.f32)
local notation "aV" => (Memref.whole Cert.KernelIdeal.cc0_scratch2 : Memref Cert.KernelIdeal.sig Kind.scVector Space.vmem Cert.KernelIdeal.S128x128 EltTy.f32)

/-! ## Joining two pieces of one buffer held at different contents -/

/-- Two disjoint sets of elements of one buffer, held at two contents, are their union held at the contents glued. -/
theorem join2 {ℓ : Loc nD τ sig} (I J : Finset (Idx ℓ)) (hd : Disjoint I J) (f g : Buf (Elt F) ℓ) :
    iprop((ℓ ↦[I]{fullShare} f) ∗ (ℓ ↦[J]{fullShare} g)) ⊢ (iprop(∃ h, ℓ ↦[I ∪ J]{fullShare} h) : sProp 𝕄) := by
  classical
  have e1 : (ℓ ↦[I]{fullShare} f : sProp 𝕄) = ℓ ↦[I]{fullShare} (fun i => if i ∈ I then f i else g i) :=
    pointsTo_congr (fun i hi => (if_pos hi).symm)
  have e2 : (ℓ ↦[J]{fullShare} g : sProp 𝕄) = ℓ ↦[J]{fullShare} (fun i => if i ∈ I then f i else g i) :=
    pointsTo_congr (fun i hi => (if_neg (Finset.disjoint_right.mp hd hi)).symm)
  rw [e1, e2]
  exact (pointsTo_union hd).2.trans (exists_intro (Φ := fun h : Buf (Elt F) ℓ => (ℓ ↦[I ∪ J]{fullShare} h : sProp 𝕄)) _)

/-- The same when the second piece is held at some contents. -/
theorem join2' {ℓ : Loc nD τ sig} (I J : Finset (Idx ℓ)) (hd : Disjoint I J) (f : Buf (Elt F) ℓ) :
    iprop((ℓ ↦[I]{fullShare} f) ∗ (∃ g, ℓ ↦[J]{fullShare} g)) ⊢ (iprop(∃ h, ℓ ↦[I ∪ J]{fullShare} h) : sProp 𝕄) :=
  sep_exists_left.1.trans (exists_elim fun g => join2 I J hd f g)

/-! ## The out scratch's two halves -/

theorem aTop_set : (aTop).view.set = (Rect.unit (s := S128x128) ![0, 0] S64x128.size inb_S128x128_S64x128_0_0).set :=
  View.set_slice_whole _ _
theorem aBot_set' : (aBot).view.set = (Rect.unit (s := S128x128) ![64, 0] S64x128.size inb_S128x128_S64x128_64_0).set :=
  View.set_slice_whole _ _

/-- Rows 0 … 63 and rows 64 … 127: what is not in the upper half is the lower half. -/
theorem aBot_set : (Finset.univ \ (aTop).view.set : Finset S128x128.Idx) = (aBot).view.set := by
  rw [aTop_set, aBot_set']
  ext x
  have h0 : (x 0).val < 128 := (x 0).isLt
  have h1 : (x 1).val < 128 := (x 1).isLt
  rw [Finset.mem_sdiff, Rect.mem_set_unit, Rect.mem_set_unit, Fin.forall_fin_two, Fin.forall_fin_two]
  show (x ∈ Finset.univ ∧ ¬((0 ≤ (x 0).val ∧ (x 0).val < 0 + 64) ∧ (0 ≤ (x 1).val ∧ (x 1).val < 0 + 128)))
    ↔ ((64 ≤ (x 0).val ∧ (x 0).val < 64 + 64) ∧ (0 ≤ (x 1).val ∧ (x 1).val < 0 + 128))
  simp only [Finset.mem_univ, true_and]
  omega

theorem halves_disjoint : Disjoint (aTop).view.set (aBot).view.set := by
  rw [← aBot_set]; exact Finset.disjoint_sdiff

theorem halves_union : (aTop).view.set ∪ (aBot).view.set = (Finset.univ : Finset S128x128.Idx) := by
  rw [← aBot_set]; exact Finset.union_sdiff_of_subset (Finset.subset_univ _)

/-- The two halves, held at two contents, are the out scratch held at some contents. -/
theorem halves_join (d : Dev nD) (cc : Fin τ.nSC) (jj : Fin τ.nSub) (f g : Buf (Elt F) ((aV).view.loc (V d cc jj))) :
    iprop(((aV).view.loc (V d cc jj) ↦[(aTop).view.set]{fullShare} f) ∗ ((aV).view.loc (V d cc jj) ↦[(aBot).view.set]{fullShare} g))
      ⊢ (iprop(∃ h, (aV).view.loc (V d cc jj) ↦{fullShare} h) : sProp 𝕄) := by
  refine (join2 (ℓ := (aV).view.loc (V d cc jj)) (aTop).view.set (aBot).view.set halves_disjoint f g).trans ?_
  rw [halves_union]; try rfl

/-! ## One row of the out scratch stored in eight groups of 16 lanes -/

/-- Eight stores of 16 lanes each at row n, lane group k at columns 16 k … 16 k + 15, whose values are one row function,
    leave that function in row n and everything else as it was — whatever the order of the eight. -/
theorem row_store_gen (n : ℕ) (g : S128x128.Idx → Elt F .f32) (offs : Fin 8 → (Fin 2 → ℕ)) (hoff : ∀ k, offs k = ![n, 16 * k.val])
    (inb : ∀ k, ∀ a, offs k a + S1x16.size a ≤ S128x128.size a) (w : Fin 8 → (S1x16.Idx → Elt F .f32)) (val : Fin 128 → Elt F .f32)
    (hw : ∀ (k : Fin 8) (y : S1x16.Idx), ∀ h : 16 * k.val + (y 1).val < 128, w k y = val ⟨16 * k.val + (y 1).val, h⟩)
    (Ls : List (View.Piece (Elt F) S128x128 .f32))
    (h1 : ∀ p ∈ Ls, ∃ k : Fin 8, p = ⟨Rect.unit (s := S128x128) (offs k) S1x16.size (inb k), w k⟩)
    (h2 : ∀ k : Fin 8, (⟨Rect.unit (s := S128x128) (offs k) S1x16.size (inb k), w k⟩ : View.Piece (Elt F) S128x128 .f32) ∈ Ls) :
    (aV).view.writes (Elt F) g Ls = fun i => if (i 0).val = n then val (i 1) else g i := by
  funext i
  have hi1 : (i 1).val < 128 := (i 1).isLt
  have e0 : ∀ k, offs k 0 = n := fun k => congrFun (hoff k) 0
  have e1 : ∀ k, offs k 1 = 16 * k.val := fun k => congrFun (hoff k) 1
  by_cases hi : (i 0).val = n
  · rw [if_pos hi]
    refine View.read_writes_apply_of_pieces (Val := Elt F) (aV).view g (fun j => val (j 1)) Ls ?_ i ?_
    · intro p hp x
      obtain ⟨k, rfl⟩ := h1 p hp
      have hx : (x 1).val < 16 := (x 1).isLt
      have hk := k.isLt
      refine (hw k x (by omega)).trans (congrArg val (Fin.ext ?_))
      show 16 * k.val + (x 1).val = offs k 1 + 1 * (x 1).val
      rw [e1 k]; omega
    · have hk : (i 1).val / 16 < 8 := by omega
      have hm : (i : S128x128.Idx) ∈ (Rect.unit (s := S128x128) (offs ⟨(i 1).val / 16, hk⟩) S1x16.size (inb ⟨(i 1).val / 16, hk⟩)).set := by
        rw [Rect.mem_set_unit]
        intro a
        match a with
        | ⟨0, _⟩ =>
          show offs ⟨(i 1).val / 16, hk⟩ 0 ≤ (i 0).val ∧ (i 0).val < offs ⟨(i 1).val / 16, hk⟩ 0 + 1
          rw [e0]; omega
        | ⟨1, _⟩ =>
          show offs ⟨(i 1).val / 16, hk⟩ 1 ≤ (i 1).val ∧ (i 1).val < offs ⟨(i 1).val / 16, hk⟩ 1 + 16
          rw [e1]
          show 16 * ((i 1).val / 16) ≤ (i 1).val ∧ (i 1).val < 16 * ((i 1).val / 16) + 16
          omega
      exact ⟨_, h2 ⟨(i 1).val / 16, hk⟩, hm⟩
  · rw [if_neg hi]
    refine View.read_writes_apply_of_forall_not_mem (Val := Elt F) (aV).view g i Ls (fun p hp hm => hi ?_)
    obtain ⟨k, rfl⟩ := h1 p hp
    have hm' : (i : S128x128.Idx) ∈ (Rect.unit (s := S128x128) (offs k) S1x16.size (inb k)).set := hm
    rw [Rect.mem_set_unit] at hm'
    have a0 : offs k 0 ≤ (i 0).val ∧ (i 0).val < offs k 0 + 1 := hm' 0
    rw [e0 k] at a0; omega

/-- The same for the eight stores in the order the program makes them: lane groups 0, 1, …, 7, the last store first. -/
theorem row_store (n : ℕ) (g : S128x128.Idx → Elt F .f32) (offs : Fin 8 → (Fin 2 → ℕ)) (hoff : ∀ k, offs k = ![n, 16 * k.val])
    (inb : ∀ k, ∀ a, offs k a + S1x16.size a ≤ S128x128.size a) (w : Fin 8 → (S1x16.Idx → Elt F .f32)) (val : Fin 128 → Elt F .f32)
    (hw : ∀ (k : Fin 8) (y : S1x16.Idx), ∀ h : 16 * k.val + (y 1).val < 128, w k y = val ⟨16 * k.val + (y 1).val, h⟩) :
    (aV).view.writes (Elt F) g
      [⟨Rect.unit (s := S128x128) (offs 7) S1x16.size (inb 7), w 7⟩, ⟨Rect.unit (s := S128x128) (offs 6) S1x16.size (inb 6), w 6⟩,
       ⟨Rect.unit (s := S128x128) (offs 5) S1x16.size (inb 5), w 5⟩, ⟨Rect.unit (s := S128x128) (offs 4) S1x16.size (inb 4), w 4⟩,
       ⟨Rect.unit (s := S128x128) (offs 3) S1x16.size (inb 3), w 3⟩, ⟨Rect.unit (s := S128x128) (offs 2) S1x16.size (inb 2), w 2⟩,
       ⟨Rect.unit (s := S128x128) (offs 1) S1x16.size (inb 1), w 1⟩, ⟨Rect.unit (s := S128x128) (offs 0) S1x16.size (inb 0), w 0⟩]
      = fun i => if (i 0).val = n then val (i 1) else g i := by
  refine row_store_gen n g offs hoff inb w val hw _ ?_ ?_
  · intro p hp
    simp only [List.mem_cons, List.not_mem_nil, or_false] at hp
    rcases hp with rfl | rfl | rfl | rfl | rfl | rfl | rfl | rfl
    exacts [⟨7, rfl⟩, ⟨6, rfl⟩, ⟨5, rfl⟩, ⟨4, rfl⟩, ⟨3, rfl⟩, ⟨2, rfl⟩, ⟨1, rfl⟩, ⟨0, rfl⟩]
  · intro k
    fin_cases k <;> simp

/-! ## The index scratch as its windows, in the spelling of the loop's invariant -/

/-- Window j of the invariant is window j of the cut. -/
theorem winM_set (j : Fin 32) : (winM j.val).view.set = winSet j :=
  winSet_unit _ (winM_inb j.val) j (by rw [Nat.mod_eq_of_lt j.isLt])

/-- An element lies in exactly one window. -/
theorem win_unique {x : S3328.Idx} {i j : Fin 32} (hi : x ∈ winSet i) (hj : x ∈ winSet j) : i = j := by
  by_contra h
  exact Finset.disjoint_left.mp (wins_disjoint i (Finset.mem_univ _) j (Finset.mem_univ _) h) hi hj

theorem win_exists (x : S3328.Idx) : ∃ j : Fin 32, x ∈ winSet j := by
  have hc : x ∈ (Finset.univ : Finset (Fin 32)).biUnion winSet := by rw [wins_cover]; exact Finset.mem_univ _
  obtain ⟨j, -, hx⟩ := Finset.mem_biUnion.mp hc
  exact ⟨j, hx⟩

/-- A family of the invariant's windows, each held by its own elements, is their union held. -/
theorem wins_bigSep (d : Dev nD) (L : grid0.Coords) (S : Finset (Fin 32)) (f : S3328.Idx → BitVec 32) :
    (bigSep S fun j : Fin 32 => ((winM j.val).view.loc (thrT d L) ↦[(winM j.val).view.set]{fullShare} f : sProp 𝕄))
      = ((sV).view.loc (thrT d L) ↦[S.biUnion winSet]{fullShare} f : sProp 𝕄) := by
  rw [pointsTo_biUnion S (ℓ := (sV).view.loc (thrT d L)) winSet
    (fun i _ j _ h => wins_disjoint i (Finset.mem_univ _) j (Finset.mem_univ _) h)]
  exact bigSep_congr fun j _ => by rw [winM_set]

/-- Between the prologue and the loop: everything but windows 0, 1, 2 is the family of the windows from 3 on. -/
theorem rest012_wins (d : Dev nD) (L : grid0.Coords) (f : S3328.Idx → BitVec 32) :
    ((sV).view.loc (thrT d L) ↦[((Finset.univ \ ((sV).slice (Rect.unit (s := S3328) ![0] S104.size inb_S3328_S104_0) (fun _ => rfl)).view.set)
        \ ((sV).slice (Rect.unit (s := S3328) ![104] S104.size inb_S3328_S104_104) (fun _ => rfl)).view.set)
        \ ((sV).slice (Rect.unit (s := S3328) ![208] S104.size inb_S3328_S104_208) (fun _ => rfl)).view.set]{fullShare} f : sProp 𝕄)
      = bigSep (idleSet 0) fun j : Fin 32 => (winM j.val).view.loc (thrT d L) ↦[(winM j.val).view.set]{fullShare} f := by
  rw [wins_bigSep, winSet_unit ![0] inb_S3328_S104_0 0 rfl, winSet_unit ![104] inb_S3328_S104_104 1 rfl,
    winSet_unit ![208] inb_S3328_S104_208 2 rfl]
  refine congrArg (fun I => ((sV).view.loc (thrT d L) ↦[I]{fullShare} f : sProp 𝕄)) ?_
  ext x
  simp only [Finset.mem_sdiff, Finset.mem_univ, true_and, Finset.mem_biUnion, idleSet, Finset.mem_filter]
  constructor
  · rintro ⟨⟨h0, h1⟩, h2⟩
    obtain ⟨j, hj⟩ := win_exists x
    refine ⟨j, Or.inr ?_, hj⟩
    have n0 : j ≠ 0 := fun e => h0 (e ▸ hj)
    have n1 : j ≠ 1 := fun e => h1 (e ▸ hj)
    have n2 : j ≠ 2 := fun e => h2 (e ▸ hj)
    have m0 : j.val ≠ 0 := fun e => n0 (Fin.ext e)
    have m1 : j.val ≠ 1 := fun e => n1 (Fin.ext e)
    have m2 : j.val ≠ 2 := fun e => n2 (Fin.ext e)
    omega
  · rintro ⟨j, hj3, hj⟩
    have h3 : 3 ≤ j.val := by omega
    refine ⟨⟨fun h => ?_, fun h => ?_⟩, fun h => ?_⟩
    · have := win_unique hj h; rw [this] at h3; exact absurd h3 (by decide)
    · have := win_unique hj h; rw [this] at h3; exact absurd h3 (by decide)
    · have := win_unique hj h; rw [this] at h3; exact absurd h3 (by decide)

/-- After the loop every window is idle: the family is the scratch. -/
theorem wins_all (d : Dev nD) (L : grid0.Coords) (f : S3328.Idx → BitVec 32) :
    (bigSep (idleSet 32) fun j : Fin 32 => (winM j.val).view.loc (thrT d L) ↦[(winM j.val).view.set]{fullShare} f : sProp 𝕄)
      = ((sV).view.loc (thrT d L) ↦{fullShare} f) := by
  have e : idleSet 32 = Finset.univ := Finset.filter_true_of_mem (fun j _ => Or.inl j.isLt)
  rw [wins_bigSep, e, wins_cover]; try rfl

/-! ## The tile's two blocks of the result, in the program's spellings -/

/-- Any spelling of the slice of 64 rows at row 64 k is block k of the result. -/
theorem oRect_unit (off : Fin 2 → Nat) (hb : ∀ a, off a + S64x128.size a ≤ S4096x128.size a) (k : Fin 64) (hoff : off = ![64 * k.val, 0]) :
    Rect.unit (s := S4096x128) off S64x128.size hb = oRect k := by
  subst hoff
  unfold oRect Rect.part Rect.block
  congr 1 <;> funext a
  · match a with
    | 0 => simp [Shape.partIx, Shape.partSize, Nat.mul_comm]
    | 1 => simp [Shape.partIx, Shape.partSize]
  · match a with
    | 0 => simp [Shape.partSize]
    | 1 => simp [Shape.partSize]

theorem oPiece_unit (off : Fin 2 → Nat) (hb : ∀ a, off a + S64x128.size a ≤ S4096x128.size a) (k : Fin 64) (hoff : off = ![64 * k.val, 0]) :
    ((oV).slice (Rect.unit (s := S4096x128) off S64x128.size hb) (fun _ => rfl)).view.set = oPiece k := by
  show ((oV).view.slice (Rect.unit (s := S4096x128) off S64x128.size hb)).set = ((oV).view.slice (oRect k)).set
  exact oRect_unit off hb k hoff ▸ rfl

/-- Worker w = 2 s + c writes rows 128 w … 128 w + 63 (block 4 s + 2 c) … -/
theorem oTop_set (L : grid0.Coords) (off : Fin 2 → Nat) (hb : ∀ a, off a + S64x128.size a ≤ S4096x128.size a)
    (hoff : off = ![256 * (L 1).val + 128 * (L 0).val, 0]) :
    ((oV).slice (Rect.unit (s := S4096x128) off S64x128.size hb) (fun _ => rfl)).view.set = oPiece (topIx (cL L) (sL L)) := by
  refine oPiece_unit off hb _ (hoff.trans ?_)
  show _ = ![64 * (4 * (L 1).val + 2 * (L 0).val), 0]
  rw [show 64 * (4 * (L 1).val + 2 * (L 0).val) = 256 * (L 1).val + 128 * (L 0).val by omega]

/-- … and rows 128 w + 64 … 128 w + 127 (block 4 s + 2 c + 1). -/
theorem oBot_set (L : grid0.Coords) (off : Fin 2 → Nat) (hb : ∀ a, off a + S64x128.size a ≤ S4096x128.size a)
    (hoff : off = ![256 * (L 1).val + 128 * (L 0).val + 64, 0]) :
    ((oV).slice (Rect.unit (s := S4096x128) off S64x128.size hb) (fun _ => rfl)).view.set = oPiece (botIx (cL L) (sL L)) := by
  refine oPiece_unit off hb _ (hoff.trans ?_)
  show _ = ![64 * (4 * (L 1).val + 2 * (L 0).val + 1), 0]
  rw [show 64 * (4 * (L 1).val + 2 * (L 0).val + 1) = 256 * (L 1).val + 128 * (L 0).val + 64 by omega]

/-! ## The four row buffers tile their scratch -/

theorem rdiv : 4 ∣ S4x104x128.size 0 := ⟨1, rfl⟩
abbrev rRect (K : Fin 4) : Rect S4x104x128 := Rect.part (s := S4x104x128) (a₀ := 0) rdiv K
abbrev slotSet (K : Fin 4) : Finset S4x104x128.Idx := (rRect K).set

theorem rRect_unit (off : Fin 3 → Nat) (hb : ∀ a, off a + S1x104x128.size a ≤ S4x104x128.size a) (K : Fin 4) (hoff : off = ![K.val, 0, 0]) :
    Rect.unit (s := S4x104x128) off S1x104x128.size hb = rRect K := by
  subst hoff
  unfold rRect Rect.part Rect.block
  congr 1 <;> funext a
  · match a with
    | 0 => simp [Shape.partIx, Shape.partSize]
    | 1 => simp [Shape.partIx, Shape.partSize]
    | 2 => simp [Shape.partIx, Shape.partSize]
  · match a with
    | 0 => simp [Shape.partSize]
    | 1 => simp [Shape.partSize]
    | 2 => simp [Shape.partSize]

theorem slot_set_gen (off : Fin 3 → Nat) (hb : ∀ a, off a + S1x104x128.size a ≤ S4x104x128.size a) (K : Fin 4) (hoff : off = ![K.val, 0, 0]) :
    (((rV).slice (Rect.unit (s := S4x104x128) off S1x104x128.size hb) (fun _ => rfl)).squeeze S104x128 squeezes_S1x104x128_S104x128).view.set
      = slotSet K := by
  show (((rV).view.slice (Rect.unit (s := S4x104x128) off S1x104x128.size hb)).reshape S104x128 squeezes_S1x104x128_S104x128.numel_eq).set = _
  rw [View.set_reshape, View.set_slice_whole]
  exact congrArg (fun r : Rect S4x104x128 => r.set) (rRect_unit off hb K hoff)

theorem slot0_set : (slot0).view.set = slotSet 0 := slot_set_gen _ _ 0 rfl
theorem slot1_set : (slot1).view.set = slotSet 1 := slot_set_gen _ _ 1 rfl
theorem slot2_set : (slot2).view.set = slotSet 2 := slot_set_gen _ _ 2 rfl
theorem slot3_set : (slot3).view.set = slotSet 3 := slot_set_gen _ _ 3 rfl

theorem slots_disjoint {K K' : Fin 4} (h : K ≠ K') : Disjoint (slotSet K) (slotSet K') := Rect.part_disjoint rdiv h

theorem slots_union : slotSet 0 ∪ (slotSet 1 ∪ (slotSet 2 ∪ slotSet 3)) = (Finset.univ : Finset S4x104x128.Idx) := by
  ext x
  simp only [Finset.mem_union, Finset.mem_univ, iff_true]
  obtain ⟨K, hK⟩ := Rect.exists_mem_part rdiv x
  fin_cases K
  · exact Or.inl hK
  · exact Or.inr (Or.inl hK)
  · exact Or.inr (Or.inr (Or.inl hK))
  · exact Or.inr (Or.inr (Or.inr hK))

theorem d23 : Disjoint (slotSet 2) (slotSet 3) := slots_disjoint (by decide)
theorem d123 : Disjoint (slotSet 1) (slotSet 2 ∪ slotSet 3) :=
  Finset.disjoint_union_right.mpr ⟨slots_disjoint (by decide), slots_disjoint (by decide)⟩
theorem d0123 : Disjoint (slotSet 0) (slotSet 1 ∪ (slotSet 2 ∪ slotSet 3)) :=
  Finset.disjoint_union_right.mpr ⟨slots_disjoint (by decide),
    Finset.disjoint_union_right.mpr ⟨slots_disjoint (by decide), slots_disjoint (by decide)⟩⟩

/-- Two-way entailment of assertions is equality. -/
theorem eq_of_bi {P Q : sProp 𝕄} (h : P ⊣⊢ Q) : P = Q := equiv_iff.mp ⟨h.1, h.2⟩

/-- Owning the row scratch is owning its four buffers. -/
theorem slots_split (d : Dev nD) (cc : Fin τ.nSC) (jj : Fin τ.nSub) (f : Buf (Elt F) ((rV).view.loc (V d cc jj))) :
    ((rV).view.loc (V d cc jj) ↦{fullShare} f : sProp 𝕄)
      = iprop(((slot0).view.loc (V d cc jj) ↦[(slot0).view.set]{fullShare} f) ∗ ((slot1).view.loc (V d cc jj) ↦[(slot1).view.set]{fullShare} f)
          ∗ ((slot2).view.loc (V d cc jj) ↦[(slot2).view.set]{fullShare} f) ∗ ((slot3).view.loc (V d cc jj) ↦[(slot3).view.set]{fullShare} f)) := by
  rw [slot0_set, slot1_set, slot2_set, slot3_set]
  show ((rV).view.loc (V d cc jj) ↦[Finset.univ]{fullShare} f : sProp 𝕄) = _
  rw [← slots_union, eq_of_bi (pointsTo_union d0123), eq_of_bi (pointsTo_union d123), eq_of_bi (pointsTo_union d23)]

/-- The four buffers, each held at its own contents, are the row scratch held at some contents. -/
theorem slots_join (d : Dev nD) (cc : Fin τ.nSC) (jj : Fin τ.nSub) (f0 f1 f2 f3 : Buf (Elt F) ((rV).view.loc (V d cc jj))) :
    iprop(((slot0).view.loc (V d cc jj) ↦[(slot0).view.set]{fullShare} f0) ∗ ((slot1).view.loc (V d cc jj) ↦[(slot1).view.set]{fullShare} f1)
        ∗ ((slot2).view.loc (V d cc jj) ↦[(slot2).view.set]{fullShare} f2) ∗ ((slot3).view.loc (V d cc jj) ↦[(slot3).view.set]{fullShare} f3))
      ⊢ (iprop(∃ f, (rV).view.loc (V d cc jj) ↦{fullShare} f) : sProp 𝕄) := by
  rw [slot0_set, slot1_set, slot2_set, slot3_set]
  refine (sep_mono_r (sep_mono_r (join2 (ℓ := (rV).view.loc (V d cc jj)) (slotSet 2) (slotSet 3) d23 f2 f3))).trans ?_
  refine (sep_mono_r (join2' (ℓ := (rV).view.loc (V d cc jj)) (slotSet 1) (slotSet 2 ∪ slotSet 3) d123 f1)).trans ?_
  refine (join2' (ℓ := (rV).view.loc (V d cc jj)) (slotSet 0) (slotSet 1 ∪ (slotSet 2 ∪ slotSet 3)) d0123 f0).trans ?_
  rw [slots_union]; try rfl

end Cert.KI

end
-- ==== Proof.KIRow.lean ====
/-
  The moved word of position 104 j + k of a tile is the table row of field k mod 26 of bag 128 w + 4 j + k / 26 (since
  3328 = 26 · 128 and 104 = 26 · 4), and a left-to-right sum depends only on the terms it adds.
-/
import proofs.«207326_g40819369181559_retrytranche2_1852_22_alg».proof.Proof.KIIdx

noncomputable section

namespace Cert.KI

open Cert.KernelIdeal Cert.KernelIdeal.Gen
open Idealize.ShloMosaic Idealize.ShloMosaic.ValueIdx

variable {F : FTy → Type}

/-- Position 104 j + k of tile w is position 26 (128 w + 4 j + k / 26) + k mod 26 of the flattened index list, and the
    moved word there (at most 2599999) is the row the kernel's value names. -/
theorem krow_fix (L : grid0.Coords) (sfl : IVec S106496 32) (hraw : ∀ p, (rawIdx L sfl p).toNat ≤ 99999) (j k : ℕ)
    (hj : j < 32) (hk : k < 104) :
    (fixWord (rawIdx L sfl (104 * j + k)) (104 * j + k)).toNat = (krow sfl (128 * wid L + 4 * j + k / 26) (k % 26)).val := by
  have hw := wid_lt L
  have hidx : (⟨(26 * (128 * wid L + 4 * j + k / 26) + k % 26) % 106496, Nat.mod_lt _ (by norm_num)⟩ : Fin 106496)
      = ⟨(3328 * wid L + (104 * j + k)) % 106496, Nat.mod_lt _ (by norm_num)⟩ :=
    Fin.ext (by show _ % 106496 = _ % 106496; omega)
  have hk26 : (104 * j + k) % 26 = k % 26 := by omega
  have hr : (rawIdx L sfl (104 * j + k)).toNat ≤ 99999 := hraw _
  rw [fixWord_toNat _ _ hr, hk26]
  unfold krow
  show _ = ((sfl (ix1 (⟨(26 * (128 * wid L + 4 * j + k / 26) + k % 26) % 106496, Nat.mod_lt _ (by norm_num)⟩ : Fin 106496))).toNat
    + 100000 * (k % 26 % 26)) % 2600000
  rw [hidx]
  show (rawIdx L sfl (104 * j + k)).toNat + 100000 * (k % 26) = ((rawIdx L sfl (104 * j + k)).toNat + 100000 * (k % 26 % 26)) % 2600000
  omega

/-- A left-to-right sum of the terms 0 … n depends only on those terms. -/
theorem accTo_congr [FloatOps F] (x y : ℕ → F .f32) (n : ℕ) (h : ∀ f, f ≤ n → x f = y f) : accTo x n = accTo y n := by
  induction n with
  | zero => exact h 0 (Nat.le_refl 0)
  | succ n ih =>
    show FloatOps.addf (accTo x n) (x (n + 1)) = FloatOps.addf (accTo y n) (y (n + 1))
    rw [ih (fun f hf => h f (Nat.le_succ_of_le hf)), h (n + 1) (Nat.le_refl _)]

end Cert.KI

end
-- ==== Proof.KIOut.lean ====
/-
  Values, for one tile: what a chunk's gather leaves in its row buffer, read at an index (the table row that the moved
  index word names), and the tile's two blocks of the result after the copies out of the out scratch, which hold the
  kernel's value.
-/
import proofs.«207326_g40819369181559_retrytranche2_1852_22_alg».proof.Proof.KIInv
import proofs.«207326_g40819369181559_retrytranche2_1852_22_alg».proof.Proof.KIWin
import proofs.«207326_g40819369181559_retrytranche2_1852_22_alg».proof.Proof.KIRow
import Idealize.ShloMosaic.Rules.PointsTo
import Idealize.ShloMosaic.Lib.Writes

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type}

local notation "𝕄" => MT nD τ sig (HIx 1) (Elt F) ℕ UU ℕ

local notation "xV" => (Memref.whole Cert.KernelIdeal.main_arg1_scv : Memref Cert.KernelIdeal.sig Kind.scVector Space.hbm Cert.KernelIdeal.S2600000x128 EltTy.f32)
local notation "oV" => (Memref.whole Cert.KernelIdeal.main_v1_scv : Memref Cert.KernelIdeal.sig Kind.scVector Space.hbm Cert.KernelIdeal.S4096x128 EltTy.f32)
local notation "sV" => (Memref.whole Cert.KernelIdeal.cc0_scratch0 : Memref Cert.KernelIdeal.sig Kind.scVector Space.vmem Cert.KernelIdeal.S3328 EltTy.i32)
local notation "rV" => (Memref.whole Cert.KernelIdeal.cc0_scratch1 : Memref Cert.KernelIdeal.sig Kind.scVector Space.vmem Cert.KernelIdeal.S4x104x128 EltTy.f32)
local notation "aV" => (Memref.whole Cert.KernelIdeal.cc0_scratch2 : Memref Cert.KernelIdeal.sig Kind.scVector Space.vmem Cert.KernelIdeal.S128x128 EltTy.f32)

/-! ## What a gather leaves in its row buffer, read at an index -/

/-- Coordinate 0 of the index at row-major position k of the 104-word shape is k. -/
theorem rowMajor_symm_val (k : Fin S104.numel) : ((S104.rowMajor.symm k) 0).val = k.val := by
  have h := Shape.rowMajor_val_one (d := ![104]) (S104.rowMajor.symm k)
  rw [Equiv.apply_symm_apply] at h
  exact h.symm

/-- Chunk j's gather, read at (k, q): the table at the row that field k mod 26 of bag 128 w + 4 j + k / 26 names, column q. -/
theorem gathered_apply_n [FloatOps F] [Named F] (L : grid0.Coords) (sfl : IVec S106496 32) (tab : FVec F S2600000x128 .f32) (n j : ℕ) (hj : j < 32)
    (hjn : 104 * (j + 1) ≤ n) (hraw : ∀ p, (rawIdx L sfl p).toNat ≤ 99999) (off : Fin 1 → Nat)
    (hb : ∀ a, off a + S104.size a ≤ S3328.size a) (hoff : off = ![104 * j])
    (hn : S104.numel = S104x128.size gathers_S2600000x128_S104x128.axis')
    (hin : ∀ x, (((sV).slice (Rect.unit (s := S3328) off S104.size hb) (fun _ => rfl)).view.read (Elt F) (idxAfter L sfl n) x).toNat
      < S2600000x128.size gathers_S2600000x128_S104x128.axis) (y : S104x128.Idx) :
    SparseCore.gatherPayload gathers_S2600000x128_S104x128
        (((xV).slice (Rect.unit (s := S2600000x128) ![0, 0] S2600000x128.size inb_S2600000x128_S2600000x128_0_0) (fun _ => rfl)).view.read (Elt F) tab)
        (SparseCore.rows (((sV).slice (Rect.unit (s := S3328) off S104.size hb) (fun _ => rfl)).view.read (Elt F) (idxAfter L sfl n)) hn hin) y
      = tab (ix2 (krow sfl (128 * wid L + 4 * j + (y 0).val / 26) ((y 0).val % 26)) (y 1)) := by
  have hy0 : (y 0).val < 104 := (y 0).isLt
  unfold SparseCore.gatherPayload
  refine ((View.read_apply _ _).trans (cast_eq _ _)).trans ?_
  refine congrArg tab (funext fun b => Fin.ext ?_)
  match b with
  | ⟨0, _⟩ =>
    show 0 + 1 * (((sV).slice (Rect.unit (s := S3328) off S104.size hb) (fun _ => rfl)).view.read (Elt F) (idxAfter L sfl n)
      (S104.rowMajor.symm ((y 0).cast hn.symm))).toNat = (krow sfl (128 * wid L + 4 * j + (y 0).val / 26) ((y 0).val % 26)).val
    rw [win_read (F := F) L sfl n j hjn off hb hoff, rowMajor_symm_val]
    show 0 + 1 * (fixWord (rawIdx L sfl (104 * j + (y 0).val)) (104 * j + (y 0).val)).toNat = _
    rw [krow_fix L sfl hraw j (y 0).val hj hy0]; omega
  | ⟨1, _⟩ =>
    show 0 + 1 * (y 1).val = (y 1).val
    omega

theorem gathered_apply [FloatOps F] [Named F] (L : grid0.Coords) (sfl : IVec S106496 32) (tab : FVec F S2600000x128 .f32) (j : ℕ) (hj : j < 32)
    (hraw : ∀ p, (rawIdx L sfl p).toNat ≤ 99999) (off : Fin 1 → Nat)
    (hb : ∀ a, off a + S104.size a ≤ S3328.size a) (hoff : off = ![104 * j])
    (hn : S104.numel = S104x128.size gathers_S2600000x128_S104x128.axis')
    (hin : ∀ x, (((sV).slice (Rect.unit (s := S3328) off S104.size hb) (fun _ => rfl)).view.read (Elt F) (idxAfter L sfl 3328) x).toNat
      < S2600000x128.size gathers_S2600000x128_S104x128.axis) (y : S104x128.Idx) :
    SparseCore.gatherPayload gathers_S2600000x128_S104x128
        (((xV).slice (Rect.unit (s := S2600000x128) ![0, 0] S2600000x128.size inb_S2600000x128_S2600000x128_0_0) (fun _ => rfl)).view.read (Elt F) tab)
        (SparseCore.rows (((sV).slice (Rect.unit (s := S3328) off S104.size hb) (fun _ => rfl)).view.read (Elt F) (idxAfter L sfl 3328)) hn hin) y
      = tab (ix2 (krow sfl (128 * wid L + 4 * j + (y 0).val / 26) ((y 0).val % 26)) (y 1)) :=
  gathered_apply_n L sfl tab 3328 j hj (by omega) hraw off hb hoff hn hin y

/-! ## The result's two blocks after the copies out -/

/-- The result's lower block of the tile, as its copy spells it. -/
abbrev oBot [FloatOps F] [Named F] (L : grid0.Coords) : Memref sig .scVector .hbm S64x128 .f32 :=
  (oV).slice (Rect.unit (s := S4096x128) (k0_off109 L) S64x128.size (k0_off109_inb L)) (fun _ => rfl)

/-- A block of 64 rows of the result at row 128 w + r₀, written whole with 64 rows of the out scratch from row r₀ on, all
    done, holds the kernel's value there. -/
theorem out_block_congr [FloatOps F] [Named F] (L : grid0.Coords) (sfl : IVec S106496 32) (tab : FVec F S2600000x128 .f32)
    (fa0 : S128x128.Idx → F .f32) (o : FVec F S4096x128 .f32) (r₀ n : ℕ) (hn : r₀ + 64 ≤ n)
    (offO : Fin 2 → ℕ) (hbO : ∀ a, offO a + S64x128.size a ≤ S4096x128.size a) (hoffO : offO = ![128 * wid L + r₀, 0])
    (offA : Fin 2 → ℕ) (hbA : ∀ a, offA a + S64x128.size a ≤ S128x128.size a) (hoffA : offA = ![r₀, 0]) :
    ∀ i ∈ ((oV).slice (Rect.unit (s := S4096x128) offO S64x128.size hbO) (fun _ => rfl)).view.set,
      (((oV).slice (Rect.unit (s := S4096x128) offO S64x128.size hbO) (fun _ => rfl)).view.writes (Elt F) o
        [⟨Rect.whole S64x128, ReadAs.same.apply (View.read (Elt F) ((aV).slice (Rect.unit (s := S128x128) offA S64x128.size hbA) (fun _ => rfl)).view
          (outFn L sfl tab fa0 n))⟩]) i = KG (cstK (F := F)) sfl tab i := by
  subst hoffO hoffA
  intro i hi
  obtain ⟨y, -, rfl⟩ := Finset.mem_map.mp hi
  have hy0 : (y 0).val < 64 := (y 0).isLt
  have e := View.read_writes_cons_emb (Val := Elt F) ((oV).slice (Rect.unit (s := S4096x128) ![128 * wid L + r₀, 0] S64x128.size hbO) (fun _ => rfl)).view o
    (Rect.whole S64x128) (ReadAs.same.apply (View.read (Elt F) ((aV).slice (Rect.unit (s := S128x128) ![r₀, 0] S64x128.size hbA) (fun _ => rfl)).view
      (outFn L sfl tab fa0 n))) [] y
  have ey : (Rect.whole S64x128).emb (y : (Rect.whole S64x128).shape.Idx) = y := Rect.emb_whole_apply _ _
  rw [ey] at e
  refine ((cast_eq _ _).symm.trans ((View.read_apply _ _).symm.trans e)).trans ?_
  refine ((View.read_apply _ _).trans (cast_eq _ _)).trans ?_
  unfold outFn KG
  have e0 : ((((aV).slice (Rect.unit (s := S128x128) ![r₀, 0] S64x128.size hbA) (fun _ => rfl)).view.emb y) 0).val = r₀ + (y 0).val := by
    show r₀ + 1 * (y 0).val = _; omega
  have f0 : ((((oV).slice (Rect.unit (s := S4096x128) ![128 * wid L + r₀, 0] S64x128.size hbO) (fun _ => rfl)).view.emb y) 0).val
      = 128 * wid L + (r₀ + (y 0).val) := by
    show 128 * wid L + r₀ + 1 * (y 0).val = _; omega
  have e1 : (((aV).slice (Rect.unit (s := S128x128) ![r₀, 0] S64x128.size hbA) (fun _ => rfl)).view.emb y) 1
      = (((oV).slice (Rect.unit (s := S4096x128) ![128 * wid L + r₀, 0] S64x128.size hbO) (fun _ => rfl)).view.emb y) 1 := Fin.ext rfl
  simp only [e0, f0, e1]
  rw [if_pos (by omega)]

/-- The upper block after its copy: rows 0 … 63 of the out scratch, all done, are the kernel's value at rows 128 w … 128 w + 63. -/
theorem out_top_congr [FloatOps F] [Named F] (L : grid0.Coords) (sfl : IVec S106496 32) (tab : FVec F S2600000x128 .f32)
    (fa0 : S128x128.Idx → F .f32) (o : FVec F S4096x128 .f32) :
    ∀ i ∈ (oTop L).view.set, ((oTop L).view.writes (Elt F) o
      [⟨Rect.whole S64x128, ReadAs.same.apply (View.read (Elt F) (aTop).view (outFn L sfl tab fa0 64))⟩]) i = KG (cstK (F := F)) sfl tab i :=
  out_block_congr L sfl tab fa0 o 0 64 (by omega) (k0_off108 L) _
    ((k0_off108_eq L).trans (by rw [show 128 * wid L + 0 = 256 * (L 1).val + 128 * (L 0).val by unfold wid; omega])) ![0, 0] _ rfl

/-- The lower block after its copy: rows 64 … 127 of the out scratch are the kernel's value at rows 128 w + 64 … 128 w + 127. -/
theorem out_bot_congr [FloatOps F] [Named F] (L : grid0.Coords) (sfl : IVec S106496 32) (tab : FVec F S2600000x128 .f32)
    (fa0 : S128x128.Idx → F .f32) (o : FVec F S4096x128 .f32) :
    ∀ i ∈ (oBot (F := F) L).view.set, ((oBot (F := F) L).view.writes (Elt F) o
      [⟨Rect.whole S64x128, ReadAs.same.apply (View.read (Elt F) (aBot).view (outFn L sfl tab fa0 128))⟩]) i = KG (cstK (F := F)) sfl tab i :=
  out_block_congr L sfl tab fa0 o 64 128 (by omega) (k0_off109 L) _
    ((k0_off109_eq L).trans (by rw [show 128 * wid L + 64 = 256 * (L 1).val + 128 * (L 0).val + 64 by unfold wid; omega])) ![64, 0] _ rfl

end Cert.KI

end
-- ==== Proof.KIGather.lean ====
/-
  A gather's delivery, in the invariant's terms: the row buffer written with the gather's payload holds, at row k of the
  chunk, the table row that the k-th word of the chunk's window names; the window comes back at the moved words (the same
  whichever pass has run, once the window's positions have been moved); the table's token comes back.
-/
import proofs.«207326_g40819369181559_retrytranche2_1852_22_alg».proof.Proof.KIInv
import proofs.«207326_g40819369181559_retrytranche2_1852_22_alg».proof.Proof.KIOut
import Idealize.ShloMosaic.Lib.ValueLayout

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "xV" => (Memref.whole Cert.KernelIdeal.main_arg1_scv : Memref Cert.KernelIdeal.sig Kind.scVector Space.hbm Cert.KernelIdeal.S2600000x128 EltTy.f32)
local notation "sV" => (Memref.whole Cert.KernelIdeal.cc0_scratch0 : Memref Cert.KernelIdeal.sig Kind.scVector Space.vmem Cert.KernelIdeal.S3328 EltTy.i32)
local notation "rV" => (Memref.whole Cert.KernelIdeal.cc0_scratch1 : Memref Cert.KernelIdeal.sig Kind.scVector Space.vmem Cert.KernelIdeal.S4x104x128 EltTy.f32)

variable [FloatOps F] [Named F]
variable (d : Dev nD) (L : grid0.Coords)
variable (q : PosShare TreeShare) (sfl : IVec S106496 32) (tab : FVec F S2600000x128 .f32)

/-- The table as the gathers name it: the slice that is all of it. -/
abbrev xAll : Memref sig .scVector .hbm S2600000x128 .f32 :=
  (xV).slice (Rect.unit (s := S2600000x128) ![0, 0] S2600000x128.size inb_S2600000x128_S2600000x128_0_0) (fun _ => rfl)

theorem xAll_set : (xAll).view.set = (Finset.univ : Finset S2600000x128.Idx) := by
  show ((View.whole (main_arg1_scv : Ref sig .scVector)).slice (Rect.unit (s := S2600000x128) ![0, 0] S2600000x128.size inb_S2600000x128_S2600000x128_0_0)).set = _
  rw [View.set_slice_whole]
  refine Rect.set_eq_univ_of_whole _ (fun a => ?_)
  match a with
  | ⟨0, _⟩ => exact ⟨rfl, rfl, rfl⟩
  | ⟨1, _⟩ => exact ⟨rfl, rfl, rfl⟩

/-- A row buffer written whole with chunk j's gather holds chunk j's rows: at (k, c) the table row that word k of the
    chunk's window names, column c. -/
theorem slot_written (K : Fin 4) (off3 : Fin 3 → ℕ) (hb3 : ∀ a, off3 a + S1x104x128.size a ≤ S4x104x128.size a) (hoff3 : off3 = ![K.val, 0, 0])
    (n j : ℕ) (hj : j < 32) (hjn : 104 * (j + 1) ≤ n) (hraw : ∀ p, (rawIdx L sfl p).toNat ≤ 99999)
    (off : Fin 1 → ℕ) (hb : ∀ a, off a + S104.size a ≤ S3328.size a) (hoff : off = ![104 * j]) (f : S4x104x128.Idx → F .f32)
    (hn : S104.numel = S104x128.size gathers_S2600000x128_S104x128.axis')
    (hin : ∀ x, (((sV).slice (Rect.unit (s := S3328) off S104.size hb) (fun _ => rfl)).view.read (Elt F) (idxAfter L sfl n) x).toNat
      < S2600000x128.size gathers_S2600000x128_S104x128.axis) :
    ∀ i ∈ (((rV).slice (Rect.unit (s := S4x104x128) off3 S1x104x128.size hb3) (fun _ => rfl)).squeeze S104x128 squeezes_S1x104x128_S104x128).view.set,
      (((rV).slice (Rect.unit (s := S4x104x128) off3 S1x104x128.size hb3) (fun _ => rfl)).squeeze S104x128 squeezes_S1x104x128_S104x128).view.writes (Elt F) f
        [⟨Rect.whole S104x128, SparseCore.gatherPayload gathers_S2600000x128_S104x128 (View.read (Elt F) (xAll).view tab)
          (SparseCore.rows (View.read (Elt F) ((sV).slice (Rect.unit (s := S3328) off S104.size hb) (fun _ => rfl)).view (idxAfter L sfl n)) hn hin)⟩] i
        = rowsFn L sfl tab j i := by
  subst hoff3
  intro i hi
  obtain ⟨x, -, rfl⟩ := Finset.mem_map.mp hi
  obtain ⟨x0, x1, rfl⟩ : ∃ (x0 : Fin 104) (x1 : Fin 128), x = ix2 x0 x1 := ⟨x 0, x 1, eq_ix2 x⟩
  have e := View.read_writes_cons_emb (Val := Elt F)
    (((rV).slice (Rect.unit (s := S4x104x128) ![K.val, 0, 0] S1x104x128.size hb3) (fun _ => rfl)).squeeze S104x128 squeezes_S1x104x128_S104x128).view f
    (Rect.whole S104x128) (SparseCore.gatherPayload gathers_S2600000x128_S104x128 (View.read (Elt F) (xAll).view tab)
      (SparseCore.rows (View.read (Elt F) ((sV).slice (Rect.unit (s := S3328) off S104.size hb) (fun _ => rfl)).view (idxAfter L sfl n)) hn hin)) [] (ix2 x0 x1)
  have ey : (Rect.whole S104x128).emb (ix2 x0 x1 : (Rect.whole S104x128).shape.Idx) = ix2 x0 x1 := Rect.emb_whole_apply _ _
  rw [ey] at e
  refine ((cast_eq _ _).symm.trans ((View.read_apply _ _).symm.trans e)).trans ?_
  rw [gathered_apply_n L sfl tab n j hj hjn hraw off hb hoff hn hin]
  unfold rowsFn
  have h1 : (((((rV).slice (Rect.unit (s := S4x104x128) ![K.val, 0, 0] S1x104x128.size hb3) (fun _ => rfl)).squeeze S104x128 squeezes_S1x104x128_S104x128).view.emb
      (ix2 x0 x1)) 1).val = x0.val := by
    show 0 + 1 * ((Shape.reshapeEquiv squeezes_S1x104x128_S104x128.numel_eq (ix2 x0 x1)) 1).val = _
    rw [reshapeEquiv_ix2_1ab]; show 0 + 1 * x0.val = _; omega
  have h2 : ((((rV).slice (Rect.unit (s := S4x104x128) ![K.val, 0, 0] S1x104x128.size hb3) (fun _ => rfl)).squeeze S104x128 squeezes_S1x104x128_S104x128).view.emb
      (ix2 x0 x1)) 2 = x1 := Fin.ext (by
    show 0 + 1 * ((Shape.reshapeEquiv squeezes_S1x104x128_S104x128.numel_eq (ix2 x0 x1)) 2).val = _
    rw [reshapeEquiv_ix2_1ab]; show 0 + 1 * x1.val = _; omega)
  rw [h2]
  simp only [h1]

/-- A gather of chunk j into row buffer K, as its issue leaves it when the positions below n have been moved (the chunk's
    window among them), delivers what the loop's invariant says of it. -/
theorem fcanon_gen (K : Fin 4) (off3 : Fin 3 → ℕ) (hb3 : ∀ a, off3 a + S1x104x128.size a ≤ S4x104x128.size a) (hoff3 : off3 = ![K.val, 0, 0])
    (sm : SemLoc sig) (tk : Fin 7)
    (n j : ℕ) (hj : j < 32) (hjn : 104 * (j + 1) ≤ n) (hn3 : n ≤ 3328) (hraw : ∀ p, (rawIdx L sfl p).toNat ≤ 99999)
    (off : Fin 1 → ℕ) (hb : ∀ a, off a + S104.size a ≤ S3328.size a) (hoff : off = ![104 * j]) (f : S4x104x128.Idx → F .f32)
    (hn : S104.numel = S104x128.size gathers_S2600000x128_S104x128.axis')
    (hin : ∀ x, (((sV).slice (Rect.unit (s := S3328) off S104.size hb) (fun _ => rfl)).view.read (Elt F) (idxAfter L sfl n) x).toNat
      < S2600000x128.size gathers_S2600000x128_S104x128.axis) :
    (Transfers.Flight countersEmb (thrT d L) sm (default : HIx 1) 425984
      iprop((((((rV).slice (Rect.unit (s := S4x104x128) off3 S1x104x128.size hb3) (fun _ => rfl)).squeeze S104x128 squeezes_S1x104x128_S104x128).view.loc (thrT d L)
            ↦[(((rV).slice (Rect.unit (s := S4x104x128) off3 S1x104x128.size hb3) (fun _ => rfl)).squeeze S104x128 squeezes_S1x104x128_S104x128).view.set]{fullShare}
              (((rV).slice (Rect.unit (s := S4x104x128) off3 S1x104x128.size hb3) (fun _ => rfl)).squeeze S104x128 squeezes_S1x104x128_S104x128).view.writes (Elt F) f
                [⟨Rect.whole S104x128, SparseCore.gatherPayload gathers_S2600000x128_S104x128 (View.read (Elt F) (xAll).view tab)
                  (SparseCore.rows (View.read (Elt F) ((sV).slice (Rect.unit (s := S3328) off S104.size hb) (fun _ => rfl)).view (idxAfter L sfl n)) hn hin)⟩])
          ∗ (((sV).slice (Rect.unit (s := S3328) off S104.size hb) (fun _ => rfl)).view.loc (thrT d L)
              ↦[((sV).slice (Rect.unit (s := S3328) off S104.size hb) (fun _ => rfl)).view.set]{fullShare} idxAfter L sfl n))
        ∗ ((xV).view.loc (thrT d L) ↦[(xAll).view.set]{Transfers.shareTok q 7 tk} tab)) : sProp 𝕄)
      ⊢ Transfers.Flight countersEmb (thrT d L) sm (default : HIx 1) 425984
          iprop(((((rV).slice (Rect.unit (s := S4x104x128) off3 S1x104x128.size hb3) (fun _ => rfl)).squeeze S104x128 squeezes_S1x104x128_S104x128).view.loc (thrT d L)
              ↦[(((rV).slice (Rect.unit (s := S4x104x128) off3 S1x104x128.size hb3) (fun _ => rfl)).squeeze S104x128 squeezes_S1x104x128_S104x128).view.set]{fullShare}
                rowsFn L sfl tab j) ∗ winPts d L sfl j
            ∗ ((xV).view.loc (thrT d L) ↦{Transfers.shareTok q 7 tk} tab)) := by
  refine Transfers.Flight_mono countersEmb (thrT d L) ?_
  have hoffm : off = ![104 * (j % 32)] := by rw [hoff, Nat.mod_eq_of_lt hj]
  have hwin : (((sV).slice (Rect.unit (s := S3328) off S104.size hb) (fun _ => rfl)).view.loc (thrT d L)
        ↦[((sV).slice (Rect.unit (s := S3328) off S104.size hb) (fun _ => rfl)).view.set]{fullShare} idxAfter L sfl n : sProp 𝕄)
      = winPts d L sfl j := by
    rw [← winPts_spell d L sfl j off hb hoffm]
    refine pointsTo_congr (fun i hi => ?_)
    obtain ⟨x, -, rfl⟩ := Finset.mem_map.mp hi
    have hx : (x 0).val < 104 := (x 0).isLt
    have e : ((((sV).slice (Rect.unit (s := S3328) off S104.size hb) (fun _ => rfl)).view.emb x) 0).val = 104 * j + (x 0).val := by
      subst hoff; show 104 * j + 1 * (x 0).val = _; omega
    show idxAfter L sfl n _ = idxAfter L sfl 3328 _
    unfold idxAfter
    simp only [e]
    rw [if_pos (by omega), if_pos (by omega)]
  rw [hwin, xAll_set, pointsTo_congr (slot_written L sfl tab K off3 hb3 hoff3 n j hj hjn hraw off hb hoff f hn hin)]
  iintro ⟨⟨H1, H2⟩, H3⟩
  isplitl [H1]; · iexact H1
  isplitl [H2]; · iexact H2
  iexact H3

/-- Row buffer 0's gather of chunk j, issued when the positions below n have been moved, delivers what the invariant says. -/
theorem fcanon0_n (hraw : ∀ p, (rawIdx L sfl p).toNat ≤ 99999) (n j : ℕ) (hj : j < 32) (hjn : 104 * (j + 1) ≤ n) (hn3 : n ≤ 3328)
    (off : Fin 1 → ℕ) (hb : ∀ a, off a + S104.size a ≤ S3328.size a) (hoff : off = ![104 * j])
    (f : Buf (Elt F) ((slot0).view.loc (thrT d L)))
    (hn : S104.numel = S104x128.size gathers_S2600000x128_S104x128.axis')
    (hin : ∀ x, (((sV).slice (Rect.unit (s := S3328) off S104.size hb) (fun _ => rfl)).view.read (Elt F) (idxAfter L sfl n) x).toNat
      < S2600000x128.size gathers_S2600000x128_S104x128.axis)
    (sm : SemLoc sig) (hsm : sm = SemLoc.dma cc0_scratch3.sem) :
    (Transfers.Flight countersEmb (thrT d L) sm (default : HIx 1) 425984
      iprop((((slot0).view.loc (thrT d L) ↦[(slot0).view.set]{fullShare}
              (slot0).view.writes (Elt F) f [⟨Rect.whole S104x128, SparseCore.gatherPayload gathers_S2600000x128_S104x128 (View.read (Elt F) (xAll).view tab)
                (SparseCore.rows (View.read (Elt F) ((sV).slice (Rect.unit (s := S3328) off S104.size hb) (fun _ => rfl)).view (idxAfter L sfl n)) hn hin)⟩])
          ∗ (((sV).slice (Rect.unit (s := S3328) off S104.size hb) (fun _ => rfl)).view.loc (thrT d L)
              ↦[((sV).slice (Rect.unit (s := S3328) off S104.size hb) (fun _ => rfl)).view.set]{fullShare} idxAfter L sfl n))
        ∗ ((xV).view.loc (thrT d L) ↦[(xAll).view.set]{Transfers.shareTok q 7 0} tab)) : sProp 𝕄)
      ⊢ inFlight0 d L q sfl tab j := by
  subst hsm
  unfold inFlight0
  exact fcanon_gen d L q sfl tab 0 _ _ rfl (SemLoc.dma cc0_scratch3.sem) 0 n j hj hjn hn3 hraw off hb hoff f hn hin

/-- The same once both passes are over. -/
theorem fcanon0 (hraw : ∀ p, (rawIdx L sfl p).toNat ≤ 99999) (j : ℕ) (hj : j < 32)
    (off : Fin 1 → ℕ) (hb : ∀ a, off a + S104.size a ≤ S3328.size a) (hoff : off = ![104 * j])
    (f : Buf (Elt F) ((slot0).view.loc (thrT d L)))
    (hn : S104.numel = S104x128.size gathers_S2600000x128_S104x128.axis')
    (hin : ∀ x, (((sV).slice (Rect.unit (s := S3328) off S104.size hb) (fun _ => rfl)).view.read (Elt F) (fixC L sfl) x).toNat
      < S2600000x128.size gathers_S2600000x128_S104x128.axis)
    (sm : SemLoc sig) (hsm : sm = SemLoc.dma cc0_scratch3.sem) :
    (Transfers.Flight countersEmb (thrT d L) sm (default : HIx 1) 425984
      iprop((((slot0).view.loc (thrT d L) ↦[(slot0).view.set]{fullShare}
              (slot0).view.writes (Elt F) f [⟨Rect.whole S104x128, SparseCore.gatherPayload gathers_S2600000x128_S104x128 (View.read (Elt F) (xAll).view tab)
                (SparseCore.rows (View.read (Elt F) ((sV).slice (Rect.unit (s := S3328) off S104.size hb) (fun _ => rfl)).view (fixC L sfl)) hn hin)⟩])
          ∗ (((sV).slice (Rect.unit (s := S3328) off S104.size hb) (fun _ => rfl)).view.loc (thrT d L)
              ↦[((sV).slice (Rect.unit (s := S3328) off S104.size hb) (fun _ => rfl)).view.set]{fullShare} fixC L sfl))
        ∗ ((xV).view.loc (thrT d L) ↦[(xAll).view.set]{Transfers.shareTok q 7 0} tab)) : sProp 𝕄)
      ⊢ inFlight0 d L q sfl tab j :=
  fcanon0_n d L q sfl tab hraw 3328 j hj (by omega) (Nat.le_refl _) off hb hoff f hn hin sm hsm

/-- Row buffer 1's gather of chunk j, issued when the positions below n have been moved, delivers what the invariant says. -/
theorem fcanon1_n (hraw : ∀ p, (rawIdx L sfl p).toNat ≤ 99999) (n j : ℕ) (hj : j < 32) (hjn : 104 * (j + 1) ≤ n) (hn3 : n ≤ 3328)
    (off : Fin 1 → ℕ) (hb : ∀ a, off a + S104.size a ≤ S3328.size a) (hoff : off = ![104 * j])
    (f : Buf (Elt F) ((slot1).view.loc (thrT d L)))
    (hn : S104.numel = S104x128.size gathers_S2600000x128_S104x128.axis')
    (hin : ∀ x, (((sV).slice (Rect.unit (s := S3328) off S104.size hb) (fun _ => rfl)).view.read (Elt F) (idxAfter L sfl n) x).toNat
      < S2600000x128.size gathers_S2600000x128_S104x128.axis)
    (sm : SemLoc sig) (hsm : sm = SemLoc.dma cc0_scratch4.sem) :
    (Transfers.Flight countersEmb (thrT d L) sm (default : HIx 1) 425984
      iprop((((slot1).view.loc (thrT d L) ↦[(slot1).view.set]{fullShare}
              (slot1).view.writes (Elt F) f [⟨Rect.whole S104x128, SparseCore.gatherPayload gathers_S2600000x128_S104x128 (View.read (Elt F) (xAll).view tab)
                (SparseCore.rows (View.read (Elt F) ((sV).slice (Rect.unit (s := S3328) off S104.size hb) (fun _ => rfl)).view (idxAfter L sfl n)) hn hin)⟩])
          ∗ (((sV).slice (Rect.unit (s := S3328) off S104.size hb) (fun _ => rfl)).view.loc (thrT d L)
              ↦[((sV).slice (Rect.unit (s := S3328) off S104.size hb) (fun _ => rfl)).view.set]{fullShare} idxAfter L sfl n))
        ∗ ((xV).view.loc (thrT d L) ↦[(xAll).view.set]{Transfers.shareTok q 7 1} tab)) : sProp 𝕄)
      ⊢ inFlight1 d L q sfl tab j := by
  subst hsm
  unfold inFlight1
  exact fcanon_gen d L q sfl tab 1 _ _ rfl (SemLoc.dma cc0_scratch4.sem) 1 n j hj hjn hn3 hraw off hb hoff f hn hin

/-- The same once both passes are over. -/
theorem fcanon1 (hraw : ∀ p, (rawIdx L sfl p).toNat ≤ 99999) (j : ℕ) (hj : j < 32)
    (off : Fin 1 → ℕ) (hb : ∀ a, off a + S104.size a ≤ S3328.size a) (hoff : off = ![104 * j])
    (f : Buf (Elt F) ((slot1).view.loc (thrT d L)))
    (hn : S104.numel = S104x128.size gathers_S2600000x128_S104x128.axis')
    (hin : ∀ x, (((sV).slice (Rect.unit (s := S3328) off S104.size hb) (fun _ => rfl)).view.read (Elt F) (fixC L sfl) x).toNat
      < S2600000x128.size gathers_S2600000x128_S104x128.axis)
    (sm : SemLoc sig) (hsm : sm = SemLoc.dma cc0_scratch4.sem) :
    (Transfers.Flight countersEmb (thrT d L) sm (default : HIx 1) 425984
      iprop((((slot1).view.loc (thrT d L) ↦[(slot1).view.set]{fullShare}
              (slot1).view.writes (Elt F) f [⟨Rect.whole S104x128, SparseCore.gatherPayload gathers_S2600000x128_S104x128 (View.read (Elt F) (xAll).view tab)
                (SparseCore.rows (View.read (Elt F) ((sV).slice (Rect.unit (s := S3328) off S104.size hb) (fun _ => rfl)).view (fixC L sfl)) hn hin)⟩])
          ∗ (((sV).slice (Rect.unit (s := S3328) off S104.size hb) (fun _ => rfl)).view.loc (thrT d L)
              ↦[((sV).slice (Rect.unit (s := S3328) off S104.size hb) (fun _ => rfl)).view.set]{fullShare} fixC L sfl))
        ∗ ((xV).view.loc (thrT d L) ↦[(xAll).view.set]{Transfers.shareTok q 7 1} tab)) : sProp 𝕄)
      ⊢ inFlight1 d L q sfl tab j :=
  fcanon1_n d L q sfl tab hraw 3328 j hj (by omega) (Nat.le_refl _) off hb hoff f hn hin sm hsm

/-- Row buffer 2's gather of chunk j, issued when the positions below n have been moved, delivers what the invariant says. -/
theorem fcanon2_n (hraw : ∀ p, (rawIdx L sfl p).toNat ≤ 99999) (n j : ℕ) (hj : j < 32) (hjn : 104 * (j + 1) ≤ n) (hn3 : n ≤ 3328)
    (off : Fin 1 → ℕ) (hb : ∀ a, off a + S104.size a ≤ S3328.size a) (hoff : off = ![104 * j])
    (f : Buf (Elt F) ((slot2).view.loc (thrT d L)))
    (hn : S104.numel = S104x128.size gathers_S2600000x128_S104x128.axis')
    (hin : ∀ x, (((sV).slice (Rect.unit (s := S3328) off S104.size hb) (fun _ => rfl)).view.read (Elt F) (idxAfter L sfl n) x).toNat
      < S2600000x128.size gathers_S2600000x128_S104x128.axis)
    (sm : SemLoc sig) (hsm : sm = SemLoc.dma cc0_scratch5.sem) :
    (Transfers.Flight countersEmb (thrT d L) sm (default : HIx 1) 425984
      iprop((((slot2).view.loc (thrT d L) ↦[(slot2).view.set]{fullShare}
              (slot2).view.writes (Elt F) f [⟨Rect.whole S104x128, SparseCore.gatherPayload gathers_S2600000x128_S104x128 (View.read (Elt F) (xAll).view tab)
                (SparseCore.rows (View.read (Elt F) ((sV).slice (Rect.unit (s := S3328) off S104.size hb) (fun _ => rfl)).view (idxAfter L sfl n)) hn hin)⟩])
          ∗ (((sV).slice (Rect.unit (s := S3328) off S104.size hb) (fun _ => rfl)).view.loc (thrT d L)
              ↦[((sV).slice (Rect.unit (s := S3328) off S104.size hb) (fun _ => rfl)).view.set]{fullShare} idxAfter L sfl n))
        ∗ ((xV).view.loc (thrT d L) ↦[(xAll).view.set]{Transfers.shareTok q 7 2} tab)) : sProp 𝕄)
      ⊢ inFlight2 d L q sfl tab j := by
  subst hsm
  unfold inFlight2
  exact fcanon_gen d L q sfl tab 2 _ _ rfl (SemLoc.dma cc0_scratch5.sem) 2 n j hj hjn hn3 hraw off hb hoff f hn hin

/-- The same once both passes are over. -/
theorem fcanon2 (hraw : ∀ p, (rawIdx L sfl p).toNat ≤ 99999) (j : ℕ) (hj : j < 32)
    (off : Fin 1 → ℕ) (hb : ∀ a, off a + S104.size a ≤ S3328.size a) (hoff : off = ![104 * j])
    (f : Buf (Elt F) ((slot2).view.loc (thrT d L)))
    (hn : S104.numel = S104x128.size gathers_S2600000x128_S104x128.axis')
    (hin : ∀ x, (((sV).slice (Rect.unit (s := S3328) off S104.size hb) (fun _ => rfl)).view.read (Elt F) (fixC L sfl) x).toNat
      < S2600000x128.size gathers_S2600000x128_S104x128.axis)
    (sm : SemLoc sig) (hsm : sm = SemLoc.dma cc0_scratch5.sem) :
    (Transfers.Flight countersEmb (thrT d L) sm (default : HIx 1) 425984
      iprop((((slot2).view.loc (thrT d L) ↦[(slot2).view.set]{fullShare}
              (slot2).view.writes (Elt F) f [⟨Rect.whole S104x128, SparseCore.gatherPayload gathers_S2600000x128_S104x128 (View.read (Elt F) (xAll).view tab)
                (SparseCore.rows (View.read (Elt F) ((sV).slice (Rect.unit (s := S3328) off S104.size hb) (fun _ => rfl)).view (fixC L sfl)) hn hin)⟩])
          ∗ (((sV).slice (Rect.unit (s := S3328) off S104.size hb) (fun _ => rfl)).view.loc (thrT d L)
              ↦[((sV).slice (Rect.unit (s := S3328) off S104.size hb) (fun _ => rfl)).view.set]{fullShare} fixC L sfl))
        ∗ ((xV).view.loc (thrT d L) ↦[(xAll).view.set]{Transfers.shareTok q 7 2} tab)) : sProp 𝕄)
      ⊢ inFlight2 d L q sfl tab j :=
  fcanon2_n d L q sfl tab hraw 3328 j hj (by omega) (Nat.le_refl _) off hb hoff f hn hin sm hsm

/-- Row buffer 3's gather of chunk j, issued when the positions below n have been moved, delivers what the invariant says. -/
theorem fcanon3_n (hraw : ∀ p, (rawIdx L sfl p).toNat ≤ 99999) (n j : ℕ) (hj : j < 32) (hjn : 104 * (j + 1) ≤ n) (hn3 : n ≤ 3328)
    (off : Fin 1 → ℕ) (hb : ∀ a, off a + S104.size a ≤ S3328.size a) (hoff : off = ![104 * j])
    (f : Buf (Elt F) ((slot3).view.loc (thrT d L)))
    (hn : S104.numel = S104x128.size gathers_S2600000x128_S104x128.axis')
    (hin : ∀ x, (((sV).slice (Rect.unit (s := S3328) off S104.size hb) (fun _ => rfl)).view.read (Elt F) (idxAfter L sfl n) x).toNat
      < S2600000x128.size gathers_S2600000x128_S104x128.axis)
    (sm : SemLoc sig) (hsm : sm = SemLoc.dma cc0_scratch6.sem) :
    (Transfers.Flight countersEmb (thrT d L) sm (default : HIx 1) 425984
      iprop((((slot3).view.loc (thrT d L) ↦[(slot3).view.set]{fullShare}
              (slot3).view.writes (Elt F) f [⟨Rect.whole S104x128, SparseCore.gatherPayload gathers_S2600000x128_S104x128 (View.read (Elt F) (xAll).view tab)
                (SparseCore.rows (View.read (Elt F) ((sV).slice (Rect.unit (s := S3328) off S104.size hb) (fun _ => rfl)).view (idxAfter L sfl n)) hn hin)⟩])
          ∗ (((sV).slice (Rect.unit (s := S3328) off S104.size hb) (fun _ => rfl)).view.loc (thrT d L)
              ↦[((sV).slice (Rect.unit (s := S3328) off S104.size hb) (fun _ => rfl)).view.set]{fullShare} idxAfter L sfl n))
        ∗ ((xV).view.loc (thrT d L) ↦[(xAll).view.set]{Transfers.shareTok q 7 3} tab)) : sProp 𝕄)
      ⊢ inFlight3 d L q sfl tab j := by
  subst hsm
  unfold inFlight3
  exact fcanon_gen d L q sfl tab 3 _ _ rfl (SemLoc.dma cc0_scratch6.sem) 3 n j hj hjn hn3 hraw off hb hoff f hn hin

/-- The same once both passes are over. -/
theorem fcanon3 (hraw : ∀ p, (rawIdx L sfl p).toNat ≤ 99999) (j : ℕ) (hj : j < 32)
    (off : Fin 1 → ℕ) (hb : ∀ a, off a + S104.size a ≤ S3328.size a) (hoff : off = ![104 * j])
    (f : Buf (Elt F) ((slot3).view.loc (thrT d L)))
    (hn : S104.numel = S104x128.size gathers_S2600000x128_S104x128.axis')
    (hin : ∀ x, (((sV).slice (Rect.unit (s := S3328) off S104.size hb) (fun _ => rfl)).view.read (Elt F) (fixC L sfl) x).toNat
      < S2600000x128.size gathers_S2600000x128_S104x128.axis)
    (sm : SemLoc sig) (hsm : sm = SemLoc.dma cc0_scratch6.sem) :
    (Transfers.Flight countersEmb (thrT d L) sm (default : HIx 1) 425984
      iprop((((slot3).view.loc (thrT d L) ↦[(slot3).view.set]{fullShare}
              (slot3).view.writes (Elt F) f [⟨Rect.whole S104x128, SparseCore.gatherPayload gathers_S2600000x128_S104x128 (View.read (Elt F) (xAll).view tab)
                (SparseCore.rows (View.read (Elt F) ((sV).slice (Rect.unit (s := S3328) off S104.size hb) (fun _ => rfl)).view (fixC L sfl)) hn hin)⟩])
          ∗ (((sV).slice (Rect.unit (s := S3328) off S104.size hb) (fun _ => rfl)).view.loc (thrT d L)
              ↦[((sV).slice (Rect.unit (s := S3328) off S104.size hb) (fun _ => rfl)).view.set]{fullShare} fixC L sfl))
        ∗ ((xV).view.loc (thrT d L) ↦[(xAll).view.set]{Transfers.shareTok q 7 3} tab)) : sProp 𝕄)
      ⊢ inFlight3 d L q sfl tab j :=
  fcanon3_n d L q sfl tab hraw 3328 j hj (by omega) (Nat.le_refl _) off hb hoff f hn hin sm hsm

end Cert.KI

end
-- ==== Proof.KIBagStmt.lean ====
/-
  The statement of one bag's work inside a sub-step of the draining loop (4 sub-steps, one per row buffer): what the loop
  over a chunk's 4 bags keeps, and the claim that one trip of it advances the out scratch by one row.
-/
import proofs.«207326_g40819369181559_retrytranche2_1852_22_alg».proof.Proof.KIInv

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.KernelIdeal.main_v0_scv : Memref Cert.KernelIdeal.sig Kind.scVector Space.hbm Cert.KernelIdeal.S106496 EltTy.i32)
local notation "xV" => (Memref.whole Cert.KernelIdeal.main_arg1_scv : Memref Cert.KernelIdeal.sig Kind.scVector Space.hbm Cert.KernelIdeal.S2600000x128 EltTy.f32)
local notation "oV" => (Memref.whole Cert.KernelIdeal.main_v1_scv : Memref Cert.KernelIdeal.sig Kind.scVector Space.hbm Cert.KernelIdeal.S4096x128 EltTy.f32)
local notation "sV" => (Memref.whole Cert.KernelIdeal.cc0_scratch0 : Memref Cert.KernelIdeal.sig Kind.scVector Space.vmem Cert.KernelIdeal.S3328 EltTy.i32)
local notation "rV" => (Memref.whole Cert.KernelIdeal.cc0_scratch1 : Memref Cert.KernelIdeal.sig Kind.scVector Space.vmem Cert.KernelIdeal.S4x104x128 EltTy.f32)
local notation "aV" => (Memref.whole Cert.KernelIdeal.cc0_scratch2 : Memref Cert.KernelIdeal.sig Kind.scVector Space.vmem Cert.KernelIdeal.S128x128 EltTy.f32)

variable [FloatOps F] [Named F]
variable (d : Dev nD) (L : grid0.Coords)

variable (sfl : IVec S106496 32) (tab : FVec F S2600000x128 .f32) (fa0 : S128x128.Idx → F .f32)

/-- Inside sub-step 0's loop over the chunk's 4 bags: the row buffer at the chunk's rows, the out scratch (all of it, or its
    lower half once the upper is lent to the copy) with b more rows done. -/
def bagInv0 (A : Finset S128x128.Idx) (t3 : Fin k0_t3_loop.trips) (b : ℕ) (_ : BitVec 32) : sProp 𝕄 :=
  iprop(((slot0).view.loc (thrT d L) ↦[(slot0).view.set]{fullShare} rowsFn L sfl tab (4 * t3.val + 0))
    ∗ ((aV).view.loc (thrT d L) ↦[A]{fullShare} outFn L sfl tab fa0 (16 * t3.val + 0 + b)))

/-- One bag of sub-step 0: 26 rows of the buffer summed left to right, scaled, stored to the bag's row of the out scratch. -/
def BagTrip0 : Prop :=
  ∀ (t3 : Fin k0_t3_loop.trips) (v1 v29 : BitVec 32) (A : Finset S128x128.Idx) (_ : A = Finset.univ ∨ (A = (aBot).view.set ∧ 4 ≤ t3.val))
    (b : Fin k0_t4_loop.trips) (acc : BitVec 32),
    bagInv0 d L sfl tab fa0 A t3 b.val acc
      ⊢ wp frame (wpE (defs₀ (F := F)) 𝒱₀ (thrT d L) none) Set.univ
          (k0_t4_body L iV (Memref.isWhole_whole _) xV (Memref.isWhole_whole _) oV (Memref.isWhole_whole _) sV (Memref.isWhole_whole _) rV (Memref.isWhole_whole _) aV (Memref.isWhole_whole _) cc0_scratch3 cc0_scratch4 cc0_scratch5 cc0_scratch6 cc0_scratch7 cc0_scoped0 cc0_scoped1 v1 0#32 1#32 t3 v29 b acc)
          (bagInv0 d L sfl tab fa0 A t3 (b.val + 1))

/-- Inside sub-step 1's loop over the chunk's 4 bags: the row buffer at the chunk's rows, the out scratch (all of it, or its
    lower half once the upper is lent to the copy) with b more rows done. -/
def bagInv1 (A : Finset S128x128.Idx) (t3 : Fin k0_t3_loop.trips) (b : ℕ) (_ : BitVec 32) : sProp 𝕄 :=
  iprop(((slot1).view.loc (thrT d L) ↦[(slot1).view.set]{fullShare} rowsFn L sfl tab (4 * t3.val + 1))
    ∗ ((aV).view.loc (thrT d L) ↦[A]{fullShare} outFn L sfl tab fa0 (16 * t3.val + 4 + b)))

/-- One bag of sub-step 1: 26 rows of the buffer summed left to right, scaled, stored to the bag's row of the out scratch. -/
def BagTrip1 : Prop :=
  ∀ (t3 : Fin k0_t3_loop.trips) (v1 v28 v45 : BitVec 32) (A : Finset S128x128.Idx) (_ : A = Finset.univ ∨ (A = (aBot).view.set ∧ 4 ≤ t3.val))
    (b : Fin k0_t5_loop.trips) (acc : BitVec 32),
    bagInv1 d L sfl tab fa0 A t3 b.val acc
      ⊢ wp frame (wpE (defs₀ (F := F)) 𝒱₀ (thrT d L) none) Set.univ
          (k0_t5_body L iV (Memref.isWhole_whole _) xV (Memref.isWhole_whole _) oV (Memref.isWhole_whole _) sV (Memref.isWhole_whole _) rV (Memref.isWhole_whole _) aV (Memref.isWhole_whole _) cc0_scratch3 cc0_scratch4 cc0_scratch5 cc0_scratch6 cc0_scratch7 cc0_scoped0 cc0_scoped1 v1 t3 v28 v45 b acc)
          (bagInv1 d L sfl tab fa0 A t3 (b.val + 1))

/-- Inside sub-step 2's loop over the chunk's 4 bags: the row buffer at the chunk's rows, the out scratch (all of it, or its
    lower half once the upper is lent to the copy) with b more rows done. -/
def bagInv2 (A : Finset S128x128.Idx) (t3 : Fin k0_t3_loop.trips) (b : ℕ) (_ : BitVec 32) : sProp 𝕄 :=
  iprop(((slot2).view.loc (thrT d L) ↦[(slot2).view.set]{fullShare} rowsFn L sfl tab (4 * t3.val + 2))
    ∗ ((aV).view.loc (thrT d L) ↦[A]{fullShare} outFn L sfl tab fa0 (16 * t3.val + 8 + b)))

/-- One bag of sub-step 2: 26 rows of the buffer summed left to right, scaled, stored to the bag's row of the out scratch. -/
def BagTrip2 : Prop :=
  ∀ (t3 : Fin k0_t3_loop.trips) (v1 v28 v45 v61 : BitVec 32) (A : Finset S128x128.Idx) (_ : A = Finset.univ ∨ (A = (aBot).view.set ∧ 4 ≤ t3.val))
    (b : Fin k0_t6_loop.trips) (acc : BitVec 32),
    bagInv2 d L sfl tab fa0 A t3 b.val acc
      ⊢ wp frame (wpE (defs₀ (F := F)) 𝒱₀ (thrT d L) none) Set.univ
          (k0_t6_body L iV (Memref.isWhole_whole _) xV (Memref.isWhole_whole _) oV (Memref.isWhole_whole _) sV (Memref.isWhole_whole _) rV (Memref.isWhole_whole _) aV (Memref.isWhole_whole _) cc0_scratch3 cc0_scratch4 cc0_scratch5 cc0_scratch6 cc0_scratch7 cc0_scoped0 cc0_scoped1 v1 t3 v28 v45 v61 b acc)
          (bagInv2 d L sfl tab fa0 A t3 (b.val + 1))

/-- Inside sub-step 3's loop over the chunk's 4 bags: the row buffer at the chunk's rows, the out scratch (all of it, or its
    lower half once the upper is lent to the copy) with b more rows done. -/
def bagInv3 (A : Finset S128x128.Idx) (t3 : Fin k0_t3_loop.trips) (b : ℕ) (_ : BitVec 32) : sProp 𝕄 :=
  iprop(((slot3).view.loc (thrT d L) ↦[(slot3).view.set]{fullShare} rowsFn L sfl tab (4 * t3.val + 3))
    ∗ ((aV).view.loc (thrT d L) ↦[A]{fullShare} outFn L sfl tab fa0 (16 * t3.val + 12 + b)))

/-- One bag of sub-step 3: 26 rows of the buffer summed left to right, scaled, stored to the bag's row of the out scratch. -/
def BagTrip3 : Prop :=
  ∀ (t3 : Fin k0_t3_loop.trips) (v77 : BitVec 32) (A : Finset S128x128.Idx) (_ : A = Finset.univ ∨ (A = (aBot).view.set ∧ 4 ≤ t3.val))
    (b : Fin k0_t7_loop.trips) (acc : BitVec 32),
    bagInv3 d L sfl tab fa0 A t3 b.val acc
      ⊢ wp frame (wpE (defs₀ (F := F)) 𝒱₀ (thrT d L) none) Set.univ
          (k0_t7_body L iV (Memref.isWhole_whole _) xV (Memref.isWhole_whole _) oV (Memref.isWhole_whole _) sV (Memref.isWhole_whole _) rV (Memref.isWhole_whole _) aV (Memref.isWhole_whole _) cc0_scratch3 cc0_scratch4 cc0_scratch5 cc0_scratch6 cc0_scratch7 cc0_scoped0 cc0_scoped1 t3 v77 b acc)
          (bagInv3 d L sfl tab fa0 A t3 (b.val + 1))

end Cert.KI

end
-- ==== Proof.KIRing.lean ====
/-
  One trip of the loop that drains the four row buffers, for one tile: from the invariant between trips t − 1 and t to the
  invariant between trips t and t + 1.

  A trip is four sub-steps s = 0 … 3, chunk j = 4 t + s. In each: if chunk j + 3 exists, its window of the index scratch
  is taken out of the windows held and its gather into buffer (s + 3) mod 4 is issued; the gather of chunk j into buffer s is
  waited for, which gives back buffer s at the chunk's rows, the chunk's window (put back among the windows held) and the
  buffer's read token of the table; the chunk's 4 bags are summed into rows 4 j … 4 j + 3 of the out scratch (one bag's work is
  a hypothesis here, proved apart). So a trip moves the three outstanding gathers from chunks 4 t … 4 t + 2 to chunks
  4 t + 4 … 4 t + 6, leaves buffer 3 idle again, and 16 more rows of the out scratch done. The trips come in four kinds:
  t ≤ 2 (the out scratch held whole throughout); t = 3 (at its end rows 0 … 63 are all done and their copy into the result's
  block starts: the upper half and the block go into the copy, the tile keeps the lower half); 4 ≤ t ≤ 6 (the stores go to
  the lower half); t = 7 (no chunk is left to gather after sub-step 0, so the buffers end idle and every window is back).
-/
import proofs.«207326_g40819369181559_retrytranche2_1852_22_alg».proof.Proof.KIBagStmt
import proofs.«207326_g40819369181559_retrytranche2_1852_22_alg».proof.Proof.KIGather
import proofs.«207326_g40819369181559_retrytranche2_1852_22_alg».proof.Proof.KISets

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.KernelIdeal.main_v0_scv : Memref Cert.KernelIdeal.sig Kind.scVector Space.hbm Cert.KernelIdeal.S106496 EltTy.i32)
local notation "xV" => (Memref.whole Cert.KernelIdeal.main_arg1_scv : Memref Cert.KernelIdeal.sig Kind.scVector Space.hbm Cert.KernelIdeal.S2600000x128 EltTy.f32)
local notation "oV" => (Memref.whole Cert.KernelIdeal.main_v1_scv : Memref Cert.KernelIdeal.sig Kind.scVector Space.hbm Cert.KernelIdeal.S4096x128 EltTy.f32)
local notation "sV" => (Memref.whole Cert.KernelIdeal.cc0_scratch0 : Memref Cert.KernelIdeal.sig Kind.scVector Space.vmem Cert.KernelIdeal.S3328 EltTy.i32)
local notation "rV" => (Memref.whole Cert.KernelIdeal.cc0_scratch1 : Memref Cert.KernelIdeal.sig Kind.scVector Space.vmem Cert.KernelIdeal.S4x104x128 EltTy.f32)
local notation "aV" => (Memref.whole Cert.KernelIdeal.cc0_scratch2 : Memref Cert.KernelIdeal.sig Kind.scVector Space.vmem Cert.KernelIdeal.S128x128 EltTy.f32)

variable [FloatOps F] [Named F]
variable (d : Dev nD) (L : grid0.Coords)

variable (q : PosShare TreeShare) (O : CellTallies nD τ sig (HIx 1)) (W : Waits sig (HIx 1))
variable (sfl : IVec S106496 32) (tab : FVec F S2600000x128 .f32) (fa0 : S128x128.Idx → F .f32) (o : FVec F S4096x128 .f32)

/-! ## Which branches a trip takes -/

theorem hc1_all : ∀ t : Fin k0_t3_loop.trips, k0_cond1 t = 1#1 := by decide +kernel
theorem hc3_le : ∀ t : Fin k0_t3_loop.trips, t.val ≤ 6 → k0_cond3 t = 1#1 := by decide +kernel
theorem hc5_le : ∀ t : Fin k0_t3_loop.trips, t.val ≤ 6 → k0_cond5 t = 1#1 := by decide +kernel
theorem hc7_le : ∀ t : Fin k0_t3_loop.trips, t.val ≤ 6 → k0_cond7 t = 1#1 := by decide +kernel
theorem hc3_last : ∀ t : Fin k0_t3_loop.trips, t.val = 7 → ¬ k0_cond3 t = 1#1 := by decide +kernel
theorem hc5_last : ∀ t : Fin k0_t3_loop.trips, t.val = 7 → ¬ k0_cond5 t = 1#1 := by decide +kernel
theorem hc7_last : ∀ t : Fin k0_t3_loop.trips, t.val = 7 → ¬ k0_cond7 t = 1#1 := by decide +kernel
theorem hc2_all : ∀ t : Fin k0_t3_loop.trips, ¬ k0_cond2 t = 1#1 := by decide +kernel
theorem hc4_all : ∀ t : Fin k0_t3_loop.trips, ¬ k0_cond4 t = 1#1 := by decide +kernel
theorem hc6_all : ∀ t : Fin k0_t3_loop.trips, ¬ k0_cond6 t = 1#1 := by decide +kernel
theorem hc8_three : ∀ t : Fin k0_t3_loop.trips, t.val = 3 → k0_cond8 t = 1#1 := by decide +kernel
theorem hc8_ne : ∀ t : Fin k0_t3_loop.trips, t.val ≠ 3 → ¬ k0_cond8 t = 1#1 := by decide +kernel

/-! ## The windows of the index scratch: one out, one back -/

/-- The windows held when chunks lo … lo + 3 are all being gathered. -/
def midSet (lo : ℕ) : Finset (Fin 32) := Finset.univ.filter fun j => j.val < lo ∨ lo + 4 ≤ j.val

omit [Named F] [FloatOps F] in
theorem wins_take (lo : ℕ) (h : lo + 3 < 32) :
    wins (F := F) d L sfl lo = iprop(winPts d L sfl (lo + 3) ∗ bigSep (midSet lo) fun j => winPts d L sfl j.val) := by
  unfold wins
  rw [show idleSet lo = insert (⟨lo + 3, h⟩ : Fin 32) (midSet lo) from by
      ext j; simp only [idleSet, midSet, Finset.mem_filter, Finset.mem_univ, true_and, Finset.mem_insert, Fin.ext_iff]; omega,
    SparseCore.bigSep_insert' (by simp only [midSet, Finset.mem_filter, Finset.mem_univ, true_and]; omega)]

omit [Named F] [FloatOps F] in
theorem wins_put (lo : ℕ) (h : lo + 3 < 32) :
    iprop(winPts d L sfl lo ∗ bigSep (midSet lo) fun j => winPts d L sfl j.val) = wins (F := F) d L sfl (lo + 1) := by
  unfold wins
  rw [show idleSet (lo + 1) = insert (⟨lo, by omega⟩ : Fin 32) (midSet lo) from by
      ext j; simp only [idleSet, midSet, Finset.mem_filter, Finset.mem_univ, true_and, Finset.mem_insert, Fin.ext_iff]; omega,
    SparseCore.bigSep_insert' (by simp only [midSet, Finset.mem_filter, Finset.mem_univ, true_and]; omega)]

omit [Named F] [FloatOps F] in
theorem wins_put_tail (lo : ℕ) (h1 : lo < 32) (h2 : 32 ≤ lo + 3) :
    iprop(winPts d L sfl lo ∗ wins (F := F) d L sfl lo) = wins (F := F) d L sfl (lo + 1) := by
  unfold wins
  rw [show idleSet (lo + 1) = insert (⟨lo, h1⟩ : Fin 32) (idleSet lo) from by
      ext j; have := j.isLt; simp only [idleSet, Finset.mem_filter, Finset.mem_univ, true_and, Finset.mem_insert, Fin.ext_iff]; omega,
    SparseCore.bigSep_insert' (by simp only [idleSet, Finset.mem_filter, Finset.mem_univ, true_and]; omega)]

/-! ## The four kinds of trip -/

set_option maxHeartbeats 8000000 in
set_option maxRecDepth 100000 in
/-- Trips 0, 1, 2. -/
theorem trip_early (hraw : ∀ p, (rawIdx L sfl p).toNat ≤ 99999)
    (hb0 : BagTrip0 d L sfl tab fa0) (hb1 : BagTrip1 d L sfl tab fa0) (hb2 : BagTrip2 d L sfl tab fa0) (hb3 : BagTrip3 d L sfl tab fa0)
    (v1 : BitVec 32) (t3 : Fin k0_t3_loop.trips) (ht : t3.val ≤ 2) (acc : BitVec 32) :
    ringInv d L q O W sfl tab fa0 o t3.val acc
      ⊢ wp frame (wpE (defs₀ (F := F)) 𝒱₀ (thrT d L) none) Set.univ
          (k0_t3_body L iV (Memref.isWhole_whole _) xV (Memref.isWhole_whole _) oV (Memref.isWhole_whole _) sV (Memref.isWhole_whole _) rV (Memref.isWhole_whole _) aV (Memref.isWhole_whole _) cc0_scratch3 cc0_scratch4 cc0_scratch5 cc0_scratch6 cc0_scratch7 cc0_scoped0 cc0_scoped1 v1 t3 acc)
          (ringInv d L q O W sfl tab fa0 o (t3.val + 1)) := by
  have ht3 : t3.val < 8 := lt_of_lt_of_le t3.isLt k0_t3_abs.2.1
  have hc2 : ¬ k0_cond2 t3 = 1#1 := hc2_all t3
  have hc4 : ¬ k0_cond4 t3 = 1#1 := hc4_all t3
  have hc6 : ¬ k0_cond6 t3 = 1#1 := hc6_all t3
  have hc1 : k0_cond1 t3 = 1#1 := hc1_all t3
  have hc3 : k0_cond3 t3 = 1#1 := hc3_le t3 (by omega)
  have hc5 : k0_cond5 t3 = 1#1 := hc5_le t3 (by omega)
  have hc7 : k0_cond7 t3 = 1#1 := hc7_le t3 (by omega)
  have hc8 : ¬ k0_cond8 t3 = 1#1 := hc8_ne t3 (by omega)
  have hoff4 : k0_off4 t3 = ![104 * (4 * t3.val + 0 + 3)] := by
    rw [k0_off4_eq, show 416 * t3.val + 312 = 104 * (4 * t3.val + 0 + 3) by omega]
  have hoff4m : k0_off4 t3 = ![104 * ((4 * t3.val + 0 + 3) % 32)] := by
    rw [hoff4, Nat.mod_eq_of_lt (show 4 * t3.val + 0 + 3 < 32 by omega)]
  have hin4 := win_inb (F := F) L sfl 3328 (4 * t3.val + 0 + 3) (by omega) (k0_off4 t3) (k0_off4_inb t3 hc1) hoff4 hraw
  have hoff31 : k0_off31 t3 = ![104 * (4 * t3.val + 1 + 3)] := by
    rw [k0_off31_eq, show 416 * t3.val + 416 = 104 * (4 * t3.val + 1 + 3) by omega]
  have hoff31m : k0_off31 t3 = ![104 * ((4 * t3.val + 1 + 3) % 32)] := by
    rw [hoff31, Nat.mod_eq_of_lt (show 4 * t3.val + 1 + 3 < 32 by omega)]
  have hin31 := win_inb (F := F) L sfl 3328 (4 * t3.val + 1 + 3) (by omega) (k0_off31 t3) (k0_off31_inb t3 hc3) hoff31 hraw
  have hoff57 : k0_off57 t3 = ![104 * (4 * t3.val + 2 + 3)] := by
    rw [k0_off57_eq, show 416 * t3.val + 520 = 104 * (4 * t3.val + 2 + 3) by omega]
  have hoff57m : k0_off57 t3 = ![104 * ((4 * t3.val + 2 + 3) % 32)] := by
    rw [hoff57, Nat.mod_eq_of_lt (show 4 * t3.val + 2 + 3 < 32 by omega)]
  have hin57 := win_inb (F := F) L sfl 3328 (4 * t3.val + 2 + 3) (by omega) (k0_off57 t3) (k0_off57_inb t3 hc5) hoff57 hraw
  have hoff83 : k0_off83 t3 = ![104 * (4 * t3.val + 3 + 3)] := by
    rw [k0_off83_eq, show 416 * t3.val + 624 = 104 * (4 * t3.val + 3 + 3) by omega]
  have hoff83m : k0_off83 t3 = ![104 * ((4 * t3.val + 3 + 3) % 32)] := by
    rw [hoff83, Nat.mod_eq_of_lt (show 4 * t3.val + 3 + 3 < 32 by omega)]
  have hin83 := win_inb (F := F) L sfl 3328 (4 * t3.val + 3 + 3) (by omega) (k0_off83 t3) (k0_off83_inb t3 hc7) hoff83 hraw
  generalize hpost : ringInv d L q O W sfl tab fa0 o (t3.val + 1) = Post
  unfold ringInv ringSlots aState
  rw [if_pos ht3, if_pos (by omega)]
  unfold inFlight0 inFlight1 inFlight2 idle3 aEarly
  unfold k0_t3_body
  iintro ⟨#Hmw, Hw, ⟨Hf0, Hf1, Hf2⟩, ⟨⟨%f3, Hr3⟩, Hx3, Hc3⟩, ⟨Ha, H7, Hot⟩, %W0, %hW0, HO⟩
  -- sub-step 0
  ihave Hw' := (Entails.of_eq (wins_take d L sfl (4 * t3.val + 0) (by omega))) $$ Hw
  icases Hw' with ⟨Hwin, Hmid⟩
  ihave Hwin := (Entails.of_eq (winPts_spell d L sfl ((4 * t3.val + 0) + 3) (k0_off4 t3) (k0_off4_inb t3 hc1) hoff4m).symm) $$ Hwin
  sl_exec
  sl_unfold_run_names
  iapply (Transfers.wp_waitLocalO countersEmb 𝒱₀ (thrT d L) none (default : HIx 1) (rfl : (slot0).view.dmaCredit = _)) $$ [Hf0 HO]
  · isplitl [Hf0]; · iexact Hf0
    isplitl [HO]; · iexact HO
    iapply (Transfers.MayWaits.elim (SemLoc.dma cc0_scratch3.sem)) $$ Hmw
  iintro ⟨⟨Hr0, Hwb, Hx0⟩, Hc0, HO⟩
  ihave Hw := (Entails.of_eq (wins_put d L sfl (4 * t3.val + 0) (by omega))) $$ [Hwb Hmid]
  · isplitl [Hwb] <;> iassumption
  sl_exec
  sl_for (bagInv0 d L sfl tab fa0 Finset.univ t3) $$ [Hr0 Ha]
  case region =>
    intro b acc'
    exact hb0 t3 v1 _ Finset.univ (Or.inl rfl) b acc'
  · unfold bagInv0
    isplitl [Hr0]
    · iexact Hr0
    iexact Ha
  iintro %acc0 HI
  have htr0 : Scf.trips k0_t4_loop.lb k0_t4_loop.ub k0_t4_loop.st = 4 := by decide
  rw [htr0]
  unfold bagInv0
  icases HI with ⟨Hr0, Ha⟩
  -- sub-step 1
  ihave Hw' := (Entails.of_eq (wins_take d L sfl (4 * t3.val + 1) (by omega))) $$ Hw
  icases Hw' with ⟨Hwin, Hmid⟩
  ihave Hwin := (Entails.of_eq (winPts_spell d L sfl ((4 * t3.val + 1) + 3) (k0_off31 t3) (k0_off31_inb t3 hc3) hoff31m).symm) $$ Hwin
  sl_exec
  sl_unfold_run_names
  iclear Hx0
  iapply (Transfers.wp_waitLocalO countersEmb 𝒱₀ (thrT d L) none (default : HIx 1) (rfl : (slot1).view.dmaCredit = _)) $$ [Hf1 HO]
  · isplitl [Hf1]; · iexact Hf1
    isplitl [HO]; · iexact HO
    iapply (Transfers.MayWaits.elim (SemLoc.dma cc0_scratch4.sem)) $$ Hmw
  iintro ⟨⟨Hr1, Hwb, Hx1⟩, Hc1, HO⟩
  ihave Hw := (Entails.of_eq (wins_put d L sfl (4 * t3.val + 1) (by omega))) $$ [Hwb Hmid]
  · isplitl [Hwb] <;> iassumption
  sl_exec
  sl_for (bagInv1 d L sfl tab fa0 Finset.univ t3) $$ [Hr1 Ha]
  case region =>
    intro b acc'
    exact hb1 t3 v1 _ _ Finset.univ (Or.inl rfl) b acc'
  · unfold bagInv1
    isplitl [Hr1]
    · iexact Hr1
    iexact Ha
  iintro %acc1 HI
  have htr1 : Scf.trips k0_t5_loop.lb k0_t5_loop.ub k0_t5_loop.st = 4 := by decide
  rw [htr1]
  unfold bagInv1
  icases HI with ⟨Hr1, Ha⟩
  -- sub-step 2
  ihave Hw' := (Entails.of_eq (wins_take d L sfl (4 * t3.val + 2) (by omega))) $$ Hw
  icases Hw' with ⟨Hwin, Hmid⟩
  ihave Hwin := (Entails.of_eq (winPts_spell d L sfl ((4 * t3.val + 2) + 3) (k0_off57 t3) (k0_off57_inb t3 hc5) hoff57m).symm) $$ Hwin
  sl_exec
  sl_unfold_run_names
  iclear Hx1
  iapply (Transfers.wp_waitLocalO countersEmb 𝒱₀ (thrT d L) none (default : HIx 1) (rfl : (slot2).view.dmaCredit = _)) $$ [Hf2 HO]
  · isplitl [Hf2]; · iexact Hf2
    isplitl [HO]; · iexact HO
    iapply (Transfers.MayWaits.elim (SemLoc.dma cc0_scratch5.sem)) $$ Hmw
  iintro ⟨⟨Hr2, Hwb, Hx2⟩, Hc2, HO⟩
  ihave Hw := (Entails.of_eq (wins_put d L sfl (4 * t3.val + 2) (by omega))) $$ [Hwb Hmid]
  · isplitl [Hwb] <;> iassumption
  sl_exec
  sl_for (bagInv2 d L sfl tab fa0 Finset.univ t3) $$ [Hr2 Ha]
  case region =>
    intro b acc'
    exact hb2 t3 v1 _ _ _ Finset.univ (Or.inl rfl) b acc'
  · unfold bagInv2
    isplitl [Hr2]
    · iexact Hr2
    iexact Ha
  iintro %acc2 HI
  have htr2 : Scf.trips k0_t6_loop.lb k0_t6_loop.ub k0_t6_loop.st = 4 := by decide
  rw [htr2]
  unfold bagInv2
  icases HI with ⟨Hr2, Ha⟩
  -- sub-step 3
  ihave Hw' := (Entails.of_eq (wins_take d L sfl (4 * t3.val + 3) (by omega))) $$ Hw
  icases Hw' with ⟨Hwin, Hmid⟩
  ihave Hwin := (Entails.of_eq (winPts_spell d L sfl ((4 * t3.val + 3) + 3) (k0_off83 t3) (k0_off83_inb t3 hc7) hoff83m).symm) $$ Hwin
  sl_exec
  sl_unfold_run_names
  iclear Hx2
  ihave Hwb := (Entails.of_eq (winPts_spell d L sfl (4 * t3.val + 0 + 3) (k0_off4 t3) (k0_off4_inb t3 hc1) hoff4m)) $$ Hwin
  ihave Hw := (Entails.of_eq (wins_put d L sfl (4 * t3.val + 3) (by omega))) $$ [Hwb Hmid]
  · isplitl [Hwb] <;> iassumption
  sl_for (bagInv3 d L sfl tab fa0 Finset.univ t3) $$ [Hr3 Ha]
  case region =>
    intro b acc'
    exact hb3 t3 _ Finset.univ (Or.inl rfl) b acc'
  · unfold bagInv3
    isplitl [Hr3]
    · iapply (Entails.of_eq (pointsTo_congr (slot_written L sfl tab 3 _ _ rfl 3328 (4 * t3.val + 0 + 3) (by omega) (by omega) hraw (k0_off4 t3) (k0_off4_inb t3 hc1) hoff4 _ rfl hin4)))
      iexact Hr3
    iexact Ha
  iintro %acc3 HI
  have htr3 : Scf.trips k0_t7_loop.lb k0_t7_loop.ub k0_t7_loop.st = 4 := by decide
  rw [htr3]
  unfold bagInv3
  icases HI with ⟨Hr3, Ha⟩
  sl_exec
  sl_step
  subst hpost
  unfold ringInv ringSlots aState
  rw [if_pos (show t3.val + 1 < 8 by omega), if_pos (show t3.val + 1 ≤ 3 by omega)]
  unfold idle3 aEarly
  isplitr
  · imodintro; iexact Hmw
  isplitl [Hw]
  · iapply (Entails.of_eq (congrArg (wins d L sfl) (show 4 * t3.val + 3 + 1 = 4 * (t3.val + 1) by omega)))
    iexact Hw
  isplitl [Hc0 Hc1 Hc2]
  · isplitl [Hc0]
    · iapply (fcanon0 d L q sfl tab hraw (4 * (t3.val + 1)) (by omega) (k0_off31 t3) (k0_off31_inb t3 hc3)
        (by rw [k0_off31_eq, show 416 * t3.val + 416 = 104 * (4 * (t3.val + 1)) by omega]) (rowsFn L sfl tab (4 * t3.val + 0)) rfl hin31 _ rfl)
      iexact Hc0
    isplitl [Hc1]
    · iapply (fcanon1 d L q sfl tab hraw (4 * (t3.val + 1) + 1) (by omega) (k0_off57 t3) (k0_off57_inb t3 hc5)
        (by rw [k0_off57_eq, show 416 * t3.val + 520 = 104 * (4 * (t3.val + 1) + 1) by omega]) (rowsFn L sfl tab (4 * t3.val + 1)) rfl hin57 _ rfl)
      iexact Hc1
    iapply (fcanon2 d L q sfl tab hraw (4 * (t3.val + 1) + 2) (by omega) (k0_off83 t3) (k0_off83_inb t3 hc7)
      (by rw [k0_off83_eq, show 416 * t3.val + 624 = 104 * (4 * (t3.val + 1) + 2) by omega]) (rowsFn L sfl tab (4 * t3.val + 2)) rfl hin83 _ rfl)
    iexact Hc2
  isplitl [Hr3 Hx3 Hc3]
  · isplitl [Hr3]; · iexists _; iexact Hr3
    isplitl [Hx3]; · iexact Hx3
    iexact Hc3
  isplitl [Ha H7 Hot]
  · isplitl [Ha]
    · iapply (Entails.of_eq (congrArg (fun n => ((aV).view.loc (thrT d L) ↦{fullShare} outFn L sfl tab fa0 n : sProp 𝕄)) (show 16 * t3.val + 12 + 4 = 16 * (t3.val + 1) by omega)))
      iexact Ha
    isplitl [H7]; · iexact H7
    iexact Hot
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW0 p hp

set_option maxHeartbeats 8000000 in
set_option maxRecDepth 100000 in
/-- Trip 3: at its end the copy of the upper half starts. -/
theorem trip_copy (hraw : ∀ p, (rawIdx L sfl p).toNat ≤ 99999)
    (hb0 : BagTrip0 d L sfl tab fa0) (hb1 : BagTrip1 d L sfl tab fa0) (hb2 : BagTrip2 d L sfl tab fa0) (hb3 : BagTrip3 d L sfl tab fa0)
    (v1 : BitVec 32) (t3 : Fin k0_t3_loop.trips) (ht : t3.val = 3) (acc : BitVec 32) :
    ringInv d L q O W sfl tab fa0 o t3.val acc
      ⊢ wp frame (wpE (defs₀ (F := F)) 𝒱₀ (thrT d L) none) Set.univ
          (k0_t3_body L iV (Memref.isWhole_whole _) xV (Memref.isWhole_whole _) oV (Memref.isWhole_whole _) sV (Memref.isWhole_whole _) rV (Memref.isWhole_whole _) aV (Memref.isWhole_whole _) cc0_scratch3 cc0_scratch4 cc0_scratch5 cc0_scratch6 cc0_scratch7 cc0_scoped0 cc0_scoped1 v1 t3 acc)
          (ringInv d L q O W sfl tab fa0 o (t3.val + 1)) := by
  have ht3 : t3.val < 8 := lt_of_lt_of_le t3.isLt k0_t3_abs.2.1
  have hc2 : ¬ k0_cond2 t3 = 1#1 := hc2_all t3
  have hc4 : ¬ k0_cond4 t3 = 1#1 := hc4_all t3
  have hc6 : ¬ k0_cond6 t3 = 1#1 := hc6_all t3
  have hc1 : k0_cond1 t3 = 1#1 := hc1_all t3
  have hc3 : k0_cond3 t3 = 1#1 := hc3_le t3 (by omega)
  have hc5 : k0_cond5 t3 = 1#1 := hc5_le t3 (by omega)
  have hc7 : k0_cond7 t3 = 1#1 := hc7_le t3 (by omega)
  have hc8 : k0_cond8 t3 = 1#1 := hc8_three t3 ht
  have hoff4 : k0_off4 t3 = ![104 * (4 * t3.val + 0 + 3)] := by
    rw [k0_off4_eq, show 416 * t3.val + 312 = 104 * (4 * t3.val + 0 + 3) by omega]
  have hoff4m : k0_off4 t3 = ![104 * ((4 * t3.val + 0 + 3) % 32)] := by
    rw [hoff4, Nat.mod_eq_of_lt (show 4 * t3.val + 0 + 3 < 32 by omega)]
  have hin4 := win_inb (F := F) L sfl 3328 (4 * t3.val + 0 + 3) (by omega) (k0_off4 t3) (k0_off4_inb t3 hc1) hoff4 hraw
  have hoff31 : k0_off31 t3 = ![104 * (4 * t3.val + 1 + 3)] := by
    rw [k0_off31_eq, show 416 * t3.val + 416 = 104 * (4 * t3.val + 1 + 3) by omega]
  have hoff31m : k0_off31 t3 = ![104 * ((4 * t3.val + 1 + 3) % 32)] := by
    rw [hoff31, Nat.mod_eq_of_lt (show 4 * t3.val + 1 + 3 < 32 by omega)]
  have hin31 := win_inb (F := F) L sfl 3328 (4 * t3.val + 1 + 3) (by omega) (k0_off31 t3) (k0_off31_inb t3 hc3) hoff31 hraw
  have hoff57 : k0_off57 t3 = ![104 * (4 * t3.val + 2 + 3)] := by
    rw [k0_off57_eq, show 416 * t3.val + 520 = 104 * (4 * t3.val + 2 + 3) by omega]
  have hoff57m : k0_off57 t3 = ![104 * ((4 * t3.val + 2 + 3) % 32)] := by
    rw [hoff57, Nat.mod_eq_of_lt (show 4 * t3.val + 2 + 3 < 32 by omega)]
  have hin57 := win_inb (F := F) L sfl 3328 (4 * t3.val + 2 + 3) (by omega) (k0_off57 t3) (k0_off57_inb t3 hc5) hoff57 hraw
  have hoff83 : k0_off83 t3 = ![104 * (4 * t3.val + 3 + 3)] := by
    rw [k0_off83_eq, show 416 * t3.val + 624 = 104 * (4 * t3.val + 3 + 3) by omega]
  have hoff83m : k0_off83 t3 = ![104 * ((4 * t3.val + 3 + 3) % 32)] := by
    rw [hoff83, Nat.mod_eq_of_lt (show 4 * t3.val + 3 + 3 < 32 by omega)]
  have hin83 := win_inb (F := F) L sfl 3328 (4 * t3.val + 3 + 3) (by omega) (k0_off83 t3) (k0_off83_inb t3 hc7) hoff83 hraw
  generalize hpost : ringInv d L q O W sfl tab fa0 o (t3.val + 1) = Post
  unfold ringInv ringSlots aState
  rw [if_pos ht3, if_pos (by omega)]
  unfold inFlight0 inFlight1 inFlight2 idle3 aEarly
  unfold k0_t3_body
  iintro ⟨#Hmw, Hw, ⟨Hf0, Hf1, Hf2⟩, ⟨⟨%f3, Hr3⟩, Hx3, Hc3⟩, ⟨Ha, H7, Hot⟩, %W0, %hW0, HO⟩
  -- sub-step 0
  ihave Hw' := (Entails.of_eq (wins_take d L sfl (4 * t3.val + 0) (by omega))) $$ Hw
  icases Hw' with ⟨Hwin, Hmid⟩
  ihave Hwin := (Entails.of_eq (winPts_spell d L sfl ((4 * t3.val + 0) + 3) (k0_off4 t3) (k0_off4_inb t3 hc1) hoff4m).symm) $$ Hwin
  sl_exec
  sl_unfold_run_names
  iapply (Transfers.wp_waitLocalO countersEmb 𝒱₀ (thrT d L) none (default : HIx 1) (rfl : (slot0).view.dmaCredit = _)) $$ [Hf0 HO]
  · isplitl [Hf0]; · iexact Hf0
    isplitl [HO]; · iexact HO
    iapply (Transfers.MayWaits.elim (SemLoc.dma cc0_scratch3.sem)) $$ Hmw
  iintro ⟨⟨Hr0, Hwb, Hx0⟩, Hc0, HO⟩
  ihave Hw := (Entails.of_eq (wins_put d L sfl (4 * t3.val + 0) (by omega))) $$ [Hwb Hmid]
  · isplitl [Hwb] <;> iassumption
  sl_exec
  sl_for (bagInv0 d L sfl tab fa0 Finset.univ t3) $$ [Hr0 Ha]
  case region =>
    intro b acc'
    exact hb0 t3 v1 _ Finset.univ (Or.inl rfl) b acc'
  · unfold bagInv0
    isplitl [Hr0]
    · iexact Hr0
    iexact Ha
  iintro %acc0 HI
  have htr0 : Scf.trips k0_t4_loop.lb k0_t4_loop.ub k0_t4_loop.st = 4 := by decide
  rw [htr0]
  unfold bagInv0
  icases HI with ⟨Hr0, Ha⟩
  -- sub-step 1
  ihave Hw' := (Entails.of_eq (wins_take d L sfl (4 * t3.val + 1) (by omega))) $$ Hw
  icases Hw' with ⟨Hwin, Hmid⟩
  ihave Hwin := (Entails.of_eq (winPts_spell d L sfl ((4 * t3.val + 1) + 3) (k0_off31 t3) (k0_off31_inb t3 hc3) hoff31m).symm) $$ Hwin
  sl_exec
  sl_unfold_run_names
  iclear Hx0
  iapply (Transfers.wp_waitLocalO countersEmb 𝒱₀ (thrT d L) none (default : HIx 1) (rfl : (slot1).view.dmaCredit = _)) $$ [Hf1 HO]
  · isplitl [Hf1]; · iexact Hf1
    isplitl [HO]; · iexact HO
    iapply (Transfers.MayWaits.elim (SemLoc.dma cc0_scratch4.sem)) $$ Hmw
  iintro ⟨⟨Hr1, Hwb, Hx1⟩, Hc1, HO⟩
  ihave Hw := (Entails.of_eq (wins_put d L sfl (4 * t3.val + 1) (by omega))) $$ [Hwb Hmid]
  · isplitl [Hwb] <;> iassumption
  sl_exec
  sl_for (bagInv1 d L sfl tab fa0 Finset.univ t3) $$ [Hr1 Ha]
  case region =>
    intro b acc'
    exact hb1 t3 v1 _ _ Finset.univ (Or.inl rfl) b acc'
  · unfold bagInv1
    isplitl [Hr1]
    · iexact Hr1
    iexact Ha
  iintro %acc1 HI
  have htr1 : Scf.trips k0_t5_loop.lb k0_t5_loop.ub k0_t5_loop.st = 4 := by decide
  rw [htr1]
  unfold bagInv1
  icases HI with ⟨Hr1, Ha⟩
  -- sub-step 2
  ihave Hw' := (Entails.of_eq (wins_take d L sfl (4 * t3.val + 2) (by omega))) $$ Hw
  icases Hw' with ⟨Hwin, Hmid⟩
  ihave Hwin := (Entails.of_eq (winPts_spell d L sfl ((4 * t3.val + 2) + 3) (k0_off57 t3) (k0_off57_inb t3 hc5) hoff57m).symm) $$ Hwin
  sl_exec
  sl_unfold_run_names
  iclear Hx1
  iapply (Transfers.wp_waitLocalO countersEmb 𝒱₀ (thrT d L) none (default : HIx 1) (rfl : (slot2).view.dmaCredit = _)) $$ [Hf2 HO]
  · isplitl [Hf2]; · iexact Hf2
    isplitl [HO]; · iexact HO
    iapply (Transfers.MayWaits.elim (SemLoc.dma cc0_scratch5.sem)) $$ Hmw
  iintro ⟨⟨Hr2, Hwb, Hx2⟩, Hc2, HO⟩
  ihave Hw := (Entails.of_eq (wins_put d L sfl (4 * t3.val + 2) (by omega))) $$ [Hwb Hmid]
  · isplitl [Hwb] <;> iassumption
  sl_exec
  sl_for (bagInv2 d L sfl tab fa0 Finset.univ t3) $$ [Hr2 Ha]
  case region =>
    intro b acc'
    exact hb2 t3 v1 _ _ _ Finset.univ (Or.inl rfl) b acc'
  · unfold bagInv2
    isplitl [Hr2]
    · iexact Hr2
    iexact Ha
  iintro %acc2 HI
  have htr2 : Scf.trips k0_t6_loop.lb k0_t6_loop.ub k0_t6_loop.st = 4 := by decide
  rw [htr2]
  unfold bagInv2
  icases HI with ⟨Hr2, Ha⟩
  -- sub-step 3
  ihave Hw' := (Entails.of_eq (wins_take d L sfl (4 * t3.val + 3) (by omega))) $$ Hw
  icases Hw' with ⟨Hwin, Hmid⟩
  ihave Hwin := (Entails.of_eq (winPts_spell d L sfl ((4 * t3.val + 3) + 3) (k0_off83 t3) (k0_off83_inb t3 hc7) hoff83m).symm) $$ Hwin
  sl_exec
  sl_unfold_run_names
  iclear Hx2
  ihave Hwb := (Entails.of_eq (winPts_spell d L sfl (4 * t3.val + 0 + 3) (k0_off4 t3) (k0_off4_inb t3 hc1) hoff4m)) $$ Hwin
  ihave Hw := (Entails.of_eq (wins_put d L sfl (4 * t3.val + 3) (by omega))) $$ [Hwb Hmid]
  · isplitl [Hwb] <;> iassumption
  sl_for (bagInv3 d L sfl tab fa0 Finset.univ t3) $$ [Hr3 Ha]
  case region =>
    intro b acc'
    exact hb3 t3 _ Finset.univ (Or.inl rfl) b acc'
  · unfold bagInv3
    isplitl [Hr3]
    · iapply (Entails.of_eq (pointsTo_congr (slot_written L sfl tab 3 _ _ rfl 3328 (4 * t3.val + 0 + 3) (by omega) (by omega) hraw (k0_off4 t3) (k0_off4_inb t3 hc1) hoff4 _ rfl hin4)))
      iexact Hr3
    iexact Ha
  iintro %acc3 HI
  have htr3 : Scf.trips k0_t7_loop.lb k0_t7_loop.ub k0_t7_loop.st = 4 := by decide
  rw [htr3]
  unfold bagInv3
  icases HI with ⟨Hr3, Ha⟩
  sl_exec
  sl_step
  subst hpost
  unfold ringInv ringSlots aState
  rw [if_pos (show t3.val + 1 < 8 by omega), if_neg (show ¬ (t3.val + 1 ≤ 3) by omega)]
  unfold idle3 aLate
  isplitr
  · imodintro; iexact Hmw
  isplitl [Hw]
  · iapply (Entails.of_eq (congrArg (wins d L sfl) (show 4 * t3.val + 3 + 1 = 4 * (t3.val + 1) by omega)))
    iexact Hw
  isplitl [Hc0 Hc1 Hc2]
  · isplitl [Hc0]
    · iapply (fcanon0 d L q sfl tab hraw (4 * (t3.val + 1)) (by omega) (k0_off31 t3) (k0_off31_inb t3 hc3)
        (by rw [k0_off31_eq, show 416 * t3.val + 416 = 104 * (4 * (t3.val + 1)) by omega]) (rowsFn L sfl tab (4 * t3.val + 0)) rfl hin31 _ rfl)
      iexact Hc0
    isplitl [Hc1]
    · iapply (fcanon1 d L q sfl tab hraw (4 * (t3.val + 1) + 1) (by omega) (k0_off57 t3) (k0_off57_inb t3 hc5)
        (by rw [k0_off57_eq, show 416 * t3.val + 520 = 104 * (4 * (t3.val + 1) + 1) by omega]) (rowsFn L sfl tab (4 * t3.val + 1)) rfl hin57 _ rfl)
      iexact Hc1
    iapply (fcanon2 d L q sfl tab hraw (4 * (t3.val + 1) + 2) (by omega) (k0_off83 t3) (k0_off83_inb t3 hc7)
      (by rw [k0_off83_eq, show 416 * t3.val + 624 = 104 * (4 * (t3.val + 1) + 2) by omega]) (rowsFn L sfl tab (4 * t3.val + 2)) rfl hin83 _ rfl)
    iexact Hc2
  isplitl [Hr3 Hx3 Hc3]
  · isplitl [Hr3]; · iexists _; iexact Hr3
    isplitl [Hx3]; · iexact Hx3
    iexact Hc3
  isplitl [Ha H7]
  · have e64 : 16 * t3.val + 12 + 4 = 64 := by omega
    have e64' : 16 * (t3.val + 1) = 64 := by omega
    isplitl [Ha]
    · iapply (Entails.of_eq (show ((aV).view.loc (thrT d L) ↦[Finset.univ \ (aTop).view.set]{fullShare} outFn L sfl tab fa0 (16 * t3.val + 12 + 4) : sProp 𝕄)
          = ((aV).view.loc (thrT d L) ↦[(aBot).view.set]{fullShare} outFn L sfl tab fa0 (16 * (t3.val + 1))) by rw [aBot_set, e64, e64']))
      iexact Ha
    unfold copyFlight
    sl_unfold_run_names
    rw [e64]
    iexact H7
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW0 p hp

set_option maxHeartbeats 8000000 in
set_option maxRecDepth 100000 in
/-- Trips 4, 5, 6. -/
theorem trip_late (hraw : ∀ p, (rawIdx L sfl p).toNat ≤ 99999)
    (hb0 : BagTrip0 d L sfl tab fa0) (hb1 : BagTrip1 d L sfl tab fa0) (hb2 : BagTrip2 d L sfl tab fa0) (hb3 : BagTrip3 d L sfl tab fa0)
    (v1 : BitVec 32) (t3 : Fin k0_t3_loop.trips) (ht : 4 ≤ t3.val ∧ t3.val ≤ 6) (acc : BitVec 32) :
    ringInv d L q O W sfl tab fa0 o t3.val acc
      ⊢ wp frame (wpE (defs₀ (F := F)) 𝒱₀ (thrT d L) none) Set.univ
          (k0_t3_body L iV (Memref.isWhole_whole _) xV (Memref.isWhole_whole _) oV (Memref.isWhole_whole _) sV (Memref.isWhole_whole _) rV (Memref.isWhole_whole _) aV (Memref.isWhole_whole _) cc0_scratch3 cc0_scratch4 cc0_scratch5 cc0_scratch6 cc0_scratch7 cc0_scoped0 cc0_scoped1 v1 t3 acc)
          (ringInv d L q O W sfl tab fa0 o (t3.val + 1)) := by
  have ht3 : t3.val < 8 := lt_of_lt_of_le t3.isLt k0_t3_abs.2.1
  have hc2 : ¬ k0_cond2 t3 = 1#1 := hc2_all t3
  have hc4 : ¬ k0_cond4 t3 = 1#1 := hc4_all t3
  have hc6 : ¬ k0_cond6 t3 = 1#1 := hc6_all t3
  have hc1 : k0_cond1 t3 = 1#1 := hc1_all t3
  have hc3 : k0_cond3 t3 = 1#1 := hc3_le t3 (by omega)
  have hc5 : k0_cond5 t3 = 1#1 := hc5_le t3 (by omega)
  have hc7 : k0_cond7 t3 = 1#1 := hc7_le t3 (by omega)
  have hc8 : ¬ k0_cond8 t3 = 1#1 := hc8_ne t3 (by omega)
  have hoff4 : k0_off4 t3 = ![104 * (4 * t3.val + 0 + 3)] := by
    rw [k0_off4_eq, show 416 * t3.val + 312 = 104 * (4 * t3.val + 0 + 3) by omega]
  have hoff4m : k0_off4 t3 = ![104 * ((4 * t3.val + 0 + 3) % 32)] := by
    rw [hoff4, Nat.mod_eq_of_lt (show 4 * t3.val + 0 + 3 < 32 by omega)]
  have hin4 := win_inb (F := F) L sfl 3328 (4 * t3.val + 0 + 3) (by omega) (k0_off4 t3) (k0_off4_inb t3 hc1) hoff4 hraw
  have hoff31 : k0_off31 t3 = ![104 * (4 * t3.val + 1 + 3)] := by
    rw [k0_off31_eq, show 416 * t3.val + 416 = 104 * (4 * t3.val + 1 + 3) by omega]
  have hoff31m : k0_off31 t3 = ![104 * ((4 * t3.val + 1 + 3) % 32)] := by
    rw [hoff31, Nat.mod_eq_of_lt (show 4 * t3.val + 1 + 3 < 32 by omega)]
  have hin31 := win_inb (F := F) L sfl 3328 (4 * t3.val + 1 + 3) (by omega) (k0_off31 t3) (k0_off31_inb t3 hc3) hoff31 hraw
  have hoff57 : k0_off57 t3 = ![104 * (4 * t3.val + 2 + 3)] := by
    rw [k0_off57_eq, show 416 * t3.val + 520 = 104 * (4 * t3.val + 2 + 3) by omega]
  have hoff57m : k0_off57 t3 = ![104 * ((4 * t3.val + 2 + 3) % 32)] := by
    rw [hoff57, Nat.mod_eq_of_lt (show 4 * t3.val + 2 + 3 < 32 by omega)]
  have hin57 := win_inb (F := F) L sfl 3328 (4 * t3.val + 2 + 3) (by omega) (k0_off57 t3) (k0_off57_inb t3 hc5) hoff57 hraw
  have hoff83 : k0_off83 t3 = ![104 * (4 * t3.val + 3 + 3)] := by
    rw [k0_off83_eq, show 416 * t3.val + 624 = 104 * (4 * t3.val + 3 + 3) by omega]
  have hoff83m : k0_off83 t3 = ![104 * ((4 * t3.val + 3 + 3) % 32)] := by
    rw [hoff83, Nat.mod_eq_of_lt (show 4 * t3.val + 3 + 3 < 32 by omega)]
  have hin83 := win_inb (F := F) L sfl 3328 (4 * t3.val + 3 + 3) (by omega) (k0_off83 t3) (k0_off83_inb t3 hc7) hoff83 hraw
  generalize hpost : ringInv d L q O W sfl tab fa0 o (t3.val + 1) = Post
  unfold ringInv ringSlots aState
  rw [if_pos ht3, if_neg (by omega)]
  unfold inFlight0 inFlight1 inFlight2 idle3 aLate
  unfold k0_t3_body
  iintro ⟨#Hmw, Hw, ⟨Hf0, Hf1, Hf2⟩, ⟨⟨%f3, Hr3⟩, Hx3, Hc3⟩, ⟨Ha, Hcf⟩, %W0, %hW0, HO⟩
  -- sub-step 0
  ihave Hw' := (Entails.of_eq (wins_take d L sfl (4 * t3.val + 0) (by omega))) $$ Hw
  icases Hw' with ⟨Hwin, Hmid⟩
  ihave Hwin := (Entails.of_eq (winPts_spell d L sfl ((4 * t3.val + 0) + 3) (k0_off4 t3) (k0_off4_inb t3 hc1) hoff4m).symm) $$ Hwin
  sl_exec
  sl_unfold_run_names
  iapply (Transfers.wp_waitLocalO countersEmb 𝒱₀ (thrT d L) none (default : HIx 1) (rfl : (slot0).view.dmaCredit = _)) $$ [Hf0 HO]
  · isplitl [Hf0]; · iexact Hf0
    isplitl [HO]; · iexact HO
    iapply (Transfers.MayWaits.elim (SemLoc.dma cc0_scratch3.sem)) $$ Hmw
  iintro ⟨⟨Hr0, Hwb, Hx0⟩, Hc0, HO⟩
  ihave Hw := (Entails.of_eq (wins_put d L sfl (4 * t3.val + 0) (by omega))) $$ [Hwb Hmid]
  · isplitl [Hwb] <;> iassumption
  sl_exec
  sl_for (bagInv0 d L sfl tab fa0 (aBot).view.set t3) $$ [Hr0 Ha]
  case region =>
    intro b acc'
    exact hb0 t3 v1 _ (aBot).view.set (Or.inr ⟨rfl, by omega⟩) b acc'
  · unfold bagInv0
    isplitl [Hr0]
    · iexact Hr0
    iexact Ha
  iintro %acc0 HI
  have htr0 : Scf.trips k0_t4_loop.lb k0_t4_loop.ub k0_t4_loop.st = 4 := by decide
  rw [htr0]
  unfold bagInv0
  icases HI with ⟨Hr0, Ha⟩
  -- sub-step 1
  ihave Hw' := (Entails.of_eq (wins_take d L sfl (4 * t3.val + 1) (by omega))) $$ Hw
  icases Hw' with ⟨Hwin, Hmid⟩
  ihave Hwin := (Entails.of_eq (winPts_spell d L sfl ((4 * t3.val + 1) + 3) (k0_off31 t3) (k0_off31_inb t3 hc3) hoff31m).symm) $$ Hwin
  sl_exec
  sl_unfold_run_names
  iclear Hx0
  iapply (Transfers.wp_waitLocalO countersEmb 𝒱₀ (thrT d L) none (default : HIx 1) (rfl : (slot1).view.dmaCredit = _)) $$ [Hf1 HO]
  · isplitl [Hf1]; · iexact Hf1
    isplitl [HO]; · iexact HO
    iapply (Transfers.MayWaits.elim (SemLoc.dma cc0_scratch4.sem)) $$ Hmw
  iintro ⟨⟨Hr1, Hwb, Hx1⟩, Hc1, HO⟩
  ihave Hw := (Entails.of_eq (wins_put d L sfl (4 * t3.val + 1) (by omega))) $$ [Hwb Hmid]
  · isplitl [Hwb] <;> iassumption
  sl_exec
  sl_for (bagInv1 d L sfl tab fa0 (aBot).view.set t3) $$ [Hr1 Ha]
  case region =>
    intro b acc'
    exact hb1 t3 v1 _ _ (aBot).view.set (Or.inr ⟨rfl, by omega⟩) b acc'
  · unfold bagInv1
    isplitl [Hr1]
    · iexact Hr1
    iexact Ha
  iintro %acc1 HI
  have htr1 : Scf.trips k0_t5_loop.lb k0_t5_loop.ub k0_t5_loop.st = 4 := by decide
  rw [htr1]
  unfold bagInv1
  icases HI with ⟨Hr1, Ha⟩
  -- sub-step 2
  ihave Hw' := (Entails.of_eq (wins_take d L sfl (4 * t3.val + 2) (by omega))) $$ Hw
  icases Hw' with ⟨Hwin, Hmid⟩
  ihave Hwin := (Entails.of_eq (winPts_spell d L sfl ((4 * t3.val + 2) + 3) (k0_off57 t3) (k0_off57_inb t3 hc5) hoff57m).symm) $$ Hwin
  sl_exec
  sl_unfold_run_names
  iclear Hx1
  iapply (Transfers.wp_waitLocalO countersEmb 𝒱₀ (thrT d L) none (default : HIx 1) (rfl : (slot2).view.dmaCredit = _)) $$ [Hf2 HO]
  · isplitl [Hf2]; · iexact Hf2
    isplitl [HO]; · iexact HO
    iapply (Transfers.MayWaits.elim (SemLoc.dma cc0_scratch5.sem)) $$ Hmw
  iintro ⟨⟨Hr2, Hwb, Hx2⟩, Hc2, HO⟩
  ihave Hw := (Entails.of_eq (wins_put d L sfl (4 * t3.val + 2) (by omega))) $$ [Hwb Hmid]
  · isplitl [Hwb] <;> iassumption
  sl_exec
  sl_for (bagInv2 d L sfl tab fa0 (aBot).view.set t3) $$ [Hr2 Ha]
  case region =>
    intro b acc'
    exact hb2 t3 v1 _ _ _ (aBot).view.set (Or.inr ⟨rfl, by omega⟩) b acc'
  · unfold bagInv2
    isplitl [Hr2]
    · iexact Hr2
    iexact Ha
  iintro %acc2 HI
  have htr2 : Scf.trips k0_t6_loop.lb k0_t6_loop.ub k0_t6_loop.st = 4 := by decide
  rw [htr2]
  unfold bagInv2
  icases HI with ⟨Hr2, Ha⟩
  -- sub-step 3
  ihave Hw' := (Entails.of_eq (wins_take d L sfl (4 * t3.val + 3) (by omega))) $$ Hw
  icases Hw' with ⟨Hwin, Hmid⟩
  ihave Hwin := (Entails.of_eq (winPts_spell d L sfl ((4 * t3.val + 3) + 3) (k0_off83 t3) (k0_off83_inb t3 hc7) hoff83m).symm) $$ Hwin
  sl_exec
  sl_unfold_run_names
  iclear Hx2
  ihave Hwb := (Entails.of_eq (winPts_spell d L sfl (4 * t3.val + 0 + 3) (k0_off4 t3) (k0_off4_inb t3 hc1) hoff4m)) $$ Hwin
  ihave Hw := (Entails.of_eq (wins_put d L sfl (4 * t3.val + 3) (by omega))) $$ [Hwb Hmid]
  · isplitl [Hwb] <;> iassumption
  sl_for (bagInv3 d L sfl tab fa0 (aBot).view.set t3) $$ [Hr3 Ha]
  case region =>
    intro b acc'
    exact hb3 t3 _ (aBot).view.set (Or.inr ⟨rfl, by omega⟩) b acc'
  · unfold bagInv3
    isplitl [Hr3]
    · iapply (Entails.of_eq (pointsTo_congr (slot_written L sfl tab 3 _ _ rfl 3328 (4 * t3.val + 0 + 3) (by omega) (by omega) hraw (k0_off4 t3) (k0_off4_inb t3 hc1) hoff4 _ rfl hin4)))
      iexact Hr3
    iexact Ha
  iintro %acc3 HI
  have htr3 : Scf.trips k0_t7_loop.lb k0_t7_loop.ub k0_t7_loop.st = 4 := by decide
  rw [htr3]
  unfold bagInv3
  icases HI with ⟨Hr3, Ha⟩
  sl_exec
  sl_step
  subst hpost
  unfold ringInv ringSlots aState
  rw [if_pos (show t3.val + 1 < 8 by omega), if_neg (show ¬ (t3.val + 1 ≤ 3) by omega)]
  unfold idle3 aLate
  isplitr
  · imodintro; iexact Hmw
  isplitl [Hw]
  · iapply (Entails.of_eq (congrArg (wins d L sfl) (show 4 * t3.val + 3 + 1 = 4 * (t3.val + 1) by omega)))
    iexact Hw
  isplitl [Hc0 Hc1 Hc2]
  · isplitl [Hc0]
    · iapply (fcanon0 d L q sfl tab hraw (4 * (t3.val + 1)) (by omega) (k0_off31 t3) (k0_off31_inb t3 hc3)
        (by rw [k0_off31_eq, show 416 * t3.val + 416 = 104 * (4 * (t3.val + 1)) by omega]) (rowsFn L sfl tab (4 * t3.val + 0)) rfl hin31 _ rfl)
      iexact Hc0
    isplitl [Hc1]
    · iapply (fcanon1 d L q sfl tab hraw (4 * (t3.val + 1) + 1) (by omega) (k0_off57 t3) (k0_off57_inb t3 hc5)
        (by rw [k0_off57_eq, show 416 * t3.val + 520 = 104 * (4 * (t3.val + 1) + 1) by omega]) (rowsFn L sfl tab (4 * t3.val + 1)) rfl hin57 _ rfl)
      iexact Hc1
    iapply (fcanon2 d L q sfl tab hraw (4 * (t3.val + 1) + 2) (by omega) (k0_off83 t3) (k0_off83_inb t3 hc7)
      (by rw [k0_off83_eq, show 416 * t3.val + 624 = 104 * (4 * (t3.val + 1) + 2) by omega]) (rowsFn L sfl tab (4 * t3.val + 2)) rfl hin83 _ rfl)
    iexact Hc2
  isplitl [Hr3 Hx3 Hc3]
  · isplitl [Hr3]; · iexists _; iexact Hr3
    isplitl [Hx3]; · iexact Hx3
    iexact Hc3
  isplitl [Ha Hcf]
  · isplitl [Ha]
    · iapply (Entails.of_eq (congrArg (fun n => ((aV).view.loc (thrT d L) ↦[(aBot).view.set]{fullShare} outFn L sfl tab fa0 n : sProp 𝕄)) (show 16 * t3.val + 12 + 4 = 16 * (t3.val + 1) by omega)))
      iexact Ha
    iexact Hcf
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW0 p hp

set_option maxHeartbeats 8000000 in
set_option maxRecDepth 100000 in
/-- Trip 7. -/
theorem trip_last (hraw : ∀ p, (rawIdx L sfl p).toNat ≤ 99999)
    (hb0 : BagTrip0 d L sfl tab fa0) (hb1 : BagTrip1 d L sfl tab fa0) (hb2 : BagTrip2 d L sfl tab fa0) (hb3 : BagTrip3 d L sfl tab fa0)
    (v1 : BitVec 32) (t3 : Fin k0_t3_loop.trips) (ht : t3.val = 7) (acc : BitVec 32) :
    ringInv d L q O W sfl tab fa0 o t3.val acc
      ⊢ wp frame (wpE (defs₀ (F := F)) 𝒱₀ (thrT d L) none) Set.univ
          (k0_t3_body L iV (Memref.isWhole_whole _) xV (Memref.isWhole_whole _) oV (Memref.isWhole_whole _) sV (Memref.isWhole_whole _) rV (Memref.isWhole_whole _) aV (Memref.isWhole_whole _) cc0_scratch3 cc0_scratch4 cc0_scratch5 cc0_scratch6 cc0_scratch7 cc0_scoped0 cc0_scoped1 v1 t3 acc)
          (ringInv d L q O W sfl tab fa0 o (t3.val + 1)) := by
  have ht3 : t3.val < 8 := lt_of_lt_of_le t3.isLt k0_t3_abs.2.1
  have hc2 : ¬ k0_cond2 t3 = 1#1 := hc2_all t3
  have hc4 : ¬ k0_cond4 t3 = 1#1 := hc4_all t3
  have hc6 : ¬ k0_cond6 t3 = 1#1 := hc6_all t3
  have hc1 : k0_cond1 t3 = 1#1 := hc1_all t3
  have hc3 : ¬ k0_cond3 t3 = 1#1 := hc3_last t3 ht
  have hc5 : ¬ k0_cond5 t3 = 1#1 := hc5_last t3 ht
  have hc7 : ¬ k0_cond7 t3 = 1#1 := hc7_last t3 ht
  have hc8 : ¬ k0_cond8 t3 = 1#1 := hc8_ne t3 (by omega)
  have hoff4 : k0_off4 t3 = ![104 * (4 * t3.val + 0 + 3)] := by
    rw [k0_off4_eq, show 416 * t3.val + 312 = 104 * (4 * t3.val + 0 + 3) by omega]
  have hoff4m : k0_off4 t3 = ![104 * ((4 * t3.val + 0 + 3) % 32)] := by
    rw [hoff4, Nat.mod_eq_of_lt (show 4 * t3.val + 0 + 3 < 32 by omega)]
  have hin4 := win_inb (F := F) L sfl 3328 (4 * t3.val + 0 + 3) (by omega) (k0_off4 t3) (k0_off4_inb t3 hc1) hoff4 hraw
  generalize hpost : ringInv d L q O W sfl tab fa0 o (t3.val + 1) = Post
  unfold ringInv ringSlots aState
  rw [if_pos ht3, if_neg (by omega)]
  unfold inFlight0 inFlight1 inFlight2 idle3 aLate
  unfold k0_t3_body
  iintro ⟨#Hmw, Hw, ⟨Hf0, Hf1, Hf2⟩, ⟨⟨%f3, Hr3⟩, Hx3, Hc3⟩, ⟨Ha, Hcf⟩, %W0, %hW0, HO⟩
  -- sub-step 0
  ihave Hw' := (Entails.of_eq (wins_take d L sfl (4 * t3.val + 0) (by omega))) $$ Hw
  icases Hw' with ⟨Hwin, Hmid⟩
  ihave Hwin := (Entails.of_eq (winPts_spell d L sfl ((4 * t3.val + 0) + 3) (k0_off4 t3) (k0_off4_inb t3 hc1) hoff4m).symm) $$ Hwin
  sl_exec
  sl_unfold_run_names
  iapply (Transfers.wp_waitLocalO countersEmb 𝒱₀ (thrT d L) none (default : HIx 1) (rfl : (slot0).view.dmaCredit = _)) $$ [Hf0 HO]
  · isplitl [Hf0]; · iexact Hf0
    isplitl [HO]; · iexact HO
    iapply (Transfers.MayWaits.elim (SemLoc.dma cc0_scratch3.sem)) $$ Hmw
  iintro ⟨⟨Hr0, Hwb, Hx0⟩, Hc0, HO⟩
  ihave Hw := (Entails.of_eq (wins_put d L sfl (4 * t3.val + 0) (by omega))) $$ [Hwb Hmid]
  · isplitl [Hwb] <;> iassumption
  sl_exec
  sl_for (bagInv0 d L sfl tab fa0 (aBot).view.set t3) $$ [Hr0 Ha]
  case region =>
    intro b acc'
    exact hb0 t3 v1 _ (aBot).view.set (Or.inr ⟨rfl, by omega⟩) b acc'
  · unfold bagInv0
    isplitl [Hr0]
    · iexact Hr0
    iexact Ha
  iintro %acc0 HI
  have htr0 : Scf.trips k0_t4_loop.lb k0_t4_loop.ub k0_t4_loop.st = 4 := by decide
  rw [htr0]
  unfold bagInv0
  icases HI with ⟨Hr0, Ha⟩
  -- sub-step 1
  sl_exec
  iapply (Transfers.wp_waitLocalO countersEmb 𝒱₀ (thrT d L) none (default : HIx 1) (rfl : (slot1).view.dmaCredit = _)) $$ [Hf1 HO]
  · isplitl [Hf1]; · iexact Hf1
    isplitl [HO]; · iexact HO
    iapply (Transfers.MayWaits.elim (SemLoc.dma cc0_scratch4.sem)) $$ Hmw
  iintro ⟨⟨Hr1, Hwb, Hx1⟩, Hc1, HO⟩
  ihave Hw := (Entails.of_eq (wins_put_tail d L sfl (4 * t3.val + 1) (by omega) (by omega))) $$ [Hwb Hw]
  · isplitl [Hwb] <;> iassumption
  sl_exec
  sl_for (bagInv1 d L sfl tab fa0 (aBot).view.set t3) $$ [Hr1 Ha]
  case region =>
    intro b acc'
    exact hb1 t3 v1 _ _ (aBot).view.set (Or.inr ⟨rfl, by omega⟩) b acc'
  · unfold bagInv1
    isplitl [Hr1]
    · iexact Hr1
    iexact Ha
  iintro %acc1 HI
  have htr1 : Scf.trips k0_t5_loop.lb k0_t5_loop.ub k0_t5_loop.st = 4 := by decide
  rw [htr1]
  unfold bagInv1
  icases HI with ⟨Hr1, Ha⟩
  -- sub-step 2
  sl_exec
  iapply (Transfers.wp_waitLocalO countersEmb 𝒱₀ (thrT d L) none (default : HIx 1) (rfl : (slot2).view.dmaCredit = _)) $$ [Hf2 HO]
  · isplitl [Hf2]; · iexact Hf2
    isplitl [HO]; · iexact HO
    iapply (Transfers.MayWaits.elim (SemLoc.dma cc0_scratch5.sem)) $$ Hmw
  iintro ⟨⟨Hr2, Hwb, Hx2⟩, Hc2, HO⟩
  ihave Hw := (Entails.of_eq (wins_put_tail d L sfl (4 * t3.val + 2) (by omega) (by omega))) $$ [Hwb Hw]
  · isplitl [Hwb] <;> iassumption
  sl_exec
  sl_for (bagInv2 d L sfl tab fa0 (aBot).view.set t3) $$ [Hr2 Ha]
  case region =>
    intro b acc'
    exact hb2 t3 v1 _ _ _ (aBot).view.set (Or.inr ⟨rfl, by omega⟩) b acc'
  · unfold bagInv2
    isplitl [Hr2]
    · iexact Hr2
    iexact Ha
  iintro %acc2 HI
  have htr2 : Scf.trips k0_t6_loop.lb k0_t6_loop.ub k0_t6_loop.st = 4 := by decide
  rw [htr2]
  unfold bagInv2
  icases HI with ⟨Hr2, Ha⟩
  -- sub-step 3
  sl_exec
  ihave Hwb := (Entails.of_eq (winPts_spell d L sfl (4 * t3.val + 0 + 3) (k0_off4 t3) (k0_off4_inb t3 hc1) hoff4m)) $$ Hwin
  ihave Hw := (Entails.of_eq (wins_put_tail d L sfl (4 * t3.val + 3) (by omega) (by omega))) $$ [Hwb Hw]
  · isplitl [Hwb] <;> iassumption
  sl_for (bagInv3 d L sfl tab fa0 (aBot).view.set t3) $$ [Hr3 Ha]
  case region =>
    intro b acc'
    exact hb3 t3 _ (aBot).view.set (Or.inr ⟨rfl, by omega⟩) b acc'
  · unfold bagInv3
    isplitl [Hr3]
    · iapply (Entails.of_eq (pointsTo_congr (slot_written L sfl tab 3 _ _ rfl 3328 (4 * t3.val + 0 + 3) (by omega) (by omega) hraw (k0_off4 t3) (k0_off4_inb t3 hc1) hoff4 _ rfl hin4)))
      iexact Hr3
    iexact Ha
  iintro %acc3 HI
  have htr3 : Scf.trips k0_t7_loop.lb k0_t7_loop.ub k0_t7_loop.st = 4 := by decide
  rw [htr3]
  unfold bagInv3
  icases HI with ⟨Hr3, Ha⟩
  sl_exec
  sl_step
  subst hpost
  unfold ringInv ringSlots aState
  rw [if_neg (show ¬ (t3.val + 1 < 8) by omega), if_neg (show ¬ (t3.val + 1 ≤ 3) by omega)]
  unfold idle0 idle1 idle2 idle3 aLate
  isplitr
  · imodintro; iexact Hmw
  isplitl [Hw]
  · iapply (Entails.of_eq (congrArg (wins d L sfl) (show 4 * t3.val + 3 + 1 = 4 * (t3.val + 1) by omega)))
    iexact Hw
  isplitl [Hr0 Hx0 Hc0 Hr1 Hx1 Hc1 Hr2 Hx2 Hc2]
  · isplitl [Hr0 Hx0 Hc0]
    · isplitl [Hr0]; · iexists _; iexact Hr0
      isplitl [Hx0]; · iexact Hx0
      iexact Hc0
    isplitl [Hr1 Hx1 Hc1]
    · isplitl [Hr1]; · iexists _; iexact Hr1
      isplitl [Hx1]; · iexact Hx1
      iexact Hc1
    isplitl [Hr2]; · iexists _; iexact Hr2
    isplitl [Hx2]; · iexact Hx2
    iexact Hc2
  isplitl [Hr3 Hx3 Hc3]
  · isplitl [Hr3]; · iexists _; iexact Hr3
    isplitl [Hx3]; · iexact Hx3
    iexact Hc3
  isplitl [Ha Hcf]
  · isplitl [Ha]
    · iapply (Entails.of_eq (congrArg (fun n => ((aV).view.loc (thrT d L) ↦[(aBot).view.set]{fullShare} outFn L sfl tab fa0 n : sProp 𝕄)) (show 16 * t3.val + 12 + 4 = 16 * (t3.val + 1) by omega)))
      iexact Ha
    iexact Hcf
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW0 p hp

set_option maxHeartbeats 8000000 in
set_option maxRecDepth 100000 in
/-- One trip of the loop, whichever kind. -/
theorem ring_trip (hraw : ∀ p, (rawIdx L sfl p).toNat ≤ 99999)
    (hb0 : BagTrip0 d L sfl tab fa0) (hb1 : BagTrip1 d L sfl tab fa0) (hb2 : BagTrip2 d L sfl tab fa0) (hb3 : BagTrip3 d L sfl tab fa0)
    (v1 : BitVec 32) (t3 : Fin k0_t3_loop.trips) (acc : BitVec 32) :
    ringInv d L q O W sfl tab fa0 o t3.val acc
      ⊢ wp frame (wpE (defs₀ (F := F)) 𝒱₀ (thrT d L) none) Set.univ
          (k0_t3_body L iV (Memref.isWhole_whole _) xV (Memref.isWhole_whole _) oV (Memref.isWhole_whole _) sV (Memref.isWhole_whole _) rV (Memref.isWhole_whole _) aV (Memref.isWhole_whole _) cc0_scratch3 cc0_scratch4 cc0_scratch5 cc0_scratch6 cc0_scratch7 cc0_scoped0 cc0_scoped1 v1 t3 acc)
          (ringInv d L q O W sfl tab fa0 o (t3.val + 1)) := by
  have ht3 : t3.val < 8 := lt_of_lt_of_le t3.isLt k0_t3_abs.2.1
  by_cases h2 : t3.val ≤ 2
  · exact trip_early d L q O W sfl tab fa0 o hraw hb0 hb1 hb2 hb3 v1 t3 h2 acc
  by_cases h3 : t3.val = 3
  · exact trip_copy d L q O W sfl tab fa0 o hraw hb0 hb1 hb2 hb3 v1 t3 h3 acc
  by_cases h7 : t3.val = 7
  · exact trip_last d L q O W sfl tab fa0 o hraw hb0 hb1 hb2 hb3 v1 t3 h7 acc
  · exact trip_late d L q O W sfl tab fa0 o hraw hb0 hb1 hb2 hb3 v1 t3 ⟨by omega, by omega⟩ acc

end Cert.KI

end
-- ==== Proof.KIBagLib.lean ====
/-
  Two facts the four bag loops share: a load of 16 lanes from the row scratch, held at a chunk's gathered rows, reads
  the table at the row its field names; and storing one more bag's scaled sum into its row of the out scratch advances
  the out scratch by one row.
-/
import proofs.«207326_g40819369181559_retrytranche2_1852_22_alg».proof.Proof.KIInv
import Idealize.ShloMosaic.Lib.Pipeline.Value

noncomputable section

namespace Cert.KI

open Cert.KernelIdeal Cert.KernelIdeal.Gen
open Idealize.ShloMosaic Idealize.ShloMosaic.ValueIdx

variable {F : FTy → Type} [FloatOps F] [Named F]

local notation "rV" => (Memref.whole Cert.KernelIdeal.cc0_scratch1 : Memref Cert.KernelIdeal.sig Kind.scVector Space.vmem Cert.KernelIdeal.S4x104x128 EltTy.f32)

/-- A load of 16 lanes at (K, r, c) from the row scratch held at chunk j's rows, read at lane y: the table at the row that
    field r mod 26 of the chunk's bag r / 26 names, column c + y — whichever buffer K. -/
theorem load_eq (L : grid0.Coords) (sfl : IVec S106496 32) (tab : FVec F S2600000x128 .f32) (j : ℕ) (off : Fin 3 → ℕ)
    (hb : ∀ a, off a + S1x1x16.size a ≤ S4x104x128.size a) (K r c : ℕ) (hoff : off = ![K, r, c]) (hc : c + 16 ≤ 128)
    (hsc : S1x1x16.ShapeCasts S16) (y : S16.Idx) :
    shapeCast S16 (View.readAt (Elt F) (rV).view (Rect.unit (s := S4x104x128) off S1x1x16.size hb).toLoadRect (rowsFn L sfl tab j)) hsc y
      = tab (ix2 (krow sfl (128 * wid L + 4 * j + r / 26) (r % 26))
          (⟨c + (y 0).val, by have h : (y 0).val < 16 := (y 0).isLt; omega⟩ : Fin 128)) := by
  subst hoff
  have hy : (y 0).val < 16 := (y 0).isLt
  have hx := Shape.rowMajor_reshapeEquiv hsc y
  rw [Shape.rowMajor_val_three, Shape.rowMajor_val_one] at hx
  have h0 : ((Shape.reshapeEquiv hsc y) 0).val < 1 := ((Shape.reshapeEquiv hsc y) 0).isLt
  have h1 : ((Shape.reshapeEquiv hsc y) 1).val < 1 := ((Shape.reshapeEquiv hsc y) 1).isLt
  have hx' : (((Shape.reshapeEquiv hsc y) 0).val * 1 + ((Shape.reshapeEquiv hsc y) 1).val) * 16 + ((Shape.reshapeEquiv hsc y) 2).val = (y 0).val := hx
  show rowsFn L sfl tab j ((Rect.unit (s := S4x104x128) ![K, r, c] S1x1x16.size hb).toLoadRect.idx (Shape.reshapeEquiv hsc y)) = _
  unfold rowsFn
  have i1 : (((Rect.unit (s := S4x104x128) ![K, r, c] S1x1x16.size hb).toLoadRect.idx (Shape.reshapeEquiv hsc y)) 1).val = r := by
    show r + 1 * ((Shape.reshapeEquiv hsc y) 1).val = r; omega
  have i2 : ((Rect.unit (s := S4x104x128) ![K, r, c] S1x1x16.size hb).toLoadRect.idx (Shape.reshapeEquiv hsc y)) 2
      = (⟨c + (y 0).val, by omega⟩ : Fin 128) := Fin.ext (by
    show c + 1 * ((Shape.reshapeEquiv hsc y) 2).val = c + (y 0).val; omega)
  simp only [i1]
  rw [i2]

/-- Row n of the out scratch set to bag 128 w + n's scaled sum, over the out scratch with n rows done, is the out scratch
    with n + 1 rows done. -/
theorem outFn_step (L : grid0.Coords) (sfl : IVec S106496 32) (tab : FVec F S2600000x128 .f32) (fa0 : S128x128.Idx → F .f32) (n : ℕ) :
    (fun i : S128x128.Idx => if (i 0).val = n then FloatOps.mulf (accTo (fun f => tab (ix2 (krow sfl (128 * wid L + n) f) (i 1))) 25) (cstK (F := F))
      else outFn L sfl tab fa0 n i) = outFn L sfl tab fa0 (n + 1) := by
  funext i
  unfold outFn
  by_cases h : (i 0).val = n
  · rw [if_pos h, if_pos (by omega), h]
  · rw [if_neg h]
    by_cases h2 : (i 0).val < n
    · rw [if_pos h2, if_pos (by omega)]
    · rw [if_neg h2, if_neg (by omega)]

end Cert.KI

end
-- ==== Proof.KIChain.lean ====
/-
  One bag's 26 rows summed the way the kernel sums them: a chain of 26 sixteen-lane loads from the row scratch, added left to
  right. Read at a lane, the chain is the left-to-right sum of the 26 table rows the bag's fields name, at that column.
-/
import proofs.«207326_g40819369181559_retrytranche2_1852_22_alg».proof.Proof.KIBagLib
import Idealize.ShloMosaic.Lib.ValueLayout

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.KernelIdeal.main_v0_scv : Memref Cert.KernelIdeal.sig Kind.scVector Space.hbm Cert.KernelIdeal.S106496 EltTy.i32)
local notation "xV" => (Memref.whole Cert.KernelIdeal.main_arg1_scv : Memref Cert.KernelIdeal.sig Kind.scVector Space.hbm Cert.KernelIdeal.S2600000x128 EltTy.f32)
local notation "oV" => (Memref.whole Cert.KernelIdeal.main_v1_scv : Memref Cert.KernelIdeal.sig Kind.scVector Space.hbm Cert.KernelIdeal.S4096x128 EltTy.f32)
local notation "sV" => (Memref.whole Cert.KernelIdeal.cc0_scratch0 : Memref Cert.KernelIdeal.sig Kind.scVector Space.vmem Cert.KernelIdeal.S3328 EltTy.i32)
local notation "rV" => (Memref.whole Cert.KernelIdeal.cc0_scratch1 : Memref Cert.KernelIdeal.sig Kind.scVector Space.vmem Cert.KernelIdeal.S4x104x128 EltTy.f32)
local notation "aV" => (Memref.whole Cert.KernelIdeal.cc0_scratch2 : Memref Cert.KernelIdeal.sig Kind.scVector Space.vmem Cert.KernelIdeal.S128x128 EltTy.f32)

variable [FloatOps F] [Named F]
variable (L : grid0.Coords)
variable (sfl : IVec S106496 32) (tab : FVec F S2600000x128 .f32)

open Idealize.ShloMosaic.ValueIdx

/-- The sum of the loads of rows 26 b … 26 b + n of a slot, lanes c … c + 15: field 0's load at offsets o0, field f's at oF f. -/
def chainG (j : ℕ) (o0 : Fin 3 → ℕ) (hb0 : ∀ a, o0 a + S1x1x16.size a ≤ S4x104x128.size a)
    (oF : BitVec 32 → Fin 3 → ℕ) (hbF : ∀ r : Fin 25, ∀ a, oF (BitVec.ofNat 32 (1 + r.val)) a + S1x1x16.size a ≤ S4x104x128.size a) :
    (n : ℕ) → n ≤ 25 → FVec F S16 .f32
  | 0, _ => shapeCast S16 (View.readAt (Elt F) (rV).view (Rect.unit (s := S4x104x128) o0 S1x1x16.size hb0).toLoadRect (rowsFn L sfl tab j)) shapeCasts_S1x1x16_S16
  | n + 1, h => addf (chainG j o0 hb0 oF hbF n (by omega))
      (shapeCast S16 (View.readAt (Elt F) (rV).view (Rect.unit (s := S4x104x128) (oF (BitVec.ofNat 32 (1 + n))) S1x1x16.size (hbF ⟨n, by omega⟩)).toLoadRect (rowsFn L sfl tab j)) shapeCasts_S1x1x16_S16)

theorem chain_val (j K b c : ℕ) (hc : c + 16 ≤ 128) (o0 : Fin 3 → ℕ) (hb0 : ∀ a, o0 a + S1x1x16.size a ≤ S4x104x128.size a)
    (oF : BitVec 32 → Fin 3 → ℕ) (hbF : ∀ r : Fin 25, ∀ a, oF (BitVec.ofNat 32 (1 + r.val)) a + S1x1x16.size a ≤ S4x104x128.size a)
    (h0 : o0 = ![K, 26 * b, c]) (hF : ∀ r : Fin 25, oF (BitVec.ofNat 32 (1 + r.val)) = ![K, 26 * b + r.val + 1, c])
    (y : S16.Idx) : ∀ (n : ℕ) (hn : n ≤ 25),
      chainG (F := F) L sfl tab j o0 hb0 oF hbF n hn y
        = accTo (fun f => tab (ix2 (krow sfl (128 * wid L + 4 * j + b) f) (⟨c + (y 0).val, by have h16 : (y 0).val < 16 := (y 0).isLt; omega⟩ : Fin 128))) n
  | 0, _ => by
    unfold chainG accTo
    rw [load_eq (F := F) L sfl tab j o0 hb0 K (26 * b) c h0 hc shapeCasts_S1x1x16_S16 y]
    rw [show 26 * b / 26 = b by omega, show 26 * b % 26 = 0 by omega]
  | n + 1, hn => by
    unfold chainG accTo
    show FloatOps.addf (chainG (F := F) L sfl tab j o0 hb0 oF hbF n (by omega) y) _ = _
    rw [chain_val j K b c hc o0 hb0 oF hbF h0 hF y n (by omega),
      load_eq (F := F) L sfl tab j _ (hbF ⟨n, by omega⟩) K (26 * b + n + 1) c (hF ⟨n, by omega⟩) hc shapeCasts_S1x1x16_S16 y]
    rw [show (26 * b + n + 1) / 26 = b by omega, show (26 * b + n + 1) % 26 = n + 1 by omega]

/-- What a lane group stores for a bag: the chain of its 26 loads, scaled by the constant, as a 1 × 16 vector. -/
def payG (j : ℕ) (o0 : Fin 3 → ℕ) (hb0 : ∀ a, o0 a + S1x1x16.size a ≤ S4x104x128.size a)
    (oF : BitVec 32 → Fin 3 → ℕ) (hbF : ∀ r : Fin 25, ∀ a, oF (BitVec.ofNat 32 (1 + r.val)) a + S1x1x16.size a ≤ S4x104x128.size a) :
    S1x16.Idx → F .f32 :=
  shapeCast S1x16 (mulf (chainG (F := F) L sfl tab j o0 hb0 oF hbF 25 le_rfl) (broadcast S16 (cstK (F := F)))) shapeCasts_S16_S1x16

/-- At lane y it is the bag's 26 table rows at column c + y summed left to right, times the constant. -/
theorem payG_apply (j K b c : ℕ) (hc : c + 16 ≤ 128) (o0 : Fin 3 → ℕ) (hb0 : ∀ a, o0 a + S1x1x16.size a ≤ S4x104x128.size a)
    (oF : BitVec 32 → Fin 3 → ℕ) (hbF : ∀ r : Fin 25, ∀ a, oF (BitVec.ofNat 32 (1 + r.val)) a + S1x1x16.size a ≤ S4x104x128.size a)
    (h0 : o0 = ![K, 26 * b, c]) (hF : ∀ r : Fin 25, oF (BitVec.ofNat 32 (1 + r.val)) = ![K, 26 * b + r.val + 1, c])
    (y : S1x16.Idx) (h : c + (y 1).val < 128) :
    payG (F := F) L sfl tab j o0 hb0 oF hbF y
      = FloatOps.mulf (accTo (fun f => tab (ix2 (krow sfl (128 * wid L + 4 * j + b) f) (⟨c + (y 1).val, h⟩ : Fin 128))) 25) (cstK (F := F)) := by
  obtain ⟨u, i, rfl⟩ : ∃ (u : Fin 1) (i : Fin 16), y = ix2 u i := ⟨y 0, y 1, eq_ix2 y⟩
  unfold payG
  rw [Idealize.ShloMosaic.ValueIdx.shapeCast_a_1a_apply]
  show FloatOps.mulf (chainG (F := F) L sfl tab j o0 hb0 oF hbF 25 le_rfl (ix1 i)) (cstK (F := F)) = _
  rw [chain_val (F := F) L sfl tab j K b c hc o0 hb0 oF hbF h0 hF (ix1 i) 25 le_rfl]

end Cert.KI

end
-- ==== Proof.KIBag0.lean ====
/-
  One bag of sub-step 0 of the draining loop: row buffer 0 holds a chunk's 104 gathered rows; the bag's 26 rows are loaded
  sixteen lanes at a time, summed left to right in eight lane groups, scaled by the constant and stored to the bag's row of
  the out scratch. The eight stores leave, in that row, the scaled left-to-right sums of the 26 table rows the bag's fields
  name, and leave the other rows as they were.
-/
import proofs.«207326_g40819369181559_retrytranche2_1852_22_alg».proof.Proof.KIBagStmt
import proofs.«207326_g40819369181559_retrytranche2_1852_22_alg».proof.Proof.KISets
import proofs.«207326_g40819369181559_retrytranche2_1852_22_alg».proof.Proof.KIChain

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.KernelIdeal.main_v0_scv : Memref Cert.KernelIdeal.sig Kind.scVector Space.hbm Cert.KernelIdeal.S106496 EltTy.i32)
local notation "xV" => (Memref.whole Cert.KernelIdeal.main_arg1_scv : Memref Cert.KernelIdeal.sig Kind.scVector Space.hbm Cert.KernelIdeal.S2600000x128 EltTy.f32)
local notation "oV" => (Memref.whole Cert.KernelIdeal.main_v1_scv : Memref Cert.KernelIdeal.sig Kind.scVector Space.hbm Cert.KernelIdeal.S4096x128 EltTy.f32)
local notation "sV" => (Memref.whole Cert.KernelIdeal.cc0_scratch0 : Memref Cert.KernelIdeal.sig Kind.scVector Space.vmem Cert.KernelIdeal.S3328 EltTy.i32)
local notation "rV" => (Memref.whole Cert.KernelIdeal.cc0_scratch1 : Memref Cert.KernelIdeal.sig Kind.scVector Space.vmem Cert.KernelIdeal.S4x104x128 EltTy.f32)
local notation "aV" => (Memref.whole Cert.KernelIdeal.cc0_scratch2 : Memref Cert.KernelIdeal.sig Kind.scVector Space.vmem Cert.KernelIdeal.S128x128 EltTy.f32)

variable [FloatOps F] [Named F]
variable (d : Dev nD) (L : grid0.Coords)
variable (sfl : IVec S106496 32) (tab : FVec F S2600000x128 .f32) (fa0 : S128x128.Idx → F .f32)

open Idealize.ShloMosaic.ValueIdx

omit [FloatOps F] [Named F] in
theorem forall_fin8_0 (P : Fin 8 → Prop) (h0 : P 0) (h1 : P 1) (h2 : P 2) (h3 : P 3) (h4 : P 4) (h5 : P 5) (h6 : P 6) (h7 : P 7) : ∀ k, P k := by
  intro k
  match k with
  | ⟨0, _⟩ => exact h0
  | ⟨1, _⟩ => exact h1
  | ⟨2, _⟩ => exact h2
  | ⟨3, _⟩ => exact h3
  | ⟨4, _⟩ => exact h4
  | ⟨5, _⟩ => exact h5
  | ⟨6, _⟩ => exact h6
  | ⟨7, _⟩ => exact h7

/-- The eight stores of one bag, on any prior contents g of the out scratch. -/
theorem bag0_writes (t3 : Fin k0_t3_loop.trips) (b : Fin k0_t4_loop.trips) (g : S128x128.Idx → F .f32) :
    (aV).view.writes (Elt F) g
      [⟨Rect.unit (s := S128x128) (k0_off29 t3 b) S1x16.size (k0_off29_inb t3 b), payG (F := F) L sfl tab (4 * t3.val + 0) (k0_off21 b) (k0_off21_inb b) (k0_off25 b) (k0_off25_inb b)⟩,
       ⟨Rect.unit (s := S128x128) (k0_off28 t3 b) S1x16.size (k0_off28_inb t3 b), payG (F := F) L sfl tab (4 * t3.val + 0) (k0_off20 b) (k0_off20_inb b) (k0_off24 b) (k0_off24_inb b)⟩,
       ⟨Rect.unit (s := S128x128) (k0_off27 t3 b) S1x16.size (k0_off27_inb t3 b), payG (F := F) L sfl tab (4 * t3.val + 0) (k0_off19 b) (k0_off19_inb b) (k0_off23 b) (k0_off23_inb b)⟩,
       ⟨Rect.unit (s := S128x128) (k0_off26 t3 b) S1x16.size (k0_off26_inb t3 b), payG (F := F) L sfl tab (4 * t3.val + 0) (k0_off18 b) (k0_off18_inb b) (k0_off22 b) (k0_off22_inb b)⟩,
       ⟨Rect.unit (s := S128x128) (k0_off17 t3 b) S1x16.size (k0_off17_inb t3 b), payG (F := F) L sfl tab (4 * t3.val + 0) (k0_off9 b) (k0_off9_inb b) (k0_off13 b) (k0_off13_inb b)⟩,
       ⟨Rect.unit (s := S128x128) (k0_off16 t3 b) S1x16.size (k0_off16_inb t3 b), payG (F := F) L sfl tab (4 * t3.val + 0) (k0_off8 b) (k0_off8_inb b) (k0_off12 b) (k0_off12_inb b)⟩,
       ⟨Rect.unit (s := S128x128) (k0_off15 t3 b) S1x16.size (k0_off15_inb t3 b), payG (F := F) L sfl tab (4 * t3.val + 0) (k0_off7 b) (k0_off7_inb b) (k0_off11 b) (k0_off11_inb b)⟩,
       ⟨Rect.unit (s := S128x128) (k0_off14 t3 b) S1x16.size (k0_off14_inb t3 b), payG (F := F) L sfl tab (4 * t3.val + 0) (k0_off6 b) (k0_off6_inb b) (k0_off10 b) (k0_off10_inb b)⟩]
      = fun i => if (i 0).val = 16 * t3.val + b.val then (fun q : Fin 128 => FloatOps.mulf (accTo (fun f => tab (ix2 (krow sfl (128 * wid L + 4 * (4 * t3.val + 0) + b.val) f) q)) 25) (cstK (F := F))) (i 1) else g i := by
  have hb : b.val < 4 := lt_of_lt_of_le b.isLt k0_t4_abs.2.1
  exact row_store (F := F) (16 * t3.val + b.val) g
    ![k0_off14 t3 b, k0_off15 t3 b, k0_off16 t3 b, k0_off17 t3 b, k0_off26 t3 b, k0_off27 t3 b, k0_off28 t3 b, k0_off29 t3 b]
    (forall_fin8_0 _ (k0_off14_eq t3 b) (k0_off15_eq t3 b) (k0_off16_eq t3 b) (k0_off17_eq t3 b) (k0_off26_eq t3 b) (k0_off27_eq t3 b) (k0_off28_eq t3 b) (k0_off29_eq t3 b))
    (forall_fin8_0 _ (k0_off14_inb t3 b) (k0_off15_inb t3 b) (k0_off16_inb t3 b) (k0_off17_inb t3 b) (k0_off26_inb t3 b) (k0_off27_inb t3 b) (k0_off28_inb t3 b) (k0_off29_inb t3 b))
    ![payG (F := F) L sfl tab (4 * t3.val + 0) (k0_off6 b) (k0_off6_inb b) (k0_off10 b) (k0_off10_inb b),
      payG (F := F) L sfl tab (4 * t3.val + 0) (k0_off7 b) (k0_off7_inb b) (k0_off11 b) (k0_off11_inb b),
      payG (F := F) L sfl tab (4 * t3.val + 0) (k0_off8 b) (k0_off8_inb b) (k0_off12 b) (k0_off12_inb b),
      payG (F := F) L sfl tab (4 * t3.val + 0) (k0_off9 b) (k0_off9_inb b) (k0_off13 b) (k0_off13_inb b),
      payG (F := F) L sfl tab (4 * t3.val + 0) (k0_off18 b) (k0_off18_inb b) (k0_off22 b) (k0_off22_inb b),
      payG (F := F) L sfl tab (4 * t3.val + 0) (k0_off19 b) (k0_off19_inb b) (k0_off23 b) (k0_off23_inb b),
      payG (F := F) L sfl tab (4 * t3.val + 0) (k0_off20 b) (k0_off20_inb b) (k0_off24 b) (k0_off24_inb b),
      payG (F := F) L sfl tab (4 * t3.val + 0) (k0_off21 b) (k0_off21_inb b) (k0_off25 b) (k0_off25_inb b)]
    (fun q : Fin 128 => FloatOps.mulf (accTo (fun f => tab (ix2 (krow sfl (128 * wid L + 4 * (4 * t3.val + 0) + b.val) f) q)) 25) (cstK (F := F)))
    (forall_fin8_0 _ (fun y h => payG_apply (F := F) L sfl tab (4 * t3.val + 0) 0 b.val 0 (by norm_num) _ _ _ _ (k0_off6_eq b) (k0_off10_eq b) y h)
      (fun y h => payG_apply (F := F) L sfl tab (4 * t3.val + 0) 0 b.val 16 (by norm_num) _ _ _ _ (k0_off7_eq b) (k0_off11_eq b) y h)
      (fun y h => payG_apply (F := F) L sfl tab (4 * t3.val + 0) 0 b.val 32 (by norm_num) _ _ _ _ (k0_off8_eq b) (k0_off12_eq b) y h)
      (fun y h => payG_apply (F := F) L sfl tab (4 * t3.val + 0) 0 b.val 48 (by norm_num) _ _ _ _ (k0_off9_eq b) (k0_off13_eq b) y h)
      (fun y h => payG_apply (F := F) L sfl tab (4 * t3.val + 0) 0 b.val 64 (by norm_num) _ _ _ _ (k0_off18_eq b) (k0_off22_eq b) y h)
      (fun y h => payG_apply (F := F) L sfl tab (4 * t3.val + 0) 0 b.val 80 (by norm_num) _ _ _ _ (k0_off19_eq b) (k0_off23_eq b) y h)
      (fun y h => payG_apply (F := F) L sfl tab (4 * t3.val + 0) 0 b.val 96 (by norm_num) _ _ _ _ (k0_off20_eq b) (k0_off24_eq b) y h)
      (fun y h => payG_apply (F := F) L sfl tab (4 * t3.val + 0) 0 b.val 112 (by norm_num) _ _ _ _ (k0_off21_eq b) (k0_off25_eq b) y h))

/-- The out scratch after the bag: one more row done. -/
theorem bag0_step (t3 : Fin k0_t3_loop.trips) (b : Fin k0_t4_loop.trips) :
    (aV).view.writes (Elt F) (outFn L sfl tab fa0 (16 * t3.val + 0 + b.val))
      [⟨Rect.unit (s := S128x128) (k0_off29 t3 b) S1x16.size (k0_off29_inb t3 b), payG (F := F) L sfl tab (4 * t3.val + 0) (k0_off21 b) (k0_off21_inb b) (k0_off25 b) (k0_off25_inb b)⟩,
       ⟨Rect.unit (s := S128x128) (k0_off28 t3 b) S1x16.size (k0_off28_inb t3 b), payG (F := F) L sfl tab (4 * t3.val + 0) (k0_off20 b) (k0_off20_inb b) (k0_off24 b) (k0_off24_inb b)⟩,
       ⟨Rect.unit (s := S128x128) (k0_off27 t3 b) S1x16.size (k0_off27_inb t3 b), payG (F := F) L sfl tab (4 * t3.val + 0) (k0_off19 b) (k0_off19_inb b) (k0_off23 b) (k0_off23_inb b)⟩,
       ⟨Rect.unit (s := S128x128) (k0_off26 t3 b) S1x16.size (k0_off26_inb t3 b), payG (F := F) L sfl tab (4 * t3.val + 0) (k0_off18 b) (k0_off18_inb b) (k0_off22 b) (k0_off22_inb b)⟩,
       ⟨Rect.unit (s := S128x128) (k0_off17 t3 b) S1x16.size (k0_off17_inb t3 b), payG (F := F) L sfl tab (4 * t3.val + 0) (k0_off9 b) (k0_off9_inb b) (k0_off13 b) (k0_off13_inb b)⟩,
       ⟨Rect.unit (s := S128x128) (k0_off16 t3 b) S1x16.size (k0_off16_inb t3 b), payG (F := F) L sfl tab (4 * t3.val + 0) (k0_off8 b) (k0_off8_inb b) (k0_off12 b) (k0_off12_inb b)⟩,
       ⟨Rect.unit (s := S128x128) (k0_off15 t3 b) S1x16.size (k0_off15_inb t3 b), payG (F := F) L sfl tab (4 * t3.val + 0) (k0_off7 b) (k0_off7_inb b) (k0_off11 b) (k0_off11_inb b)⟩,
       ⟨Rect.unit (s := S128x128) (k0_off14 t3 b) S1x16.size (k0_off14_inb t3 b), payG (F := F) L sfl tab (4 * t3.val + 0) (k0_off6 b) (k0_off6_inb b) (k0_off10 b) (k0_off10_inb b)⟩]
      = outFn L sfl tab fa0 (16 * t3.val + 0 + (b.val + 1)) := by
  rw [bag0_writes]
  have e1 : 16 * t3.val + b.val = 16 * t3.val + 0 + b.val := by omega
  have e2 : 128 * wid L + 4 * (4 * t3.val + 0) + b.val = 128 * wid L + (16 * t3.val + 0 + b.val) := by omega
  rw [e1, e2]
  exact outFn_step (F := F) L sfl tab fa0 (16 * t3.val + 0 + b.val)

set_option maxHeartbeats 4000000 in
theorem bagTrip0 : BagTrip0 (F := F) d L sfl tab fa0 := by
  intro t3 v1 v29 A hA b acc
  have hb : b.val < 4 := lt_of_lt_of_le b.isLt k0_t4_abs.2.1
  have ht3 : t3.val < 8 := lt_of_lt_of_le t3.isLt k0_t3_abs.2.1
  unfold bagInv0
  rcases hA with rfl | ⟨rfl, h4⟩
  · iintro ⟨Hr, Ha⟩
    sl_exec
    sl_step
    isplitl [Hr]; · iexact Hr
    iapply (Entails.of_eq (congrArg (fun f => ((aV).view.loc (thrT d L) ↦[Finset.univ]{fullShare} f : sProp 𝕄)) (bag0_step (F := F) L sfl tab fa0 t3 b)))
    iexact Ha
  · iintro ⟨Hr, Ha⟩
    ihave Ha := (Entails.of_eq (show ((aV).view.loc (thrT d L) ↦[(aBot).view.set]{fullShare} outFn L sfl tab fa0 (16 * t3.val + 0 + b.val) : sProp 𝕄)
        = ((aBot).view.loc (thrT d L) ↦[(aBot).view.set]{fullShare} outFn L sfl tab fa0 (16 * t3.val + 0 + b.val)) from rfl)) $$ Ha
    sl_exec
    sl_step
    isplitl [Hr]; · iexact Hr
    iapply (Entails.of_eq (congrArg (fun f => ((aV).view.loc (thrT d L) ↦[(aBot).view.set]{fullShare} f : sProp 𝕄)) (bag0_step (F := F) L sfl tab fa0 t3 b)))
    iexact Ha

end Cert.KI

end
-- ==== Proof.KIBag1.lean ====
/-
  One bag of sub-step 1 of the draining loop: row buffer 1 holds a chunk's 104 gathered rows; the bag's 26 rows are loaded
  sixteen lanes at a time, summed left to right in eight lane groups, scaled by the constant and stored to the bag's row of
  the out scratch. The eight stores leave, in that row, the scaled left-to-right sums of the 26 table rows the bag's fields
  name, and leave the other rows as they were.
-/
import proofs.«207326_g40819369181559_retrytranche2_1852_22_alg».proof.Proof.KIBagStmt
import proofs.«207326_g40819369181559_retrytranche2_1852_22_alg».proof.Proof.KISets
import proofs.«207326_g40819369181559_retrytranche2_1852_22_alg».proof.Proof.KIChain

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.KernelIdeal.main_v0_scv : Memref Cert.KernelIdeal.sig Kind.scVector Space.hbm Cert.KernelIdeal.S106496 EltTy.i32)
local notation "xV" => (Memref.whole Cert.KernelIdeal.main_arg1_scv : Memref Cert.KernelIdeal.sig Kind.scVector Space.hbm Cert.KernelIdeal.S2600000x128 EltTy.f32)
local notation "oV" => (Memref.whole Cert.KernelIdeal.main_v1_scv : Memref Cert.KernelIdeal.sig Kind.scVector Space.hbm Cert.KernelIdeal.S4096x128 EltTy.f32)
local notation "sV" => (Memref.whole Cert.KernelIdeal.cc0_scratch0 : Memref Cert.KernelIdeal.sig Kind.scVector Space.vmem Cert.KernelIdeal.S3328 EltTy.i32)
local notation "rV" => (Memref.whole Cert.KernelIdeal.cc0_scratch1 : Memref Cert.KernelIdeal.sig Kind.scVector Space.vmem Cert.KernelIdeal.S4x104x128 EltTy.f32)
local notation "aV" => (Memref.whole Cert.KernelIdeal.cc0_scratch2 : Memref Cert.KernelIdeal.sig Kind.scVector Space.vmem Cert.KernelIdeal.S128x128 EltTy.f32)

variable [FloatOps F] [Named F]
variable (d : Dev nD) (L : grid0.Coords)
variable (sfl : IVec S106496 32) (tab : FVec F S2600000x128 .f32) (fa0 : S128x128.Idx → F .f32)

open Idealize.ShloMosaic.ValueIdx

omit [FloatOps F] [Named F] in
theorem forall_fin8_1 (P : Fin 8 → Prop) (h0 : P 0) (h1 : P 1) (h2 : P 2) (h3 : P 3) (h4 : P 4) (h5 : P 5) (h6 : P 6) (h7 : P 7) : ∀ k, P k := by
  intro k
  match k with
  | ⟨0, _⟩ => exact h0
  | ⟨1, _⟩ => exact h1
  | ⟨2, _⟩ => exact h2
  | ⟨3, _⟩ => exact h3
  | ⟨4, _⟩ => exact h4
  | ⟨5, _⟩ => exact h5
  | ⟨6, _⟩ => exact h6
  | ⟨7, _⟩ => exact h7

/-- The eight stores of one bag, on any prior contents g of the out scratch. -/
theorem bag1_writes (t3 : Fin k0_t3_loop.trips) (b : Fin k0_t5_loop.trips) (g : S128x128.Idx → F .f32) :
    (aV).view.writes (Elt F) g
      [⟨Rect.unit (s := S128x128) (k0_off55 t3 b) S1x16.size (k0_off55_inb t3 b), payG (F := F) L sfl tab (4 * t3.val + 1) (k0_off47 b) (k0_off47_inb b) (k0_off51 b) (k0_off51_inb b)⟩,
       ⟨Rect.unit (s := S128x128) (k0_off54 t3 b) S1x16.size (k0_off54_inb t3 b), payG (F := F) L sfl tab (4 * t3.val + 1) (k0_off46 b) (k0_off46_inb b) (k0_off50 b) (k0_off50_inb b)⟩,
       ⟨Rect.unit (s := S128x128) (k0_off53 t3 b) S1x16.size (k0_off53_inb t3 b), payG (F := F) L sfl tab (4 * t3.val + 1) (k0_off45 b) (k0_off45_inb b) (k0_off49 b) (k0_off49_inb b)⟩,
       ⟨Rect.unit (s := S128x128) (k0_off52 t3 b) S1x16.size (k0_off52_inb t3 b), payG (F := F) L sfl tab (4 * t3.val + 1) (k0_off44 b) (k0_off44_inb b) (k0_off48 b) (k0_off48_inb b)⟩,
       ⟨Rect.unit (s := S128x128) (k0_off43 t3 b) S1x16.size (k0_off43_inb t3 b), payG (F := F) L sfl tab (4 * t3.val + 1) (k0_off35 b) (k0_off35_inb b) (k0_off39 b) (k0_off39_inb b)⟩,
       ⟨Rect.unit (s := S128x128) (k0_off42 t3 b) S1x16.size (k0_off42_inb t3 b), payG (F := F) L sfl tab (4 * t3.val + 1) (k0_off34 b) (k0_off34_inb b) (k0_off38 b) (k0_off38_inb b)⟩,
       ⟨Rect.unit (s := S128x128) (k0_off41 t3 b) S1x16.size (k0_off41_inb t3 b), payG (F := F) L sfl tab (4 * t3.val + 1) (k0_off33 b) (k0_off33_inb b) (k0_off37 b) (k0_off37_inb b)⟩,
       ⟨Rect.unit (s := S128x128) (k0_off40 t3 b) S1x16.size (k0_off40_inb t3 b), payG (F := F) L sfl tab (4 * t3.val + 1) (k0_off32 b) (k0_off32_inb b) (k0_off36 b) (k0_off36_inb b)⟩]
      = fun i => if (i 0).val = 16 * t3.val + b.val + 4 then (fun q : Fin 128 => FloatOps.mulf (accTo (fun f => tab (ix2 (krow sfl (128 * wid L + 4 * (4 * t3.val + 1) + b.val) f) q)) 25) (cstK (F := F))) (i 1) else g i := by
  have hb : b.val < 4 := lt_of_lt_of_le b.isLt k0_t5_abs.2.1
  exact row_store (F := F) (16 * t3.val + b.val + 4) g
    ![k0_off40 t3 b, k0_off41 t3 b, k0_off42 t3 b, k0_off43 t3 b, k0_off52 t3 b, k0_off53 t3 b, k0_off54 t3 b, k0_off55 t3 b]
    (forall_fin8_1 _ (k0_off40_eq t3 b) (k0_off41_eq t3 b) (k0_off42_eq t3 b) (k0_off43_eq t3 b) (k0_off52_eq t3 b) (k0_off53_eq t3 b) (k0_off54_eq t3 b) (k0_off55_eq t3 b))
    (forall_fin8_1 _ (k0_off40_inb t3 b) (k0_off41_inb t3 b) (k0_off42_inb t3 b) (k0_off43_inb t3 b) (k0_off52_inb t3 b) (k0_off53_inb t3 b) (k0_off54_inb t3 b) (k0_off55_inb t3 b))
    ![payG (F := F) L sfl tab (4 * t3.val + 1) (k0_off32 b) (k0_off32_inb b) (k0_off36 b) (k0_off36_inb b),
      payG (F := F) L sfl tab (4 * t3.val + 1) (k0_off33 b) (k0_off33_inb b) (k0_off37 b) (k0_off37_inb b),
      payG (F := F) L sfl tab (4 * t3.val + 1) (k0_off34 b) (k0_off34_inb b) (k0_off38 b) (k0_off38_inb b),
      payG (F := F) L sfl tab (4 * t3.val + 1) (k0_off35 b) (k0_off35_inb b) (k0_off39 b) (k0_off39_inb b),
      payG (F := F) L sfl tab (4 * t3.val + 1) (k0_off44 b) (k0_off44_inb b) (k0_off48 b) (k0_off48_inb b),
      payG (F := F) L sfl tab (4 * t3.val + 1) (k0_off45 b) (k0_off45_inb b) (k0_off49 b) (k0_off49_inb b),
      payG (F := F) L sfl tab (4 * t3.val + 1) (k0_off46 b) (k0_off46_inb b) (k0_off50 b) (k0_off50_inb b),
      payG (F := F) L sfl tab (4 * t3.val + 1) (k0_off47 b) (k0_off47_inb b) (k0_off51 b) (k0_off51_inb b)]
    (fun q : Fin 128 => FloatOps.mulf (accTo (fun f => tab (ix2 (krow sfl (128 * wid L + 4 * (4 * t3.val + 1) + b.val) f) q)) 25) (cstK (F := F)))
    (forall_fin8_1 _ (fun y h => payG_apply (F := F) L sfl tab (4 * t3.val + 1) 1 b.val 0 (by norm_num) _ _ _ _ (k0_off32_eq b) (k0_off36_eq b) y h)
      (fun y h => payG_apply (F := F) L sfl tab (4 * t3.val + 1) 1 b.val 16 (by norm_num) _ _ _ _ (k0_off33_eq b) (k0_off37_eq b) y h)
      (fun y h => payG_apply (F := F) L sfl tab (4 * t3.val + 1) 1 b.val 32 (by norm_num) _ _ _ _ (k0_off34_eq b) (k0_off38_eq b) y h)
      (fun y h => payG_apply (F := F) L sfl tab (4 * t3.val + 1) 1 b.val 48 (by norm_num) _ _ _ _ (k0_off35_eq b) (k0_off39_eq b) y h)
      (fun y h => payG_apply (F := F) L sfl tab (4 * t3.val + 1) 1 b.val 64 (by norm_num) _ _ _ _ (k0_off44_eq b) (k0_off48_eq b) y h)
      (fun y h => payG_apply (F := F) L sfl tab (4 * t3.val + 1) 1 b.val 80 (by norm_num) _ _ _ _ (k0_off45_eq b) (k0_off49_eq b) y h)
      (fun y h => payG_apply (F := F) L sfl tab (4 * t3.val + 1) 1 b.val 96 (by norm_num) _ _ _ _ (k0_off46_eq b) (k0_off50_eq b) y h)
      (fun y h => payG_apply (F := F) L sfl tab (4 * t3.val + 1) 1 b.val 112 (by norm_num) _ _ _ _ (k0_off47_eq b) (k0_off51_eq b) y h))

/-- The out scratch after the bag: one more row done. -/
theorem bag1_step (t3 : Fin k0_t3_loop.trips) (b : Fin k0_t5_loop.trips) :
    (aV).view.writes (Elt F) (outFn L sfl tab fa0 (16 * t3.val + 4 + b.val))
      [⟨Rect.unit (s := S128x128) (k0_off55 t3 b) S1x16.size (k0_off55_inb t3 b), payG (F := F) L sfl tab (4 * t3.val + 1) (k0_off47 b) (k0_off47_inb b) (k0_off51 b) (k0_off51_inb b)⟩,
       ⟨Rect.unit (s := S128x128) (k0_off54 t3 b) S1x16.size (k0_off54_inb t3 b), payG (F := F) L sfl tab (4 * t3.val + 1) (k0_off46 b) (k0_off46_inb b) (k0_off50 b) (k0_off50_inb b)⟩,
       ⟨Rect.unit (s := S128x128) (k0_off53 t3 b) S1x16.size (k0_off53_inb t3 b), payG (F := F) L sfl tab (4 * t3.val + 1) (k0_off45 b) (k0_off45_inb b) (k0_off49 b) (k0_off49_inb b)⟩,
       ⟨Rect.unit (s := S128x128) (k0_off52 t3 b) S1x16.size (k0_off52_inb t3 b), payG (F := F) L sfl tab (4 * t3.val + 1) (k0_off44 b) (k0_off44_inb b) (k0_off48 b) (k0_off48_inb b)⟩,
       ⟨Rect.unit (s := S128x128) (k0_off43 t3 b) S1x16.size (k0_off43_inb t3 b), payG (F := F) L sfl tab (4 * t3.val + 1) (k0_off35 b) (k0_off35_inb b) (k0_off39 b) (k0_off39_inb b)⟩,
       ⟨Rect.unit (s := S128x128) (k0_off42 t3 b) S1x16.size (k0_off42_inb t3 b), payG (F := F) L sfl tab (4 * t3.val + 1) (k0_off34 b) (k0_off34_inb b) (k0_off38 b) (k0_off38_inb b)⟩,
       ⟨Rect.unit (s := S128x128) (k0_off41 t3 b) S1x16.size (k0_off41_inb t3 b), payG (F := F) L sfl tab (4 * t3.val + 1) (k0_off33 b) (k0_off33_inb b) (k0_off37 b) (k0_off37_inb b)⟩,
       ⟨Rect.unit (s := S128x128) (k0_off40 t3 b) S1x16.size (k0_off40_inb t3 b), payG (F := F) L sfl tab (4 * t3.val + 1) (k0_off32 b) (k0_off32_inb b) (k0_off36 b) (k0_off36_inb b)⟩]
      = outFn L sfl tab fa0 (16 * t3.val + 4 + (b.val + 1)) := by
  rw [bag1_writes]
  have e1 : 16 * t3.val + b.val + 4 = 16 * t3.val + 4 + b.val := by omega
  have e2 : 128 * wid L + 4 * (4 * t3.val + 1) + b.val = 128 * wid L + (16 * t3.val + 4 + b.val) := by omega
  rw [e1, e2]
  exact outFn_step (F := F) L sfl tab fa0 (16 * t3.val + 4 + b.val)

set_option maxHeartbeats 4000000 in
theorem bagTrip1 : BagTrip1 (F := F) d L sfl tab fa0 := by
  intro t3 v1 v28 v45 A hA b acc
  have hb : b.val < 4 := lt_of_lt_of_le b.isLt k0_t5_abs.2.1
  have ht3 : t3.val < 8 := lt_of_lt_of_le t3.isLt k0_t3_abs.2.1
  unfold bagInv1
  rcases hA with rfl | ⟨rfl, h4⟩
  · iintro ⟨Hr, Ha⟩
    sl_exec
    sl_step
    isplitl [Hr]; · iexact Hr
    iapply (Entails.of_eq (congrArg (fun f => ((aV).view.loc (thrT d L) ↦[Finset.univ]{fullShare} f : sProp 𝕄)) (bag1_step (F := F) L sfl tab fa0 t3 b)))
    iexact Ha
  · iintro ⟨Hr, Ha⟩
    ihave Ha := (Entails.of_eq (show ((aV).view.loc (thrT d L) ↦[(aBot).view.set]{fullShare} outFn L sfl tab fa0 (16 * t3.val + 4 + b.val) : sProp 𝕄)
        = ((aBot).view.loc (thrT d L) ↦[(aBot).view.set]{fullShare} outFn L sfl tab fa0 (16 * t3.val + 4 + b.val)) from rfl)) $$ Ha
    sl_exec
    sl_step
    isplitl [Hr]; · iexact Hr
    iapply (Entails.of_eq (congrArg (fun f => ((aV).view.loc (thrT d L) ↦[(aBot).view.set]{fullShare} f : sProp 𝕄)) (bag1_step (F := F) L sfl tab fa0 t3 b)))
    iexact Ha

end Cert.KI

end
-- ==== Proof.KIBag2.lean ====
/-
  One bag of sub-step 2 of the draining loop: row buffer 2 holds a chunk's 104 gathered rows; the bag's 26 rows are loaded
  sixteen lanes at a time, summed left to right in eight lane groups, scaled by the constant and stored to the bag's row of
  the out scratch. The eight stores leave, in that row, the scaled left-to-right sums of the 26 table rows the bag's fields
  name, and leave the other rows as they were.
-/
import proofs.«207326_g40819369181559_retrytranche2_1852_22_alg».proof.Proof.KIBagStmt
import proofs.«207326_g40819369181559_retrytranche2_1852_22_alg».proof.Proof.KISets
import proofs.«207326_g40819369181559_retrytranche2_1852_22_alg».proof.Proof.KIChain

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.KernelIdeal.main_v0_scv : Memref Cert.KernelIdeal.sig Kind.scVector Space.hbm Cert.KernelIdeal.S106496 EltTy.i32)
local notation "xV" => (Memref.whole Cert.KernelIdeal.main_arg1_scv : Memref Cert.KernelIdeal.sig Kind.scVector Space.hbm Cert.KernelIdeal.S2600000x128 EltTy.f32)
local notation "oV" => (Memref.whole Cert.KernelIdeal.main_v1_scv : Memref Cert.KernelIdeal.sig Kind.scVector Space.hbm Cert.KernelIdeal.S4096x128 EltTy.f32)
local notation "sV" => (Memref.whole Cert.KernelIdeal.cc0_scratch0 : Memref Cert.KernelIdeal.sig Kind.scVector Space.vmem Cert.KernelIdeal.S3328 EltTy.i32)
local notation "rV" => (Memref.whole Cert.KernelIdeal.cc0_scratch1 : Memref Cert.KernelIdeal.sig Kind.scVector Space.vmem Cert.KernelIdeal.S4x104x128 EltTy.f32)
local notation "aV" => (Memref.whole Cert.KernelIdeal.cc0_scratch2 : Memref Cert.KernelIdeal.sig Kind.scVector Space.vmem Cert.KernelIdeal.S128x128 EltTy.f32)

variable [FloatOps F] [Named F]
variable (d : Dev nD) (L : grid0.Coords)
variable (sfl : IVec S106496 32) (tab : FVec F S2600000x128 .f32) (fa0 : S128x128.Idx → F .f32)

open Idealize.ShloMosaic.ValueIdx

omit [FloatOps F] [Named F] in
theorem forall_fin8_2 (P : Fin 8 → Prop) (h0 : P 0) (h1 : P 1) (h2 : P 2) (h3 : P 3) (h4 : P 4) (h5 : P 5) (h6 : P 6) (h7 : P 7) : ∀ k, P k := by
  intro k
  match k with
  | ⟨0, _⟩ => exact h0
  | ⟨1, _⟩ => exact h1
  | ⟨2, _⟩ => exact h2
  | ⟨3, _⟩ => exact h3
  | ⟨4, _⟩ => exact h4
  | ⟨5, _⟩ => exact h5
  | ⟨6, _⟩ => exact h6
  | ⟨7, _⟩ => exact h7

/-- The eight stores of one bag, on any prior contents g of the out scratch. -/
theorem bag2_writes (t3 : Fin k0_t3_loop.trips) (b : Fin k0_t6_loop.trips) (g : S128x128.Idx → F .f32) :
    (aV).view.writes (Elt F) g
      [⟨Rect.unit (s := S128x128) (k0_off81 t3 b) S1x16.size (k0_off81_inb t3 b), payG (F := F) L sfl tab (4 * t3.val + 2) (k0_off73 b) (k0_off73_inb b) (k0_off77 b) (k0_off77_inb b)⟩,
       ⟨Rect.unit (s := S128x128) (k0_off80 t3 b) S1x16.size (k0_off80_inb t3 b), payG (F := F) L sfl tab (4 * t3.val + 2) (k0_off72 b) (k0_off72_inb b) (k0_off76 b) (k0_off76_inb b)⟩,
       ⟨Rect.unit (s := S128x128) (k0_off79 t3 b) S1x16.size (k0_off79_inb t3 b), payG (F := F) L sfl tab (4 * t3.val + 2) (k0_off71 b) (k0_off71_inb b) (k0_off75 b) (k0_off75_inb b)⟩,
       ⟨Rect.unit (s := S128x128) (k0_off78 t3 b) S1x16.size (k0_off78_inb t3 b), payG (F := F) L sfl tab (4 * t3.val + 2) (k0_off70 b) (k0_off70_inb b) (k0_off74 b) (k0_off74_inb b)⟩,
       ⟨Rect.unit (s := S128x128) (k0_off69 t3 b) S1x16.size (k0_off69_inb t3 b), payG (F := F) L sfl tab (4 * t3.val + 2) (k0_off61 b) (k0_off61_inb b) (k0_off65 b) (k0_off65_inb b)⟩,
       ⟨Rect.unit (s := S128x128) (k0_off68 t3 b) S1x16.size (k0_off68_inb t3 b), payG (F := F) L sfl tab (4 * t3.val + 2) (k0_off60 b) (k0_off60_inb b) (k0_off64 b) (k0_off64_inb b)⟩,
       ⟨Rect.unit (s := S128x128) (k0_off67 t3 b) S1x16.size (k0_off67_inb t3 b), payG (F := F) L sfl tab (4 * t3.val + 2) (k0_off59 b) (k0_off59_inb b) (k0_off63 b) (k0_off63_inb b)⟩,
       ⟨Rect.unit (s := S128x128) (k0_off66 t3 b) S1x16.size (k0_off66_inb t3 b), payG (F := F) L sfl tab (4 * t3.val + 2) (k0_off58 b) (k0_off58_inb b) (k0_off62 b) (k0_off62_inb b)⟩]
      = fun i => if (i 0).val = 16 * t3.val + b.val + 8 then (fun q : Fin 128 => FloatOps.mulf (accTo (fun f => tab (ix2 (krow sfl (128 * wid L + 4 * (4 * t3.val + 2) + b.val) f) q)) 25) (cstK (F := F))) (i 1) else g i := by
  have hb : b.val < 4 := lt_of_lt_of_le b.isLt k0_t6_abs.2.1
  exact row_store (F := F) (16 * t3.val + b.val + 8) g
    ![k0_off66 t3 b, k0_off67 t3 b, k0_off68 t3 b, k0_off69 t3 b, k0_off78 t3 b, k0_off79 t3 b, k0_off80 t3 b, k0_off81 t3 b]
    (forall_fin8_2 _ (k0_off66_eq t3 b) (k0_off67_eq t3 b) (k0_off68_eq t3 b) (k0_off69_eq t3 b) (k0_off78_eq t3 b) (k0_off79_eq t3 b) (k0_off80_eq t3 b) (k0_off81_eq t3 b))
    (forall_fin8_2 _ (k0_off66_inb t3 b) (k0_off67_inb t3 b) (k0_off68_inb t3 b) (k0_off69_inb t3 b) (k0_off78_inb t3 b) (k0_off79_inb t3 b) (k0_off80_inb t3 b) (k0_off81_inb t3 b))
    ![payG (F := F) L sfl tab (4 * t3.val + 2) (k0_off58 b) (k0_off58_inb b) (k0_off62 b) (k0_off62_inb b),
      payG (F := F) L sfl tab (4 * t3.val + 2) (k0_off59 b) (k0_off59_inb b) (k0_off63 b) (k0_off63_inb b),
      payG (F := F) L sfl tab (4 * t3.val + 2) (k0_off60 b) (k0_off60_inb b) (k0_off64 b) (k0_off64_inb b),
      payG (F := F) L sfl tab (4 * t3.val + 2) (k0_off61 b) (k0_off61_inb b) (k0_off65 b) (k0_off65_inb b),
      payG (F := F) L sfl tab (4 * t3.val + 2) (k0_off70 b) (k0_off70_inb b) (k0_off74 b) (k0_off74_inb b),
      payG (F := F) L sfl tab (4 * t3.val + 2) (k0_off71 b) (k0_off71_inb b) (k0_off75 b) (k0_off75_inb b),
      payG (F := F) L sfl tab (4 * t3.val + 2) (k0_off72 b) (k0_off72_inb b) (k0_off76 b) (k0_off76_inb b),
      payG (F := F) L sfl tab (4 * t3.val + 2) (k0_off73 b) (k0_off73_inb b) (k0_off77 b) (k0_off77_inb b)]
    (fun q : Fin 128 => FloatOps.mulf (accTo (fun f => tab (ix2 (krow sfl (128 * wid L + 4 * (4 * t3.val + 2) + b.val) f) q)) 25) (cstK (F := F)))
    (forall_fin8_2 _ (fun y h => payG_apply (F := F) L sfl tab (4 * t3.val + 2) 2 b.val 0 (by norm_num) _ _ _ _ (k0_off58_eq b) (k0_off62_eq b) y h)
      (fun y h => payG_apply (F := F) L sfl tab (4 * t3.val + 2) 2 b.val 16 (by norm_num) _ _ _ _ (k0_off59_eq b) (k0_off63_eq b) y h)
      (fun y h => payG_apply (F := F) L sfl tab (4 * t3.val + 2) 2 b.val 32 (by norm_num) _ _ _ _ (k0_off60_eq b) (k0_off64_eq b) y h)
      (fun y h => payG_apply (F := F) L sfl tab (4 * t3.val + 2) 2 b.val 48 (by norm_num) _ _ _ _ (k0_off61_eq b) (k0_off65_eq b) y h)
      (fun y h => payG_apply (F := F) L sfl tab (4 * t3.val + 2) 2 b.val 64 (by norm_num) _ _ _ _ (k0_off70_eq b) (k0_off74_eq b) y h)
      (fun y h => payG_apply (F := F) L sfl tab (4 * t3.val + 2) 2 b.val 80 (by norm_num) _ _ _ _ (k0_off71_eq b) (k0_off75_eq b) y h)
      (fun y h => payG_apply (F := F) L sfl tab (4 * t3.val + 2) 2 b.val 96 (by norm_num) _ _ _ _ (k0_off72_eq b) (k0_off76_eq b) y h)
      (fun y h => payG_apply (F := F) L sfl tab (4 * t3.val + 2) 2 b.val 112 (by norm_num) _ _ _ _ (k0_off73_eq b) (k0_off77_eq b) y h))

/-- The out scratch after the bag: one more row done. -/
theorem bag2_step (t3 : Fin k0_t3_loop.trips) (b : Fin k0_t6_loop.trips) :
    (aV).view.writes (Elt F) (outFn L sfl tab fa0 (16 * t3.val + 8 + b.val))
      [⟨Rect.unit (s := S128x128) (k0_off81 t3 b) S1x16.size (k0_off81_inb t3 b), payG (F := F) L sfl tab (4 * t3.val + 2) (k0_off73 b) (k0_off73_inb b) (k0_off77 b) (k0_off77_inb b)⟩,
       ⟨Rect.unit (s := S128x128) (k0_off80 t3 b) S1x16.size (k0_off80_inb t3 b), payG (F := F) L sfl tab (4 * t3.val + 2) (k0_off72 b) (k0_off72_inb b) (k0_off76 b) (k0_off76_inb b)⟩,
       ⟨Rect.unit (s := S128x128) (k0_off79 t3 b) S1x16.size (k0_off79_inb t3 b), payG (F := F) L sfl tab (4 * t3.val + 2) (k0_off71 b) (k0_off71_inb b) (k0_off75 b) (k0_off75_inb b)⟩,
       ⟨Rect.unit (s := S128x128) (k0_off78 t3 b) S1x16.size (k0_off78_inb t3 b), payG (F := F) L sfl tab (4 * t3.val + 2) (k0_off70 b) (k0_off70_inb b) (k0_off74 b) (k0_off74_inb b)⟩,
       ⟨Rect.unit (s := S128x128) (k0_off69 t3 b) S1x16.size (k0_off69_inb t3 b), payG (F := F) L sfl tab (4 * t3.val + 2) (k0_off61 b) (k0_off61_inb b) (k0_off65 b) (k0_off65_inb b)⟩,
       ⟨Rect.unit (s := S128x128) (k0_off68 t3 b) S1x16.size (k0_off68_inb t3 b), payG (F := F) L sfl tab (4 * t3.val + 2) (k0_off60 b) (k0_off60_inb b) (k0_off64 b) (k0_off64_inb b)⟩,
       ⟨Rect.unit (s := S128x128) (k0_off67 t3 b) S1x16.size (k0_off67_inb t3 b), payG (F := F) L sfl tab (4 * t3.val + 2) (k0_off59 b) (k0_off59_inb b) (k0_off63 b) (k0_off63_inb b)⟩,
       ⟨Rect.unit (s := S128x128) (k0_off66 t3 b) S1x16.size (k0_off66_inb t3 b), payG (F := F) L sfl tab (4 * t3.val + 2) (k0_off58 b) (k0_off58_inb b) (k0_off62 b) (k0_off62_inb b)⟩]
      = outFn L sfl tab fa0 (16 * t3.val + 8 + (b.val + 1)) := by
  rw [bag2_writes]
  have e1 : 16 * t3.val + b.val + 8 = 16 * t3.val + 8 + b.val := by omega
  have e2 : 128 * wid L + 4 * (4 * t3.val + 2) + b.val = 128 * wid L + (16 * t3.val + 8 + b.val) := by omega
  rw [e1, e2]
  exact outFn_step (F := F) L sfl tab fa0 (16 * t3.val + 8 + b.val)

set_option maxHeartbeats 4000000 in
theorem bagTrip2 : BagTrip2 (F := F) d L sfl tab fa0 := by
  intro t3 v1 v28 v45 v61 A hA b acc
  have hb : b.val < 4 := lt_of_lt_of_le b.isLt k0_t6_abs.2.1
  have ht3 : t3.val < 8 := lt_of_lt_of_le t3.isLt k0_t3_abs.2.1
  unfold bagInv2
  rcases hA with rfl | ⟨rfl, h4⟩
  · iintro ⟨Hr, Ha⟩
    sl_exec
    sl_step
    isplitl [Hr]; · iexact Hr
    iapply (Entails.of_eq (congrArg (fun f => ((aV).view.loc (thrT d L) ↦[Finset.univ]{fullShare} f : sProp 𝕄)) (bag2_step (F := F) L sfl tab fa0 t3 b)))
    iexact Ha
  · iintro ⟨Hr, Ha⟩
    ihave Ha := (Entails.of_eq (show ((aV).view.loc (thrT d L) ↦[(aBot).view.set]{fullShare} outFn L sfl tab fa0 (16 * t3.val + 8 + b.val) : sProp 𝕄)
        = ((aBot).view.loc (thrT d L) ↦[(aBot).view.set]{fullShare} outFn L sfl tab fa0 (16 * t3.val + 8 + b.val)) from rfl)) $$ Ha
    sl_exec
    sl_step
    isplitl [Hr]; · iexact Hr
    iapply (Entails.of_eq (congrArg (fun f => ((aV).view.loc (thrT d L) ↦[(aBot).view.set]{fullShare} f : sProp 𝕄)) (bag2_step (F := F) L sfl tab fa0 t3 b)))
    iexact Ha

end Cert.KI

end
-- ==== Proof.KIBag3.lean ====
/-
  One bag of sub-step 3 of the draining loop: row buffer 3 holds a chunk's 104 gathered rows; the bag's 26 rows are loaded
  sixteen lanes at a time, summed left to right in eight lane groups, scaled by the constant and stored to the bag's row of
  the out scratch. The eight stores leave, in that row, the scaled left-to-right sums of the 26 table rows the bag's fields
  name, and leave the other rows as they were.
-/
import proofs.«207326_g40819369181559_retrytranche2_1852_22_alg».proof.Proof.KIBagStmt
import proofs.«207326_g40819369181559_retrytranche2_1852_22_alg».proof.Proof.KISets
import proofs.«207326_g40819369181559_retrytranche2_1852_22_alg».proof.Proof.KIChain

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.KernelIdeal.main_v0_scv : Memref Cert.KernelIdeal.sig Kind.scVector Space.hbm Cert.KernelIdeal.S106496 EltTy.i32)
local notation "xV" => (Memref.whole Cert.KernelIdeal.main_arg1_scv : Memref Cert.KernelIdeal.sig Kind.scVector Space.hbm Cert.KernelIdeal.S2600000x128 EltTy.f32)
local notation "oV" => (Memref.whole Cert.KernelIdeal.main_v1_scv : Memref Cert.KernelIdeal.sig Kind.scVector Space.hbm Cert.KernelIdeal.S4096x128 EltTy.f32)
local notation "sV" => (Memref.whole Cert.KernelIdeal.cc0_scratch0 : Memref Cert.KernelIdeal.sig Kind.scVector Space.vmem Cert.KernelIdeal.S3328 EltTy.i32)
local notation "rV" => (Memref.whole Cert.KernelIdeal.cc0_scratch1 : Memref Cert.KernelIdeal.sig Kind.scVector Space.vmem Cert.KernelIdeal.S4x104x128 EltTy.f32)
local notation "aV" => (Memref.whole Cert.KernelIdeal.cc0_scratch2 : Memref Cert.KernelIdeal.sig Kind.scVector Space.vmem Cert.KernelIdeal.S128x128 EltTy.f32)

variable [FloatOps F] [Named F]
variable (d : Dev nD) (L : grid0.Coords)
variable (sfl : IVec S106496 32) (tab : FVec F S2600000x128 .f32) (fa0 : S128x128.Idx → F .f32)

open Idealize.ShloMosaic.ValueIdx

omit [FloatOps F] [Named F] in
theorem forall_fin8_3 (P : Fin 8 → Prop) (h0 : P 0) (h1 : P 1) (h2 : P 2) (h3 : P 3) (h4 : P 4) (h5 : P 5) (h6 : P 6) (h7 : P 7) : ∀ k, P k := by
  intro k
  match k with
  | ⟨0, _⟩ => exact h0
  | ⟨1, _⟩ => exact h1
  | ⟨2, _⟩ => exact h2
  | ⟨3, _⟩ => exact h3
  | ⟨4, _⟩ => exact h4
  | ⟨5, _⟩ => exact h5
  | ⟨6, _⟩ => exact h6
  | ⟨7, _⟩ => exact h7

/-- The eight stores of one bag, on any prior contents g of the out scratch. -/
theorem bag3_writes (t3 : Fin k0_t3_loop.trips) (b : Fin k0_t7_loop.trips) (g : S128x128.Idx → F .f32) :
    (aV).view.writes (Elt F) g
      [⟨Rect.unit (s := S128x128) (k0_off107 t3 b) S1x16.size (k0_off107_inb t3 b), payG (F := F) L sfl tab (4 * t3.val + 3) (k0_off99 b) (k0_off99_inb b) (k0_off103 b) (k0_off103_inb b)⟩,
       ⟨Rect.unit (s := S128x128) (k0_off106 t3 b) S1x16.size (k0_off106_inb t3 b), payG (F := F) L sfl tab (4 * t3.val + 3) (k0_off98 b) (k0_off98_inb b) (k0_off102 b) (k0_off102_inb b)⟩,
       ⟨Rect.unit (s := S128x128) (k0_off105 t3 b) S1x16.size (k0_off105_inb t3 b), payG (F := F) L sfl tab (4 * t3.val + 3) (k0_off97 b) (k0_off97_inb b) (k0_off101 b) (k0_off101_inb b)⟩,
       ⟨Rect.unit (s := S128x128) (k0_off104 t3 b) S1x16.size (k0_off104_inb t3 b), payG (F := F) L sfl tab (4 * t3.val + 3) (k0_off96 b) (k0_off96_inb b) (k0_off100 b) (k0_off100_inb b)⟩,
       ⟨Rect.unit (s := S128x128) (k0_off95 t3 b) S1x16.size (k0_off95_inb t3 b), payG (F := F) L sfl tab (4 * t3.val + 3) (k0_off87 b) (k0_off87_inb b) (k0_off91 b) (k0_off91_inb b)⟩,
       ⟨Rect.unit (s := S128x128) (k0_off94 t3 b) S1x16.size (k0_off94_inb t3 b), payG (F := F) L sfl tab (4 * t3.val + 3) (k0_off86 b) (k0_off86_inb b) (k0_off90 b) (k0_off90_inb b)⟩,
       ⟨Rect.unit (s := S128x128) (k0_off93 t3 b) S1x16.size (k0_off93_inb t3 b), payG (F := F) L sfl tab (4 * t3.val + 3) (k0_off85 b) (k0_off85_inb b) (k0_off89 b) (k0_off89_inb b)⟩,
       ⟨Rect.unit (s := S128x128) (k0_off92 t3 b) S1x16.size (k0_off92_inb t3 b), payG (F := F) L sfl tab (4 * t3.val + 3) (k0_off84 b) (k0_off84_inb b) (k0_off88 b) (k0_off88_inb b)⟩]
      = fun i => if (i 0).val = 16 * t3.val + b.val + 12 then (fun q : Fin 128 => FloatOps.mulf (accTo (fun f => tab (ix2 (krow sfl (128 * wid L + 4 * (4 * t3.val + 3) + b.val) f) q)) 25) (cstK (F := F))) (i 1) else g i := by
  have hb : b.val < 4 := lt_of_lt_of_le b.isLt k0_t7_abs.2.1
  exact row_store (F := F) (16 * t3.val + b.val + 12) g
    ![k0_off92 t3 b, k0_off93 t3 b, k0_off94 t3 b, k0_off95 t3 b, k0_off104 t3 b, k0_off105 t3 b, k0_off106 t3 b, k0_off107 t3 b]
    (forall_fin8_3 _ (k0_off92_eq t3 b) (k0_off93_eq t3 b) (k0_off94_eq t3 b) (k0_off95_eq t3 b) (k0_off104_eq t3 b) (k0_off105_eq t3 b) (k0_off106_eq t3 b) (k0_off107_eq t3 b))
    (forall_fin8_3 _ (k0_off92_inb t3 b) (k0_off93_inb t3 b) (k0_off94_inb t3 b) (k0_off95_inb t3 b) (k0_off104_inb t3 b) (k0_off105_inb t3 b) (k0_off106_inb t3 b) (k0_off107_inb t3 b))
    ![payG (F := F) L sfl tab (4 * t3.val + 3) (k0_off84 b) (k0_off84_inb b) (k0_off88 b) (k0_off88_inb b),
      payG (F := F) L sfl tab (4 * t3.val + 3) (k0_off85 b) (k0_off85_inb b) (k0_off89 b) (k0_off89_inb b),
      payG (F := F) L sfl tab (4 * t3.val + 3) (k0_off86 b) (k0_off86_inb b) (k0_off90 b) (k0_off90_inb b),
      payG (F := F) L sfl tab (4 * t3.val + 3) (k0_off87 b) (k0_off87_inb b) (k0_off91 b) (k0_off91_inb b),
      payG (F := F) L sfl tab (4 * t3.val + 3) (k0_off96 b) (k0_off96_inb b) (k0_off100 b) (k0_off100_inb b),
      payG (F := F) L sfl tab (4 * t3.val + 3) (k0_off97 b) (k0_off97_inb b) (k0_off101 b) (k0_off101_inb b),
      payG (F := F) L sfl tab (4 * t3.val + 3) (k0_off98 b) (k0_off98_inb b) (k0_off102 b) (k0_off102_inb b),
      payG (F := F) L sfl tab (4 * t3.val + 3) (k0_off99 b) (k0_off99_inb b) (k0_off103 b) (k0_off103_inb b)]
    (fun q : Fin 128 => FloatOps.mulf (accTo (fun f => tab (ix2 (krow sfl (128 * wid L + 4 * (4 * t3.val + 3) + b.val) f) q)) 25) (cstK (F := F)))
    (forall_fin8_3 _ (fun y h => payG_apply (F := F) L sfl tab (4 * t3.val + 3) 3 b.val 0 (by norm_num) _ _ _ _ (k0_off84_eq b) (k0_off88_eq b) y h)
      (fun y h => payG_apply (F := F) L sfl tab (4 * t3.val + 3) 3 b.val 16 (by norm_num) _ _ _ _ (k0_off85_eq b) (k0_off89_eq b) y h)
      (fun y h => payG_apply (F := F) L sfl tab (4 * t3.val + 3) 3 b.val 32 (by norm_num) _ _ _ _ (k0_off86_eq b) (k0_off90_eq b) y h)
      (fun y h => payG_apply (F := F) L sfl tab (4 * t3.val + 3) 3 b.val 48 (by norm_num) _ _ _ _ (k0_off87_eq b) (k0_off91_eq b) y h)
      (fun y h => payG_apply (F := F) L sfl tab (4 * t3.val + 3) 3 b.val 64 (by norm_num) _ _ _ _ (k0_off96_eq b) (k0_off100_eq b) y h)
      (fun y h => payG_apply (F := F) L sfl tab (4 * t3.val + 3) 3 b.val 80 (by norm_num) _ _ _ _ (k0_off97_eq b) (k0_off101_eq b) y h)
      (fun y h => payG_apply (F := F) L sfl tab (4 * t3.val + 3) 3 b.val 96 (by norm_num) _ _ _ _ (k0_off98_eq b) (k0_off102_eq b) y h)
      (fun y h => payG_apply (F := F) L sfl tab (4 * t3.val + 3) 3 b.val 112 (by norm_num) _ _ _ _ (k0_off99_eq b) (k0_off103_eq b) y h))

/-- The out scratch after the bag: one more row done. -/
theorem bag3_step (t3 : Fin k0_t3_loop.trips) (b : Fin k0_t7_loop.trips) :
    (aV).view.writes (Elt F) (outFn L sfl tab fa0 (16 * t3.val + 12 + b.val))
      [⟨Rect.unit (s := S128x128) (k0_off107 t3 b) S1x16.size (k0_off107_inb t3 b), payG (F := F) L sfl tab (4 * t3.val + 3) (k0_off99 b) (k0_off99_inb b) (k0_off103 b) (k0_off103_inb b)⟩,
       ⟨Rect.unit (s := S128x128) (k0_off106 t3 b) S1x16.size (k0_off106_inb t3 b), payG (F := F) L sfl tab (4 * t3.val + 3) (k0_off98 b) (k0_off98_inb b) (k0_off102 b) (k0_off102_inb b)⟩,
       ⟨Rect.unit (s := S128x128) (k0_off105 t3 b) S1x16.size (k0_off105_inb t3 b), payG (F := F) L sfl tab (4 * t3.val + 3) (k0_off97 b) (k0_off97_inb b) (k0_off101 b) (k0_off101_inb b)⟩,
       ⟨Rect.unit (s := S128x128) (k0_off104 t3 b) S1x16.size (k0_off104_inb t3 b), payG (F := F) L sfl tab (4 * t3.val + 3) (k0_off96 b) (k0_off96_inb b) (k0_off100 b) (k0_off100_inb b)⟩,
       ⟨Rect.unit (s := S128x128) (k0_off95 t3 b) S1x16.size (k0_off95_inb t3 b), payG (F := F) L sfl tab (4 * t3.val + 3) (k0_off87 b) (k0_off87_inb b) (k0_off91 b) (k0_off91_inb b)⟩,
       ⟨Rect.unit (s := S128x128) (k0_off94 t3 b) S1x16.size (k0_off94_inb t3 b), payG (F := F) L sfl tab (4 * t3.val + 3) (k0_off86 b) (k0_off86_inb b) (k0_off90 b) (k0_off90_inb b)⟩,
       ⟨Rect.unit (s := S128x128) (k0_off93 t3 b) S1x16.size (k0_off93_inb t3 b), payG (F := F) L sfl tab (4 * t3.val + 3) (k0_off85 b) (k0_off85_inb b) (k0_off89 b) (k0_off89_inb b)⟩,
       ⟨Rect.unit (s := S128x128) (k0_off92 t3 b) S1x16.size (k0_off92_inb t3 b), payG (F := F) L sfl tab (4 * t3.val + 3) (k0_off84 b) (k0_off84_inb b) (k0_off88 b) (k0_off88_inb b)⟩]
      = outFn L sfl tab fa0 (16 * t3.val + 12 + (b.val + 1)) := by
  rw [bag3_writes]
  have e1 : 16 * t3.val + b.val + 12 = 16 * t3.val + 12 + b.val := by omega
  have e2 : 128 * wid L + 4 * (4 * t3.val + 3) + b.val = 128 * wid L + (16 * t3.val + 12 + b.val) := by omega
  rw [e1, e2]
  exact outFn_step (F := F) L sfl tab fa0 (16 * t3.val + 12 + b.val)

set_option maxHeartbeats 4000000 in
theorem bagTrip3 : BagTrip3 (F := F) d L sfl tab fa0 := by
  intro t3 v77 A hA b acc
  have hb : b.val < 4 := lt_of_lt_of_le b.isLt k0_t7_abs.2.1
  have ht3 : t3.val < 8 := lt_of_lt_of_le t3.isLt k0_t3_abs.2.1
  unfold bagInv3
  rcases hA with rfl | ⟨rfl, h4⟩
  · iintro ⟨Hr, Ha⟩
    sl_exec
    sl_step
    isplitl [Hr]; · iexact Hr
    iapply (Entails.of_eq (congrArg (fun f => ((aV).view.loc (thrT d L) ↦[Finset.univ]{fullShare} f : sProp 𝕄)) (bag3_step (F := F) L sfl tab fa0 t3 b)))
    iexact Ha
  · iintro ⟨Hr, Ha⟩
    ihave Ha := (Entails.of_eq (show ((aV).view.loc (thrT d L) ↦[(aBot).view.set]{fullShare} outFn L sfl tab fa0 (16 * t3.val + 12 + b.val) : sProp 𝕄)
        = ((aBot).view.loc (thrT d L) ↦[(aBot).view.set]{fullShare} outFn L sfl tab fa0 (16 * t3.val + 12 + b.val)) from rfl)) $$ Ha
    sl_exec
    sl_step
    isplitl [Hr]; · iexact Hr
    iapply (Entails.of_eq (congrArg (fun f => ((aV).view.loc (thrT d L) ↦[(aBot).view.set]{fullShare} f : sProp 𝕄)) (bag3_step (F := F) L sfl tab fa0 t3 b)))
    iexact Ha

end Cert.KI

end
-- ==== Proof.KITile.lean ====
/-
  One tile's whole task. The tile copies its 3328 index words in, adds 100000 · (position mod 26) to each in two passes (the
  first gather is fired between the passes, on words the second pass does not touch), keeps three gathers of 104 table rows in
  flight while it sums the fourth buffer's four bags, copies the first 64 result rows out while it computes the last 64, then
  the last 64. Every buffer it is handed comes back, the result's two blocks holding the kernel's value.
-/
import proofs.«207326_g40819369181559_retrytranche2_1852_22_alg».proof.Proof.KIOwn
import proofs.«207326_g40819369181559_retrytranche2_1852_22_alg».proof.Proof.KIInv
import proofs.«207326_g40819369181559_retrytranche2_1852_22_alg».proof.Proof.KIWin
import proofs.«207326_g40819369181559_retrytranche2_1852_22_alg».proof.Proof.KISets
import proofs.«207326_g40819369181559_retrytranche2_1852_22_alg».proof.Proof.KIOut
import proofs.«207326_g40819369181559_retrytranche2_1852_22_alg».proof.Proof.KIGather
import proofs.«207326_g40819369181559_retrytranche2_1852_22_alg».proof.Proof.KIRing
import proofs.«207326_g40819369181559_retrytranche2_1852_22_alg».proof.Proof.KIBag0
import proofs.«207326_g40819369181559_retrytranche2_1852_22_alg».proof.Proof.KIBag1
import proofs.«207326_g40819369181559_retrytranche2_1852_22_alg».proof.Proof.KIBag2
import proofs.«207326_g40819369181559_retrytranche2_1852_22_alg».proof.Proof.KIBag3

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.KernelIdeal.main_v0_scv : Memref Cert.KernelIdeal.sig Kind.scVector Space.hbm Cert.KernelIdeal.S106496 EltTy.i32)
local notation "xV" => (Memref.whole Cert.KernelIdeal.main_arg1_scv : Memref Cert.KernelIdeal.sig Kind.scVector Space.hbm Cert.KernelIdeal.S2600000x128 EltTy.f32)
local notation "oV" => (Memref.whole Cert.KernelIdeal.main_v1_scv : Memref Cert.KernelIdeal.sig Kind.scVector Space.hbm Cert.KernelIdeal.S4096x128 EltTy.f32)
local notation "sV" => (Memref.whole Cert.KernelIdeal.cc0_scratch0 : Memref Cert.KernelIdeal.sig Kind.scVector Space.vmem Cert.KernelIdeal.S3328 EltTy.i32)
local notation "rV" => (Memref.whole Cert.KernelIdeal.cc0_scratch1 : Memref Cert.KernelIdeal.sig Kind.scVector Space.vmem Cert.KernelIdeal.S4x104x128 EltTy.f32)
local notation "aV" => (Memref.whole Cert.KernelIdeal.cc0_scratch2 : Memref Cert.KernelIdeal.sig Kind.scVector Space.vmem Cert.KernelIdeal.S128x128 EltTy.f32)

variable [FloatOps F] [Named F]
variable (d : Dev nD) (L : grid0.Coords)

abbrev win0 : Memref sig .scVector .vmem S104 .i32 := (sV).slice (Rect.unit (s := S3328) ![0] S104.size inb_S3328_S104_0) (fun _ => rfl)
abbrev win1 : Memref sig .scVector .vmem S104 .i32 := (sV).slice (Rect.unit (s := S3328) ![104] S104.size inb_S3328_S104_104) (fun _ => rfl)
abbrev win2 : Memref sig .scVector .vmem S104 .i32 := (sV).slice (Rect.unit (s := S3328) ![208] S104.size inb_S3328_S104_208) (fun _ => rfl)

abbrev oBotL : Memref sig .scVector .hbm S64x128 .f32 :=
  (oV).slice (Rect.unit (s := S4096x128) (k0_off109 L) S64x128.size (k0_off109_inb L)) (fun _ => rfl)

def inv1 (sfl : IVec S106496 32) (k : ℕ) (_ : BitVec 32) : sProp 𝕄 :=
  iprop((sV).view.loc (thr d L) ↦{fullShare} idxAfter L sfl (16 * k))
def inv2 (sfl : IVec S106496 32) (k : ℕ) (_ : BitVec 32) : sProp 𝕄 :=
  iprop((sV).view.loc (thr d L) ↦[Finset.univ \ (win0).view.set]{fullShare} idxAfter L sfl (112 + 16 * k))

omit [FloatOps F] [Named F] in
theorem bigSep_fin7 (Φ : Fin 7 → sProp 𝕄) : bigSep Finset.univ Φ = iprop(Φ 0 ∗ Φ 1 ∗ Φ 2 ∗ Φ 3 ∗ Φ 4 ∗ Φ 5 ∗ Φ 6) := by
  rw [show (Finset.univ : Finset (Fin 7)) = {0, 1, 2, 3, 4, 5, 6} from by decide,
    BI.bigSep_insert (by decide), BI.bigSep_insert (by decide), BI.bigSep_insert (by decide), BI.bigSep_insert (by decide),
    BI.bigSep_insert (by decide), BI.bigSep_insert (by decide), BI.bigSep_singleton]
  rfl

set_option maxHeartbeats 4000000 in
theorem tile_stmt (m : (ℓ : Loc nD τ sig) → Buf (Elt F) ℓ) (hpre : PreOK m) : TileStmt (F := F) m := by
  intro d L hF O W hO
  have hraw : ∀ p, (rawIdx L (sflOf (m (aLoc d))) p).toNat ≤ 99999 := fun p => rawIdx_le L (m (aLoc d)) (hpre d) p
  rw [(K (F := F)).scopedBufs_V hF d (cV L) (jV L), SparseCore.Cfg.scopedSems0_V (Val := Elt F) d (cV L) (jV L), ownSems0_V, ownBufs_V]
  unfold tileIn
  iintro ⟨#Hlv, -, ⟨Hi, Hx, Hot, Hob⟩, ⟨⟨%fs, Hs⟩, ⟨%fr, Hr⟩, ⟨%fa, Ha⟩, Hbufs⟩, ⟨H3, H4, H5, H6, H7, HsA, HsB, Hsems⟩, HO⟩
  ihave Hmw := (show levAts (K (F := F)).L (K (F := F)).lev ⊢ Transfers.MayWaits (thr d L) (default : HIx 1) O from
    (K (F := F)).mayWaits_none (thr := thr d L) hO) $$ Hlv
  -- the buffers as the tile's memrefs address them
  ihave Hi := (Entails.of_eq (show (iLoc d ↦{tok (cL L) (sL L)} sflOf (m (aLoc d)) : sProp 𝕄)
      = ((iV).view.loc (thr d L) ↦{tok (cL L) (sL L)} sflOf (m (aLoc d))) from rfl)) $$ Hi
  ihave Hx := (Entails.of_eq (show (xLoc d ↦{tok (cL L) (sL L)} m (xLoc d) : sProp 𝕄)
      = ((xV).view.loc (thr d L) ↦{tok (cL L) (sL L)} m (xLoc d)) from rfl)) $$ Hx
  ihave Hs := (Entails.of_eq (show ((thr d L).loc cc0_scratch0 ↦{fullShare} fs : sProp 𝕄)
      = ((sV).view.loc (thr d L) ↦{fullShare} fs) from rfl)) $$ Hs
  ihave Ha := (Entails.of_eq (show ((thr d L).loc cc0_scratch2 ↦{fullShare} fa : sProp 𝕄)
      = ((aV).view.loc (thr d L) ↦{fullShare} fa) from rfl)) $$ Ha
  -- the table as one read token per gather cell, and a remainder
  ihave Hx := ((Transfers.pointsTo_toks_split (Ix := HIx 1) (Name := ℕ) (U := UU) (Lvl := ℕ) (tok (cL L) (sL L)) 7).trans
    (Entails.of_eq (by rw [bigSep_fin7]))) $$ Hx
  icases Hx with ⟨Hxr, Hx0, Hx1, Hx2, Hx3, Hx4, Hx5, Hx6⟩
  -- the row buffer as its four slots
  have slots_split : ((thr d L).loc cc0_scratch1 ↦{fullShare} fr : sProp 𝕄)
      = iprop(((slot0).view.loc (thr d L) ↦[(slot0).view.set]{fullShare} fr) ∗ ((slot1).view.loc (thr d L) ↦[(slot1).view.set]{fullShare} fr)
          ∗ ((slot2).view.loc (thr d L) ↦[(slot2).view.set]{fullShare} fr) ∗ ((slot3).view.loc (thr d L) ↦[(slot3).view.set]{fullShare} fr)) :=
    slots_split (F := F) d (cV L) (jV L) fr
  ihave Hr := (Entails.of_eq slots_split) $$ Hr
  icases Hr with ⟨Hr0, Hr1, Hr2, Hr3⟩
  -- the prologue: the copy of the tile's index words, the first pass, the first gather, the second pass, two more gathers
  sl_exec
  have e0 : ((sV).view.loc (thr d L) ↦{fullShare} View.write (Elt F) (sV).view fs (tile_stmt.sl.dma0 m d L) Finset.univ : sProp 𝕄)
      = ((sV).view.loc (thr d L) ↦{fullShare} idxAfter L (sflOf (m (aLoc d))) (16 * 0)) := by
    rw [View.write_whole_univ]
    exact congrArg _ (landed_eq (F := F) L (sflOf (m (aLoc d))))
  ihave Hs := (Entails.of_eq e0) $$ Hs
  sl_for (inv1 (F := F) d L (sflOf (m (aLoc d)))) $$ [Hs]
  case region =>
    intro k _
    unfold inv1
    iintro Hs
    sl_exec
    sl_step
    iapply (Entails.of_eq (congrArg (fun f => ((sV).view.loc (thr d L) ↦{fullShare} f : sProp 𝕄)) (fix1_step (F := F) L (sflOf (m (aLoc d))) k)))
    iexact Hs
  · unfold inv1; iexact Hs
  iintro %_ HI
  unfold inv1
  have htr : Scf.trips k0_t1_loop.lb k0_t1_loop.ub k0_t1_loop.st = 7 := by decide
  rw [htr]
  have hin0 : ∀ x, ((win0).view.read (Elt F) (idxAfter L (sflOf (m (aLoc d))) (16 * 7)) x).toNat < S2600000x128.size gathers_S2600000x128_S104x128.axis :=
    win_inb (F := F) L (sflOf (m (aLoc d))) (16 * 7) 0 (by norm_num) ![0] inb_S3328_S104_0 rfl hraw
  sl_exec
  have hdisj2 : ∀ k : Fin k0_t2_loop.trips, Disjoint ((sV).view.setOn (Rect.unit (s := S3328) (k0_off3 k) S16.size (k0_off3_inb k)).set) (win0).view.set :=
    fun k => fix2_disj k inb_S3328_S104_0
  have hdisj2' : ∀ k : Fin k0_t2_loop.trips, Disjoint ((sV).access (Rect.unit (s := S3328) (k0_off3 k) S16.size (k0_off3_inb k))).set (win0).view.set :=
    fun k => fix2_disj_access k inb_S3328_S104_0
  sl_for (inv2 (F := F) d L (sflOf (m (aLoc d)))) $$ [HI]
  case region =>
    intro k _
    unfold inv2
    iintro Hs
    sl_exec
    sl_step
    iapply (Entails.of_eq (congrArg (fun f => ((sV).view.loc (thr d L) ↦[Finset.univ \ (win0).view.set]{fullShare} f : sProp 𝕄)) (fix2_step (F := F) L (sflOf (m (aLoc d))) k)))
    iexact Hs
  · unfold inv2; iexact HI
  iintro %_ HI
  unfold inv2
  have htr2 : Scf.trips k0_t2_loop.lb k0_t2_loop.ub k0_t2_loop.st = 201 := by decide
  rw [htr2]
  have hin1 : ∀ x, ((win1).view.read (Elt F) (idxAfter L (sflOf (m (aLoc d))) (112 + 16 * 201)) x).toNat < S2600000x128.size gathers_S2600000x128_S104x128.axis :=
    win_inb (F := F) L (sflOf (m (aLoc d))) (112 + 16 * 201) 1 (by norm_num) ![104] inb_S3328_S104_104 rfl hraw
  have hin2 : ∀ x, ((win2).view.read (Elt F) (idxAfter L (sflOf (m (aLoc d))) (112 + 16 * 201)) x).toNat < S2600000x128.size gathers_S2600000x128_S104x128.axis :=
    win_inb (F := F) L (sflOf (m (aLoc d))) (112 + 16 * 201) 2 (by norm_num) ![208] inb_S3328_S104_208 rfl hraw
  sl_exec
  -- the loop over the chunks, at its invariant
  sl_for (ringInv (F := F) d L (tok (cL L) (sL L)) O (insert (SemLoc.dma cc0_scoped0.sem, (default : HIx 1)) W) (sflOf (m (aLoc d))) (m (xLoc d)) fa (m (oLoc d)))
    $$ [Hmw H3 H4 H5 HI Hx3 Hr3 H6 Ha H7 Hot HO]
  case region =>
    intro k acc
    exact ring_trip (F := F) d L (tok (cL L) (sL L)) O (insert (SemLoc.dma cc0_scoped0.sem, (default : HIx 1)) W) (sflOf (m (aLoc d))) (m (xLoc d)) fa (m (oLoc d))
      hraw (bagTrip0 (F := F) d L (sflOf (m (aLoc d))) (m (xLoc d)) fa) (bagTrip1 (F := F) d L (sflOf (m (aLoc d))) (m (xLoc d)) fa)
      (bagTrip2 (F := F) d L (sflOf (m (aLoc d))) (m (xLoc d)) fa) (bagTrip3 (F := F) d L (sflOf (m (aLoc d))) (m (xLoc d)) fa) _ k acc
  · -- the loop's invariant at its entry
    unfold ringInv
    isplitr; · iexact Hmw
    isplitl [HI]
    · iapply (Entails.of_eq (show (((sV).view.loc (thrT d L) ↦[((Finset.univ \ (win0).view.set) \ (win1).view.set) \ (win2).view.set]{fullShare} fixC L (sflOf (m (aLoc d))) : sProp 𝕄))
          = wins d L (sflOf (m (aLoc d))) (4 * 0) from rest012_wins (F := F) d L (fixC L (sflOf (m (aLoc d))))))
      iexact HI
    isplitl [H3 H4 H5]
    · rw [show ringSlots d L (tok (cL L) (sL L)) (sflOf (m (aLoc d))) (m (xLoc d)) 0
          = iprop(inFlight0 d L (tok (cL L) (sL L)) (sflOf (m (aLoc d))) (m (xLoc d)) (4 * 0) ∗ inFlight1 d L (tok (cL L) (sL L)) (sflOf (m (aLoc d))) (m (xLoc d)) (4 * 0 + 1)
              ∗ inFlight2 d L (tok (cL L) (sL L)) (sflOf (m (aLoc d))) (m (xLoc d)) (4 * 0 + 2)) from by unfold ringSlots; rw [if_pos (by norm_num)]]
      isplitl [H3]
      · iapply (fcanon0_n (F := F) d L (tok (cL L) (sL L)) (sflOf (m (aLoc d))) (m (xLoc d)) hraw (16 * 7) 0 (by norm_num) (by norm_num) (by norm_num)
          ![0] inb_S3328_S104_0 rfl fr rfl hin0 _ rfl)
        iexact H3
      isplitl [H4]
      · iapply (fcanon1_n (F := F) d L (tok (cL L) (sL L)) (sflOf (m (aLoc d))) (m (xLoc d)) hraw (112 + 16 * 201) 1 (by norm_num) (by norm_num) (by norm_num)
          ![104] inb_S3328_S104_104 rfl fr rfl hin1 _ rfl)
        iexact H4
      · iapply (fcanon2_n (F := F) d L (tok (cL L) (sL L)) (sflOf (m (aLoc d))) (m (xLoc d)) hraw (112 + 16 * 201) 2 (by norm_num) (by norm_num) (by norm_num)
          ![208] inb_S3328_S104_208 rfl fr rfl hin2 _ rfl)
        iexact H5
    isplitl [Hr3 Hx3 H6]
    · unfold idle3
      isplitl [Hr3]; · iexists _; iexact Hr3
      isplitl [Hx3]; · iexact Hx3
      iexact H6
    isplitl [Ha H7 Hot]
    · rw [show aState d L (sflOf (m (aLoc d))) (m (xLoc d)) fa (m (oLoc d)) 0 = aEarly d L (sflOf (m (aLoc d))) (m (xLoc d)) fa (m (oLoc d)) (16 * 0) from by
        unfold aState; rw [if_pos (by norm_num)]]
      unfold aEarly
      rw [show outFn L (sflOf (m (aLoc d))) (m (xLoc d)) fa (16 * 0) = fa from outFn_zero (F := F) L (sflOf (m (aLoc d))) (m (xLoc d)) fa]
      isplitl [Ha]; · iexact Ha
      isplitl [H7]; · iexact H7
      iapply (Entails.of_eq (show (oLoc d ↦[oPiece (topIx (cL L) (sL L))]{fullShare} m (oLoc d) : sProp 𝕄)
        = ((oTop L).view.loc (thrT d L) ↦[(oTop L).view.set]{fullShare} m (oLoc d)) from by
          rw [oTop_set L (k0_off108 L) (k0_off108_inb L t3three h8three) (k0_off108_eq L)]))
      iexact Hot
    iexists _; isplitr
    · ipureintro; exact fun p hp => .inl hp
    · iexact HO
  iintro %acc8 HI
  have htr3 : Scf.trips k0_t3_loop.lb k0_t3_loop.ub k0_t3_loop.st = 8 := by decide
  rw [htr3]
  unfold ringInv
  icases HI with ⟨#Hmw', Hw, Hslots, Hid3, Hast, %W', %hW', HO⟩
  have hast8 : aState d L (sflOf (m (aLoc d))) (m (xLoc d)) fa (m (oLoc d)) 8
      = iprop(((aV).view.loc (thrT d L) ↦[(aBot).view.set]{fullShare} outFn L (sflOf (m (aLoc d))) (m (xLoc d)) fa 128)
          ∗ copyFlight d L (sflOf (m (aLoc d))) (m (xLoc d)) fa (m (oLoc d))) := by
    unfold aState aLate; rw [if_neg (by norm_num)]
  ihave Hast := (Entails.of_eq hast8) $$ Hast
  icases Hast with ⟨Hab, Hcf⟩
  unfold copyFlight
  have hobset : (oBotL L).view.set = oPiece (botIx (cL L) (sL L)) := oBot_set L (k0_off109 L) (k0_off109_inb L) (k0_off109_eq L)
  ihave Hob := (Entails.of_eq (show (oLoc d ↦[oPiece (botIx (cL L) (sL L))]{fullShare} m (oLoc d) : sProp 𝕄)
      = ((oBotL L).view.loc (thrT d L) ↦[(oBotL L).view.set]{fullShare} m (oLoc d)) from by rw [hobset])) $$ Hob
  ihave Hab := (Entails.of_eq (show ((aV).view.loc (thrT d L) ↦[(aBot).view.set]{fullShare} outFn L (sflOf (m (aLoc d))) (m (xLoc d)) fa 128 : sProp 𝕄)
      = ((aBot).view.loc (thrT d L) ↦[(aBot).view.set]{fullShare} outFn L (sflOf (m (aLoc d))) (m (xLoc d)) fa 128) from rfl)) $$ Hab
  sl_exec
  sl_step
  -- what is left of the loop's state, opened
  ihave Hslots := (Entails.of_eq (show ringSlots d L (tok (cL L) (sL L)) (sflOf (m (aLoc d))) (m (xLoc d)) 8
      = iprop(idle0 d L (tok (cL L) (sL L)) (m (xLoc d)) ∗ idle1 d L (tok (cL L) (sL L)) (m (xLoc d)) ∗ idle2 d L (tok (cL L) (sL L)) (m (xLoc d)))
      from by unfold ringSlots; rw [if_neg (by norm_num)])) $$ Hslots
  unfold idle0 idle1 idle2 idle3
  icases Hslots with ⟨⟨⟨%g0, Hs0⟩, Hx0', Hc0⟩, ⟨⟨%g1, Hs1⟩, Hx1', Hc1⟩, ⟨⟨%g2, Hs2⟩, Hx2', Hc2⟩⟩
  icases Hid3 with ⟨⟨%g3, Hs3⟩, Hx3', Hc3⟩
  -- the pieces in the forms the launch wants them back
  have htop : (((oTop L).view.loc (thrT d L) ↦[(oTop L).view.set]{fullShare}
        (oTop L).view.writes (Elt F) (m (oLoc d)) [⟨Rect.whole S64x128, ReadAs.same.apply (View.read (Elt F) (aTop).view (outFn L (sflOf (m (aLoc d))) (m (xLoc d)) fa 64))⟩]) : sProp 𝕄)
      = (oLoc d ↦[oPiece (topIx (cL L) (sL L))]{fullShare} KG (cstK (F := F)) (sflOf (m (aLoc d))) (m (xLoc d))) := by
    rw [pointsTo_congr (out_top_congr (F := F) L (sflOf (m (aLoc d))) (m (xLoc d)) fa (m (oLoc d))),
      oTop_set L (k0_off108 L) (k0_off108_inb L t3three h8three) (k0_off108_eq L)]
  have hbot : (((oBotL L).view.loc (thrT d L) ↦[(oBotL L).view.set]{fullShare}
        (oBotL L).view.writes (Elt F) (m (oLoc d)) [⟨Rect.whole S64x128, tile_stmt.sl.dma0_1 m d L fa⟩]) : sProp 𝕄)
      = (oLoc d ↦[oPiece (botIx (cL L) (sL L))]{fullShare} KG (cstK (F := F)) (sflOf (m (aLoc d))) (m (xLoc d))) := by
    show (((oBotL L).view.loc (thrT d L) ↦[(oBotL L).view.set]{fullShare}
        (oBotL L).view.writes (Elt F) (m (oLoc d)) [⟨Rect.whole S64x128, ReadAs.same.apply (View.read (Elt F) (aBot).view (outFn L (sflOf (m (aLoc d))) (m (xLoc d)) fa 128))⟩]) : sProp 𝕄) = _
    rw [pointsTo_congr (out_bot_congr (F := F) L (sflOf (m (aLoc d))) (m (xLoc d)) fa (m (oLoc d))), hobset]
  have hwins : (wins d L (sflOf (m (aLoc d))) (4 * 8) : sProp 𝕄) = ((thr d L).loc cc0_scratch0 ↦{fullShare} fixC L (sflOf (m (aLoc d)))) :=
    wins_all (F := F) d L (fixC L (sflOf (m (aLoc d))))
  have hslots : iprop(((slot0).view.loc (thrT d L) ↦[(slot0).view.set]{fullShare} g0) ∗ ((slot1).view.loc (thrT d L) ↦[(slot1).view.set]{fullShare} g1)
        ∗ ((slot2).view.loc (thrT d L) ↦[(slot2).view.set]{fullShare} g2) ∗ ((slot3).view.loc (thrT d L) ↦[(slot3).view.set]{fullShare} g3))
      ⊢ (iprop(∃ f, (thr d L).loc cc0_scratch1 ↦{fullShare} f) : sProp 𝕄) :=
    slots_join (F := F) d (cV L) (jV L) g0 g1 g2 g3
  have hhalves : iprop(((aV).view.loc (thrT d L) ↦[(aTop).view.set]{fullShare} outFn L (sflOf (m (aLoc d))) (m (xLoc d)) fa 64)
        ∗ ((aBot).view.loc (thrT d L) ↦[(aBot).view.set]{fullShare} outFn L (sflOf (m (aLoc d))) (m (xLoc d)) fa 128))
      ⊢ (iprop(∃ f, (thr d L).loc cc0_scratch2 ↦{fullShare} f) : sProp 𝕄) :=
    halves_join (F := F) d (cV L) (jV L) _ _
  unfold tileOut
  isplitl [Hi Hxr Hx0' Hx1' Hx2' Hx3' Hx4 Hx5 Hx6 Hcf_dst Hob]
  · isplitl [Hi]; · iexact Hi
    isplitl [Hxr Hx0' Hx1' Hx2' Hx3' Hx4 Hx5 Hx6]
    · iapply ((Entails.of_eq (by rw [bigSep_fin7])).trans (Transfers.pointsTo_toks_join (Ix := HIx 1) (Name := ℕ) (U := UU) (Lvl := ℕ) (tok (cL L) (sL L)) 7))
      isplitl [Hxr]; · iexact Hxr
      isplitl [Hx0']; · iexact Hx0'
      isplitl [Hx1']; · iexact Hx1'
      isplitl [Hx2']; · iexact Hx2'
      isplitl [Hx3']; · iexact Hx3'
      isplitl [Hx4]; · iexact Hx4
      isplitl [Hx5]; · iexact Hx5
      iexact Hx6
    isplitl [Hcf_dst]
    · iapply (Entails.of_eq htop); iexact Hcf_dst
    · iapply (Entails.of_eq hbot); iexact Hob
  isplitl [Hw Hs0 Hs1 Hs2 Hs3 Hcf_src Hab Hbufs]
  · isplitl [Hw]
    · iexists _; iapply (Entails.of_eq hwins); iexact Hw
    isplitl [Hs0 Hs1 Hs2 Hs3]
    · iapply hslots
      isplitl [Hs0]; · iexact Hs0
      isplitl [Hs1]; · iexact Hs1
      isplitl [Hs2]; · iexact Hs2
      iexact Hs3
    isplitl [Hcf_src Hab]
    · iapply hhalves
      isplitl [Hcf_src]; · iexact Hcf_src
      iexact Hab
    iexact Hbufs
  isplitl [Hc0 Hc1 Hc2 Hc3 Hcf HsA HsB Hsems]
  · isplitl [Hc0]; · iexact Hc0
    isplitl [Hc1]; · iexact Hc1
    isplitl [Hc2]; · iexact Hc2
    isplitl [Hc3]; · iexact Hc3
    isplitl [Hcf]; · iexact Hcf
    isplitl [HsA]; · iexact HsA
    isplitl [HsB]; · iexact HsB
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases hW' p hp with h | h
  · rcases Finset.mem_insert.mp h with h | h
    · exact .inr (h ▸ rfl)
    · exact .inl h
  · exact .inr h

end Cert.KI

end
-- ==== Proof.KBCommon.lean ====
/-
  The program as the launch theorem of the SparseCore library sees it, the ghost state (the handshakes' rounds beside the
  transfers' counters), and the names of the buffers a tile's task works on.
-/
import proofs.«207326_g40819369181559_retrytranche2_1852_22_alg».proof.Kernel
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«207326_g40819369181559_retrytranche2_1852_22_alg».proof.Proof.Gen.Kernel
import proofs.«207326_g40819369181559_retrytranche2_1852_22_alg».proof.Proof.Gen.Kernel.Skeleton

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

abbrev EH : Emb UH (MT nD τ sig (HIx 1) (Elt F) ℕ UU ℕ) := embL

end Cert.KB

end
-- ==== Proof.KBRes.lean ====
/-
  What one tile's task is handed and hands back, and the value the kernel leaves in the result array as one function
  of the index list and the table, in any float instance.

  Tile (c, s) of the 2 × 16 tiles is worker w = 2 s + c. It reads positions 3328 w … 3328 w + 3327 of the flattened index
  list (bags 128 w … 128 w + 127, 26 fields each), adds 100000 · (position mod 26) to each word, gathers the 104 table rows
  of four bags at a time, sums each bag's 26 rows left to right and scales by the constant, and writes bags' results to
  rows 128 w … 128 w + 127 of the result, in two halves of 64 rows.
-/
import proofs.«207326_g40819369181559_retrytranche2_1852_22_alg».proof.Proof.KBCommon
import Idealize.ShloMosaic.Lib.ValueIdx

noncomputable section

namespace Cert.KB

open Cert.Kernel Cert.Kernel.Gen

open Idealize.ShloMosaic Idealize.ShloMosaic.ValueIdx
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type}

/-! ## The value -/

/-- x 0 + x 1 + … + x n, summed left to right. -/
def accTo [FloatOps F] (x : ℕ → F .f32) : ℕ → F .f32
  | 0 => x 0
  | n + 1 => FloatOps.addf (accTo x n) (x (n + 1))

/-- The table row that position 26 R + f of the flattened index list names once 100000 · f has been added to it
    (kept below 2600000 by a remainder that does nothing when the word is below 100000 and f below 26). -/
def krow (sfl : IVec S106496 32) (R : ℕ) (f : ℕ) : Fin 2600000 :=
  ⟨((sfl (ix1 (⟨(26 * R + f) % 106496, Nat.mod_lt _ (by norm_num)⟩ : Fin 106496))).toNat + 100000 * (f % 26)) % 2600000, Nat.mod_lt _ (by norm_num)⟩

/-- Entry (R, q) of the result: the 26 rows of bag R at column q summed left to right, times the constant. -/
def KG [FloatOps F] (cst : F .f32) (sfl : IVec S106496 32) (tab : FVec F S2600000x128 .f32) : FVec F S4096x128 .f32 :=
  fun i => FloatOps.mulf (accTo (fun f => tab (ix2 (krow sfl (i 0).val f) (i 1))) 25) cst

/-! ## The buffers -/

local notation "𝕄" => MT nD τ sig (SparseCore.Cfg.HIx 1) (Elt F) ℕ UU ℕ

/-- The flattened index list, the table and the result, as the TensorCore names them. -/
abbrev aLoc (d : Dev nD) : Loc nD τ sig := (SparseCore.T d).loc main_arg0
abbrev iLoc (d : Dev nD) : Loc nD τ sig := (SparseCore.T d).loc main_v0
abbrev xLoc (d : Dev nD) : Loc nD τ sig := (SparseCore.T d).loc main_arg1
abbrev oLoc (d : Dev nD) : Loc nD τ sig := (SparseCore.T d).loc main_v1

/-- The result in 64 blocks of 64 rows. -/
theorem odiv : 64 ∣ S4096x128.size 0 := ⟨64, rfl⟩
abbrev oRect (k : Fin 64) : Rect S4096x128 := Rect.part (s := S4096x128) (a₀ := 0) odiv k
abbrev oPiece (k : Fin 64) : Finset S4096x128.Idx :=
  ((Memref.whole main_v1_scv : Memref sig .scVector .hbm S4096x128 .f32).view.slice (oRect k)).set

/-- Worker 2 s + c writes blocks 4 s + 2 c and 4 s + 2 c + 1. -/
def topIx (c : Fin 2) (s : Fin 16) : Fin 64 := ⟨4 * s.val + 2 * c.val, by omega⟩
def botIx (c : Fin 2) (s : Fin 16) : Fin 64 := ⟨4 * s.val + 2 * c.val + 1, by omega⟩

/-- The read tokens of the index list and of the table: the full share cut per core, then per tile. -/
abbrev tok (c : Fin 2) (s : Fin 16) : PosShare TreeShare := shareTok (shareTok fullShare 2 c) 16 s

/-- What tile (c, s) of device d is handed: read tokens of the index list (at contents sfl) and of the table (at tab),
    and its two blocks of the result outright, at the contents o. -/
def tileIn (d : Dev nD) (c : Fin 2) (s : Fin 16) (sfl : Buf (Elt F) (iLoc d)) (tab : Buf (Elt F) (xLoc d)) (o : Buf (Elt F) (oLoc d)) : sProp 𝕄 :=
  iprop((iLoc d ↦{tok c s} sfl) ∗ (xLoc d ↦{tok c s} tab)
    ∗ (oLoc d ↦[oPiece (topIx c s)]{fullShare} o) ∗ (oLoc d ↦[oPiece (botIx c s)]{fullShare} o))

/-- What it hands back: the tokens, and its two blocks at the contents o'. -/
def tileOut (d : Dev nD) (c : Fin 2) (s : Fin 16) (sfl : Buf (Elt F) (iLoc d)) (tab : Buf (Elt F) (xLoc d)) (o' : Buf (Elt F) (oLoc d)) : sProp 𝕄 :=
  iprop((iLoc d ↦{tok c s} sfl) ∗ (xLoc d ↦{tok c s} tab)
    ∗ (oLoc d ↦[oPiece (topIx c s)]{fullShare} o') ∗ (oLoc d ↦[oPiece (botIx c s)]{fullShare} o'))

end Cert.KB

end
-- ==== Proof.KBStmt.lean ====
/-
  The statement of one tile's task (what the launch asks of every tile), and what it needs of the launch memory.
-/
import proofs.«207326_g40819369181559_retrytranche2_1852_22_alg».proof.Proof.KBRes

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.Kernel.main_v0_scv : Memref Cert.Kernel.sig Kind.scVector Space.hbm Cert.Kernel.S106496 EltTy.i32)
local notation "xV" => (Memref.whole Cert.Kernel.main_arg1_scv : Memref Cert.Kernel.sig Kind.scVector Space.hbm Cert.Kernel.S2600000x128 EltTy.f32)
local notation "oV" => (Memref.whole Cert.Kernel.main_v1_scv : Memref Cert.Kernel.sig Kind.scVector Space.hbm Cert.Kernel.S4096x128 EltTy.f32)
local notation "sV" => (Memref.whole Cert.Kernel.cc0_scratch0 : Memref Cert.Kernel.sig Kind.scVector Space.vmem Cert.Kernel.S3328 EltTy.i32)
local notation "rV" => (Memref.whole Cert.Kernel.cc0_scratch1 : Memref Cert.Kernel.sig Kind.scVector Space.vmem Cert.Kernel.S4x104x128 EltTy.f32)
local notation "aV" => (Memref.whole Cert.Kernel.cc0_scratch2 : Memref Cert.Kernel.sig Kind.scVector Space.vmem Cert.Kernel.S128x128 EltTy.f32)

/-- Every index word of the batch is below 100000 (the integer half of the precondition). -/
def PreOK (m : (ℓ : Loc nD τ sig) → Buf (Elt F) ℓ) : Prop := ∀ (d : Dev nD) (j : S4096x26.Idx), (m (aLoc d) j).toNat ≤ 99999

/-- The batch's index words laid out flat, bag after bag. -/
def sflOf (a : IVec S4096x26 32) : IVec S106496 32 := shapeCast S106496 a shapeCasts_S4096x26_S106496

/-- The constant the sums are scaled by, as the program spells it. -/
def cstK [FloatOps F] : F .f32 := Scalar.ofBits .f32 0x3D1D89D9#32

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev sL (L : grid0.Coords) : Fin 16 := Fin.cast bound_one (L 1)

/-- One tile's task, from what it is handed to what it hands back, the result's two blocks at the one whole-array
    function. -/
def TileStmt [FloatOps F] (m : (ℓ : Loc nD τ sig) → Buf (Elt F) ℓ) : Prop :=
  ∀ (d : Dev nD) (L : grid0.Coords) (hF : (K (F := F)).Facts) (O : CellTallies nD τ sig (HIx 1)) (W : Waits sig (HIx 1)) (hO : ∀ g, O g none = 0),
    iprop(levAts (K (F := F)).L (K (F := F)).lev ∗ emp
        ∗ tileIn d (cL L) (sL L) (sflOf (m (aLoc d))) (m (xLoc d)) (m (oLoc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__emb_bag L iV (Memref.isWhole_whole _) xV (Memref.isWhole_whole _) oV (Memref.isWhole_whole _)
            sV (Memref.isWhole_whole _) rV (Memref.isWhole_whole _) aV (Memref.isWhole_whole _)
            cc0_scratch3 cc0_scratch4 cc0_scratch5 cc0_scratch6 cc0_scratch7 cc0_scoped0 cc0_scoped1)
          fun _ => iprop(tileOut d (cL L) (sL L) (sflOf (m (aLoc d))) (m (xLoc d)) (KG (cstK (F := F)) (sflOf (m (aLoc d))) (m (xLoc d)))
            ∗ scopedBufs (V d (cV L) (jV L)) ∗ scopedSems0 (V d (cV L) (jV L))
            ∗ ∃ W', ⌜∀ p ∈ W', p ∈ W ∨ p.2 = none⌝ ∗ owes (V d (cV L) (jV L)) O W')

end Cert.KB

end
-- ==== Proof.KBLaunch.lean ====
/-
  The launch: from "every tile's task is proved" to the run of the whole program with the result array named.

  The program's one call runs on 2 SparseCores of 16 tiles each. The TensorCore first lays the index words out flat (a
  reshape), then hands the two SparseCores what their tiles need and takes it back. What is split among whom:
  * the flat index list and the table are only read, by all 32 tiles at once: the full share of each is cut into one
    read token per SparseCore and each of those into one per tile; what the cutting leaves over stays with the
    TensorCore across the call and joins the tokens back to the full share afterwards;
  * the result array is cut into 64 blocks of 64 rows; tile (c, s) owns blocks 4 s + 2 c and 4 s + 2 c + 1 outright.
    (c, s, top or bottom) ↦ 4 s + 2 c (+ 1) is a bijection onto the 64 blocks, the blocks are pairwise disjoint and
    cover the array, so the 32 pairs of blocks are the whole array; after the call every block is held at the one
    whole-array function, and the blocks join to the array at that function;
  * the batch as the caller gave it is read by the reshape only and never leaves the TensorCore.
  A SparseCore's operands are exactly its 16 tiles' operands side by side, so the split inside a SparseCore is the identity.
-/
import proofs.«207326_g40819369181559_retrytranche2_1852_22_alg».proof.Proof.KBStmt
import proofs.«207326_g40819369181559_retrytranche2_1852_22_alg».proof.Proof.LibReadTokens

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo (held held_split held_sdiff_result wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers
open Cert.Lib.ReadTokens

variable {F : FTy → Type} [FloatOps F]

local notation "𝕄" => MT nD τ sig (HIx 1) (Elt F) ℕ UU ℕ

local notation "iV" => (Memref.whole main_v0_scv : Memref sig Kind.scVector Space.hbm S106496 EltTy.i32)
local notation "xV" => (Memref.whole main_arg1_scv : Memref sig Kind.scVector Space.hbm S2600000x128 EltTy.f32)
local notation "oV" => (Memref.whole main_v1_scv : Memref sig Kind.scVector Space.hbm S4096x128 EltTy.f32)
local notation "sV" => (Memref.whole cc0_scratch0 : Memref sig Kind.scVector Space.vmem S3328 EltTy.i32)
local notation "rV" => (Memref.whole cc0_scratch1 : Memref sig Kind.scVector Space.vmem S4x104x128 EltTy.f32)
local notation "aV" => (Memref.whole cc0_scratch2 : Memref sig Kind.scVector Space.vmem S128x128 EltTy.f32)

variable (m : (ℓ : Loc nD τ sig) → Buf (Elt F) ℓ) (ρ : Dev nD → PrngReg)

/-! ## What the handshakes carry -/

/-- What a tile is handed and hands back, at the launch memory's contents. -/
abbrev tIn (d : Dev nD) (c : Fin 2) (s : Fin 16) : sProp 𝕄 :=
  tileIn d c s (sflOf (m (aLoc d))) (m (xLoc d)) (m (oLoc d))
abbrev tOut (d : Dev nD) (c : Fin 2) (s : Fin 16) : sProp 𝕄 :=
  tileOut d c s (sflOf (m (aLoc d))) (m (xLoc d)) (KG (cstK (F := F)) (sflOf (m (aLoc d))) (m (xLoc d)))

instance tileIn_storable (d : Dev nD) (c : Fin 2) (s : Fin 16) (a : Buf (Elt F) (iLoc d)) (b : Buf (Elt F) (xLoc d)) (o : Buf (Elt F) (oLoc d)) :
    BI.Storable (upEmb : UEmb _ 𝕄) (tileIn d c s a b o) := by unfold tileIn; infer_instance
instance tileOut_storable (d : Dev nD) (c : Fin 2) (s : Fin 16) (a : Buf (Elt F) (iLoc d)) (b : Buf (Elt F) (xLoc d)) (o : Buf (Elt F) (oLoc d)) :
    BI.Storable (upEmb : UEmb _ 𝕄) (tileOut d c s a b o) := by unfold tileOut; infer_instance

/-- The one call: a SparseCore takes its 16 tiles' operands side by side and brings their results back; a tile its read
    tokens and its two blocks of the result. -/
def P : (K (F := F)).Pay (nD := nD) (Val := Elt F) (Name := ℕ) (U := UU) where
  st := fun q d c => match q with
    | 0 => bigSep Finset.univ fun i : Fin ((K (F := F)).nSub 0) => tIn m d (Fin.cast nCore_zero c) (Fin.cast nSub_zero i)
  dn := fun q d c => match q with
    | 0 => bigSep Finset.univ fun i : Fin ((K (F := F)).nSub 0) => tOut m d (Fin.cast nCore_zero c) (Fin.cast nSub_zero i)
  go := fun q d c i => match q with
    | 0 => tIn m d (Fin.cast nCore_zero c) (Fin.cast nSub_zero i)
  td := fun q d c i => match q with
    | 0 => tOut m d (Fin.cast nCore_zero c) (Fin.cast nSub_zero i)
  x := fun _ _ => iprop(emp)

instance P_storable : (P (F := F) m).IsStorable where
  st q d c := match q with
    | 0 => (inferInstance : BI.Storable (upEmb : UEmb _ 𝕄)
      (bigSep Finset.univ fun i : Fin ((K (F := F)).nSub 0) => tIn m d (Fin.cast nCore_zero c) (Fin.cast nSub_zero i)))
  dn q d c := match q with
    | 0 => (inferInstance : BI.Storable (upEmb : UEmb _ 𝕄)
      (bigSep Finset.univ fun i : Fin ((K (F := F)).nSub 0) => tOut m d (Fin.cast nCore_zero c) (Fin.cast nSub_zero i)))
  go q d c i := match q with
    | 0 => (inferInstance : BI.Storable (upEmb : UEmb _ 𝕄) (tIn m d (Fin.cast nCore_zero c) (Fin.cast nSub_zero i)))
  td q d c i := match q with
    | 0 => (inferInstance : BI.Storable (upEmb : UEmb _ 𝕄) (tOut m d (Fin.cast nCore_zero c) (Fin.cast nSub_zero i)))

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__emb_bag (coordsV c s)
          iV (Memref.isWhole_whole _) xV (Memref.isWhole_whole _) oV (Memref.isWhole_whole _)
          sV (Memref.isWhole_whole _) rV (Memref.isWhole_whole _) aV (Memref.isWhole_whole _)
          cc0_scratch3 cc0_scratch4 cc0_scratch5 cc0_scratch6 cc0_scratch7 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile's task is the launch's obligation for it: the tile at the launch's core c and subcore i is the tile at the
    kernel's coordinates (c, i), handed exactly what the call's payload says. -/
theorem tileObl (hF : (K (F := F)).Facts) (htile : TileStmt (F := F) m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (htile d (coordsV ⟨_, hci.1⟩ ⟨_, hci.2⟩) hF O W hO).trans (wp_mono frame _ _ fun _ => obl_post)

/-! ## Inside a SparseCore nothing is cut: its operands are its tiles' -/

theorem vecSplit : (K (F := F)).VecSplit' (P m) 0 := by
  intro d c
  exact keep_all Set.univ _ _

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The result array: 64 blocks, two per tile -/

theorem oPiece_eq (k : Fin 64) : oPiece k = (oRect k).set := by
  show ((View.whole (main_v1_scv : Ref sig .scVector)).slice (oRect k)).set = _
  rw [View.set_slice]; exact Finset.map_refl
theorem oPieces_disjoint : ∀ i ∈ (Finset.univ : Finset (Fin 64)), ∀ j ∈ (Finset.univ : Finset (Fin 64)), i ≠ j → Disjoint (oPiece i) (oPiece j) :=
  fun i _ j _ h => by rw [oPiece_eq, oPiece_eq]; exact Rect.part_disjoint odiv h
theorem oPieces_cover : (Finset.univ : Finset (Fin 64)).biUnion oPiece = Finset.univ :=
  (Finset.biUnion_congr rfl fun i _ => oPiece_eq i).trans (Rect.biUnion_part odiv)

/-- The blocks are pairwise disjoint and cover the array: the array at any contents is its 64 blocks at those contents. -/
theorem oPts_pieces (d : Dev nD) (f : Buf (Elt F) (oLoc d)) :
    (oLoc d ↦{fullShare} f : sProp 𝕄) = bigSep Finset.univ fun k : Fin 64 => oLoc d ↦[oPiece k]{fullShare} f := by
  rw [← pointsTo_biUnion Finset.univ (ℓ := oLoc d) oPiece oPieces_disjoint, oPieces_cover]; try rfl

/-- Block 4 s + 2 c is tile (c, s)'s upper one, block 4 s + 2 c + 1 its lower one. -/
def blockFn : (Fin 2 × Fin 16) ⊕ (Fin 2 × Fin 16) → Fin 64
  | .inl p => topIx p.1 p.2
  | .inr p => botIx p.1 p.2

/-- Every block is exactly one tile's upper or lower one: k = 4 s + 2 c + b with c, b < 2 determines s, c and b, and
    there are as many (c, s, b) as blocks. -/
theorem blockFn_bijective : Function.Bijective blockFn := by
  refine (Fintype.bijective_iff_injective_and_card _).2 ⟨?_, by simp⟩
  rintro (⟨c, s⟩ | ⟨c, s⟩) (⟨c', s'⟩ | ⟨c', s'⟩) h
  all_goals
    have h' := congrArg Fin.val h
    have := c.isLt; have := c'.isLt; have := s.isLt; have := s'.isLt
    simp only [blockFn, topIx, botIx] at h'
  · have hc : c = c' := Fin.ext (by omega)
    have hs : s = s' := Fin.ext (by omega)
    rw [hc, hs]
  · omega
  · omega
  · have hc : c = c' := Fin.ext (by omega)
    have hs : s = s' := Fin.ext (by omega)
    rw [hc, hs]

def blockEquiv : (Fin 2 × Fin 16) ⊕ (Fin 2 × Fin 16) ≃ Fin 64 := Equiv.ofBijective blockFn blockFn_bijective

/-- A product over the 64 blocks, regrouped per SparseCore and per tile. -/
theorem bigSep_blocks (Φ : Fin 64 → sProp 𝕄) :
    bigSep Finset.univ Φ = bigSep Finset.univ fun c : Fin 2 => bigSep Finset.univ fun s : Fin 16 => iprop(Φ (topIx c s) ∗ Φ (botIx c s)) := by
  rw [bigSep_univ_equiv blockEquiv Φ, bigSep_univ_sum, ← bigSep_sep, bigSep_univ_prod]
  rfl

/-- The result array at any contents is every tile's two blocks at those contents. -/
theorem oPts_tiles (d : Dev nD) (f : Buf (Elt F) (oLoc d)) :
    (oLoc d ↦{fullShare} f : sProp 𝕄)
      = bigSep Finset.univ fun c : Fin 2 => bigSep Finset.univ fun s : Fin 16 =>
          iprop((oLoc d ↦[oPiece (topIx c s)]{fullShare} f) ∗ (oLoc d ↦[oPiece (botIx c s)]{fullShare} f)) := by
  rw [oPts_pieces, bigSep_blocks (F := F) (fun k => oLoc d ↦[oPiece k]{fullShare} f)]

/-! ## The three arrays, cut for the 32 tiles and joined back -/

/-- The flat index list and the table at the full share and the result array whole are: what the cutting of the two
    full shares leaves over, and every tile's operands. Both ways: the cut before the call, the join after it. -/
theorem dealIn (d : Dev nD) (sfl : Buf (Elt F) (iLoc d)) (tab : Buf (Elt F) (xLoc d)) (o : Buf (Elt F) (oLoc d)) :
    Toks2 (iprop((iLoc d ↦{fullShare} sfl) ∗ (xLoc d ↦{fullShare} tab) ∗ (oLoc d ↦{fullShare} o)) : sProp 𝕄)
      iprop(rem2 (iLoc d) Finset.univ sfl fullShare 2 16 ∗ rem2 (xLoc d) Finset.univ tab fullShare 2 16 ∗ emp)
      (fun c s => tileIn d c s sfl tab o) :=
  (Toks2.of_pointsTo (ℓ := iLoc d) (S := Finset.univ) (f := sfl) fullShare 2 16).sep
    ((Toks2.of_pointsTo (ℓ := xLoc d) (S := Finset.univ) (f := tab) fullShare 2 16).sep (Toks2.of_eq (oPts_tiles d o)))
theorem dealOut (d : Dev nD) (sfl : Buf (Elt F) (iLoc d)) (tab : Buf (Elt F) (xLoc d)) (o : Buf (Elt F) (oLoc d)) :
    Toks2 (iprop((iLoc d ↦{fullShare} sfl) ∗ (xLoc d ↦{fullShare} tab) ∗ (oLoc d ↦{fullShare} o)) : sProp 𝕄)
      iprop(rem2 (iLoc d) Finset.univ sfl fullShare 2 16 ∗ rem2 (xLoc d) Finset.univ tab fullShare 2 16 ∗ emp)
      (fun c s => tileOut d c s sfl tab o) :=
  dealIn d sfl tab o

/-! ## @main on the TensorCore -/

abbrev a' : DevRef τ sig := Proc.devRef .tc (main_arg0 : Ref sig .tc)
abbrev x' : DevRef τ sig := Proc.devRef .tc (main_arg1 : Ref sig .tc)
abbrev i' : DevRef τ sig := Proc.devRef .tc (main_v0 : Ref sig .tc)
abbrev o' : DevRef τ sig := Proc.devRef .tc (main_v1 : Ref sig .tc)
/-- The host operation before the call: the batch's index words laid out flat. -/
abbrev opR : HloOp τ sig (Elt F) := StableHlo.reshape main_arg0 main_v0 rfl shapeCasts_S4096x26_S106496

/-- The TensorCore's arrays, all unscoped: the batch, the table, the flat index list, the result. -/
abbrev S4 : Finset (DevRef τ sig) := {a', x', i', o'}

theorem held_S4 (d : Dev nD) (W : Valuation τ sig (Elt F)) :
    (held (T d) S4 W : sProp 𝕄)
      = iprop((aLoc d ↦{fullShare} W a') ∗ (xLoc d ↦{fullShare} W x') ∗ (iLoc d ↦{fullShare} W i') ∗ (oLoc d ↦{fullShare} W o')) := by
  unfold held S4
  rw [SparseCore.bigSep_insert' (by decide), SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄)
      = iprop((aLoc d ↦{fullShare} W main_arg0) ∗ (xLoc d ↦{fullShare} W main_arg1) ∗ (iLoc d ↦{fullShare} W main_v0) ∗ (oLoc d ↦{fullShare} W main_v1)) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

/-- The launch valuation. -/
def V0 (d : Dev nD) : Valuation τ sig (Elt F) := fun b => m (d, b)

theorem unscoped_held (d : Dev nD) : (unscopedBufs d (fun b => m ((SparseCore.T d).loc b)) : sProp 𝕄) = held (T d) S4 (V0 m d) := by
  rw [unscopedBufs_eq, held_S4]; rfl

/-- The reshape writes the flat index list only; -/
theorem V1_a (d : Dev nD) : (opR (F := F)).result (V0 m d) a' = m (aLoc d) := by
  rw [(opR (F := F)).result_of_not_mem _ (show a' ∉ ({i'} : Finset (DevRef τ sig)) by decide)]; rfl
theorem V1_x (d : Dev nD) : (opR (F := F)).result (V0 m d) x' = m (xLoc d) := by
  rw [(opR (F := F)).result_of_not_mem _ (show x' ∉ ({i'} : Finset (DevRef τ sig)) by decide)]; rfl
theorem V1_o (d : Dev nD) : (opR (F := F)).result (V0 m d) o' = m (oLoc d) := by
  rw [(opR (F := F)).result_of_not_mem _ (show o' ∉ ({i'} : Finset (DevRef τ sig)) by decide)]; rfl
/-- and leaves there the batch's words in row-major order. -/
theorem V1_i (d : Dev nD) : (opR (F := F)).result (V0 m d) i' = sflOf (m (aLoc d)) :=
  (StableHlo.reshape_result main_arg0 main_v0 rfl shapeCasts_S4096x26_S106496 _ _ (V0 m d)).trans rfl

theorem held_V1 (d : Dev nD) :
    (held (T d) S4 ((opR (F := F)).result (V0 m d)) : sProp 𝕄)
      = iprop((aLoc d ↦{fullShare} m (aLoc d)) ∗ (xLoc d ↦{fullShare} m (xLoc d)) ∗ (iLoc d ↦{fullShare} sflOf (m (aLoc d))) ∗ (oLoc d ↦{fullShare} m (oLoc d))) := by
  rw [held_S4, V1_a, V1_x, V1_i, V1_o]

theorem hR : (opR (F := F)).bufs ⊆ S4 := show ({a', i'} : Finset (DevRef τ sig)) ⊆ S4 by decide

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem st0_eq (d : Dev nD) :
    (bigSep Finset.univ fun c : Fin ((K (F := F)).nCore 0) => (P m).st 0 d c)
      = bigSep Finset.univ fun c : Fin 2 => bigSep Finset.univ fun s : Fin 16 => tIn m d c s := by
  show (bigSep Finset.univ fun c : Fin ((K (F := F)).nCore 0) => bigSep Finset.univ fun i : Fin ((K (F := F)).nSub 0) =>
      tIn m d (Fin.cast nCore_zero c) (Fin.cast nSub_zero i)) = _
  rw [← bigSep_cores (F := F) (fun c => bigSep Finset.univ fun s : Fin 16 => tIn m d c s)]
  exact bigSep_congr fun c _ => bigSep_tasks (F := F) (fun s => tIn m d (Fin.cast nCore_zero c) s)
theorem dn0_eq (d : Dev nD) :
    (bigSep Finset.univ fun c : Fin ((K (F := F)).nCore 0) => (P m).dn 0 d c)
      = bigSep Finset.univ fun c : Fin 2 => bigSep Finset.univ fun s : Fin 16 => tOut m d c s := by
  show (bigSep Finset.univ fun c : Fin ((K (F := F)).nCore 0) => bigSep Finset.univ fun i : Fin ((K (F := F)).nSub 0) =>
      tOut m d (Fin.cast nCore_zero c) (Fin.cast nSub_zero i)) = _
  rw [← bigSep_cores (F := F) (fun c => bigSep Finset.univ fun s : Fin 16 => tOut m d c s)]
  exact bigSep_congr fun c _ => bigSep_tasks (F := F) (fun s => tOut m d (Fin.cast nCore_zero c) s)

/-- What @main leaves the claim: the batch and the table at their launch contents, the result at the one function. -/
abbrev FIN (d : Dev nD) : sProp 𝕄 :=
  iprop((aLoc d ↦{fullShare} m (aLoc d)) ∗ (xLoc d ↦{fullShare} m (xLoc d))
    ∗ (oLoc d ↦{fullShare} KG (cstK (F := F)) (sflOf (m (aLoc d))) (m (xLoc d))))

set_option maxRecDepth 16384 in
/-- @main on device d's TensorCore: the reshape (the batch read, the flat list written); the cut of the flat list, the
    table and the result among the 32 tiles, the call, the join; the batch kept throughout. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the reshape
  iapply (wp_hlo_within 𝒱 (SparseCore.T d) none Set.univ (op := opR) (S := S4) hR (V := V0 m d)) $$ [Hb Hheld]
  · isplitl [Hb] <;> iassumption
  iintro ⟨Hb, Hheld⟩
  rw [wp_ret]; imodintro
  ihave Hh := (Entails.of_eq (held_V1 (F := F) m d)) $$ Hheld
  icases Hh with ⟨Ha, Hx, Hi, Ho⟩
  -- the cut
  ihave Hd := (dealIn (F := F) d (sflOf (m (aLoc d))) (m (xLoc d)) (m (oLoc d))).1 $$ [Hi Hx Ho]
  · isplitl [Hi]; · iexact Hi
    isplitl [Hx]; · iexact Hx
    iexact Ho
  icases Hd with ⟨Hrem, Htiles⟩
  -- the call
  iapply ((K (F := F)).wp_run (D (F := F)) 𝒱 (EH := EH) (P := P m) κ d 0) $$ [Hst Htiles Hb Ha Hrem]
  isplitr; · iexact Hctx
  isplitl [Hst]; · iexact Hst
  isplitl [Htiles]
  · rw [st0_eq]; iexact Htiles
  iintro ⟨Hst, Hdn⟩
  ihave Hdn' := (Entails.of_eq (dn0_eq m d)) $$ Hdn
  -- the join
  ihave Hj := (dealOut (F := F) d (sflOf (m (aLoc d))) (m (xLoc d)) (KG (cstK (F := F)) (sflOf (m (aLoc d))) (m (xLoc d)))).2 $$ [Hrem Hdn']
  · isplitl [Hrem]; · iexact Hrem
    iexact Hdn'
  icases Hj with ⟨-, Hx, Ho⟩
  imodintro
  isplitl [Hst]; · iexact Hst
  isplitl [Ha]; · iexact Ha
  isplitl [Hx]; · iexact Hx
  iexact Ho

def fq (d : Dev nD) (s' : Phys nD τ sig (Elt F)) : Prop :=
  s'.mem.mem (oLoc d) = KG (cstK (F := F)) (sflOf (m (aLoc d))) (m (xLoc d)) ∧ s'.mem.mem (aLoc d) = m (aLoc d) ∧ s'.mem.mem (xLoc d) = m (xLoc d)

set_option maxRecDepth 16384 in
theorem hfin (d : Dev nD) (s' : Phys nD τ sig (Elt F)) : iprop(FIN m d ∗ SI s') ⊢ (⌜fq m d s'⌝ : sProp 𝕄) := by
  iintro ⟨⟨Ha, Hx, Ho⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h2, HSI, -⟩
  ihave H := (SI_pointsTo_agree (st := s') (ℓ := oLoc d) (I := Finset.univ) (q := fullShare)
    (f := KG (cstK (F := F)) (sflOf (m (aLoc d))) (m (xLoc d)))) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

theorem run_main [∀ e, Nonempty (Elt F e)] (m : (ℓ : Loc nD τ sig) → Buf (Elt F) ℓ) (ρ : Dev nD → PrngReg) (htile : TileStmt (F := F) m) :
    θ_run (Cert.Kernel.defs (F := F)) (Cert.Kernel.threads (F := F)) ⟨m, fun _ => 0, ρ⟩
      (fun r => ∀ c : Dev nD,
        r.2.mem (oLoc c) = KG (cstK (F := F)) (sflOf (m (aLoc c))) (m (xLoc c))
        ∧ r.2.mem (aLoc c) = m (aLoc c) ∧ r.2.mem (xLoc c) = m (xLoc c)) :=
  SparseCore.Cfg.θ_run_sc (K := K (F := F)) (D := D (F := F)) (𝒱 := 𝒱) (EH := EH) (P := P m) facts v₀
    (fun q hq => match q with | 0 => nomatch hq)
    (fun q _ => match q with | 0 => tileObl m facts htile)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) _ (fun _ h => h)

end Cert.KB

end
-- ==== Proof.KBOwn.lean ====
/-
  A tile's own scratch and semaphores, taken out of the bundles the launch hands it: its seven DMA semaphore cells at zero and
  its three scratch buffers at some contents, beside the rest.
-/
import proofs.«207326_g40819369181559_retrytranche2_1852_22_alg».proof.Proof.KBStmt

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.Kernel.main_v0_scv : Memref Cert.Kernel.sig Kind.scVector Space.hbm Cert.Kernel.S106496 EltTy.i32)
local notation "xV" => (Memref.whole Cert.Kernel.main_arg1_scv : Memref Cert.Kernel.sig Kind.scVector Space.hbm Cert.Kernel.S2600000x128 EltTy.f32)
local notation "oV" => (Memref.whole Cert.Kernel.main_v1_scv : Memref Cert.Kernel.sig Kind.scVector Space.hbm Cert.Kernel.S4096x128 EltTy.f32)
local notation "sV" => (Memref.whole Cert.Kernel.cc0_scratch0 : Memref Cert.Kernel.sig Kind.scVector Space.vmem Cert.Kernel.S3328 EltTy.i32)
local notation "rV" => (Memref.whole Cert.Kernel.cc0_scratch1 : Memref Cert.Kernel.sig Kind.scVector Space.vmem Cert.Kernel.S4x104x128 EltTy.f32)
local notation "aV" => (Memref.whole Cert.Kernel.cc0_scratch2 : Memref Cert.Kernel.sig Kind.scVector Space.vmem Cert.Kernel.S128x128 EltTy.f32)

variable [FloatOps F]
variable (d : Dev nD) (L : grid0.Coords)

abbrev thr : Thread nD τ := V d (cV L) (jV L)

abbrev cell0 : GSem nD τ sig := (thr d L, .dma cc0_scratch3.sem)
abbrev cell1 : GSem nD τ sig := (thr d L, .dma cc0_scratch4.sem)
abbrev cell2 : GSem nD τ sig := (thr d L, .dma cc0_scratch5.sem)
abbrev cell3 : GSem nD τ sig := (thr d L, .dma cc0_scratch6.sem)
abbrev cell4 : GSem nD τ sig := (thr d L, .dma cc0_scratch7.sem)
abbrev cell5 : GSem nD τ sig := (thr d L, .dma cc0_scoped0.sem)
abbrev cell6 : GSem nD τ sig := (thr d L, .dma cc0_scoped1.sem)

omit [FloatOps F] in
theorem ownSems0_V :
    (ownSems0 (thr d L) : sProp 𝕄)
      = iprop(semVal (cell0 d L) 0 ∗ semVal (cell1 d L) 0 ∗ semVal (cell2 d L) 0 ∗ semVal (cell3 d L) 0 ∗ semVal (cell4 d L) 0 ∗ semVal (cell5 d L) 0 ∗ semVal (cell6 d L) 0
          ∗ bigSep (((((((((ownCells (thr d L)).erase (cell0 d L)).erase (cell1 d L)).erase (cell2 d L)).erase (cell3 d L)).erase (cell4 d L)).erase (cell5 d L)).erase (cell6 d L))) fun g => semVal g 0) := by
  unfold SparseCore.Cfg.ownSems0
  rw [SparseCore.bigSep_erase' ((mem_ownCells (g := cell0 d L)).mpr ⟨rfl, by show (SemLoc.dma cc0_scratch3.sem : SemLoc sig).isScoped .scVector = true; decide⟩),
    SparseCore.bigSep_erase' (Finset.mem_erase.mpr ⟨by simp [cell0, cell1]; decide, (mem_ownCells (g := cell1 d L)).mpr ⟨rfl, by show (SemLoc.dma cc0_scratch4.sem : SemLoc sig).isScoped .scVector = true; decide⟩⟩),
    SparseCore.bigSep_erase' (Finset.mem_erase.mpr ⟨by simp [cell1, cell2]; decide, Finset.mem_erase.mpr ⟨by simp [cell0, cell2]; decide, (mem_ownCells (g := cell2 d L)).mpr ⟨rfl, by show (SemLoc.dma cc0_scratch5.sem : SemLoc sig).isScoped .scVector = true; decide⟩⟩⟩),
    SparseCore.bigSep_erase' (Finset.mem_erase.mpr ⟨by simp [cell2, cell3]; decide, Finset.mem_erase.mpr ⟨by simp [cell1, cell3]; decide, Finset.mem_erase.mpr ⟨by simp [cell0, cell3]; decide, (mem_ownCells (g := cell3 d L)).mpr ⟨rfl, by show (SemLoc.dma cc0_scratch6.sem : SemLoc sig).isScoped .scVector = true; decide⟩⟩⟩⟩),
    SparseCore.bigSep_erase' (Finset.mem_erase.mpr ⟨by simp [cell3, cell4]; decide, Finset.mem_erase.mpr ⟨by simp [cell2, cell4]; decide, Finset.mem_erase.mpr ⟨by simp [cell1, cell4]; decide, Finset.mem_erase.mpr ⟨by simp [cell0, cell4]; decide, (mem_ownCells (g := cell4 d L)).mpr ⟨rfl, by show (SemLoc.dma cc0_scratch7.sem : SemLoc sig).isScoped .scVector = true; decide⟩⟩⟩⟩⟩),
    SparseCore.bigSep_erase' (Finset.mem_erase.mpr ⟨by simp [cell4, cell5]; decide, Finset.mem_erase.mpr ⟨by simp [cell3, cell5]; decide, Finset.mem_erase.mpr ⟨by simp [cell2, cell5]; decide, Finset.mem_erase.mpr ⟨by simp [cell1, cell5]; decide, Finset.mem_erase.mpr ⟨by simp [cell0, cell5]; decide, (mem_ownCells (g := cell5 d L)).mpr ⟨rfl, by show (SemLoc.dma cc0_scoped0.sem : SemLoc sig).isScoped .scVector = true; decide⟩⟩⟩⟩⟩⟩),
    SparseCore.bigSep_erase' (Finset.mem_erase.mpr ⟨by simp [cell5, cell6]; decide, Finset.mem_erase.mpr ⟨by simp [cell4, cell6]; decide, Finset.mem_erase.mpr ⟨by simp [cell3, cell6]; decide, Finset.mem_erase.mpr ⟨by simp [cell2, cell6]; decide, Finset.mem_erase.mpr ⟨by simp [cell1, cell6]; decide, Finset.mem_erase.mpr ⟨by simp [cell0, cell6]; decide, (mem_ownCells (g := cell6 d L)).mpr ⟨rfl, by show (SemLoc.dma cc0_scoped1.sem : SemLoc sig).isScoped .scVector = true; decide⟩⟩⟩⟩⟩⟩⟩)]

omit [FloatOps F] in
/-- The three scratch buffers are among the tile's own: they are them, at some contents, and the rest. -/
theorem ownBufs_V :
    (ownBufs (thr d L) : sProp 𝕄)
      = iprop((∃ f, (thr d L).loc cc0_scratch0 ↦{fullShare} f) ∗ (∃ f, (thr d L).loc cc0_scratch1 ↦{fullShare} f) ∗ (∃ f, (thr d L).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := Proc.scVector (cV L) (jV L)) (b := (Proc.scVector (cV L) (jV L)).devRef cc0_scratch2) rfl⟩⟩)]

end Cert.KB

end
-- ==== Proof.KBIdx.lean ====
/-
  The index scratch of one tile, word by word: what the copy from the flattened index list lands, what the two passes
  that add 100000 · (position mod 26) leave, and the bounds the gathers need.
-/
import proofs.«207326_g40819369181559_retrytranche2_1852_22_alg».proof.Proof.KBStmt
import Idealize.ShloMosaic.Lib.Writes
import Idealize.ShloMosaic.Lib.Pipeline.Value
import Idealize.ShloMosaic.Lib.ValueIdx

noncomputable section

namespace Cert.KB

open Cert.Kernel Cert.Kernel.Gen
open Idealize.ShloMosaic Idealize.ShloMosaic.ValueIdx

/-- Tile (c, s) is worker 2 s + c. -/
def wid (L : grid0.Coords) : ℕ := 2 * (L 1).val + (L 0).val

/-- Position p of the tile's part of the flattened index list. -/
def rawIdx (L : grid0.Coords) (sfl : IVec S106496 32) (p : ℕ) : BitVec 32 :=
  sfl (ix1 (⟨(3328 * wid L + p) % 106496, Nat.mod_lt _ (by norm_num)⟩ : Fin 106496))

/-- The word at position p once 100000 · (p mod 26) has been added to it. -/
def fixWord (w : BitVec 32) (p : ℕ) : BitVec 32 := w + BitVec.ofNat 32 (p % 26) * 100000#32

/-- The index scratch when positions below n have been moved into their fields' blocks and the others not yet. -/
def idxAfter (L : grid0.Coords) (sfl : IVec S106496 32) (n : ℕ) : S3328.Idx → BitVec 32 :=
  fun i => if (i 0).val < n then fixWord (rawIdx L sfl (i 0).val) (i 0).val else rawIdx L sfl (i 0).val

/-! ## What the first copy lands -/

local notation "iV" => (Memref.whole Cert.Kernel.main_v0_scv : Memref Cert.Kernel.sig Kind.scVector Space.hbm Cert.Kernel.S106496 EltTy.i32)
local notation "sV" => (Memref.whole Cert.Kernel.cc0_scratch0 : Memref Cert.Kernel.sig Kind.scVector Space.vmem Cert.Kernel.S3328 EltTy.i32)

variable {F : FTy → Type} [FloatOps F]

/-- There are 32 workers. -/
theorem wid_lt (L : grid0.Coords) : wid L < 32 := by
  have h0 : (L 0).val < 2 := (L 0).isLt
  have h1 : (L 1).val < 16 := (L 1).isLt
  unfold wid; omega

/-- The copy of the tile's 3328 words of the flattened index list lands them as they are: nothing moved yet. -/
theorem landed_eq (L : grid0.Coords) (sfl : IVec S106496 32) :
    ReadAs.same.apply (View.read (Elt F) ((iV).slice (Rect.unit (s := S106496) (k0_off1 L) S3328.size (k0_off1_inb L)) (fun _ => rfl)).view sfl)
      = idxAfter L sfl 0 := by
  funext x
  have hx : (x 0).val < 3328 := (x 0).isLt
  have h0 : (L 0).val < 2 := (L 0).isLt
  have h1 : (L 1).val < 16 := (L 1).isLt
  refine ((View.read_apply _ _).trans (cast_eq _ _)).trans ?_
  unfold idxAfter
  rw [if_neg (Nat.not_lt_zero _)]
  unfold rawIdx
  refine congrArg sfl (funext fun a => Fin.ext ?_)
  match a with
  | ⟨0, _⟩ =>
    show k0_off1 L 0 + 1 * (x 0).val = (3328 * wid L + (x 0).val) % 106496
    have e : k0_off1 L 0 = 6656 * (L 1).val + 3328 * (L 0).val := congrFun (k0_off1_eq L) 0
    unfold wid
    omega

/-! ## One store of 16 lanes -/

/-- A store of 16 lanes at offset o whose lane y holds the moved word of position o + y, over the scratch moved below o,
    leaves the scratch moved below o + 16. -/
theorem fix_step_gen (L : grid0.Coords) (sfl : IVec S106496 32) (o : ℕ) (off : Fin 1 → ℕ) (hoff : off = ![o])
    (inb : ∀ a, off a + S16.size a ≤ S3328.size a) (w : S16.Idx → BitVec 32)
    (hw : ∀ y : S16.Idx, w y = fixWord (rawIdx L sfl (o + (y 0).val)) (o + (y 0).val)) :
    (sV).view.writes (Elt F) (idxAfter L sfl o) [⟨Rect.unit (s := S3328) off S16.size inb, w⟩] = idxAfter L sfl (o + 16) := by
  subst hoff
  funext i
  have hi3 : (i 0).val < 3328 := (i 0).isLt
  have hb : o + 16 ≤ 3328 := inb 0
  by_cases hin : o ≤ (i 0).val ∧ (i 0).val < o + 16
  · obtain ⟨y, rfl⟩ : ∃ y : S16.Idx, (Rect.unit (s := S3328) ![o] S16.size inb).emb y = i :=
      ⟨ix1 (⟨(i 0).val - o, by omega⟩ : Fin 16), funext fun a => Fin.ext (by
        match a with
        | ⟨0, _⟩ => show o + 1 * ((i 0).val - o) = (i 0).val; omega)⟩
    have hy : (y 0).val < 16 := (y 0).isLt
    have e : ((Rect.unit (s := S3328) ![o] S16.size inb).emb y 0).val = o + (y 0).val := by
      show o + 1 * (y 0).val = _; omega
    refine (View.read_writes_cons_emb (Val := Elt F) (sV).view (idxAfter L sfl o) (Rect.unit (s := S3328) ![o] S16.size inb) w [] y).trans ?_
    rw [hw y]
    unfold idxAfter
    simp only [e]
    rw [if_pos (by omega)]
  · have hni : i ∉ (Rect.unit (s := S3328) ![o] S16.size inb).set := fun h => hin (Rect.mem_set_unit.mp h 0)
    refine (View.read_writes_apply_of_forall_not_mem (Val := Elt F) (sV).view (idxAfter L sfl o) i
      [⟨Rect.unit (s := S3328) ![o] S16.size inb, w⟩] (fun p hp => by rw [List.mem_singleton.mp hp]; exact hni)).trans ?_
    show idxAfter L sfl o i = idxAfter L sfl (o + 16) i
    unfold idxAfter
    by_cases h1 : (i 0).val < o
    · rw [if_pos h1, if_pos (by omega)]
    · rw [if_neg h1, if_neg (by omega)]

/-! ## The two passes' arithmetic, lane by lane -/

/-- Lane y of the lane counter is y. -/
theorem iota_apply (y : S16.Idx) : iota .scVector S16 32 [0] iota_S16_d0_w32_scVector y = BitVec.ofNat 32 (y 0).val := by
  show BitVec.ofNat 32 (0 * 16 + (y 0).val) = _
  rw [Nat.zero_mul, Nat.zero_add]

/-- Lane y of trip k of the first pass adds 100000 · ((16 k + y) mod 26): the position is below 3328, so its signed
    remainder by 26 is the natural one. -/
theorem arith1 : ∀ (k : Fin k0_t1_loop.trips) (y : Fin 16),
    IntOp.muli (IntOp.remsi .vector (IntOp.addi (Scalar.muli (Scf.iv 0#32 1#32 k) 16#32) (BitVec.ofNat 32 y.val)) 26#32) 100000#32
      = BitVec.ofNat 32 ((16 * k.val + y.val) % 26) * 100000#32 := by decide +kernel

/-- The same for the second pass, whose trip k works on positions 112 + 16 k …. -/
theorem arith2 : ∀ (k : Fin k0_t2_loop.trips) (y : Fin 16),
    IntOp.muli (IntOp.remsi .vector (IntOp.addi (Scalar.muli (Scf.iv 7#32 1#32 k) 16#32) (BitVec.ofNat 32 y.val)) 26#32) 100000#32
      = BitVec.ofNat 32 ((16 * k.val + 112 + y.val) % 26) * 100000#32 := by decide +kernel

/-- The first pass's stored value at lane y: the loaded word plus 100000 · (position mod 26). -/
theorem pay533_eq (k : Fin k0_t1_loop.trips) (v : S16.Idx → BitVec 32) (y : S16.Idx) :
    k0_pay533 (F := F) k v y = v y + BitVec.ofNat 32 ((16 * k.val + (y 0).val) % 26) * 100000#32 := by
  unfold k0_pay533
  dsimp only
  rw [shapeCast_self, shapeCast_self]
  exact congrArg (v y + ·) ((congrArg (fun t => IntOp.muli (IntOp.remsi .vector (IntOp.addi (Scalar.muli (Scf.iv 0#32 1#32 k) 16#32) t) 26#32) 100000#32)
    (iota_apply y)).trans (arith1 k (y 0)))

theorem pay534_eq (k : Fin k0_t2_loop.trips) (v : S16.Idx → BitVec 32) (y : S16.Idx) :
    k0_pay534 (F := F) k v y = v y + BitVec.ofNat 32 ((16 * k.val + 112 + (y 0).val) % 26) * 100000#32 := by
  unfold k0_pay534
  dsimp only
  rw [shapeCast_self, shapeCast_self]
  exact congrArg (v y + ·) ((congrArg (fun t => IntOp.muli (IntOp.remsi .vector (IntOp.addi (Scalar.muli (Scf.iv 7#32 1#32 k) 16#32) t) 26#32) 100000#32)
    (iota_apply y)).trans (arith2 k (y 0)))

/-- A load of 16 lanes at offset o from the scratch moved below o reads the words as they were copied. -/
theorem readAt_idxAfter (L : grid0.Coords) (sfl : IVec S106496 32) (o : ℕ) (off : Fin 1 → ℕ) (hoff : off = ![o])
    (inb : ∀ a, off a + S16.size a ≤ S3328.size a) (y : S16.Idx) :
    (sV).view.readAt (Elt F) (Rect.unit (s := S3328) off S16.size inb).toLoadRect (idxAfter L sfl o) y
      = rawIdx L sfl (o + (y 0).val) := by
  subst hoff
  show idxAfter L sfl o ((Rect.unit (s := S3328) ![o] S16.size inb).toLoadRect.idx y) = _
  have e : (((Rect.unit (s := S3328) ![o] S16.size inb).toLoadRect.idx y) 0).val = o + (y 0).val := by
    show o + 1 * (y 0).val = _; omega
  unfold idxAfter
  simp only [e]
  rw [if_neg (by omega)]

/-- One trip of the first pass: lanes 16 k … 16 k + 15 are moved into their fields' blocks. -/
theorem fix1_step (L : grid0.Coords) (sfl : IVec S106496 32) (k : Fin k0_t1_loop.trips) :
    (sV).view.writes (Elt F) (idxAfter L sfl (16 * k.val))
      [⟨Rect.unit (s := S3328) (k0_off2 k) S16.size (k0_off2_inb k),
        k0_pay533 (F := F) k ((sV).view.readAt (Elt F) (Rect.unit (s := S3328) (k0_off2 k) S16.size (k0_off2_inb k)).toLoadRect (idxAfter L sfl (16 * k.val)))⟩]
      = idxAfter L sfl (16 * (k.val + 1)) := by
  rw [show 16 * (k.val + 1) = 16 * k.val + 16 by omega]
  exact fix_step_gen (F := F) L sfl (16 * k.val) (k0_off2 k) (k0_off2_eq k) (k0_off2_inb k) _ (fun y => by
    rw [pay533_eq, readAt_idxAfter (F := F) L sfl (16 * k.val) (k0_off2 k) (k0_off2_eq k)]; rfl)

/-- One trip of the second pass: lanes 112 + 16 k … 112 + 16 k + 15. -/
theorem fix2_step (L : grid0.Coords) (sfl : IVec S106496 32) (k : Fin k0_t2_loop.trips) :
    (sV).view.writes (Elt F) (idxAfter L sfl (112 + 16 * k.val))
      [⟨Rect.unit (s := S3328) (k0_off3 k) S16.size (k0_off3_inb k),
        k0_pay534 (F := F) k ((sV).view.readAt (Elt F) (Rect.unit (s := S3328) (k0_off3 k) S16.size (k0_off3_inb k)).toLoadRect (idxAfter L sfl (112 + 16 * k.val)))⟩]
      = idxAfter L sfl (112 + 16 * (k.val + 1)) := by
  rw [show 112 + 16 * (k.val + 1) = 16 * k.val + 112 + 16 by omega, show 112 + 16 * k.val = 16 * k.val + 112 by omega]
  exact fix_step_gen (F := F) L sfl (16 * k.val + 112) (k0_off3 k) (k0_off3_eq k) (k0_off3_inb k) _ (fun y => by
    rw [pay534_eq, readAt_idxAfter (F := F) L sfl (16 * k.val + 112) (k0_off3 k) (k0_off3_eq k)]; rfl)

/-- The same two trips with the store spelt as one write through the access's view. -/
theorem fix1_step_raw (L : grid0.Coords) (sfl : IVec S106496 32) (k : Fin k0_t1_loop.trips) :
    ((sV).access (Rect.unit (s := S3328) (k0_off2 k) S16.size (k0_off2_inb k))).write (Elt F) (idxAfter L sfl (16 * k.val))
      (k0_pay533 (F := F) k ((sV).view.readAt (Elt F) (Rect.unit (s := S3328) (k0_off2 k) S16.size (k0_off2_inb k)).toLoadRect (idxAfter L sfl (16 * k.val))))
      Finset.univ = idxAfter L sfl (16 * (k.val + 1)) :=
  fix1_step (F := F) L sfl k

theorem fix2_step_raw (L : grid0.Coords) (sfl : IVec S106496 32) (k : Fin k0_t2_loop.trips) :
    ((sV).access (Rect.unit (s := S3328) (k0_off3 k) S16.size (k0_off3_inb k))).write (Elt F) (idxAfter L sfl (112 + 16 * k.val))
      (k0_pay534 (F := F) k ((sV).view.readAt (Elt F) (Rect.unit (s := S3328) (k0_off3 k) S16.size (k0_off3_inb k)).toLoadRect (idxAfter L sfl (112 + 16 * k.val))))
      Finset.univ = idxAfter L sfl (112 + 16 * (k.val + 1)) :=
  fix2_step (F := F) L sfl k

/-! ## The bounds the gathers need -/

/-- Every word of the flattened index list is a word of the batch. -/
theorem rawIdx_le (L : grid0.Coords) (a : IVec S4096x26 32) (h : ∀ j, (a j).toNat ≤ 99999) (p : ℕ) :
    (rawIdx L (sflOf a) p).toNat ≤ 99999 := by
  unfold rawIdx sflOf shapeCast
  exact h _

/-- A word at most 99999 moved into its field's block does not wrap. -/
theorem fixWord_toNat (w : BitVec 32) (p : ℕ) (h : w.toNat ≤ 99999) : (fixWord w p).toNat = w.toNat + 100000 * (p % 26) := by
  have hp : p % 26 < 26 := Nat.mod_lt _ (by norm_num)
  have e : (100000#32 : BitVec 32).toNat = 100000 := rfl
  unfold fixWord
  rw [BitVec.toNat_add, BitVec.toNat_mul, BitVec.toNat_ofNat, e]
  omega

theorem fixWord_lt (w : BitVec 32) (p : ℕ) (h : w.toNat ≤ 99999) : (fixWord w p).toNat < 2600000 := by
  have hp : p % 26 < 26 := Nat.mod_lt _ (by norm_num)
  rw [fixWord_toNat w p h]
  omega

/-! ## A window of 104 words, read through any spelling of its slice -/

/-- Once the positions below n have been moved, the words of window j (positions 104 j … 104 j + 103, all below n) read
    as moved words. -/
theorem win_read (L : grid0.Coords) (sfl : IVec S106496 32) (n j : ℕ) (hj : 104 * (j + 1) ≤ n) (off : Fin 1 → Nat)
    (hb : ∀ a, off a + S104.size a ≤ S3328.size a) (hoff : off = ![104 * j]) (x : S104.Idx) :
    ((sV).slice (Rect.unit (s := S3328) off S104.size hb) (fun _ => rfl)).view.read (Elt F) (idxAfter L sfl n) x
      = fixWord (rawIdx L sfl (104 * j + (x 0).val)) (104 * j + (x 0).val) := by
  subst hoff
  have hx : (x 0).val < 104 := (x 0).isLt
  refine ((View.read_apply _ _).trans (cast_eq _ _)).trans ?_
  have e : ((((sV).slice (Rect.unit (s := S3328) ![104 * j] S104.size hb) (fun _ => rfl)).view.emb x) 0).val = 104 * j + (x 0).val := by
    show 104 * j + 1 * (x 0).val = _; omega
  unfold idxAfter
  simp only [e]
  rw [if_pos (by omega)]

/-- … and each is a row of the table: the gathers' offsets are in range. -/
theorem win_inb (L : grid0.Coords) (sfl : IVec S106496 32) (n j : ℕ) (hj : 104 * (j + 1) ≤ n) (off : Fin 1 → Nat)
    (hb : ∀ a, off a + S104.size a ≤ S3328.size a) (hoff : off = ![104 * j]) (hraw : ∀ p, (rawIdx L sfl p).toNat ≤ 99999) :
    ∀ x, (((sV).slice (Rect.unit (s := S3328) off S104.size hb) (fun _ => rfl)).view.read (Elt F) (idxAfter L sfl n) x).toNat
      < S2600000x128.size gathers_S2600000x128_S104x128.axis := by
  intro x
  rw [win_read (F := F) L sfl n j hj off hb hoff x]
  exact fixWord_lt _ _ (hraw _)

end Cert.KB

end
-- ==== Proof.KBInv.lean ====
/-
  The invariant of the loop that drains the four row buffers (8 trips of 4 chunks), for one tile.

  The tile's 3328 index words are 32 windows of 104 (a chunk = 4 bags of 26 fields). Chunk j is gathered into row buffer
  j mod 4 and summed into rows 4 j … 4 j + 3 of the out scratch. Between trips t − 1 and t (chunks below 4 t done):
  * chunks 4 t, 4 t + 1, 4 t + 2 are being gathered into buffers 0, 1, 2 (none once t = 8); each outstanding gather
    holds its buffer, its window of the index scratch and its read token of the table, and gives them back at its wait,
    the buffer then holding, at row k, the table row that position 104 j + k of the tile's index words names;
  * every other window of the index scratch is held outright, each by its own elements, at the words as the two passes
    left them;
  * buffer 3 is idle;
  * rows below 16 t of the out scratch hold the bags' scaled sums, the rows from 16 t on what they held at the loop's
    entry; from trip 4 on the upper half (rows 0 … 63) is lent to the copy into the result's block, which also holds
    that block, and the tile keeps the lower half.
-/
import proofs.«207326_g40819369181559_retrytranche2_1852_22_alg».proof.Proof.KBIdx

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "iV" => (Memref.whole Cert.Kernel.main_v0_scv : Memref Cert.Kernel.sig Kind.scVector Space.hbm Cert.Kernel.S106496 EltTy.i32)
local notation "xV" => (Memref.whole Cert.Kernel.main_arg1_scv : Memref Cert.Kernel.sig Kind.scVector Space.hbm Cert.Kernel.S2600000x128 EltTy.f32)
local notation "oV" => (Memref.whole Cert.Kernel.main_v1_scv : Memref Cert.Kernel.sig Kind.scVector Space.hbm Cert.Kernel.S4096x128 EltTy.f32)
local notation "sV" => (Memref.whole Cert.Kernel.cc0_scratch0 : Memref Cert.Kernel.sig Kind.scVector Space.vmem Cert.Kernel.S3328 EltTy.i32)
local notation "rV" => (Memref.whole Cert.Kernel.cc0_scratch1 : Memref Cert.Kernel.sig Kind.scVector Space.vmem Cert.Kernel.S4x104x128 EltTy.f32)
local notation "aV" => (Memref.whole Cert.Kernel.cc0_scratch2 : Memref Cert.Kernel.sig Kind.scVector Space.vmem Cert.Kernel.S128x128 EltTy.f32)

variable [FloatOps F]
variable (d : Dev nD) (L : grid0.Coords)

abbrev thrT : Thread nD τ := V d (cV L) (jV L)

abbrev slot0 : Memref sig .scVector .vmem S104x128 .f32 :=
  ((rV).slice (Rect.unit (s := S4x104x128) ![0, 0, 0] S1x104x128.size inb_S4x104x128_S1x104x128_0_0_0) (fun _ => rfl)).squeeze S104x128 squeezes_S1x104x128_S104x128
abbrev slot1 : Memref sig .scVector .vmem S104x128 .f32 :=
  ((rV).slice (Rect.unit (s := S4x104x128) ![1, 0, 0] S1x104x128.size inb_S4x104x128_S1x104x128_1_0_0) (fun _ => rfl)).squeeze S104x128 squeezes_S1x104x128_S104x128
abbrev slot2 : Memref sig .scVector .vmem S104x128 .f32 :=
  ((rV).slice (Rect.unit (s := S4x104x128) ![2, 0, 0] S1x104x128.size inb_S4x104x128_S1x104x128_2_0_0) (fun _ => rfl)).squeeze S104x128 squeezes_S1x104x128_S104x128
abbrev slot3 : Memref sig .scVector .vmem S104x128 .f32 :=
  ((rV).slice (Rect.unit (s := S4x104x128) ![3, 0, 0] S1x104x128.size inb_S4x104x128_S1x104x128_3_0_0) (fun _ => rfl)).squeeze S104x128 squeezes_S1x104x128_S104x128

/-- The out scratch's halves, as the copies out spell them. -/
abbrev aTop : Memref sig .scVector .vmem S64x128 .f32 := (aV).slice (Rect.unit (s := S128x128) ![0, 0] S64x128.size inb_S128x128_S64x128_0_0) (fun _ => rfl)
abbrev aBot : Memref sig .scVector .vmem S64x128 .f32 := (aV).slice (Rect.unit (s := S128x128) ![64, 0] S64x128.size inb_S128x128_S64x128_64_0) (fun _ => rfl)

/-- The trip at whose end the copy of the upper half starts. -/
def t3three : Fin k0_t3_loop.trips := ⟨3, by decide⟩
theorem h8three : k0_cond8 t3three = 1#1 := by decide +kernel

/-- The result's block that copy writes (rows 128 w … 128 w + 63 for worker w). -/
abbrev oTop : Memref sig .scVector .hbm S64x128 .f32 :=
  (oV).slice (Rect.unit (s := S4096x128) (k0_off108 L) S64x128.size (k0_off108_inb L t3three h8three)) (fun _ => rfl)

/-! ## The index scratch: 32 windows -/

/-- The index scratch once both passes are over. -/
abbrev fixC (sfl : IVec S106496 32) : S3328.Idx → BitVec 32 := idxAfter L sfl 3328

theorem winM_inb (j : ℕ) : ∀ a, (![104 * (j % 32)] : Fin 1 → ℕ) a + S104.size a ≤ S3328.size a := by
  intro a
  have ha : a = 0 := Subsingleton.elim _ _
  subst ha
  show 104 * (j % 32) + 104 ≤ 3328
  omega

/-- Window j (positions 104 j … 104 j + 103), j below 32. -/
abbrev winM (j : ℕ) : Memref sig .scVector .vmem S104 .i32 :=
  (sV).slice (Rect.unit (s := S3328) ![104 * (j % 32)] S104.size (winM_inb j)) (fun _ => rfl)

/-- Window j held outright by its own elements. -/
def winPts (sfl : IVec S106496 32) (j : ℕ) : sProp 𝕄 :=
  (winM j).view.loc (thrT d L) ↦[(winM j).view.set]{fullShare} fixC L sfl

/-- The windows not lent to a gather when chunks lo, lo + 1, lo + 2 are being gathered. -/
def idleSet (lo : ℕ) : Finset (Fin 32) := Finset.univ.filter fun j => j.val < lo ∨ lo + 3 ≤ j.val

def wins (sfl : IVec S106496 32) (lo : ℕ) : sProp 𝕄 := bigSep (idleSet lo) fun j => winPts d L sfl j.val

/-! ## The values -/

/-- What chunk j's gather leaves in its row buffer: at row k, the table row that position 104 j + k of the tile's index
    words names, i.e. field k mod 26 of bag 128 w + 4 j + k / 26. The same whichever of the four buffers. -/
def rowsFn (sfl : IVec S106496 32) (tab : FVec F S2600000x128 .f32) (j : ℕ) : S4x104x128.Idx → F .f32 :=
  fun i => tab (ix2 (krow sfl (128 * wid L + 4 * j + (i 1).val / 26) ((i 1).val % 26)) (i 2))

/-- The out scratch when its first n rows are done: row r below n is bag 128 w + r's 26 rows summed left to right and
    scaled; the others are as at the loop's entry. -/
def outFn (sfl : IVec S106496 32) (tab : FVec F S2600000x128 .f32) (fa0 : S128x128.Idx → F .f32) (n : ℕ) : S128x128.Idx → F .f32 :=
  fun i => if (i 0).val < n then FloatOps.mulf (accTo (fun f => tab (ix2 (krow sfl (128 * wid L + (i 0).val) f) (i 1))) 25) (cstK (F := F)) else fa0 i

/-! ## The four row buffers -/

/-- Row buffer 0 while chunk j's gather into it is outstanding: the wait on its cell delivers the buffer at chunk j's
    rows, window j of the index scratch and the buffer's read token of the table. -/
def inFlight0 (q : PosShare TreeShare) (sfl : IVec S106496 32) (tab : FVec F S2600000x128 .f32) (j : ℕ) : sProp 𝕄 :=
  Transfers.Flight countersEmb (thrT d L) (SemLoc.dma cc0_scratch3.sem) (default : HIx 1) 425984
    iprop(((slot0).view.loc (thrT d L) ↦[(slot0).view.set]{fullShare} rowsFn L sfl tab j) ∗ winPts d L sfl j
      ∗ ((xV).view.loc (thrT d L) ↦{Transfers.shareTok q 7 0} tab))
/-- Row buffer 0 with no gather outstanding: the buffer at any contents, its read token of the table, its cell at zero. -/
def idle0 (q : PosShare TreeShare) (tab : FVec F S2600000x128 .f32) : sProp 𝕄 :=
  iprop((∃ f, (slot0).view.loc (thrT d L) ↦[(slot0).view.set]{fullShare} f)
    ∗ ((xV).view.loc (thrT d L) ↦{Transfers.shareTok q 7 0} tab) ∗ semVal (thrT d L, SemLoc.dma cc0_scratch3.sem) 0)

/-- Row buffer 1 while chunk j's gather into it is outstanding: the wait on its cell delivers the buffer at chunk j's
    rows, window j of the index scratch and the buffer's read token of the table. -/
def inFlight1 (q : PosShare TreeShare) (sfl : IVec S106496 32) (tab : FVec F S2600000x128 .f32) (j : ℕ) : sProp 𝕄 :=
  Transfers.Flight countersEmb (thrT d L) (SemLoc.dma cc0_scratch4.sem) (default : HIx 1) 425984
    iprop(((slot1).view.loc (thrT d L) ↦[(slot1).view.set]{fullShare} rowsFn L sfl tab j) ∗ winPts d L sfl j
      ∗ ((xV).view.loc (thrT d L) ↦{Transfers.shareTok q 7 1} tab))
/-- Row buffer 1 with no gather outstanding: the buffer at any contents, its read token of the table, its cell at zero. -/
def idle1 (q : PosShare TreeShare) (tab : FVec F S2600000x128 .f32) : sProp 𝕄 :=
  iprop((∃ f, (slot1).view.loc (thrT d L) ↦[(slot1).view.set]{fullShare} f)
    ∗ ((xV).view.loc (thrT d L) ↦{Transfers.shareTok q 7 1} tab) ∗ semVal (thrT d L, SemLoc.dma cc0_scratch4.sem) 0)

/-- Row buffer 2 while chunk j's gather into it is outstanding: the wait on its cell delivers the buffer at chunk j's
    rows, window j of the index scratch and the buffer's read token of the table. -/
def inFlight2 (q : PosShare TreeShare) (sfl : IVec S106496 32) (tab : FVec F S2600000x128 .f32) (j : ℕ) : sProp 𝕄 :=
  Transfers.Flight countersEmb (thrT d L) (SemLoc.dma cc0_scratch5.sem) (default : HIx 1) 425984
    iprop(((slot2).view.loc (thrT d L) ↦[(slot2).view.set]{fullShare} rowsFn L sfl tab j) ∗ winPts d L sfl j
      ∗ ((xV).view.loc (thrT d L) ↦{Transfers.shareTok q 7 2} tab))
/-- Row buffer 2 with no gather outstanding: the buffer at any contents, its read token of the table, its cell at zero. -/
def idle2 (q : PosShare TreeShare) (tab : FVec F S2600000x128 .f32) : sProp 𝕄 :=
  iprop((∃ f, (slot2).view.loc (thrT d L) ↦[(slot2).view.set]{fullShare} f)
    ∗ ((xV).view.loc (thrT d L) ↦{Transfers.shareTok q 7 2} tab) ∗ semVal (thrT d L, SemLoc.dma cc0_scratch5.sem) 0)

/-- Row buffer 3 while chunk j's gather into it is outstanding: the wait on its cell delivers the buffer at chunk j's
    rows, window j of the index scratch and the buffer's read token of the table. -/
def inFlight3 (q : PosShare TreeShare) (sfl : IVec S106496 32) (tab : FVec F S2600000x128 .f32) (j : ℕ) : sProp 𝕄 :=
  Transfers.Flight countersEmb (thrT d L) (SemLoc.dma cc0_scratch6.sem) (default : HIx 1) 425984
    iprop(((slot3).view.loc (thrT d L) ↦[(slot3).view.set]{fullShare} rowsFn L sfl tab j) ∗ winPts d L sfl j
      ∗ ((xV).view.loc (thrT d L) ↦{Transfers.shareTok q 7 3} tab))
/-- Row buffer 3 with no gather outstanding: the buffer at any contents, its read token of the table, its cell at zero. -/
def idle3 (q : PosShare TreeShare) (tab : FVec F S2600000x128 .f32) : sProp 𝕄 :=
  iprop((∃ f, (slot3).view.loc (thrT d L) ↦[(slot3).view.set]{fullShare} f)
    ∗ ((xV).view.loc (thrT d L) ↦{Transfers.shareTok q 7 3} tab) ∗ semVal (thrT d L, SemLoc.dma cc0_scratch6.sem) 0)

/-- Buffers 0, 1, 2 between trips: gathering chunks 4 t, 4 t + 1, 4 t + 2, or idle once the loop is over. -/
def ringSlots (q : PosShare TreeShare) (sfl : IVec S106496 32) (tab : FVec F S2600000x128 .f32) (t : ℕ) : sProp 𝕄 :=
  if t < 8 then iprop(inFlight0 d L q sfl tab (4 * t) ∗ inFlight1 d L q sfl tab (4 * t + 1) ∗ inFlight2 d L q sfl tab (4 * t + 2))
  else iprop(idle0 d L q tab ∗ idle1 d L q tab ∗ idle2 d L q tab)

/-! ## The out scratch and the copy of its upper half -/

/-- Up to trip 3: the out scratch whole, the copy's cell at zero, the result's block untouched. -/
def aEarly (sfl : IVec S106496 32) (tab : FVec F S2600000x128 .f32) (fa0 : S128x128.Idx → F .f32) (o : FVec F S4096x128 .f32) (n : ℕ) : sProp 𝕄 :=
  iprop(((aV).view.loc (thrT d L) ↦{fullShare} outFn L sfl tab fa0 n) ∗ semVal (thrT d L, SemLoc.dma cc0_scratch7.sem) 0
    ∗ ((oTop L).view.loc (thrT d L) ↦[(oTop L).view.set]{fullShare} o))

/-- The copy of the upper half, outstanding: its wait delivers the result's block written with rows 0 … 63 of the out
    scratch (all done: n = 64), and the upper half back. -/
def copyFlight (sfl : IVec S106496 32) (tab : FVec F S2600000x128 .f32) (fa0 : S128x128.Idx → F .f32) (o : FVec F S4096x128 .f32) : sProp 𝕄 :=
  Transfers.Flight countersEmb (thrT d L) (SemLoc.dma cc0_scratch7.sem) (default : HIx 1) 262144
    iprop(((oTop L).view.loc (thrT d L) ↦[(oTop L).view.set]{fullShare}
          (oTop L).view.writes (Elt F) o [⟨Rect.whole S64x128, ReadAs.same.apply (View.read (Elt F) (aTop).view (outFn L sfl tab fa0 64))⟩])
      ∗ ((aV).view.loc (thrT d L) ↦[(aTop).view.set]{fullShare} outFn L sfl tab fa0 64))

/-- From trip 4 on: the lower half held by its own elements, the copy outstanding. -/
def aLate (sfl : IVec S106496 32) (tab : FVec F S2600000x128 .f32) (fa0 : S128x128.Idx → F .f32) (o : FVec F S4096x128 .f32) (n : ℕ) : sProp 𝕄 :=
  iprop(((aV).view.loc (thrT d L) ↦[(aBot).view.set]{fullShare} outFn L sfl tab fa0 n) ∗ copyFlight d L sfl tab fa0 o)

def aState (sfl : IVec S106496 32) (tab : FVec F S2600000x128 .f32) (fa0 : S128x128.Idx → F .f32) (o : FVec F S4096x128 .f32) (t : ℕ) : sProp 𝕄 :=
  if t ≤ 3 then aEarly d L sfl tab fa0 o (16 * t) else aLate d L sfl tab fa0 o (16 * t)

/-! ## The invariant -/

/-- Between trips t − 1 and t of the loop (t = 0: at its entry; t = 8: at its exit). The carried word is not used. -/
def ringInv (q : PosShare TreeShare) (O : CellTallies nD τ sig (HIx 1)) (W : Waits sig (HIx 1))
    (sfl : IVec S106496 32) (tab : FVec F S2600000x128 .f32) (fa0 : S128x128.Idx → F .f32) (o : FVec F S4096x128 .f32)
    (t : ℕ) (_ : BitVec 32) : sProp 𝕄 :=
  iprop(□ Transfers.MayWaits (thrT d L) (default : HIx 1) O
    ∗ wins d L sfl (4 * t)
    ∗ ringSlots d L q sfl tab t
    ∗ idle3 d L q tab
    ∗ aState d L sfl tab fa0 o t
    ∗ ∃ W', ⌜∀ p ∈ W', p ∈ W ∨ p.2 = none⌝ ∗ owes (thrT d L) O W')

/-- At the loop's entry nothing of the out scratch is done. -/
theorem outFn_zero (sfl : IVec S106496 32) (tab : FVec F S2600000x128 .f32) (fa0 : S128x128.Idx → F .f32) : outFn L sfl tab fa0 0 = fa0 := by
  funext i; unfold outFn; rw [if_neg (Nat.not_lt_zero _)]

/-- A window in any spelling of its slice is the window. -/
theorem winPts_spell (sfl : IVec S106496 32) (j : ℕ) (off : Fin 1 → ℕ) (hb : ∀ a, off a + S104.size a ≤ S3328.size a) (hoff : off = ![104 * (j % 32)]) :
    (((sV).slice (Rect.unit (s := S3328) off S104.size hb) (fun _ => rfl)).view.loc (thrT d L)
        ↦[((sV).slice (Rect.unit (s := S3328) off S104.size hb) (fun _ => rfl)).view.set]{fullShare} fixC L sfl : sProp 𝕄)
      = winPts d L sfl j := by
  subst hoff; rfl

end Cert.KB

end
-- ==== Proof.KBWin.lean ====
/-
  The index scratch of one tile cut into its 32 windows of 104 words (four bags each): the windows are disjoint and cover
  the scratch, so owning the scratch is owning the family of its windows; a window can be taken out of the family and put
  back; and the second pass, which works on positions 112 and up, never touches window 0.
-/
import proofs.«207326_g40819369181559_retrytranche2_1852_22_alg».proof.Proof.KBStmt
import Idealize.ShloMosaic.Rules.PointsTo

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

local notation "sV" => (Memref.whole Cert.Kernel.cc0_scratch0 : Memref Cert.Kernel.sig Kind.scVector Space.vmem Cert.Kernel.S3328 EltTy.i32)

/-! ## The windows -/

theorem wdiv : 32 ∣ S3328.size 0 := ⟨104, rfl⟩

/-- Window j: positions 104 j … 104 j + 103. -/
abbrev wRect (j : Fin 32) : Rect S3328 := Rect.part (s := S3328) (a₀ := 0) wdiv j
abbrev winSet (j : Fin 32) : Finset S3328.Idx := ((sV).view.slice (wRect j)).set

theorem winSet_eq (j : Fin 32) : winSet j = (wRect j).set := by
  show ((View.whole (cc0_scratch0 : Ref sig .scVector)).slice (wRect j)).set = _
  rw [View.set_slice]; exact Finset.map_refl

/-- Any spelling of the slice of 104 words at offset 104 j is window j. -/
theorem wRect_unit (off : Fin 1 → Nat) (hb : ∀ a, off a + S104.size a ≤ S3328.size a) (j : Fin 32) (hoff : off = ![104 * j.val]) :
    Rect.unit (s := S3328) off S104.size hb = wRect j := by
  subst hoff
  unfold wRect Rect.part Rect.block
  congr 1 <;> funext a
  · match a with
    | 0 => simp [Shape.partIx, Shape.partSize, Nat.mul_comm]
  · match a with
    | 0 => simp [Shape.partSize]

theorem winSet_unit (off : Fin 1 → Nat) (hb : ∀ a, off a + S104.size a ≤ S3328.size a) (j : Fin 32) (hoff : off = ![104 * j.val]) :
    ((sV).slice (Rect.unit (s := S3328) off S104.size hb) (fun _ => rfl)).view.set = winSet j := by
  show ((sV).view.slice (Rect.unit (s := S3328) off S104.size hb)).set = ((sV).view.slice (wRect j)).set
  exact wRect_unit off hb j hoff ▸ rfl

theorem wins_disjoint : ∀ i ∈ (Finset.univ : Finset (Fin 32)), ∀ j ∈ (Finset.univ : Finset (Fin 32)), i ≠ j → Disjoint (winSet i) (winSet j) :=
  fun i _ j _ h => by rw [winSet_eq, winSet_eq]; exact Rect.part_disjoint wdiv h

theorem wins_cover : (Finset.univ : Finset (Fin 32)).biUnion winSet = Finset.univ :=
  (Finset.biUnion_congr rfl fun i _ => winSet_eq i).trans (Rect.biUnion_part wdiv)

/-- The windows other than i₀ cover what window i₀ does not. -/
theorem biUnion_ne (i₀ : Fin 32) : (Finset.univ.filter (· ≠ i₀)).biUnion winSet = Finset.univ \ winSet i₀ := by
  ext x
  simp only [Finset.mem_biUnion, Finset.mem_filter, Finset.mem_univ, true_and, Finset.mem_sdiff]
  constructor
  · rintro ⟨j, hj, hx⟩ h0
    exact (Finset.disjoint_left.mp (wins_disjoint j (Finset.mem_univ _) i₀ (Finset.mem_univ _) hj) hx) h0
  · intro h0
    have hc : x ∈ (Finset.univ : Finset (Fin 32)).biUnion winSet := by rw [wins_cover]; exact Finset.mem_univ _
    obtain ⟨j, -, hx⟩ := Finset.mem_biUnion.mp hc
    exact ⟨j, fun e => h0 (e ▸ hx), hx⟩

/-! ## Owning the scratch as the family of its windows -/

section Fam

variable (d : Dev nD) (cc : Fin τ.nSC) (jj : Fin τ.nSub)

/-- The windows marked idle, each owned outright at the contents f. -/
def fam (idle : Fin 32 → Prop) [DecidablePred idle] (f : Buf (Elt F) ((sV).view.loc (V d cc jj))) : sProp 𝕄 :=
  bigSep Finset.univ fun j : Fin 32 => if idle j then ((sV).view.loc (V d cc jj) ↦[winSet j]{fullShare} f) else iprop(emp)

/-- The family owns the union of its idle windows. -/
theorem fam_eq (idle : Fin 32 → Prop) [DecidablePred idle] (f : Buf (Elt F) ((sV).view.loc (V d cc jj))) :
    fam d cc jj idle f = ((sV).view.loc (V d cc jj) ↦[(Finset.univ.filter idle).biUnion winSet]{fullShare} f : sProp 𝕄) := by
  unfold fam
  have e : (iprop(emp) : sProp 𝕄) = BI.emp := rfl
  simp only [e]
  rw [← bigSep_filter, ← pointsTo_biUnion (Finset.univ.filter idle) (ℓ := (sV).view.loc (V d cc jj)) winSet
    (fun i _ j _ h => wins_disjoint i (Finset.mem_univ _) j (Finset.mem_univ _) h)]
  try rfl

theorem whole_fam (f : Buf (Elt F) ((sV).view.loc (V d cc jj))) :
    ((sV).view.loc (V d cc jj) ↦{fullShare} f : sProp 𝕄) = fam d cc jj (fun _ => True) f := by
  rw [fam_eq, Finset.filter_true_of_mem (fun _ _ => trivial), wins_cover]; try rfl

theorem rest0_fam (f : Buf (Elt F) ((sV).view.loc (V d cc jj))) :
    ((sV).view.loc (V d cc jj) ↦[Finset.univ \ winSet 0]{fullShare} f : sProp 𝕄) = fam d cc jj (fun j => j ≠ 0) f := by
  rw [fam_eq, biUnion_ne]

/-- The same with window 0 in the program's spelling. -/
theorem rest0_fam' (f : Buf (Elt F) ((sV).view.loc (V d cc jj))) :
    ((sV).view.loc (V d cc jj) ↦[Finset.univ \ ((sV).slice (Rect.unit (s := S3328) ![0] S104.size inb_S3328_S104_0) (fun _ => rfl)).view.set]{fullShare} f : sProp 𝕄)
      = fam d cc jj (fun j => j ≠ 0) f := by
  rw [winSet_unit ![0] inb_S3328_S104_0 0 rfl]
  exact rest0_fam d cc jj f

theorem fam_congr (idle idle' : Fin 32 → Prop) [DecidablePred idle] [DecidablePred idle'] (h : ∀ j, idle j ↔ idle' j)
    (f : Buf (Elt F) ((sV).view.loc (V d cc jj))) : fam d cc jj idle f = fam d cc jj idle' f := by
  unfold fam
  exact bigSep_congr fun j _ => by
    by_cases hj : idle j
    · rw [if_pos hj, if_pos ((h j).mp hj)]
    · rw [if_neg hj, if_neg (fun h' => hj ((h j).mpr h'))]

/-- Taking an idle window out of the family (and, read right to left, putting it back). -/
theorem fam_take (idle : Fin 32 → Prop) [DecidablePred idle] (f : Buf (Elt F) ((sV).view.loc (V d cc jj))) (i : Fin 32) (hi : idle i) :
    fam d cc jj idle f ⊣⊢ iprop(((sV).view.loc (V d cc jj) ↦[winSet i]{fullShare} f) ∗ fam d cc jj (fun j => idle j ∧ j ≠ i) f) := by
  have hset : (Finset.univ.filter idle).biUnion winSet
      = winSet i ∪ (Finset.univ.filter fun j => idle j ∧ j ≠ i).biUnion winSet := by
    have hf : Finset.univ.filter idle = insert i (Finset.univ.filter fun j => idle j ∧ j ≠ i) := by
      ext j
      simp only [Finset.mem_filter, Finset.mem_univ, true_and, Finset.mem_insert]
      constructor
      · intro hj
        by_cases e : j = i
        · exact Or.inl e
        · exact Or.inr ⟨hj, e⟩
      · rintro (e | ⟨hj, -⟩)
        · exact e ▸ hi
        · exact hj
    rw [hf, Finset.biUnion_insert]
  have hdisj : Disjoint (winSet i) ((Finset.univ.filter fun j => idle j ∧ j ≠ i).biUnion winSet) :=
    (Finset.disjoint_biUnion_right _ _ _).mpr fun j hj =>
      wins_disjoint i (Finset.mem_univ _) j (Finset.mem_univ _) (fun e => (Finset.mem_filter.mp hj).2.2 e.symm)
  rw [fam_eq, fam_eq, hset]
  exact pointsTo_union hdisj

end Fam

/-! ## The second pass stays off window 0 -/

/-- Trip k of the second pass stores at positions 16 k + 112 … 16 k + 127, all above window 0's 0 … 103. -/
theorem fix2_disj (k : Fin k0_t2_loop.trips) (hb : ∀ a, (![0] : Fin 1 → Nat) a + S104.size a ≤ S3328.size a) :
    Disjoint ((sV).view.setOn (Rect.unit (s := S3328) (k0_off3 k) S16.size (k0_off3_inb k)).set)
      (((sV).slice (Rect.unit (s := S3328) ![0] S104.size hb) (fun _ => rfl)).view.set) := by
  have e1 : (sV).view.setOn (Rect.unit (s := S3328) (k0_off3 k) S16.size (k0_off3_inb k)).set
      = (Rect.unit (s := S3328) (k0_off3 k) S16.size (k0_off3_inb k)).set := Finset.map_refl
  have e2 : ((sV).slice (Rect.unit (s := S3328) ![0] S104.size hb) (fun _ => rfl)).view.set
      = (Rect.unit (s := S3328) ![0] S104.size hb).set := View.set_slice_whole _ _
  rw [e1, e2, Finset.disjoint_left]
  intro x h1 h2
  have a1 : k0_off3 k 0 ≤ (x 0).val := (Rect.mem_set_unit.mp h1 0).1
  have a2 : (x 0).val < 0 + 104 := (Rect.mem_set_unit.mp h2 0).2
  have e : k0_off3 k 0 = 16 * k.val + 112 := congrFun (k0_off3_eq k) 0
  omega

/-- The same with the store's set spelt through the access's view. -/
theorem fix2_disj_access (k : Fin k0_t2_loop.trips) (hb : ∀ a, (![0] : Fin 1 → Nat) a + S104.size a ≤ S3328.size a) :
    Disjoint (((sV).access (Rect.unit (s := S3328) (k0_off3 k) S16.size (k0_off3_inb k))).set)
      (((sV).slice (Rect.unit (s := S3328) ![0] S104.size hb) (fun _ => rfl)).view.set) := by
  have e1 : ((sV).access (Rect.unit (s := S3328) (k0_off3 k) S16.size (k0_off3_inb k))).set
      = (Rect.unit (s := S3328) (k0_off3 k) S16.size (k0_off3_inb k)).set := View.set_slice_whole _ _
  have e2 : ((sV).slice (Rect.unit (s := S3328) ![0] S104.size hb) (fun _ => rfl)).view.set
      = (Rect.unit (s := S3328) ![0] S104.size hb).set := View.set_slice_whole _ _
  rw [e1, e2, Finset.disjoint_left]
  intro x h1 h2
  have a1 : k0_off3 k 0 ≤ (x 0).val := (Rect.mem_set_unit.mp h1 0).1
  have a2 : (x 0).val < 0 + 104 := (Rect.mem_set_unit.mp h2 0).2
  have e : k0_off3 k 0 = 16 * k.val + 112 := congrFun (k0_off3_eq k) 0
  omega

end Cert.KB

end
-- ==== Proof.KBSets.lean ====
/-
  Sets of elements and the ownership of buffers in pieces, for one tile: the out scratch's two halves and one row of it
  stored in eight groups of lanes; the index scratch as its windows in the spelling of the loop's invariant; the tile's
  two blocks of the result in the program's spellings; the row scratch as its four buffers.
-/
import proofs.«207326_g40819369181559_retrytranche2_1852_22_alg».proof.Proof.KBInv
import proofs.«207326_g40819369181559_retrytranche2_1852_22_alg».proof.Proof.KBWin
import Idealize.ShloMosaic.Rules.PointsTo
import Idealize.ShloMosaic.Lib.Writes

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type}

local notation "𝕄" => MT nD τ sig (HIx 1) (Elt F) ℕ UU ℕ

local notation "xV" => (Memref.whole Cert.Kernel.main_arg1_scv : Memref Cert.Kernel.sig Kind.scVector Space.hbm Cert.Kernel.S2600000x128 EltTy.f32)
local notation "oV" => (Memref.whole Cert.Kernel.main_v1_scv : Memref Cert.Kernel.sig Kind.scVector Space.hbm Cert.Kernel.S4096x128 EltTy.f32)
local notation "sV" => (Memref.whole Cert.Kernel.cc0_scratch0 : Memref Cert.Kernel.sig Kind.scVector Space.vmem Cert.Kernel.S3328 EltTy.i32)
local notation "rV" => (Memref.whole Cert.Kernel.cc0_scratch1 : Memref Cert.Kernel.sig Kind.scVector Space.vmem Cert.Kernel.S4x104x128 EltTy.f32)
local notation "aV" => (Memref.whole Cert.Kernel.cc0_scratch2 : Memref Cert.Kernel.sig Kind.scVector Space.vmem Cert.Kernel.S128x128 EltTy.f32)

/-! ## Joining two pieces of one buffer held at different contents -/

/-- Two disjoint sets of elements of one buffer, held at two contents, are their union held at the contents glued. -/
theorem join2 {ℓ : Loc nD τ sig} (I J : Finset (Idx ℓ)) (hd : Disjoint I J) (f g : Buf (Elt F) ℓ) :
    iprop((ℓ ↦[I]{fullShare} f) ∗ (ℓ ↦[J]{fullShare} g)) ⊢ (iprop(∃ h, ℓ ↦[I ∪ J]{fullShare} h) : sProp 𝕄) := by
  classical
  have e1 : (ℓ ↦[I]{fullShare} f : sProp 𝕄) = ℓ ↦[I]{fullShare} (fun i => if i ∈ I then f i else g i) :=
    pointsTo_congr (fun i hi => (if_pos hi).symm)
  have e2 : (ℓ ↦[J]{fullShare} g : sProp 𝕄) = ℓ ↦[J]{fullShare} (fun i => if i ∈ I then f i else g i) :=
    pointsTo_congr (fun i hi => (if_neg (Finset.disjoint_right.mp hd hi)).symm)
  rw [e1, e2]
  exact (pointsTo_union hd).2.trans (exists_intro (Φ := fun h : Buf (Elt F) ℓ => (ℓ ↦[I ∪ J]{fullShare} h : sProp 𝕄)) _)

/-- The same when the second piece is held at some contents. -/
theorem join2' {ℓ : Loc nD τ sig} (I J : Finset (Idx ℓ)) (hd : Disjoint I J) (f : Buf (Elt F) ℓ) :
    iprop((ℓ ↦[I]{fullShare} f) ∗ (∃ g, ℓ ↦[J]{fullShare} g)) ⊢ (iprop(∃ h, ℓ ↦[I ∪ J]{fullShare} h) : sProp 𝕄) :=
  sep_exists_left.1.trans (exists_elim fun g => join2 I J hd f g)

/-! ## The out scratch's two halves -/

theorem aTop_set : (aTop).view.set = (Rect.unit (s := S128x128) ![0, 0] S64x128.size inb_S128x128_S64x128_0_0).set :=
  View.set_slice_whole _ _
theorem aBot_set' : (aBot).view.set = (Rect.unit (s := S128x128) ![64, 0] S64x128.size inb_S128x128_S64x128_64_0).set :=
  View.set_slice_whole _ _

/-- Rows 0 … 63 and rows 64 … 127: what is not in the upper half is the lower half. -/
theorem aBot_set : (Finset.univ \ (aTop).view.set : Finset S128x128.Idx) = (aBot).view.set := by
  rw [aTop_set, aBot_set']
  ext x
  have h0 : (x 0).val < 128 := (x 0).isLt
  have h1 : (x 1).val < 128 := (x 1).isLt
  rw [Finset.mem_sdiff, Rect.mem_set_unit, Rect.mem_set_unit, Fin.forall_fin_two, Fin.forall_fin_two]
  show (x ∈ Finset.univ ∧ ¬((0 ≤ (x 0).val ∧ (x 0).val < 0 + 64) ∧ (0 ≤ (x 1).val ∧ (x 1).val < 0 + 128)))
    ↔ ((64 ≤ (x 0).val ∧ (x 0).val < 64 + 64) ∧ (0 ≤ (x 1).val ∧ (x 1).val < 0 + 128))
  simp only [Finset.mem_univ, true_and]
  omega

theorem halves_disjoint : Disjoint (aTop).view.set (aBot).view.set := by
  rw [← aBot_set]; exact Finset.disjoint_sdiff

theorem halves_union : (aTop).view.set ∪ (aBot).view.set = (Finset.univ : Finset S128x128.Idx) := by
  rw [← aBot_set]; exact Finset.union_sdiff_of_subset (Finset.subset_univ _)

/-- The two halves, held at two contents, are the out scratch held at some contents. -/
theorem halves_join (d : Dev nD) (cc : Fin τ.nSC) (jj : Fin τ.nSub) (f g : Buf (Elt F) ((aV).view.loc (V d cc jj))) :
    iprop(((aV).view.loc (V d cc jj) ↦[(aTop).view.set]{fullShare} f) ∗ ((aV).view.loc (V d cc jj) ↦[(aBot).view.set]{fullShare} g))
      ⊢ (iprop(∃ h, (aV).view.loc (V d cc jj) ↦{fullShare} h) : sProp 𝕄) := by
  refine (join2 (ℓ := (aV).view.loc (V d cc jj)) (aTop).view.set (aBot).view.set halves_disjoint f g).trans ?_
  rw [halves_union]; try rfl

/-! ## One row of the out scratch stored in eight groups of 16 lanes -/

/-- Eight stores of 16 lanes each at row n, lane group k at columns 16 k … 16 k + 15, whose values are one row function,
    leave that function in row n and everything else as it was — whatever the order of the eight. -/
theorem row_store_gen (n : ℕ) (g : S128x128.Idx → Elt F .f32) (offs : Fin 8 → (Fin 2 → ℕ)) (hoff : ∀ k, offs k = ![n, 16 * k.val])
    (inb : ∀ k, ∀ a, offs k a + S1x16.size a ≤ S128x128.size a) (w : Fin 8 → (S1x16.Idx → Elt F .f32)) (val : Fin 128 → Elt F .f32)
    (hw : ∀ (k : Fin 8) (y : S1x16.Idx), ∀ h : 16 * k.val + (y 1).val < 128, w k y = val ⟨16 * k.val + (y 1).val, h⟩)
    (Ls : List (View.Piece (Elt F) S128x128 .f32))
    (h1 : ∀ p ∈ Ls, ∃ k : Fin 8, p = ⟨Rect.unit (s := S128x128) (offs k) S1x16.size (inb k), w k⟩)
    (h2 : ∀ k : Fin 8, (⟨Rect.unit (s := S128x128) (offs k) S1x16.size (inb k), w k⟩ : View.Piece (Elt F) S128x128 .f32) ∈ Ls) :
    (aV).view.writes (Elt F) g Ls = fun i => if (i 0).val = n then val (i 1) else g i := by
  funext i
  have hi1 : (i 1).val < 128 := (i 1).isLt
  have e0 : ∀ k, offs k 0 = n := fun k => congrFun (hoff k) 0
  have e1 : ∀ k, offs k 1 = 16 * k.val := fun k => congrFun (hoff k) 1
  by_cases hi : (i 0).val = n
  · rw [if_pos hi]
    refine View.read_writes_apply_of_pieces (Val := Elt F) (aV).view g (fun j => val (j 1)) Ls ?_ i ?_
    · intro p hp x
      obtain ⟨k, rfl⟩ := h1 p hp
      have hx : (x 1).val < 16 := (x 1).isLt
      have hk := k.isLt
      refine (hw k x (by omega)).trans (congrArg val (Fin.ext ?_))
      show 16 * k.val + (x 1).val = offs k 1 + 1 * (x 1).val
      rw [e1 k]; omega
    · have hk : (i 1).val / 16 < 8 := by omega
      have hm : (i : S128x128.Idx) ∈ (Rect.unit (s := S128x128) (offs ⟨(i 1).val / 16, hk⟩) S1x16.size (inb ⟨(i 1).val / 16, hk⟩)).set := by
        rw [Rect.mem_set_unit]
        intro a
        match a with
        | ⟨0, _⟩ =>
          show offs ⟨(i 1).val / 16, hk⟩ 0 ≤ (i 0).val ∧ (i 0).val < offs ⟨(i 1).val / 16, hk⟩ 0 + 1
          rw [e0]; omega
        | ⟨1, _⟩ =>
          show offs ⟨(i 1).val / 16, hk⟩ 1 ≤ (i 1).val ∧ (i 1).val < offs ⟨(i 1).val / 16, hk⟩ 1 + 16
          rw [e1]
          show 16 * ((i 1).val / 16) ≤ (i 1).val ∧ (i 1).val < 16 * ((i 1).val / 16) + 16
          omega
      exact ⟨_, h2 ⟨(i 1).val / 16, hk⟩, hm⟩
  · rw [if_neg hi]
    refine View.read_writes_apply_of_forall_not_mem (Val := Elt F) (aV).view g i Ls (fun p hp hm => hi ?_)
    obtain ⟨k, rfl⟩ := h1 p hp
    have hm' : (i : S128x128.Idx) ∈ (Rect.unit (s := S128x128) (offs k) S1x16.size (inb k)).set := hm
    rw [Rect.mem_set_unit] at hm'
    have a0 : offs k 0 ≤ (i 0).val ∧ (i 0).val < offs k 0 + 1 := hm' 0
    rw [e0 k] at a0; omega

/-- The same for the eight stores in the order the program makes them: lane groups 0, 1, …, 7, the last store first. -/
theorem row_store (n : ℕ) (g : S128x128.Idx → Elt F .f32) (offs : Fin 8 → (Fin 2 → ℕ)) (hoff : ∀ k, offs k = ![n, 16 * k.val])
    (inb : ∀ k, ∀ a, offs k a + S1x16.size a ≤ S128x128.size a) (w : Fin 8 → (S1x16.Idx → Elt F .f32)) (val : Fin 128 → Elt F .f32)
    (hw : ∀ (k : Fin 8) (y : S1x16.Idx), ∀ h : 16 * k.val + (y 1).val < 128, w k y = val ⟨16 * k.val + (y 1).val, h⟩) :
    (aV).view.writes (Elt F) g
      [⟨Rect.unit (s := S128x128) (offs 7) S1x16.size (inb 7), w 7⟩, ⟨Rect.unit (s := S128x128) (offs 6) S1x16.size (inb 6), w 6⟩,
       ⟨Rect.unit (s := S128x128) (offs 5) S1x16.size (inb 5), w 5⟩, ⟨Rect.unit (s := S128x128) (offs 4) S1x16.size (inb 4), w 4⟩,
       ⟨Rect.unit (s := S128x128) (offs 3) S1x16.size (inb 3), w 3⟩, ⟨Rect.unit (s := S128x128) (offs 2) S1x16.size (inb 2), w 2⟩,
       ⟨Rect.unit (s := S128x128) (offs 1) S1x16.size (inb 1), w 1⟩, ⟨Rect.unit (s := S128x128) (offs 0) S1x16.size (inb 0), w 0⟩]
      = fun i => if (i 0).val = n then val (i 1) else g i := by
  refine row_store_gen n g offs hoff inb w val hw _ ?_ ?_
  · intro p hp
    simp only [List.mem_cons, List.not_mem_nil, or_false] at hp
    rcases hp with rfl | rfl | rfl | rfl | rfl | rfl | rfl | rfl
    exacts [⟨7, rfl⟩, ⟨6, rfl⟩, ⟨5, rfl⟩, ⟨4, rfl⟩, ⟨3, rfl⟩, ⟨2, rfl⟩, ⟨1, rfl⟩, ⟨0, rfl⟩]
  · intro k
    fin_cases k <;> simp

/-! ## The index scratch as its windows, in the spelling of the loop's invariant -/

/-- Window j of the invariant is window j of the cut. -/
theorem winM_set (j : Fin 32) : (winM j.val).view.set = winSet j :=
  winSet_unit _ (winM_inb j.val) j (by rw [Nat.mod_eq_of_lt j.isLt])

/-- An element lies in exactly one window. -/
theorem win_unique {x : S3328.Idx} {i j : Fin 32} (hi : x ∈ winSet i) (hj : x ∈ winSet j) : i = j := by
  by_contra h
  exact Finset.disjoint_left.mp (wins_disjoint i (Finset.mem_univ _) j (Finset.mem_univ _) h) hi hj

theorem win_exists (x : S3328.Idx) : ∃ j : Fin 32, x ∈ winSet j := by
  have hc : x ∈ (Finset.univ : Finset (Fin 32)).biUnion winSet := by rw [wins_cover]; exact Finset.mem_univ _
  obtain ⟨j, -, hx⟩ := Finset.mem_biUnion.mp hc
  exact ⟨j, hx⟩

/-- A family of the invariant's windows, each held by its own elements, is their union held. -/
theorem wins_bigSep (d : Dev nD) (L : grid0.Coords) (S : Finset (Fin 32)) (f : S3328.Idx → BitVec 32) :
    (bigSep S fun j : Fin 32 => ((winM j.val).view.loc (thrT d L) ↦[(winM j.val).view.set]{fullShare} f : sProp 𝕄))
      = ((sV).view.loc (thrT d L) ↦[S.biUnion winSet]{fullShare} f : sProp 𝕄) := by
  rw [pointsTo_biUnion S (ℓ := (sV).view.loc (thrT d L)) winSet
    (fun i _ j _ h => wins_disjoint i (Finset.mem_univ _) j (Finset.mem_univ _) h)]
  exact bigSep_congr fun j _ => by rw [winM_set]

/-- Between the prologue and the loop: everything but windows 0, 1, 2 is the family of the windows from 3 on. -/
theorem rest012_wins (d : Dev nD) (L : grid0.Coords) (f : S3328.Idx → BitVec 32) :
    ((sV).view.loc (thrT d L) ↦[((Finset.univ \ ((sV).slice (Rect.unit (s := S3328) ![0] S104.size inb_S3328_S104_0) (fun _ => rfl)).view.set)
        \ ((sV).slice (Rect.unit (s := S3328) ![104] S104.size inb_S3328_S104_104) (fun _ => rfl)).view.set)
        \ ((sV).slice (Rect.unit (s := S3328) ![208] S104.size inb_S3328_S104_208) (fun _ => rfl)).view.set]{fullShare} f : sProp 𝕄)
      = bigSep (idleSet 0) fun j : Fin 32 => (winM j.val).view.loc (thrT d L) ↦[(winM j.val).view.set]{fullShare} f := by
  rw [wins_bigSep, winSet_unit ![0] inb_S3328_S104_0 0 rfl, winSet_unit ![104] inb_S3328_S104_104 1 rfl,
    winSet_unit ![208] inb_S3328_S104_208 2 rfl]
  refine congrArg (fun I => ((sV).view.loc (thrT d L) ↦[I]{fullShare} f : sProp 𝕄)) ?_
  ext x
  simp only [Finset.mem_sdiff, Finset.mem_univ, true_and, Finset.mem_biUnion, idleSet, Finset.mem_filter]
  constructor
  · rintro ⟨⟨h0, h1⟩, h2⟩
    obtain ⟨j, hj⟩ := win_exists x
    refine ⟨j, Or.inr ?_, hj⟩
    have n0 : j ≠ 0 := fun e => h0 (e ▸ hj)
    have n1 : j ≠ 1 := fun e => h1 (e ▸ hj)
    have n2 : j ≠ 2 := fun e => h2 (e ▸ hj)
    have m0 : j.val ≠ 0 := fun e => n0 (Fin.ext e)
    have m1 : j.val ≠ 1 := fun e => n1 (Fin.ext e)
    have m2 : j.val ≠ 2 := fun e => n2 (Fin.ext e)
    omega
  · rintro ⟨j, hj3, hj⟩
    have h3 : 3 ≤ j.val := by omega
    refine ⟨⟨fun h => ?_, fun h => ?_⟩, fun h => ?_⟩
    · have := win_unique hj h; rw [this] at h3; exact absurd h3 (by decide)
    · have := win_unique hj h; rw [this] at h3; exact absurd h3 (by decide)
    · have := win_unique hj h; rw [this] at h3; exact absurd h3 (by decide)

/-- After the loop every window is idle: the family is the scratch. -/
theorem wins_all (d : Dev nD) (L : grid0.Coords) (f : S3328.Idx → BitVec 32) :
    (bigSep (idleSet 32) fun j : Fin 32 => (winM j.val).view.loc (thrT d L) ↦[(winM j.val).view.set]{fullShare} f : sProp 𝕄)
      = ((sV).view.loc (thrT d L) ↦{fullShare} f) := by
  have e : idleSet 32 = Finset.univ := Finset.filter_true_of_mem (fun j _ => Or.inl j.isLt)
  rw [wins_bigSep, e, wins_cover]; try rfl

/-! ## The tile's two blocks of the result, in the program's spellings -/

/-- Any spelling of the slice of 64 rows at row 64 k is block k of the result. -/
theorem oRect_unit (off : Fin 2 → Nat) (hb : ∀ a, off a + S64x128.size a ≤ S4096x128.size a) (k : Fin 64) (hoff : off = ![64 * k.val, 0]) :
    Rect.unit (s := S4096x128) off S64x128.size hb = oRect k := by
  subst hoff
  unfold oRect Rect.part Rect.block
  congr 1 <;> funext a
  · match a with
    | 0 => simp [Shape.partIx, Shape.partSize, Nat.mul_comm]
    | 1 => simp [Shape.partIx, Shape.partSize]
  · match a with
    | 0 => simp [Shape.partSize]
    | 1 => simp [Shape.partSize]

theorem oPiece_unit (off : Fin 2 → Nat) (hb : ∀ a, off a + S64x128.size a ≤ S4096x128.size a) (k : Fin 64) (hoff : off = ![64 * k.val, 0]) :
    ((oV).slice (Rect.unit (s := S4096x128) off S64x128.size hb) (fun _ => rfl)).view.set = oPiece k := by
  show ((oV).view.slice (Rect.unit (s := S4096x128) off S64x128.size hb)).set = ((oV).view.slice (oRect k)).set
  exact oRect_unit off hb k hoff ▸ rfl

/-- Worker w = 2 s + c writes rows 128 w … 128 w + 63 (block 4 s + 2 c) … -/
theorem oTop_set (L : grid0.Coords) (off : Fin 2 → Nat) (hb : ∀ a, off a + S64x128.size a ≤ S4096x128.size a)
    (hoff : off = ![256 * (L 1).val + 128 * (L 0).val, 0]) :
    ((oV).slice (Rect.unit (s := S4096x128) off S64x128.size hb) (fun _ => rfl)).view.set = oPiece (topIx (cL L) (sL L)) := by
  refine oPiece_unit off hb _ (hoff.trans ?_)
  show _ = ![64 * (4 * (L 1).val + 2 * (L 0).val), 0]
  rw [show 64 * (4 * (L 1).val + 2 * (L 0).val) = 256 * (L 1).val + 128 * (L 0).val by omega]

/-- … and rows 128 w + 64 … 128 w + 127 (block 4 s + 2 c + 1). -/
theorem oBot_set (L : grid0.Coords) (off : Fin 2 → Nat) (hb : ∀ a, off a + S64x128.size a ≤ S4096x128.size a)
    (hoff : off = ![256 * (L 1).val + 128 * (L 0).val + 64, 0]) :
    ((oV).slice (Rect.unit (s := S4096x128) off S64x128.size hb) (fun _ => rfl)).view.set = oPiece (botIx (cL L) (sL L)) := by
  refine oPiece_unit off hb _ (hoff.trans ?_)
  show _ = ![64 * (4 * (L 1).val + 2 * (L 0).val + 1), 0]
  rw [show 64 * (4 * (L 1).val + 2 * (L 0).val + 1) = 256 * (L 1).val + 128 * (L 0).val + 64 by omega]

/-! ## The four row buffers tile their scratch -/

theorem rdiv : 4 ∣ S4x104x128.size 0 := ⟨1, rfl⟩
abbrev rRect (K : Fin 4) : Rect S4x104x128 := Rect.part (s := S4x104x128) (a₀ := 0) rdiv K
abbrev slotSet (K : Fin 4) : Finset S4x104x128.Idx := (rRect K).set

theorem rRect_unit (off : Fin 3 → Nat) (hb : ∀ a, off a + S1x104x128.size a ≤ S4x104x128.size a) (K : Fin 4) (hoff : off = ![K.val, 0, 0]) :
    Rect.unit (s := S4x104x128) off S1x104x128.size hb = rRect K := by
  subst hoff
  unfold rRect Rect.part Rect.block
  congr 1 <;> funext a
  · match a with
    | 0 => simp [Shape.partIx, Shape.partSize]
    | 1 => simp [Shape.partIx, Shape.partSize]
    | 2 => simp [Shape.partIx, Shape.partSize]
  · match a with
    | 0 => simp [Shape.partSize]
    | 1 => simp [Shape.partSize]
    | 2 => simp [Shape.partSize]

theorem slot_set_gen (off : Fin 3 → Nat) (hb : ∀ a, off a + S1x104x128.size a ≤ S4x104x128.size a) (K : Fin 4) (hoff : off = ![K.val, 0, 0]) :
    (((rV).slice (Rect.unit (s := S4x104x128) off S1x104x128.size hb) (fun _ => rfl)).squeeze S104x128 squeezes_S1x104x128_S104x128).view.set
      = slotSet K := by
  show (((rV).view.slice (Rect.unit (s := S4x104x128) off S1x104x128.size hb)).reshape S104x128 squeezes_S1x104x128_S104x128.numel_eq).set = _
  rw [View.set_reshape, View.set_slice_whole]
  exact congrArg (fun r : Rect S4x104x128 => r.set) (rRect_unit off hb K hoff)

theorem slot0_set : (slot0).view.set = slotSet 0 := slot_set_gen _ _ 0 rfl
theorem slot1_set : (slot1).view.set = slotSet 1 := slot_set_gen _ _ 1 rfl
theorem slot2_set : (slot2).view.set = slotSet 2 := slot_set_gen _ _ 2 rfl
theorem slot3_set : (slot3).view.set = slotSet 3 := slot_set_gen _ _ 3 rfl

theorem slots_disjoint {K K' : Fin 4} (h : K ≠ K') : Disjoint (slotSet K) (slotSet K') := Rect.part_disjoint rdiv h

theorem slots_union : slotSet 0 ∪ (slotSet 1 ∪ (slotSet 2 ∪ slotSet 3)) = (Finset.univ : Finset S4x104x128.Idx) := by
  ext x
  simp only [Finset.mem_union, Finset.mem_univ, iff_true]
  obtain ⟨K, hK⟩ := Rect.exists_mem_part rdiv x
  fin_cases K
  · exact Or.inl hK
  · exact Or.inr (Or.inl hK)
  · exact Or.inr (Or.inr (Or.inl hK))
  · exact Or.inr (Or.inr (Or.inr hK))

theorem d23 : Disjoint (slotSet 2) (slotSet 3) := slots_disjoint (by decide)
theorem d123 : Disjoint (slotSet 1) (slotSet 2 ∪ slotSet 3) :=
  Finset.disjoint_union_right.mpr ⟨slots_disjoint (by decide), slots_disjoint (by decide)⟩
theorem d0123 : Disjoint (slotSet 0) (slotSet 1 ∪ (slotSet 2 ∪ slotSet 3)) :=
  Finset.disjoint_union_right.mpr ⟨slots_disjoint (by decide),
    Finset.disjoint_union_right.mpr ⟨slots_disjoint (by decide), slots_disjoint (by decide)⟩⟩

/-- Two-way entailment of assertions is equality. -/
theorem eq_of_bi {P Q : sProp 𝕄} (h : P ⊣⊢ Q) : P = Q := equiv_iff.mp ⟨h.1, h.2⟩

/-- Owning the row scratch is owning its four buffers. -/
theorem slots_split (d : Dev nD) (cc : Fin τ.nSC) (jj : Fin τ.nSub) (f : Buf (Elt F) ((rV).view.loc (V d cc jj))) :
    ((rV).view.loc (V d cc jj) ↦{fullShare} f : sProp 𝕄)
      = iprop(((slot0).view.loc (V d cc jj) ↦[(slot0).view.set]{fullShare} f) ∗ ((slot1).view.loc (V d cc jj) ↦[(slot1).view.set]{fullShare} f)
          ∗ ((slot2).view.loc (V d cc jj) ↦[(slot2).view.set]{fullShare} f) ∗ ((slot3).view.loc (V d cc jj) ↦[(slot3).view.set]{fullShare} f)) := by
  rw [slot0_set, slot1_set, slot2_set, slot3_set]
  show ((rV).view.loc (V d cc jj) ↦[Finset.univ]{fullShare} f : sProp 𝕄) = _
  rw [← slots_union, eq_of_bi (pointsTo_union d0123), eq_of_bi (pointsTo_union d123), eq_of_bi (pointsTo_union d23)]

/-- The four buffers, each held at its own contents, are the row scratch held at some contents. -/
theorem slots_join (d : Dev nD) (cc : Fin τ.nSC) (jj : Fin τ.nSub) (f0 f1 f2 f3 : Buf (Elt F) ((rV).view.loc (V d cc jj))) :
    iprop(((slot0).view.loc (V d cc jj) ↦[(slot0).view.set]{fullShare} f0) ∗ ((slot1).view.loc (V d cc jj) ↦[(slot1).view.set]{fullShare} f1)
        ∗ ((slot2).view.loc (V d cc jj) ↦[(slot2).view.set]{fullShare} f2) ∗ ((slot3).view.loc (V d cc jj) ↦[(slot3).view.set]{fullShare} f3))
      ⊢ (iprop(∃ f, (rV).view.loc (V d cc jj) ↦{fullShare} f) : sProp 𝕄) := by
  rw [slot0_set, slot1_set, slot2_set, slot3_set]
  refine (sep_mono_r (sep_mono_r (join2 (ℓ := (rV).view.loc (V d cc jj)) (slotSet 2) (slotSet 3) d23 f2 f3))).trans ?_
  refine (sep_mono_r (join2' (ℓ := (rV).view.loc (V d cc jj)) (slotSet 1) (slotSet 2 ∪ slotSet 3) d123 f1)).trans ?_
  refine (join2' (ℓ := (rV).view.loc (V d cc jj)) (slotSet 0) (slotSet 1 ∪ (slotSet 2 ∪ slotSet 3)) d0123 f0).trans ?_
  rw [slots_union]; try rfl

end Cert.KB

end
-- ==== Proof.KBRow.lean ====
/-
  The moved word of position 104 j + k of a tile is the table row of field k mod 26 of bag 128 w + 4 j + k / 26 (since
  3328 = 26 · 128 and 104 = 26 · 4), and a left-to-right sum depends only on the terms it adds.
-/
import proofs.«207326_g40819369181559_retrytranche2_1852_22_alg».proof.Proof.KBIdx

noncomputable section

namespace Cert.KB

open Cert.Kernel Cert.Kernel.Gen
open Idealize.ShloMosaic Idealize.ShloMosaic.ValueIdx

variable {F : FTy → Type}

/-- Position 104 j + k of tile w is position 26 (128 w + 4 j + k / 26) + k mod 26 of the flattened index list, and the
    moved word there (at most 2599999) is the row the kernel's value names. -/
theorem krow_fix (L : grid0.Coords) (sfl : IVec S106496 32) (hraw : ∀ p, (rawIdx L sfl p).toNat ≤ 99999) (j k : ℕ)
    (hj : j < 32) (hk : k < 104) :
    (fixWord (rawIdx L sfl (104 * j + k)) (104 * j + k)).toNat = (krow sfl (128 * wid L + 4 * j + k / 26) (k % 26)).val := by
  have hw := wid_lt L
  have hidx : (⟨(26 * (128 * wid L + 4 * j + k / 26) + k % 26) % 106496, Nat.mod_lt _ (by norm_num)⟩ : Fin 106496)
      = ⟨(3328 * wid L + (104 * j + k)) % 106496, Nat.mod_lt _ (by norm_num)⟩ :=
    Fin.ext (by show _ % 106496 = _ % 106496; omega)
  have hk26 : (104 * j + k) % 26 = k % 26 := by omega
  have hr : (rawIdx L sfl (104 * j + k)).toNat ≤ 99999 := hraw _
  rw [fixWord_toNat _ _ hr, hk26]
  unfold krow
  show _ = ((sfl (ix1 (⟨(26 * (128 * wid L + 4 * j + k / 26) + k % 26) % 106496, Nat.mod_lt _ (by norm_num)⟩ : Fin 106496))).toNat
    + 100000 * (k % 26 % 26)) % 2600000
  rw [hidx]
  show (rawIdx L sfl (104 * j + k)).toNat + 100000 * (k % 26) = ((rawIdx L sfl (104 * j + k)).toNat + 100000 * (k % 26 % 26)) % 2600000
  omega

/-- A left-to-right sum of the terms 0 … n depends only on those terms. -/
theorem accTo_congr [FloatOps F] (x y : ℕ → F .f32) (n : ℕ) (h : ∀ f, f ≤ n → x f = y f) : accTo x n = accTo y n := by
  induction n with
  | zero => exact h 0 (Nat.le_refl 0)
  | succ n ih =>
    show FloatOps.addf (accTo x n) (x (n + 1)) = FloatOps.addf (accTo y n) (y (n + 1))
    rw [ih (fun f hf => h f (Nat.le_succ_of_le hf)), h (n + 1) (Nat.le_refl _)]

end Cert.KB

end
-- ==== Proof.KBOut.lean ====
/-
  Values, for one tile: what a chunk's gather leaves in its row buffer, read at an index (the table row that the moved
  index word names), and the tile's two blocks of the result after the copies out of the out scratch, which hold the
  kernel's value.
-/
import proofs.«207326_g40819369181559_retrytranche2_1852_22_alg».proof.Proof.KBInv
import proofs.«207326_g40819369181559_retrytranche2_1852_22_alg».proof.Proof.KBWin
import proofs.«207326_g40819369181559_retrytranche2_1852_22_alg».proof.Proof.KBRow
import Idealize.ShloMosaic.Rules.PointsTo
import Idealize.ShloMosaic.Lib.Writes

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type}

local notation "𝕄" => MT nD τ sig (HIx 1) (Elt F) ℕ UU ℕ

local notation "xV" => (Memref.whole Cert.Kernel.main_arg1_scv : Memref Cert.Kernel.sig Kind.scVector Space.hbm Cert.Kernel.S2600000x128 EltTy.f32)
local notation "oV" => (Memref.whole Cert.Kernel.main_v1_scv : Memref Cert.Kernel.sig Kind.scVector Space.hbm Cert.Kernel.S4096x128 EltTy.f32)
local notation "sV" => (Memref.whole Cert.Kernel.cc0_scratch0 : Memref Cert.Kernel.sig Kind.scVector Space.vmem Cert.Kernel.S3328 EltTy.i32)
local notation "rV" => (Memref.whole Cert.Kernel.cc0_scratch1 : Memref Cert.Kernel.sig Kind.scVector Space.vmem Cert.Kernel.S4x104x128 EltTy.f32)
local notation "aV" => (Memref.whole Cert.Kernel.cc0_scratch2 : Memref Cert.Kernel.sig Kind.scVector Space.vmem Cert.Kernel.S128x128 EltTy.f32)

/-! ## What a gather leaves in its row buffer, read at an index -/

/-- Coordinate 0 of the index at row-major position k of the 104-word shape is k. -/
theorem rowMajor_symm_val (k : Fin S104.numel) : ((S104.rowMajor.symm k) 0).val = k.val := by
  have h := Shape.rowMajor_val_one (d := ![104]) (S104.rowMajor.symm k)
  rw [Equiv.apply_symm_apply] at h
  exact h.symm

/-- Chunk j's gather, read at (k, q): the table at the row that field k mod 26 of bag 128 w + 4 j + k / 26 names, column q. -/
theorem gathered_apply_n [FloatOps F] (L : grid0.Coords) (sfl : IVec S106496 32) (tab : FVec F S2600000x128 .f32) (n j : ℕ) (hj : j < 32)
    (hjn : 104 * (j + 1) ≤ n) (hraw : ∀ p, (rawIdx L sfl p).toNat ≤ 99999) (off : Fin 1 → Nat)
    (hb : ∀ a, off a + S104.size a ≤ S3328.size a) (hoff : off = ![104 * j])
    (hn : S104.numel = S104x128.size gathers_S2600000x128_S104x128.axis')
    (hin : ∀ x, (((sV).slice (Rect.unit (s := S3328) off S104.size hb) (fun _ => rfl)).view.read (Elt F) (idxAfter L sfl n) x).toNat
      < S2600000x128.size gathers_S2600000x128_S104x128.axis) (y : S104x128.Idx) :
    SparseCore.gatherPayload gathers_S2600000x128_S104x128
        (((xV).slice (Rect.unit (s := S2600000x128) ![0, 0] S2600000x128.size inb_S2600000x128_S2600000x128_0_0) (fun _ => rfl)).view.read (Elt F) tab)
        (SparseCore.rows (((sV).slice (Rect.unit (s := S3328) off S104.size hb) (fun _ => rfl)).view.read (Elt F) (idxAfter L sfl n)) hn hin) y
      = tab (ix2 (krow sfl (128 * wid L + 4 * j + (y 0).val / 26) ((y 0).val % 26)) (y 1)) := by
  have hy0 : (y 0).val < 104 := (y 0).isLt
  unfold SparseCore.gatherPayload
  refine ((View.read_apply _ _).trans (cast_eq _ _)).trans ?_
  refine congrArg tab (funext fun b => Fin.ext ?_)
  match b with
  | ⟨0, _⟩ =>
    show 0 + 1 * (((sV).slice (Rect.unit (s := S3328) off S104.size hb) (fun _ => rfl)).view.read (Elt F) (idxAfter L sfl n)
      (S104.rowMajor.symm ((y 0).cast hn.symm))).toNat = (krow sfl (128 * wid L + 4 * j + (y 0).val / 26) ((y 0).val % 26)).val
    rw [win_read (F := F) L sfl n j hjn off hb hoff, rowMajor_symm_val]
    show 0 + 1 * (fixWord (rawIdx L sfl (104 * j + (y 0).val)) (104 * j + (y 0).val)).toNat = _
    rw [krow_fix L sfl hraw j (y 0).val hj hy0]; omega
  | ⟨1, _⟩ =>
    show 0 + 1 * (y 1).val = (y 1).val
    omega

theorem gathered_apply [FloatOps F] (L : grid0.Coords) (sfl : IVec S106496 32) (tab : FVec F S2600000x128 .f32) (j : ℕ) (hj : j < 32)
    (hraw : ∀ p, (rawIdx L sfl p).toNat ≤ 99999) (off : Fin 1 → Nat)
    (hb : ∀ a, off a + S104.size a ≤ S3328.size a) (hoff : off = ![104 * j])
    (hn : S104.numel = S104x128.size gathers_S2600000x128_S104x128.axis')
    (hin : ∀ x, (((sV).slice (Rect.unit (s := S3328) off S104.size hb) (fun _ => rfl)).view.read (Elt F) (idxAfter L sfl 3328) x).toNat
      < S2600000x128.size gathers_S2600000x128_S104x128.axis) (y : S104x128.Idx) :
    SparseCore.gatherPayload gathers_S2600000x128_S104x128
        (((xV).slice (Rect.unit (s := S2600000x128) ![0, 0] S2600000x128.size inb_S2600000x128_S2600000x128_0_0) (fun _ => rfl)).view.read (Elt F) tab)
        (SparseCore.rows (((sV).slice (Rect.unit (s := S3328) off S104.size hb) (fun _ => rfl)).view.read (Elt F) (idxAfter L sfl 3328)) hn hin) y
      = tab (ix2 (krow sfl (128 * wid L + 4 * j + (y 0).val / 26) ((y 0).val % 26)) (y 1)) :=
  gathered_apply_n L sfl tab 3328 j hj (by omega) hraw off hb hoff hn hin y

/-! ## The result's two blocks after the copies out -/

/-- The result's lower block of the tile, as its copy spells it. -/
abbrev oBot [FloatOps F] (L : grid0.Coords) : Memref sig .scVector .hbm S64x128 .f32 :=
  (oV).slice (Rect.unit (s := S4096x128) (k0_off109 L) S64x128.size (k0_off109_inb L)) (fun _ => rfl)

/-- A block of 64 rows of the result at row 128 w + r₀, written whole with 64 rows of the out scratch from row r₀ on, all
    done, holds the kernel's value there. -/
theorem out_block_congr [FloatOps F] (L : grid0.Coords) (sfl : IVec S106496 32) (tab : FVec F S2600000x128 .f32)
    (fa0 : S128x128.Idx → F .f32) (o : FVec F S4096x128 .f32) (r₀ n : ℕ) (hn : r₀ + 64 ≤ n)
    (offO : Fin 2 → ℕ) (hbO : ∀ a, offO a + S64x128.size a ≤ S4096x128.size a) (hoffO : offO = ![128 * wid L + r₀, 0])
    (offA : Fin 2 → ℕ) (hbA : ∀ a, offA a + S64x128.size a ≤ S128x128.size a) (hoffA : offA = ![r₀, 0]) :
    ∀ i ∈ ((oV).slice (Rect.unit (s := S4096x128) offO S64x128.size hbO) (fun _ => rfl)).view.set,
      (((oV).slice (Rect.unit (s := S4096x128) offO S64x128.size hbO) (fun _ => rfl)).view.writes (Elt F) o
        [⟨Rect.whole S64x128, ReadAs.same.apply (View.read (Elt F) ((aV).slice (Rect.unit (s := S128x128) offA S64x128.size hbA) (fun _ => rfl)).view
          (outFn L sfl tab fa0 n))⟩]) i = KG (cstK (F := F)) sfl tab i := by
  subst hoffO hoffA
  intro i hi
  obtain ⟨y, -, rfl⟩ := Finset.mem_map.mp hi
  have hy0 : (y 0).val < 64 := (y 0).isLt
  have e := View.read_writes_cons_emb (Val := Elt F) ((oV).slice (Rect.unit (s := S4096x128) ![128 * wid L + r₀, 0] S64x128.size hbO) (fun _ => rfl)).view o
    (Rect.whole S64x128) (ReadAs.same.apply (View.read (Elt F) ((aV).slice (Rect.unit (s := S128x128) ![r₀, 0] S64x128.size hbA) (fun _ => rfl)).view
      (outFn L sfl tab fa0 n))) [] y
  have ey : (Rect.whole S64x128).emb (y : (Rect.whole S64x128).shape.Idx) = y := Rect.emb_whole_apply _ _
  rw [ey] at e
  refine ((cast_eq _ _).symm.trans ((View.read_apply _ _).symm.trans e)).trans ?_
  refine ((View.read_apply _ _).trans (cast_eq _ _)).trans ?_
  unfold outFn KG
  have e0 : ((((aV).slice (Rect.unit (s := S128x128) ![r₀, 0] S64x128.size hbA) (fun _ => rfl)).view.emb y) 0).val = r₀ + (y 0).val := by
    show r₀ + 1 * (y 0).val = _; omega
  have f0 : ((((oV).slice (Rect.unit (s := S4096x128) ![128 * wid L + r₀, 0] S64x128.size hbO) (fun _ => rfl)).view.emb y) 0).val
      = 128 * wid L + (r₀ + (y 0).val) := by
    show 128 * wid L + r₀ + 1 * (y 0).val = _; omega
  have e1 : (((aV).slice (Rect.unit (s := S128x128) ![r₀, 0] S64x128.size hbA) (fun _ => rfl)).view.emb y) 1
      = (((oV).slice (Rect.unit (s := S4096x128) ![128 * wid L + r₀, 0] S64x128.size hbO) (fun _ => rfl)).view.emb y) 1 := Fin.ext rfl
  simp only [e0, f0, e1]
  rw [if_pos (by omega)]

/-- The upper block after its copy: rows 0 … 63 of the out scratch, all done, are the kernel's value at rows 128 w … 128 w + 63. -/
theorem out_top_congr [FloatOps F] (L : grid0.Coords) (sfl : IVec S106496 32) (tab : FVec F S2600000x128 .f32)
    (fa0 : S128x128.Idx → F .f32) (o : FVec F S4096x128 .f32) :
    ∀ i ∈ (oTop L).view.set, ((oTop L).view.writes (Elt F) o
      [⟨Rect.whole S64x128, ReadAs.same.apply (View.read (Elt F) (aTop).view (outFn L sfl tab fa0 64))⟩]) i = KG (cstK (F := F)) sfl tab i :=
  out_block_congr L sfl tab fa0 o 0 64 (by omega) (k0_off108 L) _
    ((k0_off108_eq L).trans (by rw [show 128 * wid L + 0 = 256 * (L 1).val + 128 * (L 0).val by unfold wid; omega])) ![0, 0] _ rfl

/-- The lower block after its copy: rows 64 … 127 of the out scratch are the kernel's value at rows 128 w + 64 … 128 w + 127. -/
theorem out_bot_congr [FloatOps F] (L : grid0.Coords) (sfl : IVec S106496 32) (tab : FVec F S2600000x128 .f32)
    (fa0 : S128x128.Idx → F .f32) (o : FVec F S4096x128 .f32) :
    ∀ i ∈ (oBot (F := F) L).view.set, ((oBot (F := F) L).view.writes (Elt F) o
      [⟨Rect.whole S64x128, ReadAs.same.apply (View.read (Elt F) (aBot).view (outFn L sfl tab fa0 128))⟩]) i = KG (cstK (F := F)) sfl tab i :=
  out_block_congr L sfl tab fa0 o 64 128 (by omega) (k0_off109 L) _
    ((k0_off109_eq L).trans (by rw [show 128 * wid L + 64 = 256 * (L 1).val + 128 * (L 0).val + 64 by unfold wid; omega])) ![64, 0] _ rfl

end Cert.KB

end
-- ==== Proof.KBGather.lean ====
/-
  A gather's delivery, in the invariant's terms: the row buffer written with the gather's payload holds, at row k of the
  chunk, the table row that the k-th word of the chunk's window names; the window comes back at the moved words (the same
  whichever pass has run, once the window's positions have been moved); the table's token comes back.
-/
import proofs.«207326_g40819369181559_retrytranche2_1852_22_alg».proof.Proof.KBInv
import proofs.«207326_g40819369181559_retrytranche2_1852_22_alg».proof.Proof.KBOut
import Idealize.ShloMosaic.Lib.ValueLayout

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "xV" => (Memref.whole Cert.Kernel.main_arg1_scv : Memref Cert.Kernel.sig Kind.scVector Space.hbm Cert.Kernel.S2600000x128 EltTy.f32)
local notation "sV" => (Memref.whole Cert.Kernel.cc0_scratch0 : Memref Cert.Kernel.sig Kind.scVector Space.vmem Cert.Kernel.S3328 EltTy.i32)
local notation "rV" => (Memref.whole Cert.Kernel.cc0_scratch1 : Memref Cert.Kernel.sig Kind.scVector Space.vmem Cert.Kernel.S4x104x128 EltTy.f32)

variable [FloatOps F]
variable (d : Dev nD) (L : grid0.Coords)
variable (q : PosShare TreeShare) (sfl : IVec S106496 32) (tab : FVec F S2600000x128 .f32)

/-- The table as the gathers name it: the slice that is all of it. -/
abbrev xAll : Memref sig .scVector .hbm S2600000x128 .f32 :=
  (xV).slice (Rect.unit (s := S2600000x128) ![0, 0] S2600000x128.size inb_S2600000x128_S2600000x128_0_0) (fun _ => rfl)

theorem xAll_set : (xAll).view.set = (Finset.univ : Finset S2600000x128.Idx) := by
  show ((View.whole (main_arg1_scv : Ref sig .scVector)).slice (Rect.unit (s := S2600000x128) ![0, 0] S2600000x128.size inb_S2600000x128_S2600000x128_0_0)).set = _
  rw [View.set_slice_whole]
  refine Rect.set_eq_univ_of_whole _ (fun a => ?_)
  match a with
  | ⟨0, _⟩ => exact ⟨rfl, rfl, rfl⟩
  | ⟨1, _⟩ => exact ⟨rfl, rfl, rfl⟩

/-- A row buffer written whole with chunk j's gather holds chunk j's rows: at (k, c) the table row that word k of the
    chunk's window names, column c. -/
theorem slot_written (K : Fin 4) (off3 : Fin 3 → ℕ) (hb3 : ∀ a, off3 a + S1x104x128.size a ≤ S4x104x128.size a) (hoff3 : off3 = ![K.val, 0, 0])
    (n j : ℕ) (hj : j < 32) (hjn : 104 * (j + 1) ≤ n) (hraw : ∀ p, (rawIdx L sfl p).toNat ≤ 99999)
    (off : Fin 1 → ℕ) (hb : ∀ a, off a + S104.size a ≤ S3328.size a) (hoff : off = ![104 * j]) (f : S4x104x128.Idx → F .f32)
    (hn : S104.numel = S104x128.size gathers_S2600000x128_S104x128.axis')
    (hin : ∀ x, (((sV).slice (Rect.unit (s := S3328) off S104.size hb) (fun _ => rfl)).view.read (Elt F) (idxAfter L sfl n) x).toNat
      < S2600000x128.size gathers_S2600000x128_S104x128.axis) :
    ∀ i ∈ (((rV).slice (Rect.unit (s := S4x104x128) off3 S1x104x128.size hb3) (fun _ => rfl)).squeeze S104x128 squeezes_S1x104x128_S104x128).view.set,
      (((rV).slice (Rect.unit (s := S4x104x128) off3 S1x104x128.size hb3) (fun _ => rfl)).squeeze S104x128 squeezes_S1x104x128_S104x128).view.writes (Elt F) f
        [⟨Rect.whole S104x128, SparseCore.gatherPayload gathers_S2600000x128_S104x128 (View.read (Elt F) (xAll).view tab)
          (SparseCore.rows (View.read (Elt F) ((sV).slice (Rect.unit (s := S3328) off S104.size hb) (fun _ => rfl)).view (idxAfter L sfl n)) hn hin)⟩] i
        = rowsFn L sfl tab j i := by
  subst hoff3
  intro i hi
  obtain ⟨x, -, rfl⟩ := Finset.mem_map.mp hi
  obtain ⟨x0, x1, rfl⟩ : ∃ (x0 : Fin 104) (x1 : Fin 128), x = ix2 x0 x1 := ⟨x 0, x 1, eq_ix2 x⟩
  have e := View.read_writes_cons_emb (Val := Elt F)
    (((rV).slice (Rect.unit (s := S4x104x128) ![K.val, 0, 0] S1x104x128.size hb3) (fun _ => rfl)).squeeze S104x128 squeezes_S1x104x128_S104x128).view f
    (Rect.whole S104x128) (SparseCore.gatherPayload gathers_S2600000x128_S104x128 (View.read (Elt F) (xAll).view tab)
      (SparseCore.rows (View.read (Elt F) ((sV).slice (Rect.unit (s := S3328) off S104.size hb) (fun _ => rfl)).view (idxAfter L sfl n)) hn hin)) [] (ix2 x0 x1)
  have ey : (Rect.whole S104x128).emb (ix2 x0 x1 : (Rect.whole S104x128).shape.Idx) = ix2 x0 x1 := Rect.emb_whole_apply _ _
  rw [ey] at e
  refine ((cast_eq _ _).symm.trans ((View.read_apply _ _).symm.trans e)).trans ?_
  rw [gathered_apply_n L sfl tab n j hj hjn hraw off hb hoff hn hin]
  unfold rowsFn
  have h1 : (((((rV).slice (Rect.unit (s := S4x104x128) ![K.val, 0, 0] S1x104x128.size hb3) (fun _ => rfl)).squeeze S104x128 squeezes_S1x104x128_S104x128).view.emb
      (ix2 x0 x1)) 1).val = x0.val := by
    show 0 + 1 * ((Shape.reshapeEquiv squeezes_S1x104x128_S104x128.numel_eq (ix2 x0 x1)) 1).val = _
    rw [reshapeEquiv_ix2_1ab]; show 0 + 1 * x0.val = _; omega
  have h2 : ((((rV).slice (Rect.unit (s := S4x104x128) ![K.val, 0, 0] S1x104x128.size hb3) (fun _ => rfl)).squeeze S104x128 squeezes_S1x104x128_S104x128).view.emb
      (ix2 x0 x1)) 2 = x1 := Fin.ext (by
    show 0 + 1 * ((Shape.reshapeEquiv squeezes_S1x104x128_S104x128.numel_eq (ix2 x0 x1)) 2).val = _
    rw [reshapeEquiv_ix2_1ab]; show 0 + 1 * x1.val = _; omega)
  rw [h2]
  simp only [h1]

/-- A gather of chunk j into row buffer K, as its issue leaves it when the positions below n have been moved (the chunk's
    window among them), delivers what the loop's invariant says of it. -/
theorem fcanon_gen (K : Fin 4) (off3 : Fin 3 → ℕ) (hb3 : ∀ a, off3 a + S1x104x128.size a ≤ S4x104x128.size a) (hoff3 : off3 = ![K.val, 0, 0])
    (sm : SemLoc sig) (tk : Fin 7)
    (n j : ℕ) (hj : j < 32) (hjn : 104 * (j + 1) ≤ n) (hn3 : n ≤ 3328) (hraw : ∀ p, (rawIdx L sfl p).toNat ≤ 99999)
    (off : Fin 1 → ℕ) (hb : ∀ a, off a + S104.size a ≤ S3328.size a) (hoff : off = ![104 * j]) (f : S4x104x128.Idx → F .f32)
    (hn : S104.numel = S104x128.size gathers_S2600000x128_S104x128.axis')
    (hin : ∀ x, (((sV).slice (Rect.unit (s := S3328) off S104.size hb) (fun _ => rfl)).view.read (Elt F) (idxAfter L sfl n) x).toNat
      < S2600000x128.size gathers_S2600000x128_S104x128.axis) :
    (Transfers.Flight countersEmb (thrT d L) sm (default : HIx 1) 425984
      iprop((((((rV).slice (Rect.unit (s := S4x104x128) off3 S1x104x128.size hb3) (fun _ => rfl)).squeeze S104x128 squeezes_S1x104x128_S104x128).view.loc (thrT d L)
            ↦[(((rV).slice (Rect.unit (s := S4x104x128) off3 S1x104x128.size hb3) (fun _ => rfl)).squeeze S104x128 squeezes_S1x104x128_S104x128).view.set]{fullShare}
              (((rV).slice (Rect.unit (s := S4x104x128) off3 S1x104x128.size hb3) (fun _ => rfl)).squeeze S104x128 squeezes_S1x104x128_S104x128).view.writes (Elt F) f
                [⟨Rect.whole S104x128, SparseCore.gatherPayload gathers_S2600000x128_S104x128 (View.read (Elt F) (xAll).view tab)
                  (SparseCore.rows (View.read (Elt F) ((sV).slice (Rect.unit (s := S3328) off S104.size hb) (fun _ => rfl)).view (idxAfter L sfl n)) hn hin)⟩])
          ∗ (((sV).slice (Rect.unit (s := S3328) off S104.size hb) (fun _ => rfl)).view.loc (thrT d L)
              ↦[((sV).slice (Rect.unit (s := S3328) off S104.size hb) (fun _ => rfl)).view.set]{fullShare} idxAfter L sfl n))
        ∗ ((xV).view.loc (thrT d L) ↦[(xAll).view.set]{Transfers.shareTok q 7 tk} tab)) : sProp 𝕄)
      ⊢ Transfers.Flight countersEmb (thrT d L) sm (default : HIx 1) 425984
          iprop(((((rV).slice (Rect.unit (s := S4x104x128) off3 S1x104x128.size hb3) (fun _ => rfl)).squeeze S104x128 squeezes_S1x104x128_S104x128).view.loc (thrT d L)
              ↦[(((rV).slice (Rect.unit (s := S4x104x128) off3 S1x104x128.size hb3) (fun _ => rfl)).squeeze S104x128 squeezes_S1x104x128_S104x128).view.set]{fullShare}
                rowsFn L sfl tab j) ∗ winPts d L sfl j
            ∗ ((xV).view.loc (thrT d L) ↦{Transfers.shareTok q 7 tk} tab)) := by
  refine Transfers.Flight_mono countersEmb (thrT d L) ?_
  have hoffm : off = ![104 * (j % 32)] := by rw [hoff, Nat.mod_eq_of_lt hj]
  have hwin : (((sV).slice (Rect.unit (s := S3328) off S104.size hb) (fun _ => rfl)).view.loc (thrT d L)
        ↦[((sV).slice (Rect.unit (s := S3328) off S104.size hb) (fun _ => rfl)).view.set]{fullShare} idxAfter L sfl n : sProp 𝕄)
      = winPts d L sfl j := by
    rw [← winPts_spell d L sfl j off hb hoffm]
    refine pointsTo_congr (fun i hi => ?_)
    obtain ⟨x, -, rfl⟩ := Finset.mem_map.mp hi
    have hx : (x 0).val < 104 := (x 0).isLt
    have e : ((((sV).slice (Rect.unit (s := S3328) off S104.size hb) (fun _ => rfl)).view.emb x) 0).val = 104 * j + (x 0).val := by
      subst hoff; show 104 * j + 1 * (x 0).val = _; omega
    show idxAfter L sfl n _ = idxAfter L sfl 3328 _
    unfold idxAfter
    simp only [e]
    rw [if_pos (by omega), if_pos (by omega)]
  rw [hwin, xAll_set, pointsTo_congr (slot_written L sfl tab K off3 hb3 hoff3 n j hj hjn hraw off hb hoff f hn hin)]
  iintro ⟨⟨H1, H2⟩, H3⟩
  isplitl [H1]; · iexact H1
  isplitl [H2]; · iexact H2
  iexact H3

/-- Row buffer 0's gather of chunk j, issued when the positions below n have been moved, delivers what the invariant says. -/
theorem fcanon0_n (hraw : ∀ p, (rawIdx L sfl p).toNat ≤ 99999) (n j : ℕ) (hj : j < 32) (hjn : 104 * (j + 1) ≤ n) (hn3 : n ≤ 3328)
    (off : Fin 1 → ℕ) (hb : ∀ a, off a + S104.size a ≤ S3328.size a) (hoff : off = ![104 * j])
    (f : Buf (Elt F) ((slot0).view.loc (thrT d L)))
    (hn : S104.numel = S104x128.size gathers_S2600000x128_S104x128.axis')
    (hin : ∀ x, (((sV).slice (Rect.unit (s := S3328) off S104.size hb) (fun _ => rfl)).view.read (Elt F) (idxAfter L sfl n) x).toNat
      < S2600000x128.size gathers_S2600000x128_S104x128.axis)
    (sm : SemLoc sig) (hsm : sm = SemLoc.dma cc0_scratch3.sem) :
    (Transfers.Flight countersEmb (thrT d L) sm (default : HIx 1) 425984
      iprop((((slot0).view.loc (thrT d L) ↦[(slot0).view.set]{fullShare}
              (slot0).view.writes (Elt F) f [⟨Rect.whole S104x128, SparseCore.gatherPayload gathers_S2600000x128_S104x128 (View.read (Elt F) (xAll).view tab)
                (SparseCore.rows (View.read (Elt F) ((sV).slice (Rect.unit (s := S3328) off S104.size hb) (fun _ => rfl)).view (idxAfter L sfl n)) hn hin)⟩])
          ∗ (((sV).slice (Rect.unit (s := S3328) off S104.size hb) (fun _ => rfl)).view.loc (thrT d L)
              ↦[((sV).slice (Rect.unit (s := S3328) off S104.size hb) (fun _ => rfl)).view.set]{fullShare} idxAfter L sfl n))
        ∗ ((xV).view.loc (thrT d L) ↦[(xAll).view.set]{Transfers.shareTok q 7 0} tab)) : sProp 𝕄)
      ⊢ inFlight0 d L q sfl tab j := by
  subst hsm
  unfold inFlight0
  exact fcanon_gen d L q sfl tab 0 _ _ rfl (SemLoc.dma cc0_scratch3.sem) 0 n j hj hjn hn3 hraw off hb hoff f hn hin

/-- The same once both passes are over. -/
theorem fcanon0 (hraw : ∀ p, (rawIdx L sfl p).toNat ≤ 99999) (j : ℕ) (hj : j < 32)
    (off : Fin 1 → ℕ) (hb : ∀ a, off a + S104.size a ≤ S3328.size a) (hoff : off = ![104 * j])
    (f : Buf (Elt F) ((slot0).view.loc (thrT d L)))
    (hn : S104.numel = S104x128.size gathers_S2600000x128_S104x128.axis')
    (hin : ∀ x, (((sV).slice (Rect.unit (s := S3328) off S104.size hb) (fun _ => rfl)).view.read (Elt F) (fixC L sfl) x).toNat
      < S2600000x128.size gathers_S2600000x128_S104x128.axis)
    (sm : SemLoc sig) (hsm : sm = SemLoc.dma cc0_scratch3.sem) :
    (Transfers.Flight countersEmb (thrT d L) sm (default : HIx 1) 425984
      iprop((((slot0).view.loc (thrT d L) ↦[(slot0).view.set]{fullShare}
              (slot0).view.writes (Elt F) f [⟨Rect.whole S104x128, SparseCore.gatherPayload gathers_S2600000x128_S104x128 (View.read (Elt F) (xAll).view tab)
                (SparseCore.rows (View.read (Elt F) ((sV).slice (Rect.unit (s := S3328) off S104.size hb) (fun _ => rfl)).view (fixC L sfl)) hn hin)⟩])
          ∗ (((sV).slice (Rect.unit (s := S3328) off S104.size hb) (fun _ => rfl)).view.loc (thrT d L)
              ↦[((sV).slice (Rect.unit (s := S3328) off S104.size hb) (fun _ => rfl)).view.set]{fullShare} fixC L sfl))
        ∗ ((xV).view.loc (thrT d L) ↦[(xAll).view.set]{Transfers.shareTok q 7 0} tab)) : sProp 𝕄)
      ⊢ inFlight0 d L q sfl tab j :=
  fcanon0_n d L q sfl tab hraw 3328 j hj (by omega) (Nat.le_refl _) off hb hoff f hn hin sm hsm

/-- Row buffer 1's gather of chunk j, issued when the positions below n have been moved, delivers what the invariant says. -/
theorem fcanon1_n (hraw : ∀ p, (rawIdx L sfl p).toNat ≤ 99999) (n j : ℕ) (hj : j < 32) (hjn : 104 * (j + 1) ≤ n) (hn3 : n ≤ 3328)
    (off : Fin 1 → ℕ) (hb : ∀ a, off a + S104.size a ≤ S3328.size a) (hoff : off = ![104 * j])
    (f : Buf (Elt F) ((slot1).view.loc (thrT d L)))
    (hn : S104.numel = S104x128.size gathers_S2600000x128_S104x128.axis')
    (hin : ∀ x, (((sV).slice (Rect.unit (s := S3328) off S104.size hb) (fun _ => rfl)).view.read (Elt F) (idxAfter L sfl n) x).toNat
      < S2600000x128.size gathers_S2600000x128_S104x128.axis)
    (sm : SemLoc sig) (hsm : sm = SemLoc.dma cc0_scratch4.sem) :
    (Transfers.Flight countersEmb (thrT d L) sm (default : HIx 1) 425984
      iprop((((slot1).view.loc (thrT d L) ↦[(slot1).view.set]{fullShare}
              (slot1).view.writes (Elt F) f [⟨Rect.whole S104x128, SparseCore.gatherPayload gathers_S2600000x128_S104x128 (View.read (Elt F) (xAll).view tab)
                (SparseCore.rows (View.read (Elt F) ((sV).slice (Rect.unit (s := S3328) off S104.size hb) (fun _ => rfl)).view (idxAfter L sfl n)) hn hin)⟩])
          ∗ (((sV).slice (Rect.unit (s := S3328) off S104.size hb) (fun _ => rfl)).view.loc (thrT d L)
              ↦[((sV).slice (Rect.unit (s := S3328) off S104.size hb) (fun _ => rfl)).view.set]{fullShare} idxAfter L sfl n))
        ∗ ((xV).view.loc (thrT d L) ↦[(xAll).view.set]{Transfers.shareTok q 7 1} tab)) : sProp 𝕄)
      ⊢ inFlight1 d L q sfl tab j := by
  subst hsm
  unfold inFlight1
  exact fcanon_gen d L q sfl tab 1 _ _ rfl (SemLoc.dma cc0_scratch4.sem) 1 n j hj hjn hn3 hraw off hb hoff f hn hin

/-- The same once both passes are over. -/
theorem fcanon1 (hraw : ∀ p, (rawIdx L sfl p).toNat ≤ 99999) (j : ℕ) (hj : j < 32)
    (off : Fin 1 → ℕ) (hb : ∀ a, off a + S104.size a ≤ S3328.size a) (hoff : off = ![104 * j])
    (f : Buf (Elt F) ((slot1).view.loc (thrT d L)))
    (hn : S104.numel = S104x128.size gathers_S2600000x128_S104x128.axis')
    (hin : ∀ x, (((sV).slice (Rect.unit (s := S3328) off S104.size hb) (fun _ => rfl)).view.read (Elt F) (fixC L sfl) x).toNat
      < S2600000x128.size gathers_S2600000x128_S104x128.axis)
    (sm : SemLoc sig) (hsm : sm = SemLoc.dma cc0_scratch4.sem) :
    (Transfers.Flight countersEmb (thrT d L) sm (default : HIx 1) 425984
      iprop((((slot1).view.loc (thrT d L) ↦[(slot1).view.set]{fullShare}
              (slot1).view.writes (Elt F) f [⟨Rect.whole S104x128, SparseCore.gatherPayload gathers_S2600000x128_S104x128 (View.read (Elt F) (xAll).view tab)
                (SparseCore.rows (View.read (Elt F) ((sV).slice (Rect.unit (s := S3328) off S104.size hb) (fun _ => rfl)).view (fixC L sfl)) hn hin)⟩])
          ∗ (((sV).slice (Rect.unit (s := S3328) off S104.size hb) (fun _ => rfl)).view.loc (thrT d L)
              ↦[((sV).slice (Rect.unit (s := S3328) off S104.size hb) (fun _ => rfl)).view.set]{fullShare} fixC L sfl))
        ∗ ((xV).view.loc (thrT d L) ↦[(xAll).view.set]{Transfers.shareTok q 7 1} tab)) : sProp 𝕄)
      ⊢ inFlight1 d L q sfl tab j :=
  fcanon1_n d L q sfl tab hraw 3328 j hj (by omega) (Nat.le_refl _) off hb hoff f hn hin sm hsm

/-- Row buffer 2's gather of chunk j, issued when the positions below n have been moved, delivers what the invariant says. -/
theorem fcanon2_n (hraw : ∀ p, (rawIdx L sfl p).toNat ≤ 99999) (n j : ℕ) (hj : j < 32) (hjn : 104 * (j + 1) ≤ n) (hn3 : n ≤ 3328)
    (off : Fin 1 → ℕ) (hb : ∀ a, off a + S104.size a ≤ S3328.size a) (hoff : off = ![104 * j])
    (f : Buf (Elt F) ((slot2).view.loc (thrT d L)))
    (hn : S104.numel = S104x128.size gathers_S2600000x128_S104x128.axis')
    (hin : ∀ x, (((sV).slice (Rect.unit (s := S3328) off S104.size hb) (fun _ => rfl)).view.read (Elt F) (idxAfter L sfl n) x).toNat
      < S2600000x128.size gathers_S2600000x128_S104x128.axis)
    (sm : SemLoc sig) (hsm : sm = SemLoc.dma cc0_scratch5.sem) :
    (Transfers.Flight countersEmb (thrT d L) sm (default : HIx 1) 425984
      iprop((((slot2).view.loc (thrT d L) ↦[(slot2).view.set]{fullShare}
              (slot2).view.writes (Elt F) f [⟨Rect.whole S104x128, SparseCore.gatherPayload gathers_S2600000x128_S104x128 (View.read (Elt F) (xAll).view tab)
                (SparseCore.rows (View.read (Elt F) ((sV).slice (Rect.unit (s := S3328) off S104.size hb) (fun _ => rfl)).view (idxAfter L sfl n)) hn hin)⟩])
          ∗ (((sV).slice (Rect.unit (s := S3328) off S104.size hb) (fun _ => rfl)).view.loc (thrT d L)
              ↦[((sV).slice (Rect.unit (s := S3328) off S104.size hb) (fun _ => rfl)).view.set]{fullShare} idxAfter L sfl n))
        ∗ ((xV).view.loc (thrT d L) ↦[(xAll).view.set]{Transfers.shareTok q 7 2} tab)) : sProp 𝕄)
      ⊢ inFlight2 d L q sfl tab j := by
  subst hsm
  unfold inFlight2
  exact fcanon_gen d L q sfl tab 2 _ _ rfl (SemLoc.dma cc0_scratch5.sem) 2 n j hj hjn hn3 hraw off hb hoff f hn hin

/-- The same once both passes are over. -/
theorem fcanon2 (hraw : ∀ p, (rawIdx L sfl p).toNat ≤ 99999) (j : ℕ) (hj : j < 32)
    (off : Fin 1 → ℕ) (hb : ∀ a, off a + S104.size a ≤ S3328.size a) (hoff : off = ![104 * j])
    (f : Buf (Elt F) ((slot2).view.loc (thrT d L)))
    (hn : S104.numel = S104x128.size gathers_S2600000x128_S104x128.axis')
    (hin : ∀ x, (((sV).slice (Rect.unit (s := S3328) off S104.size hb) (fun _ => rfl)).view.read (Elt F) (fixC L sfl) x).toNat
      < S2600000x128.size gathers_S2600000x128_S104x128.axis)
    (sm : SemLoc sig) (hsm : sm = SemLoc.dma cc0_scratch5.sem) :
    (Transfers.Flight countersEmb (thrT d L) sm (default : HIx 1) 425984
      iprop((((slot2).view.loc (thrT d L) ↦[(slot2).view.set]{fullShare}
              (slot2).view.writes (Elt F) f [⟨Rect.whole S104x128, SparseCore.gatherPayload gathers_S2600000x128_S104x128 (View.read (Elt F) (xAll).view tab)
                (SparseCore.rows (View.read (Elt F) ((sV).slice (Rect.unit (s := S3328) off S104.size hb) (fun _ => rfl)).view (fixC L sfl)) hn hin)⟩])
          ∗ (((sV).slice (Rect.unit (s := S3328) off S104.size hb) (fun _ => rfl)).view.loc (thrT d L)
              ↦[((sV).slice (Rect.unit (s := S3328) off S104.size hb) (fun _ => rfl)).view.set]{fullShare} fixC L sfl))
        ∗ ((xV).view.loc (thrT d L) ↦[(xAll).view.set]{Transfers.shareTok q 7 2} tab)) : sProp 𝕄)
      ⊢ inFlight2 d L q sfl tab j :=
  fcanon2_n d L q sfl tab hraw 3328 j hj (by omega) (Nat.le_refl _) off hb hoff f hn hin sm hsm

/-- Row buffer 3's gather of chunk j, issued when the positions below n have been moved, delivers what the invariant says. -/
theorem fcanon3_n (hraw : ∀ p, (rawIdx L sfl p).toNat ≤ 99999) (n j : ℕ) (hj : j < 32) (hjn : 104 * (j + 1) ≤ n) (hn3 : n ≤ 3328)
    (off : Fin 1 → ℕ) (hb : ∀ a, off a + S104.size a ≤ S3328.size a) (hoff : off = ![104 * j])
    (f : Buf (Elt F) ((slot3).view.loc (thrT d L)))
    (hn : S104.numel = S104x128.size gathers_S2600000x128_S104x128.axis')
    (hin : ∀ x, (((sV).slice (Rect.unit (s := S3328) off S104.size hb) (fun _ => rfl)).view.read (Elt F) (idxAfter L sfl n) x).toNat
      < S2600000x128.size gathers_S2600000x128_S104x128.axis)
    (sm : SemLoc sig) (hsm : sm = SemLoc.dma cc0_scratch6.sem) :
    (Transfers.Flight countersEmb (thrT d L) sm (default : HIx 1) 425984
      iprop((((slot3).view.loc (thrT d L) ↦[(slot3).view.set]{fullShare}
              (slot3).view.writes (Elt F) f [⟨Rect.whole S104x128, SparseCore.gatherPayload gathers_S2600000x128_S104x128 (View.read (Elt F) (xAll).view tab)
                (SparseCore.rows (View.read (Elt F) ((sV).slice (Rect.unit (s := S3328) off S104.size hb) (fun _ => rfl)).view (idxAfter L sfl n)) hn hin)⟩])
          ∗ (((sV).slice (Rect.unit (s := S3328) off S104.size hb) (fun _ => rfl)).view.loc (thrT d L)
              ↦[((sV).slice (Rect.unit (s := S3328) off S104.size hb) (fun _ => rfl)).view.set]{fullShare} idxAfter L sfl n))
        ∗ ((xV).view.loc (thrT d L) ↦[(xAll).view.set]{Transfers.shareTok q 7 3} tab)) : sProp 𝕄)
      ⊢ inFlight3 d L q sfl tab j := by
  subst hsm
  unfold inFlight3
  exact fcanon_gen d L q sfl tab 3 _ _ rfl (SemLoc.dma cc0_scratch6.sem) 3 n j hj hjn hn3 hraw off hb hoff f hn hin

/-- The same once both passes are over. -/
theorem fcanon3 (hraw : ∀ p, (rawIdx L sfl p).toNat ≤ 99999) (j : ℕ) (hj : j < 32)
    (off : Fin 1 → ℕ) (hb : ∀ a, off a + S104.size a ≤ S3328.size a) (hoff : off = ![104 * j])
    (f : Buf (Elt F) ((slot3).view.loc (thrT d L)))
    (hn : S104.numel = S104x128.size gathers_S2600000x128_S104x128.axis')
    (hin : ∀ x, (((sV).slice (Rect.unit (s := S3328) off S104.size hb) (fun _ => rfl)).view.read (Elt F) (fixC L sfl) x).toNat
      < S2600000x128.size gathers_S2600000x128_S104x128.axis)
    (sm : SemLoc sig) (hsm : sm = SemLoc.dma cc0_scratch6.sem) :
    (Transfers.Flight countersEmb (thrT d L) sm (default : HIx 1) 425984
      iprop((((slot3).view.loc (thrT d L) ↦[(slot3).view.set]{fullShare}
              (slot3).view.writes (Elt F) f [⟨Rect.whole S104x128, SparseCore.gatherPayload gathers_S2600000x128_S104x128 (View.read (Elt F) (xAll).view tab)
                (SparseCore.rows (View.read (Elt F) ((sV).slice (Rect.unit (s := S3328) off S104.size hb) (fun _ => rfl)).view (fixC L sfl)) hn hin)⟩])
          ∗ (((sV).slice (Rect.unit (s := S3328) off S104.size hb) (fun _ => rfl)).view.loc (thrT d L)
              ↦[((sV).slice (Rect.unit (s := S3328) off S104.size hb) (fun _ => rfl)).view.set]{fullShare} fixC L sfl))
        ∗ ((xV).view.loc (thrT d L) ↦[(xAll).view.set]{Transfers.shareTok q 7 3} tab)) : sProp 𝕄)
      ⊢ inFlight3 d L q sfl tab j :=
  fcanon3_n d L q sfl tab hraw 3328 j hj (by omega) (Nat.le_refl _) off hb hoff f hn hin sm hsm

end Cert.KB

end
-- ==== Proof.KBBagStmt.lean ====
/-
  The statement of one bag's work inside a sub-step of the draining loop (4 sub-steps, one per row buffer): what the loop
  over a chunk's 4 bags keeps, and the claim that one trip of it advances the out scratch by one row.
-/
import proofs.«207326_g40819369181559_retrytranche2_1852_22_alg».proof.Proof.KBInv

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.Kernel.main_v0_scv : Memref Cert.Kernel.sig Kind.scVector Space.hbm Cert.Kernel.S106496 EltTy.i32)
local notation "xV" => (Memref.whole Cert.Kernel.main_arg1_scv : Memref Cert.Kernel.sig Kind.scVector Space.hbm Cert.Kernel.S2600000x128 EltTy.f32)
local notation "oV" => (Memref.whole Cert.Kernel.main_v1_scv : Memref Cert.Kernel.sig Kind.scVector Space.hbm Cert.Kernel.S4096x128 EltTy.f32)
local notation "sV" => (Memref.whole Cert.Kernel.cc0_scratch0 : Memref Cert.Kernel.sig Kind.scVector Space.vmem Cert.Kernel.S3328 EltTy.i32)
local notation "rV" => (Memref.whole Cert.Kernel.cc0_scratch1 : Memref Cert.Kernel.sig Kind.scVector Space.vmem Cert.Kernel.S4x104x128 EltTy.f32)
local notation "aV" => (Memref.whole Cert.Kernel.cc0_scratch2 : Memref Cert.Kernel.sig Kind.scVector Space.vmem Cert.Kernel.S128x128 EltTy.f32)

variable [FloatOps F]
variable (d : Dev nD) (L : grid0.Coords)

variable (sfl : IVec S106496 32) (tab : FVec F S2600000x128 .f32) (fa0 : S128x128.Idx → F .f32)

/-- Inside sub-step 0's loop over the chunk's 4 bags: the row buffer at the chunk's rows, the out scratch (all of it, or its
    lower half once the upper is lent to the copy) with b more rows done. -/
def bagInv0 (A : Finset S128x128.Idx) (t3 : Fin k0_t3_loop.trips) (b : ℕ) (_ : BitVec 32) : sProp 𝕄 :=
  iprop(((slot0).view.loc (thrT d L) ↦[(slot0).view.set]{fullShare} rowsFn L sfl tab (4 * t3.val + 0))
    ∗ ((aV).view.loc (thrT d L) ↦[A]{fullShare} outFn L sfl tab fa0 (16 * t3.val + 0 + b)))

/-- One bag of sub-step 0: 26 rows of the buffer summed left to right, scaled, stored to the bag's row of the out scratch. -/
def BagTrip0 : Prop :=
  ∀ (t3 : Fin k0_t3_loop.trips) (v1 v29 : BitVec 32) (A : Finset S128x128.Idx) (_ : A = Finset.univ ∨ (A = (aBot).view.set ∧ 4 ≤ t3.val))
    (b : Fin k0_t4_loop.trips) (acc : BitVec 32),
    bagInv0 d L sfl tab fa0 A t3 b.val acc
      ⊢ wp frame (wpE (defs₀ (F := F)) 𝒱₀ (thrT d L) none) Set.univ
          (k0_t4_body L iV (Memref.isWhole_whole _) xV (Memref.isWhole_whole _) oV (Memref.isWhole_whole _) sV (Memref.isWhole_whole _) rV (Memref.isWhole_whole _) aV (Memref.isWhole_whole _) cc0_scratch3 cc0_scratch4 cc0_scratch5 cc0_scratch6 cc0_scratch7 cc0_scoped0 cc0_scoped1 v1 0#32 1#32 t3 v29 b acc)
          (bagInv0 d L sfl tab fa0 A t3 (b.val + 1))

/-- Inside sub-step 1's loop over the chunk's 4 bags: the row buffer at the chunk's rows, the out scratch (all of it, or its
    lower half once the upper is lent to the copy) with b more rows done. -/
def bagInv1 (A : Finset S128x128.Idx) (t3 : Fin k0_t3_loop.trips) (b : ℕ) (_ : BitVec 32) : sProp 𝕄 :=
  iprop(((slot1).view.loc (thrT d L) ↦[(slot1).view.set]{fullShare} rowsFn L sfl tab (4 * t3.val + 1))
    ∗ ((aV).view.loc (thrT d L) ↦[A]{fullShare} outFn L sfl tab fa0 (16 * t3.val + 4 + b)))

/-- One bag of sub-step 1: 26 rows of the buffer summed left to right, scaled, stored to the bag's row of the out scratch. -/
def BagTrip1 : Prop :=
  ∀ (t3 : Fin k0_t3_loop.trips) (v1 v28 v45 : BitVec 32) (A : Finset S128x128.Idx) (_ : A = Finset.univ ∨ (A = (aBot).view.set ∧ 4 ≤ t3.val))
    (b : Fin k0_t5_loop.trips) (acc : BitVec 32),
    bagInv1 d L sfl tab fa0 A t3 b.val acc
      ⊢ wp frame (wpE (defs₀ (F := F)) 𝒱₀ (thrT d L) none) Set.univ
          (k0_t5_body L iV (Memref.isWhole_whole _) xV (Memref.isWhole_whole _) oV (Memref.isWhole_whole _) sV (Memref.isWhole_whole _) rV (Memref.isWhole_whole _) aV (Memref.isWhole_whole _) cc0_scratch3 cc0_scratch4 cc0_scratch5 cc0_scratch6 cc0_scratch7 cc0_scoped0 cc0_scoped1 v1 t3 v28 v45 b acc)
          (bagInv1 d L sfl tab fa0 A t3 (b.val + 1))

/-- Inside sub-step 2's loop over the chunk's 4 bags: the row buffer at the chunk's rows, the out scratch (all of it, or its
    lower half once the upper is lent to the copy) with b more rows done. -/
def bagInv2 (A : Finset S128x128.Idx) (t3 : Fin k0_t3_loop.trips) (b : ℕ) (_ : BitVec 32) : sProp 𝕄 :=
  iprop(((slot2).view.loc (thrT d L) ↦[(slot2).view.set]{fullShare} rowsFn L sfl tab (4 * t3.val + 2))
    ∗ ((aV).view.loc (thrT d L) ↦[A]{fullShare} outFn L sfl tab fa0 (16 * t3.val + 8 + b)))

/-- One bag of sub-step 2: 26 rows of the buffer summed left to right, scaled, stored to the bag's row of the out scratch. -/
def BagTrip2 : Prop :=
  ∀ (t3 : Fin k0_t3_loop.trips) (v1 v28 v45 v61 : BitVec 32) (A : Finset S128x128.Idx) (_ : A = Finset.univ ∨ (A = (aBot).view.set ∧ 4 ≤ t3.val))
    (b : Fin k0_t6_loop.trips) (acc : BitVec 32),
    bagInv2 d L sfl tab fa0 A t3 b.val acc
      ⊢ wp frame (wpE (defs₀ (F := F)) 𝒱₀ (thrT d L) none) Set.univ
          (k0_t6_body L iV (Memref.isWhole_whole _) xV (Memref.isWhole_whole _) oV (Memref.isWhole_whole _) sV (Memref.isWhole_whole _) rV (Memref.isWhole_whole _) aV (Memref.isWhole_whole _) cc0_scratch3 cc0_scratch4 cc0_scratch5 cc0_scratch6 cc0_scratch7 cc0_scoped0 cc0_scoped1 v1 t3 v28 v45 v61 b acc)
          (bagInv2 d L sfl tab fa0 A t3 (b.val + 1))

/-- Inside sub-step 3's loop over the chunk's 4 bags: the row buffer at the chunk's rows, the out scratch (all of it, or its
    lower half once the upper is lent to the copy) with b more rows done. -/
def bagInv3 (A : Finset S128x128.Idx) (t3 : Fin k0_t3_loop.trips) (b : ℕ) (_ : BitVec 32) : sProp 𝕄 :=
  iprop(((slot3).view.loc (thrT d L) ↦[(slot3).view.set]{fullShare} rowsFn L sfl tab (4 * t3.val + 3))
    ∗ ((aV).view.loc (thrT d L) ↦[A]{fullShare} outFn L sfl tab fa0 (16 * t3.val + 12 + b)))

/-- One bag of sub-step 3: 26 rows of the buffer summed left to right, scaled, stored to the bag's row of the out scratch. -/
def BagTrip3 : Prop :=
  ∀ (t3 : Fin k0_t3_loop.trips) (v77 : BitVec 32) (A : Finset S128x128.Idx) (_ : A = Finset.univ ∨ (A = (aBot).view.set ∧ 4 ≤ t3.val))
    (b : Fin k0_t7_loop.trips) (acc : BitVec 32),
    bagInv3 d L sfl tab fa0 A t3 b.val acc
      ⊢ wp frame (wpE (defs₀ (F := F)) 𝒱₀ (thrT d L) none) Set.univ
          (k0_t7_body L iV (Memref.isWhole_whole _) xV (Memref.isWhole_whole _) oV (Memref.isWhole_whole _) sV (Memref.isWhole_whole _) rV (Memref.isWhole_whole _) aV (Memref.isWhole_whole _) cc0_scratch3 cc0_scratch4 cc0_scratch5 cc0_scratch6 cc0_scratch7 cc0_scoped0 cc0_scoped1 t3 v77 b acc)
          (bagInv3 d L sfl tab fa0 A t3 (b.val + 1))

end Cert.KB

end
-- ==== Proof.KBRing.lean ====
/-
  One trip of the loop that drains the four row buffers, for one tile: from the invariant between trips t − 1 and t to the
  invariant between trips t and t + 1.

  A trip is four sub-steps s = 0 … 3, chunk j = 4 t + s. In each: if chunk j + 3 exists, its window of the index scratch
  is taken out of the windows held and its gather into buffer (s + 3) mod 4 is issued; the gather of chunk j into buffer s is
  waited for, which gives back buffer s at the chunk's rows, the chunk's window (put back among the windows held) and the
  buffer's read token of the table; the chunk's 4 bags are summed into rows 4 j … 4 j + 3 of the out scratch (one bag's work is
  a hypothesis here, proved apart). So a trip moves the three outstanding gathers from chunks 4 t … 4 t + 2 to chunks
  4 t + 4 … 4 t + 6, leaves buffer 3 idle again, and 16 more rows of the out scratch done. The trips come in four kinds:
  t ≤ 2 (the out scratch held whole throughout); t = 3 (at its end rows 0 … 63 are all done and their copy into the result's
  block starts: the upper half and the block go into the copy, the tile keeps the lower half); 4 ≤ t ≤ 6 (the stores go to
  the lower half); t = 7 (no chunk is left to gather after sub-step 0, so the buffers end idle and every window is back).
-/
import proofs.«207326_g40819369181559_retrytranche2_1852_22_alg».proof.Proof.KBBagStmt
import proofs.«207326_g40819369181559_retrytranche2_1852_22_alg».proof.Proof.KBGather
import proofs.«207326_g40819369181559_retrytranche2_1852_22_alg».proof.Proof.KBSets

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.Kernel.main_v0_scv : Memref Cert.Kernel.sig Kind.scVector Space.hbm Cert.Kernel.S106496 EltTy.i32)
local notation "xV" => (Memref.whole Cert.Kernel.main_arg1_scv : Memref Cert.Kernel.sig Kind.scVector Space.hbm Cert.Kernel.S2600000x128 EltTy.f32)
local notation "oV" => (Memref.whole Cert.Kernel.main_v1_scv : Memref Cert.Kernel.sig Kind.scVector Space.hbm Cert.Kernel.S4096x128 EltTy.f32)
local notation "sV" => (Memref.whole Cert.Kernel.cc0_scratch0 : Memref Cert.Kernel.sig Kind.scVector Space.vmem Cert.Kernel.S3328 EltTy.i32)
local notation "rV" => (Memref.whole Cert.Kernel.cc0_scratch1 : Memref Cert.Kernel.sig Kind.scVector Space.vmem Cert.Kernel.S4x104x128 EltTy.f32)
local notation "aV" => (Memref.whole Cert.Kernel.cc0_scratch2 : Memref Cert.Kernel.sig Kind.scVector Space.vmem Cert.Kernel.S128x128 EltTy.f32)

variable [FloatOps F]
variable (d : Dev nD) (L : grid0.Coords)

variable (q : PosShare TreeShare) (O : CellTallies nD τ sig (HIx 1)) (W : Waits sig (HIx 1))
variable (sfl : IVec S106496 32) (tab : FVec F S2600000x128 .f32) (fa0 : S128x128.Idx → F .f32) (o : FVec F S4096x128 .f32)

/-! ## Which branches a trip takes -/

theorem hc1_all : ∀ t : Fin k0_t3_loop.trips, k0_cond1 t = 1#1 := by decide +kernel
theorem hc3_le : ∀ t : Fin k0_t3_loop.trips, t.val ≤ 6 → k0_cond3 t = 1#1 := by decide +kernel
theorem hc5_le : ∀ t : Fin k0_t3_loop.trips, t.val ≤ 6 → k0_cond5 t = 1#1 := by decide +kernel
theorem hc7_le : ∀ t : Fin k0_t3_loop.trips, t.val ≤ 6 → k0_cond7 t = 1#1 := by decide +kernel
theorem hc3_last : ∀ t : Fin k0_t3_loop.trips, t.val = 7 → ¬ k0_cond3 t = 1#1 := by decide +kernel
theorem hc5_last : ∀ t : Fin k0_t3_loop.trips, t.val = 7 → ¬ k0_cond5 t = 1#1 := by decide +kernel
theorem hc7_last : ∀ t : Fin k0_t3_loop.trips, t.val = 7 → ¬ k0_cond7 t = 1#1 := by decide +kernel
theorem hc2_all : ∀ t : Fin k0_t3_loop.trips, ¬ k0_cond2 t = 1#1 := by decide +kernel
theorem hc4_all : ∀ t : Fin k0_t3_loop.trips, ¬ k0_cond4 t = 1#1 := by decide +kernel
theorem hc6_all : ∀ t : Fin k0_t3_loop.trips, ¬ k0_cond6 t = 1#1 := by decide +kernel
theorem hc8_three : ∀ t : Fin k0_t3_loop.trips, t.val = 3 → k0_cond8 t = 1#1 := by decide +kernel
theorem hc8_ne : ∀ t : Fin k0_t3_loop.trips, t.val ≠ 3 → ¬ k0_cond8 t = 1#1 := by decide +kernel

/-! ## The windows of the index scratch: one out, one back -/

/-- The windows held when chunks lo … lo + 3 are all being gathered. -/
def midSet (lo : ℕ) : Finset (Fin 32) := Finset.univ.filter fun j => j.val < lo ∨ lo + 4 ≤ j.val

omit [FloatOps F] in
theorem wins_take (lo : ℕ) (h : lo + 3 < 32) :
    wins (F := F) d L sfl lo = iprop(winPts d L sfl (lo + 3) ∗ bigSep (midSet lo) fun j => winPts d L sfl j.val) := by
  unfold wins
  rw [show idleSet lo = insert (⟨lo + 3, h⟩ : Fin 32) (midSet lo) from by
      ext j; simp only [idleSet, midSet, Finset.mem_filter, Finset.mem_univ, true_and, Finset.mem_insert, Fin.ext_iff]; omega,
    SparseCore.bigSep_insert' (by simp only [midSet, Finset.mem_filter, Finset.mem_univ, true_and]; omega)]

omit [FloatOps F] in
theorem wins_put (lo : ℕ) (h : lo + 3 < 32) :
    iprop(winPts d L sfl lo ∗ bigSep (midSet lo) fun j => winPts d L sfl j.val) = wins (F := F) d L sfl (lo + 1) := by
  unfold wins
  rw [show idleSet (lo + 1) = insert (⟨lo, by omega⟩ : Fin 32) (midSet lo) from by
      ext j; simp only [idleSet, midSet, Finset.mem_filter, Finset.mem_univ, true_and, Finset.mem_insert, Fin.ext_iff]; omega,
    SparseCore.bigSep_insert' (by simp only [midSet, Finset.mem_filter, Finset.mem_univ, true_and]; omega)]

omit [FloatOps F] in
theorem wins_put_tail (lo : ℕ) (h1 : lo < 32) (h2 : 32 ≤ lo + 3) :
    iprop(winPts d L sfl lo ∗ wins (F := F) d L sfl lo) = wins (F := F) d L sfl (lo + 1) := by
  unfold wins
  rw [show idleSet (lo + 1) = insert (⟨lo, h1⟩ : Fin 32) (idleSet lo) from by
      ext j; have := j.isLt; simp only [idleSet, Finset.mem_filter, Finset.mem_univ, true_and, Finset.mem_insert, Fin.ext_iff]; omega,
    SparseCore.bigSep_insert' (by simp only [idleSet, Finset.mem_filter, Finset.mem_univ, true_and]; omega)]

/-! ## The four kinds of trip -/

set_option maxHeartbeats 8000000 in
set_option maxRecDepth 100000 in
/-- Trips 0, 1, 2. -/
theorem trip_early (hraw : ∀ p, (rawIdx L sfl p).toNat ≤ 99999)
    (hb0 : BagTrip0 d L sfl tab fa0) (hb1 : BagTrip1 d L sfl tab fa0) (hb2 : BagTrip2 d L sfl tab fa0) (hb3 : BagTrip3 d L sfl tab fa0)
    (v1 : BitVec 32) (t3 : Fin k0_t3_loop.trips) (ht : t3.val ≤ 2) (acc : BitVec 32) :
    ringInv d L q O W sfl tab fa0 o t3.val acc
      ⊢ wp frame (wpE (defs₀ (F := F)) 𝒱₀ (thrT d L) none) Set.univ
          (k0_t3_body L iV (Memref.isWhole_whole _) xV (Memref.isWhole_whole _) oV (Memref.isWhole_whole _) sV (Memref.isWhole_whole _) rV (Memref.isWhole_whole _) aV (Memref.isWhole_whole _) cc0_scratch3 cc0_scratch4 cc0_scratch5 cc0_scratch6 cc0_scratch7 cc0_scoped0 cc0_scoped1 v1 t3 acc)
          (ringInv d L q O W sfl tab fa0 o (t3.val + 1)) := by
  have ht3 : t3.val < 8 := lt_of_lt_of_le t3.isLt k0_t3_abs.2.1
  have hc2 : ¬ k0_cond2 t3 = 1#1 := hc2_all t3
  have hc4 : ¬ k0_cond4 t3 = 1#1 := hc4_all t3
  have hc6 : ¬ k0_cond6 t3 = 1#1 := hc6_all t3
  have hc1 : k0_cond1 t3 = 1#1 := hc1_all t3
  have hc3 : k0_cond3 t3 = 1#1 := hc3_le t3 (by omega)
  have hc5 : k0_cond5 t3 = 1#1 := hc5_le t3 (by omega)
  have hc7 : k0_cond7 t3 = 1#1 := hc7_le t3 (by omega)
  have hc8 : ¬ k0_cond8 t3 = 1#1 := hc8_ne t3 (by omega)
  have hoff4 : k0_off4 t3 = ![104 * (4 * t3.val + 0 + 3)] := by
    rw [k0_off4_eq, show 416 * t3.val + 312 = 104 * (4 * t3.val + 0 + 3) by omega]
  have hoff4m : k0_off4 t3 = ![104 * ((4 * t3.val + 0 + 3) % 32)] := by
    rw [hoff4, Nat.mod_eq_of_lt (show 4 * t3.val + 0 + 3 < 32 by omega)]
  have hin4 := win_inb (F := F) L sfl 3328 (4 * t3.val + 0 + 3) (by omega) (k0_off4 t3) (k0_off4_inb t3 hc1) hoff4 hraw
  have hoff31 : k0_off31 t3 = ![104 * (4 * t3.val + 1 + 3)] := by
    rw [k0_off31_eq, show 416 * t3.val + 416 = 104 * (4 * t3.val + 1 + 3) by omega]
  have hoff31m : k0_off31 t3 = ![104 * ((4 * t3.val + 1 + 3) % 32)] := by
    rw [hoff31, Nat.mod_eq_of_lt (show 4 * t3.val + 1 + 3 < 32 by omega)]
  have hin31 := win_inb (F := F) L sfl 3328 (4 * t3.val + 1 + 3) (by omega) (k0_off31 t3) (k0_off31_inb t3 hc3) hoff31 hraw
  have hoff57 : k0_off57 t3 = ![104 * (4 * t3.val + 2 + 3)] := by
    rw [k0_off57_eq, show 416 * t3.val + 520 = 104 * (4 * t3.val + 2 + 3) by omega]
  have hoff57m : k0_off57 t3 = ![104 * ((4 * t3.val + 2 + 3) % 32)] := by
    rw [hoff57, Nat.mod_eq_of_lt (show 4 * t3.val + 2 + 3 < 32 by omega)]
  have hin57 := win_inb (F := F) L sfl 3328 (4 * t3.val + 2 + 3) (by omega) (k0_off57 t3) (k0_off57_inb t3 hc5) hoff57 hraw
  have hoff83 : k0_off83 t3 = ![104 * (4 * t3.val + 3 + 3)] := by
    rw [k0_off83_eq, show 416 * t3.val + 624 = 104 * (4 * t3.val + 3 + 3) by omega]
  have hoff83m : k0_off83 t3 = ![104 * ((4 * t3.val + 3 + 3) % 32)] := by
    rw [hoff83, Nat.mod_eq_of_lt (show 4 * t3.val + 3 + 3 < 32 by omega)]
  have hin83 := win_inb (F := F) L sfl 3328 (4 * t3.val + 3 + 3) (by omega) (k0_off83 t3) (k0_off83_inb t3 hc7) hoff83 hraw
  generalize hpost : ringInv d L q O W sfl tab fa0 o (t3.val + 1) = Post
  unfold ringInv ringSlots aState
  rw [if_pos ht3, if_pos (by omega)]
  unfold inFlight0 inFlight1 inFlight2 idle3 aEarly
  unfold k0_t3_body
  iintro ⟨#Hmw, Hw, ⟨Hf0, Hf1, Hf2⟩, ⟨⟨%f3, Hr3⟩, Hx3, Hc3⟩, ⟨Ha, H7, Hot⟩, %W0, %hW0, HO⟩
  -- sub-step 0
  ihave Hw' := (Entails.of_eq (wins_take d L sfl (4 * t3.val + 0) (by omega))) $$ Hw
  icases Hw' with ⟨Hwin, Hmid⟩
  ihave Hwin := (Entails.of_eq (winPts_spell d L sfl ((4 * t3.val + 0) + 3) (k0_off4 t3) (k0_off4_inb t3 hc1) hoff4m).symm) $$ Hwin
  sl_exec
  sl_unfold_run_names
  iapply (Transfers.wp_waitLocalO countersEmb 𝒱₀ (thrT d L) none (default : HIx 1) (rfl : (slot0).view.dmaCredit = _)) $$ [Hf0 HO]
  · isplitl [Hf0]; · iexact Hf0
    isplitl [HO]; · iexact HO
    iapply (Transfers.MayWaits.elim (SemLoc.dma cc0_scratch3.sem)) $$ Hmw
  iintro ⟨⟨Hr0, Hwb, Hx0⟩, Hc0, HO⟩
  ihave Hw := (Entails.of_eq (wins_put d L sfl (4 * t3.val + 0) (by omega))) $$ [Hwb Hmid]
  · isplitl [Hwb] <;> iassumption
  sl_exec
  sl_for (bagInv0 d L sfl tab fa0 Finset.univ t3) $$ [Hr0 Ha]
  case region =>
    intro b acc'
    exact hb0 t3 v1 _ Finset.univ (Or.inl rfl) b acc'
  · unfold bagInv0
    isplitl [Hr0]
    · iexact Hr0
    iexact Ha
  iintro %acc0 HI
  have htr0 : Scf.trips k0_t4_loop.lb k0_t4_loop.ub k0_t4_loop.st = 4 := by decide
  rw [htr0]
  unfold bagInv0
  icases HI with ⟨Hr0, Ha⟩
  -- sub-step 1
  ihave Hw' := (Entails.of_eq (wins_take d L sfl (4 * t3.val + 1) (by omega))) $$ Hw
  icases Hw' with ⟨Hwin, Hmid⟩
  ihave Hwin := (Entails.of_eq (winPts_spell d L sfl ((4 * t3.val + 1) + 3) (k0_off31 t3) (k0_off31_inb t3 hc3) hoff31m).symm) $$ Hwin
  sl_exec
  sl_unfold_run_names
  iclear Hx0
  iapply (Transfers.wp_waitLocalO countersEmb 𝒱₀ (thrT d L) none (default : HIx 1) (rfl : (slot1).view.dmaCredit = _)) $$ [Hf1 HO]
  · isplitl [Hf1]; · iexact Hf1
    isplitl [HO]; · iexact HO
    iapply (Transfers.MayWaits.elim (SemLoc.dma cc0_scratch4.sem)) $$ Hmw
  iintro ⟨⟨Hr1, Hwb, Hx1⟩, Hc1, HO⟩
  ihave Hw := (Entails.of_eq (wins_put d L sfl (4 * t3.val + 1) (by omega))) $$ [Hwb Hmid]
  · isplitl [Hwb] <;> iassumption
  sl_exec
  sl_for (bagInv1 d L sfl tab fa0 Finset.univ t3) $$ [Hr1 Ha]
  case region =>
    intro b acc'
    exact hb1 t3 v1 _ _ Finset.univ (Or.inl rfl) b acc'
  · unfold bagInv1
    isplitl [Hr1]
    · iexact Hr1
    iexact Ha
  iintro %acc1 HI
  have htr1 : Scf.trips k0_t5_loop.lb k0_t5_loop.ub k0_t5_loop.st = 4 := by decide
  rw [htr1]
  unfold bagInv1
  icases HI with ⟨Hr1, Ha⟩
  -- sub-step 2
  ihave Hw' := (Entails.of_eq (wins_take d L sfl (4 * t3.val + 2) (by omega))) $$ Hw
  icases Hw' with ⟨Hwin, Hmid⟩
  ihave Hwin := (Entails.of_eq (winPts_spell d L sfl ((4 * t3.val + 2) + 3) (k0_off57 t3) (k0_off57_inb t3 hc5) hoff57m).symm) $$ Hwin
  sl_exec
  sl_unfold_run_names
  iclear Hx1
  iapply (Transfers.wp_waitLocalO countersEmb 𝒱₀ (thrT d L) none (default : HIx 1) (rfl : (slot2).view.dmaCredit = _)) $$ [Hf2 HO]
  · isplitl [Hf2]; · iexact Hf2
    isplitl [HO]; · iexact HO
    iapply (Transfers.MayWaits.elim (SemLoc.dma cc0_scratch5.sem)) $$ Hmw
  iintro ⟨⟨Hr2, Hwb, Hx2⟩, Hc2, HO⟩
  ihave Hw := (Entails.of_eq (wins_put d L sfl (4 * t3.val + 2) (by omega))) $$ [Hwb Hmid]
  · isplitl [Hwb] <;> iassumption
  sl_exec
  sl_for (bagInv2 d L sfl tab fa0 Finset.univ t3) $$ [Hr2 Ha]
  case region =>
    intro b acc'
    exact hb2 t3 v1 _ _ _ Finset.univ (Or.inl rfl) b acc'
  · unfold bagInv2
    isplitl [Hr2]
    · iexact Hr2
    iexact Ha
  iintro %acc2 HI
  have htr2 : Scf.trips k0_t6_loop.lb k0_t6_loop.ub k0_t6_loop.st = 4 := by decide
  rw [htr2]
  unfold bagInv2
  icases HI with ⟨Hr2, Ha⟩
  -- sub-step 3
  ihave Hw' := (Entails.of_eq (wins_take d L sfl (4 * t3.val + 3) (by omega))) $$ Hw
  icases Hw' with ⟨Hwin, Hmid⟩
  ihave Hwin := (Entails.of_eq (winPts_spell d L sfl ((4 * t3.val + 3) + 3) (k0_off83 t3) (k0_off83_inb t3 hc7) hoff83m).symm) $$ Hwin
  sl_exec
  sl_unfold_run_names
  iclear Hx2
  ihave Hwb := (Entails.of_eq (winPts_spell d L sfl (4 * t3.val + 0 + 3) (k0_off4 t3) (k0_off4_inb t3 hc1) hoff4m)) $$ Hwin
  ihave Hw := (Entails.of_eq (wins_put d L sfl (4 * t3.val + 3) (by omega))) $$ [Hwb Hmid]
  · isplitl [Hwb] <;> iassumption
  sl_for (bagInv3 d L sfl tab fa0 Finset.univ t3) $$ [Hr3 Ha]
  case region =>
    intro b acc'
    exact hb3 t3 _ Finset.univ (Or.inl rfl) b acc'
  · unfold bagInv3
    isplitl [Hr3]
    · iapply (Entails.of_eq (pointsTo_congr (slot_written L sfl tab 3 _ _ rfl 3328 (4 * t3.val + 0 + 3) (by omega) (by omega) hraw (k0_off4 t3) (k0_off4_inb t3 hc1) hoff4 _ rfl hin4)))
      iexact Hr3
    iexact Ha
  iintro %acc3 HI
  have htr3 : Scf.trips k0_t7_loop.lb k0_t7_loop.ub k0_t7_loop.st = 4 := by decide
  rw [htr3]
  unfold bagInv3
  icases HI with ⟨Hr3, Ha⟩
  sl_exec
  sl_step
  subst hpost
  unfold ringInv ringSlots aState
  rw [if_pos (show t3.val + 1 < 8 by omega), if_pos (show t3.val + 1 ≤ 3 by omega)]
  unfold idle3 aEarly
  isplitr
  · imodintro; iexact Hmw
  isplitl [Hw]
  · iapply (Entails.of_eq (congrArg (wins d L sfl) (show 4 * t3.val + 3 + 1 = 4 * (t3.val + 1) by omega)))
    iexact Hw
  isplitl [Hc0 Hc1 Hc2]
  · isplitl [Hc0]
    · iapply (fcanon0 d L q sfl tab hraw (4 * (t3.val + 1)) (by omega) (k0_off31 t3) (k0_off31_inb t3 hc3)
        (by rw [k0_off31_eq, show 416 * t3.val + 416 = 104 * (4 * (t3.val + 1)) by omega]) (rowsFn L sfl tab (4 * t3.val + 0)) rfl hin31 _ rfl)
      iexact Hc0
    isplitl [Hc1]
    · iapply (fcanon1 d L q sfl tab hraw (4 * (t3.val + 1) + 1) (by omega) (k0_off57 t3) (k0_off57_inb t3 hc5)
        (by rw [k0_off57_eq, show 416 * t3.val + 520 = 104 * (4 * (t3.val + 1) + 1) by omega]) (rowsFn L sfl tab (4 * t3.val + 1)) rfl hin57 _ rfl)
      iexact Hc1
    iapply (fcanon2 d L q sfl tab hraw (4 * (t3.val + 1) + 2) (by omega) (k0_off83 t3) (k0_off83_inb t3 hc7)
      (by rw [k0_off83_eq, show 416 * t3.val + 624 = 104 * (4 * (t3.val + 1) + 2) by omega]) (rowsFn L sfl tab (4 * t3.val + 2)) rfl hin83 _ rfl)
    iexact Hc2
  isplitl [Hr3 Hx3 Hc3]
  · isplitl [Hr3]; · iexists _; iexact Hr3
    isplitl [Hx3]; · iexact Hx3
    iexact Hc3
  isplitl [Ha H7 Hot]
  · isplitl [Ha]
    · iapply (Entails.of_eq (congrArg (fun n => ((aV).view.loc (thrT d L) ↦{fullShare} outFn L sfl tab fa0 n : sProp 𝕄)) (show 16 * t3.val + 12 + 4 = 16 * (t3.val + 1) by omega)))
      iexact Ha
    isplitl [H7]; · iexact H7
    iexact Hot
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW0 p hp

set_option maxHeartbeats 8000000 in
set_option maxRecDepth 100000 in
/-- Trip 3: at its end the copy of the upper half starts. -/
theorem trip_copy (hraw : ∀ p, (rawIdx L sfl p).toNat ≤ 99999)
    (hb0 : BagTrip0 d L sfl tab fa0) (hb1 : BagTrip1 d L sfl tab fa0) (hb2 : BagTrip2 d L sfl tab fa0) (hb3 : BagTrip3 d L sfl tab fa0)
    (v1 : BitVec 32) (t3 : Fin k0_t3_loop.trips) (ht : t3.val = 3) (acc : BitVec 32) :
    ringInv d L q O W sfl tab fa0 o t3.val acc
      ⊢ wp frame (wpE (defs₀ (F := F)) 𝒱₀ (thrT d L) none) Set.univ
          (k0_t3_body L iV (Memref.isWhole_whole _) xV (Memref.isWhole_whole _) oV (Memref.isWhole_whole _) sV (Memref.isWhole_whole _) rV (Memref.isWhole_whole _) aV (Memref.isWhole_whole _) cc0_scratch3 cc0_scratch4 cc0_scratch5 cc0_scratch6 cc0_scratch7 cc0_scoped0 cc0_scoped1 v1 t3 acc)
          (ringInv d L q O W sfl tab fa0 o (t3.val + 1)) := by
  have ht3 : t3.val < 8 := lt_of_lt_of_le t3.isLt k0_t3_abs.2.1
  have hc2 : ¬ k0_cond2 t3 = 1#1 := hc2_all t3
  have hc4 : ¬ k0_cond4 t3 = 1#1 := hc4_all t3
  have hc6 : ¬ k0_cond6 t3 = 1#1 := hc6_all t3
  have hc1 : k0_cond1 t3 = 1#1 := hc1_all t3
  have hc3 : k0_cond3 t3 = 1#1 := hc3_le t3 (by omega)
  have hc5 : k0_cond5 t3 = 1#1 := hc5_le t3 (by omega)
  have hc7 : k0_cond7 t3 = 1#1 := hc7_le t3 (by omega)
  have hc8 : k0_cond8 t3 = 1#1 := hc8_three t3 ht
  have hoff4 : k0_off4 t3 = ![104 * (4 * t3.val + 0 + 3)] := by
    rw [k0_off4_eq, show 416 * t3.val + 312 = 104 * (4 * t3.val + 0 + 3) by omega]
  have hoff4m : k0_off4 t3 = ![104 * ((4 * t3.val + 0 + 3) % 32)] := by
    rw [hoff4, Nat.mod_eq_of_lt (show 4 * t3.val + 0 + 3 < 32 by omega)]
  have hin4 := win_inb (F := F) L sfl 3328 (4 * t3.val + 0 + 3) (by omega) (k0_off4 t3) (k0_off4_inb t3 hc1) hoff4 hraw
  have hoff31 : k0_off31 t3 = ![104 * (4 * t3.val + 1 + 3)] := by
    rw [k0_off31_eq, show 416 * t3.val + 416 = 104 * (4 * t3.val + 1 + 3) by omega]
  have hoff31m : k0_off31 t3 = ![104 * ((4 * t3.val + 1 + 3) % 32)] := by
    rw [hoff31, Nat.mod_eq_of_lt (show 4 * t3.val + 1 + 3 < 32 by omega)]
  have hin31 := win_inb (F := F) L sfl 3328 (4 * t3.val + 1 + 3) (by omega) (k0_off31 t3) (k0_off31_inb t3 hc3) hoff31 hraw
  have hoff57 : k0_off57 t3 = ![104 * (4 * t3.val + 2 + 3)] := by
    rw [k0_off57_eq, show 416 * t3.val + 520 = 104 * (4 * t3.val + 2 + 3) by omega]
  have hoff57m : k0_off57 t3 = ![104 * ((4 * t3.val + 2 + 3) % 32)] := by
    rw [hoff57, Nat.mod_eq_of_lt (show 4 * t3.val + 2 + 3 < 32 by omega)]
  have hin57 := win_inb (F := F) L sfl 3328 (4 * t3.val + 2 + 3) (by omega) (k0_off57 t3) (k0_off57_inb t3 hc5) hoff57 hraw
  have hoff83 : k0_off83 t3 = ![104 * (4 * t3.val + 3 + 3)] := by
    rw [k0_off83_eq, show 416 * t3.val + 624 = 104 * (4 * t3.val + 3 + 3) by omega]
  have hoff83m : k0_off83 t3 = ![104 * ((4 * t3.val + 3 + 3) % 32)] := by
    rw [hoff83, Nat.mod_eq_of_lt (show 4 * t3.val + 3 + 3 < 32 by omega)]
  have hin83 := win_inb (F := F) L sfl 3328 (4 * t3.val + 3 + 3) (by omega) (k0_off83 t3) (k0_off83_inb t3 hc7) hoff83 hraw
  generalize hpost : ringInv d L q O W sfl tab fa0 o (t3.val + 1) = Post
  unfold ringInv ringSlots aState
  rw [if_pos ht3, if_pos (by omega)]
  unfold inFlight0 inFlight1 inFlight2 idle3 aEarly
  unfold k0_t3_body
  iintro ⟨#Hmw, Hw, ⟨Hf0, Hf1, Hf2⟩, ⟨⟨%f3, Hr3⟩, Hx3, Hc3⟩, ⟨Ha, H7, Hot⟩, %W0, %hW0, HO⟩
  -- sub-step 0
  ihave Hw' := (Entails.of_eq (wins_take d L sfl (4 * t3.val + 0) (by omega))) $$ Hw
  icases Hw' with ⟨Hwin, Hmid⟩
  ihave Hwin := (Entails.of_eq (winPts_spell d L sfl ((4 * t3.val + 0) + 3) (k0_off4 t3) (k0_off4_inb t3 hc1) hoff4m).symm) $$ Hwin
  sl_exec
  sl_unfold_run_names
  iapply (Transfers.wp_waitLocalO countersEmb 𝒱₀ (thrT d L) none (default : HIx 1) (rfl : (slot0).view.dmaCredit = _)) $$ [Hf0 HO]
  · isplitl [Hf0]; · iexact Hf0
    isplitl [HO]; · iexact HO
    iapply (Transfers.MayWaits.elim (SemLoc.dma cc0_scratch3.sem)) $$ Hmw
  iintro ⟨⟨Hr0, Hwb, Hx0⟩, Hc0, HO⟩
  ihave Hw := (Entails.of_eq (wins_put d L sfl (4 * t3.val + 0) (by omega))) $$ [Hwb Hmid]
  · isplitl [Hwb] <;> iassumption
  sl_exec
  sl_for (bagInv0 d L sfl tab fa0 Finset.univ t3) $$ [Hr0 Ha]
  case region =>
    intro b acc'
    exact hb0 t3 v1 _ Finset.univ (Or.inl rfl) b acc'
  · unfold bagInv0
    isplitl [Hr0]
    · iexact Hr0
    iexact Ha
  iintro %acc0 HI
  have htr0 : Scf.trips k0_t4_loop.lb k0_t4_loop.ub k0_t4_loop.st = 4 := by decide
  rw [htr0]
  unfold bagInv0
  icases HI with ⟨Hr0, Ha⟩
  -- sub-step 1
  ihave Hw' := (Entails.of_eq (wins_take d L sfl (4 * t3.val + 1) (by omega))) $$ Hw
  icases Hw' with ⟨Hwin, Hmid⟩
  ihave Hwin := (Entails.of_eq (winPts_spell d L sfl ((4 * t3.val + 1) + 3) (k0_off31 t3) (k0_off31_inb t3 hc3) hoff31m).symm) $$ Hwin
  sl_exec
  sl_unfold_run_names
  iclear Hx0
  iapply (Transfers.wp_waitLocalO countersEmb 𝒱₀ (thrT d L) none (default : HIx 1) (rfl : (slot1).view.dmaCredit = _)) $$ [Hf1 HO]
  · isplitl [Hf1]; · iexact Hf1
    isplitl [HO]; · iexact HO
    iapply (Transfers.MayWaits.elim (SemLoc.dma cc0_scratch4.sem)) $$ Hmw
  iintro ⟨⟨Hr1, Hwb, Hx1⟩, Hc1, HO⟩
  ihave Hw := (Entails.of_eq (wins_put d L sfl (4 * t3.val + 1) (by omega))) $$ [Hwb Hmid]
  · isplitl [Hwb] <;> iassumption
  sl_exec
  sl_for (bagInv1 d L sfl tab fa0 Finset.univ t3) $$ [Hr1 Ha]
  case region =>
    intro b acc'
    exact hb1 t3 v1 _ _ Finset.univ (Or.inl rfl) b acc'
  · unfold bagInv1
    isplitl [Hr1]
    · iexact Hr1
    iexact Ha
  iintro %acc1 HI
  have htr1 : Scf.trips k0_t5_loop.lb k0_t5_loop.ub k0_t5_loop.st = 4 := by decide
  rw [htr1]
  unfold bagInv1
  icases HI with ⟨Hr1, Ha⟩
  -- sub-step 2
  ihave Hw' := (Entails.of_eq (wins_take d L sfl (4 * t3.val + 2) (by omega))) $$ Hw
  icases Hw' with ⟨Hwin, Hmid⟩
  ihave Hwin := (Entails.of_eq (winPts_spell d L sfl ((4 * t3.val + 2) + 3) (k0_off57 t3) (k0_off57_inb t3 hc5) hoff57m).symm) $$ Hwin
  sl_exec
  sl_unfold_run_names
  iclear Hx1
  iapply (Transfers.wp_waitLocalO countersEmb 𝒱₀ (thrT d L) none (default : HIx 1) (rfl : (slot2).view.dmaCredit = _)) $$ [Hf2 HO]
  · isplitl [Hf2]; · iexact Hf2
    isplitl [HO]; · iexact HO
    iapply (Transfers.MayWaits.elim (SemLoc.dma cc0_scratch5.sem)) $$ Hmw
  iintro ⟨⟨Hr2, Hwb, Hx2⟩, Hc2, HO⟩
  ihave Hw := (Entails.of_eq (wins_put d L sfl (4 * t3.val + 2) (by omega))) $$ [Hwb Hmid]
  · isplitl [Hwb] <;> iassumption
  sl_exec
  sl_for (bagInv2 d L sfl tab fa0 Finset.univ t3) $$ [Hr2 Ha]
  case region =>
    intro b acc'
    exact hb2 t3 v1 _ _ _ Finset.univ (Or.inl rfl) b acc'
  · unfold bagInv2
    isplitl [Hr2]
    · iexact Hr2
    iexact Ha
  iintro %acc2 HI
  have htr2 : Scf.trips k0_t6_loop.lb k0_t6_loop.ub k0_t6_loop.st = 4 := by decide
  rw [htr2]
  unfold bagInv2
  icases HI with ⟨Hr2, Ha⟩
  -- sub-step 3
  ihave Hw' := (Entails.of_eq (wins_take d L sfl (4 * t3.val + 3) (by omega))) $$ Hw
  icases Hw' with ⟨Hwin, Hmid⟩
  ihave Hwin := (Entails.of_eq (winPts_spell d L sfl ((4 * t3.val + 3) + 3) (k0_off83 t3) (k0_off83_inb t3 hc7) hoff83m).symm) $$ Hwin
  sl_exec
  sl_unfold_run_names
  iclear Hx2
  ihave Hwb := (Entails.of_eq (winPts_spell d L sfl (4 * t3.val + 0 + 3) (k0_off4 t3) (k0_off4_inb t3 hc1) hoff4m)) $$ Hwin
  ihave Hw := (Entails.of_eq (wins_put d L sfl (4 * t3.val + 3) (by omega))) $$ [Hwb Hmid]
  · isplitl [Hwb] <;> iassumption
  sl_for (bagInv3 d L sfl tab fa0 Finset.univ t3) $$ [Hr3 Ha]
  case region =>
    intro b acc'
    exact hb3 t3 _ Finset.univ (Or.inl rfl) b acc'
  · unfold bagInv3
    isplitl [Hr3]
    · iapply (Entails.of_eq (pointsTo_congr (slot_written L sfl tab 3 _ _ rfl 3328 (4 * t3.val + 0 + 3) (by omega) (by omega) hraw (k0_off4 t3) (k0_off4_inb t3 hc1) hoff4 _ rfl hin4)))
      iexact Hr3
    iexact Ha
  iintro %acc3 HI
  have htr3 : Scf.trips k0_t7_loop.lb k0_t7_loop.ub k0_t7_loop.st = 4 := by decide
  rw [htr3]
  unfold bagInv3
  icases HI with ⟨Hr3, Ha⟩
  sl_exec
  sl_step
  subst hpost
  unfold ringInv ringSlots aState
  rw [if_pos (show t3.val + 1 < 8 by omega), if_neg (show ¬ (t3.val + 1 ≤ 3) by omega)]
  unfold idle3 aLate
  isplitr
  · imodintro; iexact Hmw
  isplitl [Hw]
  · iapply (Entails.of_eq (congrArg (wins d L sfl) (show 4 * t3.val + 3 + 1 = 4 * (t3.val + 1) by omega)))
    iexact Hw
  isplitl [Hc0 Hc1 Hc2]
  · isplitl [Hc0]
    · iapply (fcanon0 d L q sfl tab hraw (4 * (t3.val + 1)) (by omega) (k0_off31 t3) (k0_off31_inb t3 hc3)
        (by rw [k0_off31_eq, show 416 * t3.val + 416 = 104 * (4 * (t3.val + 1)) by omega]) (rowsFn L sfl tab (4 * t3.val + 0)) rfl hin31 _ rfl)
      iexact Hc0
    isplitl [Hc1]
    · iapply (fcanon1 d L q sfl tab hraw (4 * (t3.val + 1) + 1) (by omega) (k0_off57 t3) (k0_off57_inb t3 hc5)
        (by rw [k0_off57_eq, show 416 * t3.val + 520 = 104 * (4 * (t3.val + 1) + 1) by omega]) (rowsFn L sfl tab (4 * t3.val + 1)) rfl hin57 _ rfl)
      iexact Hc1
    iapply (fcanon2 d L q sfl tab hraw (4 * (t3.val + 1) + 2) (by omega) (k0_off83 t3) (k0_off83_inb t3 hc7)
      (by rw [k0_off83_eq, show 416 * t3.val + 624 = 104 * (4 * (t3.val + 1) + 2) by omega]) (rowsFn L sfl tab (4 * t3.val + 2)) rfl hin83 _ rfl)
    iexact Hc2
  isplitl [Hr3 Hx3 Hc3]
  · isplitl [Hr3]; · iexists _; iexact Hr3
    isplitl [Hx3]; · iexact Hx3
    iexact Hc3
  isplitl [Ha H7]
  · have e64 : 16 * t3.val + 12 + 4 = 64 := by omega
    have e64' : 16 * (t3.val + 1) = 64 := by omega
    isplitl [Ha]
    · iapply (Entails.of_eq (show ((aV).view.loc (thrT d L) ↦[Finset.univ \ (aTop).view.set]{fullShare} outFn L sfl tab fa0 (16 * t3.val + 12 + 4) : sProp 𝕄)
          = ((aV).view.loc (thrT d L) ↦[(aBot).view.set]{fullShare} outFn L sfl tab fa0 (16 * (t3.val + 1))) by rw [aBot_set, e64, e64']))
      iexact Ha
    unfold copyFlight
    sl_unfold_run_names
    rw [e64]
    iexact H7
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW0 p hp

set_option maxHeartbeats 8000000 in
set_option maxRecDepth 100000 in
/-- Trips 4, 5, 6. -/
theorem trip_late (hraw : ∀ p, (rawIdx L sfl p).toNat ≤ 99999)
    (hb0 : BagTrip0 d L sfl tab fa0) (hb1 : BagTrip1 d L sfl tab fa0) (hb2 : BagTrip2 d L sfl tab fa0) (hb3 : BagTrip3 d L sfl tab fa0)
    (v1 : BitVec 32) (t3 : Fin k0_t3_loop.trips) (ht : 4 ≤ t3.val ∧ t3.val ≤ 6) (acc : BitVec 32) :
    ringInv d L q O W sfl tab fa0 o t3.val acc
      ⊢ wp frame (wpE (defs₀ (F := F)) 𝒱₀ (thrT d L) none) Set.univ
          (k0_t3_body L iV (Memref.isWhole_whole _) xV (Memref.isWhole_whole _) oV (Memref.isWhole_whole _) sV (Memref.isWhole_whole _) rV (Memref.isWhole_whole _) aV (Memref.isWhole_whole _) cc0_scratch3 cc0_scratch4 cc0_scratch5 cc0_scratch6 cc0_scratch7 cc0_scoped0 cc0_scoped1 v1 t3 acc)
          (ringInv d L q O W sfl tab fa0 o (t3.val + 1)) := by
  have ht3 : t3.val < 8 := lt_of_lt_of_le t3.isLt k0_t3_abs.2.1
  have hc2 : ¬ k0_cond2 t3 = 1#1 := hc2_all t3
  have hc4 : ¬ k0_cond4 t3 = 1#1 := hc4_all t3
  have hc6 : ¬ k0_cond6 t3 = 1#1 := hc6_all t3
  have hc1 : k0_cond1 t3 = 1#1 := hc1_all t3
  have hc3 : k0_cond3 t3 = 1#1 := hc3_le t3 (by omega)
  have hc5 : k0_cond5 t3 = 1#1 := hc5_le t3 (by omega)
  have hc7 : k0_cond7 t3 = 1#1 := hc7_le t3 (by omega)
  have hc8 : ¬ k0_cond8 t3 = 1#1 := hc8_ne t3 (by omega)
  have hoff4 : k0_off4 t3 = ![104 * (4 * t3.val + 0 + 3)] := by
    rw [k0_off4_eq, show 416 * t3.val + 312 = 104 * (4 * t3.val + 0 + 3) by omega]
  have hoff4m : k0_off4 t3 = ![104 * ((4 * t3.val + 0 + 3) % 32)] := by
    rw [hoff4, Nat.mod_eq_of_lt (show 4 * t3.val + 0 + 3 < 32 by omega)]
  have hin4 := win_inb (F := F) L sfl 3328 (4 * t3.val + 0 + 3) (by omega) (k0_off4 t3) (k0_off4_inb t3 hc1) hoff4 hraw
  have hoff31 : k0_off31 t3 = ![104 * (4 * t3.val + 1 + 3)] := by
    rw [k0_off31_eq, show 416 * t3.val + 416 = 104 * (4 * t3.val + 1 + 3) by omega]
  have hoff31m : k0_off31 t3 = ![104 * ((4 * t3.val + 1 + 3) % 32)] := by
    rw [hoff31, Nat.mod_eq_of_lt (show 4 * t3.val + 1 + 3 < 32 by omega)]
  have hin31 := win_inb (F := F) L sfl 3328 (4 * t3.val + 1 + 3) (by omega) (k0_off31 t3) (k0_off31_inb t3 hc3) hoff31 hraw
  have hoff57 : k0_off57 t3 = ![104 * (4 * t3.val + 2 + 3)] := by
    rw [k0_off57_eq, show 416 * t3.val + 520 = 104 * (4 * t3.val + 2 + 3) by omega]
  have hoff57m : k0_off57 t3 = ![104 * ((4 * t3.val + 2 + 3) % 32)] := by
    rw [hoff57, Nat.mod_eq_of_lt (show 4 * t3.val + 2 + 3 < 32 by omega)]
  have hin57 := win_inb (F := F) L sfl 3328 (4 * t3.val + 2 + 3) (by omega) (k0_off57 t3) (k0_off57_inb t3 hc5) hoff57 hraw
  have hoff83 : k0_off83 t3 = ![104 * (4 * t3.val + 3 + 3)] := by
    rw [k0_off83_eq, show 416 * t3.val + 624 = 104 * (4 * t3.val + 3 + 3) by omega]
  have hoff83m : k0_off83 t3 = ![104 * ((4 * t3.val + 3 + 3) % 32)] := by
    rw [hoff83, Nat.mod_eq_of_lt (show 4 * t3.val + 3 + 3 < 32 by omega)]
  have hin83 := win_inb (F := F) L sfl 3328 (4 * t3.val + 3 + 3) (by omega) (k0_off83 t3) (k0_off83_inb t3 hc7) hoff83 hraw
  generalize hpost : ringInv d L q O W sfl tab fa0 o (t3.val + 1) = Post
  unfold ringInv ringSlots aState
  rw [if_pos ht3, if_neg (by omega)]
  unfold inFlight0 inFlight1 inFlight2 idle3 aLate
  unfold k0_t3_body
  iintro ⟨#Hmw, Hw, ⟨Hf0, Hf1, Hf2⟩, ⟨⟨%f3, Hr3⟩, Hx3, Hc3⟩, ⟨Ha, Hcf⟩, %W0, %hW0, HO⟩
  -- sub-step 0
  ihave Hw' := (Entails.of_eq (wins_take d L sfl (4 * t3.val + 0) (by omega))) $$ Hw
  icases Hw' with ⟨Hwin, Hmid⟩
  ihave Hwin := (Entails.of_eq (winPts_spell d L sfl ((4 * t3.val + 0) + 3) (k0_off4 t3) (k0_off4_inb t3 hc1) hoff4m).symm) $$ Hwin
  sl_exec
  sl_unfold_run_names
  iapply (Transfers.wp_waitLocalO countersEmb 𝒱₀ (thrT d L) none (default : HIx 1) (rfl : (slot0).view.dmaCredit = _)) $$ [Hf0 HO]
  · isplitl [Hf0]; · iexact Hf0
    isplitl [HO]; · iexact HO
    iapply (Transfers.MayWaits.elim (SemLoc.dma cc0_scratch3.sem)) $$ Hmw
  iintro ⟨⟨Hr0, Hwb, Hx0⟩, Hc0, HO⟩
  ihave Hw := (Entails.of_eq (wins_put d L sfl (4 * t3.val + 0) (by omega))) $$ [Hwb Hmid]
  · isplitl [Hwb] <;> iassumption
  sl_exec
  sl_for (bagInv0 d L sfl tab fa0 (aBot).view.set t3) $$ [Hr0 Ha]
  case region =>
    intro b acc'
    exact hb0 t3 v1 _ (aBot).view.set (Or.inr ⟨rfl, by omega⟩) b acc'
  · unfold bagInv0
    isplitl [Hr0]
    · iexact Hr0
    iexact Ha
  iintro %acc0 HI
  have htr0 : Scf.trips k0_t4_loop.lb k0_t4_loop.ub k0_t4_loop.st = 4 := by decide
  rw [htr0]
  unfold bagInv0
  icases HI with ⟨Hr0, Ha⟩
  -- sub-step 1
  ihave Hw' := (Entails.of_eq (wins_take d L sfl (4 * t3.val + 1) (by omega))) $$ Hw
  icases Hw' with ⟨Hwin, Hmid⟩
  ihave Hwin := (Entails.of_eq (winPts_spell d L sfl ((4 * t3.val + 1) + 3) (k0_off31 t3) (k0_off31_inb t3 hc3) hoff31m).symm) $$ Hwin
  sl_exec
  sl_unfold_run_names
  iclear Hx0
  iapply (Transfers.wp_waitLocalO countersEmb 𝒱₀ (thrT d L) none (default : HIx 1) (rfl : (slot1).view.dmaCredit = _)) $$ [Hf1 HO]
  · isplitl [Hf1]; · iexact Hf1
    isplitl [HO]; · iexact HO
    iapply (Transfers.MayWaits.elim (SemLoc.dma cc0_scratch4.sem)) $$ Hmw
  iintro ⟨⟨Hr1, Hwb, Hx1⟩, Hc1, HO⟩
  ihave Hw := (Entails.of_eq (wins_put d L sfl (4 * t3.val + 1) (by omega))) $$ [Hwb Hmid]
  · isplitl [Hwb] <;> iassumption
  sl_exec
  sl_for (bagInv1 d L sfl tab fa0 (aBot).view.set t3) $$ [Hr1 Ha]
  case region =>
    intro b acc'
    exact hb1 t3 v1 _ _ (aBot).view.set (Or.inr ⟨rfl, by omega⟩) b acc'
  · unfold bagInv1
    isplitl [Hr1]
    · iexact Hr1
    iexact Ha
  iintro %acc1 HI
  have htr1 : Scf.trips k0_t5_loop.lb k0_t5_loop.ub k0_t5_loop.st = 4 := by decide
  rw [htr1]
  unfold bagInv1
  icases HI with ⟨Hr1, Ha⟩
  -- sub-step 2
  ihave Hw' := (Entails.of_eq (wins_take d L sfl (4 * t3.val + 2) (by omega))) $$ Hw
  icases Hw' with ⟨Hwin, Hmid⟩
  ihave Hwin := (Entails.of_eq (winPts_spell d L sfl ((4 * t3.val + 2) + 3) (k0_off57 t3) (k0_off57_inb t3 hc5) hoff57m).symm) $$ Hwin
  sl_exec
  sl_unfold_run_names
  iclear Hx1
  iapply (Transfers.wp_waitLocalO countersEmb 𝒱₀ (thrT d L) none (default : HIx 1) (rfl : (slot2).view.dmaCredit = _)) $$ [Hf2 HO]
  · isplitl [Hf2]; · iexact Hf2
    isplitl [HO]; · iexact HO
    iapply (Transfers.MayWaits.elim (SemLoc.dma cc0_scratch5.sem)) $$ Hmw
  iintro ⟨⟨Hr2, Hwb, Hx2⟩, Hc2, HO⟩
  ihave Hw := (Entails.of_eq (wins_put d L sfl (4 * t3.val + 2) (by omega))) $$ [Hwb Hmid]
  · isplitl [Hwb] <;> iassumption
  sl_exec
  sl_for (bagInv2 d L sfl tab fa0 (aBot).view.set t3) $$ [Hr2 Ha]
  case region =>
    intro b acc'
    exact hb2 t3 v1 _ _ _ (aBot).view.set (Or.inr ⟨rfl, by omega⟩) b acc'
  · unfold bagInv2
    isplitl [Hr2]
    · iexact Hr2
    iexact Ha
  iintro %acc2 HI
  have htr2 : Scf.trips k0_t6_loop.lb k0_t6_loop.ub k0_t6_loop.st = 4 := by decide
  rw [htr2]
  unfold bagInv2
  icases HI with ⟨Hr2, Ha⟩
  -- sub-step 3
  ihave Hw' := (Entails.of_eq (wins_take d L sfl (4 * t3.val + 3) (by omega))) $$ Hw
  icases Hw' with ⟨Hwin, Hmid⟩
  ihave Hwin := (Entails.of_eq (winPts_spell d L sfl ((4 * t3.val + 3) + 3) (k0_off83 t3) (k0_off83_inb t3 hc7) hoff83m).symm) $$ Hwin
  sl_exec
  sl_unfold_run_names
  iclear Hx2
  ihave Hwb := (Entails.of_eq (winPts_spell d L sfl (4 * t3.val + 0 + 3) (k0_off4 t3) (k0_off4_inb t3 hc1) hoff4m)) $$ Hwin
  ihave Hw := (Entails.of_eq (wins_put d L sfl (4 * t3.val + 3) (by omega))) $$ [Hwb Hmid]
  · isplitl [Hwb] <;> iassumption
  sl_for (bagInv3 d L sfl tab fa0 (aBot).view.set t3) $$ [Hr3 Ha]
  case region =>
    intro b acc'
    exact hb3 t3 _ (aBot).view.set (Or.inr ⟨rfl, by omega⟩) b acc'
  · unfold bagInv3
    isplitl [Hr3]
    · iapply (Entails.of_eq (pointsTo_congr (slot_written L sfl tab 3 _ _ rfl 3328 (4 * t3.val + 0 + 3) (by omega) (by omega) hraw (k0_off4 t3) (k0_off4_inb t3 hc1) hoff4 _ rfl hin4)))
      iexact Hr3
    iexact Ha
  iintro %acc3 HI
  have htr3 : Scf.trips k0_t7_loop.lb k0_t7_loop.ub k0_t7_loop.st = 4 := by decide
  rw [htr3]
  unfold bagInv3
  icases HI with ⟨Hr3, Ha⟩
  sl_exec
  sl_step
  subst hpost
  unfold ringInv ringSlots aState
  rw [if_pos (show t3.val + 1 < 8 by omega), if_neg (show ¬ (t3.val + 1 ≤ 3) by omega)]
  unfold idle3 aLate
  isplitr
  · imodintro; iexact Hmw
  isplitl [Hw]
  · iapply (Entails.of_eq (congrArg (wins d L sfl) (show 4 * t3.val + 3 + 1 = 4 * (t3.val + 1) by omega)))
    iexact Hw
  isplitl [Hc0 Hc1 Hc2]
  · isplitl [Hc0]
    · iapply (fcanon0 d L q sfl tab hraw (4 * (t3.val + 1)) (by omega) (k0_off31 t3) (k0_off31_inb t3 hc3)
        (by rw [k0_off31_eq, show 416 * t3.val + 416 = 104 * (4 * (t3.val + 1)) by omega]) (rowsFn L sfl tab (4 * t3.val + 0)) rfl hin31 _ rfl)
      iexact Hc0
    isplitl [Hc1]
    · iapply (fcanon1 d L q sfl tab hraw (4 * (t3.val + 1) + 1) (by omega) (k0_off57 t3) (k0_off57_inb t3 hc5)
        (by rw [k0_off57_eq, show 416 * t3.val + 520 = 104 * (4 * (t3.val + 1) + 1) by omega]) (rowsFn L sfl tab (4 * t3.val + 1)) rfl hin57 _ rfl)
      iexact Hc1
    iapply (fcanon2 d L q sfl tab hraw (4 * (t3.val + 1) + 2) (by omega) (k0_off83 t3) (k0_off83_inb t3 hc7)
      (by rw [k0_off83_eq, show 416 * t3.val + 624 = 104 * (4 * (t3.val + 1) + 2) by omega]) (rowsFn L sfl tab (4 * t3.val + 2)) rfl hin83 _ rfl)
    iexact Hc2
  isplitl [Hr3 Hx3 Hc3]
  · isplitl [Hr3]; · iexists _; iexact Hr3
    isplitl [Hx3]; · iexact Hx3
    iexact Hc3
  isplitl [Ha Hcf]
  · isplitl [Ha]
    · iapply (Entails.of_eq (congrArg (fun n => ((aV).view.loc (thrT d L) ↦[(aBot).view.set]{fullShare} outFn L sfl tab fa0 n : sProp 𝕄)) (show 16 * t3.val + 12 + 4 = 16 * (t3.val + 1) by omega)))
      iexact Ha
    iexact Hcf
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW0 p hp

set_option maxHeartbeats 8000000 in
set_option maxRecDepth 100000 in
/-- Trip 7. -/
theorem trip_last (hraw : ∀ p, (rawIdx L sfl p).toNat ≤ 99999)
    (hb0 : BagTrip0 d L sfl tab fa0) (hb1 : BagTrip1 d L sfl tab fa0) (hb2 : BagTrip2 d L sfl tab fa0) (hb3 : BagTrip3 d L sfl tab fa0)
    (v1 : BitVec 32) (t3 : Fin k0_t3_loop.trips) (ht : t3.val = 7) (acc : BitVec 32) :
    ringInv d L q O W sfl tab fa0 o t3.val acc
      ⊢ wp frame (wpE (defs₀ (F := F)) 𝒱₀ (thrT d L) none) Set.univ
          (k0_t3_body L iV (Memref.isWhole_whole _) xV (Memref.isWhole_whole _) oV (Memref.isWhole_whole _) sV (Memref.isWhole_whole _) rV (Memref.isWhole_whole _) aV (Memref.isWhole_whole _) cc0_scratch3 cc0_scratch4 cc0_scratch5 cc0_scratch6 cc0_scratch7 cc0_scoped0 cc0_scoped1 v1 t3 acc)
          (ringInv d L q O W sfl tab fa0 o (t3.val + 1)) := by
  have ht3 : t3.val < 8 := lt_of_lt_of_le t3.isLt k0_t3_abs.2.1
  have hc2 : ¬ k0_cond2 t3 = 1#1 := hc2_all t3
  have hc4 : ¬ k0_cond4 t3 = 1#1 := hc4_all t3
  have hc6 : ¬ k0_cond6 t3 = 1#1 := hc6_all t3
  have hc1 : k0_cond1 t3 = 1#1 := hc1_all t3
  have hc3 : ¬ k0_cond3 t3 = 1#1 := hc3_last t3 ht
  have hc5 : ¬ k0_cond5 t3 = 1#1 := hc5_last t3 ht
  have hc7 : ¬ k0_cond7 t3 = 1#1 := hc7_last t3 ht
  have hc8 : ¬ k0_cond8 t3 = 1#1 := hc8_ne t3 (by omega)
  have hoff4 : k0_off4 t3 = ![104 * (4 * t3.val + 0 + 3)] := by
    rw [k0_off4_eq, show 416 * t3.val + 312 = 104 * (4 * t3.val + 0 + 3) by omega]
  have hoff4m : k0_off4 t3 = ![104 * ((4 * t3.val + 0 + 3) % 32)] := by
    rw [hoff4, Nat.mod_eq_of_lt (show 4 * t3.val + 0 + 3 < 32 by omega)]
  have hin4 := win_inb (F := F) L sfl 3328 (4 * t3.val + 0 + 3) (by omega) (k0_off4 t3) (k0_off4_inb t3 hc1) hoff4 hraw
  generalize hpost : ringInv d L q O W sfl tab fa0 o (t3.val + 1) = Post
  unfold ringInv ringSlots aState
  rw [if_pos ht3, if_neg (by omega)]
  unfold inFlight0 inFlight1 inFlight2 idle3 aLate
  unfold k0_t3_body
  iintro ⟨#Hmw, Hw, ⟨Hf0, Hf1, Hf2⟩, ⟨⟨%f3, Hr3⟩, Hx3, Hc3⟩, ⟨Ha, Hcf⟩, %W0, %hW0, HO⟩
  -- sub-step 0
  ihave Hw' := (Entails.of_eq (wins_take d L sfl (4 * t3.val + 0) (by omega))) $$ Hw
  icases Hw' with ⟨Hwin, Hmid⟩
  ihave Hwin := (Entails.of_eq (winPts_spell d L sfl ((4 * t3.val + 0) + 3) (k0_off4 t3) (k0_off4_inb t3 hc1) hoff4m).symm) $$ Hwin
  sl_exec
  sl_unfold_run_names
  iapply (Transfers.wp_waitLocalO countersEmb 𝒱₀ (thrT d L) none (default : HIx 1) (rfl : (slot0).view.dmaCredit = _)) $$ [Hf0 HO]
  · isplitl [Hf0]; · iexact Hf0
    isplitl [HO]; · iexact HO
    iapply (Transfers.MayWaits.elim (SemLoc.dma cc0_scratch3.sem)) $$ Hmw
  iintro ⟨⟨Hr0, Hwb, Hx0⟩, Hc0, HO⟩
  ihave Hw := (Entails.of_eq (wins_put d L sfl (4 * t3.val + 0) (by omega))) $$ [Hwb Hmid]
  · isplitl [Hwb] <;> iassumption
  sl_exec
  sl_for (bagInv0 d L sfl tab fa0 (aBot).view.set t3) $$ [Hr0 Ha]
  case region =>
    intro b acc'
    exact hb0 t3 v1 _ (aBot).view.set (Or.inr ⟨rfl, by omega⟩) b acc'
  · unfold bagInv0
    isplitl [Hr0]
    · iexact Hr0
    iexact Ha
  iintro %acc0 HI
  have htr0 : Scf.trips k0_t4_loop.lb k0_t4_loop.ub k0_t4_loop.st = 4 := by decide
  rw [htr0]
  unfold bagInv0
  icases HI with ⟨Hr0, Ha⟩
  -- sub-step 1
  sl_exec
  iapply (Transfers.wp_waitLocalO countersEmb 𝒱₀ (thrT d L) none (default : HIx 1) (rfl : (slot1).view.dmaCredit = _)) $$ [Hf1 HO]
  · isplitl [Hf1]; · iexact Hf1
    isplitl [HO]; · iexact HO
    iapply (Transfers.MayWaits.elim (SemLoc.dma cc0_scratch4.sem)) $$ Hmw
  iintro ⟨⟨Hr1, Hwb, Hx1⟩, Hc1, HO⟩
  ihave Hw := (Entails.of_eq (wins_put_tail d L sfl (4 * t3.val + 1) (by omega) (by omega))) $$ [Hwb Hw]
  · isplitl [Hwb] <;> iassumption
  sl_exec
  sl_for (bagInv1 d L sfl tab fa0 (aBot).view.set t3) $$ [Hr1 Ha]
  case region =>
    intro b acc'
    exact hb1 t3 v1 _ _ (aBot).view.set (Or.inr ⟨rfl, by omega⟩) b acc'
  · unfold bagInv1
    isplitl [Hr1]
    · iexact Hr1
    iexact Ha
  iintro %acc1 HI
  have htr1 : Scf.trips k0_t5_loop.lb k0_t5_loop.ub k0_t5_loop.st = 4 := by decide
  rw [htr1]
  unfold bagInv1
  icases HI with ⟨Hr1, Ha⟩
  -- sub-step 2
  sl_exec
  iapply (Transfers.wp_waitLocalO countersEmb 𝒱₀ (thrT d L) none (default : HIx 1) (rfl : (slot2).view.dmaCredit = _)) $$ [Hf2 HO]
  · isplitl [Hf2]; · iexact Hf2
    isplitl [HO]; · iexact HO
    iapply (Transfers.MayWaits.elim (SemLoc.dma cc0_scratch5.sem)) $$ Hmw
  iintro ⟨⟨Hr2, Hwb, Hx2⟩, Hc2, HO⟩
  ihave Hw := (Entails.of_eq (wins_put_tail d L sfl (4 * t3.val + 2) (by omega) (by omega))) $$ [Hwb Hw]
  · isplitl [Hwb] <;> iassumption
  sl_exec
  sl_for (bagInv2 d L sfl tab fa0 (aBot).view.set t3) $$ [Hr2 Ha]
  case region =>
    intro b acc'
    exact hb2 t3 v1 _ _ _ (aBot).view.set (Or.inr ⟨rfl, by omega⟩) b acc'
  · unfold bagInv2
    isplitl [Hr2]
    · iexact Hr2
    iexact Ha
  iintro %acc2 HI
  have htr2 : Scf.trips k0_t6_loop.lb k0_t6_loop.ub k0_t6_loop.st = 4 := by decide
  rw [htr2]
  unfold bagInv2
  icases HI with ⟨Hr2, Ha⟩
  -- sub-step 3
  sl_exec
  ihave Hwb := (Entails.of_eq (winPts_spell d L sfl (4 * t3.val + 0 + 3) (k0_off4 t3) (k0_off4_inb t3 hc1) hoff4m)) $$ Hwin
  ihave Hw := (Entails.of_eq (wins_put_tail d L sfl (4 * t3.val + 3) (by omega) (by omega))) $$ [Hwb Hw]
  · isplitl [Hwb] <;> iassumption
  sl_for (bagInv3 d L sfl tab fa0 (aBot).view.set t3) $$ [Hr3 Ha]
  case region =>
    intro b acc'
    exact hb3 t3 _ (aBot).view.set (Or.inr ⟨rfl, by omega⟩) b acc'
  · unfold bagInv3
    isplitl [Hr3]
    · iapply (Entails.of_eq (pointsTo_congr (slot_written L sfl tab 3 _ _ rfl 3328 (4 * t3.val + 0 + 3) (by omega) (by omega) hraw (k0_off4 t3) (k0_off4_inb t3 hc1) hoff4 _ rfl hin4)))
      iexact Hr3
    iexact Ha
  iintro %acc3 HI
  have htr3 : Scf.trips k0_t7_loop.lb k0_t7_loop.ub k0_t7_loop.st = 4 := by decide
  rw [htr3]
  unfold bagInv3
  icases HI with ⟨Hr3, Ha⟩
  sl_exec
  sl_step
  subst hpost
  unfold ringInv ringSlots aState
  rw [if_neg (show ¬ (t3.val + 1 < 8) by omega), if_neg (show ¬ (t3.val + 1 ≤ 3) by omega)]
  unfold idle0 idle1 idle2 idle3 aLate
  isplitr
  · imodintro; iexact Hmw
  isplitl [Hw]
  · iapply (Entails.of_eq (congrArg (wins d L sfl) (show 4 * t3.val + 3 + 1 = 4 * (t3.val + 1) by omega)))
    iexact Hw
  isplitl [Hr0 Hx0 Hc0 Hr1 Hx1 Hc1 Hr2 Hx2 Hc2]
  · isplitl [Hr0 Hx0 Hc0]
    · isplitl [Hr0]; · iexists _; iexact Hr0
      isplitl [Hx0]; · iexact Hx0
      iexact Hc0
    isplitl [Hr1 Hx1 Hc1]
    · isplitl [Hr1]; · iexists _; iexact Hr1
      isplitl [Hx1]; · iexact Hx1
      iexact Hc1
    isplitl [Hr2]; · iexists _; iexact Hr2
    isplitl [Hx2]; · iexact Hx2
    iexact Hc2
  isplitl [Hr3 Hx3 Hc3]
  · isplitl [Hr3]; · iexists _; iexact Hr3
    isplitl [Hx3]; · iexact Hx3
    iexact Hc3
  isplitl [Ha Hcf]
  · isplitl [Ha]
    · iapply (Entails.of_eq (congrArg (fun n => ((aV).view.loc (thrT d L) ↦[(aBot).view.set]{fullShare} outFn L sfl tab fa0 n : sProp 𝕄)) (show 16 * t3.val + 12 + 4 = 16 * (t3.val + 1) by omega)))
      iexact Ha
    iexact Hcf
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW0 p hp

set_option maxHeartbeats 8000000 in
set_option maxRecDepth 100000 in
/-- One trip of the loop, whichever kind. -/
theorem ring_trip (hraw : ∀ p, (rawIdx L sfl p).toNat ≤ 99999)
    (hb0 : BagTrip0 d L sfl tab fa0) (hb1 : BagTrip1 d L sfl tab fa0) (hb2 : BagTrip2 d L sfl tab fa0) (hb3 : BagTrip3 d L sfl tab fa0)
    (v1 : BitVec 32) (t3 : Fin k0_t3_loop.trips) (acc : BitVec 32) :
    ringInv d L q O W sfl tab fa0 o t3.val acc
      ⊢ wp frame (wpE (defs₀ (F := F)) 𝒱₀ (thrT d L) none) Set.univ
          (k0_t3_body L iV (Memref.isWhole_whole _) xV (Memref.isWhole_whole _) oV (Memref.isWhole_whole _) sV (Memref.isWhole_whole _) rV (Memref.isWhole_whole _) aV (Memref.isWhole_whole _) cc0_scratch3 cc0_scratch4 cc0_scratch5 cc0_scratch6 cc0_scratch7 cc0_scoped0 cc0_scoped1 v1 t3 acc)
          (ringInv d L q O W sfl tab fa0 o (t3.val + 1)) := by
  have ht3 : t3.val < 8 := lt_of_lt_of_le t3.isLt k0_t3_abs.2.1
  by_cases h2 : t3.val ≤ 2
  · exact trip_early d L q O W sfl tab fa0 o hraw hb0 hb1 hb2 hb3 v1 t3 h2 acc
  by_cases h3 : t3.val = 3
  · exact trip_copy d L q O W sfl tab fa0 o hraw hb0 hb1 hb2 hb3 v1 t3 h3 acc
  by_cases h7 : t3.val = 7
  · exact trip_last d L q O W sfl tab fa0 o hraw hb0 hb1 hb2 hb3 v1 t3 h7 acc
  · exact trip_late d L q O W sfl tab fa0 o hraw hb0 hb1 hb2 hb3 v1 t3 ⟨by omega, by omega⟩ acc

end Cert.KB

end
-- ==== Proof.KBBagLib.lean ====
/-
  Two facts the four bag loops share: a load of 16 lanes from the row scratch, held at a chunk's gathered rows, reads
  the table at the row its field names; and storing one more bag's scaled sum into its row of the out scratch advances
  the out scratch by one row.
-/
import proofs.«207326_g40819369181559_retrytranche2_1852_22_alg».proof.Proof.KBInv
import Idealize.ShloMosaic.Lib.Pipeline.Value

noncomputable section

namespace Cert.KB

open Cert.Kernel Cert.Kernel.Gen
open Idealize.ShloMosaic Idealize.ShloMosaic.ValueIdx

variable {F : FTy → Type} [FloatOps F]

local notation "rV" => (Memref.whole Cert.Kernel.cc0_scratch1 : Memref Cert.Kernel.sig Kind.scVector Space.vmem Cert.Kernel.S4x104x128 EltTy.f32)

/-- A load of 16 lanes at (K, r, c) from the row scratch held at chunk j's rows, read at lane y: the table at the row that
    field r mod 26 of the chunk's bag r / 26 names, column c + y — whichever buffer K. -/
theorem load_eq (L : grid0.Coords) (sfl : IVec S106496 32) (tab : FVec F S2600000x128 .f32) (j : ℕ) (off : Fin 3 → ℕ)
    (hb : ∀ a, off a + S1x1x16.size a ≤ S4x104x128.size a) (K r c : ℕ) (hoff : off = ![K, r, c]) (hc : c + 16 ≤ 128)
    (hsc : S1x1x16.ShapeCasts S16) (y : S16.Idx) :
    shapeCast S16 (View.readAt (Elt F) (rV).view (Rect.unit (s := S4x104x128) off S1x1x16.size hb).toLoadRect (rowsFn L sfl tab j)) hsc y
      = tab (ix2 (krow sfl (128 * wid L + 4 * j + r / 26) (r % 26))
          (⟨c + (y 0).val, by have h : (y 0).val < 16 := (y 0).isLt; omega⟩ : Fin 128)) := by
  subst hoff
  have hy : (y 0).val < 16 := (y 0).isLt
  have hx := Shape.rowMajor_reshapeEquiv hsc y
  rw [Shape.rowMajor_val_three, Shape.rowMajor_val_one] at hx
  have h0 : ((Shape.reshapeEquiv hsc y) 0).val < 1 := ((Shape.reshapeEquiv hsc y) 0).isLt
  have h1 : ((Shape.reshapeEquiv hsc y) 1).val < 1 := ((Shape.reshapeEquiv hsc y) 1).isLt
  have hx' : (((Shape.reshapeEquiv hsc y) 0).val * 1 + ((Shape.reshapeEquiv hsc y) 1).val) * 16 + ((Shape.reshapeEquiv hsc y) 2).val = (y 0).val := hx
  show rowsFn L sfl tab j ((Rect.unit (s := S4x104x128) ![K, r, c] S1x1x16.size hb).toLoadRect.idx (Shape.reshapeEquiv hsc y)) = _
  unfold rowsFn
  have i1 : (((Rect.unit (s := S4x104x128) ![K, r, c] S1x1x16.size hb).toLoadRect.idx (Shape.reshapeEquiv hsc y)) 1).val = r := by
    show r + 1 * ((Shape.reshapeEquiv hsc y) 1).val = r; omega
  have i2 : ((Rect.unit (s := S4x104x128) ![K, r, c] S1x1x16.size hb).toLoadRect.idx (Shape.reshapeEquiv hsc y)) 2
      = (⟨c + (y 0).val, by omega⟩ : Fin 128) := Fin.ext (by
    show c + 1 * ((Shape.reshapeEquiv hsc y) 2).val = c + (y 0).val; omega)
  simp only [i1]
  rw [i2]

/-- Row n of the out scratch set to bag 128 w + n's scaled sum, over the out scratch with n rows done, is the out scratch
    with n + 1 rows done. -/
theorem outFn_step (L : grid0.Coords) (sfl : IVec S106496 32) (tab : FVec F S2600000x128 .f32) (fa0 : S128x128.Idx → F .f32) (n : ℕ) :
    (fun i : S128x128.Idx => if (i 0).val = n then FloatOps.mulf (accTo (fun f => tab (ix2 (krow sfl (128 * wid L + n) f) (i 1))) 25) (cstK (F := F))
      else outFn L sfl tab fa0 n i) = outFn L sfl tab fa0 (n + 1) := by
  funext i
  unfold outFn
  by_cases h : (i 0).val = n
  · rw [if_pos h, if_pos (by omega), h]
  · rw [if_neg h]
    by_cases h2 : (i 0).val < n
    · rw [if_pos h2, if_pos (by omega)]
    · rw [if_neg h2, if_neg (by omega)]

end Cert.KB

end
-- ==== Proof.KBChain.lean ====
/-
  One bag's 26 rows summed the way the kernel sums them: a chain of 26 sixteen-lane loads from the row scratch, added left to
  right. Read at a lane, the chain is the left-to-right sum of the 26 table rows the bag's fields name, at that column.
-/
import proofs.«207326_g40819369181559_retrytranche2_1852_22_alg».proof.Proof.KBBagLib
import Idealize.ShloMosaic.Lib.ValueLayout

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.Kernel.main_v0_scv : Memref Cert.Kernel.sig Kind.scVector Space.hbm Cert.Kernel.S106496 EltTy.i32)
local notation "xV" => (Memref.whole Cert.Kernel.main_arg1_scv : Memref Cert.Kernel.sig Kind.scVector Space.hbm Cert.Kernel.S2600000x128 EltTy.f32)
local notation "oV" => (Memref.whole Cert.Kernel.main_v1_scv : Memref Cert.Kernel.sig Kind.scVector Space.hbm Cert.Kernel.S4096x128 EltTy.f32)
local notation "sV" => (Memref.whole Cert.Kernel.cc0_scratch0 : Memref Cert.Kernel.sig Kind.scVector Space.vmem Cert.Kernel.S3328 EltTy.i32)
local notation "rV" => (Memref.whole Cert.Kernel.cc0_scratch1 : Memref Cert.Kernel.sig Kind.scVector Space.vmem Cert.Kernel.S4x104x128 EltTy.f32)
local notation "aV" => (Memref.whole Cert.Kernel.cc0_scratch2 : Memref Cert.Kernel.sig Kind.scVector Space.vmem Cert.Kernel.S128x128 EltTy.f32)

variable [FloatOps F]
variable (L : grid0.Coords)
variable (sfl : IVec S106496 32) (tab : FVec F S2600000x128 .f32)

open Idealize.ShloMosaic.ValueIdx

/-- The sum of the loads of rows 26 b … 26 b + n of a slot, lanes c … c + 15: field 0's load at offsets o0, field f's at oF f. -/
def chainG (j : ℕ) (o0 : Fin 3 → ℕ) (hb0 : ∀ a, o0 a + S1x1x16.size a ≤ S4x104x128.size a)
    (oF : BitVec 32 → Fin 3 → ℕ) (hbF : ∀ r : Fin 25, ∀ a, oF (BitVec.ofNat 32 (1 + r.val)) a + S1x1x16.size a ≤ S4x104x128.size a) :
    (n : ℕ) → n ≤ 25 → FVec F S16 .f32
  | 0, _ => shapeCast S16 (View.readAt (Elt F) (rV).view (Rect.unit (s := S4x104x128) o0 S1x1x16.size hb0).toLoadRect (rowsFn L sfl tab j)) shapeCasts_S1x1x16_S16
  | n + 1, h => addf (chainG j o0 hb0 oF hbF n (by omega))
      (shapeCast S16 (View.readAt (Elt F) (rV).view (Rect.unit (s := S4x104x128) (oF (BitVec.ofNat 32 (1 + n))) S1x1x16.size (hbF ⟨n, by omega⟩)).toLoadRect (rowsFn L sfl tab j)) shapeCasts_S1x1x16_S16)

theorem chain_val (j K b c : ℕ) (hc : c + 16 ≤ 128) (o0 : Fin 3 → ℕ) (hb0 : ∀ a, o0 a + S1x1x16.size a ≤ S4x104x128.size a)
    (oF : BitVec 32 → Fin 3 → ℕ) (hbF : ∀ r : Fin 25, ∀ a, oF (BitVec.ofNat 32 (1 + r.val)) a + S1x1x16.size a ≤ S4x104x128.size a)
    (h0 : o0 = ![K, 26 * b, c]) (hF : ∀ r : Fin 25, oF (BitVec.ofNat 32 (1 + r.val)) = ![K, 26 * b + r.val + 1, c])
    (y : S16.Idx) : ∀ (n : ℕ) (hn : n ≤ 25),
      chainG (F := F) L sfl tab j o0 hb0 oF hbF n hn y
        = accTo (fun f => tab (ix2 (krow sfl (128 * wid L + 4 * j + b) f) (⟨c + (y 0).val, by have h16 : (y 0).val < 16 := (y 0).isLt; omega⟩ : Fin 128))) n
  | 0, _ => by
    unfold chainG accTo
    rw [load_eq (F := F) L sfl tab j o0 hb0 K (26 * b) c h0 hc shapeCasts_S1x1x16_S16 y]
    rw [show 26 * b / 26 = b by omega, show 26 * b % 26 = 0 by omega]
  | n + 1, hn => by
    unfold chainG accTo
    show FloatOps.addf (chainG (F := F) L sfl tab j o0 hb0 oF hbF n (by omega) y) _ = _
    rw [chain_val j K b c hc o0 hb0 oF hbF h0 hF y n (by omega),
      load_eq (F := F) L sfl tab j _ (hbF ⟨n, by omega⟩) K (26 * b + n + 1) c (hF ⟨n, by omega⟩) hc shapeCasts_S1x1x16_S16 y]
    rw [show (26 * b + n + 1) / 26 = b by omega, show (26 * b + n + 1) % 26 = n + 1 by omega]

/-- What a lane group stores for a bag: the chain of its 26 loads, scaled by the constant, as a 1 × 16 vector. -/
def payG (j : ℕ) (o0 : Fin 3 → ℕ) (hb0 : ∀ a, o0 a + S1x1x16.size a ≤ S4x104x128.size a)
    (oF : BitVec 32 → Fin 3 → ℕ) (hbF : ∀ r : Fin 25, ∀ a, oF (BitVec.ofNat 32 (1 + r.val)) a + S1x1x16.size a ≤ S4x104x128.size a) :
    S1x16.Idx → F .f32 :=
  shapeCast S1x16 (mulf (chainG (F := F) L sfl tab j o0 hb0 oF hbF 25 le_rfl) (broadcast S16 (cstK (F := F)))) shapeCasts_S16_S1x16

/-- At lane y it is the bag's 26 table rows at column c + y summed left to right, times the constant. -/
theorem payG_apply (j K b c : ℕ) (hc : c + 16 ≤ 128) (o0 : Fin 3 → ℕ) (hb0 : ∀ a, o0 a + S1x1x16.size a ≤ S4x104x128.size a)
    (oF : BitVec 32 → Fin 3 → ℕ) (hbF : ∀ r : Fin 25, ∀ a, oF (BitVec.ofNat 32 (1 + r.val)) a + S1x1x16.size a ≤ S4x104x128.size a)
    (h0 : o0 = ![K, 26 * b, c]) (hF : ∀ r : Fin 25, oF (BitVec.ofNat 32 (1 + r.val)) = ![K, 26 * b + r.val + 1, c])
    (y : S1x16.Idx) (h : c + (y 1).val < 128) :
    payG (F := F) L sfl tab j o0 hb0 oF hbF y
      = FloatOps.mulf (accTo (fun f => tab (ix2 (krow sfl (128 * wid L + 4 * j + b) f) (⟨c + (y 1).val, h⟩ : Fin 128))) 25) (cstK (F := F)) := by
  obtain ⟨u, i, rfl⟩ : ∃ (u : Fin 1) (i : Fin 16), y = ix2 u i := ⟨y 0, y 1, eq_ix2 y⟩
  unfold payG
  rw [Idealize.ShloMosaic.ValueIdx.shapeCast_a_1a_apply]
  show FloatOps.mulf (chainG (F := F) L sfl tab j o0 hb0 oF hbF 25 le_rfl (ix1 i)) (cstK (F := F)) = _
  rw [chain_val (F := F) L sfl tab j K b c hc o0 hb0 oF hbF h0 hF (ix1 i) 25 le_rfl]

end Cert.KB

end
-- ==== Proof.KBBag0.lean ====
/-
  One bag of sub-step 0 of the draining loop: row buffer 0 holds a chunk's 104 gathered rows; the bag's 26 rows are loaded
  sixteen lanes at a time, summed left to right in eight lane groups, scaled by the constant and stored to the bag's row of
  the out scratch. The eight stores leave, in that row, the scaled left-to-right sums of the 26 table rows the bag's fields
  name, and leave the other rows as they were.
-/
import proofs.«207326_g40819369181559_retrytranche2_1852_22_alg».proof.Proof.KBBagStmt
import proofs.«207326_g40819369181559_retrytranche2_1852_22_alg».proof.Proof.KBSets
import proofs.«207326_g40819369181559_retrytranche2_1852_22_alg».proof.Proof.KBChain

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.Kernel.main_v0_scv : Memref Cert.Kernel.sig Kind.scVector Space.hbm Cert.Kernel.S106496 EltTy.i32)
local notation "xV" => (Memref.whole Cert.Kernel.main_arg1_scv : Memref Cert.Kernel.sig Kind.scVector Space.hbm Cert.Kernel.S2600000x128 EltTy.f32)
local notation "oV" => (Memref.whole Cert.Kernel.main_v1_scv : Memref Cert.Kernel.sig Kind.scVector Space.hbm Cert.Kernel.S4096x128 EltTy.f32)
local notation "sV" => (Memref.whole Cert.Kernel.cc0_scratch0 : Memref Cert.Kernel.sig Kind.scVector Space.vmem Cert.Kernel.S3328 EltTy.i32)
local notation "rV" => (Memref.whole Cert.Kernel.cc0_scratch1 : Memref Cert.Kernel.sig Kind.scVector Space.vmem Cert.Kernel.S4x104x128 EltTy.f32)
local notation "aV" => (Memref.whole Cert.Kernel.cc0_scratch2 : Memref Cert.Kernel.sig Kind.scVector Space.vmem Cert.Kernel.S128x128 EltTy.f32)

variable [FloatOps F]
variable (d : Dev nD) (L : grid0.Coords)
variable (sfl : IVec S106496 32) (tab : FVec F S2600000x128 .f32) (fa0 : S128x128.Idx → F .f32)

open Idealize.ShloMosaic.ValueIdx

omit [FloatOps F] in
theorem forall_fin8_0 (P : Fin 8 → Prop) (h0 : P 0) (h1 : P 1) (h2 : P 2) (h3 : P 3) (h4 : P 4) (h5 : P 5) (h6 : P 6) (h7 : P 7) : ∀ k, P k := by
  intro k
  match k with
  | ⟨0, _⟩ => exact h0
  | ⟨1, _⟩ => exact h1
  | ⟨2, _⟩ => exact h2
  | ⟨3, _⟩ => exact h3
  | ⟨4, _⟩ => exact h4
  | ⟨5, _⟩ => exact h5
  | ⟨6, _⟩ => exact h6
  | ⟨7, _⟩ => exact h7

/-- The eight stores of one bag, on any prior contents g of the out scratch. -/
theorem bag0_writes (t3 : Fin k0_t3_loop.trips) (b : Fin k0_t4_loop.trips) (g : S128x128.Idx → F .f32) :
    (aV).view.writes (Elt F) g
      [⟨Rect.unit (s := S128x128) (k0_off29 t3 b) S1x16.size (k0_off29_inb t3 b), payG (F := F) L sfl tab (4 * t3.val + 0) (k0_off21 b) (k0_off21_inb b) (k0_off25 b) (k0_off25_inb b)⟩,
       ⟨Rect.unit (s := S128x128) (k0_off28 t3 b) S1x16.size (k0_off28_inb t3 b), payG (F := F) L sfl tab (4 * t3.val + 0) (k0_off20 b) (k0_off20_inb b) (k0_off24 b) (k0_off24_inb b)⟩,
       ⟨Rect.unit (s := S128x128) (k0_off27 t3 b) S1x16.size (k0_off27_inb t3 b), payG (F := F) L sfl tab (4 * t3.val + 0) (k0_off19 b) (k0_off19_inb b) (k0_off23 b) (k0_off23_inb b)⟩,
       ⟨Rect.unit (s := S128x128) (k0_off26 t3 b) S1x16.size (k0_off26_inb t3 b), payG (F := F) L sfl tab (4 * t3.val + 0) (k0_off18 b) (k0_off18_inb b) (k0_off22 b) (k0_off22_inb b)⟩,
       ⟨Rect.unit (s := S128x128) (k0_off17 t3 b) S1x16.size (k0_off17_inb t3 b), payG (F := F) L sfl tab (4 * t3.val + 0) (k0_off9 b) (k0_off9_inb b) (k0_off13 b) (k0_off13_inb b)⟩,
       ⟨Rect.unit (s := S128x128) (k0_off16 t3 b) S1x16.size (k0_off16_inb t3 b), payG (F := F) L sfl tab (4 * t3.val + 0) (k0_off8 b) (k0_off8_inb b) (k0_off12 b) (k0_off12_inb b)⟩,
       ⟨Rect.unit (s := S128x128) (k0_off15 t3 b) S1x16.size (k0_off15_inb t3 b), payG (F := F) L sfl tab (4 * t3.val + 0) (k0_off7 b) (k0_off7_inb b) (k0_off11 b) (k0_off11_inb b)⟩,
       ⟨Rect.unit (s := S128x128) (k0_off14 t3 b) S1x16.size (k0_off14_inb t3 b), payG (F := F) L sfl tab (4 * t3.val + 0) (k0_off6 b) (k0_off6_inb b) (k0_off10 b) (k0_off10_inb b)⟩]
      = fun i => if (i 0).val = 16 * t3.val + b.val then (fun q : Fin 128 => FloatOps.mulf (accTo (fun f => tab (ix2 (krow sfl (128 * wid L + 4 * (4 * t3.val + 0) + b.val) f) q)) 25) (cstK (F := F))) (i 1) else g i := by
  have hb : b.val < 4 := lt_of_lt_of_le b.isLt k0_t4_abs.2.1
  exact row_store (F := F) (16 * t3.val + b.val) g
    ![k0_off14 t3 b, k0_off15 t3 b, k0_off16 t3 b, k0_off17 t3 b, k0_off26 t3 b, k0_off27 t3 b, k0_off28 t3 b, k0_off29 t3 b]
    (forall_fin8_0 _ (k0_off14_eq t3 b) (k0_off15_eq t3 b) (k0_off16_eq t3 b) (k0_off17_eq t3 b) (k0_off26_eq t3 b) (k0_off27_eq t3 b) (k0_off28_eq t3 b) (k0_off29_eq t3 b))
    (forall_fin8_0 _ (k0_off14_inb t3 b) (k0_off15_inb t3 b) (k0_off16_inb t3 b) (k0_off17_inb t3 b) (k0_off26_inb t3 b) (k0_off27_inb t3 b) (k0_off28_inb t3 b) (k0_off29_inb t3 b))
    ![payG (F := F) L sfl tab (4 * t3.val + 0) (k0_off6 b) (k0_off6_inb b) (k0_off10 b) (k0_off10_inb b),
      payG (F := F) L sfl tab (4 * t3.val + 0) (k0_off7 b) (k0_off7_inb b) (k0_off11 b) (k0_off11_inb b),
      payG (F := F) L sfl tab (4 * t3.val + 0) (k0_off8 b) (k0_off8_inb b) (k0_off12 b) (k0_off12_inb b),
      payG (F := F) L sfl tab (4 * t3.val + 0) (k0_off9 b) (k0_off9_inb b) (k0_off13 b) (k0_off13_inb b),
      payG (F := F) L sfl tab (4 * t3.val + 0) (k0_off18 b) (k0_off18_inb b) (k0_off22 b) (k0_off22_inb b),
      payG (F := F) L sfl tab (4 * t3.val + 0) (k0_off19 b) (k0_off19_inb b) (k0_off23 b) (k0_off23_inb b),
      payG (F := F) L sfl tab (4 * t3.val + 0) (k0_off20 b) (k0_off20_inb b) (k0_off24 b) (k0_off24_inb b),
      payG (F := F) L sfl tab (4 * t3.val + 0) (k0_off21 b) (k0_off21_inb b) (k0_off25 b) (k0_off25_inb b)]
    (fun q : Fin 128 => FloatOps.mulf (accTo (fun f => tab (ix2 (krow sfl (128 * wid L + 4 * (4 * t3.val + 0) + b.val) f) q)) 25) (cstK (F := F)))
    (forall_fin8_0 _ (fun y h => payG_apply (F := F) L sfl tab (4 * t3.val + 0) 0 b.val 0 (by norm_num) _ _ _ _ (k0_off6_eq b) (k0_off10_eq b) y h)
      (fun y h => payG_apply (F := F) L sfl tab (4 * t3.val + 0) 0 b.val 16 (by norm_num) _ _ _ _ (k0_off7_eq b) (k0_off11_eq b) y h)
      (fun y h => payG_apply (F := F) L sfl tab (4 * t3.val + 0) 0 b.val 32 (by norm_num) _ _ _ _ (k0_off8_eq b) (k0_off12_eq b) y h)
      (fun y h => payG_apply (F := F) L sfl tab (4 * t3.val + 0) 0 b.val 48 (by norm_num) _ _ _ _ (k0_off9_eq b) (k0_off13_eq b) y h)
      (fun y h => payG_apply (F := F) L sfl tab (4 * t3.val + 0) 0 b.val 64 (by norm_num) _ _ _ _ (k0_off18_eq b) (k0_off22_eq b) y h)
      (fun y h => payG_apply (F := F) L sfl tab (4 * t3.val + 0) 0 b.val 80 (by norm_num) _ _ _ _ (k0_off19_eq b) (k0_off23_eq b) y h)
      (fun y h => payG_apply (F := F) L sfl tab (4 * t3.val + 0) 0 b.val 96 (by norm_num) _ _ _ _ (k0_off20_eq b) (k0_off24_eq b) y h)
      (fun y h => payG_apply (F := F) L sfl tab (4 * t3.val + 0) 0 b.val 112 (by norm_num) _ _ _ _ (k0_off21_eq b) (k0_off25_eq b) y h))

/-- The out scratch after the bag: one more row done. -/
theorem bag0_step (t3 : Fin k0_t3_loop.trips) (b : Fin k0_t4_loop.trips) :
    (aV).view.writes (Elt F) (outFn L sfl tab fa0 (16 * t3.val + 0 + b.val))
      [⟨Rect.unit (s := S128x128) (k0_off29 t3 b) S1x16.size (k0_off29_inb t3 b), payG (F := F) L sfl tab (4 * t3.val + 0) (k0_off21 b) (k0_off21_inb b) (k0_off25 b) (k0_off25_inb b)⟩,
       ⟨Rect.unit (s := S128x128) (k0_off28 t3 b) S1x16.size (k0_off28_inb t3 b), payG (F := F) L sfl tab (4 * t3.val + 0) (k0_off20 b) (k0_off20_inb b) (k0_off24 b) (k0_off24_inb b)⟩,
       ⟨Rect.unit (s := S128x128) (k0_off27 t3 b) S1x16.size (k0_off27_inb t3 b), payG (F := F) L sfl tab (4 * t3.val + 0) (k0_off19 b) (k0_off19_inb b) (k0_off23 b) (k0_off23_inb b)⟩,
       ⟨Rect.unit (s := S128x128) (k0_off26 t3 b) S1x16.size (k0_off26_inb t3 b), payG (F := F) L sfl tab (4 * t3.val + 0) (k0_off18 b) (k0_off18_inb b) (k0_off22 b) (k0_off22_inb b)⟩,
       ⟨Rect.unit (s := S128x128) (k0_off17 t3 b) S1x16.size (k0_off17_inb t3 b), payG (F := F) L sfl tab (4 * t3.val + 0) (k0_off9 b) (k0_off9_inb b) (k0_off13 b) (k0_off13_inb b)⟩,
       ⟨Rect.unit (s := S128x128) (k0_off16 t3 b) S1x16.size (k0_off16_inb t3 b), payG (F := F) L sfl tab (4 * t3.val + 0) (k0_off8 b) (k0_off8_inb b) (k0_off12 b) (k0_off12_inb b)⟩,
       ⟨Rect.unit (s := S128x128) (k0_off15 t3 b) S1x16.size (k0_off15_inb t3 b), payG (F := F) L sfl tab (4 * t3.val + 0) (k0_off7 b) (k0_off7_inb b) (k0_off11 b) (k0_off11_inb b)⟩,
       ⟨Rect.unit (s := S128x128) (k0_off14 t3 b) S1x16.size (k0_off14_inb t3 b), payG (F := F) L sfl tab (4 * t3.val + 0) (k0_off6 b) (k0_off6_inb b) (k0_off10 b) (k0_off10_inb b)⟩]
      = outFn L sfl tab fa0 (16 * t3.val + 0 + (b.val + 1)) := by
  rw [bag0_writes]
  have e1 : 16 * t3.val + b.val = 16 * t3.val + 0 + b.val := by omega
  have e2 : 128 * wid L + 4 * (4 * t3.val + 0) + b.val = 128 * wid L + (16 * t3.val + 0 + b.val) := by omega
  rw [e1, e2]
  exact outFn_step (F := F) L sfl tab fa0 (16 * t3.val + 0 + b.val)

set_option maxHeartbeats 4000000 in
theorem bagTrip0 : BagTrip0 (F := F) d L sfl tab fa0 := by
  intro t3 v1 v29 A hA b acc
  have hb : b.val < 4 := lt_of_lt_of_le b.isLt k0_t4_abs.2.1
  have ht3 : t3.val < 8 := lt_of_lt_of_le t3.isLt k0_t3_abs.2.1
  unfold bagInv0
  rcases hA with rfl | ⟨rfl, h4⟩
  · iintro ⟨Hr, Ha⟩
    sl_exec
    sl_step
    isplitl [Hr]; · iexact Hr
    iapply (Entails.of_eq (congrArg (fun f => ((aV).view.loc (thrT d L) ↦[Finset.univ]{fullShare} f : sProp 𝕄)) (bag0_step (F := F) L sfl tab fa0 t3 b)))
    iexact Ha
  · iintro ⟨Hr, Ha⟩
    ihave Ha := (Entails.of_eq (show ((aV).view.loc (thrT d L) ↦[(aBot).view.set]{fullShare} outFn L sfl tab fa0 (16 * t3.val + 0 + b.val) : sProp 𝕄)
        = ((aBot).view.loc (thrT d L) ↦[(aBot).view.set]{fullShare} outFn L sfl tab fa0 (16 * t3.val + 0 + b.val)) from rfl)) $$ Ha
    sl_exec
    sl_step
    isplitl [Hr]; · iexact Hr
    iapply (Entails.of_eq (congrArg (fun f => ((aV).view.loc (thrT d L) ↦[(aBot).view.set]{fullShare} f : sProp 𝕄)) (bag0_step (F := F) L sfl tab fa0 t3 b)))
    iexact Ha

end Cert.KB

end
-- ==== Proof.KBBag1.lean ====
/-
  One bag of sub-step 1 of the draining loop: row buffer 1 holds a chunk's 104 gathered rows; the bag's 26 rows are loaded
  sixteen lanes at a time, summed left to right in eight lane groups, scaled by the constant and stored to the bag's row of
  the out scratch. The eight stores leave, in that row, the scaled left-to-right sums of the 26 table rows the bag's fields
  name, and leave the other rows as they were.
-/
import proofs.«207326_g40819369181559_retrytranche2_1852_22_alg».proof.Proof.KBBagStmt
import proofs.«207326_g40819369181559_retrytranche2_1852_22_alg».proof.Proof.KBSets
import proofs.«207326_g40819369181559_retrytranche2_1852_22_alg».proof.Proof.KBChain

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.Kernel.main_v0_scv : Memref Cert.Kernel.sig Kind.scVector Space.hbm Cert.Kernel.S106496 EltTy.i32)
local notation "xV" => (Memref.whole Cert.Kernel.main_arg1_scv : Memref Cert.Kernel.sig Kind.scVector Space.hbm Cert.Kernel.S2600000x128 EltTy.f32)
local notation "oV" => (Memref.whole Cert.Kernel.main_v1_scv : Memref Cert.Kernel.sig Kind.scVector Space.hbm Cert.Kernel.S4096x128 EltTy.f32)
local notation "sV" => (Memref.whole Cert.Kernel.cc0_scratch0 : Memref Cert.Kernel.sig Kind.scVector Space.vmem Cert.Kernel.S3328 EltTy.i32)
local notation "rV" => (Memref.whole Cert.Kernel.cc0_scratch1 : Memref Cert.Kernel.sig Kind.scVector Space.vmem Cert.Kernel.S4x104x128 EltTy.f32)
local notation "aV" => (Memref.whole Cert.Kernel.cc0_scratch2 : Memref Cert.Kernel.sig Kind.scVector Space.vmem Cert.Kernel.S128x128 EltTy.f32)

variable [FloatOps F]
variable (d : Dev nD) (L : grid0.Coords)
variable (sfl : IVec S106496 32) (tab : FVec F S2600000x128 .f32) (fa0 : S128x128.Idx → F .f32)

open Idealize.ShloMosaic.ValueIdx

omit [FloatOps F] in
theorem forall_fin8_1 (P : Fin 8 → Prop) (h0 : P 0) (h1 : P 1) (h2 : P 2) (h3 : P 3) (h4 : P 4) (h5 : P 5) (h6 : P 6) (h7 : P 7) : ∀ k, P k := by
  intro k
  match k with
  | ⟨0, _⟩ => exact h0
  | ⟨1, _⟩ => exact h1
  | ⟨2, _⟩ => exact h2
  | ⟨3, _⟩ => exact h3
  | ⟨4, _⟩ => exact h4
  | ⟨5, _⟩ => exact h5
  | ⟨6, _⟩ => exact h6
  | ⟨7, _⟩ => exact h7

/-- The eight stores of one bag, on any prior contents g of the out scratch. -/
theorem bag1_writes (t3 : Fin k0_t3_loop.trips) (b : Fin k0_t5_loop.trips) (g : S128x128.Idx → F .f32) :
    (aV).view.writes (Elt F) g
      [⟨Rect.unit (s := S128x128) (k0_off55 t3 b) S1x16.size (k0_off55_inb t3 b), payG (F := F) L sfl tab (4 * t3.val + 1) (k0_off47 b) (k0_off47_inb b) (k0_off51 b) (k0_off51_inb b)⟩,
       ⟨Rect.unit (s := S128x128) (k0_off54 t3 b) S1x16.size (k0_off54_inb t3 b), payG (F := F) L sfl tab (4 * t3.val + 1) (k0_off46 b) (k0_off46_inb b) (k0_off50 b) (k0_off50_inb b)⟩,
       ⟨Rect.unit (s := S128x128) (k0_off53 t3 b) S1x16.size (k0_off53_inb t3 b), payG (F := F) L sfl tab (4 * t3.val + 1) (k0_off45 b) (k0_off45_inb b) (k0_off49 b) (k0_off49_inb b)⟩,
       ⟨Rect.unit (s := S128x128) (k0_off52 t3 b) S1x16.size (k0_off52_inb t3 b), payG (F := F) L sfl tab (4 * t3.val + 1) (k0_off44 b) (k0_off44_inb b) (k0_off48 b) (k0_off48_inb b)⟩,
       ⟨Rect.unit (s := S128x128) (k0_off43 t3 b) S1x16.size (k0_off43_inb t3 b), payG (F := F) L sfl tab (4 * t3.val + 1) (k0_off35 b) (k0_off35_inb b) (k0_off39 b) (k0_off39_inb b)⟩,
       ⟨Rect.unit (s := S128x128) (k0_off42 t3 b) S1x16.size (k0_off42_inb t3 b), payG (F := F) L sfl tab (4 * t3.val + 1) (k0_off34 b) (k0_off34_inb b) (k0_off38 b) (k0_off38_inb b)⟩,
       ⟨Rect.unit (s := S128x128) (k0_off41 t3 b) S1x16.size (k0_off41_inb t3 b), payG (F := F) L sfl tab (4 * t3.val + 1) (k0_off33 b) (k0_off33_inb b) (k0_off37 b) (k0_off37_inb b)⟩,
       ⟨Rect.unit (s := S128x128) (k0_off40 t3 b) S1x16.size (k0_off40_inb t3 b), payG (F := F) L sfl tab (4 * t3.val + 1) (k0_off32 b) (k0_off32_inb b) (k0_off36 b) (k0_off36_inb b)⟩]
      = fun i => if (i 0).val = 16 * t3.val + b.val + 4 then (fun q : Fin 128 => FloatOps.mulf (accTo (fun f => tab (ix2 (krow sfl (128 * wid L + 4 * (4 * t3.val + 1) + b.val) f) q)) 25) (cstK (F := F))) (i 1) else g i := by
  have hb : b.val < 4 := lt_of_lt_of_le b.isLt k0_t5_abs.2.1
  exact row_store (F := F) (16 * t3.val + b.val + 4) g
    ![k0_off40 t3 b, k0_off41 t3 b, k0_off42 t3 b, k0_off43 t3 b, k0_off52 t3 b, k0_off53 t3 b, k0_off54 t3 b, k0_off55 t3 b]
    (forall_fin8_1 _ (k0_off40_eq t3 b) (k0_off41_eq t3 b) (k0_off42_eq t3 b) (k0_off43_eq t3 b) (k0_off52_eq t3 b) (k0_off53_eq t3 b) (k0_off54_eq t3 b) (k0_off55_eq t3 b))
    (forall_fin8_1 _ (k0_off40_inb t3 b) (k0_off41_inb t3 b) (k0_off42_inb t3 b) (k0_off43_inb t3 b) (k0_off52_inb t3 b) (k0_off53_inb t3 b) (k0_off54_inb t3 b) (k0_off55_inb t3 b))
    ![payG (F := F) L sfl tab (4 * t3.val + 1) (k0_off32 b) (k0_off32_inb b) (k0_off36 b) (k0_off36_inb b),
      payG (F := F) L sfl tab (4 * t3.val + 1) (k0_off33 b) (k0_off33_inb b) (k0_off37 b) (k0_off37_inb b),
      payG (F := F) L sfl tab (4 * t3.val + 1) (k0_off34 b) (k0_off34_inb b) (k0_off38 b) (k0_off38_inb b),
      payG (F := F) L sfl tab (4 * t3.val + 1) (k0_off35 b) (k0_off35_inb b) (k0_off39 b) (k0_off39_inb b),
      payG (F := F) L sfl tab (4 * t3.val + 1) (k0_off44 b) (k0_off44_inb b) (k0_off48 b) (k0_off48_inb b),
      payG (F := F) L sfl tab (4 * t3.val + 1) (k0_off45 b) (k0_off45_inb b) (k0_off49 b) (k0_off49_inb b),
      payG (F := F) L sfl tab (4 * t3.val + 1) (k0_off46 b) (k0_off46_inb b) (k0_off50 b) (k0_off50_inb b),
      payG (F := F) L sfl tab (4 * t3.val + 1) (k0_off47 b) (k0_off47_inb b) (k0_off51 b) (k0_off51_inb b)]
    (fun q : Fin 128 => FloatOps.mulf (accTo (fun f => tab (ix2 (krow sfl (128 * wid L + 4 * (4 * t3.val + 1) + b.val) f) q)) 25) (cstK (F := F)))
    (forall_fin8_1 _ (fun y h => payG_apply (F := F) L sfl tab (4 * t3.val + 1) 1 b.val 0 (by norm_num) _ _ _ _ (k0_off32_eq b) (k0_off36_eq b) y h)
      (fun y h => payG_apply (F := F) L sfl tab (4 * t3.val + 1) 1 b.val 16 (by norm_num) _ _ _ _ (k0_off33_eq b) (k0_off37_eq b) y h)
      (fun y h => payG_apply (F := F) L sfl tab (4 * t3.val + 1) 1 b.val 32 (by norm_num) _ _ _ _ (k0_off34_eq b) (k0_off38_eq b) y h)
      (fun y h => payG_apply (F := F) L sfl tab (4 * t3.val + 1) 1 b.val 48 (by norm_num) _ _ _ _ (k0_off35_eq b) (k0_off39_eq b) y h)
      (fun y h => payG_apply (F := F) L sfl tab (4 * t3.val + 1) 1 b.val 64 (by norm_num) _ _ _ _ (k0_off44_eq b) (k0_off48_eq b) y h)
      (fun y h => payG_apply (F := F) L sfl tab (4 * t3.val + 1) 1 b.val 80 (by norm_num) _ _ _ _ (k0_off45_eq b) (k0_off49_eq b) y h)
      (fun y h => payG_apply (F := F) L sfl tab (4 * t3.val + 1) 1 b.val 96 (by norm_num) _ _ _ _ (k0_off46_eq b) (k0_off50_eq b) y h)
      (fun y h => payG_apply (F := F) L sfl tab (4 * t3.val + 1) 1 b.val 112 (by norm_num) _ _ _ _ (k0_off47_eq b) (k0_off51_eq b) y h))

/-- The out scratch after the bag: one more row done. -/
theorem bag1_step (t3 : Fin k0_t3_loop.trips) (b : Fin k0_t5_loop.trips) :
    (aV).view.writes (Elt F) (outFn L sfl tab fa0 (16 * t3.val + 4 + b.val))
      [⟨Rect.unit (s := S128x128) (k0_off55 t3 b) S1x16.size (k0_off55_inb t3 b), payG (F := F) L sfl tab (4 * t3.val + 1) (k0_off47 b) (k0_off47_inb b) (k0_off51 b) (k0_off51_inb b)⟩,
       ⟨Rect.unit (s := S128x128) (k0_off54 t3 b) S1x16.size (k0_off54_inb t3 b), payG (F := F) L sfl tab (4 * t3.val + 1) (k0_off46 b) (k0_off46_inb b) (k0_off50 b) (k0_off50_inb b)⟩,
       ⟨Rect.unit (s := S128x128) (k0_off53 t3 b) S1x16.size (k0_off53_inb t3 b), payG (F := F) L sfl tab (4 * t3.val + 1) (k0_off45 b) (k0_off45_inb b) (k0_off49 b) (k0_off49_inb b)⟩,
       ⟨Rect.unit (s := S128x128) (k0_off52 t3 b) S1x16.size (k0_off52_inb t3 b), payG (F := F) L sfl tab (4 * t3.val + 1) (k0_off44 b) (k0_off44_inb b) (k0_off48 b) (k0_off48_inb b)⟩,
       ⟨Rect.unit (s := S128x128) (k0_off43 t3 b) S1x16.size (k0_off43_inb t3 b), payG (F := F) L sfl tab (4 * t3.val + 1) (k0_off35 b) (k0_off35_inb b) (k0_off39 b) (k0_off39_inb b)⟩,
       ⟨Rect.unit (s := S128x128) (k0_off42 t3 b) S1x16.size (k0_off42_inb t3 b), payG (F := F) L sfl tab (4 * t3.val + 1) (k0_off34 b) (k0_off34_inb b) (k0_off38 b) (k0_off38_inb b)⟩,
       ⟨Rect.unit (s := S128x128) (k0_off41 t3 b) S1x16.size (k0_off41_inb t3 b), payG (F := F) L sfl tab (4 * t3.val + 1) (k0_off33 b) (k0_off33_inb b) (k0_off37 b) (k0_off37_inb b)⟩,
       ⟨Rect.unit (s := S128x128) (k0_off40 t3 b) S1x16.size (k0_off40_inb t3 b), payG (F := F) L sfl tab (4 * t3.val + 1) (k0_off32 b) (k0_off32_inb b) (k0_off36 b) (k0_off36_inb b)⟩]
      = outFn L sfl tab fa0 (16 * t3.val + 4 + (b.val + 1)) := by
  rw [bag1_writes]
  have e1 : 16 * t3.val + b.val + 4 = 16 * t3.val + 4 + b.val := by omega
  have e2 : 128 * wid L + 4 * (4 * t3.val + 1) + b.val = 128 * wid L + (16 * t3.val + 4 + b.val) := by omega
  rw [e1, e2]
  exact outFn_step (F := F) L sfl tab fa0 (16 * t3.val + 4 + b.val)

set_option maxHeartbeats 4000000 in
theorem bagTrip1 : BagTrip1 (F := F) d L sfl tab fa0 := by
  intro t3 v1 v28 v45 A hA b acc
  have hb : b.val < 4 := lt_of_lt_of_le b.isLt k0_t5_abs.2.1
  have ht3 : t3.val < 8 := lt_of_lt_of_le t3.isLt k0_t3_abs.2.1
  unfold bagInv1
  rcases hA with rfl | ⟨rfl, h4⟩
  · iintro ⟨Hr, Ha⟩
    sl_exec
    sl_step
    isplitl [Hr]; · iexact Hr
    iapply (Entails.of_eq (congrArg (fun f => ((aV).view.loc (thrT d L) ↦[Finset.univ]{fullShare} f : sProp 𝕄)) (bag1_step (F := F) L sfl tab fa0 t3 b)))
    iexact Ha
  · iintro ⟨Hr, Ha⟩
    ihave Ha := (Entails.of_eq (show ((aV).view.loc (thrT d L) ↦[(aBot).view.set]{fullShare} outFn L sfl tab fa0 (16 * t3.val + 4 + b.val) : sProp 𝕄)
        = ((aBot).view.loc (thrT d L) ↦[(aBot).view.set]{fullShare} outFn L sfl tab fa0 (16 * t3.val + 4 + b.val)) from rfl)) $$ Ha
    sl_exec
    sl_step
    isplitl [Hr]; · iexact Hr
    iapply (Entails.of_eq (congrArg (fun f => ((aV).view.loc (thrT d L) ↦[(aBot).view.set]{fullShare} f : sProp 𝕄)) (bag1_step (F := F) L sfl tab fa0 t3 b)))
    iexact Ha

end Cert.KB

end
-- ==== Proof.KBBag2.lean ====
/-
  One bag of sub-step 2 of the draining loop: row buffer 2 holds a chunk's 104 gathered rows; the bag's 26 rows are loaded
  sixteen lanes at a time, summed left to right in eight lane groups, scaled by the constant and stored to the bag's row of
  the out scratch. The eight stores leave, in that row, the scaled left-to-right sums of the 26 table rows the bag's fields
  name, and leave the other rows as they were.
-/
import proofs.«207326_g40819369181559_retrytranche2_1852_22_alg».proof.Proof.KBBagStmt
import proofs.«207326_g40819369181559_retrytranche2_1852_22_alg».proof.Proof.KBSets
import proofs.«207326_g40819369181559_retrytranche2_1852_22_alg».proof.Proof.KBChain

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.Kernel.main_v0_scv : Memref Cert.Kernel.sig Kind.scVector Space.hbm Cert.Kernel.S106496 EltTy.i32)
local notation "xV" => (Memref.whole Cert.Kernel.main_arg1_scv : Memref Cert.Kernel.sig Kind.scVector Space.hbm Cert.Kernel.S2600000x128 EltTy.f32)
local notation "oV" => (Memref.whole Cert.Kernel.main_v1_scv : Memref Cert.Kernel.sig Kind.scVector Space.hbm Cert.Kernel.S4096x128 EltTy.f32)
local notation "sV" => (Memref.whole Cert.Kernel.cc0_scratch0 : Memref Cert.Kernel.sig Kind.scVector Space.vmem Cert.Kernel.S3328 EltTy.i32)
local notation "rV" => (Memref.whole Cert.Kernel.cc0_scratch1 : Memref Cert.Kernel.sig Kind.scVector Space.vmem Cert.Kernel.S4x104x128 EltTy.f32)
local notation "aV" => (Memref.whole Cert.Kernel.cc0_scratch2 : Memref Cert.Kernel.sig Kind.scVector Space.vmem Cert.Kernel.S128x128 EltTy.f32)

variable [FloatOps F]
variable (d : Dev nD) (L : grid0.Coords)
variable (sfl : IVec S106496 32) (tab : FVec F S2600000x128 .f32) (fa0 : S128x128.Idx → F .f32)

open Idealize.ShloMosaic.ValueIdx

omit [FloatOps F] in
theorem forall_fin8_2 (P : Fin 8 → Prop) (h0 : P 0) (h1 : P 1) (h2 : P 2) (h3 : P 3) (h4 : P 4) (h5 : P 5) (h6 : P 6) (h7 : P 7) : ∀ k, P k := by
  intro k
  match k with
  | ⟨0, _⟩ => exact h0
  | ⟨1, _⟩ => exact h1
  | ⟨2, _⟩ => exact h2
  | ⟨3, _⟩ => exact h3
  | ⟨4, _⟩ => exact h4
  | ⟨5, _⟩ => exact h5
  | ⟨6, _⟩ => exact h6
  | ⟨7, _⟩ => exact h7

/-- The eight stores of one bag, on any prior contents g of the out scratch. -/
theorem bag2_writes (t3 : Fin k0_t3_loop.trips) (b : Fin k0_t6_loop.trips) (g : S128x128.Idx → F .f32) :
    (aV).view.writes (Elt F) g
      [⟨Rect.unit (s := S128x128) (k0_off81 t3 b) S1x16.size (k0_off81_inb t3 b), payG (F := F) L sfl tab (4 * t3.val + 2) (k0_off73 b) (k0_off73_inb b) (k0_off77 b) (k0_off77_inb b)⟩,
       ⟨Rect.unit (s := S128x128) (k0_off80 t3 b) S1x16.size (k0_off80_inb t3 b), payG (F := F) L sfl tab (4 * t3.val + 2) (k0_off72 b) (k0_off72_inb b) (k0_off76 b) (k0_off76_inb b)⟩,
       ⟨Rect.unit (s := S128x128) (k0_off79 t3 b) S1x16.size (k0_off79_inb t3 b), payG (F := F) L sfl tab (4 * t3.val + 2) (k0_off71 b) (k0_off71_inb b) (k0_off75 b) (k0_off75_inb b)⟩,
       ⟨Rect.unit (s := S128x128) (k0_off78 t3 b) S1x16.size (k0_off78_inb t3 b), payG (F := F) L sfl tab (4 * t3.val + 2) (k0_off70 b) (k0_off70_inb b) (k0_off74 b) (k0_off74_inb b)⟩,
       ⟨Rect.unit (s := S128x128) (k0_off69 t3 b) S1x16.size (k0_off69_inb t3 b), payG (F := F) L sfl tab (4 * t3.val + 2) (k0_off61 b) (k0_off61_inb b) (k0_off65 b) (k0_off65_inb b)⟩,
       ⟨Rect.unit (s := S128x128) (k0_off68 t3 b) S1x16.size (k0_off68_inb t3 b), payG (F := F) L sfl tab (4 * t3.val + 2) (k0_off60 b) (k0_off60_inb b) (k0_off64 b) (k0_off64_inb b)⟩,
       ⟨Rect.unit (s := S128x128) (k0_off67 t3 b) S1x16.size (k0_off67_inb t3 b), payG (F := F) L sfl tab (4 * t3.val + 2) (k0_off59 b) (k0_off59_inb b) (k0_off63 b) (k0_off63_inb b)⟩,
       ⟨Rect.unit (s := S128x128) (k0_off66 t3 b) S1x16.size (k0_off66_inb t3 b), payG (F := F) L sfl tab (4 * t3.val + 2) (k0_off58 b) (k0_off58_inb b) (k0_off62 b) (k0_off62_inb b)⟩]
      = fun i => if (i 0).val = 16 * t3.val + b.val + 8 then (fun q : Fin 128 => FloatOps.mulf (accTo (fun f => tab (ix2 (krow sfl (128 * wid L + 4 * (4 * t3.val + 2) + b.val) f) q)) 25) (cstK (F := F))) (i 1) else g i := by
  have hb : b.val < 4 := lt_of_lt_of_le b.isLt k0_t6_abs.2.1
  exact row_store (F := F) (16 * t3.val + b.val + 8) g
    ![k0_off66 t3 b, k0_off67 t3 b, k0_off68 t3 b, k0_off69 t3 b, k0_off78 t3 b, k0_off79 t3 b, k0_off80 t3 b, k0_off81 t3 b]
    (forall_fin8_2 _ (k0_off66_eq t3 b) (k0_off67_eq t3 b) (k0_off68_eq t3 b) (k0_off69_eq t3 b) (k0_off78_eq t3 b) (k0_off79_eq t3 b) (k0_off80_eq t3 b) (k0_off81_eq t3 b))
    (forall_fin8_2 _ (k0_off66_inb t3 b) (k0_off67_inb t3 b) (k0_off68_inb t3 b) (k0_off69_inb t3 b) (k0_off78_inb t3 b) (k0_off79_inb t3 b) (k0_off80_inb t3 b) (k0_off81_inb t3 b))
    ![payG (F := F) L sfl tab (4 * t3.val + 2) (k0_off58 b) (k0_off58_inb b) (k0_off62 b) (k0_off62_inb b),
      payG (F := F) L sfl tab (4 * t3.val + 2) (k0_off59 b) (k0_off59_inb b) (k0_off63 b) (k0_off63_inb b),
      payG (F := F) L sfl tab (4 * t3.val + 2) (k0_off60 b) (k0_off60_inb b) (k0_off64 b) (k0_off64_inb b),
      payG (F := F) L sfl tab (4 * t3.val + 2) (k0_off61 b) (k0_off61_inb b) (k0_off65 b) (k0_off65_inb b),
      payG (F := F) L sfl tab (4 * t3.val + 2) (k0_off70 b) (k0_off70_inb b) (k0_off74 b) (k0_off74_inb b),
      payG (F := F) L sfl tab (4 * t3.val + 2) (k0_off71 b) (k0_off71_inb b) (k0_off75 b) (k0_off75_inb b),
      payG (F := F) L sfl tab (4 * t3.val + 2) (k0_off72 b) (k0_off72_inb b) (k0_off76 b) (k0_off76_inb b),
      payG (F := F) L sfl tab (4 * t3.val + 2) (k0_off73 b) (k0_off73_inb b) (k0_off77 b) (k0_off77_inb b)]
    (fun q : Fin 128 => FloatOps.mulf (accTo (fun f => tab (ix2 (krow sfl (128 * wid L + 4 * (4 * t3.val + 2) + b.val) f) q)) 25) (cstK (F := F)))
    (forall_fin8_2 _ (fun y h => payG_apply (F := F) L sfl tab (4 * t3.val + 2) 2 b.val 0 (by norm_num) _ _ _ _ (k0_off58_eq b) (k0_off62_eq b) y h)
      (fun y h => payG_apply (F := F) L sfl tab (4 * t3.val + 2) 2 b.val 16 (by norm_num) _ _ _ _ (k0_off59_eq b) (k0_off63_eq b) y h)
      (fun y h => payG_apply (F := F) L sfl tab (4 * t3.val + 2) 2 b.val 32 (by norm_num) _ _ _ _ (k0_off60_eq b) (k0_off64_eq b) y h)
      (fun y h => payG_apply (F := F) L sfl tab (4 * t3.val + 2) 2 b.val 48 (by norm_num) _ _ _ _ (k0_off61_eq b) (k0_off65_eq b) y h)
      (fun y h => payG_apply (F := F) L sfl tab (4 * t3.val + 2) 2 b.val 64 (by norm_num) _ _ _ _ (k0_off70_eq b) (k0_off74_eq b) y h)
      (fun y h => payG_apply (F := F) L sfl tab (4 * t3.val + 2) 2 b.val 80 (by norm_num) _ _ _ _ (k0_off71_eq b) (k0_off75_eq b) y h)
      (fun y h => payG_apply (F := F) L sfl tab (4 * t3.val + 2) 2 b.val 96 (by norm_num) _ _ _ _ (k0_off72_eq b) (k0_off76_eq b) y h)
      (fun y h => payG_apply (F := F) L sfl tab (4 * t3.val + 2) 2 b.val 112 (by norm_num) _ _ _ _ (k0_off73_eq b) (k0_off77_eq b) y h))

/-- The out scratch after the bag: one more row done. -/
theorem bag2_step (t3 : Fin k0_t3_loop.trips) (b : Fin k0_t6_loop.trips) :
    (aV).view.writes (Elt F) (outFn L sfl tab fa0 (16 * t3.val + 8 + b.val))
      [⟨Rect.unit (s := S128x128) (k0_off81 t3 b) S1x16.size (k0_off81_inb t3 b), payG (F := F) L sfl tab (4 * t3.val + 2) (k0_off73 b) (k0_off73_inb b) (k0_off77 b) (k0_off77_inb b)⟩,
       ⟨Rect.unit (s := S128x128) (k0_off80 t3 b) S1x16.size (k0_off80_inb t3 b), payG (F := F) L sfl tab (4 * t3.val + 2) (k0_off72 b) (k0_off72_inb b) (k0_off76 b) (k0_off76_inb b)⟩,
       ⟨Rect.unit (s := S128x128) (k0_off79 t3 b) S1x16.size (k0_off79_inb t3 b), payG (F := F) L sfl tab (4 * t3.val + 2) (k0_off71 b) (k0_off71_inb b) (k0_off75 b) (k0_off75_inb b)⟩,
       ⟨Rect.unit (s := S128x128) (k0_off78 t3 b) S1x16.size (k0_off78_inb t3 b), payG (F := F) L sfl tab (4 * t3.val + 2) (k0_off70 b) (k0_off70_inb b) (k0_off74 b) (k0_off74_inb b)⟩,
       ⟨Rect.unit (s := S128x128) (k0_off69 t3 b) S1x16.size (k0_off69_inb t3 b), payG (F := F) L sfl tab (4 * t3.val + 2) (k0_off61 b) (k0_off61_inb b) (k0_off65 b) (k0_off65_inb b)⟩,
       ⟨Rect.unit (s := S128x128) (k0_off68 t3 b) S1x16.size (k0_off68_inb t3 b), payG (F := F) L sfl tab (4 * t3.val + 2) (k0_off60 b) (k0_off60_inb b) (k0_off64 b) (k0_off64_inb b)⟩,
       ⟨Rect.unit (s := S128x128) (k0_off67 t3 b) S1x16.size (k0_off67_inb t3 b), payG (F := F) L sfl tab (4 * t3.val + 2) (k0_off59 b) (k0_off59_inb b) (k0_off63 b) (k0_off63_inb b)⟩,
       ⟨Rect.unit (s := S128x128) (k0_off66 t3 b) S1x16.size (k0_off66_inb t3 b), payG (F := F) L sfl tab (4 * t3.val + 2) (k0_off58 b) (k0_off58_inb b) (k0_off62 b) (k0_off62_inb b)⟩]
      = outFn L sfl tab fa0 (16 * t3.val + 8 + (b.val + 1)) := by
  rw [bag2_writes]
  have e1 : 16 * t3.val + b.val + 8 = 16 * t3.val + 8 + b.val := by omega
  have e2 : 128 * wid L + 4 * (4 * t3.val + 2) + b.val = 128 * wid L + (16 * t3.val + 8 + b.val) := by omega
  rw [e1, e2]
  exact outFn_step (F := F) L sfl tab fa0 (16 * t3.val + 8 + b.val)

set_option maxHeartbeats 4000000 in
theorem bagTrip2 : BagTrip2 (F := F) d L sfl tab fa0 := by
  intro t3 v1 v28 v45 v61 A hA b acc
  have hb : b.val < 4 := lt_of_lt_of_le b.isLt k0_t6_abs.2.1
  have ht3 : t3.val < 8 := lt_of_lt_of_le t3.isLt k0_t3_abs.2.1
  unfold bagInv2
  rcases hA with rfl | ⟨rfl, h4⟩
  · iintro ⟨Hr, Ha⟩
    sl_exec
    sl_step
    isplitl [Hr]; · iexact Hr
    iapply (Entails.of_eq (congrArg (fun f => ((aV).view.loc (thrT d L) ↦[Finset.univ]{fullShare} f : sProp 𝕄)) (bag2_step (F := F) L sfl tab fa0 t3 b)))
    iexact Ha
  · iintro ⟨Hr, Ha⟩
    ihave Ha := (Entails.of_eq (show ((aV).view.loc (thrT d L) ↦[(aBot).view.set]{fullShare} outFn L sfl tab fa0 (16 * t3.val + 8 + b.val) : sProp 𝕄)
        = ((aBot).view.loc (thrT d L) ↦[(aBot).view.set]{fullShare} outFn L sfl tab fa0 (16 * t3.val + 8 + b.val)) from rfl)) $$ Ha
    sl_exec
    sl_step
    isplitl [Hr]; · iexact Hr
    iapply (Entails.of_eq (congrArg (fun f => ((aV).view.loc (thrT d L) ↦[(aBot).view.set]{fullShare} f : sProp 𝕄)) (bag2_step (F := F) L sfl tab fa0 t3 b)))
    iexact Ha

end Cert.KB

end
-- ==== Proof.KBBag3.lean ====
/-
  One bag of sub-step 3 of the draining loop: row buffer 3 holds a chunk's 104 gathered rows; the bag's 26 rows are loaded
  sixteen lanes at a time, summed left to right in eight lane groups, scaled by the constant and stored to the bag's row of
  the out scratch. The eight stores leave, in that row, the scaled left-to-right sums of the 26 table rows the bag's fields
  name, and leave the other rows as they were.
-/
import proofs.«207326_g40819369181559_retrytranche2_1852_22_alg».proof.Proof.KBBagStmt
import proofs.«207326_g40819369181559_retrytranche2_1852_22_alg».proof.Proof.KBSets
import proofs.«207326_g40819369181559_retrytranche2_1852_22_alg».proof.Proof.KBChain

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.Kernel.main_v0_scv : Memref Cert.Kernel.sig Kind.scVector Space.hbm Cert.Kernel.S106496 EltTy.i32)
local notation "xV" => (Memref.whole Cert.Kernel.main_arg1_scv : Memref Cert.Kernel.sig Kind.scVector Space.hbm Cert.Kernel.S2600000x128 EltTy.f32)
local notation "oV" => (Memref.whole Cert.Kernel.main_v1_scv : Memref Cert.Kernel.sig Kind.scVector Space.hbm Cert.Kernel.S4096x128 EltTy.f32)
local notation "sV" => (Memref.whole Cert.Kernel.cc0_scratch0 : Memref Cert.Kernel.sig Kind.scVector Space.vmem Cert.Kernel.S3328 EltTy.i32)
local notation "rV" => (Memref.whole Cert.Kernel.cc0_scratch1 : Memref Cert.Kernel.sig Kind.scVector Space.vmem Cert.Kernel.S4x104x128 EltTy.f32)
local notation "aV" => (Memref.whole Cert.Kernel.cc0_scratch2 : Memref Cert.Kernel.sig Kind.scVector Space.vmem Cert.Kernel.S128x128 EltTy.f32)

variable [FloatOps F]
variable (d : Dev nD) (L : grid0.Coords)
variable (sfl : IVec S106496 32) (tab : FVec F S2600000x128 .f32) (fa0 : S128x128.Idx → F .f32)

open Idealize.ShloMosaic.ValueIdx

omit [FloatOps F] in
theorem forall_fin8_3 (P : Fin 8 → Prop) (h0 : P 0) (h1 : P 1) (h2 : P 2) (h3 : P 3) (h4 : P 4) (h5 : P 5) (h6 : P 6) (h7 : P 7) : ∀ k, P k := by
  intro k
  match k with
  | ⟨0, _⟩ => exact h0
  | ⟨1, _⟩ => exact h1
  | ⟨2, _⟩ => exact h2
  | ⟨3, _⟩ => exact h3
  | ⟨4, _⟩ => exact h4
  | ⟨5, _⟩ => exact h5
  | ⟨6, _⟩ => exact h6
  | ⟨7, _⟩ => exact h7

/-- The eight stores of one bag, on any prior contents g of the out scratch. -/
theorem bag3_writes (t3 : Fin k0_t3_loop.trips) (b : Fin k0_t7_loop.trips) (g : S128x128.Idx → F .f32) :
    (aV).view.writes (Elt F) g
      [⟨Rect.unit (s := S128x128) (k0_off107 t3 b) S1x16.size (k0_off107_inb t3 b), payG (F := F) L sfl tab (4 * t3.val + 3) (k0_off99 b) (k0_off99_inb b) (k0_off103 b) (k0_off103_inb b)⟩,
       ⟨Rect.unit (s := S128x128) (k0_off106 t3 b) S1x16.size (k0_off106_inb t3 b), payG (F := F) L sfl tab (4 * t3.val + 3) (k0_off98 b) (k0_off98_inb b) (k0_off102 b) (k0_off102_inb b)⟩,
       ⟨Rect.unit (s := S128x128) (k0_off105 t3 b) S1x16.size (k0_off105_inb t3 b), payG (F := F) L sfl tab (4 * t3.val + 3) (k0_off97 b) (k0_off97_inb b) (k0_off101 b) (k0_off101_inb b)⟩,
       ⟨Rect.unit (s := S128x128) (k0_off104 t3 b) S1x16.size (k0_off104_inb t3 b), payG (F := F) L sfl tab (4 * t3.val + 3) (k0_off96 b) (k0_off96_inb b) (k0_off100 b) (k0_off100_inb b)⟩,
       ⟨Rect.unit (s := S128x128) (k0_off95 t3 b) S1x16.size (k0_off95_inb t3 b), payG (F := F) L sfl tab (4 * t3.val + 3) (k0_off87 b) (k0_off87_inb b) (k0_off91 b) (k0_off91_inb b)⟩,
       ⟨Rect.unit (s := S128x128) (k0_off94 t3 b) S1x16.size (k0_off94_inb t3 b), payG (F := F) L sfl tab (4 * t3.val + 3) (k0_off86 b) (k0_off86_inb b) (k0_off90 b) (k0_off90_inb b)⟩,
       ⟨Rect.unit (s := S128x128) (k0_off93 t3 b) S1x16.size (k0_off93_inb t3 b), payG (F := F) L sfl tab (4 * t3.val + 3) (k0_off85 b) (k0_off85_inb b) (k0_off89 b) (k0_off89_inb b)⟩,
       ⟨Rect.unit (s := S128x128) (k0_off92 t3 b) S1x16.size (k0_off92_inb t3 b), payG (F := F) L sfl tab (4 * t3.val + 3) (k0_off84 b) (k0_off84_inb b) (k0_off88 b) (k0_off88_inb b)⟩]
      = fun i => if (i 0).val = 16 * t3.val + b.val + 12 then (fun q : Fin 128 => FloatOps.mulf (accTo (fun f => tab (ix2 (krow sfl (128 * wid L + 4 * (4 * t3.val + 3) + b.val) f) q)) 25) (cstK (F := F))) (i 1) else g i := by
  have hb : b.val < 4 := lt_of_lt_of_le b.isLt k0_t7_abs.2.1
  exact row_store (F := F) (16 * t3.val + b.val + 12) g
    ![k0_off92 t3 b, k0_off93 t3 b, k0_off94 t3 b, k0_off95 t3 b, k0_off104 t3 b, k0_off105 t3 b, k0_off106 t3 b, k0_off107 t3 b]
    (forall_fin8_3 _ (k0_off92_eq t3 b) (k0_off93_eq t3 b) (k0_off94_eq t3 b) (k0_off95_eq t3 b) (k0_off104_eq t3 b) (k0_off105_eq t3 b) (k0_off106_eq t3 b) (k0_off107_eq t3 b))
    (forall_fin8_3 _ (k0_off92_inb t3 b) (k0_off93_inb t3 b) (k0_off94_inb t3 b) (k0_off95_inb t3 b) (k0_off104_inb t3 b) (k0_off105_inb t3 b) (k0_off106_inb t3 b) (k0_off107_inb t3 b))
    ![payG (F := F) L sfl tab (4 * t3.val + 3) (k0_off84 b) (k0_off84_inb b) (k0_off88 b) (k0_off88_inb b),
      payG (F := F) L sfl tab (4 * t3.val + 3) (k0_off85 b) (k0_off85_inb b) (k0_off89 b) (k0_off89_inb b),
      payG (F := F) L sfl tab (4 * t3.val + 3) (k0_off86 b) (k0_off86_inb b) (k0_off90 b) (k0_off90_inb b),
      payG (F := F) L sfl tab (4 * t3.val + 3) (k0_off87 b) (k0_off87_inb b) (k0_off91 b) (k0_off91_inb b),
      payG (F := F) L sfl tab (4 * t3.val + 3) (k0_off96 b) (k0_off96_inb b) (k0_off100 b) (k0_off100_inb b),
      payG (F := F) L sfl tab (4 * t3.val + 3) (k0_off97 b) (k0_off97_inb b) (k0_off101 b) (k0_off101_inb b),
      payG (F := F) L sfl tab (4 * t3.val + 3) (k0_off98 b) (k0_off98_inb b) (k0_off102 b) (k0_off102_inb b),
      payG (F := F) L sfl tab (4 * t3.val + 3) (k0_off99 b) (k0_off99_inb b) (k0_off103 b) (k0_off103_inb b)]
    (fun q : Fin 128 => FloatOps.mulf (accTo (fun f => tab (ix2 (krow sfl (128 * wid L + 4 * (4 * t3.val + 3) + b.val) f) q)) 25) (cstK (F := F)))
    (forall_fin8_3 _ (fun y h => payG_apply (F := F) L sfl tab (4 * t3.val + 3) 3 b.val 0 (by norm_num) _ _ _ _ (k0_off84_eq b) (k0_off88_eq b) y h)
      (fun y h => payG_apply (F := F) L sfl tab (4 * t3.val + 3) 3 b.val 16 (by norm_num) _ _ _ _ (k0_off85_eq b) (k0_off89_eq b) y h)
      (fun y h => payG_apply (F := F) L sfl tab (4 * t3.val + 3) 3 b.val 32 (by norm_num) _ _ _ _ (k0_off86_eq b) (k0_off90_eq b) y h)
      (fun y h => payG_apply (F := F) L sfl tab (4 * t3.val + 3) 3 b.val 48 (by norm_num) _ _ _ _ (k0_off87_eq b) (k0_off91_eq b) y h)
      (fun y h => payG_apply (F := F) L sfl tab (4 * t3.val + 3) 3 b.val 64 (by norm_num) _ _ _ _ (k0_off96_eq b) (k0_off100_eq b) y h)
      (fun y h => payG_apply (F := F) L sfl tab (4 * t3.val + 3) 3 b.val 80 (by norm_num) _ _ _ _ (k0_off97_eq b) (k0_off101_eq b) y h)
      (fun y h => payG_apply (F := F) L sfl tab (4 * t3.val + 3) 3 b.val 96 (by norm_num) _ _ _ _ (k0_off98_eq b) (k0_off102_eq b) y h)
      (fun y h => payG_apply (F := F) L sfl tab (4 * t3.val + 3) 3 b.val 112 (by norm_num) _ _ _ _ (k0_off99_eq b) (k0_off103_eq b) y h))

/-- The out scratch after the bag: one more row done. -/
theorem bag3_step (t3 : Fin k0_t3_loop.trips) (b : Fin k0_t7_loop.trips) :
    (aV).view.writes (Elt F) (outFn L sfl tab fa0 (16 * t3.val + 12 + b.val))
      [⟨Rect.unit (s := S128x128) (k0_off107 t3 b) S1x16.size (k0_off107_inb t3 b), payG (F := F) L sfl tab (4 * t3.val + 3) (k0_off99 b) (k0_off99_inb b) (k0_off103 b) (k0_off103_inb b)⟩,
       ⟨Rect.unit (s := S128x128) (k0_off106 t3 b) S1x16.size (k0_off106_inb t3 b), payG (F := F) L sfl tab (4 * t3.val + 3) (k0_off98 b) (k0_off98_inb b) (k0_off102 b) (k0_off102_inb b)⟩,
       ⟨Rect.unit (s := S128x128) (k0_off105 t3 b) S1x16.size (k0_off105_inb t3 b), payG (F := F) L sfl tab (4 * t3.val + 3) (k0_off97 b) (k0_off97_inb b) (k0_off101 b) (k0_off101_inb b)⟩,
       ⟨Rect.unit (s := S128x128) (k0_off104 t3 b) S1x16.size (k0_off104_inb t3 b), payG (F := F) L sfl tab (4 * t3.val + 3) (k0_off96 b) (k0_off96_inb b) (k0_off100 b) (k0_off100_inb b)⟩,
       ⟨Rect.unit (s := S128x128) (k0_off95 t3 b) S1x16.size (k0_off95_inb t3 b), payG (F := F) L sfl tab (4 * t3.val + 3) (k0_off87 b) (k0_off87_inb b) (k0_off91 b) (k0_off91_inb b)⟩,
       ⟨Rect.unit (s := S128x128) (k0_off94 t3 b) S1x16.size (k0_off94_inb t3 b), payG (F := F) L sfl tab (4 * t3.val + 3) (k0_off86 b) (k0_off86_inb b) (k0_off90 b) (k0_off90_inb b)⟩,
       ⟨Rect.unit (s := S128x128) (k0_off93 t3 b) S1x16.size (k0_off93_inb t3 b), payG (F := F) L sfl tab (4 * t3.val + 3) (k0_off85 b) (k0_off85_inb b) (k0_off89 b) (k0_off89_inb b)⟩,
       ⟨Rect.unit (s := S128x128) (k0_off92 t3 b) S1x16.size (k0_off92_inb t3 b), payG (F := F) L sfl tab (4 * t3.val + 3) (k0_off84 b) (k0_off84_inb b) (k0_off88 b) (k0_off88_inb b)⟩]
      = outFn L sfl tab fa0 (16 * t3.val + 12 + (b.val + 1)) := by
  rw [bag3_writes]
  have e1 : 16 * t3.val + b.val + 12 = 16 * t3.val + 12 + b.val := by omega
  have e2 : 128 * wid L + 4 * (4 * t3.val + 3) + b.val = 128 * wid L + (16 * t3.val + 12 + b.val) := by omega
  rw [e1, e2]
  exact outFn_step (F := F) L sfl tab fa0 (16 * t3.val + 12 + b.val)

set_option maxHeartbeats 4000000 in
theorem bagTrip3 : BagTrip3 (F := F) d L sfl tab fa0 := by
  intro t3 v77 A hA b acc
  have hb : b.val < 4 := lt_of_lt_of_le b.isLt k0_t7_abs.2.1
  have ht3 : t3.val < 8 := lt_of_lt_of_le t3.isLt k0_t3_abs.2.1
  unfold bagInv3
  rcases hA with rfl | ⟨rfl, h4⟩
  · iintro ⟨Hr, Ha⟩
    sl_exec
    sl_step
    isplitl [Hr]; · iexact Hr
    iapply (Entails.of_eq (congrArg (fun f => ((aV).view.loc (thrT d L) ↦[Finset.univ]{fullShare} f : sProp 𝕄)) (bag3_step (F := F) L sfl tab fa0 t3 b)))
    iexact Ha
  · iintro ⟨Hr, Ha⟩
    ihave Ha := (Entails.of_eq (show ((aV).view.loc (thrT d L) ↦[(aBot).view.set]{fullShare} outFn L sfl tab fa0 (16 * t3.val + 12 + b.val) : sProp 𝕄)
        = ((aBot).view.loc (thrT d L) ↦[(aBot).view.set]{fullShare} outFn L sfl tab fa0 (16 * t3.val + 12 + b.val)) from rfl)) $$ Ha
    sl_exec
    sl_step
    isplitl [Hr]; · iexact Hr
    iapply (Entails.of_eq (congrArg (fun f => ((aV).view.loc (thrT d L) ↦[(aBot).view.set]{fullShare} f : sProp 𝕄)) (bag3_step (F := F) L sfl tab fa0 t3 b)))
    iexact Ha

end Cert.KB

end
-- ==== Proof.KBTile.lean ====
/-
  One tile's whole task. The tile copies its 3328 index words in, adds 100000 · (position mod 26) to each in two passes (the
  first gather is fired between the passes, on words the second pass does not touch), keeps three gathers of 104 table rows in
  flight while it sums the fourth buffer's four bags, copies the first 64 result rows out while it computes the last 64, then
  the last 64. Every buffer it is handed comes back, the result's two blocks holding the kernel's value.
-/
import proofs.«207326_g40819369181559_retrytranche2_1852_22_alg».proof.Proof.KBOwn
import proofs.«207326_g40819369181559_retrytranche2_1852_22_alg».proof.Proof.KBInv
import proofs.«207326_g40819369181559_retrytranche2_1852_22_alg».proof.Proof.KBWin
import proofs.«207326_g40819369181559_retrytranche2_1852_22_alg».proof.Proof.KBSets
import proofs.«207326_g40819369181559_retrytranche2_1852_22_alg».proof.Proof.KBOut
import proofs.«207326_g40819369181559_retrytranche2_1852_22_alg».proof.Proof.KBGather
import proofs.«207326_g40819369181559_retrytranche2_1852_22_alg».proof.Proof.KBRing
import proofs.«207326_g40819369181559_retrytranche2_1852_22_alg».proof.Proof.KBBag0
import proofs.«207326_g40819369181559_retrytranche2_1852_22_alg».proof.Proof.KBBag1
import proofs.«207326_g40819369181559_retrytranche2_1852_22_alg».proof.Proof.KBBag2
import proofs.«207326_g40819369181559_retrytranche2_1852_22_alg».proof.Proof.KBBag3

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.Kernel.main_v0_scv : Memref Cert.Kernel.sig Kind.scVector Space.hbm Cert.Kernel.S106496 EltTy.i32)
local notation "xV" => (Memref.whole Cert.Kernel.main_arg1_scv : Memref Cert.Kernel.sig Kind.scVector Space.hbm Cert.Kernel.S2600000x128 EltTy.f32)
local notation "oV" => (Memref.whole Cert.Kernel.main_v1_scv : Memref Cert.Kernel.sig Kind.scVector Space.hbm Cert.Kernel.S4096x128 EltTy.f32)
local notation "sV" => (Memref.whole Cert.Kernel.cc0_scratch0 : Memref Cert.Kernel.sig Kind.scVector Space.vmem Cert.Kernel.S3328 EltTy.i32)
local notation "rV" => (Memref.whole Cert.Kernel.cc0_scratch1 : Memref Cert.Kernel.sig Kind.scVector Space.vmem Cert.Kernel.S4x104x128 EltTy.f32)
local notation "aV" => (Memref.whole Cert.Kernel.cc0_scratch2 : Memref Cert.Kernel.sig Kind.scVector Space.vmem Cert.Kernel.S128x128 EltTy.f32)

variable [FloatOps F]
variable (d : Dev nD) (L : grid0.Coords)

abbrev win0 : Memref sig .scVector .vmem S104 .i32 := (sV).slice (Rect.unit (s := S3328) ![0] S104.size inb_S3328_S104_0) (fun _ => rfl)
abbrev win1 : Memref sig .scVector .vmem S104 .i32 := (sV).slice (Rect.unit (s := S3328) ![104] S104.size inb_S3328_S104_104) (fun _ => rfl)
abbrev win2 : Memref sig .scVector .vmem S104 .i32 := (sV).slice (Rect.unit (s := S3328) ![208] S104.size inb_S3328_S104_208) (fun _ => rfl)

abbrev oBotL : Memref sig .scVector .hbm S64x128 .f32 :=
  (oV).slice (Rect.unit (s := S4096x128) (k0_off109 L) S64x128.size (k0_off109_inb L)) (fun _ => rfl)

def inv1 (sfl : IVec S106496 32) (k : ℕ) (_ : BitVec 32) : sProp 𝕄 :=
  iprop((sV).view.loc (thr d L) ↦{fullShare} idxAfter L sfl (16 * k))
def inv2 (sfl : IVec S106496 32) (k : ℕ) (_ : BitVec 32) : sProp 𝕄 :=
  iprop((sV).view.loc (thr d L) ↦[Finset.univ \ (win0).view.set]{fullShare} idxAfter L sfl (112 + 16 * k))

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) := by
  rw [show (Finset.univ : Finset (Fin 7)) = {0, 1, 2, 3, 4, 5, 6} from by decide,
    BI.bigSep_insert (by decide), BI.bigSep_insert (by decide), BI.bigSep_insert (by decide), BI.bigSep_insert (by decide),
    BI.bigSep_insert (by decide), BI.bigSep_insert (by decide), BI.bigSep_singleton]
  rfl

set_option maxHeartbeats 4000000 in
theorem tile_stmt (m : (ℓ : Loc nD τ sig) → Buf (Elt F) ℓ) (hpre : PreOK m) : TileStmt (F := F) m := by
  intro d L hF O W hO
  have hraw : ∀ p, (rawIdx L (sflOf (m (aLoc d))) p).toNat ≤ 99999 := fun p => rawIdx_le L (m (aLoc d)) (hpre d) p
  rw [(K (F := F)).scopedBufs_V hF d (cV L) (jV L), SparseCore.Cfg.scopedSems0_V (Val := Elt F) d (cV L) (jV L), ownSems0_V, ownBufs_V]
  unfold tileIn
  iintro ⟨#Hlv, -, ⟨Hi, Hx, Hot, Hob⟩, ⟨⟨%fs, Hs⟩, ⟨%fr, Hr⟩, ⟨%fa, Ha⟩, Hbufs⟩, ⟨H3, H4, H5, H6, H7, HsA, HsB, Hsems⟩, HO⟩
  ihave Hmw := (show levAts (K (F := F)).L (K (F := F)).lev ⊢ Transfers.MayWaits (thr d L) (default : HIx 1) O from
    (K (F := F)).mayWaits_none (thr := thr d L) hO) $$ Hlv
  -- the buffers as the tile's memrefs address them
  ihave Hi := (Entails.of_eq (show (iLoc d ↦{tok (cL L) (sL L)} sflOf (m (aLoc d)) : sProp 𝕄)
      = ((iV).view.loc (thr d L) ↦{tok (cL L) (sL L)} sflOf (m (aLoc d))) from rfl)) $$ Hi
  ihave Hx := (Entails.of_eq (show (xLoc d ↦{tok (cL L) (sL L)} m (xLoc d) : sProp 𝕄)
      = ((xV).view.loc (thr d L) ↦{tok (cL L) (sL L)} m (xLoc d)) from rfl)) $$ Hx
  ihave Hs := (Entails.of_eq (show ((thr d L).loc cc0_scratch0 ↦{fullShare} fs : sProp 𝕄)
      = ((sV).view.loc (thr d L) ↦{fullShare} fs) from rfl)) $$ Hs
  ihave Ha := (Entails.of_eq (show ((thr d L).loc cc0_scratch2 ↦{fullShare} fa : sProp 𝕄)
      = ((aV).view.loc (thr d L) ↦{fullShare} fa) from rfl)) $$ Ha
  -- the table as one read token per gather cell, and a remainder
  ihave Hx := ((Transfers.pointsTo_toks_split (Ix := HIx 1) (Name := ℕ) (U := UU) (Lvl := ℕ) (tok (cL L) (sL L)) 7).trans
    (Entails.of_eq (by rw [bigSep_fin7]))) $$ Hx
  icases Hx with ⟨Hxr, Hx0, Hx1, Hx2, Hx3, Hx4, Hx5, Hx6⟩
  -- the row buffer as its four slots
  have slots_split : ((thr d L).loc cc0_scratch1 ↦{fullShare} fr : sProp 𝕄)
      = iprop(((slot0).view.loc (thr d L) ↦[(slot0).view.set]{fullShare} fr) ∗ ((slot1).view.loc (thr d L) ↦[(slot1).view.set]{fullShare} fr)
          ∗ ((slot2).view.loc (thr d L) ↦[(slot2).view.set]{fullShare} fr) ∗ ((slot3).view.loc (thr d L) ↦[(slot3).view.set]{fullShare} fr)) :=
    slots_split (F := F) d (cV L) (jV L) fr
  ihave Hr := (Entails.of_eq slots_split) $$ Hr
  icases Hr with ⟨Hr0, Hr1, Hr2, Hr3⟩
  -- the prologue: the copy of the tile's index words, the first pass, the first gather, the second pass, two more gathers
  sl_exec
  have e0 : ((sV).view.loc (thr d L) ↦{fullShare} View.write (Elt F) (sV).view fs (tile_stmt.sl.dma0 m d L) Finset.univ : sProp 𝕄)
      = ((sV).view.loc (thr d L) ↦{fullShare} idxAfter L (sflOf (m (aLoc d))) (16 * 0)) := by
    rw [View.write_whole_univ]
    exact congrArg _ (landed_eq (F := F) L (sflOf (m (aLoc d))))
  ihave Hs := (Entails.of_eq e0) $$ Hs
  sl_for (inv1 (F := F) d L (sflOf (m (aLoc d)))) $$ [Hs]
  case region =>
    intro k _
    unfold inv1
    iintro Hs
    sl_exec
    sl_step
    iapply (Entails.of_eq (congrArg (fun f => ((sV).view.loc (thr d L) ↦{fullShare} f : sProp 𝕄)) (fix1_step (F := F) L (sflOf (m (aLoc d))) k)))
    iexact Hs
  · unfold inv1; iexact Hs
  iintro %_ HI
  unfold inv1
  have htr : Scf.trips k0_t1_loop.lb k0_t1_loop.ub k0_t1_loop.st = 7 := by decide
  rw [htr]
  have hin0 : ∀ x, ((win0).view.read (Elt F) (idxAfter L (sflOf (m (aLoc d))) (16 * 7)) x).toNat < S2600000x128.size gathers_S2600000x128_S104x128.axis :=
    win_inb (F := F) L (sflOf (m (aLoc d))) (16 * 7) 0 (by norm_num) ![0] inb_S3328_S104_0 rfl hraw
  sl_exec
  have hdisj2 : ∀ k : Fin k0_t2_loop.trips, Disjoint ((sV).view.setOn (Rect.unit (s := S3328) (k0_off3 k) S16.size (k0_off3_inb k)).set) (win0).view.set :=
    fun k => fix2_disj k inb_S3328_S104_0
  have hdisj2' : ∀ k : Fin k0_t2_loop.trips, Disjoint ((sV).access (Rect.unit (s := S3328) (k0_off3 k) S16.size (k0_off3_inb k))).set (win0).view.set :=
    fun k => fix2_disj_access k inb_S3328_S104_0
  sl_for (inv2 (F := F) d L (sflOf (m (aLoc d)))) $$ [HI]
  case region =>
    intro k _
    unfold inv2
    iintro Hs
    sl_exec
    sl_step
    iapply (Entails.of_eq (congrArg (fun f => ((sV).view.loc (thr d L) ↦[Finset.univ \ (win0).view.set]{fullShare} f : sProp 𝕄)) (fix2_step (F := F) L (sflOf (m (aLoc d))) k)))
    iexact Hs
  · unfold inv2; iexact HI
  iintro %_ HI
  unfold inv2
  have htr2 : Scf.trips k0_t2_loop.lb k0_t2_loop.ub k0_t2_loop.st = 201 := by decide
  rw [htr2]
  have hin1 : ∀ x, ((win1).view.read (Elt F) (idxAfter L (sflOf (m (aLoc d))) (112 + 16 * 201)) x).toNat < S2600000x128.size gathers_S2600000x128_S104x128.axis :=
    win_inb (F := F) L (sflOf (m (aLoc d))) (112 + 16 * 201) 1 (by norm_num) ![104] inb_S3328_S104_104 rfl hraw
  have hin2 : ∀ x, ((win2).view.read (Elt F) (idxAfter L (sflOf (m (aLoc d))) (112 + 16 * 201)) x).toNat < S2600000x128.size gathers_S2600000x128_S104x128.axis :=
    win_inb (F := F) L (sflOf (m (aLoc d))) (112 + 16 * 201) 2 (by norm_num) ![208] inb_S3328_S104_208 rfl hraw
  sl_exec
  -- the loop over the chunks, at its invariant
  sl_for (ringInv (F := F) d L (tok (cL L) (sL L)) O (insert (SemLoc.dma cc0_scoped0.sem, (default : HIx 1)) W) (sflOf (m (aLoc d))) (m (xLoc d)) fa (m (oLoc d)))
    $$ [Hmw H3 H4 H5 HI Hx3 Hr3 H6 Ha H7 Hot HO]
  case region =>
    intro k acc
    exact ring_trip (F := F) d L (tok (cL L) (sL L)) O (insert (SemLoc.dma cc0_scoped0.sem, (default : HIx 1)) W) (sflOf (m (aLoc d))) (m (xLoc d)) fa (m (oLoc d))
      hraw (bagTrip0 (F := F) d L (sflOf (m (aLoc d))) (m (xLoc d)) fa) (bagTrip1 (F := F) d L (sflOf (m (aLoc d))) (m (xLoc d)) fa)
      (bagTrip2 (F := F) d L (sflOf (m (aLoc d))) (m (xLoc d)) fa) (bagTrip3 (F := F) d L (sflOf (m (aLoc d))) (m (xLoc d)) fa) _ k acc
  · -- the loop's invariant at its entry
    unfold ringInv
    isplitr; · iexact Hmw
    isplitl [HI]
    · iapply (Entails.of_eq (show (((sV).view.loc (thrT d L) ↦[((Finset.univ \ (win0).view.set) \ (win1).view.set) \ (win2).view.set]{fullShare} fixC L (sflOf (m (aLoc d))) : sProp 𝕄))
          = wins d L (sflOf (m (aLoc d))) (4 * 0) from rest012_wins (F := F) d L (fixC L (sflOf (m (aLoc d))))))
      iexact HI
    isplitl [H3 H4 H5]
    · rw [show ringSlots d L (tok (cL L) (sL L)) (sflOf (m (aLoc d))) (m (xLoc d)) 0
          = iprop(inFlight0 d L (tok (cL L) (sL L)) (sflOf (m (aLoc d))) (m (xLoc d)) (4 * 0) ∗ inFlight1 d L (tok (cL L) (sL L)) (sflOf (m (aLoc d))) (m (xLoc d)) (4 * 0 + 1)
              ∗ inFlight2 d L (tok (cL L) (sL L)) (sflOf (m (aLoc d))) (m (xLoc d)) (4 * 0 + 2)) from by unfold ringSlots; rw [if_pos (by norm_num)]]
      isplitl [H3]
      · iapply (fcanon0_n (F := F) d L (tok (cL L) (sL L)) (sflOf (m (aLoc d))) (m (xLoc d)) hraw (16 * 7) 0 (by norm_num) (by norm_num) (by norm_num)
          ![0] inb_S3328_S104_0 rfl fr rfl hin0 _ rfl)
        iexact H3
      isplitl [H4]
      · iapply (fcanon1_n (F := F) d L (tok (cL L) (sL L)) (sflOf (m (aLoc d))) (m (xLoc d)) hraw (112 + 16 * 201) 1 (by norm_num) (by norm_num) (by norm_num)
          ![104] inb_S3328_S104_104 rfl fr rfl hin1 _ rfl)
        iexact H4
      · iapply (fcanon2_n (F := F) d L (tok (cL L) (sL L)) (sflOf (m (aLoc d))) (m (xLoc d)) hraw (112 + 16 * 201) 2 (by norm_num) (by norm_num) (by norm_num)
          ![208] inb_S3328_S104_208 rfl fr rfl hin2 _ rfl)
        iexact H5
    isplitl [Hr3 Hx3 H6]
    · unfold idle3
      isplitl [Hr3]; · iexists _; iexact Hr3
      isplitl [Hx3]; · iexact Hx3
      iexact H6
    isplitl [Ha H7 Hot]
    · rw [show aState d L (sflOf (m (aLoc d))) (m (xLoc d)) fa (m (oLoc d)) 0 = aEarly d L (sflOf (m (aLoc d))) (m (xLoc d)) fa (m (oLoc d)) (16 * 0) from by
        unfold aState; rw [if_pos (by norm_num)]]
      unfold aEarly
      rw [show outFn L (sflOf (m (aLoc d))) (m (xLoc d)) fa (16 * 0) = fa from outFn_zero (F := F) L (sflOf (m (aLoc d))) (m (xLoc d)) fa]
      isplitl [Ha]; · iexact Ha
      isplitl [H7]; · iexact H7
      iapply (Entails.of_eq (show (oLoc d ↦[oPiece (topIx (cL L) (sL L))]{fullShare} m (oLoc d) : sProp 𝕄)
        = ((oTop L).view.loc (thrT d L) ↦[(oTop L).view.set]{fullShare} m (oLoc d)) from by
          rw [oTop_set L (k0_off108 L) (k0_off108_inb L t3three h8three) (k0_off108_eq L)]))
      iexact Hot
    iexists _; isplitr
    · ipureintro; exact fun p hp => .inl hp
    · iexact HO
  iintro %acc8 HI
  have htr3 : Scf.trips k0_t3_loop.lb k0_t3_loop.ub k0_t3_loop.st = 8 := by decide
  rw [htr3]
  unfold ringInv
  icases HI with ⟨#Hmw', Hw, Hslots, Hid3, Hast, %W', %hW', HO⟩
  have hast8 : aState d L (sflOf (m (aLoc d))) (m (xLoc d)) fa (m (oLoc d)) 8
      = iprop(((aV).view.loc (thrT d L) ↦[(aBot).view.set]{fullShare} outFn L (sflOf (m (aLoc d))) (m (xLoc d)) fa 128)
          ∗ copyFlight d L (sflOf (m (aLoc d))) (m (xLoc d)) fa (m (oLoc d))) := by
    unfold aState aLate; rw [if_neg (by norm_num)]
  ihave Hast := (Entails.of_eq hast8) $$ Hast
  icases Hast with ⟨Hab, Hcf⟩
  unfold copyFlight
  have hobset : (oBotL L).view.set = oPiece (botIx (cL L) (sL L)) := oBot_set L (k0_off109 L) (k0_off109_inb L) (k0_off109_eq L)
  ihave Hob := (Entails.of_eq (show (oLoc d ↦[oPiece (botIx (cL L) (sL L))]{fullShare} m (oLoc d) : sProp 𝕄)
      = ((oBotL L).view.loc (thrT d L) ↦[(oBotL L).view.set]{fullShare} m (oLoc d)) from by rw [hobset])) $$ Hob
  ihave Hab := (Entails.of_eq (show ((aV).view.loc (thrT d L) ↦[(aBot).view.set]{fullShare} outFn L (sflOf (m (aLoc d))) (m (xLoc d)) fa 128 : sProp 𝕄)
      = ((aBot).view.loc (thrT d L) ↦[(aBot).view.set]{fullShare} outFn L (sflOf (m (aLoc d))) (m (xLoc d)) fa 128) from rfl)) $$ Hab
  sl_exec
  sl_step
  -- what is left of the loop's state, opened
  ihave Hslots := (Entails.of_eq (show ringSlots d L (tok (cL L) (sL L)) (sflOf (m (aLoc d))) (m (xLoc d)) 8
      = iprop(idle0 d L (tok (cL L) (sL L)) (m (xLoc d)) ∗ idle1 d L (tok (cL L) (sL L)) (m (xLoc d)) ∗ idle2 d L (tok (cL L) (sL L)) (m (xLoc d)))
      from by unfold ringSlots; rw [if_neg (by norm_num)])) $$ Hslots
  unfold idle0 idle1 idle2 idle3
  icases Hslots with ⟨⟨⟨%g0, Hs0⟩, Hx0', Hc0⟩, ⟨⟨%g1, Hs1⟩, Hx1', Hc1⟩, ⟨⟨%g2, Hs2⟩, Hx2', Hc2⟩⟩
  icases Hid3 with ⟨⟨%g3, Hs3⟩, Hx3', Hc3⟩
  -- the pieces in the forms the launch wants them back
  have htop : (((oTop L).view.loc (thrT d L) ↦[(oTop L).view.set]{fullShare}
        (oTop L).view.writes (Elt F) (m (oLoc d)) [⟨Rect.whole S64x128, ReadAs.same.apply (View.read (Elt F) (aTop).view (outFn L (sflOf (m (aLoc d))) (m (xLoc d)) fa 64))⟩]) : sProp 𝕄)
      = (oLoc d ↦[oPiece (topIx (cL L) (sL L))]{fullShare} KG (cstK (F := F)) (sflOf (m (aLoc d))) (m (xLoc d))) := by
    rw [pointsTo_congr (out_top_congr (F := F) L (sflOf (m (aLoc d))) (m (xLoc d)) fa (m (oLoc d))),
      oTop_set L (k0_off108 L) (k0_off108_inb L t3three h8three) (k0_off108_eq L)]
  have hbot : (((oBotL L).view.loc (thrT d L) ↦[(oBotL L).view.set]{fullShare}
        (oBotL L).view.writes (Elt F) (m (oLoc d)) [⟨Rect.whole S64x128, tile_stmt.sl.dma0_1 m d L fa⟩]) : sProp 𝕄)
      = (oLoc d ↦[oPiece (botIx (cL L) (sL L))]{fullShare} KG (cstK (F := F)) (sflOf (m (aLoc d))) (m (xLoc d))) := by
    show (((oBotL L).view.loc (thrT d L) ↦[(oBotL L).view.set]{fullShare}
        (oBotL L).view.writes (Elt F) (m (oLoc d)) [⟨Rect.whole S64x128, ReadAs.same.apply (View.read (Elt F) (aBot).view (outFn L (sflOf (m (aLoc d))) (m (xLoc d)) fa 128))⟩]) : sProp 𝕄) = _
    rw [pointsTo_congr (out_bot_congr (F := F) L (sflOf (m (aLoc d))) (m (xLoc d)) fa (m (oLoc d))), hobset]
  have hwins : (wins d L (sflOf (m (aLoc d))) (4 * 8) : sProp 𝕄) = ((thr d L).loc cc0_scratch0 ↦{fullShare} fixC L (sflOf (m (aLoc d)))) :=
    wins_all (F := F) d L (fixC L (sflOf (m (aLoc d))))
  have hslots : iprop(((slot0).view.loc (thrT d L) ↦[(slot0).view.set]{fullShare} g0) ∗ ((slot1).view.loc (thrT d L) ↦[(slot1).view.set]{fullShare} g1)
        ∗ ((slot2).view.loc (thrT d L) ↦[(slot2).view.set]{fullShare} g2) ∗ ((slot3).view.loc (thrT d L) ↦[(slot3).view.set]{fullShare} g3))
      ⊢ (iprop(∃ f, (thr d L).loc cc0_scratch1 ↦{fullShare} f) : sProp 𝕄) :=
    slots_join (F := F) d (cV L) (jV L) g0 g1 g2 g3
  have hhalves : iprop(((aV).view.loc (thrT d L) ↦[(aTop).view.set]{fullShare} outFn L (sflOf (m (aLoc d))) (m (xLoc d)) fa 64)
        ∗ ((aBot).view.loc (thrT d L) ↦[(aBot).view.set]{fullShare} outFn L (sflOf (m (aLoc d))) (m (xLoc d)) fa 128))
      ⊢ (iprop(∃ f, (thr d L).loc cc0_scratch2 ↦{fullShare} f) : sProp 𝕄) :=
    halves_join (F := F) d (cV L) (jV L) _ _
  unfold tileOut
  isplitl [Hi Hxr Hx0' Hx1' Hx2' Hx3' Hx4 Hx5 Hx6 Hcf_dst Hob]
  · isplitl [Hi]; · iexact Hi
    isplitl [Hxr Hx0' Hx1' Hx2' Hx3' Hx4 Hx5 Hx6]
    · iapply ((Entails.of_eq (by rw [bigSep_fin7])).trans (Transfers.pointsTo_toks_join (Ix := HIx 1) (Name := ℕ) (U := UU) (Lvl := ℕ) (tok (cL L) (sL L)) 7))
      isplitl [Hxr]; · iexact Hxr
      isplitl [Hx0']; · iexact Hx0'
      isplitl [Hx1']; · iexact Hx1'
      isplitl [Hx2']; · iexact Hx2'
      isplitl [Hx3']; · iexact Hx3'
      isplitl [Hx4]; · iexact Hx4
      isplitl [Hx5]; · iexact Hx5
      iexact Hx6
    isplitl [Hcf_dst]
    · iapply (Entails.of_eq htop); iexact Hcf_dst
    · iapply (Entails.of_eq hbot); iexact Hob
  isplitl [Hw Hs0 Hs1 Hs2 Hs3 Hcf_src Hab Hbufs]
  · isplitl [Hw]
    · iexists _; iapply (Entails.of_eq hwins); iexact Hw
    isplitl [Hs0 Hs1 Hs2 Hs3]
    · iapply hslots
      isplitl [Hs0]; · iexact Hs0
      isplitl [Hs1]; · iexact Hs1
      isplitl [Hs2]; · iexact Hs2
      iexact Hs3
    isplitl [Hcf_src Hab]
    · iapply hhalves
      isplitl [Hcf_src]; · iexact Hcf_src
      iexact Hab
    iexact Hbufs
  isplitl [Hc0 Hc1 Hc2 Hc3 Hcf HsA HsB Hsems]
  · isplitl [Hc0]; · iexact Hc0
    isplitl [Hc1]; · iexact Hc1
    isplitl [Hc2]; · iexact Hc2
    isplitl [Hc3]; · iexact Hc3
    isplitl [Hcf]; · iexact Hcf
    isplitl [HsA]; · iexact HsA
    isplitl [HsB]; · iexact HsB
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases hW' p hp with h | h
  · rcases Finset.mem_insert.mp h with h | h
    · exact .inr (h ▸ rfl)
    · exact .inl h
  · exact .inr h

end Cert.KB

end
-- ==== Proof.lean ====
/-
  The certificate: the kernel sums, for each of the 4096 bags, the 26 rows of the merged table that the bag's fields name
  (field f of a bag indexes the f-th block of 100000 rows) and scales by the constant; the reference gathers the same rows,
  sums them and divides by 26. On the extended reals both are the one function Cert.Spec.G of the two arguments: the sums
  agree because addition there is associative and commutative, and the constant, named 1/26, makes the product the
  quotient by 26.

  The three frames come from the runs: the kernel's (every tile proved once at a symbolic place, launched on the 2 × 16
  tiles) at both float instances, and the reference's run of its host operations.
-/
import proofs.«207326_g40819369181559_retrytranche2_1852_22_alg».proof.Defs
import proofs.«207326_g40819369181559_retrytranche2_1852_22_alg».proof.Proof.Gen.Kernel
import proofs.«207326_g40819369181559_retrytranche2_1852_22_alg».proof.Proof.Gen.Kernel.Skeleton
import proofs.«207326_g40819369181559_retrytranche2_1852_22_alg».proof.Proof.Gen.KernelIdeal
import proofs.«207326_g40819369181559_retrytranche2_1852_22_alg».proof.Proof.Gen.KernelIdeal.Skeleton
import proofs.«207326_g40819369181559_retrytranche2_1852_22_alg».proof.Proof.Gen.ReferenceIdeal
import proofs.«207326_g40819369181559_retrytranche2_1852_22_alg».proof.Proof.Gen.Pre_input_domain
import proofs.«207326_g40819369181559_retrytranche2_1852_22_alg».proof.Proof.PreSide
import proofs.«207326_g40819369181559_retrytranche2_1852_22_alg».proof.Proof.RefValue
import proofs.«207326_g40819369181559_retrytranche2_1852_22_alg».proof.Proof.KIBridge
import proofs.«207326_g40819369181559_retrytranche2_1852_22_alg».proof.Proof.KILaunch
import proofs.«207326_g40819369181559_retrytranche2_1852_22_alg».proof.Proof.KITile
import proofs.«207326_g40819369181559_retrytranche2_1852_22_alg».proof.Proof.KBLaunch
import proofs.«207326_g40819369181559_retrytranche2_1852_22_alg».proof.Proof.KBTile
import Idealize.ShloMosaic.Adequacy
import Idealize.ShloMosaic.Init

noncomputable section

namespace Cert.Proof

open Idealize.ShloMosaic Idealize.SL.Sem

/-- The integer half of the precondition, for the word-level program. -/
theorem preOK_KB (m : (ℓ : Loc Cert.Kernel.nD Cert.Kernel.τ Cert.Kernel.sig) → Buf (Elt Bits) ℓ)
    (h : Cert.Pre_Kernel (hPre_input_domain := Cert.Pre_input_domain.Gen.facts) m) : Cert.KB.PreOK (F := Bits) m :=
  fun d j => Cert.PreSide.sf_le_of_pre (F := Bits) _ _ (h d) j

/-- The same for the idealized program. -/
theorem preOK_KI (m : (ℓ : Loc Cert.KernelIdeal.nD Cert.KernelIdeal.τ Cert.KernelIdeal.sig) → Buf (Elt Ideal) ℓ)
    (h : Cert.Pre_KernelIdeal (hPre_input_domain := Cert.Pre_input_domain.Gen.facts) m) : Cert.KI.PreOK (F := Ideal) m :=
  fun d j => Cert.PreSide.sf_le_of_pre (F := Ideal) _ _ (h d) j

theorem frame_k : Cert.frame_Kernel (hKernel := Cert.Kernel.Gen.facts) (hPre_input_domain := Cert.Pre_input_domain.Gen.facts) :=
  fun m g hpre => (θ_run Cert.Kernel.defs _ _).mono (fun _ h c => ⟨(h c).2.1, (h c).2.2⟩)
    (Cert.KB.run_main (F := Bits) m g (Cert.KB.tile_stmt (F := Bits) m (preOK_KB m hpre)))

theorem frame_ki : Cert.frame_KernelIdeal (hKernelIdeal := Cert.KernelIdeal.Gen.facts) (hPre_input_domain := Cert.Pre_input_domain.Gen.facts) :=
  fun m g hpre => (θ_run Cert.KernelIdeal.defs _ _).mono (fun _ h c => ⟨(h c).2.1, (h c).2.2⟩)
    (Cert.KI.run_main (F := Ideal) m g (Cert.KI.tile_stmt (F := Ideal) m (preOK_KI m hpre)))

theorem frame_ri : Cert.frame_ReferenceIdeal (hReferenceIdeal := Cert.ReferenceIdeal.Gen.facts) (hPre_input_domain := Cert.Pre_input_domain.Gen.facts) :=
  fun m g _ => (θ_run Cert.ReferenceIdeal.defs _ _).mono (fun _ h c => (h c).2) (Cert.RefSide.run_out (F := Ideal) m g)

/-- The ledger's entry, the same at each of its 32 sites: the table gives the name the value 1/26, and the printed constant is
    that value on the extended reals. -/
theorem one_entry : IdealRules.named_const.Statement Cert.KernelIdeal.κ "inv_26" .f32 0x3D1D89D9#32 ((1 / 26 : ℝ) : EReal) :=
  IdealRules.named_const.statement Cert.KernelIdeal.κ "inv_26" .f32 0x3D1D89D9#32 ((1 / 26 : ℝ) : EReal) rfl

theorem preserves : Cert.preserves_Kernel_KernelIdeal :=
  ⟨one_entry, one_entry, one_entry, one_entry, one_entry, one_entry, one_entry, one_entry, one_entry, one_entry, one_entry, one_entry, one_entry, one_entry, one_entry, one_entry, one_entry, one_entry, one_entry, one_entry, one_entry, one_entry, one_entry, one_entry, one_entry, one_entry, one_entry, one_entry, one_entry, one_entry, one_entry, one_entry⟩

/-- Both idealized programs end with the result array at the one function of the arguments. -/
theorem algebraic : Cert.algebraic_KernelIdeal_ReferenceIdeal (hKernelIdeal := Cert.KernelIdeal.Gen.facts) (hReferenceIdeal := Cert.ReferenceIdeal.Gen.facts)
    (hPre_input_domain := Cert.Pre_input_domain.Gen.facts) := by
  intro m g m' g' hpre hagree
  have hok := preOK_KI m hpre
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun _ h c => ⟨(h c).1.trans ?_, (h c).2.1, (h c).2.2⟩)
      (Cert.KI.run_main (F := Ideal) m g (Cert.KI.tile_stmt (F := Ideal) m hok))
    exact Cert.KI.KG_ideal _ _ (hok c)
  · refine (θ_run Cert.ReferenceIdeal.defs _ _).mono (fun _ h c => ⟨(h c).1.trans ?_, (h c).2.1, (h c).2.2⟩)
      (Cert.RefSide.run m' g' (fun c j => by rw [(hagree c).1]; exact hok c j))
    rw [(hagree c).1, (hagree c).2]

theorem claim : Cert.Claim :=
  ⟨Cert.Kernel.Gen.facts, Cert.KernelIdeal.Gen.facts, Cert.ReferenceIdeal.Gen.facts, Cert.Pre_input_domain.Gen.facts,
    frame_k, frame_ki, frame_ri, preserves, algebraic⟩

end Cert.Proof

end
